-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v18)) (v7 : (c : Dev Cert.KernelIdeal.nD) → Buf (Elt Ideal) ((c.tc : Thread Cert.KernelIdeal.nD Cert.KernelIdeal.τ).loc Cert.KernelIdeal.main_v19)) (v8 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_v19) = v7 c
          ∧ r.2.mem ((c.tc : Thread Cert.KernelIdeal.nD Cert.KernelIdeal.τ).loc Cert.KernelIdeal.main_v20) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v437) = v0 c
          ∧ r.2.mem ((c.tc : Thread Cert.ReferenceIdeal.nD Cert.ReferenceIdeal.τ).loc Cert.ReferenceIdeal.main_v451) = v1 c
          ∧ r.2.mem ((c.tc : Thread Cert.ReferenceIdeal.nD Cert.ReferenceIdeal.τ).loc Cert.ReferenceIdeal.main_v465) = v2 c
          ∧ r.2.mem ((c.tc : Thread Cert.ReferenceIdeal.nD Cert.ReferenceIdeal.τ).loc Cert.ReferenceIdeal.main_v479) = v3 c
          ∧ r.2.mem ((c.tc : Thread Cert.ReferenceIdeal.nD Cert.ReferenceIdeal.τ).loc Cert.ReferenceIdeal.main_v493) = v4 c
          ∧ r.2.mem ((c.tc : Thread Cert.ReferenceIdeal.nD Cert.ReferenceIdeal.τ).loc Cert.ReferenceIdeal.main_v507) = v5 c
          ∧ r.2.mem ((c.tc : Thread Cert.ReferenceIdeal.nD Cert.ReferenceIdeal.τ).loc Cert.ReferenceIdeal.main_v521) = v6 c
          ∧ r.2.mem ((c.tc : Thread Cert.ReferenceIdeal.nD Cert.ReferenceIdeal.τ).loc Cert.ReferenceIdeal.main_v535) = v7 c
          ∧ r.2.mem ((c.tc : Thread Cert.ReferenceIdeal.nD Cert.ReferenceIdeal.τ).loc Cert.ReferenceIdeal.main_v548) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel

variable [Facts]

def fn_part1 {F : FTy → Type} [FloatOps F] (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  main_v18

def fn {F : FTy → Type} [FloatOps F] (main_arg0 : FVec F S2000000 .f32) (main_arg1 : FVec F S2000000 .f32) (main_arg2 : FVec F S2000000 .f32) (main_arg3 : FVec F S2000000 .f32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_v13 main_v16
-- ==== Kernel.lean ====
abbrev S2000000 : Shape := ⟨1, ![2000000]⟩
abbrev S_ : Shape := ⟨0, ![]⟩
abbrev S2022400 : Shape := ⟨1, ![2022400]⟩
abbrev S15800x128 : Shape := ⟨2, ![15800, 128]⟩
abbrev S81x15800x128 : Shape := ⟨3, ![81, 15800, 128]⟩
abbrev S200x128 : Shape := ⟨2, ![200, 128]⟩
abbrev S81x200x128 : Shape := ⟨3, ![81, 200, 128]⟩
abbrev S1x200x128 : Shape := ⟨3, ![1, 200, 128]⟩
abbrev S81x2022400 : Shape := ⟨2, ![81, 2022400]⟩
abbrev S2022400x81 : Shape := ⟨2, ![2022400, 81]⟩
abbrev S2000000x81 : Shape := ⟨2, ![2000000, 81]⟩
abbrev S2000000x1 : Shape := ⟨2, ![2000000, 1]⟩
abbrev S2000000x3 : Shape := ⟨2, ![2000000, 3]⟩
abbrev S2000000x5 : Shape := ⟨2, ![2000000, 5]⟩
abbrev S2000000x7 : Shape := ⟨2, ![2000000, 7]⟩
abbrev S2000000x9 : Shape := ⟨2, ![2000000, 9]⟩
abbrev S2000000x11 : Shape := ⟨2, ![2000000, 11]⟩
abbrev S2000000x13 : Shape := ⟨2, ![2000000, 13]⟩
abbrev S2000000x15 : Shape := ⟨2, ![2000000, 15]⟩
abbrev S2000000x17 : Shape := ⟨2, ![2000000, 17]⟩

abbrev nBuf : Space → Nat
  | .hbm => 33
  | .vmem => 10
  | .smem => 0
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000, .f32⟩
  | .hbm, ⟨3, _⟩ => ⟨S2000000, .f32⟩
  | .hbm, ⟨4, _⟩ => ⟨S_, .i32⟩
  | .hbm, ⟨5, _⟩ => ⟨S_, .f32⟩
  | .hbm, ⟨6, _⟩ => ⟨S2022400, .f32⟩
  | .hbm, ⟨7, _⟩ => ⟨S_, .i32⟩
  | .hbm, ⟨8, _⟩ => ⟨S_, .f32⟩
  | .hbm, ⟨9, _⟩ => ⟨S2022400, .f32⟩
  | .hbm, ⟨10, _⟩ => ⟨S_, .i32⟩
  | .hbm, ⟨11, _⟩ => ⟨S_, .f32⟩
  | .hbm, ⟨12, _⟩ => ⟨S2022400, .f32⟩
  | .hbm, ⟨13, _⟩ => ⟨S_, .f32⟩
  | .hbm, ⟨14, _⟩ => ⟨S_, .f32⟩
  | .hbm, ⟨15, _⟩ => ⟨S2022400, .f32⟩
  | .hbm, ⟨16, _⟩ => ⟨S15800x128, .f32⟩
  | .hbm, ⟨17, _⟩ => ⟨S15800x128, .f32⟩
  | .hbm, ⟨18, _⟩ => ⟨S15800x128, .f32⟩
  | .hbm, ⟨19, _⟩ => ⟨S15800x128, .f32⟩
  | .hbm, ⟨20, _⟩ => ⟨S81x15800x128, .f32⟩
  | .hbm, ⟨21, _⟩ => ⟨S81x2022400, .f32⟩
  | .hbm, ⟨22, _⟩ => ⟨S2022400x81, .f32⟩
  | .hbm, ⟨23, _⟩ => ⟨S2000000x81, .f32⟩
  | .hbm, ⟨24, _⟩ => ⟨S2000000x1, .f32⟩
  | .hbm, ⟨25, _⟩ => ⟨S2000000x3, .f32⟩
  | .hbm, ⟨26, _⟩ => ⟨S2000000x5, .f32⟩
  | .hbm, ⟨27, _⟩ => ⟨S2000000x7, .f32⟩
  | .hbm, ⟨28, _⟩ => ⟨S2000000x9, .f32⟩
  | .hbm, ⟨29, _⟩ => ⟨S2000000x11, .f32⟩
  | .hbm, ⟨30, _⟩ => ⟨S2000000x13, .f32⟩
  | .hbm, ⟨31, _⟩ => ⟨S2000000x15, .f32⟩
  | .hbm, ⟨32, _⟩ => ⟨S2000000x17, .f32⟩
  | .local _ .vmem, ⟨0, _⟩ => ⟨S200x128, .f32⟩
  | .local _ .vmem, ⟨1, _⟩ => ⟨S200x128, .f32⟩
  | .local _ .vmem, ⟨2, _⟩ => ⟨S200x128, .f32⟩
  | .local _ .vmem, ⟨3, _⟩ => ⟨S200x128, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | .local _ .vmem, ⟨8, _⟩ => ⟨S81x200x128, .f32⟩
  | .local _ .vmem, ⟨9, _⟩ => ⟨S81x200x128, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_cst : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S81x200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S2000000_S2022400_0224000 : S2000000.Pads (![0] : Fin 1 → Nat) ![22400] ![0] S2022400
  h_S_ : 0 < S_.numel
  shapeCasts_S2022400_S15800x128 : S2022400.ShapeCasts S15800x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S81x200x128_S1x200x128_0_0_0 : ∀ a, (![0, 0, 0] : Fin 3 → Nat) a + S1x200x128.size a ≤ S81x200x128.size a
  h_S1x200x128 : 0 < S1x200x128.numel
  shapeCasts_S1x200x128_S200x128 : S1x200x128.ShapeCasts S200x128
  shapeCasts_S200x128_S1x200x128 : S200x128.ShapeCasts S1x200x128
  inb_S81x200x128_S1x200x128_1_0_0 : ∀ a, (![1, 0, 0] : Fin 3 → Nat) a + S1x200x128.size a ≤ S81x200x128.size a
  inb_S81x200x128_S1x200x128_2_0_0 : ∀ a, (![2, 0, 0] : Fin 3 → Nat) a + S1x200x128.size a ≤ S81x200x128.size a
  inb_S81x200x128_S1x200x128_3_0_0 : ∀ a, (![3, 0, 0] : Fin 3 → Nat) a + S1x200x128.size a ≤ S81x200x128.size a
  inb_S81x200x128_S1x200x128_4_0_0 : ∀ a, (![4, 0, 0] : Fin 3 → Nat) a + S1x200x128.size a ≤ S81x200x128.size a
  inb_S81x200x128_S1x200x128_5_0_0 : ∀ a, (![5, 0, 0] : Fin 3 → Nat) a + S1x200x128.size a ≤ S81x200x128.size a
  inb_S81x200x128_S1x200x128_6_0_0 : ∀ a, (![6, 0, 0] : Fin 3 → Nat) a + S1x200x128.size a ≤ S81x200x128.size a
  inb_S81x200x128_S1x200x128_7_0_0 : ∀ a, (![7, 0, 0] : Fin 3 → Nat) a + S1x200x128.size a ≤ S81x200x128.size a
  inb_S81x200x128_S1x200x128_8_0_0 : ∀ a, (![8, 0, 0] : Fin 3 → Nat) a + S1x200x128.size a ≤ S81x200x128.size a
  inb_S81x200x128_S1x200x128_9_0_0 : ∀ a, (![9, 0, 0] : Fin 3 → Nat) a + S1x200x128.size a ≤ S81x200x128.size a
  inb_S81x200x128_S1x200x128_10_0_0 : ∀ a, (![10, 0, 0] : Fin 3 → Nat) a + S1x200x128.size a ≤ S81x200x128.size a
  inb_S81x200x128_S1x200x128_11_0_0 : ∀ a, (![11, 0, 0] : Fin 3 → Nat) a + S1x200x128.size a ≤ S81x200x128.size a
  inb_S81x200x128_S1x200x128_12_0_0 : ∀ a, (![12, 0, 0] : Fin 3 → Nat) a + S1x200x128.size a ≤ S81x200x128.size a
  inb_S81x200x128_S1x200x128_13_0_0 : ∀ a, (![13, 0, 0] : Fin 3 → Nat) a + S1x200x128.size a ≤ S81x200x128.size a
  inb_S81x200x128_S1x200x128_14_0_0 : ∀ a, (![14, 0, 0] : Fin 3 → Nat) a + S1x200x128.size a ≤ S81x200x128.size a
  inb_S81x200x128_S1x200x128_15_0_0 : ∀ a, (![15, 0, 0] : Fin 3 → Nat) a + S1x200x128.size a ≤ S81x200x128.size a
  inb_S81x200x128_S1x200x128_16_0_0 : ∀ a, (![16, 0, 0] : Fin 3 → Nat) a + S1x200x128.size a ≤ S81x200x128.size a
  inb_S81x200x128_S1x200x128_17_0_0 : ∀ a, (![17, 0, 0] : Fin 3 → Nat) a + S1x200x128.size a ≤ S81x200x128.size a
  inb_S81x200x128_S1x200x128_18_0_0 : ∀ a, (![18, 0, 0] : Fin 3 → Nat) a + S1x200x128.size a ≤ S81x200x128.size a
  inb_S81x200x128_S1x200x128_19_0_0 : ∀ a, (![19, 0, 0] : Fin 3 → Nat) a + S1x200x128.size a ≤ S81x200x128.size a
  inb_S81x200x128_S1x200x128_20_0_0 : ∀ a, (![20, 0, 0] : Fin 3 → Nat) a + S1x200x128.size a ≤ S81x200x128.size a
  inb_S81x200x128_S1x200x128_21_0_0 : ∀ a, (![21, 0, 0] : Fin 3 → Nat) a + S1x200x128.size a ≤ S81x200x128.size a
  inb_S81x200x128_S1x200x128_22_0_0 : ∀ a, (![22, 0, 0] : Fin 3 → Nat) a + S1x200x128.size a ≤ S81x200x128.size a
  inb_S81x200x128_S1x200x128_23_0_0 : ∀ a, (![23, 0, 0] : Fin 3 → Nat) a + S1x200x128.size a ≤ S81x200x128.size a
  inb_S81x200x128_S1x200x128_24_0_0 : ∀ a, (![24, 0, 0] : Fin 3 → Nat) a + S1x200x128.size a ≤ S81x200x128.size a
  inb_S81x200x128_S1x200x128_25_0_0 : ∀ a, (![25, 0, 0] : Fin 3 → Nat) a + S1x200x128.size a ≤ S81x200x128.size a
  inb_S81x200x128_S1x200x128_26_0_0 : ∀ a, (![26, 0, 0] : Fin 3 → Nat) a + S1x200x128.size a ≤ S81x200x128.size a
  inb_S81x200x128_S1x200x128_27_0_0 : ∀ a, (![27, 0, 0] : Fin 3 → Nat) a + S1x200x128.size a ≤ S81x200x128.size a
  inb_S81x200x128_S1x200x128_28_0_0 : ∀ a, (![28, 0, 0] : Fin 3 → Nat) a + S1x200x128.size a ≤ S81x200x128.size a
  inb_S81x200x128_S1x200x128_29_0_0 : ∀ a, (![29, 0, 0] : Fin 3 → Nat) a + S1x200x128.size a ≤ S81x200x128.size a
  inb_S81x200x128_S1x200x128_30_0_0 : ∀ a, (![30, 0, 0] : Fin 3 → Nat) a + S1x200x128.size a ≤ S81x200x128.size a
  inb_S81x200x128_S1x200x128_31_0_0 : ∀ a, (![31, 0, 0] : Fin 3 → Nat) a + S1x200x128.size a ≤ S81x200x128.size a
  inb_S81x200x128_S1x200x128_32_0_0 : ∀ a, (![32, 0, 0] : Fin 3 → Nat) a + S1x200x128.size a ≤ S81x200x128.size a
  inb_S81x200x128_S1x200x128_33_0_0 : ∀ a, (![33, 0, 0] : Fin 3 → Nat) a + S1x200x128.size a ≤ S81x200x128.size a
  inb_S81x200x128_S1x200x128_34_0_0 : ∀ a, (![34, 0, 0] : Fin 3 → Nat) a + S1x200x128.size a ≤ S81x200x128.size a
  inb_S81x200x128_S1x200x128_35_0_0 : ∀ a, (![35, 0, 0] : Fin 3 → Nat) a + S1x200x128.size a ≤ S81x200x128.size a
  inb_S81x200x128_S1x200x128_36_0_0 : ∀ a, (![36, 0, 0] : Fin 3 → Nat) a + S1x200x128.size a ≤ S81x200x128.size a
  inb_S81x200x128_S1x200x128_37_0_0 : ∀ a, (![37, 0, 0] : Fin 3 → Nat) a + S1x200x128.size a ≤ S81x200x128.size a
  inb_S81x200x128_S1x200x128_38_0_0 : ∀ a, (![38, 0, 0] : Fin 3 → Nat) a + S1x200x128.size a ≤ S81x200x128.size a
  inb_S81x200x128_S1x200x128_39_0_0 : ∀ a, (![39, 0, 0] : Fin 3 → Nat) a + S1x200x128.size a ≤ S81x200x128.size a
  inb_S81x200x128_S1x200x128_40_0_0 : ∀ a, (![40, 0, 0] : Fin 3 → Nat) a + S1x200x128.size a ≤ S81x200x128.size a
  inb_S81x200x128_S1x200x128_41_0_0 : ∀ a, (![41, 0, 0] : Fin 3 → Nat) a + S1x200x128.size a ≤ S81x200x128.size a
  inb_S81x200x128_S1x200x128_42_0_0 : ∀ a, (![42, 0, 0] : Fin 3 → Nat) a + S1x200x128.size a ≤ S81x200x128.size a
  inb_S81x200x128_S1x200x128_43_0_0 : ∀ a, (![43, 0, 0] : Fin 3 → Nat) a + S1x200x128.size a ≤ S81x200x128.size a
  inb_S81x200x128_S1x200x128_44_0_0 : ∀ a, (![44, 0, 0] : Fin 3 → Nat) a + S1x200x128.size a ≤ S81x200x128.size a
  inb_S81x200x128_S1x200x128_45_0_0 : ∀ a, (![45, 0, 0] : Fin 3 → Nat) a + S1x200x128.size a ≤ S81x200x128.size a
  inb_S81x200x128_S1x200x128_46_0_0 : ∀ a, (![46, 0, 0] : Fin 3 → Nat) a + S1x200x128.size a ≤ S81x200x128.size a
  inb_S81x200x128_S1x200x128_47_0_0 : ∀ a, (![47, 0, 0] : Fin 3 → Nat) a + S1x200x128.size a ≤ S81x200x128.size a
  inb_S81x200x128_S1x200x128_48_0_0 : ∀ a, (![48, 0, 0] : Fin 3 → Nat) a + S1x200x128.size a ≤ S81x200x128.size a
  inb_S81x200x128_S1x200x128_49_0_0 : ∀ a, (![49, 0, 0] : Fin 3 → Nat) a + S1x200x128.size a ≤ S81x200x128.size a
  inb_S81x200x128_S1x200x128_50_0_0 : ∀ a, (![50, 0, 0] : Fin 3 → Nat) a + S1x200x128.size a ≤ S81x200x128.size a
  inb_S81x200x128_S1x200x128_51_0_0 : ∀ a, (![51, 0, 0] : Fin 3 → Nat) a + S1x200x128.size a ≤ S81x200x128.size a
  inb_S81x200x128_S1x200x128_52_0_0 : ∀ a, (![52, 0, 0] : Fin 3 → Nat) a + S1x200x128.size a ≤ S81x200x128.size a
  inb_S81x200x128_S1x200x128_53_0_0 : ∀ a, (![53, 0, 0] : Fin 3 → Nat) a + S1x200x128.size a ≤ S81x200x128.size a
  inb_S81x200x128_S1x200x128_54_0_0 : ∀ a, (![54, 0, 0] : Fin 3 → Nat) a + S1x200x128.size a ≤ S81x200x128.size a
  inb_S81x200x128_S1x200x128_55_0_0 : ∀ a, (![55, 0, 0] : Fin 3 → Nat) a + S1x200x128.size a ≤ S81x200x128.size a
  inb_S81x200x128_S1x200x128_56_0_0 : ∀ a, (![56, 0, 0] : Fin 3 → Nat) a + S1x200x128.size a ≤ S81x200x128.size a
  inb_S81x200x128_S1x200x128_57_0_0 : ∀ a, (![57, 0, 0] : Fin 3 → Nat) a + S1x200x128.size a ≤ S81x200x128.size a
  inb_S81x200x128_S1x200x128_58_0_0 : ∀ a, (![58, 0, 0] : Fin 3 → Nat) a + S1x200x128.size a ≤ S81x200x128.size a
  inb_S81x200x128_S1x200x128_59_0_0 : ∀ a, (![59, 0, 0] : Fin 3 → Nat) a + S1x200x128.size a ≤ S81x200x128.size a
  inb_S81x200x128_S1x200x128_60_0_0 : ∀ a, (![60, 0, 0] : Fin 3 → Nat) a + S1x200x128.size a ≤ S81x200x128.size a
  inb_S81x200x128_S1x200x128_61_0_0 : ∀ a, (![61, 0, 0] : Fin 3 → Nat) a + S1x200x128.size a ≤ S81x200x128.size a
  inb_S81x200x128_S1x200x128_62_0_0 : ∀ a, (![62, 0, 0] : Fin 3 → Nat) a + S1x200x128.size a ≤ S81x200x128.size a
  inb_S81x200x128_S1x200x128_63_0_0 : ∀ a, (![63, 0, 0] : Fin 3 → Nat) a + S1x200x128.size a ≤ S81x200x128.size a
  inb_S81x200x128_S1x200x128_64_0_0 : ∀ a, (![64, 0, 0] : Fin 3 → Nat) a + S1x200x128.size a ≤ S81x200x128.size a
  inb_S81x200x128_S1x200x128_65_0_0 : ∀ a, (![65, 0, 0] : Fin 3 → Nat) a + S1x200x128.size a ≤ S81x200x128.size a
  inb_S81x200x128_S1x200x128_66_0_0 : ∀ a, (![66, 0, 0] : Fin 3 → Nat) a + S1x200x128.size a ≤ S81x200x128.size a
  inb_S81x200x128_S1x200x128_67_0_0 : ∀ a, (![67, 0, 0] : Fin 3 → Nat) a + S1x200x128.size a ≤ S81x200x128.size a
  inb_S81x200x128_S1x200x128_68_0_0 : ∀ a, (![68, 0, 0] : Fin 3 → Nat) a + S1x200x128.size a ≤ S81x200x128.size a
  inb_S81x200x128_S1x200x128_69_0_0 : ∀ a, (![69, 0, 0] : Fin 3 → Nat) a + S1x200x128.size a ≤ S81x200x128.size a
  inb_S81x200x128_S1x200x128_70_0_0 : ∀ a, (![70, 0, 0] : Fin 3 → Nat) a + S1x200x128.size a ≤ S81x200x128.size a
  inb_S81x200x128_S1x200x128_71_0_0 : ∀ a, (![71, 0, 0] : Fin 3 → Nat) a + S1x200x128.size a ≤ S81x200x128.size a
  inb_S81x200x128_S1x200x128_72_0_0 : ∀ a, (![72, 0, 0] : Fin 3 → Nat) a + S1x200x128.size a ≤ S81x200x128.size a
  inb_S81x200x128_S1x200x128_73_0_0 : ∀ a, (![73, 0, 0] : Fin 3 → Nat) a + S1x200x128.size a ≤ S81x200x128.size a
  inb_S81x200x128_S1x200x128_74_0_0 : ∀ a, (![74, 0, 0] : Fin 3 → Nat) a + S1x200x128.size a ≤ S81x200x128.size a
  inb_S81x200x128_S1x200x128_75_0_0 : ∀ a, (![75, 0, 0] : Fin 3 → Nat) a + S1x200x128.size a ≤ S81x200x128.size a
  inb_S81x200x128_S1x200x128_76_0_0 : ∀ a, (![76, 0, 0] : Fin 3 → Nat) a + S1x200x128.size a ≤ S81x200x128.size a
  inb_S81x200x128_S1x200x128_77_0_0 : ∀ a, (![77, 0, 0] : Fin 3 → Nat) a + S1x200x128.size a ≤ S81x200x128.size a
  inb_S81x200x128_S1x200x128_78_0_0 : ∀ a, (![78, 0, 0] : Fin 3 → Nat) a + S1x200x128.size a ≤ S81x200x128.size a
  inb_S81x200x128_S1x200x128_79_0_0 : ∀ a, (![79, 0, 0] : Fin 3 → Nat) a + S1x200x128.size a ≤ S81x200x128.size a
  inb_S81x200x128_S1x200x128_80_0_0 : ∀ a, (![80, 0, 0] : Fin 3 → Nat) a + S1x200x128.size a ≤ S81x200x128.size a
  shapeCasts_S81x15800x128_S81x2022400 : S81x15800x128.ShapeCasts S81x2022400
  transposes_S81x2022400_S2022400x81_1_0 : S81x2022400.Transposes [1, 0] S2022400x81
  slices_S2022400x81_S2000000x81_0_0 : S2022400x81.Slices ![0, 0] S2000000x81
  slices_S2000000x81_S2000000x1_0_0 : S2000000x81.Slices ![0, 0] S2000000x1
  slices_S2000000x81_S2000000x3_0_1 : S2000000x81.Slices ![0, 1] S2000000x3
  slices_S2000000x81_S2000000x5_0_4 : S2000000x81.Slices ![0, 4] S2000000x5
  slices_S2000000x81_S2000000x7_0_9 : S2000000x81.Slices ![0, 9] S2000000x7
  slices_S2000000x81_S2000000x9_0_16 : S2000000x81.Slices ![0, 16] S2000000x9
  slices_S2000000x81_S2000000x11_0_25 : S2000000x81.Slices ![0, 25] S2000000x11
  slices_S2000000x81_S2000000x13_0_36 : S2000000x81.Slices ![0, 36] S2000000x13
  slices_S2000000x81_S2000000x15_0_49 : S2000000x81.Slices ![0, 49] S2000000x15
  slices_S2000000x81_S2000000x17_0_64 : S2000000x81.Slices ![0, 64] S2000000x17
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S15800x128.size a
  hwx0_0 : ∀ i : grid0.Coords, EltTy.bits .f32 = 32 ∨ (Rect.block (s := S15800x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S15800x128.size a
  hwx0_1 : ∀ i : grid0.Coords, EltTy.bits .f32 = 32 ∨ (Rect.block (s := S15800x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S15800x128.size a
  hwx0_2 : ∀ i : grid0.Coords, EltTy.bits .f32 = 32 ∨ (Rect.block (s := S15800x128) S200x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S15800x128.size a
  hwx0_3 : ∀ i : grid0.Coords, EltTy.bits .f32 = 32 ∨ (Rect.block (s := S15800x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S81x200x128.size a ≤ S81x15800x128.size a
  hwx0_4 : ∀ i : grid0.Coords, EltTy.bits .f32 = 32 ∨ (Rect.block (s := S81x15800x128) S81x200x128.size (cc0_transform_4 i) (hinb0_4 i)).WholeWords (EltTy.packing .f32)

variable [Facts₀]

abbrev win0_0 : Pipeline.Window sig grid0 :=
  Pipeline.Window.ofSpec (Memref.whole main_v4) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S81x200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000 : Shape := ⟨1, ![2000000]⟩
abbrev S1 : Shape := ⟨1, ![1]⟩
abbrev S3 : Shape := ⟨1, ![3]⟩
abbrev S5 : Shape := ⟨1, ![5]⟩
abbrev S7 : Shape := ⟨1, ![7]⟩
abbrev S9 : Shape := ⟨1, ![9]⟩
abbrev S11 : Shape := ⟨1, ![11]⟩
abbrev S13 : Shape := ⟨1, ![13]⟩
abbrev S15 : Shape := ⟨1, ![15]⟩
abbrev S17 : Shape := ⟨1, ![17]⟩
abbrev S_ : Shape := ⟨0, ![]⟩
abbrev S2000000x1 : Shape := ⟨2, ![2000000, 1]⟩
abbrev S2000000x2 : Shape := ⟨2, ![2000000, 2]⟩
abbrev S2000000x3 : Shape := ⟨2, ![2000000, 3]⟩
abbrev S2000000x4 : Shape := ⟨2, ![2000000, 4]⟩
abbrev S2000000x5 : Shape := ⟨2, ![2000000, 5]⟩
abbrev S2000000x6 : Shape := ⟨2, ![2000000, 6]⟩
abbrev S2000000x7 : Shape := ⟨2, ![2000000, 7]⟩
abbrev S2000000x8 : Shape := ⟨2, ![2000000, 8]⟩
abbrev S2000000x9 : Shape := ⟨2, ![2000000, 9]⟩
abbrev S2000000x17 : Shape := ⟨2, ![2000000, 17]⟩
abbrev S1x1 : Shape := ⟨2, ![1, 1]⟩
abbrev S3x1 : Shape := ⟨2, ![3, 1]⟩
abbrev S1x3 : Shape := ⟨2, ![1, 3]⟩
abbrev S5x1 : Shape := ⟨2, ![5, 1]⟩
abbrev S1x5 : Shape := ⟨2, ![1, 5]⟩
abbrev S7x1 : Shape := ⟨2, ![7, 1]⟩
abbrev S1x7 : Shape := ⟨2, ![1, 7]⟩
abbrev S9x1 : Shape := ⟨2, ![9, 1]⟩
abbrev S1x9 : Shape := ⟨2, ![1, 9]⟩
abbrev S11x1 : Shape := ⟨2, ![11, 1]⟩
abbrev S2000000x11 : Shape := ⟨2, ![2000000, 11]⟩
abbrev S1x11 : Shape := ⟨2, ![1, 11]⟩
abbrev S13x1 : Shape := ⟨2, ![13, 1]⟩
abbrev S2000000x13 : Shape := ⟨2, ![2000000, 13]⟩
abbrev S1x13 : Shape := ⟨2, ![1, 13]⟩
abbrev S15x1 : Shape := ⟨2, ![15, 1]⟩
abbrev S2000000x15 : Shape := ⟨2, ![2000000, 15]⟩
abbrev S1x15 : Shape := ⟨2, ![1, 15]⟩
abbrev S17x1 : Shape := ⟨2, ![17, 1]⟩
abbrev S1x17 : Shape := ⟨2, ![1, 17]⟩

abbrev nBuf : Space → Nat
  | .hbm => 696
  | .vmem => 0
  | .smem => 0
  | _ => 0

abbrev hbmTy0_0 (i : Nat) : BufTy := match i % 128 with
  | 0 => ⟨S2000000, .f32⟩
  | 1 => ⟨S2000000, .f32⟩
  | 2 => ⟨S2000000, .f32⟩
  | 3 => ⟨S2000000, .f32⟩
  | 4 => ⟨S1, .f32⟩
  | 5 => ⟨S1, .i32⟩
  | 6 => ⟨S1, .i1⟩
  | 7 => ⟨S3, .f32⟩
  | 8 => ⟨S3, .i32⟩
  | 9 => ⟨S3, .i1⟩
  | 10 => ⟨S5, .f32⟩
  | 11 => ⟨S5, .i32⟩
  | 12 => ⟨S5, .i1⟩
  | 13 => ⟨S7, .f32⟩
  | 14 => ⟨S7, .i32⟩
  | 15 => ⟨S7, .i1⟩
  | 16 => ⟨S9, .f32⟩
  | 17 => ⟨S9, .i32⟩
  | 18 => ⟨S9, .i1⟩
  | 19 => ⟨S11, .f32⟩
  | 20 => ⟨S11, .i32⟩
  | 21 => ⟨S11, .i1⟩
  | 22 => ⟨S13, .f32⟩
  | 23 => ⟨S13, .i32⟩
  | 24 => ⟨S13, .i1⟩
  | 25 => ⟨S15, .f32⟩
  | 26 => ⟨S15, .i32⟩
  | 27 => ⟨S15, .i1⟩
  | 28 => ⟨S17, .f32⟩
  | 29 => ⟨S17, .i32⟩
  | 30 => ⟨S17, .i1⟩
  | 31 => ⟨S_, .f32⟩
  | 32 => ⟨S2000000, .f32⟩
  | 33 => ⟨S_, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S2000000, .f32⟩
  | 94 => ⟨S_, .f32⟩
  | 95 => ⟨S2000000, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S_, .f32⟩
  | 127 => ⟨S2000000, .f32⟩
  | _ => ⟨S2000000, .f32⟩

abbrev hbmTy0_1 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S2000000, .f32⟩
  | 7 => ⟨S_, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S2000000, .f32⟩
  | 14 => ⟨S_, .f32⟩
  | 15 => ⟨S2000000, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S_, .f32⟩
  | 59 => ⟨S2000000, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S_, .f32⟩
  | 71 => ⟨S2000000, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S_, .f32⟩
  | 95 => ⟨S2000000, .f32⟩
  | 96 => ⟨S2000000, .f32⟩
  | 97 => ⟨S2000000, .f32⟩
  | 98 => ⟨S_, .f32⟩
  | 99 => ⟨S2000000, .f32⟩
  | 100 => ⟨S2000000, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S2000000, .f32⟩
  | 127 => ⟨S_, .f32⟩
  | _ => ⟨S2000000, .f32⟩

abbrev hbmTy0_2 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S_, .f32⟩
  | 15 => ⟨S2000000, .f32⟩
  | 16 => ⟨S2000000, .f32⟩
  | 17 => ⟨S2000000, .f32⟩
  | 18 => ⟨S_, .f32⟩
  | 19 => ⟨S2000000, .f32⟩
  | 20 => ⟨S2000000, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S2000000, .f32⟩
  | 83 => ⟨S_, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S2000000, .f32⟩
  | 94 => ⟨S2000000, .f32⟩
  | 95 => ⟨S_, .f32⟩
  | 96 => ⟨S2000000, .f32⟩
  | 97 => ⟨S2000000, .f32⟩
  | 98 => ⟨S_, .f32⟩
  | 99 => ⟨S2000000, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S_, .f32⟩
  | 127 => ⟨S2000000, .f32⟩
  | _ => ⟨S2000000, .f32⟩

abbrev hbmTy0_3 (i : Nat) : BufTy := match i % 128 with
  | 0 => ⟨S2000000, .f32⟩
  | 1 => ⟨S2000000, .f32⟩
  | 2 => ⟨S2000000, .f32⟩
  | 3 => ⟨S_, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S_, .f32⟩
  | 19 => ⟨S2000000, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000x1, .f32⟩
  | 43 => ⟨S2000000x1, .f32⟩
  | 44 => ⟨S2000000x1, .f32⟩
  | 45 => ⟨S2000000x2, .f32⟩
  | 46 => ⟨S2000000x1, .f32⟩
  | 47 => ⟨S2000000x1, .f32⟩
  | 48 => ⟨S2000000x1, .f32⟩
  | 49 => ⟨S2000000x3, .f32⟩
  | 50 => ⟨S2000000x1, .f32⟩
  | 51 => ⟨S2000000x1, .f32⟩
  | 52 => ⟨S2000000x1, .f32⟩
  | 53 => ⟨S2000000x1, .f32⟩
  | 54 => ⟨S2000000x4, .f32⟩
  | 55 => ⟨S2000000x1, .f32⟩
  | 56 => ⟨S2000000x1, .f32⟩
  | 57 => ⟨S2000000x1, .f32⟩
  | 58 => ⟨S2000000x1, .f32⟩
  | 59 => ⟨S2000000x1, .f32⟩
  | 60 => ⟨S2000000x5, .f32⟩
  | 61 => ⟨S2000000x1, .f32⟩
  | 62 => ⟨S2000000x1, .f32⟩
  | 63 => ⟨S2000000x1, .f32⟩
  | 64 => ⟨S2000000x1, .f32⟩
  | 65 => ⟨S2000000x1, .f32⟩
  | 66 => ⟨S2000000x1, .f32⟩
  | 67 => ⟨S2000000x6, .f32⟩
  | 68 => ⟨S2000000x1, .f32⟩
  | 69 => ⟨S2000000x1, .f32⟩
  | 70 => ⟨S2000000x1, .f32⟩
  | 71 => ⟨S2000000x1, .f32⟩
  | 72 => ⟨S2000000x1, .f32⟩
  | 73 => ⟨S2000000x1, .f32⟩
  | 74 => ⟨S2000000x1, .f32⟩
  | 75 => ⟨S2000000x7, .f32⟩
  | 76 => ⟨S2000000x1, .f32⟩
  | 77 => ⟨S2000000x1, .f32⟩
  | 78 => ⟨S2000000x1, .f32⟩
  | 79 => ⟨S2000000x1, .f32⟩
  | 80 => ⟨S2000000x1, .f32⟩
  | 81 => ⟨S2000000x1, .f32⟩
  | 82 => ⟨S2000000x1, .f32⟩
  | 83 => ⟨S2000000x1, .f32⟩
  | 84 => ⟨S2000000x8, .f32⟩
  | 85 => ⟨S2000000x1, .f32⟩
  | 86 => ⟨S2000000x1, .f32⟩
  | 87 => ⟨S2000000x1, .f32⟩
  | 88 => ⟨S2000000x1, .f32⟩
  | 89 => ⟨S2000000x1, .f32⟩
  | 90 => ⟨S2000000x1, .f32⟩
  | 91 => ⟨S2000000x1, .f32⟩
  | 92 => ⟨S2000000x1, .f32⟩
  | 93 => ⟨S2000000x1, .f32⟩
  | 94 => ⟨S2000000x9, .f32⟩
  | 95 => ⟨S_, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S2000000, .f32⟩
  | 102 => ⟨S2000000, .f32⟩
  | 103 => ⟨S2000000, .f32⟩
  | 104 => ⟨S2000000, .f32⟩
  | 105 => ⟨S2000000, .f32⟩
  | 106 => ⟨S2000000, .f32⟩
  | 107 => ⟨S2000000, .f32⟩
  | 108 => ⟨S2000000, .f32⟩
  | 109 => ⟨S2000000, .f32⟩
  | 110 => ⟨S2000000, .f32⟩
  | 111 => ⟨S2000000, .f32⟩
  | 112 => ⟨S2000000, .f32⟩
  | 113 => ⟨S2000000, .f32⟩
  | 114 => ⟨S2000000, .f32⟩
  | 115 => ⟨S2000000, .f32⟩
  | 116 => ⟨S2000000, .f32⟩
  | 117 => ⟨S2000000, .f32⟩
  | 118 => ⟨S2000000, .f32⟩
  | 119 => ⟨S2000000, .f32⟩
  | 120 => ⟨S2000000, .f32⟩
  | 121 => ⟨S2000000, .f32⟩
  | 122 => ⟨S2000000, .f32⟩
  | 123 => ⟨S2000000, .f32⟩
  | 124 => ⟨S2000000, .f32⟩
  | 125 => ⟨S2000000, .f32⟩
  | 126 => ⟨S2000000, .f32⟩
  | 127 => ⟨S2000000, .f32⟩
  | _ => ⟨S2000000, .f32⟩

abbrev hbmTy0_4 (i : Nat) : BufTy := match i % 128 with
  | 0 => ⟨S2000000, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S2000000, .f32⟩
  | 7 => ⟨S2000000, .f32⟩
  | 8 => ⟨S2000000, .f32⟩
  | 9 => ⟨S2000000, .f32⟩
  | 10 => ⟨S2000000, .f32⟩
  | 11 => ⟨S2000000, .f32⟩
  | 12 => ⟨S2000000, .f32⟩
  | 13 => ⟨S2000000, .f32⟩
  | 14 => ⟨S2000000, .f32⟩
  | 15 => ⟨S2000000, .f32⟩
  | 16 => ⟨S2000000, .f32⟩
  | 17 => ⟨S2000000, .f32⟩
  | 18 => ⟨S2000000, .f32⟩
  | 19 => ⟨S2000000x1, .f32⟩
  | 20 => ⟨S2000000x1, .f32⟩
  | 21 => ⟨S2000000x1, .f32⟩
  | 22 => ⟨S2000000x1, .f32⟩
  | 23 => ⟨S2000000x1, .f32⟩
  | 24 => ⟨S2000000x1, .f32⟩
  | 25 => ⟨S2000000x1, .f32⟩
  | 26 => ⟨S2000000x1, .f32⟩
  | 27 => ⟨S2000000x1, .f32⟩
  | 28 => ⟨S2000000x9, .f32⟩
  | 29 => ⟨S2000000x1, .f32⟩
  | 30 => ⟨S2000000x1, .f32⟩
  | 31 => ⟨S2000000x1, .f32⟩
  | 32 => ⟨S2000000x1, .f32⟩
  | 33 => ⟨S2000000x1, .f32⟩
  | 34 => ⟨S2000000x1, .f32⟩
  | 35 => ⟨S2000000x1, .f32⟩
  | 36 => ⟨S2000000x1, .f32⟩
  | 37 => ⟨S2000000x1, .f32⟩
  | 38 => ⟨S2000000x9, .f32⟩
  | 39 => ⟨S2000000x8, .f32⟩
  | 40 => ⟨S2000000x8, .f32⟩
  | 41 => ⟨S_, .f32⟩
  | 42 => ⟨S2000000, .f32⟩
  | 43 => ⟨S2000000x1, .f32⟩
  | 44 => ⟨S_, .f32⟩
  | 45 => ⟨S2000000x1, .f32⟩
  | 46 => ⟨S2000000x1, .f32⟩
  | 47 => ⟨S2000000x8, .f32⟩
  | 48 => ⟨S2000000x17, .f32⟩
  | 49 => ⟨S_, .f32⟩
  | 50 => ⟨S2000000, .f32⟩
  | 51 => ⟨S_, .i32⟩
  | 52 => ⟨S1, .i32⟩
  | 53 => ⟨S1, .i32⟩
  | 54 => ⟨S1, .i32⟩
  | 55 => ⟨S1x1, .i32⟩
  | 56 => ⟨S2000000x1, .f32⟩
  | 57 => ⟨S1x1, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000, .f32⟩
  | 65 => ⟨S_, .i32⟩
  | 66 => ⟨S3, .i32⟩
  | 67 => ⟨S3, .i32⟩
  | 68 => ⟨S3, .i32⟩
  | 69 => ⟨S3x1, .i32⟩
  | 70 => ⟨S2000000x3, .f32⟩
  | 71 => ⟨S1x3, .f32⟩
  | 72 => ⟨S2000000x3, .f32⟩
  | 73 => ⟨S2000000x3, .f32⟩
  | 74 => ⟨S2000000x3, .f32⟩
  | 75 => ⟨S2000000x3, .f32⟩
  | 76 => ⟨S2000000x1, .f32⟩
  | 77 => ⟨S2000000x3, .f32⟩
  | 78 => ⟨S2000000x3, .f32⟩
  | 79 => ⟨S2000000, .f32⟩
  | 80 => ⟨S_, .i32⟩
  | 81 => ⟨S5, .i32⟩
  | 82 => ⟨S5, .i32⟩
  | 83 => ⟨S5, .i32⟩
  | 84 => ⟨S5x1, .i32⟩
  | 85 => ⟨S2000000x5, .f32⟩
  | 86 => ⟨S1x5, .f32⟩
  | 87 => ⟨S2000000x5, .f32⟩
  | 88 => ⟨S2000000x5, .f32⟩
  | 89 => ⟨S2000000x5, .f32⟩
  | 90 => ⟨S2000000x5, .f32⟩
  | 91 => ⟨S2000000x1, .f32⟩
  | 92 => ⟨S2000000x5, .f32⟩
  | 93 => ⟨S2000000x5, .f32⟩
  | 94 => ⟨S2000000, .f32⟩
  | 95 => ⟨S_, .i32⟩
  | 96 => ⟨S7, .i32⟩
  | 97 => ⟨S7, .i32⟩
  | 98 => ⟨S7, .i32⟩
  | 99 => ⟨S7x1, .i32⟩
  | 100 => ⟨S2000000x7, .f32⟩
  | 101 => ⟨S1x7, .f32⟩
  | 102 => ⟨S2000000x7, .f32⟩
  | 103 => ⟨S2000000x7, .f32⟩
  | 104 => ⟨S2000000x7, .f32⟩
  | 105 => ⟨S2000000x7, .f32⟩
  | 106 => ⟨S2000000x1, .f32⟩
  | 107 => ⟨S2000000x7, .f32⟩
  | 108 => ⟨S2000000x7, .f32⟩
  | 109 => ⟨S2000000, .f32⟩
  | 110 => ⟨S_, .i32⟩
  | 111 => ⟨S9, .i32⟩
  | 112 => ⟨S9, .i32⟩
  | 113 => ⟨S9, .i32⟩
  | 114 => ⟨S9x1, .i32⟩
  | 115 => ⟨S2000000x9, .f32⟩
  | 116 => ⟨S1x9, .f32⟩
  | 117 => ⟨S2000000x9, .f32⟩
  | 118 => ⟨S2000000x9, .f32⟩
  | 119 => ⟨S2000000x9, .f32⟩
  | 120 => ⟨S2000000x9, .f32⟩
  | 121 => ⟨S2000000x1, .f32⟩
  | 122 => ⟨S2000000x9, .f32⟩
  | 123 => ⟨S2000000x9, .f32⟩
  | 124 => ⟨S2000000, .f32⟩
  | 125 => ⟨S_, .i32⟩
  | 126 => ⟨S11, .i32⟩
  | 127 => ⟨S11, .i32⟩
  | _ => ⟨S2000000, .f32⟩

abbrev hbmTy0_5 (i : Nat) : BufTy := match i % 128 with
  | 0 => ⟨S11, .i32⟩
  | 1 => ⟨S11x1, .i32⟩
  | 2 => ⟨S2000000x11, .f32⟩
  | 3 => ⟨S1x11, .f32⟩
  | 4 => ⟨S2000000x11, .f32⟩
  | 5 => ⟨S2000000x11, .f32⟩
  | 6 => ⟨S2000000x11, .f32⟩
  | 7 => ⟨S2000000x11, .f32⟩
  | 8 => ⟨S2000000x1, .f32⟩
  | 9 => ⟨S2000000x11, .f32⟩
  | 10 => ⟨S2000000x11, .f32⟩
  | 11 => ⟨S2000000, .f32⟩
  | 12 => ⟨S_, .i32⟩
  | 13 => ⟨S13, .i32⟩
  | 14 => ⟨S13, .i32⟩
  | 15 => ⟨S13, .i32⟩
  | 16 => ⟨S13x1, .i32⟩
  | 17 => ⟨S2000000x13, .f32⟩
  | 18 => ⟨S1x13, .f32⟩
  | 19 => ⟨S2000000x13, .f32⟩
  | 20 => ⟨S2000000x13, .f32⟩
  | 21 => ⟨S2000000x13, .f32⟩
  | 22 => ⟨S2000000x13, .f32⟩
  | 23 => ⟨S2000000x1, .f32⟩
  | 24 => ⟨S2000000x13, .f32⟩
  | 25 => ⟨S2000000x13, .f32⟩
  | 26 => ⟨S2000000, .f32⟩
  | 27 => ⟨S_, .i32⟩
  | 28 => ⟨S15, .i32⟩
  | 29 => ⟨S15, .i32⟩
  | 30 => ⟨S15, .i32⟩
  | 31 => ⟨S15x1, .i32⟩
  | 32 => ⟨S2000000x15, .f32⟩
  | 33 => ⟨S1x15, .f32⟩
  | 34 => ⟨S2000000x15, .f32⟩
  | 35 => ⟨S2000000x15, .f32⟩
  | 36 => ⟨S2000000x15, .f32⟩
  | 37 => ⟨S2000000x15, .f32⟩
  | 38 => ⟨S2000000x1, .f32⟩
  | 39 => ⟨S2000000x15, .f32⟩
  | 40 => ⟨S2000000x15, .f32⟩
  | 41 => ⟨S2000000, .f32⟩
  | 42 => ⟨S_, .i32⟩
  | 43 => ⟨S17, .i32⟩
  | 44 => ⟨S17, .i32⟩
  | 45 => ⟨S17, .i32⟩
  | 46 => ⟨S17x1, .i32⟩
  | 47 => ⟨S2000000x17, .f32⟩
  | 48 => ⟨S1x17, .f32⟩
  | 49 => ⟨S2000000x17, .f32⟩
  | 50 => ⟨S2000000x17, .f32⟩
  | 51 => ⟨S2000000x17, .f32⟩
  | 52 => ⟨S2000000x1, .f32⟩
  | 53 => ⟨S2000000x17, .f32⟩
  | 54 => ⟨S2000000x17, .f32⟩
  | 55 => ⟨S2000000, .f32⟩
  | _ => ⟨S2000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_cst_1 : Ref sig .tc := ⟨.hbm, 7, rfl⟩
abbrev main_c_2 : Ref sig .tc := ⟨.hbm, 8, rfl⟩
abbrev main_c_3 : Ref sig .tc := ⟨.hbm, 9, rfl⟩
abbrev main_cst_4 : Ref sig .tc := ⟨.hbm, 10, rfl⟩
abbrev main_c_5 : Ref sig .tc := ⟨.hbm, 11, rfl⟩
abbrev main_c_6 : Ref sig .tc := ⟨.hbm, 12, rfl⟩
abbrev main_cst_7 : Ref sig .tc := ⟨.hbm, 13, rfl⟩
abbrev main_c_8 : Ref sig .tc := ⟨.hbm, 14, rfl⟩
abbrev main_c_9 : Ref sig .tc := ⟨.hbm, 15, rfl⟩
abbrev main_cst_10 : Ref sig .tc := ⟨.hbm, 16, rfl⟩
abbrev main_c_11 : Ref sig .tc := ⟨.hbm, 17, rfl⟩
abbrev main_c_12 : Ref sig .tc := ⟨.hbm, 18, rfl⟩
abbrev main_cst_13 : Ref sig .tc := ⟨.hbm, 19, rfl⟩
abbrev main_c_14 : Ref sig .tc := ⟨.hbm, 20, rfl⟩
abbrev main_c_15 : Ref sig .tc := ⟨.hbm, 21, rfl⟩
abbrev main_cst_16 : Ref sig .tc := ⟨.hbm, 22, rfl⟩
abbrev main_c_17 : Ref sig .tc := ⟨.hbm, 23, rfl⟩
abbrev main_c_18 : Ref sig .tc := ⟨.hbm, 24, rfl⟩
abbrev main_cst_19 : Ref sig .tc := ⟨.hbm, 25, rfl⟩
abbrev main_c_20 : Ref sig .tc := ⟨.hbm, 26, rfl⟩
abbrev main_c_21 : Ref sig .tc := ⟨.hbm, 27, rfl⟩
abbrev main_cst_22 : Ref sig .tc := ⟨.hbm, 28, rfl⟩
abbrev main_c_23 : Ref sig .tc := ⟨.hbm, 29, rfl⟩
abbrev main_c_24 : Ref sig .tc := ⟨.hbm, 30, rfl⟩
abbrev main_cst_25 : Ref sig .tc := ⟨.hbm, 31, rfl⟩
abbrev main_v0 : Ref sig .tc := ⟨.hbm, 32, rfl⟩
abbrev main_cst_26 : Ref sig .tc := ⟨.hbm, 33, rfl⟩
abbrev main_v1 : Ref sig .tc := ⟨.hbm, 34, rfl⟩
abbrev main_v2 : Ref sig .tc := ⟨.hbm, 35, rfl⟩
abbrev main_cst_27 : Ref sig .tc := ⟨.hbm, 36, rfl⟩
abbrev main_v3 : Ref sig .tc := ⟨.hbm, 37, rfl⟩
abbrev main_v4 : Ref sig .tc := ⟨.hbm, 38, rfl⟩
abbrev main_cst_28 : Ref sig .tc := ⟨.hbm, 39, rfl⟩
abbrev main_v5 : Ref sig .tc := ⟨.hbm, 40, rfl⟩
abbrev main_v6 : Ref sig .tc := ⟨.hbm, 41, rfl⟩
abbrev main_cst_29 : Ref sig .tc := ⟨.hbm, 42, rfl⟩
abbrev main_v7 : Ref sig .tc := ⟨.hbm, 43, rfl⟩
abbrev main_v8 : Ref sig .tc := ⟨.hbm, 44, rfl⟩
abbrev main_cst_30 : Ref sig .tc := ⟨.hbm, 45, rfl⟩
abbrev main_v9 : Ref sig .tc := ⟨.hbm, 46, rfl⟩
abbrev main_v10 : Ref sig .tc := ⟨.hbm, 47, rfl⟩
abbrev main_cst_31 : Ref sig .tc := ⟨.hbm, 48, rfl⟩
abbrev main_v11 : Ref sig .tc := ⟨.hbm, 49, rfl⟩
abbrev main_v12 : Ref sig .tc := ⟨.hbm, 50, rfl⟩
abbrev main_cst_32 : Ref sig .tc := ⟨.hbm, 51, rfl⟩
abbrev main_v13 : Ref sig .tc := ⟨.hbm, 52, rfl⟩
abbrev main_v14 : Ref sig .tc := ⟨.hbm, 53, rfl⟩
abbrev main_cst_33 : Ref sig .tc := ⟨.hbm, 54, rfl⟩
abbrev main_v15 : Ref sig .tc := ⟨.hbm, 55, rfl⟩
abbrev main_v16 : Ref sig .tc := ⟨.hbm, 56, rfl⟩
abbrev main_cst_34 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_35 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_36 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_37 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_38 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_39 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_40 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_41 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_42 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_43 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_44 : Ref sig .tc := ⟨.hbm, 99, rfl⟩
abbrev main_v49 : Ref sig .tc := ⟨.hbm, 100, rfl⟩
abbrev main_v50 : Ref sig .tc := ⟨.hbm, 101, rfl⟩
abbrev main_cst_45 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_46 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_47 : Ref sig .tc := ⟨.hbm, 111, rfl⟩
abbrev main_v58 : Ref sig .tc := ⟨.hbm, 112, rfl⟩
abbrev main_v59 : Ref sig .tc := ⟨.hbm, 113, rfl⟩
abbrev main_cst_48 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_49 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_50 : Ref sig .tc := ⟨.hbm, 123, rfl⟩
abbrev main_v67 : Ref sig .tc := ⟨.hbm, 124, rfl⟩
abbrev main_v68 : Ref sig .tc := ⟨.hbm, 125, rfl⟩
abbrev main_cst_51 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_52 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_53 : Ref sig .tc := ⟨.hbm, 135, rfl⟩
abbrev main_v76 : Ref sig .tc := ⟨.hbm, 136, rfl⟩
abbrev main_v77 : Ref sig .tc := ⟨.hbm, 137, rfl⟩
abbrev main_cst_54 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_55 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_56 : Ref sig .tc := ⟨.hbm, 147, rfl⟩
abbrev main_v85 : Ref sig .tc := ⟨.hbm, 148, rfl⟩
abbrev main_v86 : Ref sig .tc := ⟨.hbm, 149, rfl⟩
abbrev main_cst_57 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_58 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_59 : Ref sig .tc := ⟨.hbm, 159, rfl⟩
abbrev main_v94 : Ref sig .tc := ⟨.hbm, 160, rfl⟩
abbrev main_v95 : Ref sig .tc := ⟨.hbm, 161, rfl⟩
abbrev main_cst_60 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_61 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_62 : Ref sig .tc := ⟨.hbm, 171, rfl⟩
abbrev main_v103 : Ref sig .tc := ⟨.hbm, 172, rfl⟩
abbrev main_v104 : Ref sig .tc := ⟨.hbm, 173, rfl⟩
abbrev main_cst_63 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_64 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_65 : Ref sig .tc := ⟨.hbm, 183, rfl⟩
abbrev main_v112 : Ref sig .tc := ⟨.hbm, 184, rfl⟩
abbrev main_v113 : Ref sig .tc := ⟨.hbm, 185, rfl⟩
abbrev main_cst_66 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_67 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_cst_68 : Ref sig .tc := ⟨.hbm, 195, rfl⟩
abbrev main_v121 : Ref sig .tc := ⟨.hbm, 196, rfl⟩
abbrev main_v122 : Ref sig .tc := ⟨.hbm, 197, rfl⟩
abbrev main_cst_69 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_cst_70 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_cst_71 : Ref sig .tc := ⟨.hbm, 207, rfl⟩
abbrev main_v130 : Ref sig .tc := ⟨.hbm, 208, rfl⟩
abbrev main_v131 : Ref sig .tc := ⟨.hbm, 209, rfl⟩
abbrev main_cst_72 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_73 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_74 : Ref sig .tc := ⟨.hbm, 219, rfl⟩
abbrev main_v139 : Ref sig .tc := ⟨.hbm, 220, rfl⟩
abbrev main_v140 : Ref sig .tc := ⟨.hbm, 221, rfl⟩
abbrev main_cst_75 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_76 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_77 : Ref sig .tc := ⟨.hbm, 231, rfl⟩
abbrev main_v148 : Ref sig .tc := ⟨.hbm, 232, rfl⟩
abbrev main_v149 : Ref sig .tc := ⟨.hbm, 233, rfl⟩
abbrev main_cst_78 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_79 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_cst_80 : Ref sig .tc := ⟨.hbm, 243, rfl⟩
abbrev main_v157 : Ref sig .tc := ⟨.hbm, 244, rfl⟩
abbrev main_v158 : Ref sig .tc := ⟨.hbm, 245, rfl⟩
abbrev main_cst_81 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_cst_82 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_83 : Ref sig .tc := ⟨.hbm, 255, rfl⟩
abbrev main_v166 : Ref sig .tc := ⟨.hbm, 256, rfl⟩
abbrev main_v167 : Ref sig .tc := ⟨.hbm, 257, rfl⟩
abbrev main_cst_84 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_cst_85 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_cst_86 : Ref sig .tc := ⟨.hbm, 267, rfl⟩
abbrev main_v175 : Ref sig .tc := ⟨.hbm, 268, rfl⟩
abbrev main_v176 : Ref sig .tc := ⟨.hbm, 269, rfl⟩
abbrev main_cst_87 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_cst_88 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_cst_89 : Ref sig .tc := ⟨.hbm, 279, rfl⟩
abbrev main_v184 : Ref sig .tc := ⟨.hbm, 280, rfl⟩
abbrev main_v185 : Ref sig .tc := ⟨.hbm, 281, rfl⟩
abbrev main_cst_90 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_cst_91 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_cst_92 : Ref sig .tc := ⟨.hbm, 291, rfl⟩
abbrev main_v193 : Ref sig .tc := ⟨.hbm, 292, rfl⟩
abbrev main_v194 : Ref sig .tc := ⟨.hbm, 293, rfl⟩
abbrev main_cst_93 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_94 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_cst_95 : Ref sig .tc := ⟨.hbm, 303, rfl⟩
abbrev main_v202 : Ref sig .tc := ⟨.hbm, 304, rfl⟩
abbrev main_v203 : Ref sig .tc := ⟨.hbm, 305, rfl⟩
abbrev main_cst_96 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_cst_97 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_cst_98 : Ref sig .tc := ⟨.hbm, 315, rfl⟩
abbrev main_v211 : Ref sig .tc := ⟨.hbm, 316, rfl⟩
abbrev main_v212 : Ref sig .tc := ⟨.hbm, 317, rfl⟩
abbrev main_cst_99 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_cst_100 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_cst_101 : Ref sig .tc := ⟨.hbm, 327, rfl⟩
abbrev main_v220 : Ref sig .tc := ⟨.hbm, 328, rfl⟩
abbrev main_v221 : Ref sig .tc := ⟨.hbm, 329, rfl⟩
abbrev main_cst_102 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_cst_103 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_cst_104 : Ref sig .tc := ⟨.hbm, 339, rfl⟩
abbrev main_v229 : Ref sig .tc := ⟨.hbm, 340, rfl⟩
abbrev main_v230 : Ref sig .tc := ⟨.hbm, 341, rfl⟩
abbrev main_cst_105 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_cst_106 : Ref sig .tc := ⟨.hbm, 346, rfl⟩
abbrev main_v234 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_cst_107 : Ref sig .tc := ⟨.hbm, 351, rfl⟩
abbrev main_v238 : Ref sig .tc := ⟨.hbm, 352, rfl⟩
abbrev main_v239 : Ref sig .tc := ⟨.hbm, 353, rfl⟩
abbrev main_cst_108 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_cst_109 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_cst_110 : Ref sig .tc := ⟨.hbm, 363, rfl⟩
abbrev main_v247 : Ref sig .tc := ⟨.hbm, 364, rfl⟩
abbrev main_v248 : Ref sig .tc := ⟨.hbm, 365, rfl⟩
abbrev main_cst_111 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_cst_112 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_cst_113 : Ref sig .tc := ⟨.hbm, 375, rfl⟩
abbrev main_v256 : Ref sig .tc := ⟨.hbm, 376, rfl⟩
abbrev main_v257 : Ref sig .tc := ⟨.hbm, 377, rfl⟩
abbrev main_cst_114 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_cst_115 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_cst_116 : Ref sig .tc := ⟨.hbm, 387, rfl⟩
abbrev main_v265 : Ref sig .tc := ⟨.hbm, 388, rfl⟩
abbrev main_v266 : Ref sig .tc := ⟨.hbm, 389, rfl⟩
abbrev main_cst_117 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_cst_118 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_cst_119 : Ref sig .tc := ⟨.hbm, 399, rfl⟩
abbrev main_v274 : Ref sig .tc := ⟨.hbm, 400, rfl⟩
abbrev main_v275 : Ref sig .tc := ⟨.hbm, 401, rfl⟩
abbrev main_cst_120 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_cst_121 : Ref sig .tc := ⟨.hbm, 406, rfl⟩
abbrev main_v279 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_cst_122 : Ref sig .tc := ⟨.hbm, 411, rfl⟩
abbrev main_v283 : Ref sig .tc := ⟨.hbm, 412, rfl⟩
abbrev main_v284 : Ref sig .tc := ⟨.hbm, 413, rfl⟩
abbrev main_cst_123 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_cst_124 : Ref sig .tc := ⟨.hbm, 418, rfl⟩
abbrev main_v288 : Ref sig .tc := ⟨.hbm, 419, rfl⟩
abbrev main_v289 : Ref sig .tc := ⟨.hbm, 420, rfl⟩
abbrev main_v290 : Ref sig .tc := ⟨.hbm, 421, rfl⟩
abbrev main_v291 : Ref sig .tc := ⟨.hbm, 422, rfl⟩
abbrev main_cst_125 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_v299 : Ref sig .tc := ⟨.hbm, 431, rfl⟩
abbrev main_v300 : Ref sig .tc := ⟨.hbm, 432, rfl⟩
abbrev main_v301 : Ref sig .tc := ⟨.hbm, 433, rfl⟩
abbrev main_v302 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_v306 : Ref sig .tc := ⟨.hbm, 438, rfl⟩
abbrev main_v307 : Ref sig .tc := ⟨.hbm, 439, rfl⟩
abbrev main_v308 : Ref sig .tc := ⟨.hbm, 440, rfl⟩
abbrev main_v309 : Ref sig .tc := ⟨.hbm, 441, rfl⟩
abbrev main_v310 : Ref sig .tc := ⟨.hbm, 442, rfl⟩
abbrev main_v311 : Ref sig .tc := ⟨.hbm, 443, rfl⟩
abbrev main_v312 : Ref sig .tc := ⟨.hbm, 444, rfl⟩
abbrev main_v313 : Ref sig .tc := ⟨.hbm, 445, rfl⟩
abbrev main_v314 : Ref sig .tc := ⟨.hbm, 446, rfl⟩
abbrev main_v315 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev main_v327 : Ref sig .tc := ⟨.hbm, 459, rfl⟩
abbrev main_v328 : Ref sig .tc := ⟨.hbm, 460, rfl⟩
abbrev main_v329 : Ref sig .tc := ⟨.hbm, 461, rfl⟩
abbrev main_v330 : Ref sig .tc := ⟨.hbm, 462, rfl⟩
abbrev main_v331 : Ref sig .tc := ⟨.hbm, 463, rfl⟩
abbrev main_v332 : Ref sig .tc := ⟨.hbm, 464, rfl⟩
abbrev main_v333 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_v337 : Ref sig .tc := ⟨.hbm, 469, rfl⟩
abbrev main_v338 : Ref sig .tc := ⟨.hbm, 470, rfl⟩
abbrev main_v339 : Ref sig .tc := ⟨.hbm, 471, rfl⟩
abbrev main_v340 : Ref sig .tc := ⟨.hbm, 472, rfl⟩
abbrev main_v341 : Ref sig .tc := ⟨.hbm, 473, rfl⟩
abbrev main_v342 : Ref sig .tc := ⟨.hbm, 474, rfl⟩
abbrev main_v343 : Ref sig .tc := ⟨.hbm, 475, rfl⟩
abbrev main_v344 : Ref sig .tc := ⟨.hbm, 476, rfl⟩
abbrev main_v345 : Ref sig .tc := ⟨.hbm, 477, rfl⟩
abbrev main_v346 : Ref sig .tc := ⟨.hbm, 478, rfl⟩
abbrev main_cst_126 : Ref sig .tc := ⟨.hbm, 479, rfl⟩
abbrev main_v347 : Ref sig .tc := ⟨.hbm, 480, rfl⟩
abbrev main_cst_127 : Ref sig .tc := ⟨.hbm, 481, rfl⟩
abbrev main_v348 : Ref sig .tc := ⟨.hbm, 482, rfl⟩
abbrev main_v349 : Ref sig .tc := ⟨.hbm, 483, rfl⟩
abbrev main_v350 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_v354 : Ref sig .tc := ⟨.hbm, 488, rfl⟩
abbrev main_v355 : Ref sig .tc := ⟨.hbm, 489, rfl⟩
abbrev main_v356 : Ref sig .tc := ⟨.hbm, 490, rfl⟩
abbrev main_v357 : Ref sig .tc := ⟨.hbm, 491, rfl⟩
abbrev main_v358 : Ref sig .tc := ⟨.hbm, 492, rfl⟩
abbrev main_v359 : Ref sig .tc := ⟨.hbm, 493, rfl⟩
abbrev main_v360 : Ref sig .tc := ⟨.hbm, 494, rfl⟩
abbrev main_v361 : Ref sig .tc := ⟨.hbm, 495, rfl⟩
abbrev main_v362 : Ref sig .tc := ⟨.hbm, 496, rfl⟩
abbrev main_v363 : Ref sig .tc := ⟨.hbm, 497, rfl⟩
abbrev main_v364 : Ref sig .tc := ⟨.hbm, 498, rfl⟩
abbrev main_v365 : Ref sig .tc := ⟨.hbm, 499, rfl⟩
abbrev main_v366 : Ref sig .tc := ⟨.hbm, 500, rfl⟩
abbrev main_v367 : Ref sig .tc := ⟨.hbm, 501, rfl⟩
abbrev main_v368 : Ref sig .tc := ⟨.hbm, 502, rfl⟩
abbrev main_v369 : Ref sig .tc := ⟨.hbm, 503, rfl⟩
abbrev main_v370 : Ref sig .tc := ⟨.hbm, 504, rfl⟩
abbrev main_v371 : Ref sig .tc := ⟨.hbm, 505, rfl⟩
abbrev main_v372 : Ref sig .tc := ⟨.hbm, 506, rfl⟩
abbrev main_v373 : Ref sig .tc := ⟨.hbm, 507, rfl⟩
abbrev main_v374 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_v380 : Ref sig .tc := ⟨.hbm, 514, rfl⟩
abbrev main_v381 : Ref sig .tc := ⟨.hbm, 515, rfl⟩
abbrev main_v382 : Ref sig .tc := ⟨.hbm, 516, rfl⟩
abbrev main_v383 : Ref sig .tc := ⟨.hbm, 517, rfl⟩
abbrev main_v384 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_v389 : Ref sig .tc := ⟨.hbm, 523, rfl⟩
abbrev main_v390 : Ref sig .tc := ⟨.hbm, 524, rfl⟩
abbrev main_v391 : Ref sig .tc := ⟨.hbm, 525, rfl⟩
abbrev main_v392 : Ref sig .tc := ⟨.hbm, 526, rfl⟩
abbrev main_v393 : Ref sig .tc := ⟨.hbm, 527, rfl⟩
abbrev main_v394 : Ref sig .tc := ⟨.hbm, 528, rfl⟩
abbrev main_v395 : Ref sig .tc := ⟨.hbm, 529, rfl⟩
abbrev main_v396 : Ref sig .tc := ⟨.hbm, 530, rfl⟩
abbrev main_v397 : Ref sig .tc := ⟨.hbm, 531, rfl⟩
abbrev main_v398 : Ref sig .tc := ⟨.hbm, 532, rfl⟩
abbrev main_v399 : Ref sig .tc := ⟨.hbm, 533, rfl⟩
abbrev main_v400 : Ref sig .tc := ⟨.hbm, 534, rfl⟩
abbrev main_v401 : Ref sig .tc := ⟨.hbm, 535, rfl⟩
abbrev main_v402 : Ref sig .tc := ⟨.hbm, 536, rfl⟩
abbrev main_v403 : Ref sig .tc := ⟨.hbm, 537, rfl⟩
abbrev main_v404 : Ref sig .tc := ⟨.hbm, 538, rfl⟩
abbrev main_v405 : Ref sig .tc := ⟨.hbm, 539, rfl⟩
abbrev main_v406 : Ref sig .tc := ⟨.hbm, 540, rfl⟩
abbrev main_v407 : Ref sig .tc := ⟨.hbm, 541, rfl⟩
abbrev main_v408 : Ref sig .tc := ⟨.hbm, 542, rfl⟩
abbrev main_v409 : Ref sig .tc := ⟨.hbm, 543, rfl⟩
abbrev main_v410 : Ref sig .tc := ⟨.hbm, 544, rfl⟩
abbrev main_v411 : Ref sig .tc := ⟨.hbm, 545, rfl⟩
abbrev main_v412 : Ref sig .tc := ⟨.hbm, 546, rfl⟩
abbrev main_v413 : Ref sig .tc := ⟨.hbm, 547, rfl⟩
abbrev main_v414 : Ref sig .tc := ⟨.hbm, 548, rfl⟩
abbrev main_v415 : Ref sig .tc := ⟨.hbm, 549, rfl⟩
abbrev main_v416 : Ref sig .tc := ⟨.hbm, 550, rfl⟩
abbrev main_v417 : Ref sig .tc := ⟨.hbm, 551, rfl⟩
abbrev main_v418 : Ref sig .tc := ⟨.hbm, 552, rfl⟩
abbrev main_cst_128 : Ref sig .tc := ⟨.hbm, 553, rfl⟩
abbrev main_v419 : Ref sig .tc := ⟨.hbm, 554, rfl⟩
abbrev main_v420 : Ref sig .tc := ⟨.hbm, 555, rfl⟩
abbrev main_cst_129 : Ref sig .tc := ⟨.hbm, 556, rfl⟩
abbrev main_v421 : Ref sig .tc := ⟨.hbm, 557, rfl⟩
abbrev main_v422 : Ref sig .tc := ⟨.hbm, 558, rfl⟩
abbrev main_v423 : Ref sig .tc := ⟨.hbm, 559, rfl⟩
abbrev main_v424 : Ref sig .tc := ⟨.hbm, 560, rfl⟩
abbrev main_cst_130 : Ref sig .tc := ⟨.hbm, 561, rfl⟩
abbrev main_v425 : Ref sig .tc := ⟨.hbm, 562, rfl⟩
abbrev main_c_131 : Ref sig .tc := ⟨.hbm, 563, rfl⟩
abbrev main_v426 : Ref sig .tc := ⟨.hbm, 564, rfl⟩
abbrev main_v427 : Ref sig .tc := ⟨.hbm, 565, rfl⟩
abbrev main_v428 : Ref sig .tc := ⟨.hbm, 566, rfl⟩
abbrev main_v429 : Ref sig .tc := ⟨.hbm, 567, rfl⟩
abbrev main_v430 : Ref sig .tc := ⟨.hbm, 568, rfl⟩
abbrev main_v431 : Ref sig .tc := ⟨.hbm, 569, rfl⟩
abbrev main_v432 : Ref sig .tc := ⟨.hbm, 570, rfl⟩
abbrev main_v433 : Ref sig .tc := ⟨.hbm, 571, rfl⟩
abbrev main_v434 : Ref sig .tc := ⟨.hbm, 572, rfl⟩
abbrev main_v435 : Ref sig .tc := ⟨.hbm, 573, rfl⟩
abbrev main_v436 : Ref sig .tc := ⟨.hbm, 574, rfl⟩
abbrev main_v437 : Ref sig .tc := ⟨.hbm, 575, rfl⟩
abbrev main_v438 : Ref sig .tc := ⟨.hbm, 576, rfl⟩
abbrev main_c_132 : Ref sig .tc := ⟨.hbm, 577, rfl⟩
abbrev main_v439 : Ref sig .tc := ⟨.hbm, 578, rfl⟩
abbrev main_v440 : Ref sig .tc := ⟨.hbm, 579, rfl⟩
abbrev main_v441 : Ref sig .tc := ⟨.hbm, 580, rfl⟩
abbrev main_v442 : Ref sig .tc := ⟨.hbm, 581, rfl⟩
abbrev main_v443 : Ref sig .tc := ⟨.hbm, 582, rfl⟩
abbrev main_v444 : Ref sig .tc := ⟨.hbm, 583, rfl⟩
abbrev main_v445 : Ref sig .tc := ⟨.hbm, 584, rfl⟩
abbrev main_v446 : Ref sig .tc := ⟨.hbm, 585, rfl⟩
abbrev main_v447 : Ref sig .tc := ⟨.hbm, 586, rfl⟩
abbrev main_v448 : Ref sig .tc := ⟨.hbm, 587, rfl⟩
abbrev main_v449 : Ref sig .tc := ⟨.hbm, 588, rfl⟩
abbrev main_v450 : Ref sig .tc := ⟨.hbm, 589, rfl⟩
abbrev main_v451 : Ref sig .tc := ⟨.hbm, 590, rfl⟩
abbrev main_v452 : Ref sig .tc := ⟨.hbm, 591, rfl⟩
abbrev main_c_133 : Ref sig .tc := ⟨.hbm, 592, rfl⟩
abbrev main_v453 : Ref sig .tc := ⟨.hbm, 593, rfl⟩
abbrev main_v454 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_v460 : Ref sig .tc := ⟨.hbm, 600, rfl⟩
abbrev main_v461 : Ref sig .tc := ⟨.hbm, 601, rfl⟩
abbrev main_v462 : Ref sig .tc := ⟨.hbm, 602, rfl⟩
abbrev main_v463 : Ref sig .tc := ⟨.hbm, 603, rfl⟩
abbrev main_v464 : Ref sig .tc := ⟨.hbm, 604, rfl⟩
abbrev main_v465 : Ref sig .tc := ⟨.hbm, 605, rfl⟩
abbrev main_v466 : Ref sig .tc := ⟨.hbm, 606, rfl⟩
abbrev main_c_134 : Ref sig .tc := ⟨.hbm, 607, rfl⟩
abbrev main_v467 : Ref sig .tc := ⟨.hbm, 608, rfl⟩
abbrev main_v468 : Ref sig .tc := ⟨.hbm, 609, rfl⟩
abbrev main_v469 : Ref sig .tc := ⟨.hbm, 610, rfl⟩
abbrev main_v470 : Ref sig .tc := ⟨.hbm, 611, rfl⟩
abbrev main_v471 : Ref sig .tc := ⟨.hbm, 612, rfl⟩
abbrev main_v472 : Ref sig .tc := ⟨.hbm, 613, rfl⟩
abbrev main_v473 : Ref sig .tc := ⟨.hbm, 614, rfl⟩
abbrev main_v474 : Ref sig .tc := ⟨.hbm, 615, rfl⟩
abbrev main_v475 : Ref sig .tc := ⟨.hbm, 616, rfl⟩
abbrev main_v476 : Ref sig .tc := ⟨.hbm, 617, rfl⟩
abbrev main_v477 : Ref sig .tc := ⟨.hbm, 618, rfl⟩
abbrev main_v478 : Ref sig .tc := ⟨.hbm, 619, rfl⟩
abbrev main_v479 : Ref sig .tc := ⟨.hbm, 620, rfl⟩
abbrev main_v480 : Ref sig .tc := ⟨.hbm, 621, rfl⟩
abbrev main_c_135 : Ref sig .tc := ⟨.hbm, 622, rfl⟩
abbrev main_v481 : Ref sig .tc := ⟨.hbm, 623, rfl⟩
abbrev main_v482 : Ref sig .tc := ⟨.hbm, 624, rfl⟩
abbrev main_v483 : Ref sig .tc := ⟨.hbm, 625, rfl⟩
abbrev main_v484 : Ref sig .tc := ⟨.hbm, 626, rfl⟩
abbrev main_v485 : Ref sig .tc := ⟨.hbm, 627, rfl⟩
abbrev main_v486 : Ref sig .tc := ⟨.hbm, 628, rfl⟩
abbrev main_v487 : Ref sig .tc := ⟨.hbm, 629, rfl⟩
abbrev main_v488 : Ref sig .tc := ⟨.hbm, 630, rfl⟩
abbrev main_v489 : Ref sig .tc := ⟨.hbm, 631, rfl⟩
abbrev main_v490 : Ref sig .tc := ⟨.hbm, 632, rfl⟩
abbrev main_v491 : Ref sig .tc := ⟨.hbm, 633, rfl⟩
abbrev main_v492 : Ref sig .tc := ⟨.hbm, 634, rfl⟩
abbrev main_v493 : Ref sig .tc := ⟨.hbm, 635, rfl⟩
abbrev main_v494 : Ref sig .tc := ⟨.hbm, 636, rfl⟩
abbrev main_c_136 : Ref sig .tc := ⟨.hbm, 637, rfl⟩
abbrev main_v495 : Ref sig .tc := ⟨.hbm, 638, rfl⟩
abbrev main_v496 : Ref sig .tc := ⟨.hbm, 639, rfl⟩
abbrev main_v497 : Ref sig .tc := ⟨.hbm, 640, rfl⟩
abbrev main_v498 : Ref sig .tc := ⟨.hbm, 641, rfl⟩
abbrev main_v499 : Ref sig .tc := ⟨.hbm, 642, rfl⟩
abbrev main_v500 : Ref sig .tc := ⟨.hbm, 643, rfl⟩
abbrev main_v501 : Ref sig .tc := ⟨.hbm, 644, rfl⟩
abbrev main_v502 : Ref sig .tc := ⟨.hbm, 645, rfl⟩
abbrev main_v503 : Ref sig .tc := ⟨.hbm, 646, rfl⟩
abbrev main_v504 : Ref sig .tc := ⟨.hbm, 647, rfl⟩
abbrev main_v505 : Ref sig .tc := ⟨.hbm, 648, rfl⟩
abbrev main_v506 : Ref sig .tc := ⟨.hbm, 649, rfl⟩
abbrev main_v507 : Ref sig .tc := ⟨.hbm, 650, rfl⟩
abbrev main_v508 : Ref sig .tc := ⟨.hbm, 651, rfl⟩
abbrev main_c_137 : Ref sig .tc := ⟨.hbm, 652, rfl⟩
abbrev main_v509 : Ref sig .tc := ⟨.hbm, 653, rfl⟩
abbrev main_v510 : Ref sig .tc := ⟨.hbm, 654, rfl⟩
abbrev main_v511 : Ref sig .tc := ⟨.hbm, 655, rfl⟩
abbrev main_v512 : Ref sig .tc := ⟨.hbm, 656, rfl⟩
abbrev main_v513 : Ref sig .tc := ⟨.hbm, 657, rfl⟩
abbrev main_v514 : Ref sig .tc := ⟨.hbm, 658, rfl⟩
abbrev main_v515 : Ref sig .tc := ⟨.hbm, 659, rfl⟩
abbrev main_v516 : Ref sig .tc := ⟨.hbm, 660, rfl⟩
abbrev main_v517 : Ref sig .tc := ⟨.hbm, 661, rfl⟩
abbrev main_v518 : Ref sig .tc := ⟨.hbm, 662, rfl⟩
abbrev main_v519 : Ref sig .tc := ⟨.hbm, 663, rfl⟩
abbrev main_v520 : Ref sig .tc := ⟨.hbm, 664, rfl⟩
abbrev main_v521 : Ref sig .tc := ⟨.hbm, 665, rfl⟩
abbrev main_v522 : Ref sig .tc := ⟨.hbm, 666, rfl⟩
abbrev main_c_138 : Ref sig .tc := ⟨.hbm, 667, rfl⟩
abbrev main_v523 : Ref sig .tc := ⟨.hbm, 668, rfl⟩
abbrev main_v524 : Ref sig .tc := ⟨.hbm, 669, rfl⟩
abbrev main_v525 : Ref sig .tc := ⟨.hbm, 670, rfl⟩
abbrev main_v526 : Ref sig .tc := ⟨.hbm, 671, rfl⟩
abbrev main_v527 : Ref sig .tc := ⟨.hbm, 672, rfl⟩
abbrev main_v528 : Ref sig .tc := ⟨.hbm, 673, rfl⟩
abbrev main_v529 : Ref sig .tc := ⟨.hbm, 674, rfl⟩
abbrev main_v530 : Ref sig .tc := ⟨.hbm, 675, rfl⟩
abbrev main_v531 : Ref sig .tc := ⟨.hbm, 676, rfl⟩
abbrev main_v532 : Ref sig .tc := ⟨.hbm, 677, rfl⟩
abbrev main_v533 : Ref sig .tc := ⟨.hbm, 678, rfl⟩
abbrev main_v534 : Ref sig .tc := ⟨.hbm, 679, rfl⟩
abbrev main_v535 : Ref sig .tc := ⟨.hbm, 680, rfl⟩
abbrev main_v536 : Ref sig .tc := ⟨.hbm, 681, rfl⟩
abbrev main_c_139 : Ref sig .tc := ⟨.hbm, 682, rfl⟩
abbrev main_v537 : Ref sig .tc := ⟨.hbm, 683, rfl⟩
abbrev main_v538 : Ref sig .tc := ⟨.hbm, 684, rfl⟩
abbrev main_v539 : Ref sig .tc := ⟨.hbm, 685, rfl⟩
abbrev main_v540 : Ref sig .tc := ⟨.hbm, 686, rfl⟩
abbrev main_v541 : Ref sig .tc := ⟨.hbm, 687, rfl⟩
abbrev main_v542 : Ref sig .tc := ⟨.hbm, 688, rfl⟩
abbrev main_v543 : Ref sig .tc := ⟨.hbm, 689, rfl⟩
abbrev main_v544 : Ref sig .tc := ⟨.hbm, 690, rfl⟩
abbrev main_v545 : Ref sig .tc := ⟨.hbm, 691, rfl⟩
abbrev main_v546 : Ref sig .tc := ⟨.hbm, 692, rfl⟩
abbrev main_v547 : Ref sig .tc := ⟨.hbm, 693, rfl⟩
abbrev main_v548 : Ref sig .tc := ⟨.hbm, 694, rfl⟩
abbrev main_v549 : Ref sig .tc := ⟨.hbm, 695, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  concatenates_S2000000x1_S2000000x1_S2000000x1_S2000000x3_d1 : Shape.Concatenates [S2000000x1, S2000000x1, S2000000x1] S2000000x3 1
  concatenates_S2000000x1_S2000000x1_S2000000x1_S2000000x1_S2000000x4_d1 : Shape.Concatenates [S2000000x1, S2000000x1, S2000000x1, S2000000x1] S2000000x4 1
  concatenates_S2000000x1_S2000000x1_S2000000x1_S2000000x1_S2000000x1_S2000000x5_d1 : Shape.Concatenates [S2000000x1, S2000000x1, S2000000x1, S2000000x1, S2000000x1] S2000000x5 1
  concatenates_S2000000x1_S2000000x1_S2000000x1_S2000000x1_S2000000x1_S2000000x1_S2000000x6_d1 : Shape.Concatenates [S2000000x1, S2000000x1, S2000000x1, S2000000x1, S2000000x1, S2000000x1] S2000000x6 1
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  concatenates_S2000000x1_S2000000x1_S2000000x1_S2000000x1_S2000000x1_S2000000x1_S2000000x1_S2000000x1_S2000000x8_d1 : Shape.Concatenates [S2000000x1, S2000000x1, S2000000x1, S2000000x1, S2000000x1, S2000000x1, S2000000x1, S2000000x1] S2000000x8 1
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  slices_S2000000x9_S2000000x8_0_1 : S2000000x9.Slices ![0, 1] S2000000x8
  bcast_S_S2000000x1 : S_.BroadcastsInDim S2000000x1 (![] : Fin 0 → Fin S2000000x1.rank)
  concatenates_S2000000x8_S2000000x1_S2000000x8_S2000000x17_d1 : Shape.Concatenates [S2000000x8, S2000000x1, S2000000x8] S2000000x17 1
  bcast_S_S1 : S_.BroadcastsInDim S1 (![] : Fin 0 → Fin S1.rank)
  bcast_S1_S1x1_0 : S1.BroadcastsInDim S1x1 (![0] : Fin 1 → Fin S1x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  slices_S2000000x17_S2000000x1_0_8 : S2000000x17.Slices ![0, 8] S2000000x1
  bcast_S_S3 : S_.BroadcastsInDim S3 (![] : Fin 0 → Fin S3.rank)
  bcast_S3_S3x1_0 : S3.BroadcastsInDim S3x1 (![0] : Fin 1 → Fin S3x1.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x17_S2000000x3_0_7 : S2000000x17.Slices ![0, 7] S2000000x3
  bcast_S2000000x1_S2000000x3_0_1 : S2000000x1.BroadcastsInDim S2000000x3 (![0, 1] : Fin 2 → Fin S2000000x3.rank)
  bcast_S_S5 : S_.BroadcastsInDim S5 (![] : Fin 0 → Fin S5.rank)
  bcast_S5_S5x1_0 : S5.BroadcastsInDim S5x1 (![0] : Fin 1 → Fin S5x1.rank)
  bcast_S5_S1x5_1 : S5.BroadcastsInDim S1x5 (![1] : Fin 1 → Fin S1x5.rank)
  bcast_S1x5_S2000000x5_0_1 : S1x5.BroadcastsInDim S2000000x5 (![0, 1] : Fin 2 → Fin S2000000x5.rank)
  slices_S2000000x17_S2000000x5_0_6 : S2000000x17.Slices ![0, 6] S2000000x5
  bcast_S2000000x1_S2000000x5_0_1 : S2000000x1.BroadcastsInDim S2000000x5 (![0, 1] : Fin 2 → Fin S2000000x5.rank)
  bcast_S_S7 : S_.BroadcastsInDim S7 (![] : Fin 0 → Fin S7.rank)
  bcast_S7_S7x1_0 : S7.BroadcastsInDim S7x1 (![0] : Fin 1 → Fin S7x1.rank)
  bcast_S7_S1x7_1 : S7.BroadcastsInDim S1x7 (![1] : Fin 1 → Fin S1x7.rank)
  bcast_S1x7_S2000000x7_0_1 : S1x7.BroadcastsInDim S2000000x7 (![0, 1] : Fin 2 → Fin S2000000x7.rank)
  slices_S2000000x17_S2000000x7_0_5 : S2000000x17.Slices ![0, 5] S2000000x7
  bcast_S2000000x1_S2000000x7_0_1 : S2000000x1.BroadcastsInDim S2000000x7 (![0, 1] : Fin 2 → Fin S2000000x7.rank)
  bcast_S_S9 : S_.BroadcastsInDim S9 (![] : Fin 0 → Fin S9.rank)
  bcast_S9_S9x1_0 : S9.BroadcastsInDim S9x1 (![0] : Fin 1 → Fin S9x1.rank)
  bcast_S9_S1x9_1 : S9.BroadcastsInDim S1x9 (![1] : Fin 1 → Fin S1x9.rank)
  bcast_S1x9_S2000000x9_0_1 : S1x9.BroadcastsInDim S2000000x9 (![0, 1] : Fin 2 → Fin S2000000x9.rank)
  slices_S2000000x17_S2000000x9_0_4 : S2000000x17.Slices ![0, 4] S2000000x9
  bcast_S2000000x1_S2000000x9_0_1 : S2000000x1.BroadcastsInDim S2000000x9 (![0, 1] : Fin 2 → Fin S2000000x9.rank)
  bcast_S_S11 : S_.BroadcastsInDim S11 (![] : Fin 0 → Fin S11.rank)
  bcast_S11_S11x1_0 : S11.BroadcastsInDim S11x1 (![0] : Fin 1 → Fin S11x1.rank)
  bcast_S11_S1x11_1 : S11.BroadcastsInDim S1x11 (![1] : Fin 1 → Fin S1x11.rank)
  bcast_S1x11_S2000000x11_0_1 : S1x11.BroadcastsInDim S2000000x11 (![0, 1] : Fin 2 → Fin S2000000x11.rank)
  slices_S2000000x17_S2000000x11_0_3 : S2000000x17.Slices ![0, 3] S2000000x11
  bcast_S2000000x1_S2000000x11_0_1 : S2000000x1.BroadcastsInDim S2000000x11 (![0, 1] : Fin 2 → Fin S2000000x11.rank)
  bcast_S_S13 : S_.BroadcastsInDim S13 (![] : Fin 0 → Fin S13.rank)
  bcast_S13_S13x1_0 : S13.BroadcastsInDim S13x1 (![0] : Fin 1 → Fin S13x1.rank)
  bcast_S13_S1x13_1 : S13.BroadcastsInDim S1x13 (![1] : Fin 1 → Fin S1x13.rank)
  bcast_S1x13_S2000000x13_0_1 : S1x13.BroadcastsInDim S2000000x13 (![0, 1] : Fin 2 → Fin S2000000x13.rank)
  slices_S2000000x17_S2000000x13_0_2 : S2000000x17.Slices ![0, 2] S2000000x13
  bcast_S2000000x1_S2000000x13_0_1 : S2000000x1.BroadcastsInDim S2000000x13 (![0, 1] : Fin 2 → Fin S2000000x13.rank)
  bcast_S_S15 : S_.BroadcastsInDim S15 (![] : Fin 0 → Fin S15.rank)
  bcast_S15_S15x1_0 : S15.BroadcastsInDim S15x1 (![0] : Fin 1 → Fin S15x1.rank)
  bcast_S15_S1x15_1 : S15.BroadcastsInDim S1x15 (![1] : Fin 1 → Fin S1x15.rank)
  bcast_S1x15_S2000000x15_0_1 : S1x15.BroadcastsInDim S2000000x15 (![0, 1] : Fin 2 → Fin S2000000x15.rank)
  slices_S2000000x17_S2000000x15_0_1 : S2000000x17.Slices ![0, 1] S2000000x15
  bcast_S2000000x1_S2000000x15_0_1 : S2000000x1.BroadcastsInDim S2000000x15 (![0, 1] : Fin 2 → Fin S2000000x15.rank)
  bcast_S_S17 : S_.BroadcastsInDim S17 (![] : Fin 0 → Fin S17.rank)
  bcast_S17_S17x1_0 : S17.BroadcastsInDim S17x1 (![0] : Fin 1 → Fin S17x1.rank)
  bcast_S17_S1x17_1 : S17.BroadcastsInDim S1x17 (![1] : Fin 1 → Fin S1x17.rank)
  bcast_S1x17_S2000000x17_0_1 : S1x17.BroadcastsInDim S2000000x17 (![0, 1] : Fin 2 → Fin S2000000x17.rank)
  bcast_S2000000x1_S2000000x17_0_1 : S2000000x1.BroadcastsInDim S2000000x17 (![0, 1] : Fin 2 → Fin S2000000x17.rank)
  gather_S2000000x1_S1x1_S2000000x1_0_1_n_n_1_1_20000001_wf : GatherDims.WF S2000000x1 S1x1 S2000000x1 [0] [1] [] [1] [] 1 ![2000000, 1]
  gather_S2000000x2_S3x1_S2000000x3_0_1_n_n_1_1_20000001_wf : GatherDims.WF S2000000x2 S3x1 S2000000x3 [0] [1] [] [1] [] 1 ![2000000, 1]
  gather_S2000000x3_S5x1_S2000000x5_0_1_n_n_1_1_20000001_wf : GatherDims.WF S2000000x3 S5x1 S2000000x5 [0] [1] [] [1] [] 1 ![2000000, 1]
  gather_S2000000x4_S7x1_S2000000x7_0_1_n_n_1_1_20000001_wf : GatherDims.WF S2000000x4 S7x1 S2000000x7 [0] [1] [] [1] [] 1 ![2000000, 1]
  gather_S2000000x5_S9x1_S2000000x9_0_1_n_n_1_1_20000001_wf : GatherDims.WF S2000000x5 S9x1 S2000000x9 [0] [1] [] [1] [] 1 ![2000000, 1]
  gather_S2000000x6_S11x1_S2000000x11_0_1_n_n_1_1_20000001_wf : GatherDims.WF S2000000x6 S11x1 S2000000x11 [0] [1] [] [1] [] 1 ![2000000, 1]
  gather_S2000000x7_S13x1_S2000000x13_0_1_n_n_1_1_20000001_wf : GatherDims.WF S2000000x7 S13x1 S2000000x13 [0] [1] [] [1] [] 1 ![2000000, 1]
  gather_S2000000x8_S15x1_S2000000x15_0_1_n_n_1_1_20000001_wf : GatherDims.WF S2000000x8 S15x1 S2000000x15 [0] [1] [] [1] [] 1 ![2000000, 1]
  gather_S2000000x9_S17x1_S2000000x17_0_1_n_n_1_1_20000001_wf : GatherDims.WF S2000000x9 S17x1 S2000000x17 [0] [1] [] [1] [] 1 ![2000000, 1]

variable [Facts₀]

def gather_S2000000x1_S1x1_S2000000x1_0_1_n_n_1_1_20000001 : GatherDims S2000000x1 S1x1 S2000000x1 where
  offsetDims := [0]
  collapsedSliceDims := [1]
  operandBatchingDims := []
  startIndicesBatchingDims := []
  startIndexMap := [1]
  indexVectorDim := 1
  sliceSizes := ![2000000, 1]
  wf := gather_S2000000x1_S1x1_S2000000x1_0_1_n_n_1_1_20000001_wf
def gather_S2000000x2_S3x1_S2000000x3_0_1_n_n_1_1_20000001 : GatherDims S2000000x2 S3x1 S2000000x3 where
  offsetDims := [0]
  collapsedSliceDims := [1]
  operandBatchingDims := []
  startIndicesBatchingDims := []
  startIndexMap := [1]
  indexVectorDim := 1
  sliceSizes := ![2000000, 1]
  wf := gather_S2000000x2_S3x1_S2000000x3_0_1_n_n_1_1_20000001_wf
def gather_S2000000x3_S5x1_S2000000x5_0_1_n_n_1_1_20000001 : GatherDims S2000000x3 S5x1 S2000000x5 where
  offsetDims := [0]
  collapsedSliceDims := [1]
  operandBatchingDims := []
  startIndicesBatchingDims := []
  startIndexMap := [1]
  indexVectorDim := 1
  sliceSizes := ![2000000, 1]
  wf := gather_S2000000x3_S5x1_S2000000x5_0_1_n_n_1_1_20000001_wf
def gather_S2000000x4_S7x1_S2000000x7_0_1_n_n_1_1_20000001 : GatherDims S2000000x4 S7x1 S2000000x7 where
  offsetDims := [0]
  collapsedSliceDims := [1]
  operandBatchingDims := []
  startIndicesBatchingDims := []
  startIndexMap := [1]
  indexVectorDim := 1
  sliceSizes := ![2000000, 1]
  wf := gather_S2000000x4_S7x1_S2000000x7_0_1_n_n_1_1_20000001_wf
def gather_S2000000x5_S9x1_S2000000x9_0_1_n_n_1_1_20000001 : GatherDims S2000000x5 S9x1 S2000000x9 where
  offsetDims := [0]
  collapsedSliceDims := [1]
  operandBatchingDims := []
  startIndicesBatchingDims := []
  startIndexMap := [1]
  indexVectorDim := 1
  sliceSizes := ![2000000, 1]
  wf := gather_S2000000x5_S9x1_S2000000x9_0_1_n_n_1_1_20000001_wf
def gather_S2000000x6_S11x1_S2000000x11_0_1_n_n_1_1_20000001 : GatherDims S2000000x6 S11x1 S2000000x11 where
  offsetDims := [0]
  collapsedSliceDims := [1]
  operandBatchingDims := []
  startIndicesBatchingDims := []
  startIndexMap := [1]
  indexVectorDim := 1
  sliceSizes := ![2000000, 1]
  wf := gather_S2000000x6_S11x1_S2000000x11_0_1_n_n_1_1_20000001_wf
def gather_S2000000x7_S13x1_S2000000x13_0_1_n_n_1_1_20000001 : GatherDims S2000000x7 S13x1 S2000000x13 where
  offsetDims := [0]
  collapsedSliceDims := [1]
  operandBatchingDims := []
  startIndicesBatchingDims := []
  startIndexMap := [1]
  indexVectorDim := 1
  sliceSizes := ![2000000, 1]
  wf := gather_S2000000x7_S13x1_S2000000x13_0_1_n_n_1_1_20000001_wf
def gather_S2000000x8_S15x1_S2000000x15_0_1_n_n_1_1_20000001 : GatherDims S2000000x8 S15x1 S2000000x15 where
  offsetDims := [0]
  collapsedSliceDims := [1]
  operandBatchingDims := []
  startIndicesBatchingDims := []
  startIndexMap := [1]
  indexVectorDim := 1
  sliceSizes := ![2000000, 1]
  wf := gather_S2000000x8_S15x1_S2000000x15_0_1_n_n_1_1_20000001_wf
def gather_S2000000x9_S17x1_S2000000x17_0_1_n_n_1_1_20000001 : GatherDims S2000000x9 S17x1 S2000000x17 where
  offsetDims := [0]
  collapsedSliceDims := [1]
  operandBatchingDims := []
  startIndicesBatchingDims := []
  startIndexMap := [1]
  indexVectorDim := 1
  sliceSizes := ![2000000, 1]
  wf := gather_S2000000x9_S17x1_S2000000x17_0_1_n_n_1_1_20000001_wf

class Facts : Prop extends Facts₀ where

variable [Facts]
-- ==== Proof.Spec.lean ====
/- The angular part of the real spherical harmonics up to degree 8, as the source computes it, on the extended reals.
   For a point (x, y, z) at distance r the degree-l, order-m value is  pref(l,m) · q(l,|m|)(z,r) · φ(m)(x,y) / r^l,  where
   q is the modified associated Legendre recurrence  q(m,m) = -(2m-1)·q(m-1,m-1),  q(m+1,m) = (2m+1)·z·q(m,m),
   q(l,m) = ((2l-1)·z·q(l-1,m) - (l+m-1)·q(l-2,m)·r²)/(l-m);  φ(m) is  s(|m|)  for m < 0,  2^(-1/2)  for m = 0,  c(m)  for m > 0,
   with  c(m) = c(m-1)·x - s(m-1)·y,  s(m) = s(m-1)·x + c(m-1)·y  from c(0) = 1, s(0) = 0  (the real and imaginary parts of (x+iy)^m);
   and r^l is built by repeated multiplication. Every value is written with the order and grouping of the operations in the
   source, every number as the single-precision word the source's constant rounds to, and every quotient as the extended
   reals' total quotient: nothing is simplified, so that each program's value at an index can be met term by term. -/
import Idealize.ShloMosaic.PureOps.Ideal
import Idealize.ShloMosaic.Lib.ValueIdx

noncomputable section

namespace Cert.Harmonics

open Idealize.ShloMosaic Idealize.ShloMosaic.ValueIdx

/-- The extended real a single-precision word denotes. -/
abbrev w32 (b : BitVec 32) : EReal := Ideal.ofBits .f32 b

/-! ## The modified associated Legendre values q(l,m) at (z, r) -/

def q_0_0 (z r : EReal) : EReal := w32 0x3F800000#32
def q_1_1 (z r : EReal) : EReal := w32 0xBF800000#32 * q_0_0 z r
def q_2_2 (z r : EReal) : EReal := w32 0xC0400000#32 * q_1_1 z r
def q_3_3 (z r : EReal) : EReal := w32 0xC0A00000#32 * q_2_2 z r
def q_4_4 (z r : EReal) : EReal := w32 0xC0E00000#32 * q_3_3 z r
def q_5_5 (z r : EReal) : EReal := w32 0xC1100000#32 * q_4_4 z r
def q_6_6 (z r : EReal) : EReal := w32 0xC1300000#32 * q_5_5 z r
def q_7_7 (z r : EReal) : EReal := w32 0xC1500000#32 * q_6_6 z r
def q_8_8 (z r : EReal) : EReal := w32 0xC1700000#32 * q_7_7 z r
def q_1_0 (z r : EReal) : EReal := (w32 0x3F800000#32 * z) * q_0_0 z r
def q_2_1 (z r : EReal) : EReal := (w32 0x40400000#32 * z) * q_1_1 z r
def q_3_2 (z r : EReal) : EReal := (w32 0x40A00000#32 * z) * q_2_2 z r
def q_4_3 (z r : EReal) : EReal := (w32 0x40E00000#32 * z) * q_3_3 z r
def q_5_4 (z r : EReal) : EReal := (w32 0x41100000#32 * z) * q_4_4 z r
def q_6_5 (z r : EReal) : EReal := (w32 0x41300000#32 * z) * q_5_5 z r
def q_7_6 (z r : EReal) : EReal := (w32 0x41500000#32 * z) * q_6_6 z r
def q_8_7 (z r : EReal) : EReal := (w32 0x41700000#32 * z) * q_7_7 z r
def q_2_0 (z r : EReal) : EReal := Ideal.div (((w32 0x40400000#32 * z) * q_1_0 z r) - ((w32 0x3F800000#32 * q_0_0 z r) * (r * r))) (w32 0x40000000#32)
def q_3_0 (z r : EReal) : EReal := Ideal.div (((w32 0x40A00000#32 * z) * q_2_0 z r) - ((w32 0x40000000#32 * q_1_0 z r) * (r * r))) (w32 0x40400000#32)
def q_4_0 (z r : EReal) : EReal := Ideal.div (((w32 0x40E00000#32 * z) * q_3_0 z r) - ((w32 0x40400000#32 * q_2_0 z r) * (r * r))) (w32 0x40800000#32)
def q_5_0 (z r : EReal) : EReal := Ideal.div (((w32 0x41100000#32 * z) * q_4_0 z r) - ((w32 0x40800000#32 * q_3_0 z r) * (r * r))) (w32 0x40A00000#32)
def q_6_0 (z r : EReal) : EReal := Ideal.div (((w32 0x41300000#32 * z) * q_5_0 z r) - ((w32 0x40A00000#32 * q_4_0 z r) * (r * r))) (w32 0x40C00000#32)
def q_7_0 (z r : EReal) : EReal := Ideal.div (((w32 0x41500000#32 * z) * q_6_0 z r) - ((w32 0x40C00000#32 * q_5_0 z r) * (r * r))) (w32 0x40E00000#32)
def q_8_0 (z r : EReal) : EReal := Ideal.div (((w32 0x41700000#32 * z) * q_7_0 z r) - ((w32 0x40E00000#32 * q_6_0 z r) * (r * r))) (w32 0x41000000#32)
def q_3_1 (z r : EReal) : EReal := Ideal.div (((w32 0x40A00000#32 * z) * q_2_1 z r) - ((w32 0x40400000#32 * q_1_1 z r) * (r * r))) (w32 0x40000000#32)
def q_4_1 (z r : EReal) : EReal := Ideal.div (((w32 0x40E00000#32 * z) * q_3_1 z r) - ((w32 0x40800000#32 * q_2_1 z r) * (r * r))) (w32 0x40400000#32)
def q_5_1 (z r : EReal) : EReal := Ideal.div (((w32 0x41100000#32 * z) * q_4_1 z r) - ((w32 0x40A00000#32 * q_3_1 z r) * (r * r))) (w32 0x40800000#32)
def q_6_1 (z r : EReal) : EReal := Ideal.div (((w32 0x41300000#32 * z) * q_5_1 z r) - ((w32 0x40C00000#32 * q_4_1 z r) * (r * r))) (w32 0x40A00000#32)
def q_7_1 (z r : EReal) : EReal := Ideal.div (((w32 0x41500000#32 * z) * q_6_1 z r) - ((w32 0x40E00000#32 * q_5_1 z r) * (r * r))) (w32 0x40C00000#32)
def q_8_1 (z r : EReal) : EReal := Ideal.div (((w32 0x41700000#32 * z) * q_7_1 z r) - ((w32 0x41000000#32 * q_6_1 z r) * (r * r))) (w32 0x40E00000#32)
def q_4_2 (z r : EReal) : EReal := Ideal.div (((w32 0x40E00000#32 * z) * q_3_2 z r) - ((w32 0x40A00000#32 * q_2_2 z r) * (r * r))) (w32 0x40000000#32)
def q_5_2 (z r : EReal) : EReal := Ideal.div (((w32 0x41100000#32 * z) * q_4_2 z r) - ((w32 0x40C00000#32 * q_3_2 z r) * (r * r))) (w32 0x40400000#32)
def q_6_2 (z r : EReal) : EReal := Ideal.div (((w32 0x41300000#32 * z) * q_5_2 z r) - ((w32 0x40E00000#32 * q_4_2 z r) * (r * r))) (w32 0x40800000#32)
def q_7_2 (z r : EReal) : EReal := Ideal.div (((w32 0x41500000#32 * z) * q_6_2 z r) - ((w32 0x41000000#32 * q_5_2 z r) * (r * r))) (w32 0x40A00000#32)
def q_8_2 (z r : EReal) : EReal := Ideal.div (((w32 0x41700000#32 * z) * q_7_2 z r) - ((w32 0x41100000#32 * q_6_2 z r) * (r * r))) (w32 0x40C00000#32)
def q_5_3 (z r : EReal) : EReal := Ideal.div (((w32 0x41100000#32 * z) * q_4_3 z r) - ((w32 0x40E00000#32 * q_3_3 z r) * (r * r))) (w32 0x40000000#32)
def q_6_3 (z r : EReal) : EReal := Ideal.div (((w32 0x41300000#32 * z) * q_5_3 z r) - ((w32 0x41000000#32 * q_4_3 z r) * (r * r))) (w32 0x40400000#32)
def q_7_3 (z r : EReal) : EReal := Ideal.div (((w32 0x41500000#32 * z) * q_6_3 z r) - ((w32 0x41100000#32 * q_5_3 z r) * (r * r))) (w32 0x40800000#32)
def q_8_3 (z r : EReal) : EReal := Ideal.div (((w32 0x41700000#32 * z) * q_7_3 z r) - ((w32 0x41200000#32 * q_6_3 z r) * (r * r))) (w32 0x40A00000#32)
def q_6_4 (z r : EReal) : EReal := Ideal.div (((w32 0x41300000#32 * z) * q_5_4 z r) - ((w32 0x41100000#32 * q_4_4 z r) * (r * r))) (w32 0x40000000#32)
def q_7_4 (z r : EReal) : EReal := Ideal.div (((w32 0x41500000#32 * z) * q_6_4 z r) - ((w32 0x41200000#32 * q_5_4 z r) * (r * r))) (w32 0x40400000#32)
def q_8_4 (z r : EReal) : EReal := Ideal.div (((w32 0x41700000#32 * z) * q_7_4 z r) - ((w32 0x41300000#32 * q_6_4 z r) * (r * r))) (w32 0x40800000#32)
def q_7_5 (z r : EReal) : EReal := Ideal.div (((w32 0x41500000#32 * z) * q_6_5 z r) - ((w32 0x41300000#32 * q_5_5 z r) * (r * r))) (w32 0x40000000#32)
def q_8_5 (z r : EReal) : EReal := Ideal.div (((w32 0x41700000#32 * z) * q_7_5 z r) - ((w32 0x41400000#32 * q_6_5 z r) * (r * r))) (w32 0x40400000#32)
def q_8_6 (z r : EReal) : EReal := Ideal.div (((w32 0x41700000#32 * z) * q_7_6 z r) - ((w32 0x41500000#32 * q_6_6 z r) * (r * r))) (w32 0x40000000#32)

/-! ## The real and imaginary parts c(m), s(m) of (x + iy)^m -/

def c_0 (x y : EReal) : EReal := w32 0x3F800000#32
def s_0 (x y : EReal) : EReal := w32 0x00000000#32
def c_1 (x y : EReal) : EReal := c_0 x y * x - s_0 x y * y
def s_1 (x y : EReal) : EReal := s_0 x y * x + c_0 x y * y
def c_2 (x y : EReal) : EReal := c_1 x y * x - s_1 x y * y
def s_2 (x y : EReal) : EReal := s_1 x y * x + c_1 x y * y
def c_3 (x y : EReal) : EReal := c_2 x y * x - s_2 x y * y
def s_3 (x y : EReal) : EReal := s_2 x y * x + c_2 x y * y
def c_4 (x y : EReal) : EReal := c_3 x y * x - s_3 x y * y
def s_4 (x y : EReal) : EReal := s_3 x y * x + c_3 x y * y
def c_5 (x y : EReal) : EReal := c_4 x y * x - s_4 x y * y
def s_5 (x y : EReal) : EReal := s_4 x y * x + c_4 x y * y
def c_6 (x y : EReal) : EReal := c_5 x y * x - s_5 x y * y
def s_6 (x y : EReal) : EReal := s_5 x y * x + c_5 x y * y
def c_7 (x y : EReal) : EReal := c_6 x y * x - s_6 x y * y
def s_7 (x y : EReal) : EReal := s_6 x y * x + c_6 x y * y
def c_8 (x y : EReal) : EReal := c_7 x y * x - s_7 x y * y
def s_8 (x y : EReal) : EReal := s_7 x y * x + c_7 x y * y
/-- The order-0 azimuthal factor 2^(-1/2), as the source's product of its constant with one. -/
def half (x y : EReal) : EReal := w32 0x3F3504F3#32 * w32 0x3F800000#32

/-! ## The powers r^l -/

def p_0 (r : EReal) : EReal := w32 0x3F800000#32
def p_1 (r : EReal) : EReal := p_0 r * r
def p_2 (r : EReal) : EReal := p_1 r * r
def p_3 (r : EReal) : EReal := p_2 r * r
def p_4 (r : EReal) : EReal := p_3 r * r
def p_5 (r : EReal) : EReal := p_4 r * r
def p_6 (r : EReal) : EReal := p_5 r * r
def p_7 (r : EReal) : EReal := p_6 r * r
def p_8 (r : EReal) : EReal := p_7 r * r

/-! ## The 81 values: degree l, column k = m + l -/

def y_0_0 (x y z r : EReal) : EReal := Ideal.div ((w32 0x3ECC422A#32 * q_0_0 z r) * half x y) (p_0 r)
def y_1_0 (x y z r : EReal) : EReal := Ideal.div ((w32 0xBEFA2A1C#32 * q_1_1 z r) * s_1 x y) (p_1 r)
def y_1_1 (x y z r : EReal) : EReal := Ideal.div ((w32 0x3F30E49C#32 * q_1_0 z r) * half x y) (p_1 r)
def y_1_2 (x y z r : EReal) : EReal := Ideal.div ((w32 0xBEFA2A1C#32 * q_1_1 z r) * c_1 x y) (p_1 r)
def y_2_0 (x y z r : EReal) : EReal := Ideal.div ((w32 0x3E3A762B#32 * q_2_2 z r) * s_2 x y) (p_2 r)
def y_2_1 (x y z r : EReal) : EReal := Ideal.div ((w32 0xBEBA762B#32 * q_2_1 z r) * s_1 x y) (p_2 r)
def y_2_2 (x y z r : EReal) : EReal := Ideal.div ((w32 0x3F645E2E#32 * q_2_0 z r) * half x y) (p_2 r)
def y_2_3 (x y z r : EReal) : EReal := Ideal.div ((w32 0xBEBA762B#32 * q_2_1 z r) * c_1 x y) (p_2 r)
def y_2_4 (x y z r : EReal) : EReal := Ideal.div ((w32 0x3E3A762B#32 * q_2_2 z r) * c_2 x y) (p_2 r)
def y_3_0 (x y z r : EReal) : EReal := Ideal.div ((w32 0xBD211F09#32 * q_3_3 z r) * s_3 x y) (p_3 r)
def y_3_1 (x y z r : EReal) : EReal := Ideal.div ((w32 0x3DC55519#32 * q_3_2 z r) * s_2 x y) (p_3 r)
def y_3_2 (x y z r : EReal) : EReal := Ideal.div ((w32 0xBE9C0145#32 * q_3_1 z r) * s_1 x y) (p_3 r)
def y_3_3 (x y z r : EReal) : EReal := Ideal.div ((w32 0x3F871AB1#32 * q_3_0 z r) * half x y) (p_3 r)
def y_3_4 (x y z r : EReal) : EReal := Ideal.div ((w32 0xBE9C0145#32 * q_3_1 z r) * c_1 x y) (p_3 r)
def y_3_5 (x y z r : EReal) : EReal := Ideal.div ((w32 0x3DC55519#32 * q_3_2 z r) * c_2 x y) (p_3 r)
def y_3_6 (x y z r : EReal) : EReal := Ideal.div ((w32 0xBD211F09#32 * q_3_3 z r) * c_3 x y) (p_3 r)
def y_4_0 (x y z r : EReal) : EReal := Ideal.div ((w32 0x3BC34EF5#32 * q_4_4 z r) * s_4 x y) (p_4 r)
def y_4_1 (x y z r : EReal) : EReal := Ideal.div ((w32 0xBC8A1A9A#32 * q_4_3 z r) * s_3 x y) (p_4 r)
def y_4_2 (x y z r : EReal) : EReal := Ideal.div ((w32 0x3D812F34#32 * q_4_2 z r) * s_2 x y) (p_4 r)
def y_4_3 (x y z r : EReal) : EReal := Ideal.div ((w32 0xBE89054F#32 * q_4_1 z r) * s_1 x y) (p_4 r)
def y_4_4 (x y z r : EReal) : EReal := Ideal.div ((w32 0x3F99319F#32 * q_4_0 z r) * half x y) (p_4 r)
def y_4_5 (x y z r : EReal) : EReal := Ideal.div ((w32 0xBE89054F#32 * q_4_1 z r) * c_1 x y) (p_4 r)
def y_4_6 (x y z r : EReal) : EReal := Ideal.div ((w32 0x3D812F34#32 * q_4_2 z r) * c_2 x y) (p_4 r)
def y_4_7 (x y z r : EReal) : EReal := Ideal.div ((w32 0xBC8A1A9A#32 * q_4_3 z r) * c_3 x y) (p_4 r)
def y_4_8 (x y z r : EReal) : EReal := Ideal.div ((w32 0x3BC34EF5#32 * q_4_4 z r) * c_4 x y) (p_4 r)
def y_5_0 (x y z r : EReal) : EReal := Ideal.div ((w32 0xBA3614C1#32 * q_5_5 z r) * s_5 x y) (p_5 r)
def y_5_1 (x y z r : EReal) : EReal := Ideal.div ((w32 0x3B0FF29E#32 * q_5_4 z r) * s_4 x y) (p_5 r)
def y_5_2 (x y z r : EReal) : EReal := Ideal.div ((w32 0xBC18ADFC#32 * q_5_3 z r) * s_3 x y) (p_5 r)
def y_5_3 (x y z r : EReal) : EReal := Ideal.div ((w32 0x3D3AFE5C#32 * q_5_2 z r) * s_2 x y) (p_5 r)
def y_5_4 (x y z r : EReal) : EReal := Ideal.div ((w32 0xBE775E88#32 * q_5_1 z r) * s_1 x y) (p_5 r)
def y_5_5 (x y z r : EReal) : EReal := Ideal.div ((w32 0x3FA95CB6#32 * q_5_0 z r) * half x y) (p_5 r)
def y_5_6 (x y z r : EReal) : EReal := Ideal.div ((w32 0xBE775E88#32 * q_5_1 z r) * c_1 x y) (p_5 r)
def y_5_7 (x y z r : EReal) : EReal := Ideal.div ((w32 0x3D3AFE5C#32 * q_5_2 z r) * c_2 x y) (p_5 r)
def y_5_8 (x y z r : EReal) : EReal := Ideal.div ((w32 0xBC18ADFC#32 * q_5_3 z r) * c_3 x y) (p_5 r)
def y_5_9 (x y z r : EReal) : EReal := Ideal.div ((w32 0x3B0FF29E#32 * q_5_4 z r) * c_4 x y) (p_5 r)
def y_5_10 (x y z r : EReal) : EReal := Ideal.div ((w32 0xBA3614C1#32 * q_5_5 z r) * c_5 x y) (p_5 r)
def y_6_0 (x y z r : EReal) : EReal := Ideal.div ((w32 0x3889D46F#32 * q_6_6 z r) * s_6 x y) (p_6 r)
def y_6_1 (x y z r : EReal) : EReal := Ideal.div ((w32 0xB96EBA6E#32 * q_6_5 z r) * s_5 x y) (p_6 r)
def y_6_2 (x y z r : EReal) : EReal := Ideal.div ((w32 0x3A8BF783#32 * q_6_4 z r) * s_4 x y) (p_6 r)
def y_6_3 (x y z r : EReal) : EReal := Ideal.div ((w32 0xBBBFA851#32 * q_6_3 z r) * s_3 x y) (p_6 r)
def y_6_4 (x y z r : EReal) : EReal := Ideal.div ((w32 0x3D0FBE3D#32 * q_6_2 z r) * s_2 x y) (p_6 r)
def y_6_5 (x y z r : EReal) : EReal := Ideal.div ((w32 0xBE63471F#32 * q_6_1 z r) * s_1 x y) (p_6 r)
def y_6_6 (x y z r : EReal) : EReal := Ideal.div ((w32 0x3FB81DB7#32 * q_6_0 z r) * half x y) (p_6 r)
def y_6_7 (x y z r : EReal) : EReal := Ideal.div ((w32 0xBE63471F#32 * q_6_1 z r) * c_1 x y) (p_6 r)
def y_6_8 (x y z r : EReal) : EReal := Ideal.div ((w32 0x3D0FBE3D#32 * q_6_2 z r) * c_2 x y) (p_6 r)
def y_6_9 (x y z r : EReal) : EReal := Ideal.div ((w32 0xBBBFA851#32 * q_6_3 z r) * c_3 x y) (p_6 r)
def y_6_10 (x y z r : EReal) : EReal := Ideal.div ((w32 0x3A8BF783#32 * q_6_4 z r) * c_4 x y) (p_6 r)
def y_6_11 (x y z r : EReal) : EReal := Ideal.div ((w32 0xB96EBA6E#32 * q_6_5 z r) * c_5 x y) (p_6 r)
def y_6_12 (x y z r : EReal) : EReal := Ideal.div ((w32 0x3889D46F#32 * q_6_6 z r) * c_6 x y) (p_6 r)
def y_7_0 (x y z r : EReal) : EReal := Ideal.div ((w32 0xB6AF9735#32 * q_7_7 z r) * s_7 x y) (p_7 r)
def y_7_1 (x y z r : EReal) : EReal := Ideal.div ((w32 0x37A44001#32 * q_7_6 z r) * s_6 x y) (p_7 r)
def y_7_2 (x y z r : EReal) : EReal := Ideal.div ((w32 0xB8D160E7#32 * q_7_5 z r) * s_5 x y) (p_7 r)
def y_7_3 (x y z r : EReal) : EReal := Ideal.div ((w32 0x3A1D08AD#32 * q_7_4 z r) * s_4 x y) (p_7 r)
def y_7_4 (x y z r : EReal) : EReal := Ideal.div ((w32 0xBB8234A4#32 * q_7_3 z r) * s_3 x y) (p_7 r)
def y_7_5 (x y z r : EReal) : EReal := Ideal.div ((w32 0x3CE62C56#32 * q_7_2 z r) * s_2 x y) (p_7 r)
def y_7_6 (x y z r : EReal) : EReal := Ideal.div ((w32 0xBE536D76#32 * q_7_1 z r) * s_1 x y) (p_7 r)
def y_7_7 (x y z r : EReal) : EReal := Ideal.div ((w32 0x3FC5C5BB#32 * q_7_0 z r) * half x y) (p_7 r)
def y_7_8 (x y z r : EReal) : EReal := Ideal.div ((w32 0xBE536D76#32 * q_7_1 z r) * c_1 x y) (p_7 r)
def y_7_9 (x y z r : EReal) : EReal := Ideal.div ((w32 0x3CE62C56#32 * q_7_2 z r) * c_2 x y) (p_7 r)
def y_7_10 (x y z r : EReal) : EReal := Ideal.div ((w32 0xBB8234A4#32 * q_7_3 z r) * c_3 x y) (p_7 r)
def y_7_11 (x y z r : EReal) : EReal := Ideal.div ((w32 0x3A1D08AD#32 * q_7_4 z r) * c_4 x y) (p_7 r)
def y_7_12 (x y z r : EReal) : EReal := Ideal.div ((w32 0xB8D160E7#32 * q_7_5 z r) * c_5 x y) (p_7 r)
def y_7_13 (x y z r : EReal) : EReal := Ideal.div ((w32 0x37A44001#32 * q_7_6 z r) * c_6 x y) (p_7 r)
def y_7_14 (x y z r : EReal) : EReal := Ideal.div ((w32 0xB6AF9735#32 * q_7_7 z r) * c_7 x y) (p_7 r)
def y_8_0 (x y z r : EReal) : EReal := Ideal.div ((w32 0x34C10F9F#32 * q_8_8 z r) * s_8 x y) (p_8 r)
def y_8_1 (x y z r : EReal) : EReal := Ideal.div ((w32 0xB5C10F9F#32 * q_8_7 z r) * s_7 x y) (p_8 r)
def y_8_2 (x y z r : EReal) : EReal := Ideal.div ((w32 0x37042E0A#32 * q_8_6 z r) * s_6 x y) (p_8 r)
def y_8_3 (x y z r : EReal) : EReal := Ideal.div ((w32 0xB85627E4#32 * q_8_5 z r) * s_5 x y) (p_8 r)
def y_8_4 (x y z r : EReal) : EReal := Ideal.div ((w32 0x39C10997#32 * q_8_4 z r) * s_4 x y) (p_8 r)
def y_8_5 (x y z r : EReal) : EReal := Ideal.div ((w32 0xBB3AE860#32 * q_8_3 z r) * s_3 x y) (p_8 r)
def y_8_6 (x y z r : EReal) : EReal := Ideal.div ((w32 0x3CBDCE41#32 * q_8_2 z r) * s_2 x y) (p_8 r)
def y_8_7 (x y z r : EReal) : EReal := Ideal.div ((w32 0xBE4680E7#32 * q_8_1 z r) * s_1 x y) (p_8 r)
def y_8_8 (x y z r : EReal) : EReal := Ideal.div ((w32 0x3FD28B77#32 * q_8_0 z r) * half x y) (p_8 r)
def y_8_9 (x y z r : EReal) : EReal := Ideal.div ((w32 0xBE4680E7#32 * q_8_1 z r) * c_1 x y) (p_8 r)
def y_8_10 (x y z r : EReal) : EReal := Ideal.div ((w32 0x3CBDCE41#32 * q_8_2 z r) * c_2 x y) (p_8 r)
def y_8_11 (x y z r : EReal) : EReal := Ideal.div ((w32 0xBB3AE860#32 * q_8_3 z r) * c_3 x y) (p_8 r)
def y_8_12 (x y z r : EReal) : EReal := Ideal.div ((w32 0x39C10997#32 * q_8_4 z r) * c_4 x y) (p_8 r)
def y_8_13 (x y z r : EReal) : EReal := Ideal.div ((w32 0xB85627E4#32 * q_8_5 z r) * c_5 x y) (p_8 r)
def y_8_14 (x y z r : EReal) : EReal := Ideal.div ((w32 0x37042E0A#32 * q_8_6 z r) * c_6 x y) (p_8 r)
def y_8_15 (x y z r : EReal) : EReal := Ideal.div ((w32 0xB5C10F9F#32 * q_8_7 z r) * c_7 x y) (p_8 r)
def y_8_16 (x y z r : EReal) : EReal := Ideal.div ((w32 0x34C10F9F#32 * q_8_8 z r) * c_8 x y) (p_8 r)

/-! ## A degree's row, and the degree's array over all points -/

/-- Degree 0: the value of column k. -/
def row_0 : Fin 1 → EReal → EReal → EReal → EReal → EReal := fun
  | 0 => y_0_0
  | ⟨_ + 1, h⟩ => absurd h (Nat.not_lt.2 (Nat.le_add_left _ _))
/-- Degree 1: the value of column k. -/
def row_1 : Fin 3 → EReal → EReal → EReal → EReal → EReal := fun
  | 0 => y_1_0 | 1 => y_1_1 | 2 => y_1_2
  | ⟨_ + 3, h⟩ => absurd h (Nat.not_lt.2 (Nat.le_add_left _ _))
/-- Degree 2: the value of column k. -/
def row_2 : Fin 5 → EReal → EReal → EReal → EReal → EReal := fun
  | 0 => y_2_0 | 1 => y_2_1 | 2 => y_2_2 | 3 => y_2_3 | 4 => y_2_4
  | ⟨_ + 5, h⟩ => absurd h (Nat.not_lt.2 (Nat.le_add_left _ _))
/-- Degree 3: the value of column k. -/
def row_3 : Fin 7 → EReal → EReal → EReal → EReal → EReal := fun
  | 0 => y_3_0 | 1 => y_3_1 | 2 => y_3_2 | 3 => y_3_3 | 4 => y_3_4 | 5 => y_3_5 | 6 => y_3_6
  | ⟨_ + 7, h⟩ => absurd h (Nat.not_lt.2 (Nat.le_add_left _ _))
/-- Degree 4: the value of column k. -/
def row_4 : Fin 9 → EReal → EReal → EReal → EReal → EReal := fun
  | 0 => y_4_0 | 1 => y_4_1 | 2 => y_4_2 | 3 => y_4_3 | 4 => y_4_4 | 5 => y_4_5 | 6 => y_4_6 | 7 => y_4_7 | 8 => y_4_8
  | ⟨_ + 9, h⟩ => absurd h (Nat.not_lt.2 (Nat.le_add_left _ _))
/-- Degree 5: the value of column k. -/
def row_5 : Fin 11 → EReal → EReal → EReal → EReal → EReal := fun
  | 0 => y_5_0 | 1 => y_5_1 | 2 => y_5_2 | 3 => y_5_3 | 4 => y_5_4 | 5 => y_5_5 | 6 => y_5_6 | 7 => y_5_7 | 8 => y_5_8 | 9 => y_5_9 | 10 => y_5_10
  | ⟨_ + 11, h⟩ => absurd h (Nat.not_lt.2 (Nat.le_add_left _ _))
/-- Degree 6: the value of column k. -/
def row_6 : Fin 13 → EReal → EReal → EReal → EReal → EReal := fun
  | 0 => y_6_0 | 1 => y_6_1 | 2 => y_6_2 | 3 => y_6_3 | 4 => y_6_4 | 5 => y_6_5 | 6 => y_6_6 | 7 => y_6_7 | 8 => y_6_8 | 9 => y_6_9 | 10 => y_6_10 | 11 => y_6_11 | 12 => y_6_12
  | ⟨_ + 13, h⟩ => absurd h (Nat.not_lt.2 (Nat.le_add_left _ _))
/-- Degree 7: the value of column k. -/
def row_7 : Fin 15 → EReal → EReal → EReal → EReal → EReal := fun
  | 0 => y_7_0 | 1 => y_7_1 | 2 => y_7_2 | 3 => y_7_3 | 4 => y_7_4 | 5 => y_7_5 | 6 => y_7_6 | 7 => y_7_7 | 8 => y_7_8 | 9 => y_7_9 | 10 => y_7_10 | 11 => y_7_11 | 12 => y_7_12 | 13 => y_7_13 | 14 => y_7_14
  | ⟨_ + 15, h⟩ => absurd h (Nat.not_lt.2 (Nat.le_add_left _ _))
/-- Degree 8: the value of column k. -/
def row_8 : Fin 17 → EReal → EReal → EReal → EReal → EReal := fun
  | 0 => y_8_0 | 1 => y_8_1 | 2 => y_8_2 | 3 => y_8_3 | 4 => y_8_4 | 5 => y_8_5 | 6 => y_8_6 | 7 => y_8_7 | 8 => y_8_8 | 9 => y_8_9 | 10 => y_8_10 | 11 => y_8_11 | 12 => y_8_12 | 13 => y_8_13 | 14 => y_8_14 | 15 => y_8_15 | 16 => y_8_16
  | ⟨_ + 17, h⟩ => absurd h (Nat.not_lt.2 (Nat.le_add_left _ _))

/-- The arrays of the four coordinates: one extended real per point. -/
abbrev Pts : Type := (⟨1, ![2000000]⟩ : Shape).Idx → EReal

/-- Degree 0 over all points: entry (n, k) is column k's value at point n's coordinates. -/
def Y_0 (X Y Z R : Pts) : (⟨2, ![2000000, 1]⟩ : Shape).Idx → EReal := fun j =>
  row_0 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_0_apply (X Y Z R : Pts) (n : Fin 2000000) (k : Fin 1) :
    Y_0 X Y Z R (ix2 n k) = row_0 k (X (ix1 n)) (Y (ix1 n)) (Z (ix1 n)) (R (ix1 n)) := rfl
/-- Degree 1 over all points: entry (n, k) is column k's value at point n's coordinates. -/
def Y_1 (X Y Z R : Pts) : (⟨2, ![2000000, 3]⟩ : Shape).Idx → EReal := fun j =>
  row_1 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_1_apply (X Y Z R : Pts) (n : Fin 2000000) (k : Fin 3) :
    Y_1 X Y Z R (ix2 n k) = row_1 k (X (ix1 n)) (Y (ix1 n)) (Z (ix1 n)) (R (ix1 n)) := rfl
/-- Degree 2 over all points: entry (n, k) is column k's value at point n's coordinates. -/
def Y_2 (X Y Z R : Pts) : (⟨2, ![2000000, 5]⟩ : Shape).Idx → EReal := fun j =>
  row_2 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_2_apply (X Y Z R : Pts) (n : Fin 2000000) (k : Fin 5) :
    Y_2 X Y Z R (ix2 n k) = row_2 k (X (ix1 n)) (Y (ix1 n)) (Z (ix1 n)) (R (ix1 n)) := rfl
/-- Degree 3 over all points: entry (n, k) is column k's value at point n's coordinates. -/
def Y_3 (X Y Z R : Pts) : (⟨2, ![2000000, 7]⟩ : Shape).Idx → EReal := fun j =>
  row_3 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_3_apply (X Y Z R : Pts) (n : Fin 2000000) (k : Fin 7) :
    Y_3 X Y Z R (ix2 n k) = row_3 k (X (ix1 n)) (Y (ix1 n)) (Z (ix1 n)) (R (ix1 n)) := rfl
/-- Degree 4 over all points: entry (n, k) is column k's value at point n's coordinates. -/
def Y_4 (X Y Z R : Pts) : (⟨2, ![2000000, 9]⟩ : Shape).Idx → EReal := fun j =>
  row_4 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_4_apply (X Y Z R : Pts) (n : Fin 2000000) (k : Fin 9) :
    Y_4 X Y Z R (ix2 n k) = row_4 k (X (ix1 n)) (Y (ix1 n)) (Z (ix1 n)) (R (ix1 n)) := rfl
/-- Degree 5 over all points: entry (n, k) is column k's value at point n's coordinates. -/
def Y_5 (X Y Z R : Pts) : (⟨2, ![2000000, 11]⟩ : Shape).Idx → EReal := fun j =>
  row_5 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_5_apply (X Y Z R : Pts) (n : Fin 2000000) (k : Fin 11) :
    Y_5 X Y Z R (ix2 n k) = row_5 k (X (ix1 n)) (Y (ix1 n)) (Z (ix1 n)) (R (ix1 n)) := rfl
/-- Degree 6 over all points: entry (n, k) is column k's value at point n's coordinates. -/
def Y_6 (X Y Z R : Pts) : (⟨2, ![2000000, 13]⟩ : Shape).Idx → EReal := fun j =>
  row_6 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_6_apply (X Y Z R : Pts) (n : Fin 2000000) (k : Fin 13) :
    Y_6 X Y Z R (ix2 n k) = row_6 k (X (ix1 n)) (Y (ix1 n)) (Z (ix1 n)) (R (ix1 n)) := rfl
/-- Degree 7 over all points: entry (n, k) is column k's value at point n's coordinates. -/
def Y_7 (X Y Z R : Pts) : (⟨2, ![2000000, 15]⟩ : Shape).Idx → EReal := fun j =>
  row_7 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_7_apply (X Y Z R : Pts) (n : Fin 2000000) (k : Fin 15) :
    Y_7 X Y Z R (ix2 n k) = row_7 k (X (ix1 n)) (Y (ix1 n)) (Z (ix1 n)) (R (ix1 n)) := rfl
/-- Degree 8 over all points: entry (n, k) is column k's value at point n's coordinates. -/
def Y_8 (X Y Z R : Pts) : (⟨2, ![2000000, 17]⟩ : Shape).Idx → EReal := fun j =>
  row_8 ⟨(j 1).val, idx2_lt1 j⟩ (X (ix1 ⟨(j 0).val, idx2_lt0 j⟩)) (Y (ix1 ⟨(j 0).val, idx2_lt0 j⟩)) (Z (ix1 ⟨(j 0).val, idx2_lt0 j⟩)) (R (ix1 ⟨(j 0).val, idx2_lt0 j⟩))
theorem Y_8_apply (X Y Z R : Pts) (n : Fin 2000000) (k : Fin 17) :
    Y_8 X Y Z R (ix2 n k) = row_8 k (X (ix1 n)) (Y (ix1 n)) (Z (ix1 n)) (R (ix1 n)) := rfl

end Cert.Harmonics

end
-- ==== Proof.KernelChan.lean ====
/- The 81 values of a point in the order the kernel stores them: channel l² + k is degree l, column k. -/
import proofs.«118161_j37666863186375_1_alg».proof.Proof.Spec

noncomputable section

namespace Cert.Harmonics

/-- Channel ch of the 81: the value of degree l, column k, where ch = l² + k. -/
def chan : Fin 81 → EReal → EReal → EReal → EReal → EReal := fun
  | 0 => y_0_0
  | 1 => y_1_0
  | 2 => y_1_1
  | 3 => y_1_2
  | 4 => y_2_0
  | 5 => y_2_1
  | 6 => y_2_2
  | 7 => y_2_3
  | 8 => y_2_4
  | 9 => y_3_0
  | 10 => y_3_1
  | 11 => y_3_2
  | 12 => y_3_3
  | 13 => y_3_4
  | 14 => y_3_5
  | 15 => y_3_6
  | 16 => y_4_0
  | 17 => y_4_1
  | 18 => y_4_2
  | 19 => y_4_3
  | 20 => y_4_4
  | 21 => y_4_5
  | 22 => y_4_6
  | 23 => y_4_7
  | 24 => y_4_8
  | 25 => y_5_0
  | 26 => y_5_1
  | 27 => y_5_2
  | 28 => y_5_3
  | 29 => y_5_4
  | 30 => y_5_5
  | 31 => y_5_6
  | 32 => y_5_7
  | 33 => y_5_8
  | 34 => y_5_9
  | 35 => y_5_10
  | 36 => y_6_0
  | 37 => y_6_1
  | 38 => y_6_2
  | 39 => y_6_3
  | 40 => y_6_4
  | 41 => y_6_5
  | 42 => y_6_6
  | 43 => y_6_7
  | 44 => y_6_8
  | 45 => y_6_9
  | 46 => y_6_10
  | 47 => y_6_11
  | 48 => y_6_12
  | 49 => y_7_0
  | 50 => y_7_1
  | 51 => y_7_2
  | 52 => y_7_3
  | 53 => y_7_4
  | 54 => y_7_5
  | 55 => y_7_6
  | 56 => y_7_7
  | 57 => y_7_8
  | 58 => y_7_9
  | 59 => y_7_10
  | 60 => y_7_11
  | 61 => y_7_12
  | 62 => y_7_13
  | 63 => y_7_14
  | 64 => y_8_0
  | 65 => y_8_1
  | 66 => y_8_2
  | 67 => y_8_3
  | 68 => y_8_4
  | 69 => y_8_5
  | 70 => y_8_6
  | 71 => y_8_7
  | 72 => y_8_8
  | 73 => y_8_9
  | 74 => y_8_10
  | 75 => y_8_11
  | 76 => y_8_12
  | 77 => y_8_13
  | 78 => y_8_14
  | 79 => y_8_15
  | 80 => y_8_16
  | ⟨_ + 81, h⟩ => absurd h (Nat.not_lt.2 (Nat.le_add_left _ _))

/-- Degree 0's columns are channels 0 to 0. -/
theorem chan_row_0 (k : Fin 1) (h : 0 + k.val < 81) : chan ⟨0 + k.val, h⟩ = row_0 k :=
  match k with
  | ⟨0, _⟩ => rfl
  | ⟨_ + 1, hk⟩ => absurd hk (Nat.not_lt.2 (Nat.le_add_left _ _))
/-- Degree 1's columns are channels 1 to 3. -/
theorem chan_row_1 (k : Fin 3) (h : 1 + k.val < 81) : chan ⟨1 + k.val, h⟩ = row_1 k :=
  match k with
  | ⟨0, _⟩ => rfl
  | ⟨1, _⟩ => rfl
  | ⟨2, _⟩ => rfl
  | ⟨_ + 3, hk⟩ => absurd hk (Nat.not_lt.2 (Nat.le_add_left _ _))
/-- Degree 2's columns are channels 4 to 8. -/
theorem chan_row_2 (k : Fin 5) (h : 4 + k.val < 81) : chan ⟨4 + k.val, h⟩ = row_2 k :=
  match k with
  | ⟨0, _⟩ => rfl
  | ⟨1, _⟩ => rfl
  | ⟨2, _⟩ => rfl
  | ⟨3, _⟩ => rfl
  | ⟨4, _⟩ => rfl
  | ⟨_ + 5, hk⟩ => absurd hk (Nat.not_lt.2 (Nat.le_add_left _ _))
/-- Degree 3's columns are channels 9 to 15. -/
theorem chan_row_3 (k : Fin 7) (h : 9 + k.val < 81) : chan ⟨9 + k.val, h⟩ = row_3 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨_ + 7, hk⟩ => absurd hk (Nat.not_lt.2 (Nat.le_add_left _ _))
/-- Degree 4's columns are channels 16 to 24. -/
theorem chan_row_4 (k : Fin 9) (h : 16 + k.val < 81) : chan ⟨16 + k.val, h⟩ = row_4 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨_ + 9, hk⟩ => absurd hk (Nat.not_lt.2 (Nat.le_add_left _ _))
/-- Degree 5's columns are channels 25 to 35. -/
theorem chan_row_5 (k : Fin 11) (h : 25 + k.val < 81) : chan ⟨25 + k.val, h⟩ = row_5 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨_ + 11, hk⟩ => absurd hk (Nat.not_lt.2 (Nat.le_add_left _ _))
/-- Degree 6's columns are channels 36 to 48. -/
theorem chan_row_6 (k : Fin 13) (h : 36 + k.val < 81) : chan ⟨36 + k.val, h⟩ = row_6 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨_ + 13, hk⟩ => absurd hk (Nat.not_lt.2 (Nat.le_add_left _ _))
/-- Degree 7's columns are channels 49 to 63. -/
theorem chan_row_7 (k : Fin 15) (h : 49 + k.val < 81) : chan ⟨49 + k.val, h⟩ = row_7 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨_ + 15, hk⟩ => absurd hk (Nat.not_lt.2 (Nat.le_add_left _ _))
/-- Degree 8's columns are channels 64 to 80. -/
theorem chan_row_8 (k : Fin 17) (h : 64 + k.val < 81) : chan ⟨64 + k.val, h⟩ = row_8 k :=
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨_ + 17, hk⟩ => absurd hk (Nat.not_lt.2 (Nat.le_add_left _ _))

end Cert.Harmonics

end
-- ==== Proof.KernelChanArr.lean ====
/- The kernel's output as ONE function of four [R, 128] arrays of coordinates: the [81, R, 128] array whose entry (ch, p, q) is
   channel ch's value of the four entries (p, q). With R = 200 this is what the body leaves in its output block; with R = 15800 it is
   the whole output array. -/
import proofs.«118161_j37666863186375_1_alg».proof.Proof.KernelChan

noncomputable section

namespace Cert.Harmonics

open Idealize.ShloMosaic Idealize.ShloMosaic.ValueIdx

/-- Entry (ch, p, q): channel ch at the point whose coordinates are the four arrays' entries (p, q). -/
def chanArr {R : Nat} (X Y Z W : (⟨2, ![R, 128]⟩ : Shape).Idx → EReal) : (⟨3, ![81, R, 128]⟩ : Shape).Idx → EReal := fun j =>
  chan ⟨(j 0).val, show (j 0).val < 81 from (j 0).isLt⟩
    (X (ix2 ⟨(j 1).val, show (j 1).val < R from (j 1).isLt⟩ ⟨(j 2).val, show (j 2).val < 128 from (j 2).isLt⟩))
    (Y (ix2 ⟨(j 1).val, show (j 1).val < R from (j 1).isLt⟩ ⟨(j 2).val, show (j 2).val < 128 from (j 2).isLt⟩))
    (Z (ix2 ⟨(j 1).val, show (j 1).val < R from (j 1).isLt⟩ ⟨(j 2).val, show (j 2).val < 128 from (j 2).isLt⟩))
    (W (ix2 ⟨(j 1).val, show (j 1).val < R from (j 1).isLt⟩ ⟨(j 2).val, show (j 2).val < 128 from (j 2).isLt⟩))

theorem chanArr_apply {R : Nat} (X Y Z W : (⟨2, ![R, 128]⟩ : Shape).Idx → EReal) (ch : Fin 81) (p : Fin R) (q : Fin 128) :
    chanArr X Y Z W (ix3 ch p q) = chan ch (X (ix2 p q)) (Y (ix2 p q)) (Z (ix2 p q)) (W (ix2 p q)) := rfl

end Cert.Harmonics

end
-- ==== Proof.KernelLayout.lean ====
/- Reading the kernel's stored pieces: the cast that adds a unit axis in front of a [200, 128] value, read at (a, p, q), is the
   value at (p, q); and the rectangle of one channel of the [81, 200, 128] output block places (a, p, q) at (channel, p, q). -/
import Idealize.ShloMosaic.PureOps.Ideal
import Idealize.ShloMosaic.Lib.ValueIdx
import Idealize.ShloMosaic.Lib.Pipeline.Value

noncomputable section

namespace Cert.KernelIdeal.Harm

open Idealize.ShloMosaic Idealize.ShloMosaic.ValueIdx

/-- A [200, 128] value viewed as [1, 200, 128]: entry (a, p, q) is entry (p, q). -/
theorem cast_add {α : Type} (v : (⟨2, ![200, 128]⟩ : Shape).Idx → α)
    (h : (⟨2, ![200, 128]⟩ : Shape).ShapeCasts ⟨3, ![1, 200, 128]⟩) (a : Fin 1) (p : Fin 200) (q : Fin 128) :
    shapeCast ⟨3, ![1, 200, 128]⟩ v h (ix3 a p q) = v (ix2 p q) := by
  refine (shapeCast_addUnit_apply ![200, 128] v h (ix3 a p q)).trans (congrArg v ?_)
  funext d
  match d with
  | ⟨0, _⟩ => rfl
  | ⟨1, _⟩ => rfl

/-- A stored value ends with that cast; below it, it is pointwise arithmetic of the loaded values, written in the
    specification in the same order: unfold the outermost definition, read the cast, and the two sides are one expression. -/
macro "piece " n:ident : tactic => `(tactic| (unfold $n:ident; refine (cast_add _ _ _ _ _).trans ?_; rfl))

/-- The unit-stride rectangle of one channel: (a, p, q) of the piece is (channel, p, q) of the block. -/
theorem emb_chan (ch : Nat) (hch : ch < 81)
    (inb : ∀ a, (![ch, 0, 0] : Fin 3 → Nat) a + (![1, 200, 128] : Fin 3 → Nat) a ≤ (⟨3, ![81, 200, 128]⟩ : Shape).size a)
    (a : Fin 1) (p : Fin 200) (q : Fin 128) :
    (Rect.unit (s := ⟨3, ![81, 200, 128]⟩) ![ch, 0, 0] ![1, 200, 128] inb).emb (ix3 a p q) = ix3 (⟨ch, hch⟩ : Fin 81) p q := by
  funext d
  apply Fin.ext
  match d with
  | ⟨0, _⟩ => show ch + 1 * a.val = ch; omega
  | ⟨1, _⟩ => show 0 + 1 * p.val = p.val; omega
  | ⟨2, _⟩ => show 0 + 1 * q.val = q.val; omega

end Cert.KernelIdeal.Harm

end
-- ==== Proof.KernelBlockLemmas.lean ====
/- The output block after the body, piece by piece. A piece is one channel's [1, 200, 128] slab; what is stored there is a function
   of the four loaded blocks, and each load is of the whole [200, 128] block, so the loaded values are the blocks themselves. -/
import proofs.«118161_j37666863186375_1_alg».proof.Proof.Gen.KernelIdeal.Frame
import proofs.«118161_j37666863186375_1_alg».proof.Proof.KernelChanArr
import proofs.«118161_j37666863186375_1_alg».proof.Proof.KernelLayout

noncomputable section

namespace Cert.KernelIdeal.Harm

open Cert.KernelIdeal Cert.KernelIdeal.Gen Idealize.ShloMosaic Idealize.ShloMosaic.ValueIdx Cert.Harmonics

theorem zero2 : (![0, 0] : Fin 2 → Nat) = fun _ => 0 := funext fun a => by fin_cases a <;> rfl

/-- A load of the whole block, cast to its own shape, is the block. -/
theorem leaf (x : Vec Ideal S200x128 .f32) (h : S200x128.ShapeCasts S200x128) : shapeCast S200x128 (View.ld x r0_0) h = x :=
  (shapeCast_self (s := S200x128) (View.ld x r0_0) h).trans (View.ld_unit_zero (S := S200x128) zero2 _ x)

theorem pay2_ld (x : Vec Ideal S200x128 .f32) : k0_pay2 (View.ld x r0_0) = x := by unfold k0_pay2; exact leaf x _
theorem pay3_ld (x : Vec Ideal S200x128 .f32) : k0_pay3 (View.ld x r0_0) = x := by unfold k0_pay3; exact leaf x _
theorem pay4_ld (x : Vec Ideal S200x128 .f32) : k0_pay4 (View.ld x r0_0) = x := by unfold k0_pay4; exact leaf x _
theorem pay5_ld (x : Vec Ideal S200x128 .f32) : k0_pay5 (View.ld x r0_0) = x := by unfold k0_pay5; exact leaf x _

/-- One piece of the block: if the stored value at (a, p, q) is channel ch's value of the loaded values at (p, q), then the piece is
    the block function's restriction to the channel's rectangle. -/
theorem piece_ok (x0 x1 x2 x3 : Vec Ideal S200x128 .f32) (ch : Nat) (hch : ch < 81)
    (inb : ∀ a, (![ch, 0, 0] : Fin 3 → Nat) a + S1x200x128.size a ≤ S81x200x128.size a) (P : Vec Ideal S1x200x128 .f32)
    (hP : ∀ (a : Fin 1) (p : Fin 200) (q : Fin 128), P (ix3 a p q)
      = chan ⟨ch, hch⟩ (k0_pay2 (View.ld x0 r0_0) (ix2 p q)) (k0_pay3 (View.ld x1 r0_0) (ix2 p q))
          (k0_pay4 (View.ld x2 r0_0) (ix2 p q)) (k0_pay5 (View.ld x3 r0_0) (ix2 p q)))
    (x : S1x200x128.Idx) :
    P x = chanArr (R := 200) x0 x1 x2 x3 ((Rect.unit (s := S81x200x128) ![ch, 0, 0] S1x200x128.size inb).emb x) := by
  obtain ⟨a, p, q, rfl⟩ : ∃ (a : Fin 1) (p : Fin 200) (q : Fin 128), x = ix3 a p q := ⟨x 0, x 1, x 2, eq_ix3 x⟩
  have e := emb_chan ch hch inb a p q
  calc P (ix3 a p q)
      = chan ⟨ch, hch⟩ (x0 (ix2 p q)) (x1 (ix2 p q)) (x2 (ix2 p q)) (x3 (ix2 p q)) := by
        rw [hP a p q, pay2_ld, pay3_ld, pay4_ld, pay5_ld]
    _ = chanArr (R := 200) x0 x1 x2 x3 (ix3 (⟨ch, hch⟩ : Fin 81) p q) := rfl
    _ = _ := congrArg (chanArr (R := 200) x0 x1 x2 x3) e.symm

/-- The output block is what the body's 81 stores leave, the last store first; the stores tile the block (the generated cover), so
    once every store's value is the block function on its own rectangle (the rows), the block is the block function everywhere. -/
macro "block_of_rows " rows:term : tactic =>
  `(tactic| (unfold out0_4
             refine View.canon_apply_of_pieces (Val := Elt Ideal) (S := S81x200x128) (e := EltTy.f32) (chanArr (R := 200) _ _ _ _) _
               (List.forall_iff_forall_mem.mp ?_) _
               (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
             simp only [List.Forall]
             exact $rows))

end Cert.KernelIdeal.Harm

end
-- ==== Proof.KernelPieces0.lean ====
/- Channels 0 to 24: the value the body stores for the channel, read at (a, p, q) of its [1, 200, 128] piece, is the
   specification's value of the four loaded values at (p, q). Both are the same expression; the one step that is not
   definitional is the cast that adds the unit axis. -/
import proofs.«118161_j37666863186375_1_alg».proof.Proof.Gen.KernelIdeal.Skeleton
import proofs.«118161_j37666863186375_1_alg».proof.Proof.Spec
import proofs.«118161_j37666863186375_1_alg».proof.Proof.KernelLayout

noncomputable section

namespace Cert.KernelIdeal.Harm

open Cert.KernelIdeal Cert.KernelIdeal.Gen Idealize.ShloMosaic Idealize.ShloMosaic.ValueIdx Cert.Harmonics

variable (v0 v1 v2 v3 : Vec Ideal S200x128 .f32) (a : Fin 1) (p : Fin 200) (q : Fin 128)

theorem piece_0 : (k0_pay84 (k0_pay83 (k0_pay7 (F := Ideal)))) (ix3 a p q)
    = y_0_0 (k0_pay2 v0 (ix2 p q)) (k0_pay3 v1 (ix2 p q)) (k0_pay4 v2 (ix2 p q)) (k0_pay5 v3 (ix2 p q)) := by piece k0_pay84
theorem piece_1 : (k0_pay86 (k0_pay5 (v3)) (k0_pay8 (F := Ideal)) (k0_pay66 (k0_pay3 (v1)) (k0_pay62 (F := Ideal)) (k0_pay65 (k0_pay2 (v0)))) (k0_pay82 (F := Ideal))) (ix3 a p q)
    = y_1_0 (k0_pay2 v0 (ix2 p q)) (k0_pay3 v1 (ix2 p q)) (k0_pay4 v2 (ix2 p q)) (k0_pay5 v3 (ix2 p q)) := by piece k0_pay86
theorem piece_2 : (k0_pay87 (k0_pay5 (v3)) (k0_pay16 (v2)) (k0_pay81 (F := Ideal)) (k0_pay82 (F := Ideal))) (ix3 a p q)
    = y_1_1 (k0_pay2 v0 (ix2 p q)) (k0_pay3 v1 (ix2 p q)) (k0_pay4 v2 (ix2 p q)) (k0_pay5 v3 (ix2 p q)) := by piece k0_pay87
theorem piece_3 : (k0_pay88 (k0_pay5 (v3)) (k0_pay8 (F := Ideal)) (k0_pay64 (k0_pay2 (v0)) (k0_pay3 (v1))) (k0_pay82 (F := Ideal))) (ix3 a p q)
    = y_1_2 (k0_pay2 v0 (ix2 p q)) (k0_pay3 v1 (ix2 p q)) (k0_pay4 v2 (ix2 p q)) (k0_pay5 v3 (ix2 p q)) := by piece k0_pay88
theorem piece_4 : (k0_pay90 (k0_pay5 (v3)) (k0_pay9 (F := Ideal)) (k0_pay68 (k0_pay2 (v0)) (k0_pay3 (v1)) (k0_pay62 (F := Ideal)) (k0_pay64 (k0_pay2 (v0)) (k0_pay3 (v1))) (k0_pay65 (k0_pay2 (v0)))) (k0_pay82 (F := Ideal))) (ix3 a p q)
    = y_2_0 (k0_pay2 v0 (ix2 p q)) (k0_pay3 v1 (ix2 p q)) (k0_pay4 v2 (ix2 p q)) (k0_pay5 v3 (ix2 p q)) := by piece k0_pay90
theorem piece_5 : (k0_pay92 (k0_pay91 (k0_pay5 (v3)) (k0_pay17 (v2)) (k0_pay66 (k0_pay3 (v1)) (k0_pay62 (F := Ideal)) (k0_pay65 (k0_pay2 (v0)))) (k0_pay82 (F := Ideal)))) (ix3 a p q)
    = y_2_1 (k0_pay2 v0 (ix2 p q)) (k0_pay3 v1 (ix2 p q)) (k0_pay4 v2 (ix2 p q)) (k0_pay5 v3 (ix2 p q)) := by piece k0_pay92
theorem piece_6 : (k0_pay93 (k0_pay24 (k0_pay4 (v2)) (k0_pay6 (v3)) (k0_pay7 (F := Ideal)) (k0_pay16 (v2))) (k0_pay81 (F := Ideal)) (k0_pay89 (k0_pay5 (v3)) (k0_pay82 (F := Ideal)))) (ix3 a p q)
    = y_2_2 (k0_pay2 v0 (ix2 p q)) (k0_pay3 v1 (ix2 p q)) (k0_pay4 v2 (ix2 p q)) (k0_pay5 v3 (ix2 p q)) := by piece k0_pay93
theorem piece_7 : (k0_pay94 (k0_pay17 (v2)) (k0_pay64 (k0_pay2 (v0)) (k0_pay3 (v1))) (k0_pay89 (k0_pay5 (v3)) (k0_pay82 (F := Ideal)))) (ix3 a p q)
    = y_2_3 (k0_pay2 v0 (ix2 p q)) (k0_pay3 v1 (ix2 p q)) (k0_pay4 v2 (ix2 p q)) (k0_pay5 v3 (ix2 p q)) := by piece k0_pay94
theorem piece_8 : (k0_pay95 (k0_pay9 (F := Ideal)) (k0_pay67 (k0_pay2 (v0)) (k0_pay3 (v1)) (k0_pay62 (F := Ideal)) (k0_pay64 (k0_pay2 (v0)) (k0_pay3 (v1))) (k0_pay65 (k0_pay2 (v0)))) (k0_pay89 (k0_pay5 (v3)) (k0_pay82 (F := Ideal)))) (ix3 a p q)
    = y_2_4 (k0_pay2 v0 (ix2 p q)) (k0_pay3 v1 (ix2 p q)) (k0_pay4 v2 (ix2 p q)) (k0_pay5 v3 (ix2 p q)) := by piece k0_pay95
theorem piece_9 : (k0_pay97 (k0_pay5 (v3)) (k0_pay10 (F := Ideal)) (k0_pay70 (k0_pay2 (v0)) (k0_pay3 (v1)) (k0_pay62 (F := Ideal)) (k0_pay64 (k0_pay2 (v0)) (k0_pay3 (v1))) (k0_pay65 (k0_pay2 (v0)))) (k0_pay89 (k0_pay5 (v3)) (k0_pay82 (F := Ideal)))) (ix3 a p q)
    = y_3_0 (k0_pay2 v0 (ix2 p q)) (k0_pay3 v1 (ix2 p q)) (k0_pay4 v2 (ix2 p q)) (k0_pay5 v3 (ix2 p q)) := by piece k0_pay97
theorem piece_10 : (k0_pay99 (k0_pay98 (k0_pay5 (v3)) (k0_pay18 (v2)) (k0_pay68 (k0_pay2 (v0)) (k0_pay3 (v1)) (k0_pay62 (F := Ideal)) (k0_pay64 (k0_pay2 (v0)) (k0_pay3 (v1))) (k0_pay65 (k0_pay2 (v0)))) (k0_pay89 (k0_pay5 (v3)) (k0_pay82 (F := Ideal))))) (ix3 a p q)
    = y_3_1 (k0_pay2 v0 (ix2 p q)) (k0_pay3 v1 (ix2 p q)) (k0_pay4 v2 (ix2 p q)) (k0_pay5 v3 (ix2 p q)) := by piece k0_pay99
theorem piece_11 : (k0_pay100 (k0_pay33 (k0_pay4 (v2)) (k0_pay6 (v3)) (k0_pay8 (F := Ideal)) (k0_pay17 (v2))) (k0_pay66 (k0_pay3 (v1)) (k0_pay62 (F := Ideal)) (k0_pay65 (k0_pay2 (v0)))) (k0_pay96 (k0_pay5 (v3)) (k0_pay89 (k0_pay5 (v3)) (k0_pay82 (F := Ideal))))) (ix3 a p q)
    = y_3_2 (k0_pay2 v0 (ix2 p q)) (k0_pay3 v1 (ix2 p q)) (k0_pay4 v2 (ix2 p q)) (k0_pay5 v3 (ix2 p q)) := by piece k0_pay100
theorem piece_12 : (k0_pay101 (k0_pay25 (k0_pay4 (v2)) (k0_pay6 (v3)) (k0_pay7 (F := Ideal)) (k0_pay16 (v2))) (k0_pay81 (F := Ideal)) (k0_pay96 (k0_pay5 (v3)) (k0_pay89 (k0_pay5 (v3)) (k0_pay82 (F := Ideal))))) (ix3 a p q)
    = y_3_3 (k0_pay2 v0 (ix2 p q)) (k0_pay3 v1 (ix2 p q)) (k0_pay4 v2 (ix2 p q)) (k0_pay5 v3 (ix2 p q)) := by piece k0_pay101
theorem piece_13 : (k0_pay102 (k0_pay33 (k0_pay4 (v2)) (k0_pay6 (v3)) (k0_pay8 (F := Ideal)) (k0_pay17 (v2))) (k0_pay64 (k0_pay2 (v0)) (k0_pay3 (v1))) (k0_pay96 (k0_pay5 (v3)) (k0_pay89 (k0_pay5 (v3)) (k0_pay82 (F := Ideal))))) (ix3 a p q)
    = y_3_4 (k0_pay2 v0 (ix2 p q)) (k0_pay3 v1 (ix2 p q)) (k0_pay4 v2 (ix2 p q)) (k0_pay5 v3 (ix2 p q)) := by piece k0_pay102
theorem piece_14 : (k0_pay103 (k0_pay18 (v2)) (k0_pay67 (k0_pay2 (v0)) (k0_pay3 (v1)) (k0_pay62 (F := Ideal)) (k0_pay64 (k0_pay2 (v0)) (k0_pay3 (v1))) (k0_pay65 (k0_pay2 (v0)))) (k0_pay96 (k0_pay5 (v3)) (k0_pay89 (k0_pay5 (v3)) (k0_pay82 (F := Ideal))))) (ix3 a p q)
    = y_3_5 (k0_pay2 v0 (ix2 p q)) (k0_pay3 v1 (ix2 p q)) (k0_pay4 v2 (ix2 p q)) (k0_pay5 v3 (ix2 p q)) := by piece k0_pay103
theorem piece_15 : (k0_pay105 (k0_pay104 (k0_pay10 (F := Ideal)) (k0_pay69 (k0_pay2 (v0)) (k0_pay3 (v1)) (k0_pay62 (F := Ideal)) (k0_pay64 (k0_pay2 (v0)) (k0_pay3 (v1))) (k0_pay65 (k0_pay2 (v0)))) (k0_pay96 (k0_pay5 (v3)) (k0_pay89 (k0_pay5 (v3)) (k0_pay82 (F := Ideal)))))) (ix3 a p q)
    = y_3_6 (k0_pay2 v0 (ix2 p q)) (k0_pay3 v1 (ix2 p q)) (k0_pay4 v2 (ix2 p q)) (k0_pay5 v3 (ix2 p q)) := by piece k0_pay105
theorem piece_16 : (k0_pay107 (k0_pay5 (v3)) (k0_pay11 (F := Ideal)) (k0_pay72 (k0_pay2 (v0)) (k0_pay3 (v1)) (k0_pay62 (F := Ideal)) (k0_pay64 (k0_pay2 (v0)) (k0_pay3 (v1))) (k0_pay65 (k0_pay2 (v0)))) (k0_pay96 (k0_pay5 (v3)) (k0_pay89 (k0_pay5 (v3)) (k0_pay82 (F := Ideal))))) (ix3 a p q)
    = y_4_0 (k0_pay2 v0 (ix2 p q)) (k0_pay3 v1 (ix2 p q)) (k0_pay4 v2 (ix2 p q)) (k0_pay5 v3 (ix2 p q)) := by piece k0_pay107
theorem piece_17 : (k0_pay108 (k0_pay5 (v3)) (k0_pay19 (v2)) (k0_pay70 (k0_pay2 (v0)) (k0_pay3 (v1)) (k0_pay62 (F := Ideal)) (k0_pay64 (k0_pay2 (v0)) (k0_pay3 (v1))) (k0_pay65 (k0_pay2 (v0)))) (k0_pay96 (k0_pay5 (v3)) (k0_pay89 (k0_pay5 (v3)) (k0_pay82 (F := Ideal))))) (ix3 a p q)
    = y_4_1 (k0_pay2 v0 (ix2 p q)) (k0_pay3 v1 (ix2 p q)) (k0_pay4 v2 (ix2 p q)) (k0_pay5 v3 (ix2 p q)) := by piece k0_pay108
theorem piece_18 : (k0_pay109 (k0_pay5 (v3)) (k0_pay43 (k0_pay41 (k0_pay4 (v2)) (k0_pay18 (v2))) (k0_pay42 (k0_pay6 (v3)) (k0_pay9 (F := Ideal)))) (k0_pay68 (k0_pay2 (v0)) (k0_pay3 (v1)) (k0_pay62 (F := Ideal)) (k0_pay64 (k0_pay2 (v0)) (k0_pay3 (v1))) (k0_pay65 (k0_pay2 (v0)))) (k0_pay96 (k0_pay5 (v3)) (k0_pay89 (k0_pay5 (v3)) (k0_pay82 (F := Ideal))))) (ix3 a p q)
    = y_4_2 (k0_pay2 v0 (ix2 p q)) (k0_pay3 v1 (ix2 p q)) (k0_pay4 v2 (ix2 p q)) (k0_pay5 v3 (ix2 p q)) := by piece k0_pay109
theorem piece_19 : (k0_pay110 (k0_pay5 (v3)) (k0_pay36 (k0_pay34 (k0_pay4 (v2)) (k0_pay6 (v3)) (k0_pay8 (F := Ideal)) (k0_pay17 (v2))) (k0_pay35 (k0_pay6 (v3)) (k0_pay17 (v2)))) (k0_pay66 (k0_pay3 (v1)) (k0_pay62 (F := Ideal)) (k0_pay65 (k0_pay2 (v0)))) (k0_pay96 (k0_pay5 (v3)) (k0_pay89 (k0_pay5 (v3)) (k0_pay82 (F := Ideal))))) (ix3 a p q)
    = y_4_3 (k0_pay2 v0 (ix2 p q)) (k0_pay3 v1 (ix2 p q)) (k0_pay4 v2 (ix2 p q)) (k0_pay5 v3 (ix2 p q)) := by piece k0_pay110
theorem piece_20 : (k0_pay112 (k0_pay111 (k0_pay5 (v3)) (k0_pay26 (k0_pay4 (v2)) (k0_pay6 (v3)) (k0_pay7 (F := Ideal)) (k0_pay16 (v2))) (k0_pay81 (F := Ideal)) (k0_pay96 (k0_pay5 (v3)) (k0_pay89 (k0_pay5 (v3)) (k0_pay82 (F := Ideal)))))) (ix3 a p q)
    = y_4_4 (k0_pay2 v0 (ix2 p q)) (k0_pay3 v1 (ix2 p q)) (k0_pay4 v2 (ix2 p q)) (k0_pay5 v3 (ix2 p q)) := by piece k0_pay112
theorem piece_21 : (k0_pay113 (k0_pay36 (k0_pay34 (k0_pay4 (v2)) (k0_pay6 (v3)) (k0_pay8 (F := Ideal)) (k0_pay17 (v2))) (k0_pay35 (k0_pay6 (v3)) (k0_pay17 (v2)))) (k0_pay64 (k0_pay2 (v0)) (k0_pay3 (v1))) (k0_pay106 (k0_pay5 (v3)) (k0_pay96 (k0_pay5 (v3)) (k0_pay89 (k0_pay5 (v3)) (k0_pay82 (F := Ideal)))))) (ix3 a p q)
    = y_4_5 (k0_pay2 v0 (ix2 p q)) (k0_pay3 v1 (ix2 p q)) (k0_pay4 v2 (ix2 p q)) (k0_pay5 v3 (ix2 p q)) := by piece k0_pay113
theorem piece_22 : (k0_pay114 (k0_pay43 (k0_pay41 (k0_pay4 (v2)) (k0_pay18 (v2))) (k0_pay42 (k0_pay6 (v3)) (k0_pay9 (F := Ideal)))) (k0_pay67 (k0_pay2 (v0)) (k0_pay3 (v1)) (k0_pay62 (F := Ideal)) (k0_pay64 (k0_pay2 (v0)) (k0_pay3 (v1))) (k0_pay65 (k0_pay2 (v0)))) (k0_pay106 (k0_pay5 (v3)) (k0_pay96 (k0_pay5 (v3)) (k0_pay89 (k0_pay5 (v3)) (k0_pay82 (F := Ideal)))))) (ix3 a p q)
    = y_4_6 (k0_pay2 v0 (ix2 p q)) (k0_pay3 v1 (ix2 p q)) (k0_pay4 v2 (ix2 p q)) (k0_pay5 v3 (ix2 p q)) := by piece k0_pay114
theorem piece_23 : (k0_pay115 (k0_pay19 (v2)) (k0_pay69 (k0_pay2 (v0)) (k0_pay3 (v1)) (k0_pay62 (F := Ideal)) (k0_pay64 (k0_pay2 (v0)) (k0_pay3 (v1))) (k0_pay65 (k0_pay2 (v0)))) (k0_pay106 (k0_pay5 (v3)) (k0_pay96 (k0_pay5 (v3)) (k0_pay89 (k0_pay5 (v3)) (k0_pay82 (F := Ideal)))))) (ix3 a p q)
    = y_4_7 (k0_pay2 v0 (ix2 p q)) (k0_pay3 v1 (ix2 p q)) (k0_pay4 v2 (ix2 p q)) (k0_pay5 v3 (ix2 p q)) := by piece k0_pay115
theorem piece_24 : (k0_pay116 (k0_pay11 (F := Ideal)) (k0_pay71 (k0_pay2 (v0)) (k0_pay3 (v1)) (k0_pay62 (F := Ideal)) (k0_pay64 (k0_pay2 (v0)) (k0_pay3 (v1))) (k0_pay65 (k0_pay2 (v0)))) (k0_pay106 (k0_pay5 (v3)) (k0_pay96 (k0_pay5 (v3)) (k0_pay89 (k0_pay5 (v3)) (k0_pay82 (F := Ideal)))))) (ix3 a p q)
    = y_4_8 (k0_pay2 v0 (ix2 p q)) (k0_pay3 v1 (ix2 p q)) (k0_pay4 v2 (ix2 p q)) (k0_pay5 v3 (ix2 p q)) := by piece k0_pay116

end Cert.KernelIdeal.Harm

end
-- ==== Proof.KernelPieces1.lean ====
/- Channels 25 to 48: the value the body stores for the channel, read at (a, p, q) of its [1, 200, 128] piece, is the
   specification's value of the four loaded values at (p, q). Both are the same expression; the one step that is not
   definitional is the cast that adds the unit axis. -/
import proofs.«118161_j37666863186375_1_alg».proof.Proof.Gen.KernelIdeal.Skeleton
import proofs.«118161_j37666863186375_1_alg».proof.Proof.Spec
import proofs.«118161_j37666863186375_1_alg».proof.Proof.KernelLayout

noncomputable section

namespace Cert.KernelIdeal.Harm

open Cert.KernelIdeal Cert.KernelIdeal.Gen Idealize.ShloMosaic Idealize.ShloMosaic.ValueIdx Cert.Harmonics

variable (v0 v1 v2 v3 : Vec Ideal S200x128 .f32) (a : Fin 1) (p : Fin 200) (q : Fin 128)

theorem piece_25 : (k0_pay119 (k0_pay117 (k0_pay5 (v3)) (k0_pay106 (k0_pay5 (v3)) (k0_pay96 (k0_pay5 (v3)) (k0_pay89 (k0_pay5 (v3)) (k0_pay82 (F := Ideal)))))) (k0_pay118 (k0_pay12 (F := Ideal)) (k0_pay74 (k0_pay2 (v0)) (k0_pay3 (v1)) (k0_pay62 (F := Ideal)) (k0_pay64 (k0_pay2 (v0)) (k0_pay3 (v1))) (k0_pay65 (k0_pay2 (v0)))))) (ix3 a p q)
    = y_5_0 (k0_pay2 v0 (ix2 p q)) (k0_pay3 v1 (ix2 p q)) (k0_pay4 v2 (ix2 p q)) (k0_pay5 v3 (ix2 p q)) := by piece k0_pay119
theorem piece_26 : (k0_pay120 (k0_pay20 (k0_pay4 (v2)) (k0_pay11 (F := Ideal))) (k0_pay72 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_1 (k0_pay2 v0 (ix2 p q)) (k0_pay3 v1 (ix2 p q)) (k0_pay4 v2 (ix2 p q)) (k0_pay5 v3 (ix2 p q)) := by piece k0_pay120
theorem piece_27 : (k0_pay121 (k0_pay50 (k0_pay48 (k0_pay4 (v2)) (k0_pay19 (v2))) (k0_pay49 (k0_pay6 (v3)) (k0_pay10 (F := Ideal)))) (k0_pay70 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_2 (k0_pay2 v0 (ix2 p q)) (k0_pay3 v1 (ix2 p q)) (k0_pay4 v2 (ix2 p q)) (k0_pay5 v3 (ix2 p q)) := by piece k0_pay121
theorem piece_28 : (k0_pay122 (k0_pay44 (k0_pay4 (v2)) (k0_pay6 (v3)) (k0_pay18 (v2)) (k0_pay41 (k0_pay4 (v2)) (k0_pay18 (v2))) (k0_pay42 (k0_pay6 (v3)) (k0_pay9 (F := Ideal)))) (k0_pay68 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_3 (k0_pay2 v0 (ix2 p q)) (k0_pay3 v1 (ix2 p q)) (k0_pay4 v2 (ix2 p q)) (k0_pay5 v3 (ix2 p q)) := by piece k0_pay122
theorem piece_29 : (k0_pay123 (k0_pay37 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay66 (k0_pay3 (v1)) (k0_pay62 (F := Ideal)) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_4 (k0_pay2 v0 (ix2 p q)) (k0_pay3 v1 (ix2 p q)) (k0_pay4 v2 (ix2 p q)) (k0_pay5 v3 (ix2 p q)) := by piece k0_pay123
theorem piece_30 : (k0_pay125 (k0_pay117 (k0_pay5 (v3)) (k0_pay106 (k0_pay5 (v3)) (k0_pay96 (k0_pay5 (v3)) (k0_pay89 (k0_pay5 (v3)) (k0_pay82 (F := Ideal)))))) (k0_pay124 (k0_pay29 (k0_pay27 (k0_pay4 (v2)) (k0_pay6 (v3)) (k0_pay7 (F := Ideal)) (k0_pay16 (v2))) (k0_pay28 (k0_pay4 (v2)) (k0_pay6 (v3)) (k0_pay7 (F := Ideal)) (k0_pay16 (v2)))) (k0_pay81 (F := Ideal)))) (ix3 a p q)
    = y_5_5 (k0_pay2 v0 (ix2 p q)) (k0_pay3 v1 (ix2 p q)) (k0_pay4 v2 (ix2 p q)) (k0_pay5 v3 (ix2 p q)) := by piece k0_pay125
theorem piece_31 : (k0_pay126 (k0_pay37 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay64 (k0_pay2 (v0)) (k0_pay3 (v1))) (k0_pay117 (k0_pay5 (v3)) (k0_pay106 (k0_pay5 (v3)) (k0_pay96 (k0_pay5 (v3)) (k0_pay89 (k0_pay5 (v3)) (k0_pay82 (F := Ideal))))))) (ix3 a p q)
    = y_5_6 (k0_pay2 v0 (ix2 p q)) (k0_pay3 v1 (ix2 p q)) (k0_pay4 v2 (ix2 p q)) (k0_pay5 v3 (ix2 p q)) := by piece k0_pay126
theorem piece_32 : (k0_pay127 (k0_pay44 (k0_pay4 (v2)) (k0_pay6 (v3)) (k0_pay18 (v2)) (k0_pay41 (k0_pay4 (v2)) (k0_pay18 (v2))) (k0_pay42 (k0_pay6 (v3)) (k0_pay9 (F := Ideal)))) (k0_pay67 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_7 (k0_pay2 v0 (ix2 p q)) (k0_pay3 v1 (ix2 p q)) (k0_pay4 v2 (ix2 p q)) (k0_pay5 v3 (ix2 p q)) := by piece k0_pay127
theorem piece_33 : (k0_pay128 (k0_pay50 (k0_pay48 (k0_pay4 (v2)) (k0_pay19 (v2))) (k0_pay49 (k0_pay6 (v3)) (k0_pay10 (F := Ideal)))) (k0_pay69 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_8 (k0_pay2 v0 (ix2 p q)) (k0_pay3 v1 (ix2 p q)) (k0_pay4 v2 (ix2 p q)) (k0_pay5 v3 (ix2 p q)) := by piece k0_pay128
theorem piece_34 : (k0_pay129 (k0_pay20 (k0_pay4 (v2)) (k0_pay11 (F := Ideal))) (k0_pay71 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_5_9 (k0_pay2 v0 (ix2 p q)) (k0_pay3 v1 (ix2 p q)) (k0_pay4 v2 (ix2 p q)) (k0_pay5 v3 (ix2 p q)) := by piece k0_pay129
theorem piece_35 : (k0_pay131 (k0_pay117 (k0_pay5 (v3)) (k0_pay106 (k0_pay5 (v3)) (k0_pay96 (k0_pay5 (v3)) (k0_pay89 (k0_pay5 (v3)) (k0_pay82 (F := Ideal)))))) (k0_pay130 (k0_pay12 (F := Ideal)) (k0_pay73 (k0_pay2 (v0)) (k0_pay3 (v1)) (k0_pay62 (F := Ideal)) (k0_pay64 (k0_pay2 (v0)) (k0_pay3 (v1))) (k0_pay65 (k0_pay2 (v0)))))) (ix3 a p q)
    = y_5_10 (k0_pay2 v0 (ix2 p q)) (k0_pay3 v1 (ix2 p q)) (k0_pay4 v2 (ix2 p q)) (k0_pay5 v3 (ix2 p q)) := by piece k0_pay131
theorem piece_36 : (k0_pay133 (k0_pay5 (v3)) (k0_pay13 (F := Ideal)) (k0_pay76 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_6_0 (k0_pay2 v0 (ix2 p q)) (k0_pay3 v1 (ix2 p q)) (k0_pay4 v2 (ix2 p q)) (k0_pay5 v3 (ix2 p q)) := by piece k0_pay133
theorem piece_37 : (k0_pay134 (k0_pay5 (v3)) (k0_pay21 (k0_pay4 (v2)) (k0_pay12 (F := Ideal))) (k0_pay74 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_6_1 (k0_pay2 v0 (ix2 p q)) (k0_pay3 v1 (ix2 p q)) (k0_pay4 v2 (ix2 p q)) (k0_pay5 v3 (ix2 p q)) := by piece k0_pay134
theorem piece_38 : (k0_pay135 (k0_pay5 (v3)) (k0_pay54 (k0_pay4 (v2)) (k0_pay6 (v3)) (k0_pay11 (F := Ideal)) (k0_pay20 (k0_pay4 (v2)) (k0_pay11 (F := Ideal)))) (k0_pay72 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_6_2 (k0_pay2 v0 (ix2 p q)) (k0_pay3 v1 (ix2 p q)) (k0_pay4 v2 (ix2 p q)) (k0_pay5 v3 (ix2 p q)) := by piece k0_pay135
theorem piece_39 : (k0_pay136 (k0_pay5 (v3)) (k0_pay51 (k0_pay4 (v2)) (k0_pay6 (v3)) (k0_pay19 (v2)) (k0_pay48 (k0_pay4 (v2)) (k0_pay19 (v2))) (k0_pay49 (k0_pay6 (v3)) (k0_pay10 (F := Ideal)))) (k0_pay70 (k0_pay2 (v0)) (k0_pay3 (v1)) (k0_pay62 (F := Ideal)) (k0_pay64 (k0_pay2 (v0)) (k0_pay3 (v1))) (k0_pay65 (k0_pay2 (v0)))) (k0_pay117 (k0_pay5 (v3)) (k0_pay106 (k0_pay5 (v3)) (k0_pay96 (k0_pay5 (v3)) (k0_pay89 (k0_pay5 (v3)) (k0_pay82 (F := Ideal))))))) (ix3 a p q)
    = y_6_3 (k0_pay2 v0 (ix2 p q)) (k0_pay3 v1 (ix2 p q)) (k0_pay4 v2 (ix2 p q)) (k0_pay5 v3 (ix2 p q)) := by piece k0_pay136
theorem piece_40 : (k0_pay138 (k0_pay68 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal))))))) (k0_pay137 (k0_pay45 (k0_pay4 (v2)) (k0_pay6 (v3)) (k0_pay18 (v2)) (k0_pay41 (k0_pay4 (v2)) (k0_pay18 (v2))) (k0_pay42 (k0_pay6 (v3)) (k0_pay9 (F := Ideal)))))) (ix3 a p q)
    = y_6_4 (k0_pay2 v0 (ix2 p q)) (k0_pay3 v1 (ix2 p q)) (k0_pay4 v2 (ix2 p q)) (k0_pay5 v3 (ix2 p q)) := by piece k0_pay138
theorem piece_41 : (k0_pay139 (k0_pay38 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay66 (k0_pay3 (v1)) (k0_pay62 (F := Ideal)) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_5 (k0_pay2 v0 (ix2 p q)) (k0_pay3 v1 (ix2 p q)) (k0_pay4 v2 (ix2 p q)) (k0_pay5 v3 (ix2 p q)) := by piece k0_pay139
theorem piece_42 : (k0_pay140 (k0_pay30 (k0_pay4 (v2)) (k0_pay6 (v3)) (k0_pay26 (k0_pay4 (v2)) (k0_pay6 (v3)) (k0_pay7 (F := Ideal)) (k0_pay16 (v2))) (k0_pay27 (k0_pay4 (v2)) (k0_pay6 (v3)) (k0_pay7 (F := Ideal)) (k0_pay16 (v2))) (k0_pay28 (k0_pay4 (v2)) (k0_pay6 (v3)) (k0_pay7 (F := Ideal)) (k0_pay16 (v2)))) (k0_pay81 (F := Ideal)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_6 (k0_pay2 v0 (ix2 p q)) (k0_pay3 v1 (ix2 p q)) (k0_pay4 v2 (ix2 p q)) (k0_pay5 v3 (ix2 p q)) := by piece k0_pay140
theorem piece_43 : (k0_pay141 (k0_pay38 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay64 (k0_pay2 (v0)) (k0_pay3 (v1))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_7 (k0_pay2 v0 (ix2 p q)) (k0_pay3 v1 (ix2 p q)) (k0_pay4 v2 (ix2 p q)) (k0_pay5 v3 (ix2 p q)) := by piece k0_pay141
theorem piece_44 : (k0_pay142 (k0_pay45 (k0_pay4 (v2)) (k0_pay6 (v3)) (k0_pay18 (v2)) (k0_pay41 (k0_pay4 (v2)) (k0_pay18 (v2))) (k0_pay42 (k0_pay6 (v3)) (k0_pay9 (F := Ideal)))) (k0_pay67 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_8 (k0_pay2 v0 (ix2 p q)) (k0_pay3 v1 (ix2 p q)) (k0_pay4 v2 (ix2 p q)) (k0_pay5 v3 (ix2 p q)) := by piece k0_pay142
theorem piece_45 : (k0_pay144 (k0_pay69 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal))))))) (k0_pay143 (k0_pay51 (k0_pay4 (v2)) (k0_pay6 (v3)) (k0_pay19 (v2)) (k0_pay48 (k0_pay4 (v2)) (k0_pay19 (v2))) (k0_pay49 (k0_pay6 (v3)) (k0_pay10 (F := Ideal)))))) (ix3 a p q)
    = y_6_9 (k0_pay2 v0 (ix2 p q)) (k0_pay3 v1 (ix2 p q)) (k0_pay4 v2 (ix2 p q)) (k0_pay5 v3 (ix2 p q)) := by piece k0_pay144
theorem piece_46 : (k0_pay145 (k0_pay54 (k0_pay4 (v2)) (k0_pay6 (v3)) (k0_pay11 (F := Ideal)) (k0_pay20 (k0_pay4 (v2)) (k0_pay11 (F := Ideal)))) (k0_pay71 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_10 (k0_pay2 v0 (ix2 p q)) (k0_pay3 v1 (ix2 p q)) (k0_pay4 v2 (ix2 p q)) (k0_pay5 v3 (ix2 p q)) := by piece k0_pay145
theorem piece_47 : (k0_pay146 (k0_pay21 (k0_pay4 (v2)) (k0_pay12 (F := Ideal))) (k0_pay73 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_11 (k0_pay2 v0 (ix2 p q)) (k0_pay3 v1 (ix2 p q)) (k0_pay4 v2 (ix2 p q)) (k0_pay5 v3 (ix2 p q)) := by piece k0_pay146
theorem piece_48 : (k0_pay147 (k0_pay13 (F := Ideal)) (k0_pay75 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_6_12 (k0_pay2 v0 (ix2 p q)) (k0_pay3 v1 (ix2 p q)) (k0_pay4 v2 (ix2 p q)) (k0_pay5 v3 (ix2 p q)) := by piece k0_pay147

end Cert.KernelIdeal.Harm

end
-- ==== Proof.KernelPieces2.lean ====
/- Channels 49 to 63: the value the body stores for the channel, read at (a, p, q) of its [1, 200, 128] piece, is the
   specification's value of the four loaded values at (p, q). Both are the same expression; the one step that is not
   definitional is the cast that adds the unit axis. -/
import proofs.«118161_j37666863186375_1_alg».proof.Proof.Gen.KernelIdeal.Skeleton
import proofs.«118161_j37666863186375_1_alg».proof.Proof.Spec
import proofs.«118161_j37666863186375_1_alg».proof.Proof.KernelLayout

noncomputable section

namespace Cert.KernelIdeal.Harm

open Cert.KernelIdeal Cert.KernelIdeal.Gen Idealize.ShloMosaic Idealize.ShloMosaic.ValueIdx Cert.Harmonics

variable (v0 v1 v2 v3 : Vec Ideal S200x128 .f32) (a : Fin 1) (p : Fin 200) (q : Fin 128)

theorem piece_49 : (k0_pay149 (k0_pay5 (v3)) (k0_pay14 (F := Ideal)) (k0_pay78 (k0_pay2 (v0)) (k0_pay3 (v1)) (k0_pay62 (F := Ideal)) (k0_pay64 (k0_pay2 (v0)) (k0_pay3 (v1))) (k0_pay65 (k0_pay2 (v0)))) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (ix3 a p q)
    = y_7_0 (k0_pay2 v0 (ix2 p q)) (k0_pay3 v1 (ix2 p q)) (k0_pay4 v2 (ix2 p q)) (k0_pay5 v3 (ix2 p q)) := by piece k0_pay149
theorem piece_50 : (k0_pay151 (k0_pay22 (k0_pay4 (v2)) (k0_pay13 (F := Ideal))) (k0_pay76 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (k0_pay150 (F := Ideal))) (ix3 a p q)
    = y_7_1 (k0_pay2 v0 (ix2 p q)) (k0_pay3 v1 (ix2 p q)) (k0_pay4 v2 (ix2 p q)) (k0_pay5 v3 (ix2 p q)) := by piece k0_pay151
theorem piece_51 : (k0_pay152 (k0_pay59 (k0_pay4 (v2)) (k0_pay6 (v3)) (k0_pay12 (F := Ideal)) (k0_pay21 (k0_pay4 (v2)) (k0_pay12 (F := Ideal)))) (k0_pay74 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_2 (k0_pay2 v0 (ix2 p q)) (k0_pay3 v1 (ix2 p q)) (k0_pay4 v2 (ix2 p q)) (k0_pay5 v3 (ix2 p q)) := by piece k0_pay152
theorem piece_52 : (k0_pay153 (k0_pay57 (k0_pay55 (k0_pay4 (v2)) (k0_pay6 (v3)) (k0_pay11 (F := Ideal)) (k0_pay20 (k0_pay4 (v2)) (k0_pay11 (F := Ideal)))) (k0_pay56 (k0_pay6 (v3)) (k0_pay20 (k0_pay4 (v2)) (k0_pay11 (F := Ideal))))) (k0_pay72 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_3 (k0_pay2 v0 (ix2 p q)) (k0_pay3 v1 (ix2 p q)) (k0_pay4 v2 (ix2 p q)) (k0_pay5 v3 (ix2 p q)) := by piece k0_pay153
theorem piece_53 : (k0_pay154 (k0_pay52 (k0_pay4 (v2)) (k0_pay6 (v3)) (k0_pay19 (v2)) (k0_pay48 (k0_pay4 (v2)) (k0_pay19 (v2))) (k0_pay49 (k0_pay6 (v3)) (k0_pay10 (F := Ideal)))) (k0_pay70 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_4 (k0_pay2 v0 (ix2 p q)) (k0_pay3 v1 (ix2 p q)) (k0_pay4 v2 (ix2 p q)) (k0_pay5 v3 (ix2 p q)) := by piece k0_pay154
theorem piece_54 : (k0_pay155 (k0_pay46 (k0_pay4 (v2)) (k0_pay6 (v3)) (k0_pay18 (v2)) (k0_pay41 (k0_pay4 (v2)) (k0_pay18 (v2))) (k0_pay42 (k0_pay6 (v3)) (k0_pay9 (F := Ideal)))) (k0_pay68 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_5 (k0_pay2 v0 (ix2 p q)) (k0_pay3 v1 (ix2 p q)) (k0_pay4 v2 (ix2 p q)) (k0_pay5 v3 (ix2 p q)) := by piece k0_pay155
theorem piece_55 : (k0_pay157 (k0_pay39 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay66 (k0_pay3 (v1)) (k0_pay62 (F := Ideal)) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (k0_pay156 (F := Ideal))) (ix3 a p q)
    = y_7_6 (k0_pay2 v0 (ix2 p q)) (k0_pay3 v1 (ix2 p q)) (k0_pay4 v2 (ix2 p q)) (k0_pay5 v3 (ix2 p q)) := by piece k0_pay157
theorem piece_56 : (k0_pay158 (k0_pay31 (k0_pay4 (v2)) (k0_pay6 (v3)) (k0_pay26 (k0_pay4 (v2)) (k0_pay6 (v3)) (k0_pay7 (F := Ideal)) (k0_pay16 (v2))) (k0_pay27 (k0_pay4 (v2)) (k0_pay6 (v3)) (k0_pay7 (F := Ideal)) (k0_pay16 (v2))) (k0_pay28 (k0_pay4 (v2)) (k0_pay6 (v3)) (k0_pay7 (F := Ideal)) (k0_pay16 (v2)))) (k0_pay81 (F := Ideal)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_7 (k0_pay2 v0 (ix2 p q)) (k0_pay3 v1 (ix2 p q)) (k0_pay4 v2 (ix2 p q)) (k0_pay5 v3 (ix2 p q)) := by piece k0_pay158
theorem piece_57 : (k0_pay159 (k0_pay39 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay64 (k0_pay2 (v0)) (k0_pay3 (v1))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_8 (k0_pay2 v0 (ix2 p q)) (k0_pay3 v1 (ix2 p q)) (k0_pay4 v2 (ix2 p q)) (k0_pay5 v3 (ix2 p q)) := by piece k0_pay159
theorem piece_58 : (k0_pay160 (k0_pay46 (k0_pay4 (v2)) (k0_pay6 (v3)) (k0_pay18 (v2)) (k0_pay41 (k0_pay4 (v2)) (k0_pay18 (v2))) (k0_pay42 (k0_pay6 (v3)) (k0_pay9 (F := Ideal)))) (k0_pay67 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_9 (k0_pay2 v0 (ix2 p q)) (k0_pay3 v1 (ix2 p q)) (k0_pay4 v2 (ix2 p q)) (k0_pay5 v3 (ix2 p q)) := by piece k0_pay160
theorem piece_59 : (k0_pay161 (k0_pay52 (k0_pay4 (v2)) (k0_pay6 (v3)) (k0_pay19 (v2)) (k0_pay48 (k0_pay4 (v2)) (k0_pay19 (v2))) (k0_pay49 (k0_pay6 (v3)) (k0_pay10 (F := Ideal)))) (k0_pay69 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_10 (k0_pay2 v0 (ix2 p q)) (k0_pay3 v1 (ix2 p q)) (k0_pay4 v2 (ix2 p q)) (k0_pay5 v3 (ix2 p q)) := by piece k0_pay161
theorem piece_60 : (k0_pay163 (k0_pay57 (k0_pay55 (k0_pay4 (v2)) (k0_pay6 (v3)) (k0_pay11 (F := Ideal)) (k0_pay20 (k0_pay4 (v2)) (k0_pay11 (F := Ideal)))) (k0_pay56 (k0_pay6 (v3)) (k0_pay20 (k0_pay4 (v2)) (k0_pay11 (F := Ideal))))) (k0_pay71 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))) (k0_pay162 (F := Ideal))) (ix3 a p q)
    = y_7_11 (k0_pay2 v0 (ix2 p q)) (k0_pay3 v1 (ix2 p q)) (k0_pay4 v2 (ix2 p q)) (k0_pay5 v3 (ix2 p q)) := by piece k0_pay163
theorem piece_61 : (k0_pay164 (k0_pay59 (k0_pay4 (v2)) (k0_pay6 (v3)) (k0_pay12 (F := Ideal)) (k0_pay21 (k0_pay4 (v2)) (k0_pay12 (F := Ideal)))) (k0_pay73 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_12 (k0_pay2 v0 (ix2 p q)) (k0_pay3 v1 (ix2 p q)) (k0_pay4 v2 (ix2 p q)) (k0_pay5 v3 (ix2 p q)) := by piece k0_pay164
theorem piece_62 : (k0_pay165 (k0_pay22 (k0_pay4 (v2)) (k0_pay13 (F := Ideal))) (k0_pay75 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_13 (k0_pay2 v0 (ix2 p q)) (k0_pay3 v1 (ix2 p q)) (k0_pay4 v2 (ix2 p q)) (k0_pay5 v3 (ix2 p q)) := by piece k0_pay165
theorem piece_63 : (k0_pay166 (k0_pay14 (F := Ideal)) (k0_pay77 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_7_14 (k0_pay2 v0 (ix2 p q)) (k0_pay3 v1 (ix2 p q)) (k0_pay4 v2 (ix2 p q)) (k0_pay5 v3 (ix2 p q)) := by piece k0_pay166

end Cert.KernelIdeal.Harm

end
-- ==== Proof.KernelPieces3.lean ====
/- Channels 64 to 80: the value the body stores for the channel, read at (a, p, q) of its [1, 200, 128] piece, is the
   specification's value of the four loaded values at (p, q). Both are the same expression; the one step that is not
   definitional is the cast that adds the unit axis. -/
import proofs.«118161_j37666863186375_1_alg».proof.Proof.Gen.KernelIdeal.Skeleton
import proofs.«118161_j37666863186375_1_alg».proof.Proof.Spec
import proofs.«118161_j37666863186375_1_alg».proof.Proof.KernelLayout

noncomputable section

namespace Cert.KernelIdeal.Harm

open Cert.KernelIdeal Cert.KernelIdeal.Gen Idealize.ShloMosaic Idealize.ShloMosaic.ValueIdx Cert.Harmonics

variable (v0 v1 v2 v3 : Vec Ideal S200x128 .f32) (a : Fin 1) (p : Fin 200) (q : Fin 128)

theorem piece_64 : (k0_pay168 (k0_pay5 (v3)) (k0_pay15 (F := Ideal)) (k0_pay80 (k0_pay2 (v0)) (k0_pay3 (v1)) (k0_pay62 (F := Ideal)) (k0_pay64 (k0_pay2 (v0)) (k0_pay3 (v1))) (k0_pay65 (k0_pay2 (v0)))) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (ix3 a p q)
    = y_8_0 (k0_pay2 v0 (ix2 p q)) (k0_pay3 v1 (ix2 p q)) (k0_pay4 v2 (ix2 p q)) (k0_pay5 v3 (ix2 p q)) := by piece k0_pay168
theorem piece_65 : (k0_pay169 (k0_pay23 (k0_pay4 (v2)) (k0_pay14 (F := Ideal))) (k0_pay78 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (Scalar.ofBits .f32 0xB5C10F9F#32)) (ix3 a p q)
    = y_8_1 (k0_pay2 v0 (ix2 p q)) (k0_pay3 v1 (ix2 p q)) (k0_pay4 v2 (ix2 p q)) (k0_pay5 v3 (ix2 p q)) := by piece k0_pay169
theorem piece_66 : (k0_pay170 (k0_pay61 (k0_pay4 (v2)) (k0_pay6 (v3)) (k0_pay13 (F := Ideal)) (k0_pay22 (k0_pay4 (v2)) (k0_pay13 (F := Ideal)))) (k0_pay76 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_2 (k0_pay2 v0 (ix2 p q)) (k0_pay3 v1 (ix2 p q)) (k0_pay4 v2 (ix2 p q)) (k0_pay5 v3 (ix2 p q)) := by piece k0_pay170
theorem piece_67 : (k0_pay171 (k0_pay60 (k0_pay4 (v2)) (k0_pay6 (v3)) (k0_pay12 (F := Ideal)) (k0_pay21 (k0_pay4 (v2)) (k0_pay12 (F := Ideal)))) (k0_pay74 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_3 (k0_pay2 v0 (ix2 p q)) (k0_pay3 v1 (ix2 p q)) (k0_pay4 v2 (ix2 p q)) (k0_pay5 v3 (ix2 p q)) := by piece k0_pay171
theorem piece_68 : (k0_pay172 (k0_pay58 (k0_pay4 (v2)) (k0_pay6 (v3)) (k0_pay54 (k0_pay4 (v2)) (k0_pay6 (v3)) (k0_pay11 (F := Ideal)) (k0_pay20 (k0_pay4 (v2)) (k0_pay11 (F := Ideal)))) (k0_pay55 (k0_pay4 (v2)) (k0_pay6 (v3)) (k0_pay11 (F := Ideal)) (k0_pay20 (k0_pay4 (v2)) (k0_pay11 (F := Ideal)))) (k0_pay56 (k0_pay6 (v3)) (k0_pay20 (k0_pay4 (v2)) (k0_pay11 (F := Ideal))))) (k0_pay72 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_4 (k0_pay2 v0 (ix2 p q)) (k0_pay3 v1 (ix2 p q)) (k0_pay4 v2 (ix2 p q)) (k0_pay5 v3 (ix2 p q)) := by piece k0_pay172
theorem piece_69 : (k0_pay173 (k0_pay53 (k0_pay4 (v2)) (k0_pay6 (v3)) (k0_pay19 (v2)) (k0_pay48 (k0_pay4 (v2)) (k0_pay19 (v2))) (k0_pay49 (k0_pay6 (v3)) (k0_pay10 (F := Ideal)))) (k0_pay70 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_5 (k0_pay2 v0 (ix2 p q)) (k0_pay3 v1 (ix2 p q)) (k0_pay4 v2 (ix2 p q)) (k0_pay5 v3 (ix2 p q)) := by piece k0_pay173
theorem piece_70 : (k0_pay174 (k0_pay47 (k0_pay4 (v2)) (k0_pay6 (v3)) (k0_pay18 (v2)) (k0_pay41 (k0_pay4 (v2)) (k0_pay18 (v2))) (k0_pay42 (k0_pay6 (v3)) (k0_pay9 (F := Ideal)))) (k0_pay68 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (Scalar.ofBits .f32 0x3CBDCE41#32)) (ix3 a p q)
    = y_8_6 (k0_pay2 v0 (ix2 p q)) (k0_pay3 v1 (ix2 p q)) (k0_pay4 v2 (ix2 p q)) (k0_pay5 v3 (ix2 p q)) := by piece k0_pay174
theorem piece_71 : (k0_pay175 (k0_pay40 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay66 (k0_pay3 (v1)) (k0_pay62 (F := Ideal)) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_7 (k0_pay2 v0 (ix2 p q)) (k0_pay3 v1 (ix2 p q)) (k0_pay4 v2 (ix2 p q)) (k0_pay5 v3 (ix2 p q)) := by piece k0_pay175
theorem piece_72 : (k0_pay176 (k0_pay32 (k0_pay4 (v2)) (k0_pay6 (v3)) (k0_pay26 (k0_pay4 (v2)) (k0_pay6 (v3)) (k0_pay7 (F := Ideal)) (k0_pay16 (v2))) (k0_pay27 (k0_pay4 (v2)) (k0_pay6 (v3)) (k0_pay7 (F := Ideal)) (k0_pay16 (v2))) (k0_pay28 (k0_pay4 (v2)) (k0_pay6 (v3)) (k0_pay7 (F := Ideal)) (k0_pay16 (v2)))) (k0_pay81 (F := Ideal)) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_8 (k0_pay2 v0 (ix2 p q)) (k0_pay3 v1 (ix2 p q)) (k0_pay4 v2 (ix2 p q)) (k0_pay5 v3 (ix2 p q)) := by piece k0_pay176
theorem piece_73 : (k0_pay177 (k0_pay40 (k0_pay4 (v2)) (k0_pay6 (v3)) (k0_pay33 (k0_pay4 (v2)) (k0_pay6 (v3)) (k0_pay8 (F := Ideal)) (k0_pay17 (v2))) (k0_pay34 (k0_pay4 (v2)) (k0_pay6 (v3)) (k0_pay8 (F := Ideal)) (k0_pay17 (v2))) (k0_pay35 (k0_pay6 (v3)) (k0_pay17 (v2)))) (k0_pay64 (k0_pay2 (v0)) (k0_pay3 (v1))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_9 (k0_pay2 v0 (ix2 p q)) (k0_pay3 v1 (ix2 p q)) (k0_pay4 v2 (ix2 p q)) (k0_pay5 v3 (ix2 p q)) := by piece k0_pay177
theorem piece_74 : (k0_pay178 (k0_pay47 (k0_pay4 (v2)) (k0_pay6 (v3)) (k0_pay18 (v2)) (k0_pay41 (k0_pay4 (v2)) (k0_pay18 (v2))) (k0_pay42 (k0_pay6 (v3)) (k0_pay9 (F := Ideal)))) (k0_pay67 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_10 (k0_pay2 v0 (ix2 p q)) (k0_pay3 v1 (ix2 p q)) (k0_pay4 v2 (ix2 p q)) (k0_pay5 v3 (ix2 p q)) := by piece k0_pay178
theorem piece_75 : (k0_pay179 (k0_pay53 (k0_pay4 (v2)) (k0_pay6 (v3)) (k0_pay19 (v2)) (k0_pay48 (k0_pay4 (v2)) (k0_pay19 (v2))) (k0_pay49 (k0_pay6 (v3)) (k0_pay10 (F := Ideal)))) (k0_pay69 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (Scalar.ofBits .f32 0xBB3AE860#32)) (ix3 a p q)
    = y_8_11 (k0_pay2 v0 (ix2 p q)) (k0_pay3 v1 (ix2 p q)) (k0_pay4 v2 (ix2 p q)) (k0_pay5 v3 (ix2 p q)) := by piece k0_pay179
theorem piece_76 : (k0_pay180 (k0_pay58 (k0_pay4 (v2)) (k0_pay6 (v3)) (k0_pay54 (k0_pay4 (v2)) (k0_pay6 (v3)) (k0_pay11 (F := Ideal)) (k0_pay20 (k0_pay4 (v2)) (k0_pay11 (F := Ideal)))) (k0_pay55 (k0_pay4 (v2)) (k0_pay6 (v3)) (k0_pay11 (F := Ideal)) (k0_pay20 (k0_pay4 (v2)) (k0_pay11 (F := Ideal)))) (k0_pay56 (k0_pay6 (v3)) (k0_pay20 (k0_pay4 (v2)) (k0_pay11 (F := Ideal))))) (k0_pay71 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_12 (k0_pay2 v0 (ix2 p q)) (k0_pay3 v1 (ix2 p q)) (k0_pay4 v2 (ix2 p q)) (k0_pay5 v3 (ix2 p q)) := by piece k0_pay180
theorem piece_77 : (k0_pay181 (k0_pay60 (k0_pay4 (v2)) (k0_pay6 (v3)) (k0_pay12 (F := Ideal)) (k0_pay21 (k0_pay4 (v2)) (k0_pay12 (F := Ideal)))) (k0_pay73 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_13 (k0_pay2 v0 (ix2 p q)) (k0_pay3 v1 (ix2 p q)) (k0_pay4 v2 (ix2 p q)) (k0_pay5 v3 (ix2 p q)) := by piece k0_pay181
theorem piece_78 : (k0_pay182 (k0_pay61 (k0_pay4 (v2)) (k0_pay6 (v3)) (k0_pay13 (F := Ideal)) (k0_pay22 (k0_pay4 (v2)) (k0_pay13 (F := Ideal)))) (k0_pay75 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_14 (k0_pay2 v0 (ix2 p q)) (k0_pay3 v1 (ix2 p q)) (k0_pay4 v2 (ix2 p q)) (k0_pay5 v3 (ix2 p q)) := by piece k0_pay182
theorem piece_79 : (k0_pay183 (k0_pay23 (k0_pay4 (v2)) (k0_pay14 (F := Ideal))) (k0_pay77 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal)))))))))) (ix3 a p q)
    = y_8_15 (k0_pay2 v0 (ix2 p q)) (k0_pay3 v1 (ix2 p q)) (k0_pay4 v2 (ix2 p q)) (k0_pay5 v3 (ix2 p q)) := by piece k0_pay183
theorem piece_80 : (k0_pay1 (k0_pay15 (F := Ideal)) (k0_pay79 (k0_pay2 (v0)) (k0_pay3 (v1)) (k0_pay62 (F := Ideal)) (k0_pay64 (k0_pay2 (v0)) (k0_pay3 (v1))) (k0_pay65 (k0_pay2 (v0)))) (k0_pay167 (k0_pay5 (v3)) (k0_pay148 (k0_pay5 (v3)) (k0_pay132 (k0_pay5 (v3)) (k0_pay117 (k0_pay5 (v3)) (k0_pay106 (k0_pay5 (v3)) (k0_pay96 (k0_pay5 (v3)) (k0_pay89 (k0_pay5 (v3)) (k0_pay82 (F := Ideal))))))))) (Scalar.ofBits .f32 0x34C10F9F#32)) (ix3 a p q)
    = y_8_16 (k0_pay2 v0 (ix2 p q)) (k0_pay3 v1 (ix2 p q)) (k0_pay4 v2 (ix2 p q)) (k0_pay5 v3 (ix2 p q)) := by piece k0_pay1

end Cert.KernelIdeal.Harm

end
-- ==== Proof.KernelBlock.lean ====
/- The output block after the body, as ONE function of the four loaded blocks: the table of the body's 81 stores, last store first,
   each row saying that the store for channel ch holds the block function on the channel's rectangle. -/
import proofs.«118161_j37666863186375_1_alg».proof.Proof.KernelBlockLemmas
import proofs.«118161_j37666863186375_1_alg».proof.Proof.KernelPieces0
import proofs.«118161_j37666863186375_1_alg».proof.Proof.KernelPieces1
import proofs.«118161_j37666863186375_1_alg».proof.Proof.KernelPieces2
import proofs.«118161_j37666863186375_1_alg».proof.Proof.KernelPieces3

set_option maxRecDepth 16384

noncomputable section

namespace Cert.KernelIdeal.Harm

open Cert.KernelIdeal Cert.KernelIdeal.Gen Idealize.ShloMosaic Idealize.ShloMosaic.ValueIdx Cert.Harmonics

/-- Entry (ch, p, q) of the output block is channel ch's value of the four input blocks' entries (p, q). -/
theorem out_apply (x0 x1 x2 x3 : Vec Ideal S200x128 .f32) (j : S81x200x128.Idx) :
    out0_4 x0 x1 x2 x3 j = chanArr (R := 200) x0 x1 x2 x3 j := by
  block_of_rows ⟨piece_ok x0 x1 x2 x3 80 (by decide) _ _ (piece_80 _ _ _ _),
    piece_ok x0 x1 x2 x3 79 (by decide) _ _ (piece_79 _ _ _ _),
    piece_ok x0 x1 x2 x3 78 (by decide) _ _ (piece_78 _ _ _ _),
    piece_ok x0 x1 x2 x3 77 (by decide) _ _ (piece_77 _ _ _ _),
    piece_ok x0 x1 x2 x3 76 (by decide) _ _ (piece_76 _ _ _ _),
    piece_ok x0 x1 x2 x3 75 (by decide) _ _ (piece_75 _ _ _ _),
    piece_ok x0 x1 x2 x3 74 (by decide) _ _ (piece_74 _ _ _ _),
    piece_ok x0 x1 x2 x3 73 (by decide) _ _ (piece_73 _ _ _ _),
    piece_ok x0 x1 x2 x3 72 (by decide) _ _ (piece_72 _ _ _ _),
    piece_ok x0 x1 x2 x3 71 (by decide) _ _ (piece_71 _ _ _ _),
    piece_ok x0 x1 x2 x3 70 (by decide) _ _ (piece_70 _ _ _ _),
    piece_ok x0 x1 x2 x3 69 (by decide) _ _ (piece_69 _ _ _ _),
    piece_ok x0 x1 x2 x3 68 (by decide) _ _ (piece_68 _ _ _ _),
    piece_ok x0 x1 x2 x3 67 (by decide) _ _ (piece_67 _ _ _ _),
    piece_ok x0 x1 x2 x3 66 (by decide) _ _ (piece_66 _ _ _ _),
    piece_ok x0 x1 x2 x3 65 (by decide) _ _ (piece_65 _ _ _ _),
    piece_ok x0 x1 x2 x3 64 (by decide) _ _ (piece_64 _ _ _ _),
    piece_ok x0 x1 x2 x3 63 (by decide) _ _ (piece_63 _ _ _ _),
    piece_ok x0 x1 x2 x3 62 (by decide) _ _ (piece_62 _ _ _ _),
    piece_ok x0 x1 x2 x3 61 (by decide) _ _ (piece_61 _ _ _ _),
    piece_ok x0 x1 x2 x3 60 (by decide) _ _ (piece_60 _ _ _ _),
    piece_ok x0 x1 x2 x3 59 (by decide) _ _ (piece_59 _ _ _ _),
    piece_ok x0 x1 x2 x3 58 (by decide) _ _ (piece_58 _ _ _ _),
    piece_ok x0 x1 x2 x3 57 (by decide) _ _ (piece_57 _ _ _ _),
    piece_ok x0 x1 x2 x3 56 (by decide) _ _ (piece_56 _ _ _ _),
    piece_ok x0 x1 x2 x3 55 (by decide) _ _ (piece_55 _ _ _ _),
    piece_ok x0 x1 x2 x3 54 (by decide) _ _ (piece_54 _ _ _ _),
    piece_ok x0 x1 x2 x3 53 (by decide) _ _ (piece_53 _ _ _ _),
    piece_ok x0 x1 x2 x3 52 (by decide) _ _ (piece_52 _ _ _ _),
    piece_ok x0 x1 x2 x3 51 (by decide) _ _ (piece_51 _ _ _ _),
    piece_ok x0 x1 x2 x3 50 (by decide) _ _ (piece_50 _ _ _ _),
    piece_ok x0 x1 x2 x3 49 (by decide) _ _ (piece_49 _ _ _ _),
    piece_ok x0 x1 x2 x3 48 (by decide) _ _ (piece_48 _ _ _ _),
    piece_ok x0 x1 x2 x3 47 (by decide) _ _ (piece_47 _ _ _ _),
    piece_ok x0 x1 x2 x3 46 (by decide) _ _ (piece_46 _ _ _ _),
    piece_ok x0 x1 x2 x3 45 (by decide) _ _ (piece_45 _ _ _ _),
    piece_ok x0 x1 x2 x3 44 (by decide) _ _ (piece_44 _ _ _ _),
    piece_ok x0 x1 x2 x3 43 (by decide) _ _ (piece_43 _ _ _ _),
    piece_ok x0 x1 x2 x3 42 (by decide) _ _ (piece_42 _ _ _ _),
    piece_ok x0 x1 x2 x3 41 (by decide) _ _ (piece_41 _ _ _ _),
    piece_ok x0 x1 x2 x3 40 (by decide) _ _ (piece_40 _ _ _ _),
    piece_ok x0 x1 x2 x3 39 (by decide) _ _ (piece_39 _ _ _ _),
    piece_ok x0 x1 x2 x3 38 (by decide) _ _ (piece_38 _ _ _ _),
    piece_ok x0 x1 x2 x3 37 (by decide) _ _ (piece_37 _ _ _ _),
    piece_ok x0 x1 x2 x3 36 (by decide) _ _ (piece_36 _ _ _ _),
    piece_ok x0 x1 x2 x3 35 (by decide) _ _ (piece_35 _ _ _ _),
    piece_ok x0 x1 x2 x3 34 (by decide) _ _ (piece_34 _ _ _ _),
    piece_ok x0 x1 x2 x3 33 (by decide) _ _ (piece_33 _ _ _ _),
    piece_ok x0 x1 x2 x3 32 (by decide) _ _ (piece_32 _ _ _ _),
    piece_ok x0 x1 x2 x3 31 (by decide) _ _ (piece_31 _ _ _ _),
    piece_ok x0 x1 x2 x3 30 (by decide) _ _ (piece_30 _ _ _ _),
    piece_ok x0 x1 x2 x3 29 (by decide) _ _ (piece_29 _ _ _ _),
    piece_ok x0 x1 x2 x3 28 (by decide) _ _ (piece_28 _ _ _ _),
    piece_ok x0 x1 x2 x3 27 (by decide) _ _ (piece_27 _ _ _ _),
    piece_ok x0 x1 x2 x3 26 (by decide) _ _ (piece_26 _ _ _ _),
    piece_ok x0 x1 x2 x3 25 (by decide) _ _ (piece_25 _ _ _ _),
    piece_ok x0 x1 x2 x3 24 (by decide) _ _ (piece_24 _ _ _ _),
    piece_ok x0 x1 x2 x3 23 (by decide) _ _ (piece_23 _ _ _ _),
    piece_ok x0 x1 x2 x3 22 (by decide) _ _ (piece_22 _ _ _ _),
    piece_ok x0 x1 x2 x3 21 (by decide) _ _ (piece_21 _ _ _ _),
    piece_ok x0 x1 x2 x3 20 (by decide) _ _ (piece_20 _ _ _ _),
    piece_ok x0 x1 x2 x3 19 (by decide) _ _ (piece_19 _ _ _ _),
    piece_ok x0 x1 x2 x3 18 (by decide) _ _ (piece_18 _ _ _ _),
    piece_ok x0 x1 x2 x3 17 (by decide) _ _ (piece_17 _ _ _ _),
    piece_ok x0 x1 x2 x3 16 (by decide) _ _ (piece_16 _ _ _ _),
    piece_ok x0 x1 x2 x3 15 (by decide) _ _ (piece_15 _ _ _ _),
    piece_ok x0 x1 x2 x3 14 (by decide) _ _ (piece_14 _ _ _ _),
    piece_ok x0 x1 x2 x3 13 (by decide) _ _ (piece_13 _ _ _ _),
    piece_ok x0 x1 x2 x3 12 (by decide) _ _ (piece_12 _ _ _ _),
    piece_ok x0 x1 x2 x3 11 (by decide) _ _ (piece_11 _ _ _ _),
    piece_ok x0 x1 x2 x3 10 (by decide) _ _ (piece_10 _ _ _ _),
    piece_ok x0 x1 x2 x3 9 (by decide) _ _ (piece_9 _ _ _ _),
    piece_ok x0 x1 x2 x3 8 (by decide) _ _ (piece_8 _ _ _ _),
    piece_ok x0 x1 x2 x3 7 (by decide) _ _ (piece_7 _ _ _ _),
    piece_ok x0 x1 x2 x3 6 (by decide) _ _ (piece_6 _ _ _ _),
    piece_ok x0 x1 x2 x3 5 (by decide) _ _ (piece_5 _ _ _ _),
    piece_ok x0 x1 x2 x3 4 (by decide) _ _ (piece_4 _ _ _ _),
    piece_ok x0 x1 x2 x3 3 (by decide) _ _ (piece_3 _ _ _ _),
    piece_ok x0 x1 x2 x3 2 (by decide) _ _ (piece_2 _ _ _ _),
    piece_ok x0 x1 x2 x3 1 (by decide) _ _ (piece_1 _ _ _ _),
    piece_ok x0 x1 x2 x3 0 (by decide) _ _ (piece_0 _ _ _ _)⟩

end Cert.KernelIdeal.Harm

end
-- ==== Proof.KernelArray.lean ====
/- From blocks to the array. Grid point t reads rows 200·t to 200·t + 199 of the four [15800, 128] coordinate arrays and writes
   back the same rows, all 81 channels, of the [81, 15800, 128] output; the 79 points cover every row. So the output array after
   the run is the channel function of the four arrays as the region finds them. -/
import proofs.«118161_j37666863186375_1_alg».proof.Proof.KernelBlock

set_option maxRecDepth 16384

noncomputable section

namespace Cert.KernelIdeal.Harm

open Cert.KernelIdeal Cert.KernelIdeal.Gen Idealize.ShloMosaic Idealize.ShloMosaic.TcCoe Idealize.ShloMosaic.ValueIdx
open Idealize.SL.Sem Cert.Harmonics
open Idealize.ShloMosaic.Pipeline (Dat)

variable (m : (ℓ : Loc nD τ sig) → Buf (Elt Ideal) ℓ)

/-- The printed index maps over the grid: an input's block index is (t, 0), the output's is (0, t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem point_lt (t : Fin cfg0.N) : t.val < 79 := lt_of_lt_of_eq t.isLt N_0

/-- Input blocks read where they sit in their arrays. -/
theorem iblk0 (c : Dev nD) (t : Fin cfg0.N) (p : Fin 200) (q : Fin 128) (h : t.val * 200 + p.val < 15800) :
    iblk m c 0 t (ix2 p q) = (V m c main_v4 : S15800x128.Idx → EReal) (ix2 ⟨t.val * 200 + p.val, h⟩ q) := by
  show V m c main_v4 (((cfg0.win 0).blk t).view.emb (ix2 p q)) = V m c main_v4 _
  refine congrArg _ (funext fun a => Fin.ext ?_)
  obtain ⟨e0, e1, -⟩ := idx_facts t
  match a with
  | ⟨0, _⟩ => show win0_0.index t (0 : Fin 2) * 200 + 1 * p.val = t.val * 200 + p.val; omega
  | ⟨1, _⟩ => show win0_0.index t (1 : Fin 2) * 128 + 1 * q.val = q.val; omega
theorem iblk1 (c : Dev nD) (t : Fin cfg0.N) (p : Fin 200) (q : Fin 128) (h : t.val * 200 + p.val < 15800) :
    iblk m c 1 t (ix2 p q) = (V m c main_v5 : S15800x128.Idx → EReal) (ix2 ⟨t.val * 200 + p.val, h⟩ q) := by
  show V m c main_v5 (((cfg0.win 1).blk t).view.emb (ix2 p q)) = V m c main_v5 _
  refine congrArg _ (funext fun a => Fin.ext ?_)
  obtain ⟨-, -, e0, e1, -⟩ := idx_facts t
  match a with
  | ⟨0, _⟩ => show win0_1.index t (0 : Fin 2) * 200 + 1 * p.val = t.val * 200 + p.val; omega
  | ⟨1, _⟩ => show win0_1.index t (1 : Fin 2) * 128 + 1 * q.val = q.val; omega
theorem iblk2 (c : Dev nD) (t : Fin cfg0.N) (p : Fin 200) (q : Fin 128) (h : t.val * 200 + p.val < 15800) :
    iblk m c 2 t (ix2 p q) = (V m c main_v6 : S15800x128.Idx → EReal) (ix2 ⟨t.val * 200 + p.val, h⟩ q) := by
  show V m c main_v6 (((cfg0.win 2).blk t).view.emb (ix2 p q)) = V m c main_v6 _
  refine congrArg _ (funext fun a => Fin.ext ?_)
  obtain ⟨-, -, -, -, e0, e1, -⟩ := idx_facts t
  match a with
  | ⟨0, _⟩ => show win0_2.index t (0 : Fin 2) * 200 + 1 * p.val = t.val * 200 + p.val; omega
  | ⟨1, _⟩ => show win0_2.index t (1 : Fin 2) * 128 + 1 * q.val = q.val; omega
theorem iblk3 (c : Dev nD) (t : Fin cfg0.N) (p : Fin 200) (q : Fin 128) (h : t.val * 200 + p.val < 15800) :
    iblk m c 3 t (ix2 p q) = (V m c main_v7 : S15800x128.Idx → EReal) (ix2 ⟨t.val * 200 + p.val, h⟩ q) := by
  show V m c main_v7 (((cfg0.win 3).blk t).view.emb (ix2 p q)) = V m c main_v7 _
  refine congrArg _ (funext fun a => Fin.ext ?_)
  obtain ⟨-, -, -, -, -, -, e0, e1, -⟩ := idx_facts t
  match a with
  | ⟨0, _⟩ => show win0_3.index t (0 : Fin 2) * 200 + 1 * p.val = t.val * 200 + p.val; omega
  | ⟨1, _⟩ => show win0_3.index t (1 : Fin 2) * 128 + 1 * q.val = q.val; omega

/-- Where the output block's entry (ch, p, q) sits in the output array at point t. -/
theorem oblk (t : Fin cfg0.N) (ch : Fin 81) (p : Fin 200) (q : Fin 128) (h : t.val * 200 + p.val < 15800) :
    ((cfg0.win 4).blk t).view.emb (ix3 ch p q) = (ix3 ch (⟨t.val * 200 + p.val, h⟩ : Fin 15800) q : S81x15800x128.Idx) := by
  funext a
  apply Fin.ext
  obtain ⟨-, -, -, -, -, -, -, -, e0, e1, e2⟩ := idx_facts t
  match a with
  | ⟨0, _⟩ => show win0_4.index t (0 : Fin 3) * 81 + 1 * ch.val = ch.val; omega
  | ⟨1, _⟩ => show win0_4.index t (1 : Fin 3) * 200 + 1 * p.val = t.val * 200 + p.val; omega
  | ⟨2, _⟩ => show win0_4.index t (2 : Fin 3) * 128 + 1 * q.val = q.val; omega

/-- What point t writes back is block t of the channel function of the four arrays as the region finds them. -/
theorem flushed_eq (c : Dev nD) (t : Fin cfg0.N) :
    (dats m 0 c).flushed 4 t = ((cfg0.win 4).blk t).view.read (Elt Ideal)
      (chanArr (R := 15800) (V m c main_v4) (V m c main_v5) (V m c main_v6) (V m c main_v7)) := by
  show (cfg0.win 4).cut (grid0.coords t) ((dats m 0 c).after 4 t) = _
  rw [after0_4]
  funext y
  obtain ⟨ch, p, q, rfl⟩ : ∃ (ch : Fin 81) (p : Fin 200) (q : Fin 128), y = ix3 ch p q := ⟨y 0, y 1, y 2, eq_ix3 y⟩
  have ht := point_lt t
  have hrow : t.val * 200 + p.val < 15800 := by have := p.isLt; omega
  show out0_4 (iblk m c 0 t) (iblk m c 1 t) (iblk m c 2 t) (iblk m c 3 t) (ix3 ch p q)
    = chanArr (R := 15800) (V m c main_v4) (V m c main_v5) (V m c main_v6) (V m c main_v7) (((cfg0.win 4).blk t).view.emb (ix3 ch p q))
  rw [oblk t ch p q hrow]
  refine (out_apply (iblk m c 0 t) (iblk m c 1 t) (iblk m c 2 t) (iblk m c 3 t) (ix3 ch p q)).trans ?_
  show chan ch (iblk m c 0 t (ix2 p q)) (iblk m c 1 t (ix2 p q)) (iblk m c 2 t (ix2 p q)) (iblk m c 3 t (ix2 p q))
    = chan ch ((V m c main_v4 : S15800x128.Idx → EReal) (ix2 ⟨t.val * 200 + p.val, hrow⟩ q))
        ((V m c main_v5 : S15800x128.Idx → EReal) (ix2 ⟨t.val * 200 + p.val, hrow⟩ q))
        ((V m c main_v6 : S15800x128.Idx → EReal) (ix2 ⟨t.val * 200 + p.val, hrow⟩ q))
        ((V m c main_v7 : S15800x128.Idx → EReal) (ix2 ⟨t.val * 200 + p.val, hrow⟩ q))
  rw [iblk0 m c t p q hrow, iblk1 m c t p q hrow, iblk2 m c t p q hrow, iblk3 m c t p q hrow]

/-- An index of the output array is in point t's block iff each coordinate is in the block's range on its axis. -/
theorem mem_blk (t : Fin cfg0.N) (i : S81x15800x128.Idx) :
    i ∈ ((cfg0.win 4).blk t).view.set ↔ ∀ a : Fin 3, win0_4.index t a * S81x200x128.size a ≤ (i a).val
      ∧ (i a).val < win0_4.index t a * S81x200x128.size a + S81x200x128.size a := by
  show i ∈ ((View.whole main_v8).slice (win0_4.rect t)).set ↔ _
  rw [View.set_slice_whole, Rect.mem_set_unit]
  exact Iff.rfl

/-- Row r of the output is written back by point r / 200. -/
theorem cover (i : S81x15800x128.Idx) : ∃ t : Fin cfg0.N, (cfg0.win 4).flush t = true ∧ i ∈ ((cfg0.win 4).blk t).view.set := by
  have hi0 : (i 0).val < 81 := (i 0).isLt
  have hi1 : (i 1).val < 15800 := (i 1).isLt
  have hi2 : (i 2).val < 128 := (i 2).isLt
  have hN : cfg0.N = 79 := N_0
  obtain ⟨t, ht⟩ : ∃ t : Fin cfg0.N, t.val = (i 1).val / 200 := ⟨⟨(i 1).val / 200, by rw [hN]; omega⟩, rfl⟩
  obtain ⟨-, -, -, -, -, -, -, -, e0, e1, e2⟩ := idx_facts t
  refine ⟨t, flush0_4 t, ?_⟩
  rw [mem_blk]
  intro a
  match a with
  | ⟨0, _⟩ => show win0_4.index t (0 : Fin 3) * 81 ≤ (i 0).val ∧ (i 0).val < win0_4.index t (0 : Fin 3) * 81 + 81; omega
  | ⟨1, _⟩ => show win0_4.index t (1 : Fin 3) * 200 ≤ (i 1).val ∧ (i 1).val < win0_4.index t (1 : Fin 3) * 200 + 200; omega
  | ⟨2, _⟩ => show win0_4.index t (2 : Fin 3) * 128 ≤ (i 2).val ∧ (i 2).val < win0_4.index t (2 : Fin 3) * 128 + 128; omega

/-- The output array after the run. -/
theorem final (c : Dev nD) : (dats m 0 c).arrAt 4 cfg0.N
    = chanArr (R := 15800) (V m c main_v4) (V m c main_v5) (V m c main_v6) (V m c main_v7) :=
  (dats m 0 c).arrAt_eq_of_cover 4 _ (fun t _ => flushed_eq m c t) cover

end Cert.KernelIdeal.Harm

end
-- ==== Proof.KernelHostIn.lean ====
/- The four coordinate arrays as the kernel finds them: each is the argument padded at the end from 2,000,000 to 2,022,400 entries
   and viewed as [15800, 128] rows of lanes, so entry (n / 128, n % 128) is the argument's entry n for every n < 2,000,000. The
   padded tail is never read by the results, so its value does not matter. -/
import proofs.«118161_j37666863186375_1_alg».proof.Proof.Gen.KernelIdeal.Frame
import Idealize.ShloMosaic.Lib.KernelVsHost
import Idealize.ShloMosaic.Lib.Pipeline.Value
import Idealize.ShloMosaic.Lib.ValueIdx

noncomputable section

namespace Cert.KernelIdeal.Harm

open Cert.KernelIdeal Cert.KernelIdeal.Gen Idealize.ShloMosaic Idealize.ShloMosaic.TcCoe Idealize.ShloMosaic.ValueIdx
open Idealize.SL.Sem Idealize.ShloMosaic.StableHlo

/-- A vector of 2,000,000 entries padded at the end to 2,022,400 and viewed as [15800, 128]: entry (n / 128, n % 128) is the
    vector's entry n, whatever the padding value. -/
theorem padded_apply {α : Type} (X : S2000000.Idx → α) (v : S_.Idx → α) (hp : S2000000.Pads (![0] : Fin 1 → Nat) ![22400] ![0] S2022400)
    (hu : 0 < S_.numel) (hc : S2022400.ShapeCasts S15800x128) (n : Fin 2000000) :
    shapeCast S15800x128 (pad S2022400 ![0] ![22400] ![0] X v hp hu) hc
        (ix2 (⟨n.val / 128, by omega⟩ : Fin 15800) (⟨n.val % 128, Nat.mod_lt _ (by omega)⟩ : Fin 128)) = X (ix1 n) := by
  refine (shapeCast_apply _ hc _ (ix1 (⟨n.val, by omega⟩ : Fin 2022400)) ?_).trans ?_
  · rw [Shape.rowMajor_val_one, Shape.rowMajor_val_two]
    show n.val = n.val / 128 * 128 + n.val % 128
    omega
  · refine pad_apply_of_inside ![0] ![22400] ![0] X v hp hu _ (ix1 n) fun a => ?_
    match a with
    | ⟨0, _⟩ => show n.val = 0 + n.val * (0 + 1); omega

variable (m : (ℓ : Loc nD τ sig) → Buf (Elt Ideal) ℓ)

/-- x as the kernel finds it. -/
theorem V4_apply (c : Dev nD) (n : Fin 2000000) :
    (V m c main_v4 : S15800x128.Idx → EReal) (ix2 (⟨n.val / 128, by omega⟩ : Fin 15800) (⟨n.val % 128, Nat.mod_lt _ (by omega)⟩ : Fin 128))
      = (m ((c.tc : Thread nD τ).loc main_arg0) : S2000000.Idx → EReal) (ix1 n) := by
  obtain ⟨v, e⟩ : ∃ v : S_.Idx → EReal, (V m c main_v4 : S15800x128.Idx → EReal)
      = shapeCast S15800x128 (pad S2022400 ![0] ![22400] ![0] (m ((c.tc : Thread nD τ).loc main_arg0) : S2000000.Idx → EReal) v
          pads_S2000000_S2022400_0224000 h_S_) shapeCasts_S2022400_S15800x128 := by
    refine ⟨?v, ?e⟩
    case e =>
      dsimp only [V, V0]
      simp only [hostOps0, hostOps0_1, hostOps0_2, hostOps0_3, hostOps0_4, hostOps0_5, hostOps0_6, hostOps0_7, hostOps0_8,
        List.flatten_cons, List.flatten_nil, List.append_nil, List.cons_append, List.nil_append]
      after_results
      rfl
  rw [e]
  exact padded_apply _ v _ _ _ n

/-- y as the kernel finds it. -/
theorem V5_apply (c : Dev nD) (n : Fin 2000000) :
    (V m c main_v5 : S15800x128.Idx → EReal) (ix2 (⟨n.val / 128, by omega⟩ : Fin 15800) (⟨n.val % 128, Nat.mod_lt _ (by omega)⟩ : Fin 128))
      = (m ((c.tc : Thread nD τ).loc main_arg1) : S2000000.Idx → EReal) (ix1 n) := by
  obtain ⟨v, e⟩ : ∃ v : S_.Idx → EReal, (V m c main_v5 : S15800x128.Idx → EReal)
      = shapeCast S15800x128 (pad S2022400 ![0] ![22400] ![0] (m ((c.tc : Thread nD τ).loc main_arg1) : S2000000.Idx → EReal) v
          pads_S2000000_S2022400_0224000 h_S_) shapeCasts_S2022400_S15800x128 := by
    refine ⟨?v, ?e⟩
    case e =>
      dsimp only [V, V0]
      simp only [hostOps0, hostOps0_1, hostOps0_2, hostOps0_3, hostOps0_4, hostOps0_5, hostOps0_6, hostOps0_7, hostOps0_8,
        List.flatten_cons, List.flatten_nil, List.append_nil, List.cons_append, List.nil_append]
      after_results
      rfl
  rw [e]
  exact padded_apply _ v _ _ _ n

/-- z as the kernel finds it. -/
theorem V6_apply (c : Dev nD) (n : Fin 2000000) :
    (V m c main_v6 : S15800x128.Idx → EReal) (ix2 (⟨n.val / 128, by omega⟩ : Fin 15800) (⟨n.val % 128, Nat.mod_lt _ (by omega)⟩ : Fin 128))
      = (m ((c.tc : Thread nD τ).loc main_arg2) : S2000000.Idx → EReal) (ix1 n) := by
  obtain ⟨v, e⟩ : ∃ v : S_.Idx → EReal, (V m c main_v6 : S15800x128.Idx → EReal)
      = shapeCast S15800x128 (pad S2022400 ![0] ![22400] ![0] (m ((c.tc : Thread nD τ).loc main_arg2) : S2000000.Idx → EReal) v
          pads_S2000000_S2022400_0224000 h_S_) shapeCasts_S2022400_S15800x128 := by
    refine ⟨?v, ?e⟩
    case e =>
      dsimp only [V, V0]
      simp only [hostOps0, hostOps0_1, hostOps0_2, hostOps0_3, hostOps0_4, hostOps0_5, hostOps0_6, hostOps0_7, hostOps0_8,
        List.flatten_cons, List.flatten_nil, List.append_nil, List.cons_append, List.nil_append]
      after_results
      rfl
  rw [e]
  exact padded_apply _ v _ _ _ n

/-- r as the kernel finds it. -/
theorem V7_apply (c : Dev nD) (n : Fin 2000000) :
    (V m c main_v7 : S15800x128.Idx → EReal) (ix2 (⟨n.val / 128, by omega⟩ : Fin 15800) (⟨n.val % 128, Nat.mod_lt _ (by omega)⟩ : Fin 128))
      = (m ((c.tc : Thread nD τ).loc main_arg3) : S2000000.Idx → EReal) (ix1 n) := by
  obtain ⟨v, e⟩ : ∃ v : S_.Idx → EReal, (V m c main_v7 : S15800x128.Idx → EReal)
      = shapeCast S15800x128 (pad S2022400 ![0] ![22400] ![0] (m ((c.tc : Thread nD τ).loc main_arg3) : S2000000.Idx → EReal) v
          pads_S2000000_S2022400_0224000 h_S_) shapeCasts_S2022400_S15800x128 := by
    refine ⟨?v, ?e⟩
    case e =>
      dsimp only [V, V0]
      simp only [hostOps0, hostOps0_1, hostOps0_2, hostOps0_3, hostOps0_4, hostOps0_5, hostOps0_6, hostOps0_7, hostOps0_8,
        List.flatten_cons, List.flatten_nil, List.append_nil, List.cons_append, List.nil_append]
      after_results
      rfl
  rw [e]
  exact padded_apply _ v _ _ _ n

end Cert.KernelIdeal.Harm

end
-- ==== Proof.KernelTailLemmas.lean ====
/- The host lines after the region: the [81, 15800, 128] output is viewed as [81, 2022400], transposed to [2022400, 81], cut back to
   the first 2,000,000 rows, and cut into the nine column ranges. So entry (n, k) of the result whose columns start at o is the
   output's entry (o + k, n / 128, n % 128): point n sits at row n / 128, lane n % 128. -/
import proofs.«118161_j37666863186375_1_alg».proof.Proof.Gen.KernelIdeal.Frame
import Idealize.ShloMosaic.Lib.Pipeline.Value
import Idealize.ShloMosaic.Lib.ValueIdx

noncomputable section

namespace Cert.KernelIdeal.Harm

open Cert.KernelIdeal Cert.KernelIdeal.Gen Idealize.ShloMosaic Idealize.ShloMosaic.TcCoe Idealize.ShloMosaic.ValueIdx
open Idealize.SL.Sem Idealize.ShloMosaic.StableHlo

/-- The reshape, the transpose and the two cuts, read at (n, k). -/
theorem tail_apply {α : Type} (A : S81x15800x128.Idx → α) (hc : S81x15800x128.ShapeCasts S81x2022400)
    (ht : S81x2022400.Transposes [1, 0] S2022400x81) (hs : S2022400x81.Slices ![0, 0] S2000000x81)
    {w : Nat} (o : Nat) (hs2 : S2000000x81.Slices ![0, o] ⟨2, ![2000000, w]⟩) (n : Fin 2000000) (k : Fin w) (hk : o + k.val < 81) :
    extractStridedSlice ⟨2, ![2000000, w]⟩ ![0, o]
        (extractStridedSlice S2000000x81 ![0, 0] (transpose S2022400x81 [1, 0] (shapeCast S81x2022400 A hc) ht) hs) hs2 (ix2 n k)
      = A (ix3 (⟨o + k.val, hk⟩ : Fin 81) (⟨n.val / 128, by omega⟩ : Fin 15800) (⟨n.val % 128, Nat.mod_lt _ (by omega)⟩ : Fin 128)) := by
  refine (extractStridedSlice_apply ![0, o] _ hs2 (ix2 n k) (ix2 n (⟨o + k.val, hk⟩ : Fin 81)) fun a => ?_).trans ?_
  · match a with
    | ⟨0, _⟩ => show n.val = 0 + n.val; omega
    | ⟨1, _⟩ => show o + k.val = o + k.val; rfl
  refine (extractStridedSlice_apply ![0, 0] _ hs (ix2 n (⟨o + k.val, hk⟩ : Fin 81))
    (ix2 (⟨n.val, by omega⟩ : Fin 2022400) (⟨o + k.val, hk⟩ : Fin 81)) fun a => ?_).trans ?_
  · match a with
    | ⟨0, _⟩ => show n.val = 0 + n.val; omega
    | ⟨1, _⟩ => show o + k.val = 0 + (o + k.val); omega
  refine (transpose_apply [1, 0] _ ht (ix2 (⟨n.val, by omega⟩ : Fin 2022400) (⟨o + k.val, hk⟩ : Fin 81))
    (ix2 (⟨o + k.val, hk⟩ : Fin 81) (⟨n.val, by omega⟩ : Fin 2022400)) fun b => ?_).trans ?_
  · match b with
    | ⟨0, _⟩ => rfl
    | ⟨1, _⟩ => rfl
  refine shapeCast_apply A hc _ _ ?_
  rw [Shape.rowMajor_val_three, Shape.rowMajor_val_two]
  show ((o + k.val) * 15800 + n.val / 128) * 128 + n.val % 128 = (o + k.val) * 2022400 + n.val
  omega

/-- One result of the host lines: a buffer that holds the two cuts of the transposed view of the output A, read at (n, k). -/
theorem tail_of_eq {α : Type} {w : Nat} (A : S81x15800x128.Idx → α) (res : (⟨2, ![2000000, w]⟩ : Shape).Idx → α) (o : Nat)
    (hc : S81x15800x128.ShapeCasts S81x2022400) (ht : S81x2022400.Transposes [1, 0] S2022400x81)
    (hs : S2022400x81.Slices ![0, 0] S2000000x81) (hs2 : S2000000x81.Slices ![0, o] ⟨2, ![2000000, w]⟩)
    (e : res = extractStridedSlice ⟨2, ![2000000, w]⟩ ![0, o]
      (extractStridedSlice S2000000x81 ![0, 0] (transpose S2022400x81 [1, 0] (shapeCast S81x2022400 A hc) ht) hs) hs2)
    (n : Fin 2000000) (k : Fin w) (hk : o + k.val < 81) :
    res (ix2 n k)
      = A (ix3 (⟨o + k.val, hk⟩ : Fin 81) (⟨n.val / 128, by omega⟩ : Fin 15800) (⟨n.val % 128, Nat.mod_lt _ (by omega)⟩ : Fin 128)) := by
  rw [e]
  exact tail_apply A hc ht hs o hs2 n k hk

/-- What the host lines leave in one result buffer, as the composition of their operations on the output's contents: each line's
    result is its operation of its operand's contents, and no other line writes the buffer. -/
macro "host_lines" : tactic => `(tactic| (after_results; rfl))

end Cert.KernelIdeal.Harm

end
-- ==== Proof.KernelTail.lean ====
/- The nine results after the host lines that follow the region: entry (n, k) of degree l's result is the output's entry
   (l² + k, n / 128, n % 128), from any contents W of the buffers before those lines. -/
import proofs.«118161_j37666863186375_1_alg».proof.Proof.KernelTailLemmas

noncomputable section

namespace Cert.KernelIdeal.Harm

open Cert.KernelIdeal Cert.KernelIdeal.Gen Idealize.ShloMosaic Idealize.ShloMosaic.TcCoe Idealize.ShloMosaic.ValueIdx
open Idealize.SL.Sem Idealize.ShloMosaic.StableHlo

variable (W : Valuation τ sig (Elt Ideal))

/-- Degree 0: buffer main_v12, 1 columns from column 0. -/
theorem tail_v12 (n : Fin 2000000) (k : Fin 1) (hk : 0 + k.val < 81) :
    (after hostOps1 W (Proc.devRef .tc main_v12) : S2000000x1.Idx → EReal) (ix2 n k)
      = (W (Proc.devRef .tc main_v8) : S81x15800x128.Idx → EReal)
          (ix3 (⟨0 + k.val, hk⟩ : Fin 81) (⟨n.val / 128, by omega⟩ : Fin 15800) (⟨n.val % 128, Nat.mod_lt _ (by omega)⟩ : Fin 128)) :=
  tail_of_eq _ _ 0 shapeCasts_S81x15800x128_S81x2022400 transposes_S81x2022400_S2022400x81_1_0 slices_S2022400x81_S2000000x81_0_0
    slices_S2000000x81_S2000000x1_0_0 (by host_lines) n k hk

/-- Degree 1: buffer main_v13, 3 columns from column 1. -/
theorem tail_v13 (n : Fin 2000000) (k : Fin 3) (hk : 1 + k.val < 81) :
    (after hostOps1 W (Proc.devRef .tc main_v13) : S2000000x3.Idx → EReal) (ix2 n k)
      = (W (Proc.devRef .tc main_v8) : S81x15800x128.Idx → EReal)
          (ix3 (⟨1 + k.val, hk⟩ : Fin 81) (⟨n.val / 128, by omega⟩ : Fin 15800) (⟨n.val % 128, Nat.mod_lt _ (by omega)⟩ : Fin 128)) :=
  tail_of_eq _ _ 1 shapeCasts_S81x15800x128_S81x2022400 transposes_S81x2022400_S2022400x81_1_0 slices_S2022400x81_S2000000x81_0_0
    slices_S2000000x81_S2000000x3_0_1 (by host_lines) n k hk

/-- Degree 2: buffer main_v14, 5 columns from column 4. -/
theorem tail_v14 (n : Fin 2000000) (k : Fin 5) (hk : 4 + k.val < 81) :
    (after hostOps1 W (Proc.devRef .tc main_v14) : S2000000x5.Idx → EReal) (ix2 n k)
      = (W (Proc.devRef .tc main_v8) : S81x15800x128.Idx → EReal)
          (ix3 (⟨4 + k.val, hk⟩ : Fin 81) (⟨n.val / 128, by omega⟩ : Fin 15800) (⟨n.val % 128, Nat.mod_lt _ (by omega)⟩ : Fin 128)) :=
  tail_of_eq _ _ 4 shapeCasts_S81x15800x128_S81x2022400 transposes_S81x2022400_S2022400x81_1_0 slices_S2022400x81_S2000000x81_0_0
    slices_S2000000x81_S2000000x5_0_4 (by host_lines) n k hk

/-- Degree 3: buffer main_v15, 7 columns from column 9. -/
theorem tail_v15 (n : Fin 2000000) (k : Fin 7) (hk : 9 + k.val < 81) :
    (after hostOps1 W (Proc.devRef .tc main_v15) : S2000000x7.Idx → EReal) (ix2 n k)
      = (W (Proc.devRef .tc main_v8) : S81x15800x128.Idx → EReal)
          (ix3 (⟨9 + k.val, hk⟩ : Fin 81) (⟨n.val / 128, by omega⟩ : Fin 15800) (⟨n.val % 128, Nat.mod_lt _ (by omega)⟩ : Fin 128)) :=
  tail_of_eq _ _ 9 shapeCasts_S81x15800x128_S81x2022400 transposes_S81x2022400_S2022400x81_1_0 slices_S2022400x81_S2000000x81_0_0
    slices_S2000000x81_S2000000x7_0_9 (by host_lines) n k hk

/-- Degree 4: buffer main_v16, 9 columns from column 16. -/
theorem tail_v16 (n : Fin 2000000) (k : Fin 9) (hk : 16 + k.val < 81) :
    (after hostOps1 W (Proc.devRef .tc main_v16) : S2000000x9.Idx → EReal) (ix2 n k)
      = (W (Proc.devRef .tc main_v8) : S81x15800x128.Idx → EReal)
          (ix3 (⟨16 + k.val, hk⟩ : Fin 81) (⟨n.val / 128, by omega⟩ : Fin 15800) (⟨n.val % 128, Nat.mod_lt _ (by omega)⟩ : Fin 128)) :=
  tail_of_eq _ _ 16 shapeCasts_S81x15800x128_S81x2022400 transposes_S81x2022400_S2022400x81_1_0 slices_S2022400x81_S2000000x81_0_0
    slices_S2000000x81_S2000000x9_0_16 (by host_lines) n k hk

/-- Degree 5: buffer main_v17, 11 columns from column 25. -/
theorem tail_v17 (n : Fin 2000000) (k : Fin 11) (hk : 25 + k.val < 81) :
    (after hostOps1 W (Proc.devRef .tc main_v17) : S2000000x11.Idx → EReal) (ix2 n k)
      = (W (Proc.devRef .tc main_v8) : S81x15800x128.Idx → EReal)
          (ix3 (⟨25 + k.val, hk⟩ : Fin 81) (⟨n.val / 128, by omega⟩ : Fin 15800) (⟨n.val % 128, Nat.mod_lt _ (by omega)⟩ : Fin 128)) :=
  tail_of_eq _ _ 25 shapeCasts_S81x15800x128_S81x2022400 transposes_S81x2022400_S2022400x81_1_0 slices_S2022400x81_S2000000x81_0_0
    slices_S2000000x81_S2000000x11_0_25 (by host_lines) n k hk

/-- Degree 6: buffer main_v18, 13 columns from column 36. -/
theorem tail_v18 (n : Fin 2000000) (k : Fin 13) (hk : 36 + k.val < 81) :
    (after hostOps1 W (Proc.devRef .tc main_v18) : S2000000x13.Idx → EReal) (ix2 n k)
      = (W (Proc.devRef .tc main_v8) : S81x15800x128.Idx → EReal)
          (ix3 (⟨36 + k.val, hk⟩ : Fin 81) (⟨n.val / 128, by omega⟩ : Fin 15800) (⟨n.val % 128, Nat.mod_lt _ (by omega)⟩ : Fin 128)) :=
  tail_of_eq _ _ 36 shapeCasts_S81x15800x128_S81x2022400 transposes_S81x2022400_S2022400x81_1_0 slices_S2022400x81_S2000000x81_0_0
    slices_S2000000x81_S2000000x13_0_36 (by host_lines) n k hk

/-- Degree 7: buffer main_v19, 15 columns from column 49. -/
theorem tail_v19 (n : Fin 2000000) (k : Fin 15) (hk : 49 + k.val < 81) :
    (after hostOps1 W (Proc.devRef .tc main_v19) : S2000000x15.Idx → EReal) (ix2 n k)
      = (W (Proc.devRef .tc main_v8) : S81x15800x128.Idx → EReal)
          (ix3 (⟨49 + k.val, hk⟩ : Fin 81) (⟨n.val / 128, by omega⟩ : Fin 15800) (⟨n.val % 128, Nat.mod_lt _ (by omega)⟩ : Fin 128)) :=
  tail_of_eq _ _ 49 shapeCasts_S81x15800x128_S81x2022400 transposes_S81x2022400_S2022400x81_1_0 slices_S2022400x81_S2000000x81_0_0
    slices_S2000000x81_S2000000x15_0_49 (by host_lines) n k hk

/-- Degree 8: buffer main_v20, 17 columns from column 64. -/
theorem tail_v20 (n : Fin 2000000) (k : Fin 17) (hk : 64 + k.val < 81) :
    (after hostOps1 W (Proc.devRef .tc main_v20) : S2000000x17.Idx → EReal) (ix2 n k)
      = (W (Proc.devRef .tc main_v8) : S81x15800x128.Idx → EReal)
          (ix3 (⟨64 + k.val, hk⟩ : Fin 81) (⟨n.val / 128, by omega⟩ : Fin 15800) (⟨n.val % 128, Nat.mod_lt _ (by omega)⟩ : Fin 128)) :=
  tail_of_eq _ _ 64 shapeCasts_S81x15800x128_S81x2022400 transposes_S81x2022400_S2022400x81_1_0 slices_S2022400x81_S2000000x81_0_0
    slices_S2000000x81_S2000000x17_0_64 (by host_lines) n k hk

end Cert.KernelIdeal.Harm

end
-- ==== Proof.KernelDegree.lean ====
/- One degree's result from the whole output array. The output array is the channel function of the four [15800, 128] coordinate
   arrays; point n sits at row n / 128, lane n % 128 of those; the degree's result entry (n, k) is the output's entry
   (o + k, n / 128, n % 128) where o is the degree's first channel; and channel o + k is the degree's column k. -/
import proofs.«118161_j37666863186375_1_alg».proof.Proof.KernelChanArr

noncomputable section

namespace Cert.Harmonics

open Idealize.ShloMosaic Idealize.ShloMosaic.ValueIdx

theorem degree_eq {w : Nat} (o : Nat) (ho : ∀ k : Fin w, o + k.val < 81)
    (rowf : Fin w → EReal → EReal → EReal → EReal → EReal)
    (hrow : ∀ (k : Fin w) (h : o + k.val < 81), chan ⟨o + k.val, h⟩ = rowf k)
    (X Y Z R : Pts) (V4 V5 V6 V7 : (⟨2, ![15800, 128]⟩ : Shape).Idx → EReal)
    (h4 : ∀ n : Fin 2000000, V4 (ix2 (⟨n.val / 128, by omega⟩ : Fin 15800) (⟨n.val % 128, Nat.mod_lt _ (by omega)⟩ : Fin 128)) = X (ix1 n))
    (h5 : ∀ n : Fin 2000000, V5 (ix2 (⟨n.val / 128, by omega⟩ : Fin 15800) (⟨n.val % 128, Nat.mod_lt _ (by omega)⟩ : Fin 128)) = Y (ix1 n))
    (h6 : ∀ n : Fin 2000000, V6 (ix2 (⟨n.val / 128, by omega⟩ : Fin 15800) (⟨n.val % 128, Nat.mod_lt _ (by omega)⟩ : Fin 128)) = Z (ix1 n))
    (h7 : ∀ n : Fin 2000000, V7 (ix2 (⟨n.val / 128, by omega⟩ : Fin 15800) (⟨n.val % 128, Nat.mod_lt _ (by omega)⟩ : Fin 128)) = R (ix1 n))
    (A : (⟨3, ![81, 15800, 128]⟩ : Shape).Idx → EReal) (hA : A = chanArr V4 V5 V6 V7)
    (res Yl : (⟨2, ![2000000, w]⟩ : Shape).Idx → EReal)
    (hres : ∀ (n : Fin 2000000) (k : Fin w), res (ix2 n k)
      = A (ix3 (⟨o + k.val, ho k⟩ : Fin 81) (⟨n.val / 128, by omega⟩ : Fin 15800) (⟨n.val % 128, Nat.mod_lt _ (by omega)⟩ : Fin 128)))
    (hY : ∀ (n : Fin 2000000) (k : Fin w), Yl (ix2 n k) = rowf k (X (ix1 n)) (Y (ix1 n)) (Z (ix1 n)) (R (ix1 n))) :
    res = Yl := by
  funext j
  obtain ⟨n, k, rfl⟩ : ∃ (n : Fin 2000000) (k : Fin w), j = ix2 n k := ⟨j 0, j 1, eq_ix2 j⟩
  rw [hres n k, hA, chanArr_apply, h4 n, h5 n, h6 n, h7 n, hrow k (ho k), hY n k]

end Cert.Harmonics

end
-- ==== Proof.KernelRun.lean ====
/- The kernel's run, read. After the run the nine results are the nine degrees of the specification at the four argument arrays,
   and the arguments are unchanged: the frame run leaves the output array at what the grid points wrote back, the host lines after the
   region cut the nine results out of it, and the host lines before it laid the arguments out as the rows the grid points read. -/
import proofs.«118161_j37666863186375_1_alg».proof.Proof.KernelArray
import proofs.«118161_j37666863186375_1_alg».proof.Proof.KernelHostIn
import proofs.«118161_j37666863186375_1_alg».proof.Proof.KernelTail
import proofs.«118161_j37666863186375_1_alg».proof.Proof.KernelDegree

set_option maxRecDepth 16384

noncomputable section

namespace Cert.KernelIdeal.Harm

open Cert.KernelIdeal Cert.KernelIdeal.Gen Idealize.ShloMosaic Idealize.ShloMosaic.TcCoe Idealize.ShloMosaic.ValueIdx
open Idealize.SL.Sem Cert.Harmonics

variable (m : (ℓ : Loc nD τ sig) → Buf (Elt Ideal) ℓ) (ρ : Dev nD → PrngReg)

/-- Degree 0's result after the run. -/
theorem res_v12 (c : Dev nD) : Pipeline.afterTail₀ cfgs (dats m) 0 (V0 m) [hostOps1] c main_v12
    = Y_0 (m ((c.tc : Thread nD τ).loc main_arg0)) (m ((c.tc : Thread nD τ).loc main_arg1))
        (m ((c.tc : Thread nD τ).loc main_arg2)) (m ((c.tc : Thread nD τ).loc main_arg3)) := by
  refine degree_eq (w := 1) 0 (fun k => by have := k.isLt; omega) row_0 chan_row_0 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_0_apply _ _ _ _)
  unfold Pipeline.afterTail₀
  show StableHlo.after hostOps1 _ (Proc.devRef .tc main_v12) (ix2 n k) = _
  rw [tail_v12 _ n k (by have := k.isLt; omega)]
  exact congrFun (Pipeline.withArrays_arr spec0 launch0.win.arr_inj c _ _ 4) _

/-- Degree 1's result after the run. -/
theorem res_v13 (c : Dev nD) : Pipeline.afterTail₀ cfgs (dats m) 0 (V0 m) [hostOps1] c main_v13
    = Y_1 (m ((c.tc : Thread nD τ).loc main_arg0)) (m ((c.tc : Thread nD τ).loc main_arg1))
        (m ((c.tc : Thread nD τ).loc main_arg2)) (m ((c.tc : Thread nD τ).loc main_arg3)) := by
  refine degree_eq (w := 3) 1 (fun k => by have := k.isLt; omega) row_1 chan_row_1 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_1_apply _ _ _ _)
  unfold Pipeline.afterTail₀
  show StableHlo.after hostOps1 _ (Proc.devRef .tc main_v13) (ix2 n k) = _
  rw [tail_v13 _ n k (by have := k.isLt; omega)]
  exact congrFun (Pipeline.withArrays_arr spec0 launch0.win.arr_inj c _ _ 4) _

/-- Degree 2's result after the run. -/
theorem res_v14 (c : Dev nD) : Pipeline.afterTail₀ cfgs (dats m) 0 (V0 m) [hostOps1] c main_v14
    = Y_2 (m ((c.tc : Thread nD τ).loc main_arg0)) (m ((c.tc : Thread nD τ).loc main_arg1))
        (m ((c.tc : Thread nD τ).loc main_arg2)) (m ((c.tc : Thread nD τ).loc main_arg3)) := by
  refine degree_eq (w := 5) 4 (fun k => by have := k.isLt; omega) row_2 chan_row_2 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_2_apply _ _ _ _)
  unfold Pipeline.afterTail₀
  show StableHlo.after hostOps1 _ (Proc.devRef .tc main_v14) (ix2 n k) = _
  rw [tail_v14 _ n k (by have := k.isLt; omega)]
  exact congrFun (Pipeline.withArrays_arr spec0 launch0.win.arr_inj c _ _ 4) _

/-- Degree 3's result after the run. -/
theorem res_v15 (c : Dev nD) : Pipeline.afterTail₀ cfgs (dats m) 0 (V0 m) [hostOps1] c main_v15
    = Y_3 (m ((c.tc : Thread nD τ).loc main_arg0)) (m ((c.tc : Thread nD τ).loc main_arg1))
        (m ((c.tc : Thread nD τ).loc main_arg2)) (m ((c.tc : Thread nD τ).loc main_arg3)) := by
  refine degree_eq (w := 7) 9 (fun k => by have := k.isLt; omega) row_3 chan_row_3 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_3_apply _ _ _ _)
  unfold Pipeline.afterTail₀
  show StableHlo.after hostOps1 _ (Proc.devRef .tc main_v15) (ix2 n k) = _
  rw [tail_v15 _ n k (by have := k.isLt; omega)]
  exact congrFun (Pipeline.withArrays_arr spec0 launch0.win.arr_inj c _ _ 4) _

/-- Degree 4's result after the run. -/
theorem res_v16 (c : Dev nD) : Pipeline.afterTail₀ cfgs (dats m) 0 (V0 m) [hostOps1] c main_v16
    = Y_4 (m ((c.tc : Thread nD τ).loc main_arg0)) (m ((c.tc : Thread nD τ).loc main_arg1))
        (m ((c.tc : Thread nD τ).loc main_arg2)) (m ((c.tc : Thread nD τ).loc main_arg3)) := by
  refine degree_eq (w := 9) 16 (fun k => by have := k.isLt; omega) row_4 chan_row_4 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_4_apply _ _ _ _)
  unfold Pipeline.afterTail₀
  show StableHlo.after hostOps1 _ (Proc.devRef .tc main_v16) (ix2 n k) = _
  rw [tail_v16 _ n k (by have := k.isLt; omega)]
  exact congrFun (Pipeline.withArrays_arr spec0 launch0.win.arr_inj c _ _ 4) _

/-- Degree 5's result after the run. -/
theorem res_v17 (c : Dev nD) : Pipeline.afterTail₀ cfgs (dats m) 0 (V0 m) [hostOps1] c main_v17
    = Y_5 (m ((c.tc : Thread nD τ).loc main_arg0)) (m ((c.tc : Thread nD τ).loc main_arg1))
        (m ((c.tc : Thread nD τ).loc main_arg2)) (m ((c.tc : Thread nD τ).loc main_arg3)) := by
  refine degree_eq (w := 11) 25 (fun k => by have := k.isLt; omega) row_5 chan_row_5 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_5_apply _ _ _ _)
  unfold Pipeline.afterTail₀
  show StableHlo.after hostOps1 _ (Proc.devRef .tc main_v17) (ix2 n k) = _
  rw [tail_v17 _ n k (by have := k.isLt; omega)]
  exact congrFun (Pipeline.withArrays_arr spec0 launch0.win.arr_inj c _ _ 4) _

/-- Degree 6's result after the run. -/
theorem res_v18 (c : Dev nD) : Pipeline.afterTail₀ cfgs (dats m) 0 (V0 m) [hostOps1] c main_v18
    = Y_6 (m ((c.tc : Thread nD τ).loc main_arg0)) (m ((c.tc : Thread nD τ).loc main_arg1))
        (m ((c.tc : Thread nD τ).loc main_arg2)) (m ((c.tc : Thread nD τ).loc main_arg3)) := by
  refine degree_eq (w := 13) 36 (fun k => by have := k.isLt; omega) row_6 chan_row_6 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_6_apply _ _ _ _)
  unfold Pipeline.afterTail₀
  show StableHlo.after hostOps1 _ (Proc.devRef .tc main_v18) (ix2 n k) = _
  rw [tail_v18 _ n k (by have := k.isLt; omega)]
  exact congrFun (Pipeline.withArrays_arr spec0 launch0.win.arr_inj c _ _ 4) _

/-- Degree 7's result after the run. -/
theorem res_v19 (c : Dev nD) : Pipeline.afterTail₀ cfgs (dats m) 0 (V0 m) [hostOps1] c main_v19
    = Y_7 (m ((c.tc : Thread nD τ).loc main_arg0)) (m ((c.tc : Thread nD τ).loc main_arg1))
        (m ((c.tc : Thread nD τ).loc main_arg2)) (m ((c.tc : Thread nD τ).loc main_arg3)) := by
  refine degree_eq (w := 15) 49 (fun k => by have := k.isLt; omega) row_7 chan_row_7 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_7_apply _ _ _ _)
  unfold Pipeline.afterTail₀
  show StableHlo.after hostOps1 _ (Proc.devRef .tc main_v19) (ix2 n k) = _
  rw [tail_v19 _ n k (by have := k.isLt; omega)]
  exact congrFun (Pipeline.withArrays_arr spec0 launch0.win.arr_inj c _ _ 4) _

/-- Degree 8's result after the run. -/
theorem res_v20 (c : Dev nD) : Pipeline.afterTail₀ cfgs (dats m) 0 (V0 m) [hostOps1] c main_v20
    = Y_8 (m ((c.tc : Thread nD τ).loc main_arg0)) (m ((c.tc : Thread nD τ).loc main_arg1))
        (m ((c.tc : Thread nD τ).loc main_arg2)) (m ((c.tc : Thread nD τ).loc main_arg3)) := by
  refine degree_eq (w := 17) 64 (fun k => by have := k.isLt; omega) row_8 chan_row_8 _ _ _ _
    (V m c main_v4) (V m c main_v5) (V m c main_v6) (V m c main_v7) (V4_apply m c) (V5_apply m c) (V6_apply m c) (V7_apply m c)
    ((dats m 0 c).arrAt 4 cfg0.N) (final m c) _ _ (fun n k => ?_) (Y_8_apply _ _ _ _)
  unfold Pipeline.afterTail₀
  show StableHlo.after hostOps1 _ (Proc.devRef .tc main_v20) (ix2 n k) = _
  rw [tail_v20 _ n k (by have := k.isLt; omega)]
  exact congrFun (Pipeline.withArrays_arr spec0 launch0.win.arr_inj c _ _ 4) _

/-- The run: the nine results at the specification, the four arguments unchanged. -/
theorem run : θ_run (defs (F := Ideal)) (onTc (τ := τ) (main (F := Ideal))) ⟨m, fun _ => 0, ρ⟩ fun r => ∀ c : Dev nD,
      r.2.mem ((c.tc : Thread nD τ).loc main_v12) = Y_0 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v13) = Y_1 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v14) = Y_2 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v15) = Y_3 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v16) = Y_4 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v17) = Y_5 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v18) = Y_6 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v19) = Y_7 (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v20) = Y_8 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v12 (Pipeline.mem_restRefs_of main_v12 (by decide) (by decide))).trans (res_v12 m c),
      ((h c).2 main_v13 (Pipeline.mem_restRefs_of main_v13 (by decide) (by decide))).trans (res_v13 m c),
      ((h c).2 main_v14 (Pipeline.mem_restRefs_of main_v14 (by decide) (by decide))).trans (res_v14 m c),
      ((h c).2 main_v15 (Pipeline.mem_restRefs_of main_v15 (by decide) (by decide))).trans (res_v15 m c),
      ((h c).2 main_v16 (Pipeline.mem_restRefs_of main_v16 (by decide) (by decide))).trans (res_v16 m c),
      ((h c).2 main_v17 (Pipeline.mem_restRefs_of main_v17 (by decide) (by decide))).trans (res_v17 m c),
      ((h c).2 main_v18 (Pipeline.mem_restRefs_of main_v18 (by decide) (by decide))).trans (res_v18 m c),
      ((h c).2 main_v19 (Pipeline.mem_restRefs_of main_v19 (by decide) (by decide))).trans (res_v19 m c),
      ((h c).2 main_v20 (Pipeline.mem_restRefs_of main_v20 (by decide) (by decide))).trans (res_v20 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Harm

end
-- ==== Proof.RefOps.lean ====
/- The reference program's straight line of host operations, as lists: one list per window of the printed program, in order, and
   their concatenation; and the reference each operation writes, in the same order (every operation writes one reference of its own). -/
import proofs.«118161_j37666863186375_1_alg».proof.ReferenceIdeal
import proofs.«118161_j37666863186375_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Window 0: 60 operations. -/
abbrev ops0 : List (HloOp τ sig (Elt F)) :=
  [ nullary main_cst (constant S1 .f32 0x3ECC422A#32),
    nullary main_c (constantI S1 32 0#32),
    nullary main_c_0 (constantI S1 1 0#1),
    nullary main_cst_1 (fun i => FloatOps.ofBits .f32 (lit0 (S3.rowMajor i))),
    nullary main_c_2 (fun i => lit1 (S3.rowMajor i)),
    nullary main_c_3 (constantI S3 1 0#1),
    nullary main_cst_4 (fun i => FloatOps.ofBits .f32 (lit2 (S5.rowMajor i))),
    nullary main_c_5 (fun i => lit3 (S5.rowMajor i)),
    nullary main_c_6 (constantI S5 1 0#1),
    nullary main_cst_7 (fun i => FloatOps.ofBits .f32 (lit4 (S7.rowMajor i))),
    nullary main_c_8 (fun i => lit5 (S7.rowMajor i)),
    nullary main_c_9 (constantI S7 1 0#1),
    nullary main_cst_10 (fun i => FloatOps.ofBits .f32 (lit6 (S9.rowMajor i))),
    nullary main_c_11 (fun i => lit7 (S9.rowMajor i)),
    nullary main_c_12 (constantI S9 1 0#1),
    nullary main_cst_13 (fun i => FloatOps.ofBits .f32 (lit8 (S11.rowMajor i))),
    nullary main_c_14 (fun i => lit9 (S11.rowMajor i)),
    nullary main_c_15 (constantI S11 1 0#1),
    nullary main_cst_16 (fun i => FloatOps.ofBits .f32 (lit10 (S13.rowMajor i))),
    nullary main_c_17 (fun i => lit11 (S13.rowMajor i)),
    nullary main_c_18 (constantI S13 1 0#1),
    nullary main_cst_19 (fun i => FloatOps.ofBits .f32 (lit12 (S15.rowMajor i))),
    nullary main_c_20 (fun i => lit13 (S15.rowMajor i)),
    nullary main_c_21 (constantI S15 1 0#1),
    nullary main_cst_22 (fun i => FloatOps.ofBits .f32 (lit14 (S17.rowMajor i))),
    nullary main_c_23 (fun i => lit15 (S17.rowMajor i)),
    nullary main_c_24 (constantI S17 1 0#1),
    nullary main_cst_25 (constant S_ .f32 0x3F800000#32),
    unary main_cst_25 main_v0 (broadcastInDim S2000000 ![] bcast_S_S2000000 : (⟨S_, .f32⟩ : BufTy).Contents (Elt F) → (⟨S2000000, .f32⟩ : BufTy).Contents (Elt F)),
    nullary main_cst_26 (constant S_ .f32 0xBF800000#32),
    unary main_cst_26 main_v1 (broadcastInDim S2000000 ![] bcast_S_S2000000 : (⟨S_, .f32⟩ : BufTy).Contents (Elt F) → (⟨S2000000, .f32⟩ : BufTy).Contents (Elt F)),
    binary main_v1 main_v0 main_v2 (mulf : (⟨S2000000, .f32⟩ : BufTy).Contents (Elt F) → (⟨S2000000, .f32⟩ : BufTy).Contents (Elt F) → (⟨S2000000, .f32⟩ : BufTy).Contents (Elt F)),
    nullary main_cst_27 (constant S_ .f32 0xC0400000#32),
    unary main_cst_27 main_v3 (broadcastInDim S2000000 ![] bcast_S_S2000000 : (⟨S_, .f32⟩ : BufTy).Contents (Elt F) → (⟨S2000000, .f32⟩ : BufTy).Contents (Elt F)),
    binary main_v3 main_v2 main_v4 (mulf : (⟨S2000000, .f32⟩ : BufTy).Contents (Elt F) → (⟨S2000000, .f32⟩ : BufTy).Contents (Elt F) → (⟨S2000000, .f32⟩ : BufTy).Contents (Elt F)),
    nullary main_cst_28 (constant S_ .f32 0xC0A00000#32),
    unary main_cst_28 main_v5 (broadcastInDim S2000000 ![] bcast_S_S2000000 : (⟨S_, .f32⟩ : BufTy).Contents (Elt F) → (⟨S2000000, .f32⟩ : BufTy).Contents (Elt F)),
    binary main_v5 main_v4 main_v6 (mulf : (⟨S2000000, .f32⟩ : BufTy).Contents (Elt F) → (⟨S2000000, .f32⟩ : BufTy).Contents (Elt F) → (⟨S2000000, .f32⟩ : BufTy).Contents (Elt F)),
    nullary main_cst_29 (constant S_ .f32 0xC0E00000#32),
    unary main_cst_29 main_v7 (broadcastInDim S2000000 ![] bcast_S_S2000000 : (⟨S_, .f32⟩ : BufTy).Contents (Elt F) → (⟨S2000000, .f32⟩ : BufTy).Contents (Elt F)),
    binary main_v7 main_v6 main_v8 (mulf : (⟨S2000000, .f32⟩ : BufTy).Contents (Elt F) → (⟨S2000000, .f32⟩ : BufTy).Contents (Elt F) → (⟨S2000000, .f32⟩ : BufTy).Contents (Elt F)),
    nullary main_cst_30 (constant S_ .f32 0xC1100000#32),
    unary main_cst_30 main_v9 (broadcastInDim S2000000 ![] bcast_S_S2000000 : (⟨S_, .f32⟩ : BufTy).Contents (Elt F) → (⟨S2000000, .f32⟩ : BufTy).Contents (Elt F)),
    binary main_v9 main_v8 main_v10 (mulf : (⟨S2000000, .f32⟩ : BufTy).Contents (Elt F) → (⟨S2000000, .f32⟩ : BufTy).Contents (Elt F) → (⟨S2000000, .f32⟩ : BufTy).Contents (Elt F)),
    nullary main_cst_31 (constant S_ .f32 0xC1300000#32),
    unary main_cst_31 main_v11 (broadcastInDim S2000000 ![] bcast_S_S2000000 : (⟨S_, .f32⟩ : BufTy).Contents (Elt F) → (⟨S2000000, .f32⟩ : BufTy).Contents (Elt F)),
    binary main_v11 main_v10 main_v12 (mulf : (⟨S2000000, .f32⟩ : BufTy).Contents (Elt F) → (⟨S2000000, .f32⟩ : BufTy).Contents (Elt F) → (⟨S2000000, .f32⟩ : BufTy).Contents (Elt F)),
    nullary main_cst_32 (constant S_ .f32 0xC1500000#32),
    unary main_cst_32 main_v13 (broadcastInDim S2000000 ![] bcast_S_S2000000 : (⟨S_, .f32⟩ : BufTy).Contents (Elt F) → (⟨S2000000, .f32⟩ : BufTy).Contents (Elt F)),
    binary main_v13 main_v12 main_v14 (mulf : (⟨S2000000, .f32⟩ : BufTy).Contents (Elt F) → (⟨S2000000, .f32⟩ : BufTy).Contents (Elt F) → (⟨S2000000, .f32⟩ : BufTy).Contents (Elt F)),
    nullary main_cst_33 (constant S_ .f32 0xC1700000#32),
    unary main_cst_33 main_v15 (broadcastInDim S2000000 ![] bcast_S_S2000000 : (⟨S_, .f32⟩ : BufTy).Contents (Elt F) → (⟨S2000000, .f32⟩ : BufTy).Contents (Elt F)),
    binary main_v15 main_v14 main_v16 (mulf : (⟨S2000000, .f32⟩ : BufTy).Contents (Elt F) → (⟨S2000000, .f32⟩ : BufTy).Contents (Elt F) → (⟨S2000000, .f32⟩ : BufTy).Contents (Elt F)),
    nullary main_cst_34 (constant S_ .f32 0x3F800000#32),
    unary main_cst_34 main_v17 (broadcastInDim S2000000 ![] bcast_S_S2000000 : (⟨S_, .f32⟩ : BufTy).Contents (Elt F) → (⟨S2000000, .f32⟩ : BufTy).Contents (Elt F)),
    binary main_v17 main_arg2 main_v18 (mulf : (⟨S2000000, .f32⟩ : BufTy).Contents (Elt F) → (⟨S2000000, .f32⟩ : BufTy).Contents (Elt F) → (⟨S2000000, .f32⟩ : BufTy).Contents (Elt F)),
    binary main_v18 main_v0 main_v19 (mulf : (⟨S2000000, .f32⟩ : BufTy).Contents (Elt F) → (⟨S2000000, .f32⟩ : BufTy).Contents (Elt F) → (⟨S2000000, .f32⟩ : BufTy).Contents (Elt F)),
    nullary main_cst_35 (constant S_ .f32 0x40400000#32),
    unary main_cst_35 main_v20 (broadcastInDim S2000000 ![] bcast_S_S2000000 : (⟨S_, .f32⟩ : BufTy).Contents (Elt F) → (⟨S2000000, .f32⟩ : BufTy).Contents (Elt F)),
    binary main_v20 main_arg2 main_v21 (mulf : (⟨S2000000, .f32⟩ : BufTy).Contents (Elt F) → (⟨S2000000, .f32⟩ : BufTy).Contents (Elt F) → (⟨S2000000, .f32⟩ : BufTy).Contents (Elt F)) ]

/-- What window 0's operations write, in order. -/
abbrev W0 : List (Ref sig .tc) :=
  [main_cst, main_c, main_c_0, main_cst_1, main_c_2, main_c_3, main_cst_4, main_c_5, main_c_6, main_cst_7, main_c_8, main_c_9, main_cst_10, main_c_11, main_c_12, main_cst_13, main_c_14, main_c_15, main_cst_16, main_c_17, main_c_18, main_cst_19, main_c_20, main_c_21, main_cst_22, main_c_23, main_c_24, main_cst_25, main_v0, main_cst_26, main_v1, main_v2, main_cst_27, main_v3, main_v4, main_cst_28, main_v5, main_v6, main_cst_29, main_v7, main_v8, main_cst_30, main_v9, main_v10, main_cst_31, main_v11, main_v12, main_cst_32, main_v13, main_v14, main_cst_33, main_v15, main_v16, main_cst_34, main_v17, main_v18, main_v19, main_cst_35, main_v20, main_v21]

/-- Window 1: 60 operations. -/
abbrev ops1 : List (HloOp τ sig (Elt F)) :=
  [ binary main_v21 main_v2 main_v22 (mulf : (⟨S2000000, .f32⟩ : BufTy).Contents (Elt F) → (⟨S2000000, .f32⟩ : BufTy).Contents (Elt F) → (⟨S2000000, .f32⟩ : BufTy).Contents (Elt F)),
    nullary main_cst_36 (constant S_ .f32 0x40A00000#32),
    unary main_cst_36 main_v23 (broadcastInDim S2000000 ![] bcast_S_S2000000 : (⟨S_, .f32⟩ : BufTy).Contents (Elt F) → (⟨S2000000, .f32⟩ : BufTy).Contents (Elt F)),
    binary main_v23 main_arg2 main_v24 (mulf : (⟨S2000000, .f32⟩ : BufTy).Contents (Elt F) → (⟨S2000000, .f32⟩ : BufTy).Contents (Elt F) → (⟨S2000000, .f32⟩ : BufTy).Contents (Elt F)),
    binary main_v24 main_v4 main_v25 (mulf : (⟨S2000000, .f32⟩ : BufTy).Contents (Elt F) → (⟨S2000000, .f32⟩ : BufTy).Contents (Elt F) → (⟨S2000000, .f32⟩ : BufTy).Contents (Elt F)),
    nullary main_cst_37 (constant S_ .f32 0x40E00000#32),
    unary main_cst_37 main_v26 (broadcastInDim S2000000 ![] bcast_S_S2000000 : (⟨S_, .f32⟩ : BufTy).Contents (Elt F) → (⟨S2000000, .f32⟩ : BufTy).Contents (Elt F)),
    binary main_v26 main_arg2 main_v27 (mulf : (⟨S2000000, .f32⟩ : BufTy).Contents (Elt F) → (⟨S2000000, .f32⟩ : BufTy).Contents (Elt F) → (⟨S2000000, .f32⟩ : BufTy).Contents (Elt F)),
    binary main_v27 main_v6 main_v28 (mulf : (⟨S2000000, .f32⟩ : BufTy).Contents (Elt F) → (⟨S2000000, .f32⟩ : BufTy).Contents (Elt F) → (⟨S2000000, .f32⟩ : BufTy).Contents (Elt F)),
    nullary main_cst_38 (constant S_ .f32 0x41100000#32),
    unary main_cst_38 main_v29 (broadcastInDim S2000000 ![] bcast_S_S2000000 : (⟨S_, .f32⟩ : BufTy).Contents (Elt F) → (⟨S2000000, .f32⟩ : BufTy).Contents (Elt F)),
    binary main_v29 main_arg2 main_v30 (mulf : (⟨S2000000, .f32⟩ : BufTy).Contents (Elt F) → (⟨S2000000, .f32⟩ : BufTy).Contents (Elt F) → (⟨S2000000, .f32⟩ : BufTy).Contents (Elt F)),
    binary main_v30 main_v8 main_v31 (mulf : (⟨S2000000, .f32⟩ : BufTy).Contents (Elt F) → (⟨S2000000, .f32⟩ : BufTy).Contents (Elt F) → (⟨S2000000, .f32⟩ : BufTy).Contents (Elt F)),
    nullary main_cst_39 (constant S_ .f32 0x41300000#32),
    unary main_cst_39 main_v32 (broadcastInDim S2000000 ![] bcast_S_S2000000 : (⟨S_, .f32⟩ : BufTy).Contents (Elt F) → (⟨S2000000, .f32⟩ : BufTy).Contents (Elt F)),
    binary main_v32 main_arg2 main_v33 (mulf : (⟨S2000000, .f32⟩ : BufTy).Contents (Elt F) → (⟨S2000000, .f32⟩ : BufTy).Contents (Elt F) → (⟨S2000000, .f32⟩ : BufTy).Contents (Elt F)),
    binary main_v33 main_v10 main_v34 (mulf : (⟨S2000000, .f32⟩ : BufTy).Contents (Elt F) → (⟨S2000000, .f32⟩ : BufTy).Contents (Elt F) → (⟨S2000000, .f32⟩ : BufTy).Contents (Elt F)),
    nullary main_cst_40 (constant S_ .f32 0x41500000#32),
    unary main_cst_40 main_v35 (broadcastInDim S2000000 ![] bcast_S_S2000000 : (⟨S_, .f32⟩ : BufTy).Contents (Elt F) → (⟨S2000000, .f32⟩ : BufTy).Contents (Elt F)),
    binary main_v35 main_arg2 main_v36 (mulf : (⟨S2000000, .f32⟩ : BufTy).Contents (Elt F) → (⟨S2000000, .f32⟩ : BufTy).Contents (Elt F) → (⟨S2000000, .f32⟩ : BufTy).Contents (Elt F)),
    binary main_v36 main_v12 main_v37 (mulf : (⟨S2000000, .f32⟩ : BufTy).Contents (Elt F) → (⟨S2000000, .f32⟩ : BufTy).Contents (Elt F) → (⟨S2000000, .f32⟩ : BufTy).Contents (Elt F)),
    nullary main_cst_41 (constant S_ .f32 0x41700000#32),
    unary main_cst_41 main_v38 (broadcastInDim S2000000 ![] bcast_S_S2000000 : (⟨S_, .f32⟩ : BufTy).Contents (Elt F) → (⟨S2000000, .f32⟩ : BufTy).Contents (Elt F)),
    binary main_v38 main_arg2 main_v39 (mulf : (⟨S2000000, .f32⟩ : BufTy).Contents (Elt F) → (⟨S2000000, .f32⟩ : BufTy).Contents (Elt F) → (⟨S2000000, .f32⟩ : BufTy).Contents (Elt F)),
    binary main_v39 main_v14 main_v40 (mulf : (⟨S2000000, .f32⟩ : BufTy).Contents (Elt F) → (⟨S2000000, .f32⟩ : BufTy).Contents (Elt F) → (⟨S2000000, .f32⟩ : BufTy).Contents (Elt F)),
    binary main_arg3 main_arg3 main_v41 (mulf : (⟨S2000000, .f32⟩ : BufTy).Contents (Elt F) → (⟨S2000000, .f32⟩ : BufTy).Contents (Elt F) → (⟨S2000000, .f32⟩ : BufTy).Contents (Elt F)),
    nullary main_cst_42 (constant S_ .f32 0x40400000#32),
    unary main_cst_42 main_v42 (broadcastInDim S2000000 ![] bcast_S_S2000000 : (⟨S_, .f32⟩ : BufTy).Contents (Elt F) → (⟨S2000000, .f32⟩ : BufTy).Contents (Elt F)),
    binary main_v42 main_arg2 main_v43 (mulf : (⟨S2000000, .f32⟩ : BufTy).Contents (Elt F) → (⟨S2000000, .f32⟩ : BufTy).Contents (Elt F) → (⟨S2000000, .f32⟩ : BufTy).Contents (Elt F)),
    binary main_v43 main_v19 main_v44 (mulf : (⟨S2000000, .f32⟩ : BufTy).Contents (Elt F) → (⟨S2000000, .f32⟩ : BufTy).Contents (Elt F) → (⟨S2000000, .f32⟩ : BufTy).Contents (Elt F)),
    nullary main_cst_43 (constant S_ .f32 0x3F800000#32),
    unary main_cst_43 main_v45 (broadcastInDim S2000000 ![] bcast_S_S2000000 : (⟨S_, .f32⟩ : BufTy).Contents (Elt F) → (⟨S2000000, .f32⟩ : BufTy).Contents (Elt F)),
    binary main_v45 main_v0 main_v46 (mulf : (⟨S2000000, .f32⟩ : BufTy).Contents (Elt F) → (⟨S2000000, .f32⟩ : BufTy).Contents (Elt F) → (⟨S2000000, .f32⟩ : BufTy).Contents (Elt F)),
    binary main_v46 main_v41 main_v47 (mulf : (⟨S2000000, .f32⟩ : BufTy).Contents (Elt F) → (⟨S2000000, .f32⟩ : BufTy).Contents (Elt F) → (⟨S2000000, .f32⟩ : BufTy).Contents (Elt F)),
    binary main_v44 main_v47 main_v48 (subf : (⟨S2000000, .f32⟩ : BufTy).Contents (Elt F) → (⟨S2000000, .f32⟩ : BufTy).Contents (Elt F) → (⟨S2000000, .f32⟩ : BufTy).Contents (Elt F)),
    nullary main_cst_44 (constant S_ .f32 0x40000000#32),
    unary main_cst_44 main_v49 (broadcastInDim S2000000 ![] bcast_S_S2000000 : (⟨S_, .f32⟩ : BufTy).Contents (Elt F) → (⟨S2000000, .f32⟩ : BufTy).Contents (Elt F)),
    binary main_v48 main_v49 main_v50 (Host.divf : (⟨S2000000, .f32⟩ : BufTy).Contents (Elt F) → (⟨S2000000, .f32⟩ : BufTy).Contents (Elt F) → (⟨S2000000, .f32⟩ : BufTy).Contents (Elt F)),
    nullary main_cst_45 (constant S_ .f32 0x40A00000#32),
    unary main_cst_45 main_v51 (broadcastInDim S2000000 ![] bcast_S_S2000000 : (⟨S_, .f32⟩ : BufTy).Contents (Elt F) → (⟨S2000000, .f32⟩ : BufTy).Contents (Elt F)),
    binary main_v51 main_arg2 main_v52 (mulf : (⟨S2000000, .f32⟩ : BufTy).Contents (Elt F) → (⟨S2000000, .f32⟩ : BufTy).Contents (Elt F) → (⟨S2000000, .f32⟩ : BufTy).Contents (Elt F)),
    binary main_v52 main_v50 main_v53 (mulf : (⟨S2000000, .f32⟩ : BufTy).Contents (Elt F) → (⟨S2000000, .f32⟩ : BufTy).Contents (Elt F) → (⟨S2000000, .f32⟩ : BufTy).Contents (Elt F)),
    nullary main_cst_46 (constant S_ .f32 0x40000000#32),
    unary main_cst_46 main_v54 (broadcastInDim S2000000 ![] bcast_S_S2000000 : (⟨S_, .f32⟩ : BufTy).Contents (Elt F) → (⟨S2000000, .f32⟩ : BufTy).Contents (Elt F)),
    binary main_v54 main_v19 main_v55 (mulf : (⟨S2000000, .f32⟩ : BufTy).Contents (Elt F) → (⟨S2000000, .f32⟩ : BufTy).Contents (Elt F) → (⟨S2000000, .f32⟩ : BufTy).Contents (Elt F)),
    binary main_v55 main_v41 main_v56 (mulf : (⟨S2000000, .f32⟩ : BufTy).Contents (Elt F) → (⟨S2000000, .f32⟩ : BufTy).Contents (Elt F) → (⟨S2000000, .f32⟩ : BufTy).Contents (Elt F)),
    binary main_v53 main_v56 main_v57 (subf : (⟨S2000000, .f32⟩ : BufTy).Contents (Elt F) → (⟨S2000000, .f32⟩ : BufTy).Contents (Elt F) → (⟨S2000000, .f32⟩ : BufTy).Contents (Elt F)),
    nullary main_cst_47 (constant S_ .f32 0x40400000#32),
    unary main_cst_47 main_v58 (broadcastInDim S2000000 ![] bcast_S_S2000000 : (⟨S_, .f32⟩ : BufTy).Contents (Elt F) → (⟨S2000000, .f32⟩ : BufTy).Contents (Elt F)),
    binary main_v57 main_v58 main_v59 (Host.divf : (⟨S2000000, .f32⟩ : BufTy).Contents (Elt F) → (⟨S2000000, .f32⟩ : BufTy).Contents (Elt F) → (⟨S2000000, .f32⟩ : BufTy).Contents (Elt F)),
    nullary main_cst_48 (constant S_ .f32 0x40E00000#32),
    unary main_cst_48 main_v60 (broadcastInDim S2000000 ![] bcast_S_S2000000 : (⟨S_, .f32⟩ : BufTy).Contents (Elt F) → (⟨S2000000, .f32⟩ : BufTy).Contents (Elt F)),
    binary main_v60 main_arg2 main_v61 (mulf : (⟨S2000000, .f32⟩ : BufTy).Contents (Elt F) → (⟨S2000000, .f32⟩ : BufTy).Contents (Elt F) → (⟨S2000000, .f32⟩ : BufTy).Contents (Elt F)),
    binary main_v61 main_v59 main_v62 (mulf : (⟨S2000000, .f32⟩ : BufTy).Contents (Elt F) → (⟨S2000000, .f32⟩ : BufTy).Contents (Elt F) → (⟨S2000000, .f32⟩ : BufTy).Contents (Elt F)),
    nullary main_cst_49 (constant S_ .f32 0x40400000#32),
    unary main_cst_49 main_v63 (broadcastInDim S2000000 ![] bcast_S_S2000000 : (⟨S_, .f32⟩ : BufTy).Contents (Elt F) → (⟨S2000000, .f32⟩ : BufTy).Contents (Elt F)),
    binary main_v63 main_v50 main_v64 (mulf : (⟨S2000000, .f32⟩ : BufTy).Contents (Elt F) → (⟨S2000000, .f32⟩ : BufTy).Contents (Elt F) → (⟨S2000000, .f32⟩ : BufTy).Contents (Elt F)),
    binary main_v64 main_v41 main_v65 (mulf : (⟨S2000000, .f32⟩ : BufTy).Contents (Elt F) → (⟨S2000000, .f32⟩ : BufTy).Contents (Elt F) → (⟨S2000000, .f32⟩ : BufTy).Contents (Elt F)),
    binary main_v62 main_v65 main_v66 (subf : (⟨S2000000, .f32⟩ : BufTy).Contents (Elt F) → (⟨S2000000, .f32⟩ : BufTy).Contents (Elt F) → (⟨S2000000, .f32⟩ : BufTy).Contents (Elt F)),
    nullary main_cst_50 (constant S_ .f32 0x40800000#32) ]

/-- What window 1's operations write, in order. -/
abbrev W1 : List (Ref sig .tc) :=
  [main_v22, main_cst_36, main_v23, main_v24, main_v25, main_cst_37, main_v26, main_v27, main_v28, main_cst_38, main_v29, main_v30, main_v31, main_cst_39, main_v32, main_v33, main_v34, main_cst_40, main_v35, main_v36, main_v37, main_cst_41, main_v38, main_v39, main_v40, main_v41, main_cst_42, main_v42, main_v43, main_v44, main_cst_43, main_v45, main_v46, main_v47, main_v48, main_cst_44, main_v49, main_v50, main_cst_45, main_v51, main_v52, main_v53, main_cst_46, main_v54, main_v55, main_v56, main_v57, main_cst_47, main_v58, main_v59, main_cst_48, main_v60, main_v61, main_v62, main_cst_49, main_v63, main_v64, main_v65, main_v66, main_cst_50]

/-- Window 2: 60 operations. -/
abbrev ops2 : List (HloOp τ sig (Elt F)) :=
  [ unary main_cst_50 main_v67 (broadcastInDim S2000000 ![] bcast_S_S2000000 : (⟨S_, .f32⟩ : BufTy).Contents (Elt F) → (⟨S2000000, .f32⟩ : BufTy).Contents (Elt F)),
    binary main_v66 main_v67 main_v68 (Host.divf : (⟨S2000000, .f32⟩ : BufTy).Contents (Elt F) → (⟨S2000000, .f32⟩ : BufTy).Contents (Elt F) → (⟨S2000000, .f32⟩ : BufTy).Contents (Elt F)),
    nullary main_cst_51 (constant S_ .f32 0x41100000#32),
    unary main_cst_51 main_v69 (broadcastInDim S2000000 ![] bcast_S_S2000000 : (⟨S_, .f32⟩ : BufTy).Contents (Elt F) → (⟨S2000000, .f32⟩ : BufTy).Contents (Elt F)),
    binary main_v69 main_arg2 main_v70 (mulf : (⟨S2000000, .f32⟩ : BufTy).Contents (Elt F) → (⟨S2000000, .f32⟩ : BufTy).Contents (Elt F) → (⟨S2000000, .f32⟩ : BufTy).Contents (Elt F)),
    binary main_v70 main_v68 main_v71 (mulf : (⟨S2000000, .f32⟩ : BufTy).Contents (Elt F) → (⟨S2000000, .f32⟩ : BufTy).Contents (Elt F) → (⟨S2000000, .f32⟩ : BufTy).Contents (Elt F)),
    nullary main_cst_52 (constant S_ .f32 0x40800000#32),
    unary main_cst_52 main_v72 (broadcastInDim S2000000 ![] bcast_S_S2000000 : (⟨S_, .f32⟩ : BufTy).Contents (Elt F) → (⟨S2000000, .f32⟩ : BufTy).Contents (Elt F)),
    binary main_v72 main_v59 main_v73 (mulf : (⟨S2000000, .f32⟩ : BufTy).Contents (Elt F) → (⟨S2000000, .f32⟩ : BufTy).Contents (Elt F) → (⟨S2000000, .f32⟩ : BufTy).Contents (Elt F)),
    binary main_v73 main_v41 main_v74 (mulf : (⟨S2000000, .f32⟩ : BufTy).Contents (Elt F) → (⟨S2000000, .f32⟩ : BufTy).Contents (Elt F) → (⟨S2000000, .f32⟩ : BufTy).Contents (Elt F)),
    binary main_v71 main_v74 main_v75 (subf : (⟨S2000000, .f32⟩ : BufTy).Contents (Elt F) → (⟨S2000000, .f32⟩ : BufTy).Contents (Elt F) → (⟨S2000000, .f32⟩ : BufTy).Contents (Elt F)),
    nullary main_cst_53 (constant S_ .f32 0x40A00000#32),
    unary main_cst_53 main_v76 (broadcastInDim S2000000 ![] bcast_S_S2000000 : (⟨S_, .f32⟩ : BufTy).Contents (Elt F) → (⟨S2000000, .f32⟩ : BufTy).Contents (Elt F)),
    binary main_v75 main_v76 main_v77 (Host.divf : (⟨S2000000, .f32⟩ : BufTy).Contents (Elt F) → (⟨S2000000, .f32⟩ : BufTy).Contents (Elt F) → (⟨S2000000, .f32⟩ : BufTy).Contents (Elt F)),
    nullary main_cst_54 (constant S_ .f32 0x41300000#32),
    unary main_cst_54 main_v78 (broadcastInDim S2000000 ![] bcast_S_S2000000 : (⟨S_, .f32⟩ : BufTy).Contents (Elt F) → (⟨S2000000, .f32⟩ : BufTy).Contents (Elt F)),
    binary main_v78 main_arg2 main_v79 (mulf : (⟨S2000000, .f32⟩ : BufTy).Contents (Elt F) → (⟨S2000000, .f32⟩ : BufTy).Contents (Elt F) → (⟨S2000000, .f32⟩ : BufTy).Contents (Elt F)),
    binary main_v79 main_v77 main_v80 (mulf : (⟨S2000000, .f32⟩ : BufTy).Contents (Elt F) → (⟨S2000000, .f32⟩ : BufTy).Contents (Elt F) → (⟨S2000000, .f32⟩ : BufTy).Contents (Elt F)),
    nullary main_cst_55 (constant S_ .f32 0x40A00000#32),
    unary main_cst_55 main_v81 (broadcastInDim S2000000 ![] bcast_S_S2000000 : (⟨S_, .f32⟩ : BufTy).Contents (Elt F) → (⟨S2000000, .f32⟩ : BufTy).Contents (Elt F)),
    binary main_v81 main_v68 main_v82 (mulf : (⟨S2000000, .f32⟩ : BufTy).Contents (Elt F) → (⟨S2000000, .f32⟩ : BufTy).Contents (Elt F) → (⟨S2000000, .f32⟩ : BufTy).Contents (Elt F)),
    binary main_v82 main_v41 main_v83 (mulf : (⟨S2000000, .f32⟩ : BufTy).Contents (Elt F) → (⟨S2000000, .f32⟩ : BufTy).Contents (Elt F) → (⟨S2000000, .f32⟩ : BufTy).Contents (Elt F)),
    binary main_v80 main_v83 main_v84 (subf : (⟨S2000000, .f32⟩ : BufTy).Contents (Elt F) → (⟨S2000000, .f32⟩ : BufTy).Contents (Elt F) → (⟨S2000000, .f32⟩ : BufTy).Contents (Elt F)),
    nullary main_cst_56 (constant S_ .f32 0x40C00000#32),
    unary main_cst_56 main_v85 (broadcastInDim S2000000 ![] bcast_S_S2000000 : (⟨S_, .f32⟩ : BufTy).Contents (Elt F) → (⟨S2000000, .f32⟩ : BufTy).Contents (Elt F)),
    binary main_v84 main_v85 main_v86 (Host.divf : (⟨S2000000, .f32⟩ : BufTy).Contents (Elt F) → (⟨S2000000, .f32⟩ : BufTy).Contents (Elt F) → (⟨S2000000, .f32⟩ : BufTy).Contents (Elt F)),
    nullary main_cst_57 (constant S_ .f32 0x41500000#32),
    unary main_cst_57 main_v87 (broadcastInDim S2000000 ![] bcast_S_S2000000 : (⟨S_, .f32⟩ : BufTy).Contents (Elt F) → (⟨S2000000, .f32⟩ : BufTy).Contents (Elt F)),
    binary main_v87 main_arg2 main_v88 (mulf : (⟨S2000000, .f32⟩ : BufTy).Contents (Elt F) → (⟨S2000000, .f32⟩ : BufTy).Contents (Elt F) → (⟨S2000000, .f32⟩ : BufTy).Contents (Elt F)),
    binary main_v88 main_v86 main_v89 (mulf : (⟨S2000000, .f32⟩ : BufTy).Contents (Elt F) → (⟨S2000000, .f32⟩ : BufTy).Contents (Elt F) → (⟨S2000000, .f32⟩ : BufTy).Contents (Elt F)),
    nullary main_cst_58 (constant S_ .f32 0x40C00000#32),
    unary main_cst_58 main_v90 (broadcastInDim S2000000 ![] bcast_S_S2000000 : (⟨S_, .f32⟩ : BufTy).Contents (Elt F) → (⟨S2000000, .f32⟩ : BufTy).Contents (Elt F)),
    binary main_v90 main_v77 main_v91 (mulf : (⟨S2000000, .f32⟩ : BufTy).Contents (Elt F) → (⟨S2000000, .f32⟩ : BufTy).Contents (Elt F) → (⟨S2000000, .f32⟩ : BufTy).Contents (Elt F)),
    binary main_v91 main_v41 main_v92 (mulf : (⟨S2000000, .f32⟩ : BufTy).Contents (Elt F) → (⟨S2000000, .f32⟩ : BufTy).Contents (Elt F) → (⟨S2000000, .f32⟩ : BufTy).Contents (Elt F)),
    binary main_v89 main_v92 main_v93 (subf : (⟨S2000000, .f32⟩ : BufTy).Contents (Elt F) → (⟨S2000000, .f32⟩ : BufTy).Contents (Elt F) → (⟨S2000000, .f32⟩ : BufTy).Contents (Elt F)),
    nullary main_cst_59 (constant S_ .f32 0x40E00000#32),
    unary main_cst_59 main_v94 (broadcastInDim S2000000 ![] bcast_S_S2000000 : (⟨S_, .f32⟩ : BufTy).Contents (Elt F) → (⟨S2000000, .f32⟩ : BufTy).Contents (Elt F)),
    binary main_v93 main_v94 main_v95 (Host.divf : (⟨S2000000, .f32⟩ : BufTy).Contents (Elt F) → (⟨S2000000, .f32⟩ : BufTy).Contents (Elt F) → (⟨S2000000, .f32⟩ : BufTy).Contents (Elt F)),
    nullary main_cst_60 (constant S_ .f32 0x41700000#32),
    unary main_cst_60 main_v96 (broadcastInDim S2000000 ![] bcast_S_S2000000 : (⟨S_, .f32⟩ : BufTy).Contents (Elt F) → (⟨S2000000, .f32⟩ : BufTy).Contents (Elt F)),
    binary main_v96 main_arg2 main_v97 (mulf : (⟨S2000000, .f32⟩ : BufTy).Contents (Elt F) → (⟨S2000000, .f32⟩ : BufTy).Contents (Elt F) → (⟨S2000000, .f32⟩ : BufTy).Contents (Elt F)),
    binary main_v97 main_v95 main_v98 (mulf : (⟨S2000000, .f32⟩ : BufTy).Contents (Elt F) → (⟨S2000000, .f32⟩ : BufTy).Contents (Elt F) → (⟨S2000000, .f32⟩ : BufTy).Contents (Elt F)),
    nullary main_cst_61 (constant S_ .f32 0x40E00000#32),
    unary main_cst_61 main_v99 (broadcastInDim S2000000 ![] bcast_S_S2000000 : (⟨S_, .f32⟩ : BufTy).Contents (Elt F) → (⟨S2000000, .f32⟩ : BufTy).Contents (Elt F)),
    binary main_v99 main_v86 main_v100 (mulf : (⟨S2000000, .f32⟩ : BufTy).Contents (Elt F) → (⟨S2000000, .f32⟩ : BufTy).Contents (Elt F) → (⟨S2000000, .f32⟩ : BufTy).Contents (Elt F)),
    binary main_v100 main_v41 main_v101 (mulf : (⟨S2000000, .f32⟩ : BufTy).Contents (Elt F) → (⟨S2000000, .f32⟩ : BufTy).Contents (Elt F) → (⟨S2000000, .f32⟩ : BufTy).Contents (Elt F)),
    binary main_v98 main_v101 main_v102 (subf : (⟨S2000000, .f32⟩ : BufTy).Contents (Elt F) → (⟨S2000000, .f32⟩ : BufTy).Contents (Elt F) → (⟨S2000000, .f32⟩ : BufTy).Contents (Elt F)),
    nullary main_cst_62 (constant S_ .f32 0x41000000#32),
    unary main_cst_62 main_v103 (broadcastInDim S2000000 ![] bcast_S_S2000000 : (⟨S_, .f32⟩ : BufTy).Contents (Elt F) → (⟨S2000000, .f32⟩ : BufTy).Contents (Elt F)),
    binary main_v102 main_v103 main_v104 (Host.divf : (⟨S2000000, .f32⟩ : BufTy).Contents (Elt F) → (⟨S2000000, .f32⟩ : BufTy).Contents (Elt F) → (⟨S2000000, .f32⟩ : BufTy).Contents (Elt F)),
    nullary main_cst_63 (constant S_ .f32 0x40A00000#32),
    unary main_cst_63 main_v105 (broadcastInDim S2000000 ![] bcast_S_S2000000 : (⟨S_, .f32⟩ : BufTy).Contents (Elt F) → (⟨S2000000, .f32⟩ : BufTy).Contents (Elt F)),
    binary main_v105 main_arg2 main_v106 (mulf : (⟨S2000000, .f32⟩ : BufTy).Contents (Elt F) → (⟨S2000000, .f32⟩ : BufTy).Contents (Elt F) → (⟨S2000000, .f32⟩ : BufTy).Contents (Elt F)),
    binary main_v106 main_v22 main_v107 (mulf : (⟨S2000000, .f32⟩ : BufTy).Contents (Elt F) → (⟨S2000000, .f32⟩ : BufTy).Contents (Elt F) → (⟨S2000000, .f32⟩ : BufTy).Contents (Elt F)),
    nullary main_cst_64 (constant S_ .f32 0x40400000#32),
    unary main_cst_64 main_v108 (broadcastInDim S2000000 ![] bcast_S_S2000000 : (⟨S_, .f32⟩ : BufTy).Contents (Elt F) → (⟨S2000000, .f32⟩ : BufTy).Contents (Elt F)),
    binary main_v108 main_v2 main_v109 (mulf : (⟨S2000000, .f32⟩ : BufTy).Contents (Elt F) → (⟨S2000000, .f32⟩ : BufTy).Contents (Elt F) → (⟨S2000000, .f32⟩ : BufTy).Contents (Elt F)),
    binary main_v109 main_v41 main_v110 (mulf : (⟨S2000000, .f32⟩ : BufTy).Contents (Elt F) → (⟨S2000000, .f32⟩ : BufTy).Contents (Elt F) → (⟨S2000000, .f32⟩ : BufTy).Contents (Elt F)),
    binary main_v107 main_v110 main_v111 (subf : (⟨S2000000, .f32⟩ : BufTy).Contents (Elt F) → (⟨S2000000, .f32⟩ : BufTy).Contents (Elt F) → (⟨S2000000, .f32⟩ : BufTy).Contents (Elt F)),
    nullary main_cst_65 (constant S_ .f32 0x40000000#32) ]

/-- What window 2's operations write, in order. -/
abbrev W2 : List (Ref sig .tc) :=
  [main_v67, main_v68, main_cst_51, main_v69, main_v70, main_v71, main_cst_52, main_v72, main_v73, main_v74, main_v75, main_cst_53, main_v76, main_v77, main_cst_54, main_v78, main_v79, main_v80, main_cst_55, main_v81, main_v82, main_v83, main_v84, main_cst_56, main_v85, main_v86, main_cst_57, main_v87, main_v88, main_v89, main_cst_58, main_v90, main_v91, main_v92, main_v93, main_cst_59, main_v94, main_v95, main_cst_60, main_v96, main_v97, main_v98, main_cst_61, main_v99, main_v100, main_v101, main_v102, main_cst_62, main_v103, main_v104, main_cst_63, main_v105, main_v106, main_v107, main_cst_64, main_v108, main_v109, main_v110, main_v111, main_cst_65]

/-- Window 3: 60 operations. -/
abbrev ops3 : List (HloOp τ sig (Elt F)) :=
  [ unary main_cst_65 main_v112 (broadcastInDim S2000000 ![] bcast_S_S2000000 : (⟨S_, .f32⟩ : BufTy).Contents (Elt F) → (⟨S2000000, .f32⟩ : BufTy).Contents (Elt F)),
    binary main_v111 main_v112 main_v113 (Host.divf : (⟨S2000000, .f32⟩ : BufTy).Contents (Elt F) → (⟨S2000000, .f32⟩ : BufTy).Contents (Elt F) → (⟨S2000000, .f32⟩ : BufTy).Contents (Elt F)),
    nullary main_cst_66 (constant S_ .f32 0x40E00000#32),
    unary main_cst_66 main_v114 (broadcastInDim S2000000 ![] bcast_S_S2000000 : (⟨S_, .f32⟩ : BufTy).Contents (Elt F) → (⟨S2000000, .f32⟩ : BufTy).Contents (Elt F)),
    binary main_v114 main_arg2 main_v115 (mulf : (⟨S2000000, .f32⟩ : BufTy).Contents (Elt F) → (⟨S2000000, .f32⟩ : BufTy).Contents (Elt F) → (⟨S2000000, .f32⟩ : BufTy).Contents (Elt F)),
    binary main_v115 main_v113 main_v116 (mulf : (⟨S2000000, .f32⟩ : BufTy).Contents (Elt F) → (⟨S2000000, .f32⟩ : BufTy).Contents (Elt F) → (⟨S2000000, .f32⟩ : BufTy).Contents (Elt F)),
    nullary main_cst_67 (constant S_ .f32 0x40800000#32),
    unary main_cst_67 main_v117 (broadcastInDim S2000000 ![] bcast_S_S2000000 : (⟨S_, .f32⟩ : BufTy).Contents (Elt F) → (⟨S2000000, .f32⟩ : BufTy).Contents (Elt F)),
    binary main_v117 main_v22 main_v118 (mulf : (⟨S2000000, .f32⟩ : BufTy).Contents (Elt F) → (⟨S2000000, .f32⟩ : BufTy).Contents (Elt F) → (⟨S2000000, .f32⟩ : BufTy).Contents (Elt F)),
    binary main_v118 main_v41 main_v119 (mulf : (⟨S2000000, .f32⟩ : BufTy).Contents (Elt F) → (⟨S2000000, .f32⟩ : BufTy).Contents (Elt F) → (⟨S2000000, .f32⟩ : BufTy).Contents (Elt F)),
    binary main_v116 main_v119 main_v120 (subf : (⟨S2000000, .f32⟩ : BufTy).Contents (Elt F) → (⟨S2000000, .f32⟩ : BufTy).Contents (Elt F) → (⟨S2000000, .f32⟩ : BufTy).Contents (Elt F)),
    nullary main_cst_68 (constant S_ .f32 0x40400000#32),
    unary main_cst_68 main_v121 (broadcastInDim S2000000 ![] bcast_S_S2000000 : (⟨S_, .f32⟩ : BufTy).Contents (Elt F) → (⟨S2000000, .f32⟩ : BufTy).Contents (Elt F)),
    binary main_v120 main_v121 main_v122 (Host.divf : (⟨S2000000, .f32⟩ : BufTy).Contents (Elt F) → (⟨S2000000, .f32⟩ : BufTy).Contents (Elt F) → (⟨S2000000, .f32⟩ : BufTy).Contents (Elt F)),
    nullary main_cst_69 (constant S_ .f32 0x41100000#32),
    unary main_cst_69 main_v123 (broadcastInDim S2000000 ![] bcast_S_S2000000 : (⟨S_, .f32⟩ : BufTy).Contents (Elt F) → (⟨S2000000, .f32⟩ : BufTy).Contents (Elt F)),
    binary main_v123 main_arg2 main_v124 (mulf : (⟨S2000000, .f32⟩ : BufTy).Contents (Elt F) → (⟨S2000000, .f32⟩ : BufTy).Contents (Elt F) → (⟨S2000000, .f32⟩ : BufTy).Contents (Elt F)),
    binary main_v124 main_v122 main_v125 (mulf : (⟨S2000000, .f32⟩ : BufTy).Contents (Elt F) → (⟨S2000000, .f32⟩ : BufTy).Contents (Elt F) → (⟨S2000000, .f32⟩ : BufTy).Contents (Elt F)),
    nullary main_cst_70 (constant S_ .f32 0x40A00000#32),
    unary main_cst_70 main_v126 (broadcastInDim S2000000 ![] bcast_S_S2000000 : (⟨S_, .f32⟩ : BufTy).Contents (Elt F) → (⟨S2000000, .f32⟩ : BufTy).Contents (Elt F)),
    binary main_v126 main_v113 main_v127 (mulf : (⟨S2000000, .f32⟩ : BufTy).Contents (Elt F) → (⟨S2000000, .f32⟩ : BufTy).Contents (Elt F) → (⟨S2000000, .f32⟩ : BufTy).Contents (Elt F)),
    binary main_v127 main_v41 main_v128 (mulf : (⟨S2000000, .f32⟩ : BufTy).Contents (Elt F) → (⟨S2000000, .f32⟩ : BufTy).Contents (Elt F) → (⟨S2000000, .f32⟩ : BufTy).Contents (Elt F)),
    binary main_v125 main_v128 main_v129 (subf : (⟨S2000000, .f32⟩ : BufTy).Contents (Elt F) → (⟨S2000000, .f32⟩ : BufTy).Contents (Elt F) → (⟨S2000000, .f32⟩ : BufTy).Contents (Elt F)),
    nullary main_cst_71 (constant S_ .f32 0x40800000#32),
    unary main_cst_71 main_v130 (broadcastInDim S2000000 ![] bcast_S_S2000000 : (⟨S_, .f32⟩ : BufTy).Contents (Elt F) → (⟨S2000000, .f32⟩ : BufTy).Contents (Elt F)),
    binary main_v129 main_v130 main_v131 (Host.divf : (⟨S2000000, .f32⟩ : BufTy).Contents (Elt F) → (⟨S2000000, .f32⟩ : BufTy).Contents (Elt F) → (⟨S2000000, .f32⟩ : BufTy).Contents (Elt F)),
    nullary main_cst_72 (constant S_ .f32 0x41300000#32),
    unary main_cst_72 main_v132 (broadcastInDim S2000000 ![] bcast_S_S2000000 : (⟨S_, .f32⟩ : BufTy).Contents (Elt F) → (⟨S2000000, .f32⟩ : BufTy).Contents (Elt F)),
    binary main_v132 main_arg2 main_v133 (mulf : (⟨S2000000, .f32⟩ : BufTy).Contents (Elt F) → (⟨S2000000, .f32⟩ : BufTy).Contents (Elt F) → (⟨S2000000, .f32⟩ : BufTy).Contents (Elt F)),
    binary main_v133 main_v131 main_v134 (mulf : (⟨S2000000, .f32⟩ : BufTy).Contents (Elt F) → (⟨S2000000, .f32⟩ : BufTy).Contents (Elt F) → (⟨S2000000, .f32⟩ : BufTy).Contents (Elt F)),
    nullary main_cst_73 (constant S_ .f32 0x40C00000#32),
    unary main_cst_73 main_v135 (broadcastInDim S2000000 ![] bcast_S_S2000000 : (⟨S_, .f32⟩ : BufTy).Contents (Elt F) → (⟨S2000000, .f32⟩ : BufTy).Contents (Elt F)),
    binary main_v135 main_v122 main_v136 (mulf : (⟨S2000000, .f32⟩ : BufTy).Contents (Elt F) → (⟨S2000000, .f32⟩ : BufTy).Contents (Elt F) → (⟨S2000000, .f32⟩ : BufTy).Contents (Elt F)),
    binary main_v136 main_v41 main_v137 (mulf : (⟨S2000000, .f32⟩ : BufTy).Contents (Elt F) → (⟨S2000000, .f32⟩ : BufTy).Contents (Elt F) → (⟨S2000000, .f32⟩ : BufTy).Contents (Elt F)),
    binary main_v134 main_v137 main_v138 (subf : (⟨S2000000, .f32⟩ : BufTy).Contents (Elt F) → (⟨S2000000, .f32⟩ : BufTy).Contents (Elt F) → (⟨S2000000, .f32⟩ : BufTy).Contents (Elt F)),
    nullary main_cst_74 (constant S_ .f32 0x40A00000#32),
    unary main_cst_74 main_v139 (broadcastInDim S2000000 ![] bcast_S_S2000000 : (⟨S_, .f32⟩ : BufTy).Contents (Elt F) → (⟨S2000000, .f32⟩ : BufTy).Contents (Elt F)),
    binary main_v138 main_v139 main_v140 (Host.divf : (⟨S2000000, .f32⟩ : BufTy).Contents (Elt F) → (⟨S2000000, .f32⟩ : BufTy).Contents (Elt F) → (⟨S2000000, .f32⟩ : BufTy).Contents (Elt F)),
    nullary main_cst_75 (constant S_ .f32 0x41500000#32),
    unary main_cst_75 main_v141 (broadcastInDim S2000000 ![] bcast_S_S2000000 : (⟨S_, .f32⟩ : BufTy).Contents (Elt F) → (⟨S2000000, .f32⟩ : BufTy).Contents (Elt F)),
    binary main_v141 main_arg2 main_v142 (mulf : (⟨S2000000, .f32⟩ : BufTy).Contents (Elt F) → (⟨S2000000, .f32⟩ : BufTy).Contents (Elt F) → (⟨S2000000, .f32⟩ : BufTy).Contents (Elt F)),
    binary main_v142 main_v140 main_v143 (mulf : (⟨S2000000, .f32⟩ : BufTy).Contents (Elt F) → (⟨S2000000, .f32⟩ : BufTy).Contents (Elt F) → (⟨S2000000, .f32⟩ : BufTy).Contents (Elt F)),
    nullary main_cst_76 (constant S_ .f32 0x40E00000#32),
    unary main_cst_76 main_v144 (broadcastInDim S2000000 ![] bcast_S_S2000000 : (⟨S_, .f32⟩ : BufTy).Contents (Elt F) → (⟨S2000000, .f32⟩ : BufTy).Contents (Elt F)),
    binary main_v144 main_v131 main_v145 (mulf : (⟨S2000000, .f32⟩ : BufTy).Contents (Elt F) → (⟨S2000000, .f32⟩ : BufTy).Contents (Elt F) → (⟨S2000000, .f32⟩ : BufTy).Contents (Elt F)),
    binary main_v145 main_v41 main_v146 (mulf : (⟨S2000000, .f32⟩ : BufTy).Contents (Elt F) → (⟨S2000000, .f32⟩ : BufTy).Contents (Elt F) → (⟨S2000000, .f32⟩ : BufTy).Contents (Elt F)),
    binary main_v143 main_v146 main_v147 (subf : (⟨S2000000, .f32⟩ : BufTy).Contents (Elt F) → (⟨S2000000, .f32⟩ : BufTy).Contents (Elt F) → (⟨S2000000, .f32⟩ : BufTy).Contents (Elt F)),
    nullary main_cst_77 (constant S_ .f32 0x40C00000#32),
    unary main_cst_77 main_v148 (broadcastInDim S2000000 ![] bcast_S_S2000000 : (⟨S_, .f32⟩ : BufTy).Contents (Elt F) → (⟨S2000000, .f32⟩ : BufTy).Contents (Elt F)),
    binary main_v147 main_v148 main_v149 (Host.divf : (⟨S2000000, .f32⟩ : BufTy).Contents (Elt F) → (⟨S2000000, .f32⟩ : BufTy).Contents (Elt F) → (⟨S2000000, .f32⟩ : BufTy).Contents (Elt F)),
    nullary main_cst_78 (constant S_ .f32 0x41700000#32),
    unary main_cst_78 main_v150 (broadcastInDim S2000000 ![] bcast_S_S2000000 : (⟨S_, .f32⟩ : BufTy).Contents (Elt F) → (⟨S2000000, .f32⟩ : BufTy).Contents (Elt F)),
    binary main_v150 main_arg2 main_v151 (mulf : (⟨S2000000, .f32⟩ : BufTy).Contents (Elt F) → (⟨S2000000, .f32⟩ : BufTy).Contents (Elt F) → (⟨S2000000, .f32⟩ : BufTy).Contents (Elt F)),
    binary main_v151 main_v149 main_v152 (mulf : (⟨S2000000, .f32⟩ : BufTy).Contents (Elt F) → (⟨S2000000, .f32⟩ : BufTy).Contents (Elt F) → (⟨S2000000, .f32⟩ : BufTy).Contents (Elt F)),
    nullary main_cst_79 (constant S_ .f32 0x41000000#32),
    unary main_cst_79 main_v153 (broadcastInDim S2000000 ![] bcast_S_S2000000 : (⟨S_, .f32⟩ : BufTy).Contents (Elt F) → (⟨S2000000, .f32⟩ : BufTy).Contents (Elt F)),
    binary main_v153 main_v140 main_v154 (mulf : (⟨S2000000, .f32⟩ : BufTy).Contents (Elt F) → (⟨S2000000, .f32⟩ : BufTy).Contents (Elt F) → (⟨S2000000, .f32⟩ : BufTy).Contents (Elt F)),
    binary main_v154 main_v41 main_v155 (mulf : (⟨S2000000, .f32⟩ : BufTy).Contents (Elt F) → (⟨S2000000, .f32⟩ : BufTy).Contents (Elt F) → (⟨S2000000, .f32⟩ : BufTy).Contents (Elt F)),
    binary main_v152 main_v155 main_v156 (subf : (⟨S2000000, .f32⟩ : BufTy).Contents (Elt F) → (⟨S2000000, .f32⟩ : BufTy).Contents (Elt F) → (⟨S2000000, .f32⟩ : BufTy).Contents (Elt F)),
    nullary main_cst_80 (constant S_ .f32 0x40E00000#32) ]

/-- What window 3's operations write, in order. -/
abbrev W3 : List (Ref sig .tc) :=
  [main_v112, main_v113, main_cst_66, main_v114, main_v115, main_v116, main_cst_67, main_v117, main_v118, main_v119, main_v120, main_cst_68, main_v121, main_v122, main_cst_69, main_v123, main_v124, main_v125, main_cst_70, main_v126, main_v127, main_v128, main_v129, main_cst_71, main_v130, main_v131, main_cst_72, main_v132, main_v133, main_v134, main_cst_73, main_v135, main_v136, main_v137, main_v138, main_cst_74, main_v139, main_v140, main_cst_75, main_v141, main_v142, main_v143, main_cst_76, main_v144, main_v145, main_v146, main_v147, main_cst_77, main_v148, main_v149, main_cst_78, main_v150, main_v151, main_v152, main_cst_79, main_v153, main_v154, main_v155, main_v156, main_cst_80]

/-- Window 4: 60 operations. -/
abbrev ops4 : List (HloOp τ sig (Elt F)) :=
  [ unary main_cst_80 main_v157 (broadcastInDim S2000000 ![] bcast_S_S2000000 : (⟨S_, .f32⟩ : BufTy).Contents (Elt F) → (⟨S2000000, .f32⟩ : BufTy).Contents (Elt F)),
    binary main_v156 main_v157 main_v158 (Host.divf : (⟨S2000000, .f32⟩ : BufTy).Contents (Elt F) → (⟨S2000000, .f32⟩ : BufTy).Contents (Elt F) → (⟨S2000000, .f32⟩ : BufTy).Contents (Elt F)),
    nullary main_cst_81 (constant S_ .f32 0x40E00000#32),
    unary main_cst_81 main_v159 (broadcastInDim S2000000 ![] bcast_S_S2000000 : (⟨S_, .f32⟩ : BufTy).Contents (Elt F) → (⟨S2000000, .f32⟩ : BufTy).Contents (Elt F)),
    binary main_v159 main_arg2 main_v160 (mulf : (⟨S2000000, .f32⟩ : BufTy).Contents (Elt F) → (⟨S2000000, .f32⟩ : BufTy).Contents (Elt F) → (⟨S2000000, .f32⟩ : BufTy).Contents (Elt F)),
    binary main_v160 main_v25 main_v161 (mulf : (⟨S2000000, .f32⟩ : BufTy).Contents (Elt F) → (⟨S2000000, .f32⟩ : BufTy).Contents (Elt F) → (⟨S2000000, .f32⟩ : BufTy).Contents (Elt F)),
    nullary main_cst_82 (constant S_ .f32 0x40A00000#32),
    unary main_cst_82 main_v162 (broadcastInDim S2000000 ![] bcast_S_S2000000 : (⟨S_, .f32⟩ : BufTy).Contents (Elt F) → (⟨S2000000, .f32⟩ : BufTy).Contents (Elt F)),
    binary main_v162 main_v4 main_v163 (mulf : (⟨S2000000, .f32⟩ : BufTy).Contents (Elt F) → (⟨S2000000, .f32⟩ : BufTy).Contents (Elt F) → (⟨S2000000, .f32⟩ : BufTy).Contents (Elt F)),
    binary main_v163 main_v41 main_v164 (mulf : (⟨S2000000, .f32⟩ : BufTy).Contents (Elt F) → (⟨S2000000, .f32⟩ : BufTy).Contents (Elt F) → (⟨S2000000, .f32⟩ : BufTy).Contents (Elt F)),
    binary main_v161 main_v164 main_v165 (subf : (⟨S2000000, .f32⟩ : BufTy).Contents (Elt F) → (⟨S2000000, .f32⟩ : BufTy).Contents (Elt F) → (⟨S2000000, .f32⟩ : BufTy).Contents (Elt F)),
    nullary main_cst_83 (constant S_ .f32 0x40000000#32),
    unary main_cst_83 main_v166 (broadcastInDim S2000000 ![] bcast_S_S2000000 : (⟨S_, .f32⟩ : BufTy).Contents (Elt F) → (⟨S2000000, .f32⟩ : BufTy).Contents (Elt F)),
    binary main_v165 main_v166 main_v167 (Host.divf : (⟨S2000000, .f32⟩ : BufTy).Contents (Elt F) → (⟨S2000000, .f32⟩ : BufTy).Contents (Elt F) → (⟨S2000000, .f32⟩ : BufTy).Contents (Elt F)),
    nullary main_cst_84 (constant S_ .f32 0x41100000#32),
    unary main_cst_84 main_v168 (broadcastInDim S2000000 ![] bcast_S_S2000000 : (⟨S_, .f32⟩ : BufTy).Contents (Elt F) → (⟨S2000000, .f32⟩ : BufTy).Contents (Elt F)),
    binary main_v168 main_arg2 main_v169 (mulf : (⟨S2000000, .f32⟩ : BufTy).Contents (Elt F) → (⟨S2000000, .f32⟩ : BufTy).Contents (Elt F) → (⟨S2000000, .f32⟩ : BufTy).Contents (Elt F)),
    binary main_v169 main_v167 main_v170 (mulf : (⟨S2000000, .f32⟩ : BufTy).Contents (Elt F) → (⟨S2000000, .f32⟩ : BufTy).Contents (Elt F) → (⟨S2000000, .f32⟩ : BufTy).Contents (Elt F)),
    nullary main_cst_85 (constant S_ .f32 0x40C00000#32),
    unary main_cst_85 main_v171 (broadcastInDim S2000000 ![] bcast_S_S2000000 : (⟨S_, .f32⟩ : BufTy).Contents (Elt F) → (⟨S2000000, .f32⟩ : BufTy).Contents (Elt F)),
    binary main_v171 main_v25 main_v172 (mulf : (⟨S2000000, .f32⟩ : BufTy).Contents (Elt F) → (⟨S2000000, .f32⟩ : BufTy).Contents (Elt F) → (⟨S2000000, .f32⟩ : BufTy).Contents (Elt F)),
    binary main_v172 main_v41 main_v173 (mulf : (⟨S2000000, .f32⟩ : BufTy).Contents (Elt F) → (⟨S2000000, .f32⟩ : BufTy).Contents (Elt F) → (⟨S2000000, .f32⟩ : BufTy).Contents (Elt F)),
    binary main_v170 main_v173 main_v174 (subf : (⟨S2000000, .f32⟩ : BufTy).Contents (Elt F) → (⟨S2000000, .f32⟩ : BufTy).Contents (Elt F) → (⟨S2000000, .f32⟩ : BufTy).Contents (Elt F)),
    nullary main_cst_86 (constant S_ .f32 0x40400000#32),
    unary main_cst_86 main_v175 (broadcastInDim S2000000 ![] bcast_S_S2000000 : (⟨S_, .f32⟩ : BufTy).Contents (Elt F) → (⟨S2000000, .f32⟩ : BufTy).Contents (Elt F)),
    binary main_v174 main_v175 main_v176 (Host.divf : (⟨S2000000, .f32⟩ : BufTy).Contents (Elt F) → (⟨S2000000, .f32⟩ : BufTy).Contents (Elt F) → (⟨S2000000, .f32⟩ : BufTy).Contents (Elt F)),
    nullary main_cst_87 (constant S_ .f32 0x41300000#32),
    unary main_cst_87 main_v177 (broadcastInDim S2000000 ![] bcast_S_S2000000 : (⟨S_, .f32⟩ : BufTy).Contents (Elt F) → (⟨S2000000, .f32⟩ : BufTy).Contents (Elt F)),
    binary main_v177 main_arg2 main_v178 (mulf : (⟨S2000000, .f32⟩ : BufTy).Contents (Elt F) → (⟨S2000000, .f32⟩ : BufTy).Contents (Elt F) → (⟨S2000000, .f32⟩ : BufTy).Contents (Elt F)),
    binary main_v178 main_v176 main_v179 (mulf : (⟨S2000000, .f32⟩ : BufTy).Contents (Elt F) → (⟨S2000000, .f32⟩ : BufTy).Contents (Elt F) → (⟨S2000000, .f32⟩ : BufTy).Contents (Elt F)),
    nullary main_cst_88 (constant S_ .f32 0x40E00000#32),
    unary main_cst_88 main_v180 (broadcastInDim S2000000 ![] bcast_S_S2000000 : (⟨S_, .f32⟩ : BufTy).Contents (Elt F) → (⟨S2000000, .f32⟩ : BufTy).Contents (Elt F)),
    binary main_v180 main_v167 main_v181 (mulf : (⟨S2000000, .f32⟩ : BufTy).Contents (Elt F) → (⟨S2000000, .f32⟩ : BufTy).Contents (Elt F) → (⟨S2000000, .f32⟩ : BufTy).Contents (Elt F)),
    binary main_v181 main_v41 main_v182 (mulf : (⟨S2000000, .f32⟩ : BufTy).Contents (Elt F) → (⟨S2000000, .f32⟩ : BufTy).Contents (Elt F) → (⟨S2000000, .f32⟩ : BufTy).Contents (Elt F)),
    binary main_v179 main_v182 main_v183 (subf : (⟨S2000000, .f32⟩ : BufTy).Contents (Elt F) → (⟨S2000000, .f32⟩ : BufTy).Contents (Elt F) → (⟨S2000000, .f32⟩ : BufTy).Contents (Elt F)),
    nullary main_cst_89 (constant S_ .f32 0x40800000#32),
    unary main_cst_89 main_v184 (broadcastInDim S2000000 ![] bcast_S_S2000000 : (⟨S_, .f32⟩ : BufTy).Contents (Elt F) → (⟨S2000000, .f32⟩ : BufTy).Contents (Elt F)),
    binary main_v183 main_v184 main_v185 (Host.divf : (⟨S2000000, .f32⟩ : BufTy).Contents (Elt F) → (⟨S2000000, .f32⟩ : BufTy).Contents (Elt F) → (⟨S2000000, .f32⟩ : BufTy).Contents (Elt F)),
    nullary main_cst_90 (constant S_ .f32 0x41500000#32),
    unary main_cst_90 main_v186 (broadcastInDim S2000000 ![] bcast_S_S2000000 : (⟨S_, .f32⟩ : BufTy).Contents (Elt F) → (⟨S2000000, .f32⟩ : BufTy).Contents (Elt F)),
    binary main_v186 main_arg2 main_v187 (mulf : (⟨S2000000, .f32⟩ : BufTy).Contents (Elt F) → (⟨S2000000, .f32⟩ : BufTy).Contents (Elt F) → (⟨S2000000, .f32⟩ : BufTy).Contents (Elt F)),
    binary main_v187 main_v185 main_v188 (mulf : (⟨S2000000, .f32⟩ : BufTy).Contents (Elt F) → (⟨S2000000, .f32⟩ : BufTy).Contents (Elt F) → (⟨S2000000, .f32⟩ : BufTy).Contents (Elt F)),
    nullary main_cst_91 (constant S_ .f32 0x41000000#32),
    unary main_cst_91 main_v189 (broadcastInDim S2000000 ![] bcast_S_S2000000 : (⟨S_, .f32⟩ : BufTy).Contents (Elt F) → (⟨S2000000, .f32⟩ : BufTy).Contents (Elt F)),
    binary main_v189 main_v176 main_v190 (mulf : (⟨S2000000, .f32⟩ : BufTy).Contents (Elt F) → (⟨S2000000, .f32⟩ : BufTy).Contents (Elt F) → (⟨S2000000, .f32⟩ : BufTy).Contents (Elt F)),
    binary main_v190 main_v41 main_v191 (mulf : (⟨S2000000, .f32⟩ : BufTy).Contents (Elt F) → (⟨S2000000, .f32⟩ : BufTy).Contents (Elt F) → (⟨S2000000, .f32⟩ : BufTy).Contents (Elt F)),
    binary main_v188 main_v191 main_v192 (subf : (⟨S2000000, .f32⟩ : BufTy).Contents (Elt F) → (⟨S2000000, .f32⟩ : BufTy).Contents (Elt F) → (⟨S2000000, .f32⟩ : BufTy).Contents (Elt F)),
    nullary main_cst_92 (constant S_ .f32 0x40A00000#32),
    unary main_cst_92 main_v193 (broadcastInDim S2000000 ![] bcast_S_S2000000 : (⟨S_, .f32⟩ : BufTy).Contents (Elt F) → (⟨S2000000, .f32⟩ : BufTy).Contents (Elt F)),
    binary main_v192 main_v193 main_v194 (Host.divf : (⟨S2000000, .f32⟩ : BufTy).Contents (Elt F) → (⟨S2000000, .f32⟩ : BufTy).Contents (Elt F) → (⟨S2000000, .f32⟩ : BufTy).Contents (Elt F)),
    nullary main_cst_93 (constant S_ .f32 0x41700000#32),
    unary main_cst_93 main_v195 (broadcastInDim S2000000 ![] bcast_S_S2000000 : (⟨S_, .f32⟩ : BufTy).Contents (Elt F) → (⟨S2000000, .f32⟩ : BufTy).Contents (Elt F)),
    binary main_v195 main_arg2 main_v196 (mulf : (⟨S2000000, .f32⟩ : BufTy).Contents (Elt F) → (⟨S2000000, .f32⟩ : BufTy).Contents (Elt F) → (⟨S2000000, .f32⟩ : BufTy).Contents (Elt F)),
    binary main_v196 main_v194 main_v197 (mulf : (⟨S2000000, .f32⟩ : BufTy).Contents (Elt F) → (⟨S2000000, .f32⟩ : BufTy).Contents (Elt F) → (⟨S2000000, .f32⟩ : BufTy).Contents (Elt F)),
    nullary main_cst_94 (constant S_ .f32 0x41100000#32),
    unary main_cst_94 main_v198 (broadcastInDim S2000000 ![] bcast_S_S2000000 : (⟨S_, .f32⟩ : BufTy).Contents (Elt F) → (⟨S2000000, .f32⟩ : BufTy).Contents (Elt F)),
    binary main_v198 main_v185 main_v199 (mulf : (⟨S2000000, .f32⟩ : BufTy).Contents (Elt F) → (⟨S2000000, .f32⟩ : BufTy).Contents (Elt F) → (⟨S2000000, .f32⟩ : BufTy).Contents (Elt F)),
    binary main_v199 main_v41 main_v200 (mulf : (⟨S2000000, .f32⟩ : BufTy).Contents (Elt F) → (⟨S2000000, .f32⟩ : BufTy).Contents (Elt F) → (⟨S2000000, .f32⟩ : BufTy).Contents (Elt F)),
    binary main_v197 main_v200 main_v201 (subf : (⟨S2000000, .f32⟩ : BufTy).Contents (Elt F) → (⟨S2000000, .f32⟩ : BufTy).Contents (Elt F) → (⟨S2000000, .f32⟩ : BufTy).Contents (Elt F)),
    nullary main_cst_95 (constant S_ .f32 0x40C00000#32) ]

/-- What window 4's operations write, in order. -/
abbrev W4 : List (Ref sig .tc) :=
  [main_v157, main_v158, main_cst_81, main_v159, main_v160, main_v161, main_cst_82, main_v162, main_v163, main_v164, main_v165, main_cst_83, main_v166, main_v167, main_cst_84, main_v168, main_v169, main_v170, main_cst_85, main_v171, main_v172, main_v173, main_v174, main_cst_86, main_v175, main_v176, main_cst_87, main_v177, main_v178, main_v179, main_cst_88, main_v180, main_v181, main_v182, main_v183, main_cst_89, main_v184, main_v185, main_cst_90, main_v186, main_v187, main_v188, main_cst_91, main_v189, main_v190, main_v191, main_v192, main_cst_92, main_v193, main_v194, main_cst_93, main_v195, main_v196, main_v197, main_cst_94, main_v198, main_v199, main_v200, main_v201, main_cst_95]

/-- Window 5: 60 operations. -/
abbrev ops5 : List (HloOp τ sig (Elt F)) :=
  [ unary main_cst_95 main_v202 (broadcastInDim S2000000 ![] bcast_S_S2000000 : (⟨S_, .f32⟩ : BufTy).Contents (Elt F) → (⟨S2000000, .f32⟩ : BufTy).Contents (Elt F)),
    binary main_v201 main_v202 main_v203 (Host.divf : (⟨S2000000, .f32⟩ : BufTy).Contents (Elt F) → (⟨S2000000, .f32⟩ : BufTy).Contents (Elt F) → (⟨S2000000, .f32⟩ : BufTy).Contents (Elt F)),
    nullary main_cst_96 (constant S_ .f32 0x41100000#32),
    unary main_cst_96 main_v204 (broadcastInDim S2000000 ![] bcast_S_S2000000 : (⟨S_, .f32⟩ : BufTy).Contents (Elt F) → (⟨S2000000, .f32⟩ : BufTy).Contents (Elt F)),
    binary main_v204 main_arg2 main_v205 (mulf : (⟨S2000000, .f32⟩ : BufTy).Contents (Elt F) → (⟨S2000000, .f32⟩ : BufTy).Contents (Elt F) → (⟨S2000000, .f32⟩ : BufTy).Contents (Elt F)),
    binary main_v205 main_v28 main_v206 (mulf : (⟨S2000000, .f32⟩ : BufTy).Contents (Elt F) → (⟨S2000000, .f32⟩ : BufTy).Contents (Elt F) → (⟨S2000000, .f32⟩ : BufTy).Contents (Elt F)),
    nullary main_cst_97 (constant S_ .f32 0x40E00000#32),
    unary main_cst_97 main_v207 (broadcastInDim S2000000 ![] bcast_S_S2000000 : (⟨S_, .f32⟩ : BufTy).Contents (Elt F) → (⟨S2000000, .f32⟩ : BufTy).Contents (Elt F)),
    binary main_v207 main_v6 main_v208 (mulf : (⟨S2000000, .f32⟩ : BufTy).Contents (Elt F) → (⟨S2000000, .f32⟩ : BufTy).Contents (Elt F) → (⟨S2000000, .f32⟩ : BufTy).Contents (Elt F)),
    binary main_v208 main_v41 main_v209 (mulf : (⟨S2000000, .f32⟩ : BufTy).Contents (Elt F) → (⟨S2000000, .f32⟩ : BufTy).Contents (Elt F) → (⟨S2000000, .f32⟩ : BufTy).Contents (Elt F)),
    binary main_v206 main_v209 main_v210 (subf : (⟨S2000000, .f32⟩ : BufTy).Contents (Elt F) → (⟨S2000000, .f32⟩ : BufTy).Contents (Elt F) → (⟨S2000000, .f32⟩ : BufTy).Contents (Elt F)),
    nullary main_cst_98 (constant S_ .f32 0x40000000#32),
    unary main_cst_98 main_v211 (broadcastInDim S2000000 ![] bcast_S_S2000000 : (⟨S_, .f32⟩ : BufTy).Contents (Elt F) → (⟨S2000000, .f32⟩ : BufTy).Contents (Elt F)),
    binary main_v210 main_v211 main_v212 (Host.divf : (⟨S2000000, .f32⟩ : BufTy).Contents (Elt F) → (⟨S2000000, .f32⟩ : BufTy).Contents (Elt F) → (⟨S2000000, .f32⟩ : BufTy).Contents (Elt F)),
    nullary main_cst_99 (constant S_ .f32 0x41300000#32),
    unary main_cst_99 main_v213 (broadcastInDim S2000000 ![] bcast_S_S2000000 : (⟨S_, .f32⟩ : BufTy).Contents (Elt F) → (⟨S2000000, .f32⟩ : BufTy).Contents (Elt F)),
    binary main_v213 main_arg2 main_v214 (mulf : (⟨S2000000, .f32⟩ : BufTy).Contents (Elt F) → (⟨S2000000, .f32⟩ : BufTy).Contents (Elt F) → (⟨S2000000, .f32⟩ : BufTy).Contents (Elt F)),
    binary main_v214 main_v212 main_v215 (mulf : (⟨S2000000, .f32⟩ : BufTy).Contents (Elt F) → (⟨S2000000, .f32⟩ : BufTy).Contents (Elt F) → (⟨S2000000, .f32⟩ : BufTy).Contents (Elt F)),
    nullary main_cst_100 (constant S_ .f32 0x41000000#32),
    unary main_cst_100 main_v216 (broadcastInDim S2000000 ![] bcast_S_S2000000 : (⟨S_, .f32⟩ : BufTy).Contents (Elt F) → (⟨S2000000, .f32⟩ : BufTy).Contents (Elt F)),
    binary main_v216 main_v28 main_v217 (mulf : (⟨S2000000, .f32⟩ : BufTy).Contents (Elt F) → (⟨S2000000, .f32⟩ : BufTy).Contents (Elt F) → (⟨S2000000, .f32⟩ : BufTy).Contents (Elt F)),
    binary main_v217 main_v41 main_v218 (mulf : (⟨S2000000, .f32⟩ : BufTy).Contents (Elt F) → (⟨S2000000, .f32⟩ : BufTy).Contents (Elt F) → (⟨S2000000, .f32⟩ : BufTy).Contents (Elt F)),
    binary main_v215 main_v218 main_v219 (subf : (⟨S2000000, .f32⟩ : BufTy).Contents (Elt F) → (⟨S2000000, .f32⟩ : BufTy).Contents (Elt F) → (⟨S2000000, .f32⟩ : BufTy).Contents (Elt F)),
    nullary main_cst_101 (constant S_ .f32 0x40400000#32),
    unary main_cst_101 main_v220 (broadcastInDim S2000000 ![] bcast_S_S2000000 : (⟨S_, .f32⟩ : BufTy).Contents (Elt F) → (⟨S2000000, .f32⟩ : BufTy).Contents (Elt F)),
    binary main_v219 main_v220 main_v221 (Host.divf : (⟨S2000000, .f32⟩ : BufTy).Contents (Elt F) → (⟨S2000000, .f32⟩ : BufTy).Contents (Elt F) → (⟨S2000000, .f32⟩ : BufTy).Contents (Elt F)),
    nullary main_cst_102 (constant S_ .f32 0x41500000#32),
    unary main_cst_102 main_v222 (broadcastInDim S2000000 ![] bcast_S_S2000000 : (⟨S_, .f32⟩ : BufTy).Contents (Elt F) → (⟨S2000000, .f32⟩ : BufTy).Contents (Elt F)),
    binary main_v222 main_arg2 main_v223 (mulf : (⟨S2000000, .f32⟩ : BufTy).Contents (Elt F) → (⟨S2000000, .f32⟩ : BufTy).Contents (Elt F) → (⟨S2000000, .f32⟩ : BufTy).Contents (Elt F)),
    binary main_v223 main_v221 main_v224 (mulf : (⟨S2000000, .f32⟩ : BufTy).Contents (Elt F) → (⟨S2000000, .f32⟩ : BufTy).Contents (Elt F) → (⟨S2000000, .f32⟩ : BufTy).Contents (Elt F)),
    nullary main_cst_103 (constant S_ .f32 0x41100000#32),
    unary main_cst_103 main_v225 (broadcastInDim S2000000 ![] bcast_S_S2000000 : (⟨S_, .f32⟩ : BufTy).Contents (Elt F) → (⟨S2000000, .f32⟩ : BufTy).Contents (Elt F)),
    binary main_v225 main_v212 main_v226 (mulf : (⟨S2000000, .f32⟩ : BufTy).Contents (Elt F) → (⟨S2000000, .f32⟩ : BufTy).Contents (Elt F) → (⟨S2000000, .f32⟩ : BufTy).Contents (Elt F)),
    binary main_v226 main_v41 main_v227 (mulf : (⟨S2000000, .f32⟩ : BufTy).Contents (Elt F) → (⟨S2000000, .f32⟩ : BufTy).Contents (Elt F) → (⟨S2000000, .f32⟩ : BufTy).Contents (Elt F)),
    binary main_v224 main_v227 main_v228 (subf : (⟨S2000000, .f32⟩ : BufTy).Contents (Elt F) → (⟨S2000000, .f32⟩ : BufTy).Contents (Elt F) → (⟨S2000000, .f32⟩ : BufTy).Contents (Elt F)),
    nullary main_cst_104 (constant S_ .f32 0x40800000#32),
    unary main_cst_104 main_v229 (broadcastInDim S2000000 ![] bcast_S_S2000000 : (⟨S_, .f32⟩ : BufTy).Contents (Elt F) → (⟨S2000000, .f32⟩ : BufTy).Contents (Elt F)),
    binary main_v228 main_v229 main_v230 (Host.divf : (⟨S2000000, .f32⟩ : BufTy).Contents (Elt F) → (⟨S2000000, .f32⟩ : BufTy).Contents (Elt F) → (⟨S2000000, .f32⟩ : BufTy).Contents (Elt F)),
    nullary main_cst_105 (constant S_ .f32 0x41700000#32),
    unary main_cst_105 main_v231 (broadcastInDim S2000000 ![] bcast_S_S2000000 : (⟨S_, .f32⟩ : BufTy).Contents (Elt F) → (⟨S2000000, .f32⟩ : BufTy).Contents (Elt F)),
    binary main_v231 main_arg2 main_v232 (mulf : (⟨S2000000, .f32⟩ : BufTy).Contents (Elt F) → (⟨S2000000, .f32⟩ : BufTy).Contents (Elt F) → (⟨S2000000, .f32⟩ : BufTy).Contents (Elt F)),
    binary main_v232 main_v230 main_v233 (mulf : (⟨S2000000, .f32⟩ : BufTy).Contents (Elt F) → (⟨S2000000, .f32⟩ : BufTy).Contents (Elt F) → (⟨S2000000, .f32⟩ : BufTy).Contents (Elt F)),
    nullary main_cst_106 (constant S_ .f32 0x41200000#32),
    unary main_cst_106 main_v234 (broadcastInDim S2000000 ![] bcast_S_S2000000 : (⟨S_, .f32⟩ : BufTy).Contents (Elt F) → (⟨S2000000, .f32⟩ : BufTy).Contents (Elt F)),
    binary main_v234 main_v221 main_v235 (mulf : (⟨S2000000, .f32⟩ : BufTy).Contents (Elt F) → (⟨S2000000, .f32⟩ : BufTy).Contents (Elt F) → (⟨S2000000, .f32⟩ : BufTy).Contents (Elt F)),
    binary main_v235 main_v41 main_v236 (mulf : (⟨S2000000, .f32⟩ : BufTy).Contents (Elt F) → (⟨S2000000, .f32⟩ : BufTy).Contents (Elt F) → (⟨S2000000, .f32⟩ : BufTy).Contents (Elt F)),
    binary main_v233 main_v236 main_v237 (subf : (⟨S2000000, .f32⟩ : BufTy).Contents (Elt F) → (⟨S2000000, .f32⟩ : BufTy).Contents (Elt F) → (⟨S2000000, .f32⟩ : BufTy).Contents (Elt F)),
    nullary main_cst_107 (constant S_ .f32 0x40A00000#32),
    unary main_cst_107 main_v238 (broadcastInDim S2000000 ![] bcast_S_S2000000 : (⟨S_, .f32⟩ : BufTy).Contents (Elt F) → (⟨S2000000, .f32⟩ : BufTy).Contents (Elt F)),
    binary main_v237 main_v238 main_v239 (Host.divf : (⟨S2000000, .f32⟩ : BufTy).Contents (Elt F) → (⟨S2000000, .f32⟩ : BufTy).Contents (Elt F) → (⟨S2000000, .f32⟩ : BufTy).Contents (Elt F)),
    nullary main_cst_108 (constant S_ .f32 0x41300000#32),
    unary main_cst_108 main_v240 (broadcastInDim S2000000 ![] bcast_S_S2000000 : (⟨S_, .f32⟩ : BufTy).Contents (Elt F) → (⟨S2000000, .f32⟩ : BufTy).Contents (Elt F)),
    binary main_v240 main_arg2 main_v241 (mulf : (⟨S2000000, .f32⟩ : BufTy).Contents (Elt F) → (⟨S2000000, .f32⟩ : BufTy).Contents (Elt F) → (⟨S2000000, .f32⟩ : BufTy).Contents (Elt F)),
    binary main_v241 main_v31 main_v242 (mulf : (⟨S2000000, .f32⟩ : BufTy).Contents (Elt F) → (⟨S2000000, .f32⟩ : BufTy).Contents (Elt F) → (⟨S2000000, .f32⟩ : BufTy).Contents (Elt F)),
    nullary main_cst_109 (constant S_ .f32 0x41100000#32),
    unary main_cst_109 main_v243 (broadcastInDim S2000000 ![] bcast_S_S2000000 : (⟨S_, .f32⟩ : BufTy).Contents (Elt F) → (⟨S2000000, .f32⟩ : BufTy).Contents (Elt F)),
    binary main_v243 main_v8 main_v244 (mulf : (⟨S2000000, .f32⟩ : BufTy).Contents (Elt F) → (⟨S2000000, .f32⟩ : BufTy).Contents (Elt F) → (⟨S2000000, .f32⟩ : BufTy).Contents (Elt F)),
    binary main_v244 main_v41 main_v245 (mulf : (⟨S2000000, .f32⟩ : BufTy).Contents (Elt F) → (⟨S2000000, .f32⟩ : BufTy).Contents (Elt F) → (⟨S2000000, .f32⟩ : BufTy).Contents (Elt F)),
    binary main_v242 main_v245 main_v246 (subf : (⟨S2000000, .f32⟩ : BufTy).Contents (Elt F) → (⟨S2000000, .f32⟩ : BufTy).Contents (Elt F) → (⟨S2000000, .f32⟩ : BufTy).Contents (Elt F)),
    nullary main_cst_110 (constant S_ .f32 0x40000000#32) ]

/-- What window 5's operations write, in order. -/
abbrev W5 : List (Ref sig .tc) :=
  [main_v202, main_v203, main_cst_96, main_v204, main_v205, main_v206, main_cst_97, main_v207, main_v208, main_v209, main_v210, main_cst_98, main_v211, main_v212, main_cst_99, main_v213, main_v214, main_v215, main_cst_100, main_v216, main_v217, main_v218, main_v219, main_cst_101, main_v220, main_v221, main_cst_102, main_v222, main_v223, main_v224, main_cst_103, main_v225, main_v226, main_v227, main_v228, main_cst_104, main_v229, main_v230, main_cst_105, main_v231, main_v232, main_v233, main_cst_106, main_v234, main_v235, main_v236, main_v237, main_cst_107, main_v238, main_v239, main_cst_108, main_v240, main_v241, main_v242, main_cst_109, main_v243, main_v244, main_v245, main_v246, main_cst_110]

/-- Window 6: 60 operations. -/
abbrev ops6 : List (HloOp τ sig (Elt F)) :=
  [ unary main_cst_110 main_v247 (broadcastInDim S2000000 ![] bcast_S_S2000000 : (⟨S_, .f32⟩ : BufTy).Contents (Elt F) → (⟨S2000000, .f32⟩ : BufTy).Contents (Elt F)),
    binary main_v246 main_v247 main_v248 (Host.divf : (⟨S2000000, .f32⟩ : BufTy).Contents (Elt F) → (⟨S2000000, .f32⟩ : BufTy).Contents (Elt F) → (⟨S2000000, .f32⟩ : BufTy).Contents (Elt F)),
    nullary main_cst_111 (constant S_ .f32 0x41500000#32),
    unary main_cst_111 main_v249 (broadcastInDim S2000000 ![] bcast_S_S2000000 : (⟨S_, .f32⟩ : BufTy).Contents (Elt F) → (⟨S2000000, .f32⟩ : BufTy).Contents (Elt F)),
    binary main_v249 main_arg2 main_v250 (mulf : (⟨S2000000, .f32⟩ : BufTy).Contents (Elt F) → (⟨S2000000, .f32⟩ : BufTy).Contents (Elt F) → (⟨S2000000, .f32⟩ : BufTy).Contents (Elt F)),
    binary main_v250 main_v248 main_v251 (mulf : (⟨S2000000, .f32⟩ : BufTy).Contents (Elt F) → (⟨S2000000, .f32⟩ : BufTy).Contents (Elt F) → (⟨S2000000, .f32⟩ : BufTy).Contents (Elt F)),
    nullary main_cst_112 (constant S_ .f32 0x41200000#32),
    unary main_cst_112 main_v252 (broadcastInDim S2000000 ![] bcast_S_S2000000 : (⟨S_, .f32⟩ : BufTy).Contents (Elt F) → (⟨S2000000, .f32⟩ : BufTy).Contents (Elt F)),
    binary main_v252 main_v31 main_v253 (mulf : (⟨S2000000, .f32⟩ : BufTy).Contents (Elt F) → (⟨S2000000, .f32⟩ : BufTy).Contents (Elt F) → (⟨S2000000, .f32⟩ : BufTy).Contents (Elt F)),
    binary main_v253 main_v41 main_v254 (mulf : (⟨S2000000, .f32⟩ : BufTy).Contents (Elt F) → (⟨S2000000, .f32⟩ : BufTy).Contents (Elt F) → (⟨S2000000, .f32⟩ : BufTy).Contents (Elt F)),
    binary main_v251 main_v254 main_v255 (subf : (⟨S2000000, .f32⟩ : BufTy).Contents (Elt F) → (⟨S2000000, .f32⟩ : BufTy).Contents (Elt F) → (⟨S2000000, .f32⟩ : BufTy).Contents (Elt F)),
    nullary main_cst_113 (constant S_ .f32 0x40400000#32),
    unary main_cst_113 main_v256 (broadcastInDim S2000000 ![] bcast_S_S2000000 : (⟨S_, .f32⟩ : BufTy).Contents (Elt F) → (⟨S2000000, .f32⟩ : BufTy).Contents (Elt F)),
    binary main_v255 main_v256 main_v257 (Host.divf : (⟨S2000000, .f32⟩ : BufTy).Contents (Elt F) → (⟨S2000000, .f32⟩ : BufTy).Contents (Elt F) → (⟨S2000000, .f32⟩ : BufTy).Contents (Elt F)),
    nullary main_cst_114 (constant S_ .f32 0x41700000#32),
    unary main_cst_114 main_v258 (broadcastInDim S2000000 ![] bcast_S_S2000000 : (⟨S_, .f32⟩ : BufTy).Contents (Elt F) → (⟨S2000000, .f32⟩ : BufTy).Contents (Elt F)),
    binary main_v258 main_arg2 main_v259 (mulf : (⟨S2000000, .f32⟩ : BufTy).Contents (Elt F) → (⟨S2000000, .f32⟩ : BufTy).Contents (Elt F) → (⟨S2000000, .f32⟩ : BufTy).Contents (Elt F)),
    binary main_v259 main_v257 main_v260 (mulf : (⟨S2000000, .f32⟩ : BufTy).Contents (Elt F) → (⟨S2000000, .f32⟩ : BufTy).Contents (Elt F) → (⟨S2000000, .f32⟩ : BufTy).Contents (Elt F)),
    nullary main_cst_115 (constant S_ .f32 0x41300000#32),
    unary main_cst_115 main_v261 (broadcastInDim S2000000 ![] bcast_S_S2000000 : (⟨S_, .f32⟩ : BufTy).Contents (Elt F) → (⟨S2000000, .f32⟩ : BufTy).Contents (Elt F)),
    binary main_v261 main_v248 main_v262 (mulf : (⟨S2000000, .f32⟩ : BufTy).Contents (Elt F) → (⟨S2000000, .f32⟩ : BufTy).Contents (Elt F) → (⟨S2000000, .f32⟩ : BufTy).Contents (Elt F)),
    binary main_v262 main_v41 main_v263 (mulf : (⟨S2000000, .f32⟩ : BufTy).Contents (Elt F) → (⟨S2000000, .f32⟩ : BufTy).Contents (Elt F) → (⟨S2000000, .f32⟩ : BufTy).Contents (Elt F)),
    binary main_v260 main_v263 main_v264 (subf : (⟨S2000000, .f32⟩ : BufTy).Contents (Elt F) → (⟨S2000000, .f32⟩ : BufTy).Contents (Elt F) → (⟨S2000000, .f32⟩ : BufTy).Contents (Elt F)),
    nullary main_cst_116 (constant S_ .f32 0x40800000#32),
    unary main_cst_116 main_v265 (broadcastInDim S2000000 ![] bcast_S_S2000000 : (⟨S_, .f32⟩ : BufTy).Contents (Elt F) → (⟨S2000000, .f32⟩ : BufTy).Contents (Elt F)),
    binary main_v264 main_v265 main_v266 (Host.divf : (⟨S2000000, .f32⟩ : BufTy).Contents (Elt F) → (⟨S2000000, .f32⟩ : BufTy).Contents (Elt F) → (⟨S2000000, .f32⟩ : BufTy).Contents (Elt F)),
    nullary main_cst_117 (constant S_ .f32 0x41500000#32),
    unary main_cst_117 main_v267 (broadcastInDim S2000000 ![] bcast_S_S2000000 : (⟨S_, .f32⟩ : BufTy).Contents (Elt F) → (⟨S2000000, .f32⟩ : BufTy).Contents (Elt F)),
    binary main_v267 main_arg2 main_v268 (mulf : (⟨S2000000, .f32⟩ : BufTy).Contents (Elt F) → (⟨S2000000, .f32⟩ : BufTy).Contents (Elt F) → (⟨S2000000, .f32⟩ : BufTy).Contents (Elt F)),
    binary main_v268 main_v34 main_v269 (mulf : (⟨S2000000, .f32⟩ : BufTy).Contents (Elt F) → (⟨S2000000, .f32⟩ : BufTy).Contents (Elt F) → (⟨S2000000, .f32⟩ : BufTy).Contents (Elt F)),
    nullary main_cst_118 (constant S_ .f32 0x41300000#32),
    unary main_cst_118 main_v270 (broadcastInDim S2000000 ![] bcast_S_S2000000 : (⟨S_, .f32⟩ : BufTy).Contents (Elt F) → (⟨S2000000, .f32⟩ : BufTy).Contents (Elt F)),
    binary main_v270 main_v10 main_v271 (mulf : (⟨S2000000, .f32⟩ : BufTy).Contents (Elt F) → (⟨S2000000, .f32⟩ : BufTy).Contents (Elt F) → (⟨S2000000, .f32⟩ : BufTy).Contents (Elt F)),
    binary main_v271 main_v41 main_v272 (mulf : (⟨S2000000, .f32⟩ : BufTy).Contents (Elt F) → (⟨S2000000, .f32⟩ : BufTy).Contents (Elt F) → (⟨S2000000, .f32⟩ : BufTy).Contents (Elt F)),
    binary main_v269 main_v272 main_v273 (subf : (⟨S2000000, .f32⟩ : BufTy).Contents (Elt F) → (⟨S2000000, .f32⟩ : BufTy).Contents (Elt F) → (⟨S2000000, .f32⟩ : BufTy).Contents (Elt F)),
    nullary main_cst_119 (constant S_ .f32 0x40000000#32),
    unary main_cst_119 main_v274 (broadcastInDim S2000000 ![] bcast_S_S2000000 : (⟨S_, .f32⟩ : BufTy).Contents (Elt F) → (⟨S2000000, .f32⟩ : BufTy).Contents (Elt F)),
    binary main_v273 main_v274 main_v275 (Host.divf : (⟨S2000000, .f32⟩ : BufTy).Contents (Elt F) → (⟨S2000000, .f32⟩ : BufTy).Contents (Elt F) → (⟨S2000000, .f32⟩ : BufTy).Contents (Elt F)),
    nullary main_cst_120 (constant S_ .f32 0x41700000#32),
    unary main_cst_120 main_v276 (broadcastInDim S2000000 ![] bcast_S_S2000000 : (⟨S_, .f32⟩ : BufTy).Contents (Elt F) → (⟨S2000000, .f32⟩ : BufTy).Contents (Elt F)),
    binary main_v276 main_arg2 main_v277 (mulf : (⟨S2000000, .f32⟩ : BufTy).Contents (Elt F) → (⟨S2000000, .f32⟩ : BufTy).Contents (Elt F) → (⟨S2000000, .f32⟩ : BufTy).Contents (Elt F)),
    binary main_v277 main_v275 main_v278 (mulf : (⟨S2000000, .f32⟩ : BufTy).Contents (Elt F) → (⟨S2000000, .f32⟩ : BufTy).Contents (Elt F) → (⟨S2000000, .f32⟩ : BufTy).Contents (Elt F)),
    nullary main_cst_121 (constant S_ .f32 0x41400000#32),
    unary main_cst_121 main_v279 (broadcastInDim S2000000 ![] bcast_S_S2000000 : (⟨S_, .f32⟩ : BufTy).Contents (Elt F) → (⟨S2000000, .f32⟩ : BufTy).Contents (Elt F)),
    binary main_v279 main_v34 main_v280 (mulf : (⟨S2000000, .f32⟩ : BufTy).Contents (Elt F) → (⟨S2000000, .f32⟩ : BufTy).Contents (Elt F) → (⟨S2000000, .f32⟩ : BufTy).Contents (Elt F)),
    binary main_v280 main_v41 main_v281 (mulf : (⟨S2000000, .f32⟩ : BufTy).Contents (Elt F) → (⟨S2000000, .f32⟩ : BufTy).Contents (Elt F) → (⟨S2000000, .f32⟩ : BufTy).Contents (Elt F)),
    binary main_v278 main_v281 main_v282 (subf : (⟨S2000000, .f32⟩ : BufTy).Contents (Elt F) → (⟨S2000000, .f32⟩ : BufTy).Contents (Elt F) → (⟨S2000000, .f32⟩ : BufTy).Contents (Elt F)),
    nullary main_cst_122 (constant S_ .f32 0x40400000#32),
    unary main_cst_122 main_v283 (broadcastInDim S2000000 ![] bcast_S_S2000000 : (⟨S_, .f32⟩ : BufTy).Contents (Elt F) → (⟨S2000000, .f32⟩ : BufTy).Contents (Elt F)),
    binary main_v282 main_v283 main_v284 (Host.divf : (⟨S2000000, .f32⟩ : BufTy).Contents (Elt F) → (⟨S2000000, .f32⟩ : BufTy).Contents (Elt F) → (⟨S2000000, .f32⟩ : BufTy).Contents (Elt F)),
    nullary main_cst_123 (constant S_ .f32 0x41700000#32),
    unary main_cst_123 main_v285 (broadcastInDim S2000000 ![] bcast_S_S2000000 : (⟨S_, .f32⟩ : BufTy).Contents (Elt F) → (⟨S2000000, .f32⟩ : BufTy).Contents (Elt F)),
    binary main_v285 main_arg2 main_v286 (mulf : (⟨S2000000, .f32⟩ : BufTy).Contents (Elt F) → (⟨S2000000, .f32⟩ : BufTy).Contents (Elt F) → (⟨S2000000, .f32⟩ : BufTy).Contents (Elt F)),
    binary main_v286 main_v37 main_v287 (mulf : (⟨S2000000, .f32⟩ : BufTy).Contents (Elt F) → (⟨S2000000, .f32⟩ : BufTy).Contents (Elt F) → (⟨S2000000, .f32⟩ : BufTy).Contents (Elt F)),
    nullary main_cst_124 (constant S_ .f32 0x41500000#32),
    unary main_cst_124 main_v288 (broadcastInDim S2000000 ![] bcast_S_S2000000 : (⟨S_, .f32⟩ : BufTy).Contents (Elt F) → (⟨S2000000, .f32⟩ : BufTy).Contents (Elt F)),
    binary main_v288 main_v12 main_v289 (mulf : (⟨S2000000, .f32⟩ : BufTy).Contents (Elt F) → (⟨S2000000, .f32⟩ : BufTy).Contents (Elt F) → (⟨S2000000, .f32⟩ : BufTy).Contents (Elt F)),
    binary main_v289 main_v41 main_v290 (mulf : (⟨S2000000, .f32⟩ : BufTy).Contents (Elt F) → (⟨S2000000, .f32⟩ : BufTy).Contents (Elt F) → (⟨S2000000, .f32⟩ : BufTy).Contents (Elt F)),
    binary main_v287 main_v290 main_v291 (subf : (⟨S2000000, .f32⟩ : BufTy).Contents (Elt F) → (⟨S2000000, .f32⟩ : BufTy).Contents (Elt F) → (⟨S2000000, .f32⟩ : BufTy).Contents (Elt F)),
    nullary main_cst_125 (constant S_ .f32 0x40000000#32) ]

/-- What window 6's operations write, in order. -/
abbrev W6 : List (Ref sig .tc) :=
  [main_v247, main_v248, main_cst_111, main_v249, main_v250, main_v251, main_cst_112, main_v252, main_v253, main_v254, main_v255, main_cst_113, main_v256, main_v257, main_cst_114, main_v258, main_v259, main_v260, main_cst_115, main_v261, main_v262, main_v263, main_v264, main_cst_116, main_v265, main_v266, main_cst_117, main_v267, main_v268, main_v269, main_cst_118, main_v270, main_v271, main_v272, main_v273, main_cst_119, main_v274, main_v275, main_cst_120, main_v276, main_v277, main_v278, main_cst_121, main_v279, main_v280, main_v281, main_v282, main_cst_122, main_v283, main_v284, main_cst_123, main_v285, main_v286, main_v287, main_cst_124, main_v288, main_v289, main_v290, main_v291, main_cst_125]

/-- Window 7: 60 operations. -/
abbrev ops7 : List (HloOp τ sig (Elt F)) :=
  [ unary main_cst_125 main_v292 (broadcastInDim S2000000 ![] bcast_S_S2000000 : (⟨S_, .f32⟩ : BufTy).Contents (Elt F) → (⟨S2000000, .f32⟩ : BufTy).Contents (Elt F)),
    binary main_v291 main_v292 main_v293 (Host.divf : (⟨S2000000, .f32⟩ : BufTy).Contents (Elt F) → (⟨S2000000, .f32⟩ : BufTy).Contents (Elt F) → (⟨S2000000, .f32⟩ : BufTy).Contents (Elt F)),
    unary main_v0 main_v294 (broadcastInDim S2000000x1 ![0] bcast_S2000000_S2000000x1_0 : (⟨S2000000, .f32⟩ : BufTy).Contents (Elt F) → (⟨S2000000x1, .f32⟩ : BufTy).Contents (Elt F)),
    unary main_v19 main_v295 (broadcastInDim S2000000x1 ![0] bcast_S2000000_S2000000x1_0 : (⟨S2000000, .f32⟩ : BufTy).Contents (Elt F) → (⟨S2000000x1, .f32⟩ : BufTy).Contents (Elt F)),
    unary main_v2 main_v296 (broadcastInDim S2000000x1 ![0] bcast_S2000000_S2000000x1_0 : (⟨S2000000, .f32⟩ : BufTy).Contents (Elt F) → (⟨S2000000x1, .f32⟩ : BufTy).Contents (Elt F)),
    binary main_v295 main_v296 main_v297 ((fun a b => concatenate S2000000x2 1 [⟨S2000000x1, a⟩, ⟨S2000000x1, b⟩] concatenates_S2000000x1_S2000000x1_S2000000x2_d1) : (⟨S2000000x1, .f32⟩ : BufTy).Contents (Elt F) → (⟨S2000000x1, .f32⟩ : BufTy).Contents (Elt F) → (⟨S2000000x2, .f32⟩ : BufTy).Contents (Elt F)),
    unary main_v50 main_v298 (broadcastInDim S2000000x1 ![0] bcast_S2000000_S2000000x1_0 : (⟨S2000000, .f32⟩ : BufTy).Contents (Elt F) → (⟨S2000000x1, .f32⟩ : BufTy).Contents (Elt F)),
    unary main_v22 main_v299 (broadcastInDim S2000000x1 ![0] bcast_S2000000_S2000000x1_0 : (⟨S2000000, .f32⟩ : BufTy).Contents (Elt F) → (⟨S2000000x1, .f32⟩ : BufTy).Contents (Elt F)),
    unary main_v4 main_v300 (broadcastInDim S2000000x1 ![0] bcast_S2000000_S2000000x1_0 : (⟨S2000000, .f32⟩ : BufTy).Contents (Elt F) → (⟨S2000000x1, .f32⟩ : BufTy).Contents (Elt F)),
    nary ![main_v298, main_v299, main_v300] main_v301 (fun u => concatenate S2000000x3 1 [⟨S2000000x1, u 0⟩, ⟨S2000000x1, u 1⟩, ⟨S2000000x1, u 2⟩] concatenates_S2000000x1_S2000000x1_S2000000x1_S2000000x3_d1),
    unary main_v59 main_v302 (broadcastInDim S2000000x1 ![0] bcast_S2000000_S2000000x1_0 : (⟨S2000000, .f32⟩ : BufTy).Contents (Elt F) → (⟨S2000000x1, .f32⟩ : BufTy).Contents (Elt F)),
    unary main_v113 main_v303 (broadcastInDim S2000000x1 ![0] bcast_S2000000_S2000000x1_0 : (⟨S2000000, .f32⟩ : BufTy).Contents (Elt F) → (⟨S2000000x1, .f32⟩ : BufTy).Contents (Elt F)),
    unary main_v25 main_v304 (broadcastInDim S2000000x1 ![0] bcast_S2000000_S2000000x1_0 : (⟨S2000000, .f32⟩ : BufTy).Contents (Elt F) → (⟨S2000000x1, .f32⟩ : BufTy).Contents (Elt F)),
    unary main_v6 main_v305 (broadcastInDim S2000000x1 ![0] bcast_S2000000_S2000000x1_0 : (⟨S2000000, .f32⟩ : BufTy).Contents (Elt F) → (⟨S2000000x1, .f32⟩ : BufTy).Contents (Elt F)),
    nary ![main_v302, main_v303, main_v304, main_v305] main_v306 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    unary main_v68 main_v307 (broadcastInDim S2000000x1 ![0] bcast_S2000000_S2000000x1_0 : (⟨S2000000, .f32⟩ : BufTy).Contents (Elt F) → (⟨S2000000x1, .f32⟩ : BufTy).Contents (Elt F)),
    unary main_v122 main_v308 (broadcastInDim S2000000x1 ![0] bcast_S2000000_S2000000x1_0 : (⟨S2000000, .f32⟩ : BufTy).Contents (Elt F) → (⟨S2000000x1, .f32⟩ : BufTy).Contents (Elt F)),
    unary main_v167 main_v309 (broadcastInDim S2000000x1 ![0] bcast_S2000000_S2000000x1_0 : (⟨S2000000, .f32⟩ : BufTy).Contents (Elt F) → (⟨S2000000x1, .f32⟩ : BufTy).Contents (Elt F)),
    unary main_v28 main_v310 (broadcastInDim S2000000x1 ![0] bcast_S2000000_S2000000x1_0 : (⟨S2000000, .f32⟩ : BufTy).Contents (Elt F) → (⟨S2000000x1, .f32⟩ : BufTy).Contents (Elt F)),
    unary main_v8 main_v311 (broadcastInDim S2000000x1 ![0] bcast_S2000000_S2000000x1_0 : (⟨S2000000, .f32⟩ : BufTy).Contents (Elt F) → (⟨S2000000x1, .f32⟩ : BufTy).Contents (Elt F)),
    nary ![main_v307, main_v308, main_v309, main_v310, main_v311] main_v312 (fun u => concatenate S2000000x5 1 [⟨S2000000x1, u 0⟩, ⟨S2000000x1, u 1⟩, ⟨S2000000x1, u 2⟩, ⟨S2000000x1, u 3⟩, ⟨S2000000x1, u 4⟩] concatenates_S2000000x1_S2000000x1_S2000000x1_S2000000x1_S2000000x1_S2000000x5_d1),
    unary main_v77 main_v313 (broadcastInDim S2000000x1 ![0] bcast_S2000000_S2000000x1_0 : (⟨S2000000, .f32⟩ : BufTy).Contents (Elt F) → (⟨S2000000x1, .f32⟩ : BufTy).Contents (Elt F)),
    unary main_v131 main_v314 (broadcastInDim S2000000x1 ![0] bcast_S2000000_S2000000x1_0 : (⟨S2000000, .f32⟩ : BufTy).Contents (Elt F) → (⟨S2000000x1, .f32⟩ : BufTy).Contents (Elt F)),
    unary main_v176 main_v315 (broadcastInDim S2000000x1 ![0] bcast_S2000000_S2000000x1_0 : (⟨S2000000, .f32⟩ : BufTy).Contents (Elt F) → (⟨S2000000x1, .f32⟩ : BufTy).Contents (Elt F)),
    unary main_v212 main_v316 (broadcastInDim S2000000x1 ![0] bcast_S2000000_S2000000x1_0 : (⟨S2000000, .f32⟩ : BufTy).Contents (Elt F) → (⟨S2000000x1, .f32⟩ : BufTy).Contents (Elt F)),
    unary main_v31 main_v317 (broadcastInDim S2000000x1 ![0] bcast_S2000000_S2000000x1_0 : (⟨S2000000, .f32⟩ : BufTy).Contents (Elt F) → (⟨S2000000x1, .f32⟩ : BufTy).Contents (Elt F)),
    unary main_v10 main_v318 (broadcastInDim S2000000x1 ![0] bcast_S2000000_S2000000x1_0 : (⟨S2000000, .f32⟩ : BufTy).Contents (Elt F) → (⟨S2000000x1, .f32⟩ : BufTy).Contents (Elt F)),
    nary ![main_v313, main_v314, main_v315, main_v316, main_v317, main_v318] main_v319 (fun u => concatenate S2000000x6 1 [⟨S2000000x1, u 0⟩, ⟨S2000000x1, u 1⟩, ⟨S2000000x1, u 2⟩, ⟨S2000000x1, u 3⟩, ⟨S2000000x1, u 4⟩, ⟨S2000000x1, u 5⟩] concatenates_S2000000x1_S2000000x1_S2000000x1_S2000000x1_S2000000x1_S2000000x1_S2000000x6_d1),
    unary main_v86 main_v320 (broadcastInDim S2000000x1 ![0] bcast_S2000000_S2000000x1_0 : (⟨S2000000, .f32⟩ : BufTy).Contents (Elt F) → (⟨S2000000x1, .f32⟩ : BufTy).Contents (Elt F)),
    unary main_v140 main_v321 (broadcastInDim S2000000x1 ![0] bcast_S2000000_S2000000x1_0 : (⟨S2000000, .f32⟩ : BufTy).Contents (Elt F) → (⟨S2000000x1, .f32⟩ : BufTy).Contents (Elt F)),
    unary main_v185 main_v322 (broadcastInDim S2000000x1 ![0] bcast_S2000000_S2000000x1_0 : (⟨S2000000, .f32⟩ : BufTy).Contents (Elt F) → (⟨S2000000x1, .f32⟩ : BufTy).Contents (Elt F)),
    unary main_v221 main_v323 (broadcastInDim S2000000x1 ![0] bcast_S2000000_S2000000x1_0 : (⟨S2000000, .f32⟩ : BufTy).Contents (Elt F) → (⟨S2000000x1, .f32⟩ : BufTy).Contents (Elt F)),
    unary main_v248 main_v324 (broadcastInDim S2000000x1 ![0] bcast_S2000000_S2000000x1_0 : (⟨S2000000, .f32⟩ : BufTy).Contents (Elt F) → (⟨S2000000x1, .f32⟩ : BufTy).Contents (Elt F)),
    unary main_v34 main_v325 (broadcastInDim S2000000x1 ![0] bcast_S2000000_S2000000x1_0 : (⟨S2000000, .f32⟩ : BufTy).Contents (Elt F) → (⟨S2000000x1, .f32⟩ : BufTy).Contents (Elt F)),
    unary main_v12 main_v326 (broadcastInDim S2000000x1 ![0] bcast_S2000000_S2000000x1_0 : (⟨S2000000, .f32⟩ : BufTy).Contents (Elt F) → (⟨S2000000x1, .f32⟩ : BufTy).Contents (Elt F)),
    nary ![main_v320, main_v321, main_v322, main_v323, main_v324, main_v325, main_v326] main_v327 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    unary main_v95 main_v328 (broadcastInDim S2000000x1 ![0] bcast_S2000000_S2000000x1_0 : (⟨S2000000, .f32⟩ : BufTy).Contents (Elt F) → (⟨S2000000x1, .f32⟩ : BufTy).Contents (Elt F)),
    unary main_v149 main_v329 (broadcastInDim S2000000x1 ![0] bcast_S2000000_S2000000x1_0 : (⟨S2000000, .f32⟩ : BufTy).Contents (Elt F) → (⟨S2000000x1, .f32⟩ : BufTy).Contents (Elt F)),
    unary main_v194 main_v330 (broadcastInDim S2000000x1 ![0] bcast_S2000000_S2000000x1_0 : (⟨S2000000, .f32⟩ : BufTy).Contents (Elt F) → (⟨S2000000x1, .f32⟩ : BufTy).Contents (Elt F)),
    unary main_v230 main_v331 (broadcastInDim S2000000x1 ![0] bcast_S2000000_S2000000x1_0 : (⟨S2000000, .f32⟩ : BufTy).Contents (Elt F) → (⟨S2000000x1, .f32⟩ : BufTy).Contents (Elt F)),
    unary main_v257 main_v332 (broadcastInDim S2000000x1 ![0] bcast_S2000000_S2000000x1_0 : (⟨S2000000, .f32⟩ : BufTy).Contents (Elt F) → (⟨S2000000x1, .f32⟩ : BufTy).Contents (Elt F)),
    unary main_v275 main_v333 (broadcastInDim S2000000x1 ![0] bcast_S2000000_S2000000x1_0 : (⟨S2000000, .f32⟩ : BufTy).Contents (Elt F) → (⟨S2000000x1, .f32⟩ : BufTy).Contents (Elt F)),
    unary main_v37 main_v334 (broadcastInDim S2000000x1 ![0] bcast_S2000000_S2000000x1_0 : (⟨S2000000, .f32⟩ : BufTy).Contents (Elt F) → (⟨S2000000x1, .f32⟩ : BufTy).Contents (Elt F)),
    unary main_v14 main_v335 (broadcastInDim S2000000x1 ![0] bcast_S2000000_S2000000x1_0 : (⟨S2000000, .f32⟩ : BufTy).Contents (Elt F) → (⟨S2000000x1, .f32⟩ : BufTy).Contents (Elt F)),
    nary ![main_v328, main_v329, main_v330, main_v331, main_v332, main_v333, main_v334, main_v335] main_v336 (fun u => concatenate S2000000x8 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩] concatenates_S2000000x1_S2000000x1_S2000000x1_S2000000x1_S2000000x1_S2000000x1_S2000000x1_S2000000x1_S2000000x8_d1),
    unary main_v104 main_v337 (broadcastInDim S2000000x1 ![0] bcast_S2000000_S2000000x1_0 : (⟨S2000000, .f32⟩ : BufTy).Contents (Elt F) → (⟨S2000000x1, .f32⟩ : BufTy).Contents (Elt F)),
    unary main_v158 main_v338 (broadcastInDim S2000000x1 ![0] bcast_S2000000_S2000000x1_0 : (⟨S2000000, .f32⟩ : BufTy).Contents (Elt F) → (⟨S2000000x1, .f32⟩ : BufTy).Contents (Elt F)),
    unary main_v203 main_v339 (broadcastInDim S2000000x1 ![0] bcast_S2000000_S2000000x1_0 : (⟨S2000000, .f32⟩ : BufTy).Contents (Elt F) → (⟨S2000000x1, .f32⟩ : BufTy).Contents (Elt F)),
    unary main_v239 main_v340 (broadcastInDim S2000000x1 ![0] bcast_S2000000_S2000000x1_0 : (⟨S2000000, .f32⟩ : BufTy).Contents (Elt F) → (⟨S2000000x1, .f32⟩ : BufTy).Contents (Elt F)),
    unary main_v266 main_v341 (broadcastInDim S2000000x1 ![0] bcast_S2000000_S2000000x1_0 : (⟨S2000000, .f32⟩ : BufTy).Contents (Elt F) → (⟨S2000000x1, .f32⟩ : BufTy).Contents (Elt F)),
    unary main_v284 main_v342 (broadcastInDim S2000000x1 ![0] bcast_S2000000_S2000000x1_0 : (⟨S2000000, .f32⟩ : BufTy).Contents (Elt F) → (⟨S2000000x1, .f32⟩ : BufTy).Contents (Elt F)),
    unary main_v293 main_v343 (broadcastInDim S2000000x1 ![0] bcast_S2000000_S2000000x1_0 : (⟨S2000000, .f32⟩ : BufTy).Contents (Elt F) → (⟨S2000000x1, .f32⟩ : BufTy).Contents (Elt F)),
    unary main_v40 main_v344 (broadcastInDim S2000000x1 ![0] bcast_S2000000_S2000000x1_0 : (⟨S2000000, .f32⟩ : BufTy).Contents (Elt F) → (⟨S2000000x1, .f32⟩ : BufTy).Contents (Elt F)),
    unary main_v16 main_v345 (broadcastInDim S2000000x1 ![0] bcast_S2000000_S2000000x1_0 : (⟨S2000000, .f32⟩ : BufTy).Contents (Elt F) → (⟨S2000000x1, .f32⟩ : BufTy).Contents (Elt F)),
    nary ![main_v337, main_v338, main_v339, main_v340, main_v341, main_v342, main_v343, main_v344, main_v345] main_v346 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    nullary main_cst_126 (constant S_ .f32 0x3F800000#32),
    unary main_cst_126 main_v347 (broadcastInDim S2000000 ![] bcast_S_S2000000 : (⟨S_, .f32⟩ : BufTy).Contents (Elt F) → (⟨S2000000, .f32⟩ : BufTy).Contents (Elt F)),
    nullary main_cst_127 (constant S_ .f32 0x00000000#32),
    unary main_cst_127 main_v348 (broadcastInDim S2000000 ![] bcast_S_S2000000 : (⟨S_, .f32⟩ : BufTy).Contents (Elt F) → (⟨S2000000, .f32⟩ : BufTy).Contents (Elt F)),
    binary main_v347 main_arg0 main_v349 (mulf : (⟨S2000000, .f32⟩ : BufTy).Contents (Elt F) → (⟨S2000000, .f32⟩ : BufTy).Contents (Elt F) → (⟨S2000000, .f32⟩ : BufTy).Contents (Elt F)) ]

/-- What window 7's operations write, in order. -/
abbrev W7 : List (Ref sig .tc) :=
  [main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_cst_126, main_v347, main_cst_127, main_v348, main_v349]

/-- Window 8: 60 operations. -/
abbrev ops8 : List (HloOp τ sig (Elt F)) :=
  [ binary main_v348 main_arg1 main_v350 (mulf : (⟨S2000000, .f32⟩ : BufTy).Contents (Elt F) → (⟨S2000000, .f32⟩ : BufTy).Contents (Elt F) → (⟨S2000000, .f32⟩ : BufTy).Contents (Elt F)),
    binary main_v349 main_v350 main_v351 (subf : (⟨S2000000, .f32⟩ : BufTy).Contents (Elt F) → (⟨S2000000, .f32⟩ : BufTy).Contents (Elt F) → (⟨S2000000, .f32⟩ : BufTy).Contents (Elt F)),
    binary main_v348 main_arg0 main_v352 (mulf : (⟨S2000000, .f32⟩ : BufTy).Contents (Elt F) → (⟨S2000000, .f32⟩ : BufTy).Contents (Elt F) → (⟨S2000000, .f32⟩ : BufTy).Contents (Elt F)),
    binary main_v347 main_arg1 main_v353 (mulf : (⟨S2000000, .f32⟩ : BufTy).Contents (Elt F) → (⟨S2000000, .f32⟩ : BufTy).Contents (Elt F) → (⟨S2000000, .f32⟩ : BufTy).Contents (Elt F)),
    binary main_v352 main_v353 main_v354 (addf : (⟨S2000000, .f32⟩ : BufTy).Contents (Elt F) → (⟨S2000000, .f32⟩ : BufTy).Contents (Elt F) → (⟨S2000000, .f32⟩ : BufTy).Contents (Elt F)),
    binary main_v351 main_arg0 main_v355 (mulf : (⟨S2000000, .f32⟩ : BufTy).Contents (Elt F) → (⟨S2000000, .f32⟩ : BufTy).Contents (Elt F) → (⟨S2000000, .f32⟩ : BufTy).Contents (Elt F)),
    binary main_v354 main_arg1 main_v356 (mulf : (⟨S2000000, .f32⟩ : BufTy).Contents (Elt F) → (⟨S2000000, .f32⟩ : BufTy).Contents (Elt F) → (⟨S2000000, .f32⟩ : BufTy).Contents (Elt F)),
    binary main_v355 main_v356 main_v357 (subf : (⟨S2000000, .f32⟩ : BufTy).Contents (Elt F) → (⟨S2000000, .f32⟩ : BufTy).Contents (Elt F) → (⟨S2000000, .f32⟩ : BufTy).Contents (Elt F)),
    binary main_v354 main_arg0 main_v358 (mulf : (⟨S2000000, .f32⟩ : BufTy).Contents (Elt F) → (⟨S2000000, .f32⟩ : BufTy).Contents (Elt F) → (⟨S2000000, .f32⟩ : BufTy).Contents (Elt F)),
    binary main_v351 main_arg1 main_v359 (mulf : (⟨S2000000, .f32⟩ : BufTy).Contents (Elt F) → (⟨S2000000, .f32⟩ : BufTy).Contents (Elt F) → (⟨S2000000, .f32⟩ : BufTy).Contents (Elt F)),
    binary main_v358 main_v359 main_v360 (addf : (⟨S2000000, .f32⟩ : BufTy).Contents (Elt F) → (⟨S2000000, .f32⟩ : BufTy).Contents (Elt F) → (⟨S2000000, .f32⟩ : BufTy).Contents (Elt F)),
    binary main_v357 main_arg0 main_v361 (mulf : (⟨S2000000, .f32⟩ : BufTy).Contents (Elt F) → (⟨S2000000, .f32⟩ : BufTy).Contents (Elt F) → (⟨S2000000, .f32⟩ : BufTy).Contents (Elt F)),
    binary main_v360 main_arg1 main_v362 (mulf : (⟨S2000000, .f32⟩ : BufTy).Contents (Elt F) → (⟨S2000000, .f32⟩ : BufTy).Contents (Elt F) → (⟨S2000000, .f32⟩ : BufTy).Contents (Elt F)),
    binary main_v361 main_v362 main_v363 (subf : (⟨S2000000, .f32⟩ : BufTy).Contents (Elt F) → (⟨S2000000, .f32⟩ : BufTy).Contents (Elt F) → (⟨S2000000, .f32⟩ : BufTy).Contents (Elt F)),
    binary main_v360 main_arg0 main_v364 (mulf : (⟨S2000000, .f32⟩ : BufTy).Contents (Elt F) → (⟨S2000000, .f32⟩ : BufTy).Contents (Elt F) → (⟨S2000000, .f32⟩ : BufTy).Contents (Elt F)),
    binary main_v357 main_arg1 main_v365 (mulf : (⟨S2000000, .f32⟩ : BufTy).Contents (Elt F) → (⟨S2000000, .f32⟩ : BufTy).Contents (Elt F) → (⟨S2000000, .f32⟩ : BufTy).Contents (Elt F)),
    binary main_v364 main_v365 main_v366 (addf : (⟨S2000000, .f32⟩ : BufTy).Contents (Elt F) → (⟨S2000000, .f32⟩ : BufTy).Contents (Elt F) → (⟨S2000000, .f32⟩ : BufTy).Contents (Elt F)),
    binary main_v363 main_arg0 main_v367 (mulf : (⟨S2000000, .f32⟩ : BufTy).Contents (Elt F) → (⟨S2000000, .f32⟩ : BufTy).Contents (Elt F) → (⟨S2000000, .f32⟩ : BufTy).Contents (Elt F)),
    binary main_v366 main_arg1 main_v368 (mulf : (⟨S2000000, .f32⟩ : BufTy).Contents (Elt F) → (⟨S2000000, .f32⟩ : BufTy).Contents (Elt F) → (⟨S2000000, .f32⟩ : BufTy).Contents (Elt F)),
    binary main_v367 main_v368 main_v369 (subf : (⟨S2000000, .f32⟩ : BufTy).Contents (Elt F) → (⟨S2000000, .f32⟩ : BufTy).Contents (Elt F) → (⟨S2000000, .f32⟩ : BufTy).Contents (Elt F)),
    binary main_v366 main_arg0 main_v370 (mulf : (⟨S2000000, .f32⟩ : BufTy).Contents (Elt F) → (⟨S2000000, .f32⟩ : BufTy).Contents (Elt F) → (⟨S2000000, .f32⟩ : BufTy).Contents (Elt F)),
    binary main_v363 main_arg1 main_v371 (mulf : (⟨S2000000, .f32⟩ : BufTy).Contents (Elt F) → (⟨S2000000, .f32⟩ : BufTy).Contents (Elt F) → (⟨S2000000, .f32⟩ : BufTy).Contents (Elt F)),
    binary main_v370 main_v371 main_v372 (addf : (⟨S2000000, .f32⟩ : BufTy).Contents (Elt F) → (⟨S2000000, .f32⟩ : BufTy).Contents (Elt F) → (⟨S2000000, .f32⟩ : BufTy).Contents (Elt F)),
    binary main_v369 main_arg0 main_v373 (mulf : (⟨S2000000, .f32⟩ : BufTy).Contents (Elt F) → (⟨S2000000, .f32⟩ : BufTy).Contents (Elt F) → (⟨S2000000, .f32⟩ : BufTy).Contents (Elt F)),
    binary main_v372 main_arg1 main_v374 (mulf : (⟨S2000000, .f32⟩ : BufTy).Contents (Elt F) → (⟨S2000000, .f32⟩ : BufTy).Contents (Elt F) → (⟨S2000000, .f32⟩ : BufTy).Contents (Elt F)),
    binary main_v373 main_v374 main_v375 (subf : (⟨S2000000, .f32⟩ : BufTy).Contents (Elt F) → (⟨S2000000, .f32⟩ : BufTy).Contents (Elt F) → (⟨S2000000, .f32⟩ : BufTy).Contents (Elt F)),
    binary main_v372 main_arg0 main_v376 (mulf : (⟨S2000000, .f32⟩ : BufTy).Contents (Elt F) → (⟨S2000000, .f32⟩ : BufTy).Contents (Elt F) → (⟨S2000000, .f32⟩ : BufTy).Contents (Elt F)),
    binary main_v369 main_arg1 main_v377 (mulf : (⟨S2000000, .f32⟩ : BufTy).Contents (Elt F) → (⟨S2000000, .f32⟩ : BufTy).Contents (Elt F) → (⟨S2000000, .f32⟩ : BufTy).Contents (Elt F)),
    binary main_v376 main_v377 main_v378 (addf : (⟨S2000000, .f32⟩ : BufTy).Contents (Elt F) → (⟨S2000000, .f32⟩ : BufTy).Contents (Elt F) → (⟨S2000000, .f32⟩ : BufTy).Contents (Elt F)),
    binary main_v375 main_arg0 main_v379 (mulf : (⟨S2000000, .f32⟩ : BufTy).Contents (Elt F) → (⟨S2000000, .f32⟩ : BufTy).Contents (Elt F) → (⟨S2000000, .f32⟩ : BufTy).Contents (Elt F)),
    binary main_v378 main_arg1 main_v380 (mulf : (⟨S2000000, .f32⟩ : BufTy).Contents (Elt F) → (⟨S2000000, .f32⟩ : BufTy).Contents (Elt F) → (⟨S2000000, .f32⟩ : BufTy).Contents (Elt F)),
    binary main_v379 main_v380 main_v381 (subf : (⟨S2000000, .f32⟩ : BufTy).Contents (Elt F) → (⟨S2000000, .f32⟩ : BufTy).Contents (Elt F) → (⟨S2000000, .f32⟩ : BufTy).Contents (Elt F)),
    binary main_v378 main_arg0 main_v382 (mulf : (⟨S2000000, .f32⟩ : BufTy).Contents (Elt F) → (⟨S2000000, .f32⟩ : BufTy).Contents (Elt F) → (⟨S2000000, .f32⟩ : BufTy).Contents (Elt F)),
    binary main_v375 main_arg1 main_v383 (mulf : (⟨S2000000, .f32⟩ : BufTy).Contents (Elt F) → (⟨S2000000, .f32⟩ : BufTy).Contents (Elt F) → (⟨S2000000, .f32⟩ : BufTy).Contents (Elt F)),
    binary main_v382 main_v383 main_v384 (addf : (⟨S2000000, .f32⟩ : BufTy).Contents (Elt F) → (⟨S2000000, .f32⟩ : BufTy).Contents (Elt F) → (⟨S2000000, .f32⟩ : BufTy).Contents (Elt F)),
    binary main_v381 main_arg0 main_v385 (mulf : (⟨S2000000, .f32⟩ : BufTy).Contents (Elt F) → (⟨S2000000, .f32⟩ : BufTy).Contents (Elt F) → (⟨S2000000, .f32⟩ : BufTy).Contents (Elt F)),
    binary main_v384 main_arg1 main_v386 (mulf : (⟨S2000000, .f32⟩ : BufTy).Contents (Elt F) → (⟨S2000000, .f32⟩ : BufTy).Contents (Elt F) → (⟨S2000000, .f32⟩ : BufTy).Contents (Elt F)),
    binary main_v385 main_v386 main_v387 (subf : (⟨S2000000, .f32⟩ : BufTy).Contents (Elt F) → (⟨S2000000, .f32⟩ : BufTy).Contents (Elt F) → (⟨S2000000, .f32⟩ : BufTy).Contents (Elt F)),
    binary main_v384 main_arg0 main_v388 (mulf : (⟨S2000000, .f32⟩ : BufTy).Contents (Elt F) → (⟨S2000000, .f32⟩ : BufTy).Contents (Elt F) → (⟨S2000000, .f32⟩ : BufTy).Contents (Elt F)),
    binary main_v381 main_arg1 main_v389 (mulf : (⟨S2000000, .f32⟩ : BufTy).Contents (Elt F) → (⟨S2000000, .f32⟩ : BufTy).Contents (Elt F) → (⟨S2000000, .f32⟩ : BufTy).Contents (Elt F)),
    binary main_v388 main_v389 main_v390 (addf : (⟨S2000000, .f32⟩ : BufTy).Contents (Elt F) → (⟨S2000000, .f32⟩ : BufTy).Contents (Elt F) → (⟨S2000000, .f32⟩ : BufTy).Contents (Elt F)),
    binary main_v387 main_arg0 main_v391 (mulf : (⟨S2000000, .f32⟩ : BufTy).Contents (Elt F) → (⟨S2000000, .f32⟩ : BufTy).Contents (Elt F) → (⟨S2000000, .f32⟩ : BufTy).Contents (Elt F)),
    binary main_v390 main_arg1 main_v392 (mulf : (⟨S2000000, .f32⟩ : BufTy).Contents (Elt F) → (⟨S2000000, .f32⟩ : BufTy).Contents (Elt F) → (⟨S2000000, .f32⟩ : BufTy).Contents (Elt F)),
    binary main_v391 main_v392 main_v393 (subf : (⟨S2000000, .f32⟩ : BufTy).Contents (Elt F) → (⟨S2000000, .f32⟩ : BufTy).Contents (Elt F) → (⟨S2000000, .f32⟩ : BufTy).Contents (Elt F)),
    binary main_v390 main_arg0 main_v394 (mulf : (⟨S2000000, .f32⟩ : BufTy).Contents (Elt F) → (⟨S2000000, .f32⟩ : BufTy).Contents (Elt F) → (⟨S2000000, .f32⟩ : BufTy).Contents (Elt F)),
    binary main_v387 main_arg1 main_v395 (mulf : (⟨S2000000, .f32⟩ : BufTy).Contents (Elt F) → (⟨S2000000, .f32⟩ : BufTy).Contents (Elt F) → (⟨S2000000, .f32⟩ : BufTy).Contents (Elt F)),
    binary main_v394 main_v395 main_v396 (addf : (⟨S2000000, .f32⟩ : BufTy).Contents (Elt F) → (⟨S2000000, .f32⟩ : BufTy).Contents (Elt F) → (⟨S2000000, .f32⟩ : BufTy).Contents (Elt F)),
    unary main_v347 main_v397 (broadcastInDim S2000000x1 ![0] bcast_S2000000_S2000000x1_0 : (⟨S2000000, .f32⟩ : BufTy).Contents (Elt F) → (⟨S2000000x1, .f32⟩ : BufTy).Contents (Elt F)),
    unary main_v351 main_v398 (broadcastInDim S2000000x1 ![0] bcast_S2000000_S2000000x1_0 : (⟨S2000000, .f32⟩ : BufTy).Contents (Elt F) → (⟨S2000000x1, .f32⟩ : BufTy).Contents (Elt F)),
    unary main_v357 main_v399 (broadcastInDim S2000000x1 ![0] bcast_S2000000_S2000000x1_0 : (⟨S2000000, .f32⟩ : BufTy).Contents (Elt F) → (⟨S2000000x1, .f32⟩ : BufTy).Contents (Elt F)),
    unary main_v363 main_v400 (broadcastInDim S2000000x1 ![0] bcast_S2000000_S2000000x1_0 : (⟨S2000000, .f32⟩ : BufTy).Contents (Elt F) → (⟨S2000000x1, .f32⟩ : BufTy).Contents (Elt F)),
    unary main_v369 main_v401 (broadcastInDim S2000000x1 ![0] bcast_S2000000_S2000000x1_0 : (⟨S2000000, .f32⟩ : BufTy).Contents (Elt F) → (⟨S2000000x1, .f32⟩ : BufTy).Contents (Elt F)),
    unary main_v375 main_v402 (broadcastInDim S2000000x1 ![0] bcast_S2000000_S2000000x1_0 : (⟨S2000000, .f32⟩ : BufTy).Contents (Elt F) → (⟨S2000000x1, .f32⟩ : BufTy).Contents (Elt F)),
    unary main_v381 main_v403 (broadcastInDim S2000000x1 ![0] bcast_S2000000_S2000000x1_0 : (⟨S2000000, .f32⟩ : BufTy).Contents (Elt F) → (⟨S2000000x1, .f32⟩ : BufTy).Contents (Elt F)),
    unary main_v387 main_v404 (broadcastInDim S2000000x1 ![0] bcast_S2000000_S2000000x1_0 : (⟨S2000000, .f32⟩ : BufTy).Contents (Elt F) → (⟨S2000000x1, .f32⟩ : BufTy).Contents (Elt F)),
    unary main_v393 main_v405 (broadcastInDim S2000000x1 ![0] bcast_S2000000_S2000000x1_0 : (⟨S2000000, .f32⟩ : BufTy).Contents (Elt F) → (⟨S2000000x1, .f32⟩ : BufTy).Contents (Elt F)),
    nary ![main_v397, main_v398, main_v399, main_v400, main_v401, main_v402, main_v403, main_v404, main_v405] main_v406 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    unary main_v348 main_v407 (broadcastInDim S2000000x1 ![0] bcast_S2000000_S2000000x1_0 : (⟨S2000000, .f32⟩ : BufTy).Contents (Elt F) → (⟨S2000000x1, .f32⟩ : BufTy).Contents (Elt F)),
    unary main_v354 main_v408 (broadcastInDim S2000000x1 ![0] bcast_S2000000_S2000000x1_0 : (⟨S2000000, .f32⟩ : BufTy).Contents (Elt F) → (⟨S2000000x1, .f32⟩ : BufTy).Contents (Elt F)),
    unary main_v360 main_v409 (broadcastInDim S2000000x1 ![0] bcast_S2000000_S2000000x1_0 : (⟨S2000000, .f32⟩ : BufTy).Contents (Elt F) → (⟨S2000000x1, .f32⟩ : BufTy).Contents (Elt F)) ]

/-- What window 8's operations write, in order. -/
abbrev W8 : List (Ref sig .tc) :=
  [main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409]

/-- Window 9: 60 operations. -/
abbrev ops9 : List (HloOp τ sig (Elt F)) :=
  [ unary main_v366 main_v410 (broadcastInDim S2000000x1 ![0] bcast_S2000000_S2000000x1_0 : (⟨S2000000, .f32⟩ : BufTy).Contents (Elt F) → (⟨S2000000x1, .f32⟩ : BufTy).Contents (Elt F)),
    unary main_v372 main_v411 (broadcastInDim S2000000x1 ![0] bcast_S2000000_S2000000x1_0 : (⟨S2000000, .f32⟩ : BufTy).Contents (Elt F) → (⟨S2000000x1, .f32⟩ : BufTy).Contents (Elt F)),
    unary main_v378 main_v412 (broadcastInDim S2000000x1 ![0] bcast_S2000000_S2000000x1_0 : (⟨S2000000, .f32⟩ : BufTy).Contents (Elt F) → (⟨S2000000x1, .f32⟩ : BufTy).Contents (Elt F)),
    unary main_v384 main_v413 (broadcastInDim S2000000x1 ![0] bcast_S2000000_S2000000x1_0 : (⟨S2000000, .f32⟩ : BufTy).Contents (Elt F) → (⟨S2000000x1, .f32⟩ : BufTy).Contents (Elt F)),
    unary main_v390 main_v414 (broadcastInDim S2000000x1 ![0] bcast_S2000000_S2000000x1_0 : (⟨S2000000, .f32⟩ : BufTy).Contents (Elt F) → (⟨S2000000x1, .f32⟩ : BufTy).Contents (Elt F)),
    unary main_v396 main_v415 (broadcastInDim S2000000x1 ![0] bcast_S2000000_S2000000x1_0 : (⟨S2000000, .f32⟩ : BufTy).Contents (Elt F) → (⟨S2000000x1, .f32⟩ : BufTy).Contents (Elt F)),
    nary ![main_v407, main_v408, main_v409, main_v410, main_v411, main_v412, main_v413, main_v414, main_v415] main_v416 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    unary main_v416 main_v417 ((extractStridedSlice S2000000x8 ![0, 1] · slices_S2000000x9_S2000000x8_0_1) : (⟨S2000000x9, .f32⟩ : BufTy).Contents (Elt F) → (⟨S2000000x8, .f32⟩ : BufTy).Contents (Elt F)),
    unary main_v417 main_v418 (Host.reverse [1] : (⟨S2000000x8, .f32⟩ : BufTy).Contents (Elt F) → (⟨S2000000x8, .f32⟩ : BufTy).Contents (Elt F)),
    nullary main_cst_128 (constant S_ .f32 0x3F800000#32),
    unary main_cst_128 main_v419 (broadcastInDim S2000000 ![] bcast_S_S2000000 : (⟨S_, .f32⟩ : BufTy).Contents (Elt F) → (⟨S2000000, .f32⟩ : BufTy).Contents (Elt F)),
    unary main_v419 main_v420 (broadcastInDim S2000000x1 ![0] bcast_S2000000_S2000000x1_0 : (⟨S2000000, .f32⟩ : BufTy).Contents (Elt F) → (⟨S2000000x1, .f32⟩ : BufTy).Contents (Elt F)),
    nullary main_cst_129 (constant S_ .f32 0x3F3504F3#32),
    unary main_cst_129 main_v421 (broadcastInDim S2000000x1 ![] bcast_S_S2000000x1 : (⟨S_, .f32⟩ : BufTy).Contents (Elt F) → (⟨S2000000x1, .f32⟩ : BufTy).Contents (Elt F)),
    binary main_v421 main_v420 main_v422 (mulf : (⟨S2000000x1, .f32⟩ : BufTy).Contents (Elt F) → (⟨S2000000x1, .f32⟩ : BufTy).Contents (Elt F) → (⟨S2000000x1, .f32⟩ : BufTy).Contents (Elt F)),
    unary main_v406 main_v423 ((extractStridedSlice S2000000x8 ![0, 1] · slices_S2000000x9_S2000000x8_0_1) : (⟨S2000000x9, .f32⟩ : BufTy).Contents (Elt F) → (⟨S2000000x8, .f32⟩ : BufTy).Contents (Elt F)),
    nary ![main_v418, main_v422, main_v423] main_v424 (fun u => concatenate S2000000x17 1 [⟨S2000000x8, u 0⟩, ⟨S2000000x1, u 1⟩, ⟨S2000000x8, u 2⟩] concatenates_S2000000x8_S2000000x1_S2000000x8_S2000000x17_d1),
    nullary main_cst_130 (constant S_ .f32 0x3F800000#32),
    unary main_cst_130 main_v425 (broadcastInDim S2000000 ![] bcast_S_S2000000 : (⟨S_, .f32⟩ : BufTy).Contents (Elt F) → (⟨S2000000, .f32⟩ : BufTy).Contents (Elt F)),
    nullary main_c_131 (constantI S_ 32 1#32),
    unary main_c_131 main_v426 (broadcastInDim S1 ![] bcast_S_S1 : (⟨S_, .i32⟩ : BufTy).Contents (Elt F) → (⟨S1, .i32⟩ : BufTy).Contents (Elt F)),
    binary main_c main_v426 main_v427 (addi : (⟨S1, .i32⟩ : BufTy).Contents (Elt F) → (⟨S1, .i32⟩ : BufTy).Contents (Elt F) → (⟨S1, .i32⟩ : BufTy).Contents (Elt F)),
    ternary main_c_0 main_v427 main_c main_v428 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v428 main_v429 (broadcastInDim S1x1 ![0] bcast_S1_S1x1_0 : (⟨S1, .i32⟩ : BufTy).Contents (Elt F) → (⟨S1x1, .i32⟩ : BufTy).Contents (Elt F)),
    binary main_v294 main_v429 main_v430 ((fun x i => Host.gather gather_S2000000x1_S1x1_S2000000x1_0_1_n_n_1_1_20000001 x i) : (⟨S2000000x1, .f32⟩ : BufTy).Contents (Elt F) → (⟨S1x1, .i32⟩ : BufTy).Contents (Elt F) → (⟨S2000000x1, .f32⟩ : BufTy).Contents (Elt F)),
    unary main_cst main_v431 (broadcastInDim S1x1 ![1] bcast_S1_S1x1_1 : (⟨S1, .f32⟩ : BufTy).Contents (Elt F) → (⟨S1x1, .f32⟩ : BufTy).Contents (Elt F)),
    unary main_v431 main_v432 (broadcastInDim S2000000x1 ![0, 1] bcast_S1x1_S2000000x1_0_1 : (⟨S1x1, .f32⟩ : BufTy).Contents (Elt F) → (⟨S2000000x1, .f32⟩ : BufTy).Contents (Elt F)),
    binary main_v432 main_v430 main_v433 (mulf : (⟨S2000000x1, .f32⟩ : BufTy).Contents (Elt F) → (⟨S2000000x1, .f32⟩ : BufTy).Contents (Elt F) → (⟨S2000000x1, .f32⟩ : BufTy).Contents (Elt F)),
    unary main_v424 main_v434 ((extractStridedSlice S2000000x1 ![0, 8] · slices_S2000000x17_S2000000x1_0_8) : (⟨S2000000x17, .f32⟩ : BufTy).Contents (Elt F) → (⟨S2000000x1, .f32⟩ : BufTy).Contents (Elt F)),
    binary main_v433 main_v434 main_v435 (mulf : (⟨S2000000x1, .f32⟩ : BufTy).Contents (Elt F) → (⟨S2000000x1, .f32⟩ : BufTy).Contents (Elt F) → (⟨S2000000x1, .f32⟩ : BufTy).Contents (Elt F)),
    unary main_v425 main_v436 (broadcastInDim S2000000x1 ![0] bcast_S2000000_S2000000x1_0 : (⟨S2000000, .f32⟩ : BufTy).Contents (Elt F) → (⟨S2000000x1, .f32⟩ : BufTy).Contents (Elt F)),
    binary main_v435 main_v436 main_v437 (Host.divf : (⟨S2000000x1, .f32⟩ : BufTy).Contents (Elt F) → (⟨S2000000x1, .f32⟩ : BufTy).Contents (Elt F) → (⟨S2000000x1, .f32⟩ : BufTy).Contents (Elt F)),
    binary main_v425 main_arg3 main_v438 (mulf : (⟨S2000000, .f32⟩ : BufTy).Contents (Elt F) → (⟨S2000000, .f32⟩ : BufTy).Contents (Elt F) → (⟨S2000000, .f32⟩ : BufTy).Contents (Elt F)),
    nullary main_c_132 (constantI S_ 32 2#32),
    unary main_c_132 main_v439 (broadcastInDim S3 ![] bcast_S_S3 : (⟨S_, .i32⟩ : BufTy).Contents (Elt F) → (⟨S3, .i32⟩ : BufTy).Contents (Elt F)),
    binary main_c_2 main_v439 main_v440 (addi : (⟨S3, .i32⟩ : BufTy).Contents (Elt F) → (⟨S3, .i32⟩ : BufTy).Contents (Elt F) → (⟨S3, .i32⟩ : BufTy).Contents (Elt F)),
    ternary main_c_3 main_v440 main_c_2 main_v441 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v441 main_v442 (broadcastInDim S3x1 ![0] bcast_S3_S3x1_0 : (⟨S3, .i32⟩ : BufTy).Contents (Elt F) → (⟨S3x1, .i32⟩ : BufTy).Contents (Elt F)),
    binary main_v297 main_v442 main_v443 ((fun x i => Host.gather gather_S2000000x2_S3x1_S2000000x3_0_1_n_n_1_1_20000001 x i) : (⟨S2000000x2, .f32⟩ : BufTy).Contents (Elt F) → (⟨S3x1, .i32⟩ : BufTy).Contents (Elt F) → (⟨S2000000x3, .f32⟩ : BufTy).Contents (Elt F)),
    unary main_cst_1 main_v444 (broadcastInDim S1x3 ![1] bcast_S3_S1x3_1 : (⟨S3, .f32⟩ : BufTy).Contents (Elt F) → (⟨S1x3, .f32⟩ : BufTy).Contents (Elt F)),
    unary main_v444 main_v445 (broadcastInDim S2000000x3 ![0, 1] bcast_S1x3_S2000000x3_0_1 : (⟨S1x3, .f32⟩ : BufTy).Contents (Elt F) → (⟨S2000000x3, .f32⟩ : BufTy).Contents (Elt F)),
    binary main_v445 main_v443 main_v446 (mulf : (⟨S2000000x3, .f32⟩ : BufTy).Contents (Elt F) → (⟨S2000000x3, .f32⟩ : BufTy).Contents (Elt F) → (⟨S2000000x3, .f32⟩ : BufTy).Contents (Elt F)),
    unary main_v424 main_v447 ((extractStridedSlice S2000000x3 ![0, 7] · slices_S2000000x17_S2000000x3_0_7) : (⟨S2000000x17, .f32⟩ : BufTy).Contents (Elt F) → (⟨S2000000x3, .f32⟩ : BufTy).Contents (Elt F)),
    binary main_v446 main_v447 main_v448 (mulf : (⟨S2000000x3, .f32⟩ : BufTy).Contents (Elt F) → (⟨S2000000x3, .f32⟩ : BufTy).Contents (Elt F) → (⟨S2000000x3, .f32⟩ : BufTy).Contents (Elt F)),
    unary main_v438 main_v449 (broadcastInDim S2000000x1 ![0] bcast_S2000000_S2000000x1_0 : (⟨S2000000, .f32⟩ : BufTy).Contents (Elt F) → (⟨S2000000x1, .f32⟩ : BufTy).Contents (Elt F)),
    unary main_v449 main_v450 (broadcastInDim S2000000x3 ![0, 1] bcast_S2000000x1_S2000000x3_0_1 : (⟨S2000000x1, .f32⟩ : BufTy).Contents (Elt F) → (⟨S2000000x3, .f32⟩ : BufTy).Contents (Elt F)),
    binary main_v448 main_v450 main_v451 (Host.divf : (⟨S2000000x3, .f32⟩ : BufTy).Contents (Elt F) → (⟨S2000000x3, .f32⟩ : BufTy).Contents (Elt F) → (⟨S2000000x3, .f32⟩ : BufTy).Contents (Elt F)),
    binary main_v438 main_arg3 main_v452 (mulf : (⟨S2000000, .f32⟩ : BufTy).Contents (Elt F) → (⟨S2000000, .f32⟩ : BufTy).Contents (Elt F) → (⟨S2000000, .f32⟩ : BufTy).Contents (Elt F)),
    nullary main_c_133 (constantI S_ 32 3#32),
    unary main_c_133 main_v453 (broadcastInDim S5 ![] bcast_S_S5 : (⟨S_, .i32⟩ : BufTy).Contents (Elt F) → (⟨S5, .i32⟩ : BufTy).Contents (Elt F)),
    binary main_c_5 main_v453 main_v454 (addi : (⟨S5, .i32⟩ : BufTy).Contents (Elt F) → (⟨S5, .i32⟩ : BufTy).Contents (Elt F) → (⟨S5, .i32⟩ : BufTy).Contents (Elt F)),
    ternary main_c_6 main_v454 main_c_5 main_v455 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v455 main_v456 (broadcastInDim S5x1 ![0] bcast_S5_S5x1_0 : (⟨S5, .i32⟩ : BufTy).Contents (Elt F) → (⟨S5x1, .i32⟩ : BufTy).Contents (Elt F)),
    binary main_v301 main_v456 main_v457 ((fun x i => Host.gather gather_S2000000x3_S5x1_S2000000x5_0_1_n_n_1_1_20000001 x i) : (⟨S2000000x3, .f32⟩ : BufTy).Contents (Elt F) → (⟨S5x1, .i32⟩ : BufTy).Contents (Elt F) → (⟨S2000000x5, .f32⟩ : BufTy).Contents (Elt F)),
    unary main_cst_4 main_v458 (broadcastInDim S1x5 ![1] bcast_S5_S1x5_1 : (⟨S5, .f32⟩ : BufTy).Contents (Elt F) → (⟨S1x5, .f32⟩ : BufTy).Contents (Elt F)),
    unary main_v458 main_v459 (broadcastInDim S2000000x5 ![0, 1] bcast_S1x5_S2000000x5_0_1 : (⟨S1x5, .f32⟩ : BufTy).Contents (Elt F) → (⟨S2000000x5, .f32⟩ : BufTy).Contents (Elt F)),
    binary main_v459 main_v457 main_v460 (mulf : (⟨S2000000x5, .f32⟩ : BufTy).Contents (Elt F) → (⟨S2000000x5, .f32⟩ : BufTy).Contents (Elt F) → (⟨S2000000x5, .f32⟩ : BufTy).Contents (Elt F)),
    unary main_v424 main_v461 ((extractStridedSlice S2000000x5 ![0, 6] · slices_S2000000x17_S2000000x5_0_6) : (⟨S2000000x17, .f32⟩ : BufTy).Contents (Elt F) → (⟨S2000000x5, .f32⟩ : BufTy).Contents (Elt F)),
    binary main_v460 main_v461 main_v462 (mulf : (⟨S2000000x5, .f32⟩ : BufTy).Contents (Elt F) → (⟨S2000000x5, .f32⟩ : BufTy).Contents (Elt F) → (⟨S2000000x5, .f32⟩ : BufTy).Contents (Elt F)),
    unary main_v452 main_v463 (broadcastInDim S2000000x1 ![0] bcast_S2000000_S2000000x1_0 : (⟨S2000000, .f32⟩ : BufTy).Contents (Elt F) → (⟨S2000000x1, .f32⟩ : BufTy).Contents (Elt F)) ]

/-- What window 9's operations write, in order. -/
abbrev W9 : List (Ref sig .tc) :=
  [main_v410, main_v411, main_v412, main_v413, main_v414, main_v415, main_v416, main_v417, main_v418, main_cst_128, main_v419, main_v420, main_cst_129, main_v421, main_v422, main_v423, main_v424, main_cst_130, main_v425, main_c_131, main_v426, main_v427, main_v428, main_v429, main_v430, main_v431, main_v432, main_v433, main_v434, main_v435, main_v436, main_v437, main_v438, main_c_132, main_v439, main_v440, main_v441, main_v442, main_v443, main_v444, main_v445, main_v446, main_v447, main_v448, main_v449, main_v450, main_v451, main_v452, main_c_133, main_v453, main_v454, main_v455, main_v456, main_v457, main_v458, main_v459, main_v460, main_v461, main_v462, main_v463]

/-- Window 10: 60 operations. -/
abbrev ops10 : List (HloOp τ sig (Elt F)) :=
  [ unary main_v463 main_v464 (broadcastInDim S2000000x5 ![0, 1] bcast_S2000000x1_S2000000x5_0_1 : (⟨S2000000x1, .f32⟩ : BufTy).Contents (Elt F) → (⟨S2000000x5, .f32⟩ : BufTy).Contents (Elt F)),
    binary main_v462 main_v464 main_v465 (Host.divf : (⟨S2000000x5, .f32⟩ : BufTy).Contents (Elt F) → (⟨S2000000x5, .f32⟩ : BufTy).Contents (Elt F) → (⟨S2000000x5, .f32⟩ : BufTy).Contents (Elt F)),
    binary main_v452 main_arg3 main_v466 (mulf : (⟨S2000000, .f32⟩ : BufTy).Contents (Elt F) → (⟨S2000000, .f32⟩ : BufTy).Contents (Elt F) → (⟨S2000000, .f32⟩ : BufTy).Contents (Elt F)),
    nullary main_c_134 (constantI S_ 32 4#32),
    unary main_c_134 main_v467 (broadcastInDim S7 ![] bcast_S_S7 : (⟨S_, .i32⟩ : BufTy).Contents (Elt F) → (⟨S7, .i32⟩ : BufTy).Contents (Elt F)),
    binary main_c_8 main_v467 main_v468 (addi : (⟨S7, .i32⟩ : BufTy).Contents (Elt F) → (⟨S7, .i32⟩ : BufTy).Contents (Elt F) → (⟨S7, .i32⟩ : BufTy).Contents (Elt F)),
    ternary main_c_9 main_v468 main_c_8 main_v469 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v469 main_v470 (broadcastInDim S7x1 ![0] bcast_S7_S7x1_0 : (⟨S7, .i32⟩ : BufTy).Contents (Elt F) → (⟨S7x1, .i32⟩ : BufTy).Contents (Elt F)),
    binary main_v306 main_v470 main_v471 ((fun x i => Host.gather gather_S2000000x4_S7x1_S2000000x7_0_1_n_n_1_1_20000001 x i) : (⟨S2000000x4, .f32⟩ : BufTy).Contents (Elt F) → (⟨S7x1, .i32⟩ : BufTy).Contents (Elt F) → (⟨S2000000x7, .f32⟩ : BufTy).Contents (Elt F)),
    unary main_cst_7 main_v472 (broadcastInDim S1x7 ![1] bcast_S7_S1x7_1 : (⟨S7, .f32⟩ : BufTy).Contents (Elt F) → (⟨S1x7, .f32⟩ : BufTy).Contents (Elt F)),
    unary main_v472 main_v473 (broadcastInDim S2000000x7 ![0, 1] bcast_S1x7_S2000000x7_0_1 : (⟨S1x7, .f32⟩ : BufTy).Contents (Elt F) → (⟨S2000000x7, .f32⟩ : BufTy).Contents (Elt F)),
    binary main_v473 main_v471 main_v474 (mulf : (⟨S2000000x7, .f32⟩ : BufTy).Contents (Elt F) → (⟨S2000000x7, .f32⟩ : BufTy).Contents (Elt F) → (⟨S2000000x7, .f32⟩ : BufTy).Contents (Elt F)),
    unary main_v424 main_v475 ((extractStridedSlice S2000000x7 ![0, 5] · slices_S2000000x17_S2000000x7_0_5) : (⟨S2000000x17, .f32⟩ : BufTy).Contents (Elt F) → (⟨S2000000x7, .f32⟩ : BufTy).Contents (Elt F)),
    binary main_v474 main_v475 main_v476 (mulf : (⟨S2000000x7, .f32⟩ : BufTy).Contents (Elt F) → (⟨S2000000x7, .f32⟩ : BufTy).Contents (Elt F) → (⟨S2000000x7, .f32⟩ : BufTy).Contents (Elt F)),
    unary main_v466 main_v477 (broadcastInDim S2000000x1 ![0] bcast_S2000000_S2000000x1_0 : (⟨S2000000, .f32⟩ : BufTy).Contents (Elt F) → (⟨S2000000x1, .f32⟩ : BufTy).Contents (Elt F)),
    unary main_v477 main_v478 (broadcastInDim S2000000x7 ![0, 1] bcast_S2000000x1_S2000000x7_0_1 : (⟨S2000000x1, .f32⟩ : BufTy).Contents (Elt F) → (⟨S2000000x7, .f32⟩ : BufTy).Contents (Elt F)),
    binary main_v476 main_v478 main_v479 (Host.divf : (⟨S2000000x7, .f32⟩ : BufTy).Contents (Elt F) → (⟨S2000000x7, .f32⟩ : BufTy).Contents (Elt F) → (⟨S2000000x7, .f32⟩ : BufTy).Contents (Elt F)),
    binary main_v466 main_arg3 main_v480 (mulf : (⟨S2000000, .f32⟩ : BufTy).Contents (Elt F) → (⟨S2000000, .f32⟩ : BufTy).Contents (Elt F) → (⟨S2000000, .f32⟩ : BufTy).Contents (Elt F)),
    nullary main_c_135 (constantI S_ 32 5#32),
    unary main_c_135 main_v481 (broadcastInDim S9 ![] bcast_S_S9 : (⟨S_, .i32⟩ : BufTy).Contents (Elt F) → (⟨S9, .i32⟩ : BufTy).Contents (Elt F)),
    binary main_c_11 main_v481 main_v482 (addi : (⟨S9, .i32⟩ : BufTy).Contents (Elt F) → (⟨S9, .i32⟩ : BufTy).Contents (Elt F) → (⟨S9, .i32⟩ : BufTy).Contents (Elt F)),
    ternary main_c_12 main_v482 main_c_11 main_v483 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    unary main_v483 main_v484 (broadcastInDim S9x1 ![0] bcast_S9_S9x1_0 : (⟨S9, .i32⟩ : BufTy).Contents (Elt F) → (⟨S9x1, .i32⟩ : BufTy).Contents (Elt F)),
    binary main_v312 main_v484 main_v485 ((fun x i => Host.gather gather_S2000000x5_S9x1_S2000000x9_0_1_n_n_1_1_20000001 x i) : (⟨S2000000x5, .f32⟩ : BufTy).Contents (Elt F) → (⟨S9x1, .i32⟩ : BufTy).Contents (Elt F) → (⟨S2000000x9, .f32⟩ : BufTy).Contents (Elt F)),
    unary main_cst_10 main_v486 (broadcastInDim S1x9 ![1] bcast_S9_S1x9_1 : (⟨S9, .f32⟩ : BufTy).Contents (Elt F) → (⟨S1x9, .f32⟩ : BufTy).Contents (Elt F)),
    unary main_v486 main_v487 (broadcastInDim S2000000x9 ![0, 1] bcast_S1x9_S2000000x9_0_1 : (⟨S1x9, .f32⟩ : BufTy).Contents (Elt F) → (⟨S2000000x9, .f32⟩ : BufTy).Contents (Elt F)),
    binary main_v487 main_v485 main_v488 (mulf : (⟨S2000000x9, .f32⟩ : BufTy).Contents (Elt F) → (⟨S2000000x9, .f32⟩ : BufTy).Contents (Elt F) → (⟨S2000000x9, .f32⟩ : BufTy).Contents (Elt F)),
    unary main_v424 main_v489 ((extractStridedSlice S2000000x9 ![0, 4] · slices_S2000000x17_S2000000x9_0_4) : (⟨S2000000x17, .f32⟩ : BufTy).Contents (Elt F) → (⟨S2000000x9, .f32⟩ : BufTy).Contents (Elt F)),
    binary main_v488 main_v489 main_v490 (mulf : (⟨S2000000x9, .f32⟩ : BufTy).Contents (Elt F) → (⟨S2000000x9, .f32⟩ : BufTy).Contents (Elt F) → (⟨S2000000x9, .f32⟩ : BufTy).Contents (Elt F)),
    unary main_v480 main_v491 (broadcastInDim S2000000x1 ![0] bcast_S2000000_S2000000x1_0 : (⟨S2000000, .f32⟩ : BufTy).Contents (Elt F) → (⟨S2000000x1, .f32⟩ : BufTy).Contents (Elt F)),
    unary main_v491 main_v492 (broadcastInDim S2000000x9 ![0, 1] bcast_S2000000x1_S2000000x9_0_1 : (⟨S2000000x1, .f32⟩ : BufTy).Contents (Elt F) → (⟨S2000000x9, .f32⟩ : BufTy).Contents (Elt F)),
    binary main_v490 main_v492 main_v493 (Host.divf : (⟨S2000000x9, .f32⟩ : BufTy).Contents (Elt F) → (⟨S2000000x9, .f32⟩ : BufTy).Contents (Elt F) → (⟨S2000000x9, .f32⟩ : BufTy).Contents (Elt F)),
    binary main_v480 main_arg3 main_v494 (mulf : (⟨S2000000, .f32⟩ : BufTy).Contents (Elt F) → (⟨S2000000, .f32⟩ : BufTy).Contents (Elt F) → (⟨S2000000, .f32⟩ : BufTy).Contents (Elt F)),
    nullary main_c_136 (constantI S_ 32 6#32),
    unary main_c_136 main_v495 (broadcastInDim S11 ![] bcast_S_S11 : (⟨S_, .i32⟩ : BufTy).Contents (Elt F) → (⟨S11, .i32⟩ : BufTy).Contents (Elt F)),
    binary main_c_14 main_v495 main_v496 (addi : (⟨S11, .i32⟩ : BufTy).Contents (Elt F) → (⟨S11, .i32⟩ : BufTy).Contents (Elt F) → (⟨S11, .i32⟩ : BufTy).Contents (Elt F)),
    ternary main_c_15 main_v496 main_c_14 main_v497 (select : (⟨S11, .i1⟩ : BufTy).Contents (Elt F) → (⟨S11, .i32⟩ : BufTy).Contents (Elt F) → (⟨S11, .i32⟩ : BufTy).Contents (Elt F) → (⟨S11, .i32⟩ : BufTy).Contents (Elt F)),
    unary main_v497 main_v498 (broadcastInDim S11x1 ![0] bcast_S11_S11x1_0 : (⟨S11, .i32⟩ : BufTy).Contents (Elt F) → (⟨S11x1, .i32⟩ : BufTy).Contents (Elt F)),
    binary main_v319 main_v498 main_v499 ((fun x i => Host.gather gather_S2000000x6_S11x1_S2000000x11_0_1_n_n_1_1_20000001 x i) : (⟨S2000000x6, .f32⟩ : BufTy).Contents (Elt F) → (⟨S11x1, .i32⟩ : BufTy).Contents (Elt F) → (⟨S2000000x11, .f32⟩ : BufTy).Contents (Elt F)),
    unary main_cst_13 main_v500 (broadcastInDim S1x11 ![1] bcast_S11_S1x11_1 : (⟨S11, .f32⟩ : BufTy).Contents (Elt F) → (⟨S1x11, .f32⟩ : BufTy).Contents (Elt F)),
    unary main_v500 main_v501 (broadcastInDim S2000000x11 ![0, 1] bcast_S1x11_S2000000x11_0_1 : (⟨S1x11, .f32⟩ : BufTy).Contents (Elt F) → (⟨S2000000x11, .f32⟩ : BufTy).Contents (Elt F)),
    binary main_v501 main_v499 main_v502 (mulf : (⟨S2000000x11, .f32⟩ : BufTy).Contents (Elt F) → (⟨S2000000x11, .f32⟩ : BufTy).Contents (Elt F) → (⟨S2000000x11, .f32⟩ : BufTy).Contents (Elt F)),
    unary main_v424 main_v503 ((extractStridedSlice S2000000x11 ![0, 3] · slices_S2000000x17_S2000000x11_0_3) : (⟨S2000000x17, .f32⟩ : BufTy).Contents (Elt F) → (⟨S2000000x11, .f32⟩ : BufTy).Contents (Elt F)),
    binary main_v502 main_v503 main_v504 (mulf : (⟨S2000000x11, .f32⟩ : BufTy).Contents (Elt F) → (⟨S2000000x11, .f32⟩ : BufTy).Contents (Elt F) → (⟨S2000000x11, .f32⟩ : BufTy).Contents (Elt F)),
    unary main_v494 main_v505 (broadcastInDim S2000000x1 ![0] bcast_S2000000_S2000000x1_0 : (⟨S2000000, .f32⟩ : BufTy).Contents (Elt F) → (⟨S2000000x1, .f32⟩ : BufTy).Contents (Elt F)),
    unary main_v505 main_v506 (broadcastInDim S2000000x11 ![0, 1] bcast_S2000000x1_S2000000x11_0_1 : (⟨S2000000x1, .f32⟩ : BufTy).Contents (Elt F) → (⟨S2000000x11, .f32⟩ : BufTy).Contents (Elt F)),
    binary main_v504 main_v506 main_v507 (Host.divf : (⟨S2000000x11, .f32⟩ : BufTy).Contents (Elt F) → (⟨S2000000x11, .f32⟩ : BufTy).Contents (Elt F) → (⟨S2000000x11, .f32⟩ : BufTy).Contents (Elt F)),
    binary main_v494 main_arg3 main_v508 (mulf : (⟨S2000000, .f32⟩ : BufTy).Contents (Elt F) → (⟨S2000000, .f32⟩ : BufTy).Contents (Elt F) → (⟨S2000000, .f32⟩ : BufTy).Contents (Elt F)),
    nullary main_c_137 (constantI S_ 32 7#32),
    unary main_c_137 main_v509 (broadcastInDim S13 ![] bcast_S_S13 : (⟨S_, .i32⟩ : BufTy).Contents (Elt F) → (⟨S13, .i32⟩ : BufTy).Contents (Elt F)),
    binary main_c_17 main_v509 main_v510 (addi : (⟨S13, .i32⟩ : BufTy).Contents (Elt F) → (⟨S13, .i32⟩ : BufTy).Contents (Elt F) → (⟨S13, .i32⟩ : BufTy).Contents (Elt F)),
    ternary main_c_18 main_v510 main_c_17 main_v511 (select : (⟨S13, .i1⟩ : BufTy).Contents (Elt F) → (⟨S13, .i32⟩ : BufTy).Contents (Elt F) → (⟨S13, .i32⟩ : BufTy).Contents (Elt F) → (⟨S13, .i32⟩ : BufTy).Contents (Elt F)),
    unary main_v511 main_v512 (broadcastInDim S13x1 ![0] bcast_S13_S13x1_0 : (⟨S13, .i32⟩ : BufTy).Contents (Elt F) → (⟨S13x1, .i32⟩ : BufTy).Contents (Elt F)),
    binary main_v327 main_v512 main_v513 ((fun x i => Host.gather gather_S2000000x7_S13x1_S2000000x13_0_1_n_n_1_1_20000001 x i) : (⟨S2000000x7, .f32⟩ : BufTy).Contents (Elt F) → (⟨S13x1, .i32⟩ : BufTy).Contents (Elt F) → (⟨S2000000x13, .f32⟩ : BufTy).Contents (Elt F)),
    unary main_cst_16 main_v514 (broadcastInDim S1x13 ![1] bcast_S13_S1x13_1 : (⟨S13, .f32⟩ : BufTy).Contents (Elt F) → (⟨S1x13, .f32⟩ : BufTy).Contents (Elt F)),
    unary main_v514 main_v515 (broadcastInDim S2000000x13 ![0, 1] bcast_S1x13_S2000000x13_0_1 : (⟨S1x13, .f32⟩ : BufTy).Contents (Elt F) → (⟨S2000000x13, .f32⟩ : BufTy).Contents (Elt F)),
    binary main_v515 main_v513 main_v516 (mulf : (⟨S2000000x13, .f32⟩ : BufTy).Contents (Elt F) → (⟨S2000000x13, .f32⟩ : BufTy).Contents (Elt F) → (⟨S2000000x13, .f32⟩ : BufTy).Contents (Elt F)),
    unary main_v424 main_v517 ((extractStridedSlice S2000000x13 ![0, 2] · slices_S2000000x17_S2000000x13_0_2) : (⟨S2000000x17, .f32⟩ : BufTy).Contents (Elt F) → (⟨S2000000x13, .f32⟩ : BufTy).Contents (Elt F)),
    binary main_v516 main_v517 main_v518 (mulf : (⟨S2000000x13, .f32⟩ : BufTy).Contents (Elt F) → (⟨S2000000x13, .f32⟩ : BufTy).Contents (Elt F) → (⟨S2000000x13, .f32⟩ : BufTy).Contents (Elt F)),
    unary main_v508 main_v519 (broadcastInDim S2000000x1 ![0] bcast_S2000000_S2000000x1_0 : (⟨S2000000, .f32⟩ : BufTy).Contents (Elt F) → (⟨S2000000x1, .f32⟩ : BufTy).Contents (Elt F)) ]

/-- What window 10's operations write, in order. -/
abbrev W10 : List (Ref sig .tc) :=
  [main_v464, main_v465, main_v466, main_c_134, main_v467, main_v468, main_v469, main_v470, main_v471, main_v472, main_v473, main_v474, main_v475, main_v476, main_v477, main_v478, main_v479, main_v480, main_c_135, main_v481, main_v482, main_v483, main_v484, main_v485, main_v486, main_v487, main_v488, main_v489, main_v490, main_v491, main_v492, main_v493, main_v494, main_c_136, main_v495, main_v496, main_v497, main_v498, main_v499, main_v500, main_v501, main_v502, main_v503, main_v504, main_v505, main_v506, main_v507, main_v508, main_c_137, main_v509, main_v510, main_v511, main_v512, main_v513, main_v514, main_v515, main_v516, main_v517, main_v518, main_v519]

/-- Window 11: 32 operations. -/
abbrev ops11 : List (HloOp τ sig (Elt F)) :=
  [ unary main_v519 main_v520 (broadcastInDim S2000000x13 ![0, 1] bcast_S2000000x1_S2000000x13_0_1 : (⟨S2000000x1, .f32⟩ : BufTy).Contents (Elt F) → (⟨S2000000x13, .f32⟩ : BufTy).Contents (Elt F)),
    binary main_v518 main_v520 main_v521 (Host.divf : (⟨S2000000x13, .f32⟩ : BufTy).Contents (Elt F) → (⟨S2000000x13, .f32⟩ : BufTy).Contents (Elt F) → (⟨S2000000x13, .f32⟩ : BufTy).Contents (Elt F)),
    binary main_v508 main_arg3 main_v522 (mulf : (⟨S2000000, .f32⟩ : BufTy).Contents (Elt F) → (⟨S2000000, .f32⟩ : BufTy).Contents (Elt F) → (⟨S2000000, .f32⟩ : BufTy).Contents (Elt F)),
    nullary main_c_138 (constantI S_ 32 8#32),
    unary main_c_138 main_v523 (broadcastInDim S15 ![] bcast_S_S15 : (⟨S_, .i32⟩ : BufTy).Contents (Elt F) → (⟨S15, .i32⟩ : BufTy).Contents (Elt F)),
    binary main_c_20 main_v523 main_v524 (addi : (⟨S15, .i32⟩ : BufTy).Contents (Elt F) → (⟨S15, .i32⟩ : BufTy).Contents (Elt F) → (⟨S15, .i32⟩ : BufTy).Contents (Elt F)),
    ternary main_c_21 main_v524 main_c_20 main_v525 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v525 main_v526 (broadcastInDim S15x1 ![0] bcast_S15_S15x1_0 : (⟨S15, .i32⟩ : BufTy).Contents (Elt F) → (⟨S15x1, .i32⟩ : BufTy).Contents (Elt F)),
    binary main_v336 main_v526 main_v527 ((fun x i => Host.gather gather_S2000000x8_S15x1_S2000000x15_0_1_n_n_1_1_20000001 x i) : (⟨S2000000x8, .f32⟩ : BufTy).Contents (Elt F) → (⟨S15x1, .i32⟩ : BufTy).Contents (Elt F) → (⟨S2000000x15, .f32⟩ : BufTy).Contents (Elt F)),
    unary main_cst_19 main_v528 (broadcastInDim S1x15 ![1] bcast_S15_S1x15_1 : (⟨S15, .f32⟩ : BufTy).Contents (Elt F) → (⟨S1x15, .f32⟩ : BufTy).Contents (Elt F)),
    unary main_v528 main_v529 (broadcastInDim S2000000x15 ![0, 1] bcast_S1x15_S2000000x15_0_1 : (⟨S1x15, .f32⟩ : BufTy).Contents (Elt F) → (⟨S2000000x15, .f32⟩ : BufTy).Contents (Elt F)),
    binary main_v529 main_v527 main_v530 (mulf : (⟨S2000000x15, .f32⟩ : BufTy).Contents (Elt F) → (⟨S2000000x15, .f32⟩ : BufTy).Contents (Elt F) → (⟨S2000000x15, .f32⟩ : BufTy).Contents (Elt F)),
    unary main_v424 main_v531 ((extractStridedSlice S2000000x15 ![0, 1] · slices_S2000000x17_S2000000x15_0_1) : (⟨S2000000x17, .f32⟩ : BufTy).Contents (Elt F) → (⟨S2000000x15, .f32⟩ : BufTy).Contents (Elt F)),
    binary main_v530 main_v531 main_v532 (mulf : (⟨S2000000x15, .f32⟩ : BufTy).Contents (Elt F) → (⟨S2000000x15, .f32⟩ : BufTy).Contents (Elt F) → (⟨S2000000x15, .f32⟩ : BufTy).Contents (Elt F)),
    unary main_v522 main_v533 (broadcastInDim S2000000x1 ![0] bcast_S2000000_S2000000x1_0 : (⟨S2000000, .f32⟩ : BufTy).Contents (Elt F) → (⟨S2000000x1, .f32⟩ : BufTy).Contents (Elt F)),
    unary main_v533 main_v534 (broadcastInDim S2000000x15 ![0, 1] bcast_S2000000x1_S2000000x15_0_1 : (⟨S2000000x1, .f32⟩ : BufTy).Contents (Elt F) → (⟨S2000000x15, .f32⟩ : BufTy).Contents (Elt F)),
    binary main_v532 main_v534 main_v535 (Host.divf : (⟨S2000000x15, .f32⟩ : BufTy).Contents (Elt F) → (⟨S2000000x15, .f32⟩ : BufTy).Contents (Elt F) → (⟨S2000000x15, .f32⟩ : BufTy).Contents (Elt F)),
    binary main_v522 main_arg3 main_v536 (mulf : (⟨S2000000, .f32⟩ : BufTy).Contents (Elt F) → (⟨S2000000, .f32⟩ : BufTy).Contents (Elt F) → (⟨S2000000, .f32⟩ : BufTy).Contents (Elt F)),
    nullary main_c_139 (constantI S_ 32 9#32),
    unary main_c_139 main_v537 (broadcastInDim S17 ![] bcast_S_S17 : (⟨S_, .i32⟩ : BufTy).Contents (Elt F) → (⟨S17, .i32⟩ : BufTy).Contents (Elt F)),
    binary main_c_23 main_v537 main_v538 (addi : (⟨S17, .i32⟩ : BufTy).Contents (Elt F) → (⟨S17, .i32⟩ : BufTy).Contents (Elt F) → (⟨S17, .i32⟩ : BufTy).Contents (Elt F)),
    ternary main_c_24 main_v538 main_c_23 main_v539 (select : (⟨S17, .i1⟩ : BufTy).Contents (Elt F) → (⟨S17, .i32⟩ : BufTy).Contents (Elt F) → (⟨S17, .i32⟩ : BufTy).Contents (Elt F) → (⟨S17, .i32⟩ : BufTy).Contents (Elt F)),
    unary main_v539 main_v540 (broadcastInDim S17x1 ![0] bcast_S17_S17x1_0 : (⟨S17, .i32⟩ : BufTy).Contents (Elt F) → (⟨S17x1, .i32⟩ : BufTy).Contents (Elt F)),
    binary main_v346 main_v540 main_v541 ((fun x i => Host.gather gather_S2000000x9_S17x1_S2000000x17_0_1_n_n_1_1_20000001 x i) : (⟨S2000000x9, .f32⟩ : BufTy).Contents (Elt F) → (⟨S17x1, .i32⟩ : BufTy).Contents (Elt F) → (⟨S2000000x17, .f32⟩ : BufTy).Contents (Elt F)),
    unary main_cst_22 main_v542 (broadcastInDim S1x17 ![1] bcast_S17_S1x17_1 : (⟨S17, .f32⟩ : BufTy).Contents (Elt F) → (⟨S1x17, .f32⟩ : BufTy).Contents (Elt F)),
    unary main_v542 main_v543 (broadcastInDim S2000000x17 ![0, 1] bcast_S1x17_S2000000x17_0_1 : (⟨S1x17, .f32⟩ : BufTy).Contents (Elt F) → (⟨S2000000x17, .f32⟩ : BufTy).Contents (Elt F)),
    binary main_v543 main_v541 main_v544 (mulf : (⟨S2000000x17, .f32⟩ : BufTy).Contents (Elt F) → (⟨S2000000x17, .f32⟩ : BufTy).Contents (Elt F) → (⟨S2000000x17, .f32⟩ : BufTy).Contents (Elt F)),
    binary main_v544 main_v424 main_v545 (mulf : (⟨S2000000x17, .f32⟩ : BufTy).Contents (Elt F) → (⟨S2000000x17, .f32⟩ : BufTy).Contents (Elt F) → (⟨S2000000x17, .f32⟩ : BufTy).Contents (Elt F)),
    unary main_v536 main_v546 (broadcastInDim S2000000x1 ![0] bcast_S2000000_S2000000x1_0 : (⟨S2000000, .f32⟩ : BufTy).Contents (Elt F) → (⟨S2000000x1, .f32⟩ : BufTy).Contents (Elt F)),
    unary main_v546 main_v547 (broadcastInDim S2000000x17 ![0, 1] bcast_S2000000x1_S2000000x17_0_1 : (⟨S2000000x1, .f32⟩ : BufTy).Contents (Elt F) → (⟨S2000000x17, .f32⟩ : BufTy).Contents (Elt F)),
    binary main_v545 main_v547 main_v548 (Host.divf : (⟨S2000000x17, .f32⟩ : BufTy).Contents (Elt F) → (⟨S2000000x17, .f32⟩ : BufTy).Contents (Elt F) → (⟨S2000000x17, .f32⟩ : BufTy).Contents (Elt F)),
    binary main_v536 main_arg3 main_v549 (mulf : (⟨S2000000, .f32⟩ : BufTy).Contents (Elt F) → (⟨S2000000, .f32⟩ : BufTy).Contents (Elt F) → (⟨S2000000, .f32⟩ : BufTy).Contents (Elt F)) ]

/-- What window 11's operations write, in order. -/
abbrev W11 : List (Ref sig .tc) :=
  [main_v520, main_v521, main_v522, main_c_138, main_v523, main_v524, main_v525, main_v526, main_v527, main_v528, main_v529, main_v530, main_v531, main_v532, main_v533, main_v534, main_v535, main_v536, main_c_139, main_v537, main_v538, main_v539, main_v540, main_v541, main_v542, main_v543, main_v544, main_v545, main_v546, main_v547, main_v548, main_v549]

/-- The whole line: 692 operations. -/
def ops : List (HloOp τ sig (Elt F)) := ops0 ++ (ops1 ++ (ops2 ++ (ops3 ++ (ops4 ++ (ops5 ++ (ops6 ++ (ops7 ++ (ops8 ++ (ops9 ++ (ops10 ++ (ops11)))))))))))

/-- Every reference the line writes, in order. -/
def W : List (Ref sig .tc) := W0 ++ (W1 ++ (W2 ++ (W3 ++ (W4 ++ (W5 ++ (W6 ++ (W7 ++ (W8 ++ (W9 ++ (W10 ++ (W11)))))))))))

end Cert.ReferenceIdeal.Line

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«118161_j37666863186375_1_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.RefWin0.lean ====
/- Window 0 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part0_eq (d : Dev nD) : main_part0 (F := F) d = seq ops0 := rfl

theorem writes0 : Writes (ops0 (F := F)) W0 := by line_writes

theorem sub0 : (ops0 : List (HloOp τ sig (Elt F))).Forall fun op => op.bufs ⊆ tcRefs τ sig := by line_sub

theorem fresh0 : (ops0 : List (HloOp τ sig (Elt F))).Forall fun op => op.fresh = ∅ := by line_fresh

end Cert.ReferenceIdeal.Line

end
-- ==== Proof.RefWin1.lean ====
/- Window 1 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part1_eq (d : Dev nD) : main_part1 (F := F) d = seq ops1 := rfl

theorem writes1 : Writes (ops1 (F := F)) W1 := by line_writes

theorem sub1 : (ops1 : List (HloOp τ sig (Elt F))).Forall fun op => op.bufs ⊆ tcRefs τ sig := by line_sub

theorem fresh1 : (ops1 : List (HloOp τ sig (Elt F))).Forall fun op => op.fresh = ∅ := by line_fresh

end Cert.ReferenceIdeal.Line

end
-- ==== Proof.RefWin2.lean ====
/- Window 2 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part2_eq (d : Dev nD) : main_part2 (F := F) d = seq ops2 := rfl

theorem writes2 : Writes (ops2 (F := F)) W2 := by line_writes

theorem sub2 : (ops2 : List (HloOp τ sig (Elt F))).Forall fun op => op.bufs ⊆ tcRefs τ sig := by line_sub

theorem fresh2 : (ops2 : List (HloOp τ sig (Elt F))).Forall fun op => op.fresh = ∅ := by line_fresh

end Cert.ReferenceIdeal.Line

end
-- ==== Proof.RefWin3.lean ====
/- Window 3 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part3_eq (d : Dev nD) : main_part3 (F := F) d = seq ops3 := rfl

theorem writes3 : Writes (ops3 (F := F)) W3 := by line_writes

theorem sub3 : (ops3 : List (HloOp τ sig (Elt F))).Forall fun op => op.bufs ⊆ tcRefs τ sig := by line_sub

theorem fresh3 : (ops3 : List (HloOp τ sig (Elt F))).Forall fun op => op.fresh = ∅ := by line_fresh

end Cert.ReferenceIdeal.Line

end
-- ==== Proof.RefWin4.lean ====
/- Window 4 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part4_eq (d : Dev nD) : main_part4 (F := F) d = seq ops4 := rfl

theorem writes4 : Writes (ops4 (F := F)) W4 := by line_writes

theorem sub4 : (ops4 : List (HloOp τ sig (Elt F))).Forall fun op => op.bufs ⊆ tcRefs τ sig := by line_sub

theorem fresh4 : (ops4 : List (HloOp τ sig (Elt F))).Forall fun op => op.fresh = ∅ := by line_fresh

end Cert.ReferenceIdeal.Line

end
-- ==== Proof.RefWin5.lean ====
/- Window 5 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part5_eq (d : Dev nD) : main_part5 (F := F) d = seq ops5 := rfl

theorem writes5 : Writes (ops5 (F := F)) W5 := by line_writes

theorem sub5 : (ops5 : List (HloOp τ sig (Elt F))).Forall fun op => op.bufs ⊆ tcRefs τ sig := by line_sub

theorem fresh5 : (ops5 : List (HloOp τ sig (Elt F))).Forall fun op => op.fresh = ∅ := by line_fresh

end Cert.ReferenceIdeal.Line

end
-- ==== Proof.RefWin6.lean ====
/- Window 6 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part6_eq (d : Dev nD) : main_part6 (F := F) d = seq ops6 := rfl

theorem writes6 : Writes (ops6 (F := F)) W6 := by line_writes

theorem sub6 : (ops6 : List (HloOp τ sig (Elt F))).Forall fun op => op.bufs ⊆ tcRefs τ sig := by line_sub

theorem fresh6 : (ops6 : List (HloOp τ sig (Elt F))).Forall fun op => op.fresh = ∅ := by line_fresh

end Cert.ReferenceIdeal.Line

end
-- ==== Proof.RefWin7.lean ====
/- Window 7 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part7_eq (d : Dev nD) : main_part7 (F := F) d = seq ops7 := rfl

theorem writes7 : Writes (ops7 (F := F)) W7 := by line_writes

theorem sub7 : (ops7 : List (HloOp τ sig (Elt F))).Forall fun op => op.bufs ⊆ tcRefs τ sig := by line_sub

theorem fresh7 : (ops7 : List (HloOp τ sig (Elt F))).Forall fun op => op.fresh = ∅ := by line_fresh

end Cert.ReferenceIdeal.Line

end
-- ==== Proof.RefWin8.lean ====
/- Window 8 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part8_eq (d : Dev nD) : main_part8 (F := F) d = seq ops8 := rfl

theorem writes8 : Writes (ops8 (F := F)) W8 := by line_writes

theorem sub8 : (ops8 : List (HloOp τ sig (Elt F))).Forall fun op => op.bufs ⊆ tcRefs τ sig := by line_sub

theorem fresh8 : (ops8 : List (HloOp τ sig (Elt F))).Forall fun op => op.fresh = ∅ := by line_fresh

end Cert.ReferenceIdeal.Line

end
-- ==== Proof.RefWin9.lean ====
/- Window 9 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part9_eq (d : Dev nD) : main_part9 (F := F) d = seq ops9 := rfl

theorem writes9 : Writes (ops9 (F := F)) W9 := by line_writes

theorem sub9 : (ops9 : List (HloOp τ sig (Elt F))).Forall fun op => op.bufs ⊆ tcRefs τ sig := by line_sub

theorem fresh9 : (ops9 : List (HloOp τ sig (Elt F))).Forall fun op => op.fresh = ∅ := by line_fresh

end Cert.ReferenceIdeal.Line

end
-- ==== Proof.RefWin10.lean ====
/- Window 10 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part10_eq (d : Dev nD) : main_part10 (F := F) d = seq ops10 := rfl

theorem writes10 : Writes (ops10 (F := F)) W10 := by line_writes

theorem sub10 : (ops10 : List (HloOp τ sig (Elt F))).Forall fun op => op.bufs ⊆ tcRefs τ sig := by line_sub

theorem fresh10 : (ops10 : List (HloOp τ sig (Elt F))).Forall fun op => op.fresh = ∅ := by line_fresh

end Cert.ReferenceIdeal.Line

end
-- ==== Proof.RefWin11.lean ====
/- Window 11 of the reference's @main: the printed window is the straight line of its listed operations; each of them touches
   TensorCore references only, allocates nothing, and writes the one reference listed for it. -/
import proofs.«118161_j37666863186375_1_alg».proof.Proof.RefOps
import proofs.«118161_j37666863186375_1_alg».proof.Proof.LibHostLineMore

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

set_option maxRecDepth 8192 in
set_option maxHeartbeats 4000000 in
theorem part11_eq (d : Dev nD) : main_part11 (F := F) d = seq ops11 := rfl

theorem writes11 : Writes (ops11 (F := F)) W11 := by line_writes

theorem sub11 : (ops11 : List (HloOp τ sig (Elt F))).Forall fun op => op.bufs ⊆ tcRefs τ sig := by line_sub

theorem fresh11 : (ops11 : List (HloOp τ sig (Elt F))).Forall fun op => op.fresh = ∅ := by line_fresh

end Cert.ReferenceIdeal.Line

end
-- ==== Proof.RefRun.lean ====
/-
  The reference program's run. Its @main runs its twelve printed windows in order, and each window is the straight line of its
  listed operations, so @main is the straight line of all of them. Every operation of the line touches TensorCore references
  only, allocates nothing, and writes one reference of its own. Hence every weakly fair execution of @main terminates, and
  every buffer ends at what the line leaves in it from the launch contents.
-/
import proofs.«118161_j37666863186375_1_alg».proof.Proof.RefWin0
import proofs.«118161_j37666863186375_1_alg».proof.Proof.RefWin1
import proofs.«118161_j37666863186375_1_alg».proof.Proof.RefWin2
import proofs.«118161_j37666863186375_1_alg».proof.Proof.RefWin3
import proofs.«118161_j37666863186375_1_alg».proof.Proof.RefWin4
import proofs.«118161_j37666863186375_1_alg».proof.Proof.RefWin5
import proofs.«118161_j37666863186375_1_alg».proof.Proof.RefWin6
import proofs.«118161_j37666863186375_1_alg».proof.Proof.RefWin7
import proofs.«118161_j37666863186375_1_alg».proof.Proof.RefWin8
import proofs.«118161_j37666863186375_1_alg».proof.Proof.RefWin9
import proofs.«118161_j37666863186375_1_alg».proof.Proof.RefWin10
import proofs.«118161_j37666863186375_1_alg».proof.Proof.RefWin11

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F]

/-- What holds of every element of two lists holds of every element of their concatenation. -/
theorem forall_append.{u} {α : Type u} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- @main is the line: the windows in order, each the line of its operations. -/
theorem main_eq (d : Dev nD) : main (F := F) d = seq ops := by
  unfold main ops
  rw [part0_eq, part1_eq, part2_eq, part3_eq, part4_eq, part5_eq, part6_eq, part7_eq, part8_eq, part9_eq, part10_eq, part11_eq]
  simp only [seq_append]

/-- Each operation of the line writes the reference listed for it, and nothing else. -/
theorem hW : Writes (ops (F := F)) W := by
  unfold ops W
  exact writes_append writes0 (writes_append writes1 (writes_append writes2 (writes_append writes3 (writes_append writes4 (writes_append writes5 (writes_append writes6 (writes_append writes7 (writes_append writes8 (writes_append writes9 (writes_append writes10 (writes11)))))))))))

/-- The line touches TensorCore references only. -/
theorem ops_sub : (ops : List (HloOp τ sig (Elt F))).Forall fun op => op.bufs ⊆ tcRefs τ sig := by
  unfold ops
  exact forall_append sub0 (forall_append sub1 (forall_append sub2 (forall_append sub3 (forall_append sub4 (forall_append sub5 (forall_append sub6 (forall_append sub7 (forall_append sub8 (forall_append sub9 (forall_append sub10 (sub11)))))))))))

/-- No operation of the line allocates. -/
theorem ops_fresh : ∀ op ∈ (ops : List (HloOp τ sig (Elt F))), op.fresh = ∅ := by
  refine List.forall_iff_forall_mem.mp ?_
  unfold ops
  exact forall_append fresh0 (forall_append fresh1 (forall_append fresh2 (forall_append fresh3 (forall_append fresh4 (forall_append fresh5 (forall_append fresh6 (forall_append fresh7 (forall_append fresh8 (forall_append fresh9 (forall_append fresh10 (fresh11)))))))))))

/-- The program scopes no buffer and no semaphore. -/
theorem scopedRefs_eq : (Finset.univ.filter fun b : Ref sig .tc => b.isScoped) = ∅ := by decide +kernel
theorem scopedSems_eq : (Finset.univ.filter fun sm : SemLoc sig => sm.isScoped .tc) = ∅ := by decide +kernel

/-- On every device, for any float values, from any memory with zero counters: every weakly fair execution of @main
    terminates with every TensorCore buffer at what the line leaves in it from the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Line

end
-- ==== Proof.RefRead0.lean ====
/- Window 0 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_cst : after ops V (Proc.devRef .tc main_cst) = (constant S1 .f32 0x3ECC422A#32) :=
  nullary_at hW V 0 main_cst (constant S1 .f32 0x3ECC422A#32) _ rfl (by decide +kernel)
theorem rd_main_c : after ops V (Proc.devRef .tc main_c) = (constantI S1 32 0#32) :=
  nullary_at hW V 1 main_c (constantI S1 32 0#32) _ rfl (by decide +kernel)
theorem rd_main_c_0 : after ops V (Proc.devRef .tc main_c_0) = (constantI S1 1 0#1) :=
  nullary_at hW V 2 main_c_0 (constantI S1 1 0#1) _ rfl (by decide +kernel)
theorem rd_main_cst_1 : after ops V (Proc.devRef .tc main_cst_1) = (fun i => FloatOps.ofBits .f32 (lit0 (S3.rowMajor i))) :=
  nullary_at hW V 3 main_cst_1 (fun i => FloatOps.ofBits .f32 (lit0 (S3.rowMajor i))) _ rfl (by decide +kernel)
theorem rd_main_c_2 : after ops V (Proc.devRef .tc main_c_2) = (fun i => lit1 (S3.rowMajor i)) :=
  nullary_at hW V 4 main_c_2 (fun i => lit1 (S3.rowMajor i)) _ rfl (by decide +kernel)
theorem rd_main_c_3 : after ops V (Proc.devRef .tc main_c_3) = (constantI S3 1 0#1) :=
  nullary_at hW V 5 main_c_3 (constantI S3 1 0#1) _ rfl (by decide +kernel)
theorem rd_main_cst_4 : after ops V (Proc.devRef .tc main_cst_4) = (fun i => FloatOps.ofBits .f32 (lit2 (S5.rowMajor i))) :=
  nullary_at hW V 6 main_cst_4 (fun i => FloatOps.ofBits .f32 (lit2 (S5.rowMajor i))) _ rfl (by decide +kernel)
theorem rd_main_c_5 : after ops V (Proc.devRef .tc main_c_5) = (fun i => lit3 (S5.rowMajor i)) :=
  nullary_at hW V 7 main_c_5 (fun i => lit3 (S5.rowMajor i)) _ rfl (by decide +kernel)
theorem rd_main_c_6 : after ops V (Proc.devRef .tc main_c_6) = (constantI S5 1 0#1) :=
  nullary_at hW V 8 main_c_6 (constantI S5 1 0#1) _ rfl (by decide +kernel)
theorem rd_main_cst_7 : after ops V (Proc.devRef .tc main_cst_7) = (fun i => FloatOps.ofBits .f32 (lit4 (S7.rowMajor i))) :=
  nullary_at hW V 9 main_cst_7 (fun i => FloatOps.ofBits .f32 (lit4 (S7.rowMajor i))) _ rfl (by decide +kernel)
theorem rd_main_c_8 : after ops V (Proc.devRef .tc main_c_8) = (fun i => lit5 (S7.rowMajor i)) :=
  nullary_at hW V 10 main_c_8 (fun i => lit5 (S7.rowMajor i)) _ rfl (by decide +kernel)
theorem rd_main_c_9 : after ops V (Proc.devRef .tc main_c_9) = (constantI S7 1 0#1) :=
  nullary_at hW V 11 main_c_9 (constantI S7 1 0#1) _ rfl (by decide +kernel)
theorem rd_main_cst_10 : after ops V (Proc.devRef .tc main_cst_10) = (fun i => FloatOps.ofBits .f32 (lit6 (S9.rowMajor i))) :=
  nullary_at hW V 12 main_cst_10 (fun i => FloatOps.ofBits .f32 (lit6 (S9.rowMajor i))) _ rfl (by decide +kernel)
theorem rd_main_c_11 : after ops V (Proc.devRef .tc main_c_11) = (fun i => lit7 (S9.rowMajor i)) :=
  nullary_at hW V 13 main_c_11 (fun i => lit7 (S9.rowMajor i)) _ rfl (by decide +kernel)
theorem rd_main_c_12 : after ops V (Proc.devRef .tc main_c_12) = (constantI S9 1 0#1) :=
  nullary_at hW V 14 main_c_12 (constantI S9 1 0#1) _ rfl (by decide +kernel)
theorem rd_main_cst_13 : after ops V (Proc.devRef .tc main_cst_13) = (fun i => FloatOps.ofBits .f32 (lit8 (S11.rowMajor i))) :=
  nullary_at hW V 15 main_cst_13 (fun i => FloatOps.ofBits .f32 (lit8 (S11.rowMajor i))) _ rfl (by decide +kernel)
theorem rd_main_c_14 : after ops V (Proc.devRef .tc main_c_14) = (fun i => lit9 (S11.rowMajor i)) :=
  nullary_at hW V 16 main_c_14 (fun i => lit9 (S11.rowMajor i)) _ rfl (by decide +kernel)
theorem rd_main_c_15 : after ops V (Proc.devRef .tc main_c_15) = (constantI S11 1 0#1) :=
  nullary_at hW V 17 main_c_15 (constantI S11 1 0#1) _ rfl (by decide +kernel)
theorem rd_main_cst_16 : after ops V (Proc.devRef .tc main_cst_16) = (fun i => FloatOps.ofBits .f32 (lit10 (S13.rowMajor i))) :=
  nullary_at hW V 18 main_cst_16 (fun i => FloatOps.ofBits .f32 (lit10 (S13.rowMajor i))) _ rfl (by decide +kernel)
theorem rd_main_c_17 : after ops V (Proc.devRef .tc main_c_17) = (fun i => lit11 (S13.rowMajor i)) :=
  nullary_at hW V 19 main_c_17 (fun i => lit11 (S13.rowMajor i)) _ rfl (by decide +kernel)
theorem rd_main_c_18 : after ops V (Proc.devRef .tc main_c_18) = (constantI S13 1 0#1) :=
  nullary_at hW V 20 main_c_18 (constantI S13 1 0#1) _ rfl (by decide +kernel)
theorem rd_main_cst_19 : after ops V (Proc.devRef .tc main_cst_19) = (fun i => FloatOps.ofBits .f32 (lit12 (S15.rowMajor i))) :=
  nullary_at hW V 21 main_cst_19 (fun i => FloatOps.ofBits .f32 (lit12 (S15.rowMajor i))) _ rfl (by decide +kernel)
theorem rd_main_c_20 : after ops V (Proc.devRef .tc main_c_20) = (fun i => lit13 (S15.rowMajor i)) :=
  nullary_at hW V 22 main_c_20 (fun i => lit13 (S15.rowMajor i)) _ rfl (by decide +kernel)
theorem rd_main_c_21 : after ops V (Proc.devRef .tc main_c_21) = (constantI S15 1 0#1) :=
  nullary_at hW V 23 main_c_21 (constantI S15 1 0#1) _ rfl (by decide +kernel)
theorem rd_main_cst_22 : after ops V (Proc.devRef .tc main_cst_22) = (fun i => FloatOps.ofBits .f32 (lit14 (S17.rowMajor i))) :=
  nullary_at hW V 24 main_cst_22 (fun i => FloatOps.ofBits .f32 (lit14 (S17.rowMajor i))) _ rfl (by decide +kernel)
theorem rd_main_c_23 : after ops V (Proc.devRef .tc main_c_23) = (fun i => lit15 (S17.rowMajor i)) :=
  nullary_at hW V 25 main_c_23 (fun i => lit15 (S17.rowMajor i)) _ rfl (by decide +kernel)
theorem rd_main_c_24 : after ops V (Proc.devRef .tc main_c_24) = (constantI S17 1 0#1) :=
  nullary_at hW V 26 main_c_24 (constantI S17 1 0#1) _ rfl (by decide +kernel)
theorem rd_main_cst_25 : after ops V (Proc.devRef .tc main_cst_25) = (constant S_ .f32 0x3F800000#32) :=
  nullary_at hW V 27 main_cst_25 (constant S_ .f32 0x3F800000#32) _ rfl (by decide +kernel)
theorem rd_main_v0 : after ops V (Proc.devRef .tc main_v0) = (broadcastInDim S2000000 ![] bcast_S_S2000000 : (⟨S_, .f32⟩ : BufTy).Contents (Elt F) → (⟨S2000000, .f32⟩ : BufTy).Contents (Elt F)) (after ops V (Proc.devRef .tc main_cst_25)) :=
  Writes.unary_at hW V 28 main_cst_25 main_v0 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_cst_26 : after ops V (Proc.devRef .tc main_cst_26) = (constant S_ .f32 0xBF800000#32) :=
  nullary_at hW V 29 main_cst_26 (constant S_ .f32 0xBF800000#32) _ rfl (by decide +kernel)
theorem rd_main_v1 : after ops V (Proc.devRef .tc main_v1) = (broadcastInDim S2000000 ![] bcast_S_S2000000 : (⟨S_, .f32⟩ : BufTy).Contents (Elt F) → (⟨S2000000, .f32⟩ : BufTy).Contents (Elt F)) (after ops V (Proc.devRef .tc main_cst_26)) :=
  Writes.unary_at hW V 30 main_cst_26 main_v1 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v2 : after ops V (Proc.devRef .tc main_v2) = (mulf : (⟨S2000000, .f32⟩ : BufTy).Contents (Elt F) → (⟨S2000000, .f32⟩ : BufTy).Contents (Elt F) → (⟨S2000000, .f32⟩ : BufTy).Contents (Elt F)) (after ops V (Proc.devRef .tc main_v1)) (after ops V (Proc.devRef .tc main_v0)) :=
  binary_at hW V 31 main_v1 main_v0 main_v2 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_27 : after ops V (Proc.devRef .tc main_cst_27) = (constant S_ .f32 0xC0400000#32) :=
  nullary_at hW V 32 main_cst_27 (constant S_ .f32 0xC0400000#32) _ rfl (by decide +kernel)
theorem rd_main_v3 : after ops V (Proc.devRef .tc main_v3) = (broadcastInDim S2000000 ![] bcast_S_S2000000 : (⟨S_, .f32⟩ : BufTy).Contents (Elt F) → (⟨S2000000, .f32⟩ : BufTy).Contents (Elt F)) (after ops V (Proc.devRef .tc main_cst_27)) :=
  Writes.unary_at hW V 33 main_cst_27 main_v3 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v4 : after ops V (Proc.devRef .tc main_v4) = (mulf : (⟨S2000000, .f32⟩ : BufTy).Contents (Elt F) → (⟨S2000000, .f32⟩ : BufTy).Contents (Elt F) → (⟨S2000000, .f32⟩ : BufTy).Contents (Elt F)) (after ops V (Proc.devRef .tc main_v3)) (after ops V (Proc.devRef .tc main_v2)) :=
  binary_at hW V 34 main_v3 main_v2 main_v4 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_28 : after ops V (Proc.devRef .tc main_cst_28) = (constant S_ .f32 0xC0A00000#32) :=
  nullary_at hW V 35 main_cst_28 (constant S_ .f32 0xC0A00000#32) _ rfl (by decide +kernel)
theorem rd_main_v5 : after ops V (Proc.devRef .tc main_v5) = (broadcastInDim S2000000 ![] bcast_S_S2000000 : (⟨S_, .f32⟩ : BufTy).Contents (Elt F) → (⟨S2000000, .f32⟩ : BufTy).Contents (Elt F)) (after ops V (Proc.devRef .tc main_cst_28)) :=
  Writes.unary_at hW V 36 main_cst_28 main_v5 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v6 : after ops V (Proc.devRef .tc main_v6) = (mulf : (⟨S2000000, .f32⟩ : BufTy).Contents (Elt F) → (⟨S2000000, .f32⟩ : BufTy).Contents (Elt F) → (⟨S2000000, .f32⟩ : BufTy).Contents (Elt F)) (after ops V (Proc.devRef .tc main_v5)) (after ops V (Proc.devRef .tc main_v4)) :=
  binary_at hW V 37 main_v5 main_v4 main_v6 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_29 : after ops V (Proc.devRef .tc main_cst_29) = (constant S_ .f32 0xC0E00000#32) :=
  nullary_at hW V 38 main_cst_29 (constant S_ .f32 0xC0E00000#32) _ rfl (by decide +kernel)
theorem rd_main_v7 : after ops V (Proc.devRef .tc main_v7) = (broadcastInDim S2000000 ![] bcast_S_S2000000 : (⟨S_, .f32⟩ : BufTy).Contents (Elt F) → (⟨S2000000, .f32⟩ : BufTy).Contents (Elt F)) (after ops V (Proc.devRef .tc main_cst_29)) :=
  Writes.unary_at hW V 39 main_cst_29 main_v7 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v8 : after ops V (Proc.devRef .tc main_v8) = (mulf : (⟨S2000000, .f32⟩ : BufTy).Contents (Elt F) → (⟨S2000000, .f32⟩ : BufTy).Contents (Elt F) → (⟨S2000000, .f32⟩ : BufTy).Contents (Elt F)) (after ops V (Proc.devRef .tc main_v7)) (after ops V (Proc.devRef .tc main_v6)) :=
  binary_at hW V 40 main_v7 main_v6 main_v8 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_30 : after ops V (Proc.devRef .tc main_cst_30) = (constant S_ .f32 0xC1100000#32) :=
  nullary_at hW V 41 main_cst_30 (constant S_ .f32 0xC1100000#32) _ rfl (by decide +kernel)
theorem rd_main_v9 : after ops V (Proc.devRef .tc main_v9) = (broadcastInDim S2000000 ![] bcast_S_S2000000 : (⟨S_, .f32⟩ : BufTy).Contents (Elt F) → (⟨S2000000, .f32⟩ : BufTy).Contents (Elt F)) (after ops V (Proc.devRef .tc main_cst_30)) :=
  Writes.unary_at hW V 42 main_cst_30 main_v9 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v10 : after ops V (Proc.devRef .tc main_v10) = (mulf : (⟨S2000000, .f32⟩ : BufTy).Contents (Elt F) → (⟨S2000000, .f32⟩ : BufTy).Contents (Elt F) → (⟨S2000000, .f32⟩ : BufTy).Contents (Elt F)) (after ops V (Proc.devRef .tc main_v9)) (after ops V (Proc.devRef .tc main_v8)) :=
  binary_at hW V 43 main_v9 main_v8 main_v10 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_31 : after ops V (Proc.devRef .tc main_cst_31) = (constant S_ .f32 0xC1300000#32) :=
  nullary_at hW V 44 main_cst_31 (constant S_ .f32 0xC1300000#32) _ rfl (by decide +kernel)
theorem rd_main_v11 : after ops V (Proc.devRef .tc main_v11) = (broadcastInDim S2000000 ![] bcast_S_S2000000 : (⟨S_, .f32⟩ : BufTy).Contents (Elt F) → (⟨S2000000, .f32⟩ : BufTy).Contents (Elt F)) (after ops V (Proc.devRef .tc main_cst_31)) :=
  Writes.unary_at hW V 45 main_cst_31 main_v11 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v12 : after ops V (Proc.devRef .tc main_v12) = (mulf : (⟨S2000000, .f32⟩ : BufTy).Contents (Elt F) → (⟨S2000000, .f32⟩ : BufTy).Contents (Elt F) → (⟨S2000000, .f32⟩ : BufTy).Contents (Elt F)) (after ops V (Proc.devRef .tc main_v11)) (after ops V (Proc.devRef .tc main_v10)) :=
  binary_at hW V 46 main_v11 main_v10 main_v12 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_32 : after ops V (Proc.devRef .tc main_cst_32) = (constant S_ .f32 0xC1500000#32) :=
  nullary_at hW V 47 main_cst_32 (constant S_ .f32 0xC1500000#32) _ rfl (by decide +kernel)
theorem rd_main_v13 : after ops V (Proc.devRef .tc main_v13) = (broadcastInDim S2000000 ![] bcast_S_S2000000 : (⟨S_, .f32⟩ : BufTy).Contents (Elt F) → (⟨S2000000, .f32⟩ : BufTy).Contents (Elt F)) (after ops V (Proc.devRef .tc main_cst_32)) :=
  Writes.unary_at hW V 48 main_cst_32 main_v13 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v14 : after ops V (Proc.devRef .tc main_v14) = (mulf : (⟨S2000000, .f32⟩ : BufTy).Contents (Elt F) → (⟨S2000000, .f32⟩ : BufTy).Contents (Elt F) → (⟨S2000000, .f32⟩ : BufTy).Contents (Elt F)) (after ops V (Proc.devRef .tc main_v13)) (after ops V (Proc.devRef .tc main_v12)) :=
  binary_at hW V 49 main_v13 main_v12 main_v14 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_33 : after ops V (Proc.devRef .tc main_cst_33) = (constant S_ .f32 0xC1700000#32) :=
  nullary_at hW V 50 main_cst_33 (constant S_ .f32 0xC1700000#32) _ rfl (by decide +kernel)
theorem rd_main_v15 : after ops V (Proc.devRef .tc main_v15) = (broadcastInDim S2000000 ![] bcast_S_S2000000 : (⟨S_, .f32⟩ : BufTy).Contents (Elt F) → (⟨S2000000, .f32⟩ : BufTy).Contents (Elt F)) (after ops V (Proc.devRef .tc main_cst_33)) :=
  Writes.unary_at hW V 51 main_cst_33 main_v15 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v16 : after ops V (Proc.devRef .tc main_v16) = (mulf : (⟨S2000000, .f32⟩ : BufTy).Contents (Elt F) → (⟨S2000000, .f32⟩ : BufTy).Contents (Elt F) → (⟨S2000000, .f32⟩ : BufTy).Contents (Elt F)) (after ops V (Proc.devRef .tc main_v15)) (after ops V (Proc.devRef .tc main_v14)) :=
  binary_at hW V 52 main_v15 main_v14 main_v16 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_34 : after ops V (Proc.devRef .tc main_cst_34) = (constant S_ .f32 0x3F800000#32) :=
  nullary_at hW V 53 main_cst_34 (constant S_ .f32 0x3F800000#32) _ rfl (by decide +kernel)
theorem rd_main_v17 : after ops V (Proc.devRef .tc main_v17) = (broadcastInDim S2000000 ![] bcast_S_S2000000 : (⟨S_, .f32⟩ : BufTy).Contents (Elt F) → (⟨S2000000, .f32⟩ : BufTy).Contents (Elt F)) (after ops V (Proc.devRef .tc main_cst_34)) :=
  Writes.unary_at hW V 54 main_cst_34 main_v17 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v18 : after ops V (Proc.devRef .tc main_v18) = (mulf : (⟨S2000000, .f32⟩ : BufTy).Contents (Elt F) → (⟨S2000000, .f32⟩ : BufTy).Contents (Elt F) → (⟨S2000000, .f32⟩ : BufTy).Contents (Elt F)) (after ops V (Proc.devRef .tc main_v17)) (after ops V (Proc.devRef .tc main_arg2)) :=
  binary_at hW V 55 main_v17 main_arg2 main_v18 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v19 : after ops V (Proc.devRef .tc main_v19) = (mulf : (⟨S2000000, .f32⟩ : BufTy).Contents (Elt F) → (⟨S2000000, .f32⟩ : BufTy).Contents (Elt F) → (⟨S2000000, .f32⟩ : BufTy).Contents (Elt F)) (after ops V (Proc.devRef .tc main_v18)) (after ops V (Proc.devRef .tc main_v0)) :=
  binary_at hW V 56 main_v18 main_v0 main_v19 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_35 : after ops V (Proc.devRef .tc main_cst_35) = (constant S_ .f32 0x40400000#32) :=
  nullary_at hW V 57 main_cst_35 (constant S_ .f32 0x40400000#32) _ rfl (by decide +kernel)
theorem rd_main_v20 : after ops V (Proc.devRef .tc main_v20) = (broadcastInDim S2000000 ![] bcast_S_S2000000 : (⟨S_, .f32⟩ : BufTy).Contents (Elt F) → (⟨S2000000, .f32⟩ : BufTy).Contents (Elt F)) (after ops V (Proc.devRef .tc main_cst_35)) :=
  Writes.unary_at hW V 58 main_cst_35 main_v20 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v21 : after ops V (Proc.devRef .tc main_v21) = (mulf : (⟨S2000000, .f32⟩ : BufTy).Contents (Elt F) → (⟨S2000000, .f32⟩ : BufTy).Contents (Elt F) → (⟨S2000000, .f32⟩ : BufTy).Contents (Elt F)) (after ops V (Proc.devRef .tc main_v20)) (after ops V (Proc.devRef .tc main_arg2)) :=
  binary_at hW V 59 main_v20 main_arg2 main_v21 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_arg0 : after ops V (Proc.devRef .tc main_arg0) = V (Proc.devRef .tc main_arg0) :=
  Writes.arg hW V (by decide +kernel)
theorem rd_main_arg1 : after ops V (Proc.devRef .tc main_arg1) = V (Proc.devRef .tc main_arg1) :=
  Writes.arg hW V (by decide +kernel)
theorem rd_main_arg2 : after ops V (Proc.devRef .tc main_arg2) = V (Proc.devRef .tc main_arg2) :=
  Writes.arg hW V (by decide +kernel)
theorem rd_main_arg3 : after ops V (Proc.devRef .tc main_arg3) = V (Proc.devRef .tc main_arg3) :=
  Writes.arg hW V (by decide +kernel)

end Cert.ReferenceIdeal.Line

end
-- ==== Proof.RefRead1.lean ====
/- Window 1 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v22 : after ops V (Proc.devRef .tc main_v22) = (mulf : (⟨S2000000, .f32⟩ : BufTy).Contents (Elt F) → (⟨S2000000, .f32⟩ : BufTy).Contents (Elt F) → (⟨S2000000, .f32⟩ : BufTy).Contents (Elt F)) (after ops V (Proc.devRef .tc main_v21)) (after ops V (Proc.devRef .tc main_v2)) :=
  binary_at hW V 60 main_v21 main_v2 main_v22 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_36 : after ops V (Proc.devRef .tc main_cst_36) = (constant S_ .f32 0x40A00000#32) :=
  nullary_at hW V 61 main_cst_36 (constant S_ .f32 0x40A00000#32) _ rfl (by decide +kernel)
theorem rd_main_v23 : after ops V (Proc.devRef .tc main_v23) = (broadcastInDim S2000000 ![] bcast_S_S2000000 : (⟨S_, .f32⟩ : BufTy).Contents (Elt F) → (⟨S2000000, .f32⟩ : BufTy).Contents (Elt F)) (after ops V (Proc.devRef .tc main_cst_36)) :=
  Writes.unary_at hW V 62 main_cst_36 main_v23 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v24 : after ops V (Proc.devRef .tc main_v24) = (mulf : (⟨S2000000, .f32⟩ : BufTy).Contents (Elt F) → (⟨S2000000, .f32⟩ : BufTy).Contents (Elt F) → (⟨S2000000, .f32⟩ : BufTy).Contents (Elt F)) (after ops V (Proc.devRef .tc main_v23)) (after ops V (Proc.devRef .tc main_arg2)) :=
  binary_at hW V 63 main_v23 main_arg2 main_v24 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v25 : after ops V (Proc.devRef .tc main_v25) = (mulf : (⟨S2000000, .f32⟩ : BufTy).Contents (Elt F) → (⟨S2000000, .f32⟩ : BufTy).Contents (Elt F) → (⟨S2000000, .f32⟩ : BufTy).Contents (Elt F)) (after ops V (Proc.devRef .tc main_v24)) (after ops V (Proc.devRef .tc main_v4)) :=
  binary_at hW V 64 main_v24 main_v4 main_v25 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_37 : after ops V (Proc.devRef .tc main_cst_37) = (constant S_ .f32 0x40E00000#32) :=
  nullary_at hW V 65 main_cst_37 (constant S_ .f32 0x40E00000#32) _ rfl (by decide +kernel)
theorem rd_main_v26 : after ops V (Proc.devRef .tc main_v26) = (broadcastInDim S2000000 ![] bcast_S_S2000000 : (⟨S_, .f32⟩ : BufTy).Contents (Elt F) → (⟨S2000000, .f32⟩ : BufTy).Contents (Elt F)) (after ops V (Proc.devRef .tc main_cst_37)) :=
  Writes.unary_at hW V 66 main_cst_37 main_v26 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v27 : after ops V (Proc.devRef .tc main_v27) = (mulf : (⟨S2000000, .f32⟩ : BufTy).Contents (Elt F) → (⟨S2000000, .f32⟩ : BufTy).Contents (Elt F) → (⟨S2000000, .f32⟩ : BufTy).Contents (Elt F)) (after ops V (Proc.devRef .tc main_v26)) (after ops V (Proc.devRef .tc main_arg2)) :=
  binary_at hW V 67 main_v26 main_arg2 main_v27 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v28 : after ops V (Proc.devRef .tc main_v28) = (mulf : (⟨S2000000, .f32⟩ : BufTy).Contents (Elt F) → (⟨S2000000, .f32⟩ : BufTy).Contents (Elt F) → (⟨S2000000, .f32⟩ : BufTy).Contents (Elt F)) (after ops V (Proc.devRef .tc main_v27)) (after ops V (Proc.devRef .tc main_v6)) :=
  binary_at hW V 68 main_v27 main_v6 main_v28 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_38 : after ops V (Proc.devRef .tc main_cst_38) = (constant S_ .f32 0x41100000#32) :=
  nullary_at hW V 69 main_cst_38 (constant S_ .f32 0x41100000#32) _ rfl (by decide +kernel)
theorem rd_main_v29 : after ops V (Proc.devRef .tc main_v29) = (broadcastInDim S2000000 ![] bcast_S_S2000000 : (⟨S_, .f32⟩ : BufTy).Contents (Elt F) → (⟨S2000000, .f32⟩ : BufTy).Contents (Elt F)) (after ops V (Proc.devRef .tc main_cst_38)) :=
  Writes.unary_at hW V 70 main_cst_38 main_v29 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v30 : after ops V (Proc.devRef .tc main_v30) = (mulf : (⟨S2000000, .f32⟩ : BufTy).Contents (Elt F) → (⟨S2000000, .f32⟩ : BufTy).Contents (Elt F) → (⟨S2000000, .f32⟩ : BufTy).Contents (Elt F)) (after ops V (Proc.devRef .tc main_v29)) (after ops V (Proc.devRef .tc main_arg2)) :=
  binary_at hW V 71 main_v29 main_arg2 main_v30 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v31 : after ops V (Proc.devRef .tc main_v31) = (mulf : (⟨S2000000, .f32⟩ : BufTy).Contents (Elt F) → (⟨S2000000, .f32⟩ : BufTy).Contents (Elt F) → (⟨S2000000, .f32⟩ : BufTy).Contents (Elt F)) (after ops V (Proc.devRef .tc main_v30)) (after ops V (Proc.devRef .tc main_v8)) :=
  binary_at hW V 72 main_v30 main_v8 main_v31 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_39 : after ops V (Proc.devRef .tc main_cst_39) = (constant S_ .f32 0x41300000#32) :=
  nullary_at hW V 73 main_cst_39 (constant S_ .f32 0x41300000#32) _ rfl (by decide +kernel)
theorem rd_main_v32 : after ops V (Proc.devRef .tc main_v32) = (broadcastInDim S2000000 ![] bcast_S_S2000000 : (⟨S_, .f32⟩ : BufTy).Contents (Elt F) → (⟨S2000000, .f32⟩ : BufTy).Contents (Elt F)) (after ops V (Proc.devRef .tc main_cst_39)) :=
  Writes.unary_at hW V 74 main_cst_39 main_v32 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v33 : after ops V (Proc.devRef .tc main_v33) = (mulf : (⟨S2000000, .f32⟩ : BufTy).Contents (Elt F) → (⟨S2000000, .f32⟩ : BufTy).Contents (Elt F) → (⟨S2000000, .f32⟩ : BufTy).Contents (Elt F)) (after ops V (Proc.devRef .tc main_v32)) (after ops V (Proc.devRef .tc main_arg2)) :=
  binary_at hW V 75 main_v32 main_arg2 main_v33 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v34 : after ops V (Proc.devRef .tc main_v34) = (mulf : (⟨S2000000, .f32⟩ : BufTy).Contents (Elt F) → (⟨S2000000, .f32⟩ : BufTy).Contents (Elt F) → (⟨S2000000, .f32⟩ : BufTy).Contents (Elt F)) (after ops V (Proc.devRef .tc main_v33)) (after ops V (Proc.devRef .tc main_v10)) :=
  binary_at hW V 76 main_v33 main_v10 main_v34 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_40 : after ops V (Proc.devRef .tc main_cst_40) = (constant S_ .f32 0x41500000#32) :=
  nullary_at hW V 77 main_cst_40 (constant S_ .f32 0x41500000#32) _ rfl (by decide +kernel)
theorem rd_main_v35 : after ops V (Proc.devRef .tc main_v35) = (broadcastInDim S2000000 ![] bcast_S_S2000000 : (⟨S_, .f32⟩ : BufTy).Contents (Elt F) → (⟨S2000000, .f32⟩ : BufTy).Contents (Elt F)) (after ops V (Proc.devRef .tc main_cst_40)) :=
  Writes.unary_at hW V 78 main_cst_40 main_v35 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v36 : after ops V (Proc.devRef .tc main_v36) = (mulf : (⟨S2000000, .f32⟩ : BufTy).Contents (Elt F) → (⟨S2000000, .f32⟩ : BufTy).Contents (Elt F) → (⟨S2000000, .f32⟩ : BufTy).Contents (Elt F)) (after ops V (Proc.devRef .tc main_v35)) (after ops V (Proc.devRef .tc main_arg2)) :=
  binary_at hW V 79 main_v35 main_arg2 main_v36 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v37 : after ops V (Proc.devRef .tc main_v37) = (mulf : (⟨S2000000, .f32⟩ : BufTy).Contents (Elt F) → (⟨S2000000, .f32⟩ : BufTy).Contents (Elt F) → (⟨S2000000, .f32⟩ : BufTy).Contents (Elt F)) (after ops V (Proc.devRef .tc main_v36)) (after ops V (Proc.devRef .tc main_v12)) :=
  binary_at hW V 80 main_v36 main_v12 main_v37 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_41 : after ops V (Proc.devRef .tc main_cst_41) = (constant S_ .f32 0x41700000#32) :=
  nullary_at hW V 81 main_cst_41 (constant S_ .f32 0x41700000#32) _ rfl (by decide +kernel)
theorem rd_main_v38 : after ops V (Proc.devRef .tc main_v38) = (broadcastInDim S2000000 ![] bcast_S_S2000000 : (⟨S_, .f32⟩ : BufTy).Contents (Elt F) → (⟨S2000000, .f32⟩ : BufTy).Contents (Elt F)) (after ops V (Proc.devRef .tc main_cst_41)) :=
  Writes.unary_at hW V 82 main_cst_41 main_v38 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v39 : after ops V (Proc.devRef .tc main_v39) = (mulf : (⟨S2000000, .f32⟩ : BufTy).Contents (Elt F) → (⟨S2000000, .f32⟩ : BufTy).Contents (Elt F) → (⟨S2000000, .f32⟩ : BufTy).Contents (Elt F)) (after ops V (Proc.devRef .tc main_v38)) (after ops V (Proc.devRef .tc main_arg2)) :=
  binary_at hW V 83 main_v38 main_arg2 main_v39 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v40 : after ops V (Proc.devRef .tc main_v40) = (mulf : (⟨S2000000, .f32⟩ : BufTy).Contents (Elt F) → (⟨S2000000, .f32⟩ : BufTy).Contents (Elt F) → (⟨S2000000, .f32⟩ : BufTy).Contents (Elt F)) (after ops V (Proc.devRef .tc main_v39)) (after ops V (Proc.devRef .tc main_v14)) :=
  binary_at hW V 84 main_v39 main_v14 main_v40 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v41 : after ops V (Proc.devRef .tc main_v41) = (mulf : (⟨S2000000, .f32⟩ : BufTy).Contents (Elt F) → (⟨S2000000, .f32⟩ : BufTy).Contents (Elt F) → (⟨S2000000, .f32⟩ : BufTy).Contents (Elt F)) (after ops V (Proc.devRef .tc main_arg3)) (after ops V (Proc.devRef .tc main_arg3)) :=
  binary_at hW V 85 main_arg3 main_arg3 main_v41 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_42 : after ops V (Proc.devRef .tc main_cst_42) = (constant S_ .f32 0x40400000#32) :=
  nullary_at hW V 86 main_cst_42 (constant S_ .f32 0x40400000#32) _ rfl (by decide +kernel)
theorem rd_main_v42 : after ops V (Proc.devRef .tc main_v42) = (broadcastInDim S2000000 ![] bcast_S_S2000000 : (⟨S_, .f32⟩ : BufTy).Contents (Elt F) → (⟨S2000000, .f32⟩ : BufTy).Contents (Elt F)) (after ops V (Proc.devRef .tc main_cst_42)) :=
  Writes.unary_at hW V 87 main_cst_42 main_v42 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v43 : after ops V (Proc.devRef .tc main_v43) = (mulf : (⟨S2000000, .f32⟩ : BufTy).Contents (Elt F) → (⟨S2000000, .f32⟩ : BufTy).Contents (Elt F) → (⟨S2000000, .f32⟩ : BufTy).Contents (Elt F)) (after ops V (Proc.devRef .tc main_v42)) (after ops V (Proc.devRef .tc main_arg2)) :=
  binary_at hW V 88 main_v42 main_arg2 main_v43 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v44 : after ops V (Proc.devRef .tc main_v44) = (mulf : (⟨S2000000, .f32⟩ : BufTy).Contents (Elt F) → (⟨S2000000, .f32⟩ : BufTy).Contents (Elt F) → (⟨S2000000, .f32⟩ : BufTy).Contents (Elt F)) (after ops V (Proc.devRef .tc main_v43)) (after ops V (Proc.devRef .tc main_v19)) :=
  binary_at hW V 89 main_v43 main_v19 main_v44 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_43 : after ops V (Proc.devRef .tc main_cst_43) = (constant S_ .f32 0x3F800000#32) :=
  nullary_at hW V 90 main_cst_43 (constant S_ .f32 0x3F800000#32) _ rfl (by decide +kernel)
theorem rd_main_v45 : after ops V (Proc.devRef .tc main_v45) = (broadcastInDim S2000000 ![] bcast_S_S2000000 : (⟨S_, .f32⟩ : BufTy).Contents (Elt F) → (⟨S2000000, .f32⟩ : BufTy).Contents (Elt F)) (after ops V (Proc.devRef .tc main_cst_43)) :=
  Writes.unary_at hW V 91 main_cst_43 main_v45 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v46 : after ops V (Proc.devRef .tc main_v46) = (mulf : (⟨S2000000, .f32⟩ : BufTy).Contents (Elt F) → (⟨S2000000, .f32⟩ : BufTy).Contents (Elt F) → (⟨S2000000, .f32⟩ : BufTy).Contents (Elt F)) (after ops V (Proc.devRef .tc main_v45)) (after ops V (Proc.devRef .tc main_v0)) :=
  binary_at hW V 92 main_v45 main_v0 main_v46 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v47 : after ops V (Proc.devRef .tc main_v47) = (mulf : (⟨S2000000, .f32⟩ : BufTy).Contents (Elt F) → (⟨S2000000, .f32⟩ : BufTy).Contents (Elt F) → (⟨S2000000, .f32⟩ : BufTy).Contents (Elt F)) (after ops V (Proc.devRef .tc main_v46)) (after ops V (Proc.devRef .tc main_v41)) :=
  binary_at hW V 93 main_v46 main_v41 main_v47 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v48 : after ops V (Proc.devRef .tc main_v48) = (subf : (⟨S2000000, .f32⟩ : BufTy).Contents (Elt F) → (⟨S2000000, .f32⟩ : BufTy).Contents (Elt F) → (⟨S2000000, .f32⟩ : BufTy).Contents (Elt F)) (after ops V (Proc.devRef .tc main_v44)) (after ops V (Proc.devRef .tc main_v47)) :=
  binary_at hW V 94 main_v44 main_v47 main_v48 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_44 : after ops V (Proc.devRef .tc main_cst_44) = (constant S_ .f32 0x40000000#32) :=
  nullary_at hW V 95 main_cst_44 (constant S_ .f32 0x40000000#32) _ rfl (by decide +kernel)
theorem rd_main_v49 : after ops V (Proc.devRef .tc main_v49) = (broadcastInDim S2000000 ![] bcast_S_S2000000 : (⟨S_, .f32⟩ : BufTy).Contents (Elt F) → (⟨S2000000, .f32⟩ : BufTy).Contents (Elt F)) (after ops V (Proc.devRef .tc main_cst_44)) :=
  Writes.unary_at hW V 96 main_cst_44 main_v49 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v50 : after ops V (Proc.devRef .tc main_v50) = (Host.divf : (⟨S2000000, .f32⟩ : BufTy).Contents (Elt F) → (⟨S2000000, .f32⟩ : BufTy).Contents (Elt F) → (⟨S2000000, .f32⟩ : BufTy).Contents (Elt F)) (after ops V (Proc.devRef .tc main_v48)) (after ops V (Proc.devRef .tc main_v49)) :=
  binary_at hW V 97 main_v48 main_v49 main_v50 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_45 : after ops V (Proc.devRef .tc main_cst_45) = (constant S_ .f32 0x40A00000#32) :=
  nullary_at hW V 98 main_cst_45 (constant S_ .f32 0x40A00000#32) _ rfl (by decide +kernel)
theorem rd_main_v51 : after ops V (Proc.devRef .tc main_v51) = (broadcastInDim S2000000 ![] bcast_S_S2000000 : (⟨S_, .f32⟩ : BufTy).Contents (Elt F) → (⟨S2000000, .f32⟩ : BufTy).Contents (Elt F)) (after ops V (Proc.devRef .tc main_cst_45)) :=
  Writes.unary_at hW V 99 main_cst_45 main_v51 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v52 : after ops V (Proc.devRef .tc main_v52) = (mulf : (⟨S2000000, .f32⟩ : BufTy).Contents (Elt F) → (⟨S2000000, .f32⟩ : BufTy).Contents (Elt F) → (⟨S2000000, .f32⟩ : BufTy).Contents (Elt F)) (after ops V (Proc.devRef .tc main_v51)) (after ops V (Proc.devRef .tc main_arg2)) :=
  binary_at hW V 100 main_v51 main_arg2 main_v52 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v53 : after ops V (Proc.devRef .tc main_v53) = (mulf : (⟨S2000000, .f32⟩ : BufTy).Contents (Elt F) → (⟨S2000000, .f32⟩ : BufTy).Contents (Elt F) → (⟨S2000000, .f32⟩ : BufTy).Contents (Elt F)) (after ops V (Proc.devRef .tc main_v52)) (after ops V (Proc.devRef .tc main_v50)) :=
  binary_at hW V 101 main_v52 main_v50 main_v53 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_46 : after ops V (Proc.devRef .tc main_cst_46) = (constant S_ .f32 0x40000000#32) :=
  nullary_at hW V 102 main_cst_46 (constant S_ .f32 0x40000000#32) _ rfl (by decide +kernel)
theorem rd_main_v54 : after ops V (Proc.devRef .tc main_v54) = (broadcastInDim S2000000 ![] bcast_S_S2000000 : (⟨S_, .f32⟩ : BufTy).Contents (Elt F) → (⟨S2000000, .f32⟩ : BufTy).Contents (Elt F)) (after ops V (Proc.devRef .tc main_cst_46)) :=
  Writes.unary_at hW V 103 main_cst_46 main_v54 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v55 : after ops V (Proc.devRef .tc main_v55) = (mulf : (⟨S2000000, .f32⟩ : BufTy).Contents (Elt F) → (⟨S2000000, .f32⟩ : BufTy).Contents (Elt F) → (⟨S2000000, .f32⟩ : BufTy).Contents (Elt F)) (after ops V (Proc.devRef .tc main_v54)) (after ops V (Proc.devRef .tc main_v19)) :=
  binary_at hW V 104 main_v54 main_v19 main_v55 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v56 : after ops V (Proc.devRef .tc main_v56) = (mulf : (⟨S2000000, .f32⟩ : BufTy).Contents (Elt F) → (⟨S2000000, .f32⟩ : BufTy).Contents (Elt F) → (⟨S2000000, .f32⟩ : BufTy).Contents (Elt F)) (after ops V (Proc.devRef .tc main_v55)) (after ops V (Proc.devRef .tc main_v41)) :=
  binary_at hW V 105 main_v55 main_v41 main_v56 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v57 : after ops V (Proc.devRef .tc main_v57) = (subf : (⟨S2000000, .f32⟩ : BufTy).Contents (Elt F) → (⟨S2000000, .f32⟩ : BufTy).Contents (Elt F) → (⟨S2000000, .f32⟩ : BufTy).Contents (Elt F)) (after ops V (Proc.devRef .tc main_v53)) (after ops V (Proc.devRef .tc main_v56)) :=
  binary_at hW V 106 main_v53 main_v56 main_v57 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_47 : after ops V (Proc.devRef .tc main_cst_47) = (constant S_ .f32 0x40400000#32) :=
  nullary_at hW V 107 main_cst_47 (constant S_ .f32 0x40400000#32) _ rfl (by decide +kernel)
theorem rd_main_v58 : after ops V (Proc.devRef .tc main_v58) = (broadcastInDim S2000000 ![] bcast_S_S2000000 : (⟨S_, .f32⟩ : BufTy).Contents (Elt F) → (⟨S2000000, .f32⟩ : BufTy).Contents (Elt F)) (after ops V (Proc.devRef .tc main_cst_47)) :=
  Writes.unary_at hW V 108 main_cst_47 main_v58 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v59 : after ops V (Proc.devRef .tc main_v59) = (Host.divf : (⟨S2000000, .f32⟩ : BufTy).Contents (Elt F) → (⟨S2000000, .f32⟩ : BufTy).Contents (Elt F) → (⟨S2000000, .f32⟩ : BufTy).Contents (Elt F)) (after ops V (Proc.devRef .tc main_v57)) (after ops V (Proc.devRef .tc main_v58)) :=
  binary_at hW V 109 main_v57 main_v58 main_v59 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_48 : after ops V (Proc.devRef .tc main_cst_48) = (constant S_ .f32 0x40E00000#32) :=
  nullary_at hW V 110 main_cst_48 (constant S_ .f32 0x40E00000#32) _ rfl (by decide +kernel)
theorem rd_main_v60 : after ops V (Proc.devRef .tc main_v60) = (broadcastInDim S2000000 ![] bcast_S_S2000000 : (⟨S_, .f32⟩ : BufTy).Contents (Elt F) → (⟨S2000000, .f32⟩ : BufTy).Contents (Elt F)) (after ops V (Proc.devRef .tc main_cst_48)) :=
  Writes.unary_at hW V 111 main_cst_48 main_v60 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v61 : after ops V (Proc.devRef .tc main_v61) = (mulf : (⟨S2000000, .f32⟩ : BufTy).Contents (Elt F) → (⟨S2000000, .f32⟩ : BufTy).Contents (Elt F) → (⟨S2000000, .f32⟩ : BufTy).Contents (Elt F)) (after ops V (Proc.devRef .tc main_v60)) (after ops V (Proc.devRef .tc main_arg2)) :=
  binary_at hW V 112 main_v60 main_arg2 main_v61 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v62 : after ops V (Proc.devRef .tc main_v62) = (mulf : (⟨S2000000, .f32⟩ : BufTy).Contents (Elt F) → (⟨S2000000, .f32⟩ : BufTy).Contents (Elt F) → (⟨S2000000, .f32⟩ : BufTy).Contents (Elt F)) (after ops V (Proc.devRef .tc main_v61)) (after ops V (Proc.devRef .tc main_v59)) :=
  binary_at hW V 113 main_v61 main_v59 main_v62 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_49 : after ops V (Proc.devRef .tc main_cst_49) = (constant S_ .f32 0x40400000#32) :=
  nullary_at hW V 114 main_cst_49 (constant S_ .f32 0x40400000#32) _ rfl (by decide +kernel)
theorem rd_main_v63 : after ops V (Proc.devRef .tc main_v63) = (broadcastInDim S2000000 ![] bcast_S_S2000000 : (⟨S_, .f32⟩ : BufTy).Contents (Elt F) → (⟨S2000000, .f32⟩ : BufTy).Contents (Elt F)) (after ops V (Proc.devRef .tc main_cst_49)) :=
  Writes.unary_at hW V 115 main_cst_49 main_v63 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v64 : after ops V (Proc.devRef .tc main_v64) = (mulf : (⟨S2000000, .f32⟩ : BufTy).Contents (Elt F) → (⟨S2000000, .f32⟩ : BufTy).Contents (Elt F) → (⟨S2000000, .f32⟩ : BufTy).Contents (Elt F)) (after ops V (Proc.devRef .tc main_v63)) (after ops V (Proc.devRef .tc main_v50)) :=
  binary_at hW V 116 main_v63 main_v50 main_v64 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v65 : after ops V (Proc.devRef .tc main_v65) = (mulf : (⟨S2000000, .f32⟩ : BufTy).Contents (Elt F) → (⟨S2000000, .f32⟩ : BufTy).Contents (Elt F) → (⟨S2000000, .f32⟩ : BufTy).Contents (Elt F)) (after ops V (Proc.devRef .tc main_v64)) (after ops V (Proc.devRef .tc main_v41)) :=
  binary_at hW V 117 main_v64 main_v41 main_v65 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v66 : after ops V (Proc.devRef .tc main_v66) = (subf : (⟨S2000000, .f32⟩ : BufTy).Contents (Elt F) → (⟨S2000000, .f32⟩ : BufTy).Contents (Elt F) → (⟨S2000000, .f32⟩ : BufTy).Contents (Elt F)) (after ops V (Proc.devRef .tc main_v62)) (after ops V (Proc.devRef .tc main_v65)) :=
  binary_at hW V 118 main_v62 main_v65 main_v66 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_50 : after ops V (Proc.devRef .tc main_cst_50) = (constant S_ .f32 0x40800000#32) :=
  nullary_at hW V 119 main_cst_50 (constant S_ .f32 0x40800000#32) _ rfl (by decide +kernel)

end Cert.ReferenceIdeal.Line

end
-- ==== Proof.RefRead2.lean ====
/- Window 2 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v67 : after ops V (Proc.devRef .tc main_v67) = (broadcastInDim S2000000 ![] bcast_S_S2000000 : (⟨S_, .f32⟩ : BufTy).Contents (Elt F) → (⟨S2000000, .f32⟩ : BufTy).Contents (Elt F)) (after ops V (Proc.devRef .tc main_cst_50)) :=
  Writes.unary_at hW V 120 main_cst_50 main_v67 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v68 : after ops V (Proc.devRef .tc main_v68) = (Host.divf : (⟨S2000000, .f32⟩ : BufTy).Contents (Elt F) → (⟨S2000000, .f32⟩ : BufTy).Contents (Elt F) → (⟨S2000000, .f32⟩ : BufTy).Contents (Elt F)) (after ops V (Proc.devRef .tc main_v66)) (after ops V (Proc.devRef .tc main_v67)) :=
  binary_at hW V 121 main_v66 main_v67 main_v68 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_51 : after ops V (Proc.devRef .tc main_cst_51) = (constant S_ .f32 0x41100000#32) :=
  nullary_at hW V 122 main_cst_51 (constant S_ .f32 0x41100000#32) _ rfl (by decide +kernel)
theorem rd_main_v69 : after ops V (Proc.devRef .tc main_v69) = (broadcastInDim S2000000 ![] bcast_S_S2000000 : (⟨S_, .f32⟩ : BufTy).Contents (Elt F) → (⟨S2000000, .f32⟩ : BufTy).Contents (Elt F)) (after ops V (Proc.devRef .tc main_cst_51)) :=
  Writes.unary_at hW V 123 main_cst_51 main_v69 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v70 : after ops V (Proc.devRef .tc main_v70) = (mulf : (⟨S2000000, .f32⟩ : BufTy).Contents (Elt F) → (⟨S2000000, .f32⟩ : BufTy).Contents (Elt F) → (⟨S2000000, .f32⟩ : BufTy).Contents (Elt F)) (after ops V (Proc.devRef .tc main_v69)) (after ops V (Proc.devRef .tc main_arg2)) :=
  binary_at hW V 124 main_v69 main_arg2 main_v70 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v71 : after ops V (Proc.devRef .tc main_v71) = (mulf : (⟨S2000000, .f32⟩ : BufTy).Contents (Elt F) → (⟨S2000000, .f32⟩ : BufTy).Contents (Elt F) → (⟨S2000000, .f32⟩ : BufTy).Contents (Elt F)) (after ops V (Proc.devRef .tc main_v70)) (after ops V (Proc.devRef .tc main_v68)) :=
  binary_at hW V 125 main_v70 main_v68 main_v71 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_52 : after ops V (Proc.devRef .tc main_cst_52) = (constant S_ .f32 0x40800000#32) :=
  nullary_at hW V 126 main_cst_52 (constant S_ .f32 0x40800000#32) _ rfl (by decide +kernel)
theorem rd_main_v72 : after ops V (Proc.devRef .tc main_v72) = (broadcastInDim S2000000 ![] bcast_S_S2000000 : (⟨S_, .f32⟩ : BufTy).Contents (Elt F) → (⟨S2000000, .f32⟩ : BufTy).Contents (Elt F)) (after ops V (Proc.devRef .tc main_cst_52)) :=
  Writes.unary_at hW V 127 main_cst_52 main_v72 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v73 : after ops V (Proc.devRef .tc main_v73) = (mulf : (⟨S2000000, .f32⟩ : BufTy).Contents (Elt F) → (⟨S2000000, .f32⟩ : BufTy).Contents (Elt F) → (⟨S2000000, .f32⟩ : BufTy).Contents (Elt F)) (after ops V (Proc.devRef .tc main_v72)) (after ops V (Proc.devRef .tc main_v59)) :=
  binary_at hW V 128 main_v72 main_v59 main_v73 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v74 : after ops V (Proc.devRef .tc main_v74) = (mulf : (⟨S2000000, .f32⟩ : BufTy).Contents (Elt F) → (⟨S2000000, .f32⟩ : BufTy).Contents (Elt F) → (⟨S2000000, .f32⟩ : BufTy).Contents (Elt F)) (after ops V (Proc.devRef .tc main_v73)) (after ops V (Proc.devRef .tc main_v41)) :=
  binary_at hW V 129 main_v73 main_v41 main_v74 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v75 : after ops V (Proc.devRef .tc main_v75) = (subf : (⟨S2000000, .f32⟩ : BufTy).Contents (Elt F) → (⟨S2000000, .f32⟩ : BufTy).Contents (Elt F) → (⟨S2000000, .f32⟩ : BufTy).Contents (Elt F)) (after ops V (Proc.devRef .tc main_v71)) (after ops V (Proc.devRef .tc main_v74)) :=
  binary_at hW V 130 main_v71 main_v74 main_v75 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_53 : after ops V (Proc.devRef .tc main_cst_53) = (constant S_ .f32 0x40A00000#32) :=
  nullary_at hW V 131 main_cst_53 (constant S_ .f32 0x40A00000#32) _ rfl (by decide +kernel)
theorem rd_main_v76 : after ops V (Proc.devRef .tc main_v76) = (broadcastInDim S2000000 ![] bcast_S_S2000000 : (⟨S_, .f32⟩ : BufTy).Contents (Elt F) → (⟨S2000000, .f32⟩ : BufTy).Contents (Elt F)) (after ops V (Proc.devRef .tc main_cst_53)) :=
  Writes.unary_at hW V 132 main_cst_53 main_v76 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v77 : after ops V (Proc.devRef .tc main_v77) = (Host.divf : (⟨S2000000, .f32⟩ : BufTy).Contents (Elt F) → (⟨S2000000, .f32⟩ : BufTy).Contents (Elt F) → (⟨S2000000, .f32⟩ : BufTy).Contents (Elt F)) (after ops V (Proc.devRef .tc main_v75)) (after ops V (Proc.devRef .tc main_v76)) :=
  binary_at hW V 133 main_v75 main_v76 main_v77 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_54 : after ops V (Proc.devRef .tc main_cst_54) = (constant S_ .f32 0x41300000#32) :=
  nullary_at hW V 134 main_cst_54 (constant S_ .f32 0x41300000#32) _ rfl (by decide +kernel)
theorem rd_main_v78 : after ops V (Proc.devRef .tc main_v78) = (broadcastInDim S2000000 ![] bcast_S_S2000000 : (⟨S_, .f32⟩ : BufTy).Contents (Elt F) → (⟨S2000000, .f32⟩ : BufTy).Contents (Elt F)) (after ops V (Proc.devRef .tc main_cst_54)) :=
  Writes.unary_at hW V 135 main_cst_54 main_v78 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v79 : after ops V (Proc.devRef .tc main_v79) = (mulf : (⟨S2000000, .f32⟩ : BufTy).Contents (Elt F) → (⟨S2000000, .f32⟩ : BufTy).Contents (Elt F) → (⟨S2000000, .f32⟩ : BufTy).Contents (Elt F)) (after ops V (Proc.devRef .tc main_v78)) (after ops V (Proc.devRef .tc main_arg2)) :=
  binary_at hW V 136 main_v78 main_arg2 main_v79 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v80 : after ops V (Proc.devRef .tc main_v80) = (mulf : (⟨S2000000, .f32⟩ : BufTy).Contents (Elt F) → (⟨S2000000, .f32⟩ : BufTy).Contents (Elt F) → (⟨S2000000, .f32⟩ : BufTy).Contents (Elt F)) (after ops V (Proc.devRef .tc main_v79)) (after ops V (Proc.devRef .tc main_v77)) :=
  binary_at hW V 137 main_v79 main_v77 main_v80 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_55 : after ops V (Proc.devRef .tc main_cst_55) = (constant S_ .f32 0x40A00000#32) :=
  nullary_at hW V 138 main_cst_55 (constant S_ .f32 0x40A00000#32) _ rfl (by decide +kernel)
theorem rd_main_v81 : after ops V (Proc.devRef .tc main_v81) = (broadcastInDim S2000000 ![] bcast_S_S2000000 : (⟨S_, .f32⟩ : BufTy).Contents (Elt F) → (⟨S2000000, .f32⟩ : BufTy).Contents (Elt F)) (after ops V (Proc.devRef .tc main_cst_55)) :=
  Writes.unary_at hW V 139 main_cst_55 main_v81 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v82 : after ops V (Proc.devRef .tc main_v82) = (mulf : (⟨S2000000, .f32⟩ : BufTy).Contents (Elt F) → (⟨S2000000, .f32⟩ : BufTy).Contents (Elt F) → (⟨S2000000, .f32⟩ : BufTy).Contents (Elt F)) (after ops V (Proc.devRef .tc main_v81)) (after ops V (Proc.devRef .tc main_v68)) :=
  binary_at hW V 140 main_v81 main_v68 main_v82 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v83 : after ops V (Proc.devRef .tc main_v83) = (mulf : (⟨S2000000, .f32⟩ : BufTy).Contents (Elt F) → (⟨S2000000, .f32⟩ : BufTy).Contents (Elt F) → (⟨S2000000, .f32⟩ : BufTy).Contents (Elt F)) (after ops V (Proc.devRef .tc main_v82)) (after ops V (Proc.devRef .tc main_v41)) :=
  binary_at hW V 141 main_v82 main_v41 main_v83 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v84 : after ops V (Proc.devRef .tc main_v84) = (subf : (⟨S2000000, .f32⟩ : BufTy).Contents (Elt F) → (⟨S2000000, .f32⟩ : BufTy).Contents (Elt F) → (⟨S2000000, .f32⟩ : BufTy).Contents (Elt F)) (after ops V (Proc.devRef .tc main_v80)) (after ops V (Proc.devRef .tc main_v83)) :=
  binary_at hW V 142 main_v80 main_v83 main_v84 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_56 : after ops V (Proc.devRef .tc main_cst_56) = (constant S_ .f32 0x40C00000#32) :=
  nullary_at hW V 143 main_cst_56 (constant S_ .f32 0x40C00000#32) _ rfl (by decide +kernel)
theorem rd_main_v85 : after ops V (Proc.devRef .tc main_v85) = (broadcastInDim S2000000 ![] bcast_S_S2000000 : (⟨S_, .f32⟩ : BufTy).Contents (Elt F) → (⟨S2000000, .f32⟩ : BufTy).Contents (Elt F)) (after ops V (Proc.devRef .tc main_cst_56)) :=
  Writes.unary_at hW V 144 main_cst_56 main_v85 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v86 : after ops V (Proc.devRef .tc main_v86) = (Host.divf : (⟨S2000000, .f32⟩ : BufTy).Contents (Elt F) → (⟨S2000000, .f32⟩ : BufTy).Contents (Elt F) → (⟨S2000000, .f32⟩ : BufTy).Contents (Elt F)) (after ops V (Proc.devRef .tc main_v84)) (after ops V (Proc.devRef .tc main_v85)) :=
  binary_at hW V 145 main_v84 main_v85 main_v86 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_57 : after ops V (Proc.devRef .tc main_cst_57) = (constant S_ .f32 0x41500000#32) :=
  nullary_at hW V 146 main_cst_57 (constant S_ .f32 0x41500000#32) _ rfl (by decide +kernel)
theorem rd_main_v87 : after ops V (Proc.devRef .tc main_v87) = (broadcastInDim S2000000 ![] bcast_S_S2000000 : (⟨S_, .f32⟩ : BufTy).Contents (Elt F) → (⟨S2000000, .f32⟩ : BufTy).Contents (Elt F)) (after ops V (Proc.devRef .tc main_cst_57)) :=
  Writes.unary_at hW V 147 main_cst_57 main_v87 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v88 : after ops V (Proc.devRef .tc main_v88) = (mulf : (⟨S2000000, .f32⟩ : BufTy).Contents (Elt F) → (⟨S2000000, .f32⟩ : BufTy).Contents (Elt F) → (⟨S2000000, .f32⟩ : BufTy).Contents (Elt F)) (after ops V (Proc.devRef .tc main_v87)) (after ops V (Proc.devRef .tc main_arg2)) :=
  binary_at hW V 148 main_v87 main_arg2 main_v88 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v89 : after ops V (Proc.devRef .tc main_v89) = (mulf : (⟨S2000000, .f32⟩ : BufTy).Contents (Elt F) → (⟨S2000000, .f32⟩ : BufTy).Contents (Elt F) → (⟨S2000000, .f32⟩ : BufTy).Contents (Elt F)) (after ops V (Proc.devRef .tc main_v88)) (after ops V (Proc.devRef .tc main_v86)) :=
  binary_at hW V 149 main_v88 main_v86 main_v89 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_58 : after ops V (Proc.devRef .tc main_cst_58) = (constant S_ .f32 0x40C00000#32) :=
  nullary_at hW V 150 main_cst_58 (constant S_ .f32 0x40C00000#32) _ rfl (by decide +kernel)
theorem rd_main_v90 : after ops V (Proc.devRef .tc main_v90) = (broadcastInDim S2000000 ![] bcast_S_S2000000 : (⟨S_, .f32⟩ : BufTy).Contents (Elt F) → (⟨S2000000, .f32⟩ : BufTy).Contents (Elt F)) (after ops V (Proc.devRef .tc main_cst_58)) :=
  Writes.unary_at hW V 151 main_cst_58 main_v90 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v91 : after ops V (Proc.devRef .tc main_v91) = (mulf : (⟨S2000000, .f32⟩ : BufTy).Contents (Elt F) → (⟨S2000000, .f32⟩ : BufTy).Contents (Elt F) → (⟨S2000000, .f32⟩ : BufTy).Contents (Elt F)) (after ops V (Proc.devRef .tc main_v90)) (after ops V (Proc.devRef .tc main_v77)) :=
  binary_at hW V 152 main_v90 main_v77 main_v91 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v92 : after ops V (Proc.devRef .tc main_v92) = (mulf : (⟨S2000000, .f32⟩ : BufTy).Contents (Elt F) → (⟨S2000000, .f32⟩ : BufTy).Contents (Elt F) → (⟨S2000000, .f32⟩ : BufTy).Contents (Elt F)) (after ops V (Proc.devRef .tc main_v91)) (after ops V (Proc.devRef .tc main_v41)) :=
  binary_at hW V 153 main_v91 main_v41 main_v92 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v93 : after ops V (Proc.devRef .tc main_v93) = (subf : (⟨S2000000, .f32⟩ : BufTy).Contents (Elt F) → (⟨S2000000, .f32⟩ : BufTy).Contents (Elt F) → (⟨S2000000, .f32⟩ : BufTy).Contents (Elt F)) (after ops V (Proc.devRef .tc main_v89)) (after ops V (Proc.devRef .tc main_v92)) :=
  binary_at hW V 154 main_v89 main_v92 main_v93 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_59 : after ops V (Proc.devRef .tc main_cst_59) = (constant S_ .f32 0x40E00000#32) :=
  nullary_at hW V 155 main_cst_59 (constant S_ .f32 0x40E00000#32) _ rfl (by decide +kernel)
theorem rd_main_v94 : after ops V (Proc.devRef .tc main_v94) = (broadcastInDim S2000000 ![] bcast_S_S2000000 : (⟨S_, .f32⟩ : BufTy).Contents (Elt F) → (⟨S2000000, .f32⟩ : BufTy).Contents (Elt F)) (after ops V (Proc.devRef .tc main_cst_59)) :=
  Writes.unary_at hW V 156 main_cst_59 main_v94 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v95 : after ops V (Proc.devRef .tc main_v95) = (Host.divf : (⟨S2000000, .f32⟩ : BufTy).Contents (Elt F) → (⟨S2000000, .f32⟩ : BufTy).Contents (Elt F) → (⟨S2000000, .f32⟩ : BufTy).Contents (Elt F)) (after ops V (Proc.devRef .tc main_v93)) (after ops V (Proc.devRef .tc main_v94)) :=
  binary_at hW V 157 main_v93 main_v94 main_v95 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_60 : after ops V (Proc.devRef .tc main_cst_60) = (constant S_ .f32 0x41700000#32) :=
  nullary_at hW V 158 main_cst_60 (constant S_ .f32 0x41700000#32) _ rfl (by decide +kernel)
theorem rd_main_v96 : after ops V (Proc.devRef .tc main_v96) = (broadcastInDim S2000000 ![] bcast_S_S2000000 : (⟨S_, .f32⟩ : BufTy).Contents (Elt F) → (⟨S2000000, .f32⟩ : BufTy).Contents (Elt F)) (after ops V (Proc.devRef .tc main_cst_60)) :=
  Writes.unary_at hW V 159 main_cst_60 main_v96 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v97 : after ops V (Proc.devRef .tc main_v97) = (mulf : (⟨S2000000, .f32⟩ : BufTy).Contents (Elt F) → (⟨S2000000, .f32⟩ : BufTy).Contents (Elt F) → (⟨S2000000, .f32⟩ : BufTy).Contents (Elt F)) (after ops V (Proc.devRef .tc main_v96)) (after ops V (Proc.devRef .tc main_arg2)) :=
  binary_at hW V 160 main_v96 main_arg2 main_v97 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v98 : after ops V (Proc.devRef .tc main_v98) = (mulf : (⟨S2000000, .f32⟩ : BufTy).Contents (Elt F) → (⟨S2000000, .f32⟩ : BufTy).Contents (Elt F) → (⟨S2000000, .f32⟩ : BufTy).Contents (Elt F)) (after ops V (Proc.devRef .tc main_v97)) (after ops V (Proc.devRef .tc main_v95)) :=
  binary_at hW V 161 main_v97 main_v95 main_v98 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_61 : after ops V (Proc.devRef .tc main_cst_61) = (constant S_ .f32 0x40E00000#32) :=
  nullary_at hW V 162 main_cst_61 (constant S_ .f32 0x40E00000#32) _ rfl (by decide +kernel)
theorem rd_main_v99 : after ops V (Proc.devRef .tc main_v99) = (broadcastInDim S2000000 ![] bcast_S_S2000000 : (⟨S_, .f32⟩ : BufTy).Contents (Elt F) → (⟨S2000000, .f32⟩ : BufTy).Contents (Elt F)) (after ops V (Proc.devRef .tc main_cst_61)) :=
  Writes.unary_at hW V 163 main_cst_61 main_v99 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v100 : after ops V (Proc.devRef .tc main_v100) = (mulf : (⟨S2000000, .f32⟩ : BufTy).Contents (Elt F) → (⟨S2000000, .f32⟩ : BufTy).Contents (Elt F) → (⟨S2000000, .f32⟩ : BufTy).Contents (Elt F)) (after ops V (Proc.devRef .tc main_v99)) (after ops V (Proc.devRef .tc main_v86)) :=
  binary_at hW V 164 main_v99 main_v86 main_v100 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v101 : after ops V (Proc.devRef .tc main_v101) = (mulf : (⟨S2000000, .f32⟩ : BufTy).Contents (Elt F) → (⟨S2000000, .f32⟩ : BufTy).Contents (Elt F) → (⟨S2000000, .f32⟩ : BufTy).Contents (Elt F)) (after ops V (Proc.devRef .tc main_v100)) (after ops V (Proc.devRef .tc main_v41)) :=
  binary_at hW V 165 main_v100 main_v41 main_v101 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v102 : after ops V (Proc.devRef .tc main_v102) = (subf : (⟨S2000000, .f32⟩ : BufTy).Contents (Elt F) → (⟨S2000000, .f32⟩ : BufTy).Contents (Elt F) → (⟨S2000000, .f32⟩ : BufTy).Contents (Elt F)) (after ops V (Proc.devRef .tc main_v98)) (after ops V (Proc.devRef .tc main_v101)) :=
  binary_at hW V 166 main_v98 main_v101 main_v102 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_62 : after ops V (Proc.devRef .tc main_cst_62) = (constant S_ .f32 0x41000000#32) :=
  nullary_at hW V 167 main_cst_62 (constant S_ .f32 0x41000000#32) _ rfl (by decide +kernel)
theorem rd_main_v103 : after ops V (Proc.devRef .tc main_v103) = (broadcastInDim S2000000 ![] bcast_S_S2000000 : (⟨S_, .f32⟩ : BufTy).Contents (Elt F) → (⟨S2000000, .f32⟩ : BufTy).Contents (Elt F)) (after ops V (Proc.devRef .tc main_cst_62)) :=
  Writes.unary_at hW V 168 main_cst_62 main_v103 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v104 : after ops V (Proc.devRef .tc main_v104) = (Host.divf : (⟨S2000000, .f32⟩ : BufTy).Contents (Elt F) → (⟨S2000000, .f32⟩ : BufTy).Contents (Elt F) → (⟨S2000000, .f32⟩ : BufTy).Contents (Elt F)) (after ops V (Proc.devRef .tc main_v102)) (after ops V (Proc.devRef .tc main_v103)) :=
  binary_at hW V 169 main_v102 main_v103 main_v104 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_63 : after ops V (Proc.devRef .tc main_cst_63) = (constant S_ .f32 0x40A00000#32) :=
  nullary_at hW V 170 main_cst_63 (constant S_ .f32 0x40A00000#32) _ rfl (by decide +kernel)
theorem rd_main_v105 : after ops V (Proc.devRef .tc main_v105) = (broadcastInDim S2000000 ![] bcast_S_S2000000 : (⟨S_, .f32⟩ : BufTy).Contents (Elt F) → (⟨S2000000, .f32⟩ : BufTy).Contents (Elt F)) (after ops V (Proc.devRef .tc main_cst_63)) :=
  Writes.unary_at hW V 171 main_cst_63 main_v105 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v106 : after ops V (Proc.devRef .tc main_v106) = (mulf : (⟨S2000000, .f32⟩ : BufTy).Contents (Elt F) → (⟨S2000000, .f32⟩ : BufTy).Contents (Elt F) → (⟨S2000000, .f32⟩ : BufTy).Contents (Elt F)) (after ops V (Proc.devRef .tc main_v105)) (after ops V (Proc.devRef .tc main_arg2)) :=
  binary_at hW V 172 main_v105 main_arg2 main_v106 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v107 : after ops V (Proc.devRef .tc main_v107) = (mulf : (⟨S2000000, .f32⟩ : BufTy).Contents (Elt F) → (⟨S2000000, .f32⟩ : BufTy).Contents (Elt F) → (⟨S2000000, .f32⟩ : BufTy).Contents (Elt F)) (after ops V (Proc.devRef .tc main_v106)) (after ops V (Proc.devRef .tc main_v22)) :=
  binary_at hW V 173 main_v106 main_v22 main_v107 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_64 : after ops V (Proc.devRef .tc main_cst_64) = (constant S_ .f32 0x40400000#32) :=
  nullary_at hW V 174 main_cst_64 (constant S_ .f32 0x40400000#32) _ rfl (by decide +kernel)
theorem rd_main_v108 : after ops V (Proc.devRef .tc main_v108) = (broadcastInDim S2000000 ![] bcast_S_S2000000 : (⟨S_, .f32⟩ : BufTy).Contents (Elt F) → (⟨S2000000, .f32⟩ : BufTy).Contents (Elt F)) (after ops V (Proc.devRef .tc main_cst_64)) :=
  Writes.unary_at hW V 175 main_cst_64 main_v108 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v109 : after ops V (Proc.devRef .tc main_v109) = (mulf : (⟨S2000000, .f32⟩ : BufTy).Contents (Elt F) → (⟨S2000000, .f32⟩ : BufTy).Contents (Elt F) → (⟨S2000000, .f32⟩ : BufTy).Contents (Elt F)) (after ops V (Proc.devRef .tc main_v108)) (after ops V (Proc.devRef .tc main_v2)) :=
  binary_at hW V 176 main_v108 main_v2 main_v109 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v110 : after ops V (Proc.devRef .tc main_v110) = (mulf : (⟨S2000000, .f32⟩ : BufTy).Contents (Elt F) → (⟨S2000000, .f32⟩ : BufTy).Contents (Elt F) → (⟨S2000000, .f32⟩ : BufTy).Contents (Elt F)) (after ops V (Proc.devRef .tc main_v109)) (after ops V (Proc.devRef .tc main_v41)) :=
  binary_at hW V 177 main_v109 main_v41 main_v110 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v111 : after ops V (Proc.devRef .tc main_v111) = (subf : (⟨S2000000, .f32⟩ : BufTy).Contents (Elt F) → (⟨S2000000, .f32⟩ : BufTy).Contents (Elt F) → (⟨S2000000, .f32⟩ : BufTy).Contents (Elt F)) (after ops V (Proc.devRef .tc main_v107)) (after ops V (Proc.devRef .tc main_v110)) :=
  binary_at hW V 178 main_v107 main_v110 main_v111 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_65 : after ops V (Proc.devRef .tc main_cst_65) = (constant S_ .f32 0x40000000#32) :=
  nullary_at hW V 179 main_cst_65 (constant S_ .f32 0x40000000#32) _ rfl (by decide +kernel)

end Cert.ReferenceIdeal.Line

end
-- ==== Proof.RefRead3.lean ====
/- Window 3 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v112 : after ops V (Proc.devRef .tc main_v112) = (broadcastInDim S2000000 ![] bcast_S_S2000000 : (⟨S_, .f32⟩ : BufTy).Contents (Elt F) → (⟨S2000000, .f32⟩ : BufTy).Contents (Elt F)) (after ops V (Proc.devRef .tc main_cst_65)) :=
  Writes.unary_at hW V 180 main_cst_65 main_v112 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v113 : after ops V (Proc.devRef .tc main_v113) = (Host.divf : (⟨S2000000, .f32⟩ : BufTy).Contents (Elt F) → (⟨S2000000, .f32⟩ : BufTy).Contents (Elt F) → (⟨S2000000, .f32⟩ : BufTy).Contents (Elt F)) (after ops V (Proc.devRef .tc main_v111)) (after ops V (Proc.devRef .tc main_v112)) :=
  binary_at hW V 181 main_v111 main_v112 main_v113 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_66 : after ops V (Proc.devRef .tc main_cst_66) = (constant S_ .f32 0x40E00000#32) :=
  nullary_at hW V 182 main_cst_66 (constant S_ .f32 0x40E00000#32) _ rfl (by decide +kernel)
theorem rd_main_v114 : after ops V (Proc.devRef .tc main_v114) = (broadcastInDim S2000000 ![] bcast_S_S2000000 : (⟨S_, .f32⟩ : BufTy).Contents (Elt F) → (⟨S2000000, .f32⟩ : BufTy).Contents (Elt F)) (after ops V (Proc.devRef .tc main_cst_66)) :=
  Writes.unary_at hW V 183 main_cst_66 main_v114 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v115 : after ops V (Proc.devRef .tc main_v115) = (mulf : (⟨S2000000, .f32⟩ : BufTy).Contents (Elt F) → (⟨S2000000, .f32⟩ : BufTy).Contents (Elt F) → (⟨S2000000, .f32⟩ : BufTy).Contents (Elt F)) (after ops V (Proc.devRef .tc main_v114)) (after ops V (Proc.devRef .tc main_arg2)) :=
  binary_at hW V 184 main_v114 main_arg2 main_v115 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v116 : after ops V (Proc.devRef .tc main_v116) = (mulf : (⟨S2000000, .f32⟩ : BufTy).Contents (Elt F) → (⟨S2000000, .f32⟩ : BufTy).Contents (Elt F) → (⟨S2000000, .f32⟩ : BufTy).Contents (Elt F)) (after ops V (Proc.devRef .tc main_v115)) (after ops V (Proc.devRef .tc main_v113)) :=
  binary_at hW V 185 main_v115 main_v113 main_v116 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_67 : after ops V (Proc.devRef .tc main_cst_67) = (constant S_ .f32 0x40800000#32) :=
  nullary_at hW V 186 main_cst_67 (constant S_ .f32 0x40800000#32) _ rfl (by decide +kernel)
theorem rd_main_v117 : after ops V (Proc.devRef .tc main_v117) = (broadcastInDim S2000000 ![] bcast_S_S2000000 : (⟨S_, .f32⟩ : BufTy).Contents (Elt F) → (⟨S2000000, .f32⟩ : BufTy).Contents (Elt F)) (after ops V (Proc.devRef .tc main_cst_67)) :=
  Writes.unary_at hW V 187 main_cst_67 main_v117 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v118 : after ops V (Proc.devRef .tc main_v118) = (mulf : (⟨S2000000, .f32⟩ : BufTy).Contents (Elt F) → (⟨S2000000, .f32⟩ : BufTy).Contents (Elt F) → (⟨S2000000, .f32⟩ : BufTy).Contents (Elt F)) (after ops V (Proc.devRef .tc main_v117)) (after ops V (Proc.devRef .tc main_v22)) :=
  binary_at hW V 188 main_v117 main_v22 main_v118 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v119 : after ops V (Proc.devRef .tc main_v119) = (mulf : (⟨S2000000, .f32⟩ : BufTy).Contents (Elt F) → (⟨S2000000, .f32⟩ : BufTy).Contents (Elt F) → (⟨S2000000, .f32⟩ : BufTy).Contents (Elt F)) (after ops V (Proc.devRef .tc main_v118)) (after ops V (Proc.devRef .tc main_v41)) :=
  binary_at hW V 189 main_v118 main_v41 main_v119 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v120 : after ops V (Proc.devRef .tc main_v120) = (subf : (⟨S2000000, .f32⟩ : BufTy).Contents (Elt F) → (⟨S2000000, .f32⟩ : BufTy).Contents (Elt F) → (⟨S2000000, .f32⟩ : BufTy).Contents (Elt F)) (after ops V (Proc.devRef .tc main_v116)) (after ops V (Proc.devRef .tc main_v119)) :=
  binary_at hW V 190 main_v116 main_v119 main_v120 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_68 : after ops V (Proc.devRef .tc main_cst_68) = (constant S_ .f32 0x40400000#32) :=
  nullary_at hW V 191 main_cst_68 (constant S_ .f32 0x40400000#32) _ rfl (by decide +kernel)
theorem rd_main_v121 : after ops V (Proc.devRef .tc main_v121) = (broadcastInDim S2000000 ![] bcast_S_S2000000 : (⟨S_, .f32⟩ : BufTy).Contents (Elt F) → (⟨S2000000, .f32⟩ : BufTy).Contents (Elt F)) (after ops V (Proc.devRef .tc main_cst_68)) :=
  Writes.unary_at hW V 192 main_cst_68 main_v121 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v122 : after ops V (Proc.devRef .tc main_v122) = (Host.divf : (⟨S2000000, .f32⟩ : BufTy).Contents (Elt F) → (⟨S2000000, .f32⟩ : BufTy).Contents (Elt F) → (⟨S2000000, .f32⟩ : BufTy).Contents (Elt F)) (after ops V (Proc.devRef .tc main_v120)) (after ops V (Proc.devRef .tc main_v121)) :=
  binary_at hW V 193 main_v120 main_v121 main_v122 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_69 : after ops V (Proc.devRef .tc main_cst_69) = (constant S_ .f32 0x41100000#32) :=
  nullary_at hW V 194 main_cst_69 (constant S_ .f32 0x41100000#32) _ rfl (by decide +kernel)
theorem rd_main_v123 : after ops V (Proc.devRef .tc main_v123) = (broadcastInDim S2000000 ![] bcast_S_S2000000 : (⟨S_, .f32⟩ : BufTy).Contents (Elt F) → (⟨S2000000, .f32⟩ : BufTy).Contents (Elt F)) (after ops V (Proc.devRef .tc main_cst_69)) :=
  Writes.unary_at hW V 195 main_cst_69 main_v123 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v124 : after ops V (Proc.devRef .tc main_v124) = (mulf : (⟨S2000000, .f32⟩ : BufTy).Contents (Elt F) → (⟨S2000000, .f32⟩ : BufTy).Contents (Elt F) → (⟨S2000000, .f32⟩ : BufTy).Contents (Elt F)) (after ops V (Proc.devRef .tc main_v123)) (after ops V (Proc.devRef .tc main_arg2)) :=
  binary_at hW V 196 main_v123 main_arg2 main_v124 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v125 : after ops V (Proc.devRef .tc main_v125) = (mulf : (⟨S2000000, .f32⟩ : BufTy).Contents (Elt F) → (⟨S2000000, .f32⟩ : BufTy).Contents (Elt F) → (⟨S2000000, .f32⟩ : BufTy).Contents (Elt F)) (after ops V (Proc.devRef .tc main_v124)) (after ops V (Proc.devRef .tc main_v122)) :=
  binary_at hW V 197 main_v124 main_v122 main_v125 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_70 : after ops V (Proc.devRef .tc main_cst_70) = (constant S_ .f32 0x40A00000#32) :=
  nullary_at hW V 198 main_cst_70 (constant S_ .f32 0x40A00000#32) _ rfl (by decide +kernel)
theorem rd_main_v126 : after ops V (Proc.devRef .tc main_v126) = (broadcastInDim S2000000 ![] bcast_S_S2000000 : (⟨S_, .f32⟩ : BufTy).Contents (Elt F) → (⟨S2000000, .f32⟩ : BufTy).Contents (Elt F)) (after ops V (Proc.devRef .tc main_cst_70)) :=
  Writes.unary_at hW V 199 main_cst_70 main_v126 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v127 : after ops V (Proc.devRef .tc main_v127) = (mulf : (⟨S2000000, .f32⟩ : BufTy).Contents (Elt F) → (⟨S2000000, .f32⟩ : BufTy).Contents (Elt F) → (⟨S2000000, .f32⟩ : BufTy).Contents (Elt F)) (after ops V (Proc.devRef .tc main_v126)) (after ops V (Proc.devRef .tc main_v113)) :=
  binary_at hW V 200 main_v126 main_v113 main_v127 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v128 : after ops V (Proc.devRef .tc main_v128) = (mulf : (⟨S2000000, .f32⟩ : BufTy).Contents (Elt F) → (⟨S2000000, .f32⟩ : BufTy).Contents (Elt F) → (⟨S2000000, .f32⟩ : BufTy).Contents (Elt F)) (after ops V (Proc.devRef .tc main_v127)) (after ops V (Proc.devRef .tc main_v41)) :=
  binary_at hW V 201 main_v127 main_v41 main_v128 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v129 : after ops V (Proc.devRef .tc main_v129) = (subf : (⟨S2000000, .f32⟩ : BufTy).Contents (Elt F) → (⟨S2000000, .f32⟩ : BufTy).Contents (Elt F) → (⟨S2000000, .f32⟩ : BufTy).Contents (Elt F)) (after ops V (Proc.devRef .tc main_v125)) (after ops V (Proc.devRef .tc main_v128)) :=
  binary_at hW V 202 main_v125 main_v128 main_v129 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_71 : after ops V (Proc.devRef .tc main_cst_71) = (constant S_ .f32 0x40800000#32) :=
  nullary_at hW V 203 main_cst_71 (constant S_ .f32 0x40800000#32) _ rfl (by decide +kernel)
theorem rd_main_v130 : after ops V (Proc.devRef .tc main_v130) = (broadcastInDim S2000000 ![] bcast_S_S2000000 : (⟨S_, .f32⟩ : BufTy).Contents (Elt F) → (⟨S2000000, .f32⟩ : BufTy).Contents (Elt F)) (after ops V (Proc.devRef .tc main_cst_71)) :=
  Writes.unary_at hW V 204 main_cst_71 main_v130 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v131 : after ops V (Proc.devRef .tc main_v131) = (Host.divf : (⟨S2000000, .f32⟩ : BufTy).Contents (Elt F) → (⟨S2000000, .f32⟩ : BufTy).Contents (Elt F) → (⟨S2000000, .f32⟩ : BufTy).Contents (Elt F)) (after ops V (Proc.devRef .tc main_v129)) (after ops V (Proc.devRef .tc main_v130)) :=
  binary_at hW V 205 main_v129 main_v130 main_v131 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_72 : after ops V (Proc.devRef .tc main_cst_72) = (constant S_ .f32 0x41300000#32) :=
  nullary_at hW V 206 main_cst_72 (constant S_ .f32 0x41300000#32) _ rfl (by decide +kernel)
theorem rd_main_v132 : after ops V (Proc.devRef .tc main_v132) = (broadcastInDim S2000000 ![] bcast_S_S2000000 : (⟨S_, .f32⟩ : BufTy).Contents (Elt F) → (⟨S2000000, .f32⟩ : BufTy).Contents (Elt F)) (after ops V (Proc.devRef .tc main_cst_72)) :=
  Writes.unary_at hW V 207 main_cst_72 main_v132 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v133 : after ops V (Proc.devRef .tc main_v133) = (mulf : (⟨S2000000, .f32⟩ : BufTy).Contents (Elt F) → (⟨S2000000, .f32⟩ : BufTy).Contents (Elt F) → (⟨S2000000, .f32⟩ : BufTy).Contents (Elt F)) (after ops V (Proc.devRef .tc main_v132)) (after ops V (Proc.devRef .tc main_arg2)) :=
  binary_at hW V 208 main_v132 main_arg2 main_v133 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v134 : after ops V (Proc.devRef .tc main_v134) = (mulf : (⟨S2000000, .f32⟩ : BufTy).Contents (Elt F) → (⟨S2000000, .f32⟩ : BufTy).Contents (Elt F) → (⟨S2000000, .f32⟩ : BufTy).Contents (Elt F)) (after ops V (Proc.devRef .tc main_v133)) (after ops V (Proc.devRef .tc main_v131)) :=
  binary_at hW V 209 main_v133 main_v131 main_v134 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_73 : after ops V (Proc.devRef .tc main_cst_73) = (constant S_ .f32 0x40C00000#32) :=
  nullary_at hW V 210 main_cst_73 (constant S_ .f32 0x40C00000#32) _ rfl (by decide +kernel)
theorem rd_main_v135 : after ops V (Proc.devRef .tc main_v135) = (broadcastInDim S2000000 ![] bcast_S_S2000000 : (⟨S_, .f32⟩ : BufTy).Contents (Elt F) → (⟨S2000000, .f32⟩ : BufTy).Contents (Elt F)) (after ops V (Proc.devRef .tc main_cst_73)) :=
  Writes.unary_at hW V 211 main_cst_73 main_v135 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v136 : after ops V (Proc.devRef .tc main_v136) = (mulf : (⟨S2000000, .f32⟩ : BufTy).Contents (Elt F) → (⟨S2000000, .f32⟩ : BufTy).Contents (Elt F) → (⟨S2000000, .f32⟩ : BufTy).Contents (Elt F)) (after ops V (Proc.devRef .tc main_v135)) (after ops V (Proc.devRef .tc main_v122)) :=
  binary_at hW V 212 main_v135 main_v122 main_v136 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v137 : after ops V (Proc.devRef .tc main_v137) = (mulf : (⟨S2000000, .f32⟩ : BufTy).Contents (Elt F) → (⟨S2000000, .f32⟩ : BufTy).Contents (Elt F) → (⟨S2000000, .f32⟩ : BufTy).Contents (Elt F)) (after ops V (Proc.devRef .tc main_v136)) (after ops V (Proc.devRef .tc main_v41)) :=
  binary_at hW V 213 main_v136 main_v41 main_v137 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v138 : after ops V (Proc.devRef .tc main_v138) = (subf : (⟨S2000000, .f32⟩ : BufTy).Contents (Elt F) → (⟨S2000000, .f32⟩ : BufTy).Contents (Elt F) → (⟨S2000000, .f32⟩ : BufTy).Contents (Elt F)) (after ops V (Proc.devRef .tc main_v134)) (after ops V (Proc.devRef .tc main_v137)) :=
  binary_at hW V 214 main_v134 main_v137 main_v138 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_74 : after ops V (Proc.devRef .tc main_cst_74) = (constant S_ .f32 0x40A00000#32) :=
  nullary_at hW V 215 main_cst_74 (constant S_ .f32 0x40A00000#32) _ rfl (by decide +kernel)
theorem rd_main_v139 : after ops V (Proc.devRef .tc main_v139) = (broadcastInDim S2000000 ![] bcast_S_S2000000 : (⟨S_, .f32⟩ : BufTy).Contents (Elt F) → (⟨S2000000, .f32⟩ : BufTy).Contents (Elt F)) (after ops V (Proc.devRef .tc main_cst_74)) :=
  Writes.unary_at hW V 216 main_cst_74 main_v139 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v140 : after ops V (Proc.devRef .tc main_v140) = (Host.divf : (⟨S2000000, .f32⟩ : BufTy).Contents (Elt F) → (⟨S2000000, .f32⟩ : BufTy).Contents (Elt F) → (⟨S2000000, .f32⟩ : BufTy).Contents (Elt F)) (after ops V (Proc.devRef .tc main_v138)) (after ops V (Proc.devRef .tc main_v139)) :=
  binary_at hW V 217 main_v138 main_v139 main_v140 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_75 : after ops V (Proc.devRef .tc main_cst_75) = (constant S_ .f32 0x41500000#32) :=
  nullary_at hW V 218 main_cst_75 (constant S_ .f32 0x41500000#32) _ rfl (by decide +kernel)
theorem rd_main_v141 : after ops V (Proc.devRef .tc main_v141) = (broadcastInDim S2000000 ![] bcast_S_S2000000 : (⟨S_, .f32⟩ : BufTy).Contents (Elt F) → (⟨S2000000, .f32⟩ : BufTy).Contents (Elt F)) (after ops V (Proc.devRef .tc main_cst_75)) :=
  Writes.unary_at hW V 219 main_cst_75 main_v141 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v142 : after ops V (Proc.devRef .tc main_v142) = (mulf : (⟨S2000000, .f32⟩ : BufTy).Contents (Elt F) → (⟨S2000000, .f32⟩ : BufTy).Contents (Elt F) → (⟨S2000000, .f32⟩ : BufTy).Contents (Elt F)) (after ops V (Proc.devRef .tc main_v141)) (after ops V (Proc.devRef .tc main_arg2)) :=
  binary_at hW V 220 main_v141 main_arg2 main_v142 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v143 : after ops V (Proc.devRef .tc main_v143) = (mulf : (⟨S2000000, .f32⟩ : BufTy).Contents (Elt F) → (⟨S2000000, .f32⟩ : BufTy).Contents (Elt F) → (⟨S2000000, .f32⟩ : BufTy).Contents (Elt F)) (after ops V (Proc.devRef .tc main_v142)) (after ops V (Proc.devRef .tc main_v140)) :=
  binary_at hW V 221 main_v142 main_v140 main_v143 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_76 : after ops V (Proc.devRef .tc main_cst_76) = (constant S_ .f32 0x40E00000#32) :=
  nullary_at hW V 222 main_cst_76 (constant S_ .f32 0x40E00000#32) _ rfl (by decide +kernel)
theorem rd_main_v144 : after ops V (Proc.devRef .tc main_v144) = (broadcastInDim S2000000 ![] bcast_S_S2000000 : (⟨S_, .f32⟩ : BufTy).Contents (Elt F) → (⟨S2000000, .f32⟩ : BufTy).Contents (Elt F)) (after ops V (Proc.devRef .tc main_cst_76)) :=
  Writes.unary_at hW V 223 main_cst_76 main_v144 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v145 : after ops V (Proc.devRef .tc main_v145) = (mulf : (⟨S2000000, .f32⟩ : BufTy).Contents (Elt F) → (⟨S2000000, .f32⟩ : BufTy).Contents (Elt F) → (⟨S2000000, .f32⟩ : BufTy).Contents (Elt F)) (after ops V (Proc.devRef .tc main_v144)) (after ops V (Proc.devRef .tc main_v131)) :=
  binary_at hW V 224 main_v144 main_v131 main_v145 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v146 : after ops V (Proc.devRef .tc main_v146) = (mulf : (⟨S2000000, .f32⟩ : BufTy).Contents (Elt F) → (⟨S2000000, .f32⟩ : BufTy).Contents (Elt F) → (⟨S2000000, .f32⟩ : BufTy).Contents (Elt F)) (after ops V (Proc.devRef .tc main_v145)) (after ops V (Proc.devRef .tc main_v41)) :=
  binary_at hW V 225 main_v145 main_v41 main_v146 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v147 : after ops V (Proc.devRef .tc main_v147) = (subf : (⟨S2000000, .f32⟩ : BufTy).Contents (Elt F) → (⟨S2000000, .f32⟩ : BufTy).Contents (Elt F) → (⟨S2000000, .f32⟩ : BufTy).Contents (Elt F)) (after ops V (Proc.devRef .tc main_v143)) (after ops V (Proc.devRef .tc main_v146)) :=
  binary_at hW V 226 main_v143 main_v146 main_v147 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_77 : after ops V (Proc.devRef .tc main_cst_77) = (constant S_ .f32 0x40C00000#32) :=
  nullary_at hW V 227 main_cst_77 (constant S_ .f32 0x40C00000#32) _ rfl (by decide +kernel)
theorem rd_main_v148 : after ops V (Proc.devRef .tc main_v148) = (broadcastInDim S2000000 ![] bcast_S_S2000000 : (⟨S_, .f32⟩ : BufTy).Contents (Elt F) → (⟨S2000000, .f32⟩ : BufTy).Contents (Elt F)) (after ops V (Proc.devRef .tc main_cst_77)) :=
  Writes.unary_at hW V 228 main_cst_77 main_v148 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v149 : after ops V (Proc.devRef .tc main_v149) = (Host.divf : (⟨S2000000, .f32⟩ : BufTy).Contents (Elt F) → (⟨S2000000, .f32⟩ : BufTy).Contents (Elt F) → (⟨S2000000, .f32⟩ : BufTy).Contents (Elt F)) (after ops V (Proc.devRef .tc main_v147)) (after ops V (Proc.devRef .tc main_v148)) :=
  binary_at hW V 229 main_v147 main_v148 main_v149 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_78 : after ops V (Proc.devRef .tc main_cst_78) = (constant S_ .f32 0x41700000#32) :=
  nullary_at hW V 230 main_cst_78 (constant S_ .f32 0x41700000#32) _ rfl (by decide +kernel)
theorem rd_main_v150 : after ops V (Proc.devRef .tc main_v150) = (broadcastInDim S2000000 ![] bcast_S_S2000000 : (⟨S_, .f32⟩ : BufTy).Contents (Elt F) → (⟨S2000000, .f32⟩ : BufTy).Contents (Elt F)) (after ops V (Proc.devRef .tc main_cst_78)) :=
  Writes.unary_at hW V 231 main_cst_78 main_v150 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v151 : after ops V (Proc.devRef .tc main_v151) = (mulf : (⟨S2000000, .f32⟩ : BufTy).Contents (Elt F) → (⟨S2000000, .f32⟩ : BufTy).Contents (Elt F) → (⟨S2000000, .f32⟩ : BufTy).Contents (Elt F)) (after ops V (Proc.devRef .tc main_v150)) (after ops V (Proc.devRef .tc main_arg2)) :=
  binary_at hW V 232 main_v150 main_arg2 main_v151 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v152 : after ops V (Proc.devRef .tc main_v152) = (mulf : (⟨S2000000, .f32⟩ : BufTy).Contents (Elt F) → (⟨S2000000, .f32⟩ : BufTy).Contents (Elt F) → (⟨S2000000, .f32⟩ : BufTy).Contents (Elt F)) (after ops V (Proc.devRef .tc main_v151)) (after ops V (Proc.devRef .tc main_v149)) :=
  binary_at hW V 233 main_v151 main_v149 main_v152 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_79 : after ops V (Proc.devRef .tc main_cst_79) = (constant S_ .f32 0x41000000#32) :=
  nullary_at hW V 234 main_cst_79 (constant S_ .f32 0x41000000#32) _ rfl (by decide +kernel)
theorem rd_main_v153 : after ops V (Proc.devRef .tc main_v153) = (broadcastInDim S2000000 ![] bcast_S_S2000000 : (⟨S_, .f32⟩ : BufTy).Contents (Elt F) → (⟨S2000000, .f32⟩ : BufTy).Contents (Elt F)) (after ops V (Proc.devRef .tc main_cst_79)) :=
  Writes.unary_at hW V 235 main_cst_79 main_v153 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v154 : after ops V (Proc.devRef .tc main_v154) = (mulf : (⟨S2000000, .f32⟩ : BufTy).Contents (Elt F) → (⟨S2000000, .f32⟩ : BufTy).Contents (Elt F) → (⟨S2000000, .f32⟩ : BufTy).Contents (Elt F)) (after ops V (Proc.devRef .tc main_v153)) (after ops V (Proc.devRef .tc main_v140)) :=
  binary_at hW V 236 main_v153 main_v140 main_v154 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v155 : after ops V (Proc.devRef .tc main_v155) = (mulf : (⟨S2000000, .f32⟩ : BufTy).Contents (Elt F) → (⟨S2000000, .f32⟩ : BufTy).Contents (Elt F) → (⟨S2000000, .f32⟩ : BufTy).Contents (Elt F)) (after ops V (Proc.devRef .tc main_v154)) (after ops V (Proc.devRef .tc main_v41)) :=
  binary_at hW V 237 main_v154 main_v41 main_v155 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v156 : after ops V (Proc.devRef .tc main_v156) = (subf : (⟨S2000000, .f32⟩ : BufTy).Contents (Elt F) → (⟨S2000000, .f32⟩ : BufTy).Contents (Elt F) → (⟨S2000000, .f32⟩ : BufTy).Contents (Elt F)) (after ops V (Proc.devRef .tc main_v152)) (after ops V (Proc.devRef .tc main_v155)) :=
  binary_at hW V 238 main_v152 main_v155 main_v156 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_80 : after ops V (Proc.devRef .tc main_cst_80) = (constant S_ .f32 0x40E00000#32) :=
  nullary_at hW V 239 main_cst_80 (constant S_ .f32 0x40E00000#32) _ rfl (by decide +kernel)

end Cert.ReferenceIdeal.Line

end
-- ==== Proof.RefRead4.lean ====
/- Window 4 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v157 : after ops V (Proc.devRef .tc main_v157) = (broadcastInDim S2000000 ![] bcast_S_S2000000 : (⟨S_, .f32⟩ : BufTy).Contents (Elt F) → (⟨S2000000, .f32⟩ : BufTy).Contents (Elt F)) (after ops V (Proc.devRef .tc main_cst_80)) :=
  Writes.unary_at hW V 240 main_cst_80 main_v157 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v158 : after ops V (Proc.devRef .tc main_v158) = (Host.divf : (⟨S2000000, .f32⟩ : BufTy).Contents (Elt F) → (⟨S2000000, .f32⟩ : BufTy).Contents (Elt F) → (⟨S2000000, .f32⟩ : BufTy).Contents (Elt F)) (after ops V (Proc.devRef .tc main_v156)) (after ops V (Proc.devRef .tc main_v157)) :=
  binary_at hW V 241 main_v156 main_v157 main_v158 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_81 : after ops V (Proc.devRef .tc main_cst_81) = (constant S_ .f32 0x40E00000#32) :=
  nullary_at hW V 242 main_cst_81 (constant S_ .f32 0x40E00000#32) _ rfl (by decide +kernel)
theorem rd_main_v159 : after ops V (Proc.devRef .tc main_v159) = (broadcastInDim S2000000 ![] bcast_S_S2000000 : (⟨S_, .f32⟩ : BufTy).Contents (Elt F) → (⟨S2000000, .f32⟩ : BufTy).Contents (Elt F)) (after ops V (Proc.devRef .tc main_cst_81)) :=
  Writes.unary_at hW V 243 main_cst_81 main_v159 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v160 : after ops V (Proc.devRef .tc main_v160) = (mulf : (⟨S2000000, .f32⟩ : BufTy).Contents (Elt F) → (⟨S2000000, .f32⟩ : BufTy).Contents (Elt F) → (⟨S2000000, .f32⟩ : BufTy).Contents (Elt F)) (after ops V (Proc.devRef .tc main_v159)) (after ops V (Proc.devRef .tc main_arg2)) :=
  binary_at hW V 244 main_v159 main_arg2 main_v160 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v161 : after ops V (Proc.devRef .tc main_v161) = (mulf : (⟨S2000000, .f32⟩ : BufTy).Contents (Elt F) → (⟨S2000000, .f32⟩ : BufTy).Contents (Elt F) → (⟨S2000000, .f32⟩ : BufTy).Contents (Elt F)) (after ops V (Proc.devRef .tc main_v160)) (after ops V (Proc.devRef .tc main_v25)) :=
  binary_at hW V 245 main_v160 main_v25 main_v161 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_82 : after ops V (Proc.devRef .tc main_cst_82) = (constant S_ .f32 0x40A00000#32) :=
  nullary_at hW V 246 main_cst_82 (constant S_ .f32 0x40A00000#32) _ rfl (by decide +kernel)
theorem rd_main_v162 : after ops V (Proc.devRef .tc main_v162) = (broadcastInDim S2000000 ![] bcast_S_S2000000 : (⟨S_, .f32⟩ : BufTy).Contents (Elt F) → (⟨S2000000, .f32⟩ : BufTy).Contents (Elt F)) (after ops V (Proc.devRef .tc main_cst_82)) :=
  Writes.unary_at hW V 247 main_cst_82 main_v162 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v163 : after ops V (Proc.devRef .tc main_v163) = (mulf : (⟨S2000000, .f32⟩ : BufTy).Contents (Elt F) → (⟨S2000000, .f32⟩ : BufTy).Contents (Elt F) → (⟨S2000000, .f32⟩ : BufTy).Contents (Elt F)) (after ops V (Proc.devRef .tc main_v162)) (after ops V (Proc.devRef .tc main_v4)) :=
  binary_at hW V 248 main_v162 main_v4 main_v163 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v164 : after ops V (Proc.devRef .tc main_v164) = (mulf : (⟨S2000000, .f32⟩ : BufTy).Contents (Elt F) → (⟨S2000000, .f32⟩ : BufTy).Contents (Elt F) → (⟨S2000000, .f32⟩ : BufTy).Contents (Elt F)) (after ops V (Proc.devRef .tc main_v163)) (after ops V (Proc.devRef .tc main_v41)) :=
  binary_at hW V 249 main_v163 main_v41 main_v164 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v165 : after ops V (Proc.devRef .tc main_v165) = (subf : (⟨S2000000, .f32⟩ : BufTy).Contents (Elt F) → (⟨S2000000, .f32⟩ : BufTy).Contents (Elt F) → (⟨S2000000, .f32⟩ : BufTy).Contents (Elt F)) (after ops V (Proc.devRef .tc main_v161)) (after ops V (Proc.devRef .tc main_v164)) :=
  binary_at hW V 250 main_v161 main_v164 main_v165 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_83 : after ops V (Proc.devRef .tc main_cst_83) = (constant S_ .f32 0x40000000#32) :=
  nullary_at hW V 251 main_cst_83 (constant S_ .f32 0x40000000#32) _ rfl (by decide +kernel)
theorem rd_main_v166 : after ops V (Proc.devRef .tc main_v166) = (broadcastInDim S2000000 ![] bcast_S_S2000000 : (⟨S_, .f32⟩ : BufTy).Contents (Elt F) → (⟨S2000000, .f32⟩ : BufTy).Contents (Elt F)) (after ops V (Proc.devRef .tc main_cst_83)) :=
  Writes.unary_at hW V 252 main_cst_83 main_v166 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v167 : after ops V (Proc.devRef .tc main_v167) = (Host.divf : (⟨S2000000, .f32⟩ : BufTy).Contents (Elt F) → (⟨S2000000, .f32⟩ : BufTy).Contents (Elt F) → (⟨S2000000, .f32⟩ : BufTy).Contents (Elt F)) (after ops V (Proc.devRef .tc main_v165)) (after ops V (Proc.devRef .tc main_v166)) :=
  binary_at hW V 253 main_v165 main_v166 main_v167 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_84 : after ops V (Proc.devRef .tc main_cst_84) = (constant S_ .f32 0x41100000#32) :=
  nullary_at hW V 254 main_cst_84 (constant S_ .f32 0x41100000#32) _ rfl (by decide +kernel)
theorem rd_main_v168 : after ops V (Proc.devRef .tc main_v168) = (broadcastInDim S2000000 ![] bcast_S_S2000000 : (⟨S_, .f32⟩ : BufTy).Contents (Elt F) → (⟨S2000000, .f32⟩ : BufTy).Contents (Elt F)) (after ops V (Proc.devRef .tc main_cst_84)) :=
  Writes.unary_at hW V 255 main_cst_84 main_v168 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v169 : after ops V (Proc.devRef .tc main_v169) = (mulf : (⟨S2000000, .f32⟩ : BufTy).Contents (Elt F) → (⟨S2000000, .f32⟩ : BufTy).Contents (Elt F) → (⟨S2000000, .f32⟩ : BufTy).Contents (Elt F)) (after ops V (Proc.devRef .tc main_v168)) (after ops V (Proc.devRef .tc main_arg2)) :=
  binary_at hW V 256 main_v168 main_arg2 main_v169 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v170 : after ops V (Proc.devRef .tc main_v170) = (mulf : (⟨S2000000, .f32⟩ : BufTy).Contents (Elt F) → (⟨S2000000, .f32⟩ : BufTy).Contents (Elt F) → (⟨S2000000, .f32⟩ : BufTy).Contents (Elt F)) (after ops V (Proc.devRef .tc main_v169)) (after ops V (Proc.devRef .tc main_v167)) :=
  binary_at hW V 257 main_v169 main_v167 main_v170 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_85 : after ops V (Proc.devRef .tc main_cst_85) = (constant S_ .f32 0x40C00000#32) :=
  nullary_at hW V 258 main_cst_85 (constant S_ .f32 0x40C00000#32) _ rfl (by decide +kernel)
theorem rd_main_v171 : after ops V (Proc.devRef .tc main_v171) = (broadcastInDim S2000000 ![] bcast_S_S2000000 : (⟨S_, .f32⟩ : BufTy).Contents (Elt F) → (⟨S2000000, .f32⟩ : BufTy).Contents (Elt F)) (after ops V (Proc.devRef .tc main_cst_85)) :=
  Writes.unary_at hW V 259 main_cst_85 main_v171 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v172 : after ops V (Proc.devRef .tc main_v172) = (mulf : (⟨S2000000, .f32⟩ : BufTy).Contents (Elt F) → (⟨S2000000, .f32⟩ : BufTy).Contents (Elt F) → (⟨S2000000, .f32⟩ : BufTy).Contents (Elt F)) (after ops V (Proc.devRef .tc main_v171)) (after ops V (Proc.devRef .tc main_v25)) :=
  binary_at hW V 260 main_v171 main_v25 main_v172 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v173 : after ops V (Proc.devRef .tc main_v173) = (mulf : (⟨S2000000, .f32⟩ : BufTy).Contents (Elt F) → (⟨S2000000, .f32⟩ : BufTy).Contents (Elt F) → (⟨S2000000, .f32⟩ : BufTy).Contents (Elt F)) (after ops V (Proc.devRef .tc main_v172)) (after ops V (Proc.devRef .tc main_v41)) :=
  binary_at hW V 261 main_v172 main_v41 main_v173 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v174 : after ops V (Proc.devRef .tc main_v174) = (subf : (⟨S2000000, .f32⟩ : BufTy).Contents (Elt F) → (⟨S2000000, .f32⟩ : BufTy).Contents (Elt F) → (⟨S2000000, .f32⟩ : BufTy).Contents (Elt F)) (after ops V (Proc.devRef .tc main_v170)) (after ops V (Proc.devRef .tc main_v173)) :=
  binary_at hW V 262 main_v170 main_v173 main_v174 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_86 : after ops V (Proc.devRef .tc main_cst_86) = (constant S_ .f32 0x40400000#32) :=
  nullary_at hW V 263 main_cst_86 (constant S_ .f32 0x40400000#32) _ rfl (by decide +kernel)
theorem rd_main_v175 : after ops V (Proc.devRef .tc main_v175) = (broadcastInDim S2000000 ![] bcast_S_S2000000 : (⟨S_, .f32⟩ : BufTy).Contents (Elt F) → (⟨S2000000, .f32⟩ : BufTy).Contents (Elt F)) (after ops V (Proc.devRef .tc main_cst_86)) :=
  Writes.unary_at hW V 264 main_cst_86 main_v175 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v176 : after ops V (Proc.devRef .tc main_v176) = (Host.divf : (⟨S2000000, .f32⟩ : BufTy).Contents (Elt F) → (⟨S2000000, .f32⟩ : BufTy).Contents (Elt F) → (⟨S2000000, .f32⟩ : BufTy).Contents (Elt F)) (after ops V (Proc.devRef .tc main_v174)) (after ops V (Proc.devRef .tc main_v175)) :=
  binary_at hW V 265 main_v174 main_v175 main_v176 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_87 : after ops V (Proc.devRef .tc main_cst_87) = (constant S_ .f32 0x41300000#32) :=
  nullary_at hW V 266 main_cst_87 (constant S_ .f32 0x41300000#32) _ rfl (by decide +kernel)
theorem rd_main_v177 : after ops V (Proc.devRef .tc main_v177) = (broadcastInDim S2000000 ![] bcast_S_S2000000 : (⟨S_, .f32⟩ : BufTy).Contents (Elt F) → (⟨S2000000, .f32⟩ : BufTy).Contents (Elt F)) (after ops V (Proc.devRef .tc main_cst_87)) :=
  Writes.unary_at hW V 267 main_cst_87 main_v177 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v178 : after ops V (Proc.devRef .tc main_v178) = (mulf : (⟨S2000000, .f32⟩ : BufTy).Contents (Elt F) → (⟨S2000000, .f32⟩ : BufTy).Contents (Elt F) → (⟨S2000000, .f32⟩ : BufTy).Contents (Elt F)) (after ops V (Proc.devRef .tc main_v177)) (after ops V (Proc.devRef .tc main_arg2)) :=
  binary_at hW V 268 main_v177 main_arg2 main_v178 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v179 : after ops V (Proc.devRef .tc main_v179) = (mulf : (⟨S2000000, .f32⟩ : BufTy).Contents (Elt F) → (⟨S2000000, .f32⟩ : BufTy).Contents (Elt F) → (⟨S2000000, .f32⟩ : BufTy).Contents (Elt F)) (after ops V (Proc.devRef .tc main_v178)) (after ops V (Proc.devRef .tc main_v176)) :=
  binary_at hW V 269 main_v178 main_v176 main_v179 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_88 : after ops V (Proc.devRef .tc main_cst_88) = (constant S_ .f32 0x40E00000#32) :=
  nullary_at hW V 270 main_cst_88 (constant S_ .f32 0x40E00000#32) _ rfl (by decide +kernel)
theorem rd_main_v180 : after ops V (Proc.devRef .tc main_v180) = (broadcastInDim S2000000 ![] bcast_S_S2000000 : (⟨S_, .f32⟩ : BufTy).Contents (Elt F) → (⟨S2000000, .f32⟩ : BufTy).Contents (Elt F)) (after ops V (Proc.devRef .tc main_cst_88)) :=
  Writes.unary_at hW V 271 main_cst_88 main_v180 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v181 : after ops V (Proc.devRef .tc main_v181) = (mulf : (⟨S2000000, .f32⟩ : BufTy).Contents (Elt F) → (⟨S2000000, .f32⟩ : BufTy).Contents (Elt F) → (⟨S2000000, .f32⟩ : BufTy).Contents (Elt F)) (after ops V (Proc.devRef .tc main_v180)) (after ops V (Proc.devRef .tc main_v167)) :=
  binary_at hW V 272 main_v180 main_v167 main_v181 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v182 : after ops V (Proc.devRef .tc main_v182) = (mulf : (⟨S2000000, .f32⟩ : BufTy).Contents (Elt F) → (⟨S2000000, .f32⟩ : BufTy).Contents (Elt F) → (⟨S2000000, .f32⟩ : BufTy).Contents (Elt F)) (after ops V (Proc.devRef .tc main_v181)) (after ops V (Proc.devRef .tc main_v41)) :=
  binary_at hW V 273 main_v181 main_v41 main_v182 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v183 : after ops V (Proc.devRef .tc main_v183) = (subf : (⟨S2000000, .f32⟩ : BufTy).Contents (Elt F) → (⟨S2000000, .f32⟩ : BufTy).Contents (Elt F) → (⟨S2000000, .f32⟩ : BufTy).Contents (Elt F)) (after ops V (Proc.devRef .tc main_v179)) (after ops V (Proc.devRef .tc main_v182)) :=
  binary_at hW V 274 main_v179 main_v182 main_v183 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_89 : after ops V (Proc.devRef .tc main_cst_89) = (constant S_ .f32 0x40800000#32) :=
  nullary_at hW V 275 main_cst_89 (constant S_ .f32 0x40800000#32) _ rfl (by decide +kernel)
theorem rd_main_v184 : after ops V (Proc.devRef .tc main_v184) = (broadcastInDim S2000000 ![] bcast_S_S2000000 : (⟨S_, .f32⟩ : BufTy).Contents (Elt F) → (⟨S2000000, .f32⟩ : BufTy).Contents (Elt F)) (after ops V (Proc.devRef .tc main_cst_89)) :=
  Writes.unary_at hW V 276 main_cst_89 main_v184 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v185 : after ops V (Proc.devRef .tc main_v185) = (Host.divf : (⟨S2000000, .f32⟩ : BufTy).Contents (Elt F) → (⟨S2000000, .f32⟩ : BufTy).Contents (Elt F) → (⟨S2000000, .f32⟩ : BufTy).Contents (Elt F)) (after ops V (Proc.devRef .tc main_v183)) (after ops V (Proc.devRef .tc main_v184)) :=
  binary_at hW V 277 main_v183 main_v184 main_v185 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_90 : after ops V (Proc.devRef .tc main_cst_90) = (constant S_ .f32 0x41500000#32) :=
  nullary_at hW V 278 main_cst_90 (constant S_ .f32 0x41500000#32) _ rfl (by decide +kernel)
theorem rd_main_v186 : after ops V (Proc.devRef .tc main_v186) = (broadcastInDim S2000000 ![] bcast_S_S2000000 : (⟨S_, .f32⟩ : BufTy).Contents (Elt F) → (⟨S2000000, .f32⟩ : BufTy).Contents (Elt F)) (after ops V (Proc.devRef .tc main_cst_90)) :=
  Writes.unary_at hW V 279 main_cst_90 main_v186 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v187 : after ops V (Proc.devRef .tc main_v187) = (mulf : (⟨S2000000, .f32⟩ : BufTy).Contents (Elt F) → (⟨S2000000, .f32⟩ : BufTy).Contents (Elt F) → (⟨S2000000, .f32⟩ : BufTy).Contents (Elt F)) (after ops V (Proc.devRef .tc main_v186)) (after ops V (Proc.devRef .tc main_arg2)) :=
  binary_at hW V 280 main_v186 main_arg2 main_v187 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v188 : after ops V (Proc.devRef .tc main_v188) = (mulf : (⟨S2000000, .f32⟩ : BufTy).Contents (Elt F) → (⟨S2000000, .f32⟩ : BufTy).Contents (Elt F) → (⟨S2000000, .f32⟩ : BufTy).Contents (Elt F)) (after ops V (Proc.devRef .tc main_v187)) (after ops V (Proc.devRef .tc main_v185)) :=
  binary_at hW V 281 main_v187 main_v185 main_v188 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_91 : after ops V (Proc.devRef .tc main_cst_91) = (constant S_ .f32 0x41000000#32) :=
  nullary_at hW V 282 main_cst_91 (constant S_ .f32 0x41000000#32) _ rfl (by decide +kernel)
theorem rd_main_v189 : after ops V (Proc.devRef .tc main_v189) = (broadcastInDim S2000000 ![] bcast_S_S2000000 : (⟨S_, .f32⟩ : BufTy).Contents (Elt F) → (⟨S2000000, .f32⟩ : BufTy).Contents (Elt F)) (after ops V (Proc.devRef .tc main_cst_91)) :=
  Writes.unary_at hW V 283 main_cst_91 main_v189 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v190 : after ops V (Proc.devRef .tc main_v190) = (mulf : (⟨S2000000, .f32⟩ : BufTy).Contents (Elt F) → (⟨S2000000, .f32⟩ : BufTy).Contents (Elt F) → (⟨S2000000, .f32⟩ : BufTy).Contents (Elt F)) (after ops V (Proc.devRef .tc main_v189)) (after ops V (Proc.devRef .tc main_v176)) :=
  binary_at hW V 284 main_v189 main_v176 main_v190 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v191 : after ops V (Proc.devRef .tc main_v191) = (mulf : (⟨S2000000, .f32⟩ : BufTy).Contents (Elt F) → (⟨S2000000, .f32⟩ : BufTy).Contents (Elt F) → (⟨S2000000, .f32⟩ : BufTy).Contents (Elt F)) (after ops V (Proc.devRef .tc main_v190)) (after ops V (Proc.devRef .tc main_v41)) :=
  binary_at hW V 285 main_v190 main_v41 main_v191 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v192 : after ops V (Proc.devRef .tc main_v192) = (subf : (⟨S2000000, .f32⟩ : BufTy).Contents (Elt F) → (⟨S2000000, .f32⟩ : BufTy).Contents (Elt F) → (⟨S2000000, .f32⟩ : BufTy).Contents (Elt F)) (after ops V (Proc.devRef .tc main_v188)) (after ops V (Proc.devRef .tc main_v191)) :=
  binary_at hW V 286 main_v188 main_v191 main_v192 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_92 : after ops V (Proc.devRef .tc main_cst_92) = (constant S_ .f32 0x40A00000#32) :=
  nullary_at hW V 287 main_cst_92 (constant S_ .f32 0x40A00000#32) _ rfl (by decide +kernel)
theorem rd_main_v193 : after ops V (Proc.devRef .tc main_v193) = (broadcastInDim S2000000 ![] bcast_S_S2000000 : (⟨S_, .f32⟩ : BufTy).Contents (Elt F) → (⟨S2000000, .f32⟩ : BufTy).Contents (Elt F)) (after ops V (Proc.devRef .tc main_cst_92)) :=
  Writes.unary_at hW V 288 main_cst_92 main_v193 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v194 : after ops V (Proc.devRef .tc main_v194) = (Host.divf : (⟨S2000000, .f32⟩ : BufTy).Contents (Elt F) → (⟨S2000000, .f32⟩ : BufTy).Contents (Elt F) → (⟨S2000000, .f32⟩ : BufTy).Contents (Elt F)) (after ops V (Proc.devRef .tc main_v192)) (after ops V (Proc.devRef .tc main_v193)) :=
  binary_at hW V 289 main_v192 main_v193 main_v194 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_93 : after ops V (Proc.devRef .tc main_cst_93) = (constant S_ .f32 0x41700000#32) :=
  nullary_at hW V 290 main_cst_93 (constant S_ .f32 0x41700000#32) _ rfl (by decide +kernel)
theorem rd_main_v195 : after ops V (Proc.devRef .tc main_v195) = (broadcastInDim S2000000 ![] bcast_S_S2000000 : (⟨S_, .f32⟩ : BufTy).Contents (Elt F) → (⟨S2000000, .f32⟩ : BufTy).Contents (Elt F)) (after ops V (Proc.devRef .tc main_cst_93)) :=
  Writes.unary_at hW V 291 main_cst_93 main_v195 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v196 : after ops V (Proc.devRef .tc main_v196) = (mulf : (⟨S2000000, .f32⟩ : BufTy).Contents (Elt F) → (⟨S2000000, .f32⟩ : BufTy).Contents (Elt F) → (⟨S2000000, .f32⟩ : BufTy).Contents (Elt F)) (after ops V (Proc.devRef .tc main_v195)) (after ops V (Proc.devRef .tc main_arg2)) :=
  binary_at hW V 292 main_v195 main_arg2 main_v196 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v197 : after ops V (Proc.devRef .tc main_v197) = (mulf : (⟨S2000000, .f32⟩ : BufTy).Contents (Elt F) → (⟨S2000000, .f32⟩ : BufTy).Contents (Elt F) → (⟨S2000000, .f32⟩ : BufTy).Contents (Elt F)) (after ops V (Proc.devRef .tc main_v196)) (after ops V (Proc.devRef .tc main_v194)) :=
  binary_at hW V 293 main_v196 main_v194 main_v197 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_94 : after ops V (Proc.devRef .tc main_cst_94) = (constant S_ .f32 0x41100000#32) :=
  nullary_at hW V 294 main_cst_94 (constant S_ .f32 0x41100000#32) _ rfl (by decide +kernel)
theorem rd_main_v198 : after ops V (Proc.devRef .tc main_v198) = (broadcastInDim S2000000 ![] bcast_S_S2000000 : (⟨S_, .f32⟩ : BufTy).Contents (Elt F) → (⟨S2000000, .f32⟩ : BufTy).Contents (Elt F)) (after ops V (Proc.devRef .tc main_cst_94)) :=
  Writes.unary_at hW V 295 main_cst_94 main_v198 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v199 : after ops V (Proc.devRef .tc main_v199) = (mulf : (⟨S2000000, .f32⟩ : BufTy).Contents (Elt F) → (⟨S2000000, .f32⟩ : BufTy).Contents (Elt F) → (⟨S2000000, .f32⟩ : BufTy).Contents (Elt F)) (after ops V (Proc.devRef .tc main_v198)) (after ops V (Proc.devRef .tc main_v185)) :=
  binary_at hW V 296 main_v198 main_v185 main_v199 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v200 : after ops V (Proc.devRef .tc main_v200) = (mulf : (⟨S2000000, .f32⟩ : BufTy).Contents (Elt F) → (⟨S2000000, .f32⟩ : BufTy).Contents (Elt F) → (⟨S2000000, .f32⟩ : BufTy).Contents (Elt F)) (after ops V (Proc.devRef .tc main_v199)) (after ops V (Proc.devRef .tc main_v41)) :=
  binary_at hW V 297 main_v199 main_v41 main_v200 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v201 : after ops V (Proc.devRef .tc main_v201) = (subf : (⟨S2000000, .f32⟩ : BufTy).Contents (Elt F) → (⟨S2000000, .f32⟩ : BufTy).Contents (Elt F) → (⟨S2000000, .f32⟩ : BufTy).Contents (Elt F)) (after ops V (Proc.devRef .tc main_v197)) (after ops V (Proc.devRef .tc main_v200)) :=
  binary_at hW V 298 main_v197 main_v200 main_v201 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_95 : after ops V (Proc.devRef .tc main_cst_95) = (constant S_ .f32 0x40C00000#32) :=
  nullary_at hW V 299 main_cst_95 (constant S_ .f32 0x40C00000#32) _ rfl (by decide +kernel)

end Cert.ReferenceIdeal.Line

end
-- ==== Proof.RefRead5.lean ====
/- Window 5 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v202 : after ops V (Proc.devRef .tc main_v202) = (broadcastInDim S2000000 ![] bcast_S_S2000000 : (⟨S_, .f32⟩ : BufTy).Contents (Elt F) → (⟨S2000000, .f32⟩ : BufTy).Contents (Elt F)) (after ops V (Proc.devRef .tc main_cst_95)) :=
  Writes.unary_at hW V 300 main_cst_95 main_v202 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v203 : after ops V (Proc.devRef .tc main_v203) = (Host.divf : (⟨S2000000, .f32⟩ : BufTy).Contents (Elt F) → (⟨S2000000, .f32⟩ : BufTy).Contents (Elt F) → (⟨S2000000, .f32⟩ : BufTy).Contents (Elt F)) (after ops V (Proc.devRef .tc main_v201)) (after ops V (Proc.devRef .tc main_v202)) :=
  binary_at hW V 301 main_v201 main_v202 main_v203 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_96 : after ops V (Proc.devRef .tc main_cst_96) = (constant S_ .f32 0x41100000#32) :=
  nullary_at hW V 302 main_cst_96 (constant S_ .f32 0x41100000#32) _ rfl (by decide +kernel)
theorem rd_main_v204 : after ops V (Proc.devRef .tc main_v204) = (broadcastInDim S2000000 ![] bcast_S_S2000000 : (⟨S_, .f32⟩ : BufTy).Contents (Elt F) → (⟨S2000000, .f32⟩ : BufTy).Contents (Elt F)) (after ops V (Proc.devRef .tc main_cst_96)) :=
  Writes.unary_at hW V 303 main_cst_96 main_v204 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v205 : after ops V (Proc.devRef .tc main_v205) = (mulf : (⟨S2000000, .f32⟩ : BufTy).Contents (Elt F) → (⟨S2000000, .f32⟩ : BufTy).Contents (Elt F) → (⟨S2000000, .f32⟩ : BufTy).Contents (Elt F)) (after ops V (Proc.devRef .tc main_v204)) (after ops V (Proc.devRef .tc main_arg2)) :=
  binary_at hW V 304 main_v204 main_arg2 main_v205 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v206 : after ops V (Proc.devRef .tc main_v206) = (mulf : (⟨S2000000, .f32⟩ : BufTy).Contents (Elt F) → (⟨S2000000, .f32⟩ : BufTy).Contents (Elt F) → (⟨S2000000, .f32⟩ : BufTy).Contents (Elt F)) (after ops V (Proc.devRef .tc main_v205)) (after ops V (Proc.devRef .tc main_v28)) :=
  binary_at hW V 305 main_v205 main_v28 main_v206 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_97 : after ops V (Proc.devRef .tc main_cst_97) = (constant S_ .f32 0x40E00000#32) :=
  nullary_at hW V 306 main_cst_97 (constant S_ .f32 0x40E00000#32) _ rfl (by decide +kernel)
theorem rd_main_v207 : after ops V (Proc.devRef .tc main_v207) = (broadcastInDim S2000000 ![] bcast_S_S2000000 : (⟨S_, .f32⟩ : BufTy).Contents (Elt F) → (⟨S2000000, .f32⟩ : BufTy).Contents (Elt F)) (after ops V (Proc.devRef .tc main_cst_97)) :=
  Writes.unary_at hW V 307 main_cst_97 main_v207 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v208 : after ops V (Proc.devRef .tc main_v208) = (mulf : (⟨S2000000, .f32⟩ : BufTy).Contents (Elt F) → (⟨S2000000, .f32⟩ : BufTy).Contents (Elt F) → (⟨S2000000, .f32⟩ : BufTy).Contents (Elt F)) (after ops V (Proc.devRef .tc main_v207)) (after ops V (Proc.devRef .tc main_v6)) :=
  binary_at hW V 308 main_v207 main_v6 main_v208 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v209 : after ops V (Proc.devRef .tc main_v209) = (mulf : (⟨S2000000, .f32⟩ : BufTy).Contents (Elt F) → (⟨S2000000, .f32⟩ : BufTy).Contents (Elt F) → (⟨S2000000, .f32⟩ : BufTy).Contents (Elt F)) (after ops V (Proc.devRef .tc main_v208)) (after ops V (Proc.devRef .tc main_v41)) :=
  binary_at hW V 309 main_v208 main_v41 main_v209 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v210 : after ops V (Proc.devRef .tc main_v210) = (subf : (⟨S2000000, .f32⟩ : BufTy).Contents (Elt F) → (⟨S2000000, .f32⟩ : BufTy).Contents (Elt F) → (⟨S2000000, .f32⟩ : BufTy).Contents (Elt F)) (after ops V (Proc.devRef .tc main_v206)) (after ops V (Proc.devRef .tc main_v209)) :=
  binary_at hW V 310 main_v206 main_v209 main_v210 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_98 : after ops V (Proc.devRef .tc main_cst_98) = (constant S_ .f32 0x40000000#32) :=
  nullary_at hW V 311 main_cst_98 (constant S_ .f32 0x40000000#32) _ rfl (by decide +kernel)
theorem rd_main_v211 : after ops V (Proc.devRef .tc main_v211) = (broadcastInDim S2000000 ![] bcast_S_S2000000 : (⟨S_, .f32⟩ : BufTy).Contents (Elt F) → (⟨S2000000, .f32⟩ : BufTy).Contents (Elt F)) (after ops V (Proc.devRef .tc main_cst_98)) :=
  Writes.unary_at hW V 312 main_cst_98 main_v211 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v212 : after ops V (Proc.devRef .tc main_v212) = (Host.divf : (⟨S2000000, .f32⟩ : BufTy).Contents (Elt F) → (⟨S2000000, .f32⟩ : BufTy).Contents (Elt F) → (⟨S2000000, .f32⟩ : BufTy).Contents (Elt F)) (after ops V (Proc.devRef .tc main_v210)) (after ops V (Proc.devRef .tc main_v211)) :=
  binary_at hW V 313 main_v210 main_v211 main_v212 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_99 : after ops V (Proc.devRef .tc main_cst_99) = (constant S_ .f32 0x41300000#32) :=
  nullary_at hW V 314 main_cst_99 (constant S_ .f32 0x41300000#32) _ rfl (by decide +kernel)
theorem rd_main_v213 : after ops V (Proc.devRef .tc main_v213) = (broadcastInDim S2000000 ![] bcast_S_S2000000 : (⟨S_, .f32⟩ : BufTy).Contents (Elt F) → (⟨S2000000, .f32⟩ : BufTy).Contents (Elt F)) (after ops V (Proc.devRef .tc main_cst_99)) :=
  Writes.unary_at hW V 315 main_cst_99 main_v213 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v214 : after ops V (Proc.devRef .tc main_v214) = (mulf : (⟨S2000000, .f32⟩ : BufTy).Contents (Elt F) → (⟨S2000000, .f32⟩ : BufTy).Contents (Elt F) → (⟨S2000000, .f32⟩ : BufTy).Contents (Elt F)) (after ops V (Proc.devRef .tc main_v213)) (after ops V (Proc.devRef .tc main_arg2)) :=
  binary_at hW V 316 main_v213 main_arg2 main_v214 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v215 : after ops V (Proc.devRef .tc main_v215) = (mulf : (⟨S2000000, .f32⟩ : BufTy).Contents (Elt F) → (⟨S2000000, .f32⟩ : BufTy).Contents (Elt F) → (⟨S2000000, .f32⟩ : BufTy).Contents (Elt F)) (after ops V (Proc.devRef .tc main_v214)) (after ops V (Proc.devRef .tc main_v212)) :=
  binary_at hW V 317 main_v214 main_v212 main_v215 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_100 : after ops V (Proc.devRef .tc main_cst_100) = (constant S_ .f32 0x41000000#32) :=
  nullary_at hW V 318 main_cst_100 (constant S_ .f32 0x41000000#32) _ rfl (by decide +kernel)
theorem rd_main_v216 : after ops V (Proc.devRef .tc main_v216) = (broadcastInDim S2000000 ![] bcast_S_S2000000 : (⟨S_, .f32⟩ : BufTy).Contents (Elt F) → (⟨S2000000, .f32⟩ : BufTy).Contents (Elt F)) (after ops V (Proc.devRef .tc main_cst_100)) :=
  Writes.unary_at hW V 319 main_cst_100 main_v216 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v217 : after ops V (Proc.devRef .tc main_v217) = (mulf : (⟨S2000000, .f32⟩ : BufTy).Contents (Elt F) → (⟨S2000000, .f32⟩ : BufTy).Contents (Elt F) → (⟨S2000000, .f32⟩ : BufTy).Contents (Elt F)) (after ops V (Proc.devRef .tc main_v216)) (after ops V (Proc.devRef .tc main_v28)) :=
  binary_at hW V 320 main_v216 main_v28 main_v217 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v218 : after ops V (Proc.devRef .tc main_v218) = (mulf : (⟨S2000000, .f32⟩ : BufTy).Contents (Elt F) → (⟨S2000000, .f32⟩ : BufTy).Contents (Elt F) → (⟨S2000000, .f32⟩ : BufTy).Contents (Elt F)) (after ops V (Proc.devRef .tc main_v217)) (after ops V (Proc.devRef .tc main_v41)) :=
  binary_at hW V 321 main_v217 main_v41 main_v218 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v219 : after ops V (Proc.devRef .tc main_v219) = (subf : (⟨S2000000, .f32⟩ : BufTy).Contents (Elt F) → (⟨S2000000, .f32⟩ : BufTy).Contents (Elt F) → (⟨S2000000, .f32⟩ : BufTy).Contents (Elt F)) (after ops V (Proc.devRef .tc main_v215)) (after ops V (Proc.devRef .tc main_v218)) :=
  binary_at hW V 322 main_v215 main_v218 main_v219 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_101 : after ops V (Proc.devRef .tc main_cst_101) = (constant S_ .f32 0x40400000#32) :=
  nullary_at hW V 323 main_cst_101 (constant S_ .f32 0x40400000#32) _ rfl (by decide +kernel)
theorem rd_main_v220 : after ops V (Proc.devRef .tc main_v220) = (broadcastInDim S2000000 ![] bcast_S_S2000000 : (⟨S_, .f32⟩ : BufTy).Contents (Elt F) → (⟨S2000000, .f32⟩ : BufTy).Contents (Elt F)) (after ops V (Proc.devRef .tc main_cst_101)) :=
  Writes.unary_at hW V 324 main_cst_101 main_v220 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v221 : after ops V (Proc.devRef .tc main_v221) = (Host.divf : (⟨S2000000, .f32⟩ : BufTy).Contents (Elt F) → (⟨S2000000, .f32⟩ : BufTy).Contents (Elt F) → (⟨S2000000, .f32⟩ : BufTy).Contents (Elt F)) (after ops V (Proc.devRef .tc main_v219)) (after ops V (Proc.devRef .tc main_v220)) :=
  binary_at hW V 325 main_v219 main_v220 main_v221 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_102 : after ops V (Proc.devRef .tc main_cst_102) = (constant S_ .f32 0x41500000#32) :=
  nullary_at hW V 326 main_cst_102 (constant S_ .f32 0x41500000#32) _ rfl (by decide +kernel)
theorem rd_main_v222 : after ops V (Proc.devRef .tc main_v222) = (broadcastInDim S2000000 ![] bcast_S_S2000000 : (⟨S_, .f32⟩ : BufTy).Contents (Elt F) → (⟨S2000000, .f32⟩ : BufTy).Contents (Elt F)) (after ops V (Proc.devRef .tc main_cst_102)) :=
  Writes.unary_at hW V 327 main_cst_102 main_v222 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v223 : after ops V (Proc.devRef .tc main_v223) = (mulf : (⟨S2000000, .f32⟩ : BufTy).Contents (Elt F) → (⟨S2000000, .f32⟩ : BufTy).Contents (Elt F) → (⟨S2000000, .f32⟩ : BufTy).Contents (Elt F)) (after ops V (Proc.devRef .tc main_v222)) (after ops V (Proc.devRef .tc main_arg2)) :=
  binary_at hW V 328 main_v222 main_arg2 main_v223 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v224 : after ops V (Proc.devRef .tc main_v224) = (mulf : (⟨S2000000, .f32⟩ : BufTy).Contents (Elt F) → (⟨S2000000, .f32⟩ : BufTy).Contents (Elt F) → (⟨S2000000, .f32⟩ : BufTy).Contents (Elt F)) (after ops V (Proc.devRef .tc main_v223)) (after ops V (Proc.devRef .tc main_v221)) :=
  binary_at hW V 329 main_v223 main_v221 main_v224 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_103 : after ops V (Proc.devRef .tc main_cst_103) = (constant S_ .f32 0x41100000#32) :=
  nullary_at hW V 330 main_cst_103 (constant S_ .f32 0x41100000#32) _ rfl (by decide +kernel)
theorem rd_main_v225 : after ops V (Proc.devRef .tc main_v225) = (broadcastInDim S2000000 ![] bcast_S_S2000000 : (⟨S_, .f32⟩ : BufTy).Contents (Elt F) → (⟨S2000000, .f32⟩ : BufTy).Contents (Elt F)) (after ops V (Proc.devRef .tc main_cst_103)) :=
  Writes.unary_at hW V 331 main_cst_103 main_v225 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v226 : after ops V (Proc.devRef .tc main_v226) = (mulf : (⟨S2000000, .f32⟩ : BufTy).Contents (Elt F) → (⟨S2000000, .f32⟩ : BufTy).Contents (Elt F) → (⟨S2000000, .f32⟩ : BufTy).Contents (Elt F)) (after ops V (Proc.devRef .tc main_v225)) (after ops V (Proc.devRef .tc main_v212)) :=
  binary_at hW V 332 main_v225 main_v212 main_v226 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v227 : after ops V (Proc.devRef .tc main_v227) = (mulf : (⟨S2000000, .f32⟩ : BufTy).Contents (Elt F) → (⟨S2000000, .f32⟩ : BufTy).Contents (Elt F) → (⟨S2000000, .f32⟩ : BufTy).Contents (Elt F)) (after ops V (Proc.devRef .tc main_v226)) (after ops V (Proc.devRef .tc main_v41)) :=
  binary_at hW V 333 main_v226 main_v41 main_v227 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v228 : after ops V (Proc.devRef .tc main_v228) = (subf : (⟨S2000000, .f32⟩ : BufTy).Contents (Elt F) → (⟨S2000000, .f32⟩ : BufTy).Contents (Elt F) → (⟨S2000000, .f32⟩ : BufTy).Contents (Elt F)) (after ops V (Proc.devRef .tc main_v224)) (after ops V (Proc.devRef .tc main_v227)) :=
  binary_at hW V 334 main_v224 main_v227 main_v228 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_104 : after ops V (Proc.devRef .tc main_cst_104) = (constant S_ .f32 0x40800000#32) :=
  nullary_at hW V 335 main_cst_104 (constant S_ .f32 0x40800000#32) _ rfl (by decide +kernel)
theorem rd_main_v229 : after ops V (Proc.devRef .tc main_v229) = (broadcastInDim S2000000 ![] bcast_S_S2000000 : (⟨S_, .f32⟩ : BufTy).Contents (Elt F) → (⟨S2000000, .f32⟩ : BufTy).Contents (Elt F)) (after ops V (Proc.devRef .tc main_cst_104)) :=
  Writes.unary_at hW V 336 main_cst_104 main_v229 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v230 : after ops V (Proc.devRef .tc main_v230) = (Host.divf : (⟨S2000000, .f32⟩ : BufTy).Contents (Elt F) → (⟨S2000000, .f32⟩ : BufTy).Contents (Elt F) → (⟨S2000000, .f32⟩ : BufTy).Contents (Elt F)) (after ops V (Proc.devRef .tc main_v228)) (after ops V (Proc.devRef .tc main_v229)) :=
  binary_at hW V 337 main_v228 main_v229 main_v230 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_105 : after ops V (Proc.devRef .tc main_cst_105) = (constant S_ .f32 0x41700000#32) :=
  nullary_at hW V 338 main_cst_105 (constant S_ .f32 0x41700000#32) _ rfl (by decide +kernel)
theorem rd_main_v231 : after ops V (Proc.devRef .tc main_v231) = (broadcastInDim S2000000 ![] bcast_S_S2000000 : (⟨S_, .f32⟩ : BufTy).Contents (Elt F) → (⟨S2000000, .f32⟩ : BufTy).Contents (Elt F)) (after ops V (Proc.devRef .tc main_cst_105)) :=
  Writes.unary_at hW V 339 main_cst_105 main_v231 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v232 : after ops V (Proc.devRef .tc main_v232) = (mulf : (⟨S2000000, .f32⟩ : BufTy).Contents (Elt F) → (⟨S2000000, .f32⟩ : BufTy).Contents (Elt F) → (⟨S2000000, .f32⟩ : BufTy).Contents (Elt F)) (after ops V (Proc.devRef .tc main_v231)) (after ops V (Proc.devRef .tc main_arg2)) :=
  binary_at hW V 340 main_v231 main_arg2 main_v232 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v233 : after ops V (Proc.devRef .tc main_v233) = (mulf : (⟨S2000000, .f32⟩ : BufTy).Contents (Elt F) → (⟨S2000000, .f32⟩ : BufTy).Contents (Elt F) → (⟨S2000000, .f32⟩ : BufTy).Contents (Elt F)) (after ops V (Proc.devRef .tc main_v232)) (after ops V (Proc.devRef .tc main_v230)) :=
  binary_at hW V 341 main_v232 main_v230 main_v233 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_106 : after ops V (Proc.devRef .tc main_cst_106) = (constant S_ .f32 0x41200000#32) :=
  nullary_at hW V 342 main_cst_106 (constant S_ .f32 0x41200000#32) _ rfl (by decide +kernel)
theorem rd_main_v234 : after ops V (Proc.devRef .tc main_v234) = (broadcastInDim S2000000 ![] bcast_S_S2000000 : (⟨S_, .f32⟩ : BufTy).Contents (Elt F) → (⟨S2000000, .f32⟩ : BufTy).Contents (Elt F)) (after ops V (Proc.devRef .tc main_cst_106)) :=
  Writes.unary_at hW V 343 main_cst_106 main_v234 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v235 : after ops V (Proc.devRef .tc main_v235) = (mulf : (⟨S2000000, .f32⟩ : BufTy).Contents (Elt F) → (⟨S2000000, .f32⟩ : BufTy).Contents (Elt F) → (⟨S2000000, .f32⟩ : BufTy).Contents (Elt F)) (after ops V (Proc.devRef .tc main_v234)) (after ops V (Proc.devRef .tc main_v221)) :=
  binary_at hW V 344 main_v234 main_v221 main_v235 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v236 : after ops V (Proc.devRef .tc main_v236) = (mulf : (⟨S2000000, .f32⟩ : BufTy).Contents (Elt F) → (⟨S2000000, .f32⟩ : BufTy).Contents (Elt F) → (⟨S2000000, .f32⟩ : BufTy).Contents (Elt F)) (after ops V (Proc.devRef .tc main_v235)) (after ops V (Proc.devRef .tc main_v41)) :=
  binary_at hW V 345 main_v235 main_v41 main_v236 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v237 : after ops V (Proc.devRef .tc main_v237) = (subf : (⟨S2000000, .f32⟩ : BufTy).Contents (Elt F) → (⟨S2000000, .f32⟩ : BufTy).Contents (Elt F) → (⟨S2000000, .f32⟩ : BufTy).Contents (Elt F)) (after ops V (Proc.devRef .tc main_v233)) (after ops V (Proc.devRef .tc main_v236)) :=
  binary_at hW V 346 main_v233 main_v236 main_v237 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_107 : after ops V (Proc.devRef .tc main_cst_107) = (constant S_ .f32 0x40A00000#32) :=
  nullary_at hW V 347 main_cst_107 (constant S_ .f32 0x40A00000#32) _ rfl (by decide +kernel)
theorem rd_main_v238 : after ops V (Proc.devRef .tc main_v238) = (broadcastInDim S2000000 ![] bcast_S_S2000000 : (⟨S_, .f32⟩ : BufTy).Contents (Elt F) → (⟨S2000000, .f32⟩ : BufTy).Contents (Elt F)) (after ops V (Proc.devRef .tc main_cst_107)) :=
  Writes.unary_at hW V 348 main_cst_107 main_v238 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v239 : after ops V (Proc.devRef .tc main_v239) = (Host.divf : (⟨S2000000, .f32⟩ : BufTy).Contents (Elt F) → (⟨S2000000, .f32⟩ : BufTy).Contents (Elt F) → (⟨S2000000, .f32⟩ : BufTy).Contents (Elt F)) (after ops V (Proc.devRef .tc main_v237)) (after ops V (Proc.devRef .tc main_v238)) :=
  binary_at hW V 349 main_v237 main_v238 main_v239 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_108 : after ops V (Proc.devRef .tc main_cst_108) = (constant S_ .f32 0x41300000#32) :=
  nullary_at hW V 350 main_cst_108 (constant S_ .f32 0x41300000#32) _ rfl (by decide +kernel)
theorem rd_main_v240 : after ops V (Proc.devRef .tc main_v240) = (broadcastInDim S2000000 ![] bcast_S_S2000000 : (⟨S_, .f32⟩ : BufTy).Contents (Elt F) → (⟨S2000000, .f32⟩ : BufTy).Contents (Elt F)) (after ops V (Proc.devRef .tc main_cst_108)) :=
  Writes.unary_at hW V 351 main_cst_108 main_v240 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v241 : after ops V (Proc.devRef .tc main_v241) = (mulf : (⟨S2000000, .f32⟩ : BufTy).Contents (Elt F) → (⟨S2000000, .f32⟩ : BufTy).Contents (Elt F) → (⟨S2000000, .f32⟩ : BufTy).Contents (Elt F)) (after ops V (Proc.devRef .tc main_v240)) (after ops V (Proc.devRef .tc main_arg2)) :=
  binary_at hW V 352 main_v240 main_arg2 main_v241 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v242 : after ops V (Proc.devRef .tc main_v242) = (mulf : (⟨S2000000, .f32⟩ : BufTy).Contents (Elt F) → (⟨S2000000, .f32⟩ : BufTy).Contents (Elt F) → (⟨S2000000, .f32⟩ : BufTy).Contents (Elt F)) (after ops V (Proc.devRef .tc main_v241)) (after ops V (Proc.devRef .tc main_v31)) :=
  binary_at hW V 353 main_v241 main_v31 main_v242 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_109 : after ops V (Proc.devRef .tc main_cst_109) = (constant S_ .f32 0x41100000#32) :=
  nullary_at hW V 354 main_cst_109 (constant S_ .f32 0x41100000#32) _ rfl (by decide +kernel)
theorem rd_main_v243 : after ops V (Proc.devRef .tc main_v243) = (broadcastInDim S2000000 ![] bcast_S_S2000000 : (⟨S_, .f32⟩ : BufTy).Contents (Elt F) → (⟨S2000000, .f32⟩ : BufTy).Contents (Elt F)) (after ops V (Proc.devRef .tc main_cst_109)) :=
  Writes.unary_at hW V 355 main_cst_109 main_v243 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v244 : after ops V (Proc.devRef .tc main_v244) = (mulf : (⟨S2000000, .f32⟩ : BufTy).Contents (Elt F) → (⟨S2000000, .f32⟩ : BufTy).Contents (Elt F) → (⟨S2000000, .f32⟩ : BufTy).Contents (Elt F)) (after ops V (Proc.devRef .tc main_v243)) (after ops V (Proc.devRef .tc main_v8)) :=
  binary_at hW V 356 main_v243 main_v8 main_v244 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v245 : after ops V (Proc.devRef .tc main_v245) = (mulf : (⟨S2000000, .f32⟩ : BufTy).Contents (Elt F) → (⟨S2000000, .f32⟩ : BufTy).Contents (Elt F) → (⟨S2000000, .f32⟩ : BufTy).Contents (Elt F)) (after ops V (Proc.devRef .tc main_v244)) (after ops V (Proc.devRef .tc main_v41)) :=
  binary_at hW V 357 main_v244 main_v41 main_v245 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v246 : after ops V (Proc.devRef .tc main_v246) = (subf : (⟨S2000000, .f32⟩ : BufTy).Contents (Elt F) → (⟨S2000000, .f32⟩ : BufTy).Contents (Elt F) → (⟨S2000000, .f32⟩ : BufTy).Contents (Elt F)) (after ops V (Proc.devRef .tc main_v242)) (after ops V (Proc.devRef .tc main_v245)) :=
  binary_at hW V 358 main_v242 main_v245 main_v246 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_110 : after ops V (Proc.devRef .tc main_cst_110) = (constant S_ .f32 0x40000000#32) :=
  nullary_at hW V 359 main_cst_110 (constant S_ .f32 0x40000000#32) _ rfl (by decide +kernel)

end Cert.ReferenceIdeal.Line

end
-- ==== Proof.RefRead6.lean ====
/- Window 6 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v247 : after ops V (Proc.devRef .tc main_v247) = (broadcastInDim S2000000 ![] bcast_S_S2000000 : (⟨S_, .f32⟩ : BufTy).Contents (Elt F) → (⟨S2000000, .f32⟩ : BufTy).Contents (Elt F)) (after ops V (Proc.devRef .tc main_cst_110)) :=
  Writes.unary_at hW V 360 main_cst_110 main_v247 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v248 : after ops V (Proc.devRef .tc main_v248) = (Host.divf : (⟨S2000000, .f32⟩ : BufTy).Contents (Elt F) → (⟨S2000000, .f32⟩ : BufTy).Contents (Elt F) → (⟨S2000000, .f32⟩ : BufTy).Contents (Elt F)) (after ops V (Proc.devRef .tc main_v246)) (after ops V (Proc.devRef .tc main_v247)) :=
  binary_at hW V 361 main_v246 main_v247 main_v248 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_111 : after ops V (Proc.devRef .tc main_cst_111) = (constant S_ .f32 0x41500000#32) :=
  nullary_at hW V 362 main_cst_111 (constant S_ .f32 0x41500000#32) _ rfl (by decide +kernel)
theorem rd_main_v249 : after ops V (Proc.devRef .tc main_v249) = (broadcastInDim S2000000 ![] bcast_S_S2000000 : (⟨S_, .f32⟩ : BufTy).Contents (Elt F) → (⟨S2000000, .f32⟩ : BufTy).Contents (Elt F)) (after ops V (Proc.devRef .tc main_cst_111)) :=
  Writes.unary_at hW V 363 main_cst_111 main_v249 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v250 : after ops V (Proc.devRef .tc main_v250) = (mulf : (⟨S2000000, .f32⟩ : BufTy).Contents (Elt F) → (⟨S2000000, .f32⟩ : BufTy).Contents (Elt F) → (⟨S2000000, .f32⟩ : BufTy).Contents (Elt F)) (after ops V (Proc.devRef .tc main_v249)) (after ops V (Proc.devRef .tc main_arg2)) :=
  binary_at hW V 364 main_v249 main_arg2 main_v250 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v251 : after ops V (Proc.devRef .tc main_v251) = (mulf : (⟨S2000000, .f32⟩ : BufTy).Contents (Elt F) → (⟨S2000000, .f32⟩ : BufTy).Contents (Elt F) → (⟨S2000000, .f32⟩ : BufTy).Contents (Elt F)) (after ops V (Proc.devRef .tc main_v250)) (after ops V (Proc.devRef .tc main_v248)) :=
  binary_at hW V 365 main_v250 main_v248 main_v251 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_112 : after ops V (Proc.devRef .tc main_cst_112) = (constant S_ .f32 0x41200000#32) :=
  nullary_at hW V 366 main_cst_112 (constant S_ .f32 0x41200000#32) _ rfl (by decide +kernel)
theorem rd_main_v252 : after ops V (Proc.devRef .tc main_v252) = (broadcastInDim S2000000 ![] bcast_S_S2000000 : (⟨S_, .f32⟩ : BufTy).Contents (Elt F) → (⟨S2000000, .f32⟩ : BufTy).Contents (Elt F)) (after ops V (Proc.devRef .tc main_cst_112)) :=
  Writes.unary_at hW V 367 main_cst_112 main_v252 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v253 : after ops V (Proc.devRef .tc main_v253) = (mulf : (⟨S2000000, .f32⟩ : BufTy).Contents (Elt F) → (⟨S2000000, .f32⟩ : BufTy).Contents (Elt F) → (⟨S2000000, .f32⟩ : BufTy).Contents (Elt F)) (after ops V (Proc.devRef .tc main_v252)) (after ops V (Proc.devRef .tc main_v31)) :=
  binary_at hW V 368 main_v252 main_v31 main_v253 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v254 : after ops V (Proc.devRef .tc main_v254) = (mulf : (⟨S2000000, .f32⟩ : BufTy).Contents (Elt F) → (⟨S2000000, .f32⟩ : BufTy).Contents (Elt F) → (⟨S2000000, .f32⟩ : BufTy).Contents (Elt F)) (after ops V (Proc.devRef .tc main_v253)) (after ops V (Proc.devRef .tc main_v41)) :=
  binary_at hW V 369 main_v253 main_v41 main_v254 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v255 : after ops V (Proc.devRef .tc main_v255) = (subf : (⟨S2000000, .f32⟩ : BufTy).Contents (Elt F) → (⟨S2000000, .f32⟩ : BufTy).Contents (Elt F) → (⟨S2000000, .f32⟩ : BufTy).Contents (Elt F)) (after ops V (Proc.devRef .tc main_v251)) (after ops V (Proc.devRef .tc main_v254)) :=
  binary_at hW V 370 main_v251 main_v254 main_v255 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_113 : after ops V (Proc.devRef .tc main_cst_113) = (constant S_ .f32 0x40400000#32) :=
  nullary_at hW V 371 main_cst_113 (constant S_ .f32 0x40400000#32) _ rfl (by decide +kernel)
theorem rd_main_v256 : after ops V (Proc.devRef .tc main_v256) = (broadcastInDim S2000000 ![] bcast_S_S2000000 : (⟨S_, .f32⟩ : BufTy).Contents (Elt F) → (⟨S2000000, .f32⟩ : BufTy).Contents (Elt F)) (after ops V (Proc.devRef .tc main_cst_113)) :=
  Writes.unary_at hW V 372 main_cst_113 main_v256 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v257 : after ops V (Proc.devRef .tc main_v257) = (Host.divf : (⟨S2000000, .f32⟩ : BufTy).Contents (Elt F) → (⟨S2000000, .f32⟩ : BufTy).Contents (Elt F) → (⟨S2000000, .f32⟩ : BufTy).Contents (Elt F)) (after ops V (Proc.devRef .tc main_v255)) (after ops V (Proc.devRef .tc main_v256)) :=
  binary_at hW V 373 main_v255 main_v256 main_v257 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_114 : after ops V (Proc.devRef .tc main_cst_114) = (constant S_ .f32 0x41700000#32) :=
  nullary_at hW V 374 main_cst_114 (constant S_ .f32 0x41700000#32) _ rfl (by decide +kernel)
theorem rd_main_v258 : after ops V (Proc.devRef .tc main_v258) = (broadcastInDim S2000000 ![] bcast_S_S2000000 : (⟨S_, .f32⟩ : BufTy).Contents (Elt F) → (⟨S2000000, .f32⟩ : BufTy).Contents (Elt F)) (after ops V (Proc.devRef .tc main_cst_114)) :=
  Writes.unary_at hW V 375 main_cst_114 main_v258 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v259 : after ops V (Proc.devRef .tc main_v259) = (mulf : (⟨S2000000, .f32⟩ : BufTy).Contents (Elt F) → (⟨S2000000, .f32⟩ : BufTy).Contents (Elt F) → (⟨S2000000, .f32⟩ : BufTy).Contents (Elt F)) (after ops V (Proc.devRef .tc main_v258)) (after ops V (Proc.devRef .tc main_arg2)) :=
  binary_at hW V 376 main_v258 main_arg2 main_v259 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v260 : after ops V (Proc.devRef .tc main_v260) = (mulf : (⟨S2000000, .f32⟩ : BufTy).Contents (Elt F) → (⟨S2000000, .f32⟩ : BufTy).Contents (Elt F) → (⟨S2000000, .f32⟩ : BufTy).Contents (Elt F)) (after ops V (Proc.devRef .tc main_v259)) (after ops V (Proc.devRef .tc main_v257)) :=
  binary_at hW V 377 main_v259 main_v257 main_v260 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_115 : after ops V (Proc.devRef .tc main_cst_115) = (constant S_ .f32 0x41300000#32) :=
  nullary_at hW V 378 main_cst_115 (constant S_ .f32 0x41300000#32) _ rfl (by decide +kernel)
theorem rd_main_v261 : after ops V (Proc.devRef .tc main_v261) = (broadcastInDim S2000000 ![] bcast_S_S2000000 : (⟨S_, .f32⟩ : BufTy).Contents (Elt F) → (⟨S2000000, .f32⟩ : BufTy).Contents (Elt F)) (after ops V (Proc.devRef .tc main_cst_115)) :=
  Writes.unary_at hW V 379 main_cst_115 main_v261 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v262 : after ops V (Proc.devRef .tc main_v262) = (mulf : (⟨S2000000, .f32⟩ : BufTy).Contents (Elt F) → (⟨S2000000, .f32⟩ : BufTy).Contents (Elt F) → (⟨S2000000, .f32⟩ : BufTy).Contents (Elt F)) (after ops V (Proc.devRef .tc main_v261)) (after ops V (Proc.devRef .tc main_v248)) :=
  binary_at hW V 380 main_v261 main_v248 main_v262 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v263 : after ops V (Proc.devRef .tc main_v263) = (mulf : (⟨S2000000, .f32⟩ : BufTy).Contents (Elt F) → (⟨S2000000, .f32⟩ : BufTy).Contents (Elt F) → (⟨S2000000, .f32⟩ : BufTy).Contents (Elt F)) (after ops V (Proc.devRef .tc main_v262)) (after ops V (Proc.devRef .tc main_v41)) :=
  binary_at hW V 381 main_v262 main_v41 main_v263 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v264 : after ops V (Proc.devRef .tc main_v264) = (subf : (⟨S2000000, .f32⟩ : BufTy).Contents (Elt F) → (⟨S2000000, .f32⟩ : BufTy).Contents (Elt F) → (⟨S2000000, .f32⟩ : BufTy).Contents (Elt F)) (after ops V (Proc.devRef .tc main_v260)) (after ops V (Proc.devRef .tc main_v263)) :=
  binary_at hW V 382 main_v260 main_v263 main_v264 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_116 : after ops V (Proc.devRef .tc main_cst_116) = (constant S_ .f32 0x40800000#32) :=
  nullary_at hW V 383 main_cst_116 (constant S_ .f32 0x40800000#32) _ rfl (by decide +kernel)
theorem rd_main_v265 : after ops V (Proc.devRef .tc main_v265) = (broadcastInDim S2000000 ![] bcast_S_S2000000 : (⟨S_, .f32⟩ : BufTy).Contents (Elt F) → (⟨S2000000, .f32⟩ : BufTy).Contents (Elt F)) (after ops V (Proc.devRef .tc main_cst_116)) :=
  Writes.unary_at hW V 384 main_cst_116 main_v265 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v266 : after ops V (Proc.devRef .tc main_v266) = (Host.divf : (⟨S2000000, .f32⟩ : BufTy).Contents (Elt F) → (⟨S2000000, .f32⟩ : BufTy).Contents (Elt F) → (⟨S2000000, .f32⟩ : BufTy).Contents (Elt F)) (after ops V (Proc.devRef .tc main_v264)) (after ops V (Proc.devRef .tc main_v265)) :=
  binary_at hW V 385 main_v264 main_v265 main_v266 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_117 : after ops V (Proc.devRef .tc main_cst_117) = (constant S_ .f32 0x41500000#32) :=
  nullary_at hW V 386 main_cst_117 (constant S_ .f32 0x41500000#32) _ rfl (by decide +kernel)
theorem rd_main_v267 : after ops V (Proc.devRef .tc main_v267) = (broadcastInDim S2000000 ![] bcast_S_S2000000 : (⟨S_, .f32⟩ : BufTy).Contents (Elt F) → (⟨S2000000, .f32⟩ : BufTy).Contents (Elt F)) (after ops V (Proc.devRef .tc main_cst_117)) :=
  Writes.unary_at hW V 387 main_cst_117 main_v267 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v268 : after ops V (Proc.devRef .tc main_v268) = (mulf : (⟨S2000000, .f32⟩ : BufTy).Contents (Elt F) → (⟨S2000000, .f32⟩ : BufTy).Contents (Elt F) → (⟨S2000000, .f32⟩ : BufTy).Contents (Elt F)) (after ops V (Proc.devRef .tc main_v267)) (after ops V (Proc.devRef .tc main_arg2)) :=
  binary_at hW V 388 main_v267 main_arg2 main_v268 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v269 : after ops V (Proc.devRef .tc main_v269) = (mulf : (⟨S2000000, .f32⟩ : BufTy).Contents (Elt F) → (⟨S2000000, .f32⟩ : BufTy).Contents (Elt F) → (⟨S2000000, .f32⟩ : BufTy).Contents (Elt F)) (after ops V (Proc.devRef .tc main_v268)) (after ops V (Proc.devRef .tc main_v34)) :=
  binary_at hW V 389 main_v268 main_v34 main_v269 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_118 : after ops V (Proc.devRef .tc main_cst_118) = (constant S_ .f32 0x41300000#32) :=
  nullary_at hW V 390 main_cst_118 (constant S_ .f32 0x41300000#32) _ rfl (by decide +kernel)
theorem rd_main_v270 : after ops V (Proc.devRef .tc main_v270) = (broadcastInDim S2000000 ![] bcast_S_S2000000 : (⟨S_, .f32⟩ : BufTy).Contents (Elt F) → (⟨S2000000, .f32⟩ : BufTy).Contents (Elt F)) (after ops V (Proc.devRef .tc main_cst_118)) :=
  Writes.unary_at hW V 391 main_cst_118 main_v270 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v271 : after ops V (Proc.devRef .tc main_v271) = (mulf : (⟨S2000000, .f32⟩ : BufTy).Contents (Elt F) → (⟨S2000000, .f32⟩ : BufTy).Contents (Elt F) → (⟨S2000000, .f32⟩ : BufTy).Contents (Elt F)) (after ops V (Proc.devRef .tc main_v270)) (after ops V (Proc.devRef .tc main_v10)) :=
  binary_at hW V 392 main_v270 main_v10 main_v271 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v272 : after ops V (Proc.devRef .tc main_v272) = (mulf : (⟨S2000000, .f32⟩ : BufTy).Contents (Elt F) → (⟨S2000000, .f32⟩ : BufTy).Contents (Elt F) → (⟨S2000000, .f32⟩ : BufTy).Contents (Elt F)) (after ops V (Proc.devRef .tc main_v271)) (after ops V (Proc.devRef .tc main_v41)) :=
  binary_at hW V 393 main_v271 main_v41 main_v272 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v273 : after ops V (Proc.devRef .tc main_v273) = (subf : (⟨S2000000, .f32⟩ : BufTy).Contents (Elt F) → (⟨S2000000, .f32⟩ : BufTy).Contents (Elt F) → (⟨S2000000, .f32⟩ : BufTy).Contents (Elt F)) (after ops V (Proc.devRef .tc main_v269)) (after ops V (Proc.devRef .tc main_v272)) :=
  binary_at hW V 394 main_v269 main_v272 main_v273 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_119 : after ops V (Proc.devRef .tc main_cst_119) = (constant S_ .f32 0x40000000#32) :=
  nullary_at hW V 395 main_cst_119 (constant S_ .f32 0x40000000#32) _ rfl (by decide +kernel)
theorem rd_main_v274 : after ops V (Proc.devRef .tc main_v274) = (broadcastInDim S2000000 ![] bcast_S_S2000000 : (⟨S_, .f32⟩ : BufTy).Contents (Elt F) → (⟨S2000000, .f32⟩ : BufTy).Contents (Elt F)) (after ops V (Proc.devRef .tc main_cst_119)) :=
  Writes.unary_at hW V 396 main_cst_119 main_v274 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v275 : after ops V (Proc.devRef .tc main_v275) = (Host.divf : (⟨S2000000, .f32⟩ : BufTy).Contents (Elt F) → (⟨S2000000, .f32⟩ : BufTy).Contents (Elt F) → (⟨S2000000, .f32⟩ : BufTy).Contents (Elt F)) (after ops V (Proc.devRef .tc main_v273)) (after ops V (Proc.devRef .tc main_v274)) :=
  binary_at hW V 397 main_v273 main_v274 main_v275 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_120 : after ops V (Proc.devRef .tc main_cst_120) = (constant S_ .f32 0x41700000#32) :=
  nullary_at hW V 398 main_cst_120 (constant S_ .f32 0x41700000#32) _ rfl (by decide +kernel)
theorem rd_main_v276 : after ops V (Proc.devRef .tc main_v276) = (broadcastInDim S2000000 ![] bcast_S_S2000000 : (⟨S_, .f32⟩ : BufTy).Contents (Elt F) → (⟨S2000000, .f32⟩ : BufTy).Contents (Elt F)) (after ops V (Proc.devRef .tc main_cst_120)) :=
  Writes.unary_at hW V 399 main_cst_120 main_v276 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v277 : after ops V (Proc.devRef .tc main_v277) = (mulf : (⟨S2000000, .f32⟩ : BufTy).Contents (Elt F) → (⟨S2000000, .f32⟩ : BufTy).Contents (Elt F) → (⟨S2000000, .f32⟩ : BufTy).Contents (Elt F)) (after ops V (Proc.devRef .tc main_v276)) (after ops V (Proc.devRef .tc main_arg2)) :=
  binary_at hW V 400 main_v276 main_arg2 main_v277 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v278 : after ops V (Proc.devRef .tc main_v278) = (mulf : (⟨S2000000, .f32⟩ : BufTy).Contents (Elt F) → (⟨S2000000, .f32⟩ : BufTy).Contents (Elt F) → (⟨S2000000, .f32⟩ : BufTy).Contents (Elt F)) (after ops V (Proc.devRef .tc main_v277)) (after ops V (Proc.devRef .tc main_v275)) :=
  binary_at hW V 401 main_v277 main_v275 main_v278 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_121 : after ops V (Proc.devRef .tc main_cst_121) = (constant S_ .f32 0x41400000#32) :=
  nullary_at hW V 402 main_cst_121 (constant S_ .f32 0x41400000#32) _ rfl (by decide +kernel)
theorem rd_main_v279 : after ops V (Proc.devRef .tc main_v279) = (broadcastInDim S2000000 ![] bcast_S_S2000000 : (⟨S_, .f32⟩ : BufTy).Contents (Elt F) → (⟨S2000000, .f32⟩ : BufTy).Contents (Elt F)) (after ops V (Proc.devRef .tc main_cst_121)) :=
  Writes.unary_at hW V 403 main_cst_121 main_v279 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v280 : after ops V (Proc.devRef .tc main_v280) = (mulf : (⟨S2000000, .f32⟩ : BufTy).Contents (Elt F) → (⟨S2000000, .f32⟩ : BufTy).Contents (Elt F) → (⟨S2000000, .f32⟩ : BufTy).Contents (Elt F)) (after ops V (Proc.devRef .tc main_v279)) (after ops V (Proc.devRef .tc main_v34)) :=
  binary_at hW V 404 main_v279 main_v34 main_v280 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v281 : after ops V (Proc.devRef .tc main_v281) = (mulf : (⟨S2000000, .f32⟩ : BufTy).Contents (Elt F) → (⟨S2000000, .f32⟩ : BufTy).Contents (Elt F) → (⟨S2000000, .f32⟩ : BufTy).Contents (Elt F)) (after ops V (Proc.devRef .tc main_v280)) (after ops V (Proc.devRef .tc main_v41)) :=
  binary_at hW V 405 main_v280 main_v41 main_v281 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v282 : after ops V (Proc.devRef .tc main_v282) = (subf : (⟨S2000000, .f32⟩ : BufTy).Contents (Elt F) → (⟨S2000000, .f32⟩ : BufTy).Contents (Elt F) → (⟨S2000000, .f32⟩ : BufTy).Contents (Elt F)) (after ops V (Proc.devRef .tc main_v278)) (after ops V (Proc.devRef .tc main_v281)) :=
  binary_at hW V 406 main_v278 main_v281 main_v282 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_122 : after ops V (Proc.devRef .tc main_cst_122) = (constant S_ .f32 0x40400000#32) :=
  nullary_at hW V 407 main_cst_122 (constant S_ .f32 0x40400000#32) _ rfl (by decide +kernel)
theorem rd_main_v283 : after ops V (Proc.devRef .tc main_v283) = (broadcastInDim S2000000 ![] bcast_S_S2000000 : (⟨S_, .f32⟩ : BufTy).Contents (Elt F) → (⟨S2000000, .f32⟩ : BufTy).Contents (Elt F)) (after ops V (Proc.devRef .tc main_cst_122)) :=
  Writes.unary_at hW V 408 main_cst_122 main_v283 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v284 : after ops V (Proc.devRef .tc main_v284) = (Host.divf : (⟨S2000000, .f32⟩ : BufTy).Contents (Elt F) → (⟨S2000000, .f32⟩ : BufTy).Contents (Elt F) → (⟨S2000000, .f32⟩ : BufTy).Contents (Elt F)) (after ops V (Proc.devRef .tc main_v282)) (after ops V (Proc.devRef .tc main_v283)) :=
  binary_at hW V 409 main_v282 main_v283 main_v284 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_123 : after ops V (Proc.devRef .tc main_cst_123) = (constant S_ .f32 0x41700000#32) :=
  nullary_at hW V 410 main_cst_123 (constant S_ .f32 0x41700000#32) _ rfl (by decide +kernel)
theorem rd_main_v285 : after ops V (Proc.devRef .tc main_v285) = (broadcastInDim S2000000 ![] bcast_S_S2000000 : (⟨S_, .f32⟩ : BufTy).Contents (Elt F) → (⟨S2000000, .f32⟩ : BufTy).Contents (Elt F)) (after ops V (Proc.devRef .tc main_cst_123)) :=
  Writes.unary_at hW V 411 main_cst_123 main_v285 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v286 : after ops V (Proc.devRef .tc main_v286) = (mulf : (⟨S2000000, .f32⟩ : BufTy).Contents (Elt F) → (⟨S2000000, .f32⟩ : BufTy).Contents (Elt F) → (⟨S2000000, .f32⟩ : BufTy).Contents (Elt F)) (after ops V (Proc.devRef .tc main_v285)) (after ops V (Proc.devRef .tc main_arg2)) :=
  binary_at hW V 412 main_v285 main_arg2 main_v286 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v287 : after ops V (Proc.devRef .tc main_v287) = (mulf : (⟨S2000000, .f32⟩ : BufTy).Contents (Elt F) → (⟨S2000000, .f32⟩ : BufTy).Contents (Elt F) → (⟨S2000000, .f32⟩ : BufTy).Contents (Elt F)) (after ops V (Proc.devRef .tc main_v286)) (after ops V (Proc.devRef .tc main_v37)) :=
  binary_at hW V 413 main_v286 main_v37 main_v287 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_124 : after ops V (Proc.devRef .tc main_cst_124) = (constant S_ .f32 0x41500000#32) :=
  nullary_at hW V 414 main_cst_124 (constant S_ .f32 0x41500000#32) _ rfl (by decide +kernel)
theorem rd_main_v288 : after ops V (Proc.devRef .tc main_v288) = (broadcastInDim S2000000 ![] bcast_S_S2000000 : (⟨S_, .f32⟩ : BufTy).Contents (Elt F) → (⟨S2000000, .f32⟩ : BufTy).Contents (Elt F)) (after ops V (Proc.devRef .tc main_cst_124)) :=
  Writes.unary_at hW V 415 main_cst_124 main_v288 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v289 : after ops V (Proc.devRef .tc main_v289) = (mulf : (⟨S2000000, .f32⟩ : BufTy).Contents (Elt F) → (⟨S2000000, .f32⟩ : BufTy).Contents (Elt F) → (⟨S2000000, .f32⟩ : BufTy).Contents (Elt F)) (after ops V (Proc.devRef .tc main_v288)) (after ops V (Proc.devRef .tc main_v12)) :=
  binary_at hW V 416 main_v288 main_v12 main_v289 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v290 : after ops V (Proc.devRef .tc main_v290) = (mulf : (⟨S2000000, .f32⟩ : BufTy).Contents (Elt F) → (⟨S2000000, .f32⟩ : BufTy).Contents (Elt F) → (⟨S2000000, .f32⟩ : BufTy).Contents (Elt F)) (after ops V (Proc.devRef .tc main_v289)) (after ops V (Proc.devRef .tc main_v41)) :=
  binary_at hW V 417 main_v289 main_v41 main_v290 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v291 : after ops V (Proc.devRef .tc main_v291) = (subf : (⟨S2000000, .f32⟩ : BufTy).Contents (Elt F) → (⟨S2000000, .f32⟩ : BufTy).Contents (Elt F) → (⟨S2000000, .f32⟩ : BufTy).Contents (Elt F)) (after ops V (Proc.devRef .tc main_v287)) (after ops V (Proc.devRef .tc main_v290)) :=
  binary_at hW V 418 main_v287 main_v290 main_v291 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_cst_125 : after ops V (Proc.devRef .tc main_cst_125) = (constant S_ .f32 0x40000000#32) :=
  nullary_at hW V 419 main_cst_125 (constant S_ .f32 0x40000000#32) _ rfl (by decide +kernel)

end Cert.ReferenceIdeal.Line

end
-- ==== Proof.RefRead7.lean ====
/- Window 7 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v292 : after ops V (Proc.devRef .tc main_v292) = (broadcastInDim S2000000 ![] bcast_S_S2000000 : (⟨S_, .f32⟩ : BufTy).Contents (Elt F) → (⟨S2000000, .f32⟩ : BufTy).Contents (Elt F)) (after ops V (Proc.devRef .tc main_cst_125)) :=
  Writes.unary_at hW V 420 main_cst_125 main_v292 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v293 : after ops V (Proc.devRef .tc main_v293) = (Host.divf : (⟨S2000000, .f32⟩ : BufTy).Contents (Elt F) → (⟨S2000000, .f32⟩ : BufTy).Contents (Elt F) → (⟨S2000000, .f32⟩ : BufTy).Contents (Elt F)) (after ops V (Proc.devRef .tc main_v291)) (after ops V (Proc.devRef .tc main_v292)) :=
  binary_at hW V 421 main_v291 main_v292 main_v293 (Host.divf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v294 : after ops V (Proc.devRef .tc main_v294) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v0)) :=
  Writes.unary_at hW V 422 main_v0 main_v294 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v295 : after ops V (Proc.devRef .tc main_v295) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v19)) :=
  Writes.unary_at hW V 423 main_v19 main_v295 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v296 : after ops V (Proc.devRef .tc main_v296) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v2)) :=
  Writes.unary_at hW V 424 main_v2 main_v296 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v297 : after ops V (Proc.devRef .tc main_v297) = ((fun a b => concatenate S2000000x2 1 [⟨S2000000x1, a⟩, ⟨S2000000x1, b⟩] concatenates_S2000000x1_S2000000x1_S2000000x2_d1) : (⟨S2000000x1, .f32⟩ : BufTy).Contents (Elt F) → (⟨S2000000x1, .f32⟩ : BufTy).Contents (Elt F) → (⟨S2000000x2, .f32⟩ : BufTy).Contents (Elt F)) (after ops V (Proc.devRef .tc main_v295)) (after ops V (Proc.devRef .tc main_v296)) :=
  binary_at hW V 425 main_v295 main_v296 main_v297 ((fun a b => concatenate S2000000x2 1 [⟨S2000000x1, a⟩, ⟨S2000000x1, b⟩] concatenates_S2000000x1_S2000000x1_S2000000x2_d1) : (⟨S2000000x1, .f32⟩ : BufTy).Contents (Elt F) → (⟨S2000000x1, .f32⟩ : BufTy).Contents (Elt F) → (⟨S2000000x2, .f32⟩ : BufTy).Contents (Elt F)) _ _ _ rfl (by decide +kernel) (by decide +kernel) (by decide +kernel)
theorem rd_main_v298 : after ops V (Proc.devRef .tc main_v298) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v50)) :=
  Writes.unary_at hW V 426 main_v50 main_v298 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v299 : after ops V (Proc.devRef .tc main_v299) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v22)) :=
  Writes.unary_at hW V 427 main_v22 main_v299 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v300 : after ops V (Proc.devRef .tc main_v300) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v4)) :=
  Writes.unary_at hW V 428 main_v4 main_v300 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v301 : after ops V (Proc.devRef .tc main_v301) = (fun u => concatenate S2000000x3 1 [⟨S2000000x1, u 0⟩, ⟨S2000000x1, u 1⟩, ⟨S2000000x1, u 2⟩] concatenates_S2000000x1_S2000000x1_S2000000x1_S2000000x3_d1) (fun j => after ops V (Proc.devRef .tc (![main_v298, main_v299, main_v300] j))) :=
  Writes.nary_at hW V 429 ![main_v298, main_v299, main_v300] main_v301 (fun u => concatenate S2000000x3 1 [⟨S2000000x1, u 0⟩, ⟨S2000000x1, u 1⟩, ⟨S2000000x1, u 2⟩] concatenates_S2000000x1_S2000000x1_S2000000x1_S2000000x3_d1) _ _ rfl (by decide +kernel) (by decide +kernel)
theorem rd_main_v302 : after ops V (Proc.devRef .tc main_v302) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v59)) :=
  Writes.unary_at hW V 430 main_v59 main_v302 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v303 : after ops V (Proc.devRef .tc main_v303) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v113)) :=
  Writes.unary_at hW V 431 main_v113 main_v303 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v304 : after ops V (Proc.devRef .tc main_v304) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v25)) :=
  Writes.unary_at hW V 432 main_v25 main_v304 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v305 : after ops V (Proc.devRef .tc main_v305) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v6)) :=
  Writes.unary_at hW V 433 main_v6 main_v305 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v306 : after ops V (Proc.devRef .tc main_v306) = (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1) (fun j => after ops V (Proc.devRef .tc (![main_v302, main_v303, main_v304, main_v305] j))) :=
  Writes.nary_at hW V 434 ![main_v302, main_v303, main_v304, main_v305] main_v306 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1) _ _ rfl (by decide +kernel) (by decide +kernel)
theorem rd_main_v307 : after ops V (Proc.devRef .tc main_v307) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v68)) :=
  Writes.unary_at hW V 435 main_v68 main_v307 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v308 : after ops V (Proc.devRef .tc main_v308) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v122)) :=
  Writes.unary_at hW V 436 main_v122 main_v308 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v309 : after ops V (Proc.devRef .tc main_v309) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v167)) :=
  Writes.unary_at hW V 437 main_v167 main_v309 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v310 : after ops V (Proc.devRef .tc main_v310) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v28)) :=
  Writes.unary_at hW V 438 main_v28 main_v310 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v311 : after ops V (Proc.devRef .tc main_v311) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v8)) :=
  Writes.unary_at hW V 439 main_v8 main_v311 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v312 : after ops V (Proc.devRef .tc main_v312) = (fun u => concatenate S2000000x5 1 [⟨S2000000x1, u 0⟩, ⟨S2000000x1, u 1⟩, ⟨S2000000x1, u 2⟩, ⟨S2000000x1, u 3⟩, ⟨S2000000x1, u 4⟩] concatenates_S2000000x1_S2000000x1_S2000000x1_S2000000x1_S2000000x1_S2000000x5_d1) (fun j => after ops V (Proc.devRef .tc (![main_v307, main_v308, main_v309, main_v310, main_v311] j))) :=
  Writes.nary_at hW V 440 ![main_v307, main_v308, main_v309, main_v310, main_v311] main_v312 (fun u => concatenate S2000000x5 1 [⟨S2000000x1, u 0⟩, ⟨S2000000x1, u 1⟩, ⟨S2000000x1, u 2⟩, ⟨S2000000x1, u 3⟩, ⟨S2000000x1, u 4⟩] concatenates_S2000000x1_S2000000x1_S2000000x1_S2000000x1_S2000000x1_S2000000x5_d1) _ _ rfl (by decide +kernel) (by decide +kernel)
theorem rd_main_v313 : after ops V (Proc.devRef .tc main_v313) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v77)) :=
  Writes.unary_at hW V 441 main_v77 main_v313 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v314 : after ops V (Proc.devRef .tc main_v314) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v131)) :=
  Writes.unary_at hW V 442 main_v131 main_v314 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v315 : after ops V (Proc.devRef .tc main_v315) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v176)) :=
  Writes.unary_at hW V 443 main_v176 main_v315 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v316 : after ops V (Proc.devRef .tc main_v316) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v212)) :=
  Writes.unary_at hW V 444 main_v212 main_v316 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v317 : after ops V (Proc.devRef .tc main_v317) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v31)) :=
  Writes.unary_at hW V 445 main_v31 main_v317 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v318 : after ops V (Proc.devRef .tc main_v318) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v10)) :=
  Writes.unary_at hW V 446 main_v10 main_v318 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v319 : after ops V (Proc.devRef .tc main_v319) = (fun u => concatenate S2000000x6 1 [⟨S2000000x1, u 0⟩, ⟨S2000000x1, u 1⟩, ⟨S2000000x1, u 2⟩, ⟨S2000000x1, u 3⟩, ⟨S2000000x1, u 4⟩, ⟨S2000000x1, u 5⟩] concatenates_S2000000x1_S2000000x1_S2000000x1_S2000000x1_S2000000x1_S2000000x1_S2000000x6_d1) (fun j => after ops V (Proc.devRef .tc (![main_v313, main_v314, main_v315, main_v316, main_v317, main_v318] j))) :=
  Writes.nary_at hW V 447 ![main_v313, main_v314, main_v315, main_v316, main_v317, main_v318] main_v319 (fun u => concatenate S2000000x6 1 [⟨S2000000x1, u 0⟩, ⟨S2000000x1, u 1⟩, ⟨S2000000x1, u 2⟩, ⟨S2000000x1, u 3⟩, ⟨S2000000x1, u 4⟩, ⟨S2000000x1, u 5⟩] concatenates_S2000000x1_S2000000x1_S2000000x1_S2000000x1_S2000000x1_S2000000x1_S2000000x6_d1) _ _ rfl (by decide +kernel) (by decide +kernel)
theorem rd_main_v320 : after ops V (Proc.devRef .tc main_v320) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v86)) :=
  Writes.unary_at hW V 448 main_v86 main_v320 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v321 : after ops V (Proc.devRef .tc main_v321) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v140)) :=
  Writes.unary_at hW V 449 main_v140 main_v321 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v322 : after ops V (Proc.devRef .tc main_v322) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v185)) :=
  Writes.unary_at hW V 450 main_v185 main_v322 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v323 : after ops V (Proc.devRef .tc main_v323) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v221)) :=
  Writes.unary_at hW V 451 main_v221 main_v323 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v324 : after ops V (Proc.devRef .tc main_v324) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v248)) :=
  Writes.unary_at hW V 452 main_v248 main_v324 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v325 : after ops V (Proc.devRef .tc main_v325) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v34)) :=
  Writes.unary_at hW V 453 main_v34 main_v325 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v326 : after ops V (Proc.devRef .tc main_v326) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v12)) :=
  Writes.unary_at hW V 454 main_v12 main_v326 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v327 : after ops V (Proc.devRef .tc main_v327) = (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1) (fun j => after ops V (Proc.devRef .tc (![main_v320, main_v321, main_v322, main_v323, main_v324, main_v325, main_v326] j))) :=
  Writes.nary_at hW V 455 ![main_v320, main_v321, main_v322, main_v323, main_v324, main_v325, main_v326] main_v327 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1) _ _ rfl (by decide +kernel) (by decide +kernel)
theorem rd_main_v328 : after ops V (Proc.devRef .tc main_v328) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v95)) :=
  Writes.unary_at hW V 456 main_v95 main_v328 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v329 : after ops V (Proc.devRef .tc main_v329) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v149)) :=
  Writes.unary_at hW V 457 main_v149 main_v329 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v330 : after ops V (Proc.devRef .tc main_v330) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v194)) :=
  Writes.unary_at hW V 458 main_v194 main_v330 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v331 : after ops V (Proc.devRef .tc main_v331) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v230)) :=
  Writes.unary_at hW V 459 main_v230 main_v331 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v332 : after ops V (Proc.devRef .tc main_v332) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v257)) :=
  Writes.unary_at hW V 460 main_v257 main_v332 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v333 : after ops V (Proc.devRef .tc main_v333) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v275)) :=
  Writes.unary_at hW V 461 main_v275 main_v333 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v334 : after ops V (Proc.devRef .tc main_v334) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v37)) :=
  Writes.unary_at hW V 462 main_v37 main_v334 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v335 : after ops V (Proc.devRef .tc main_v335) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v14)) :=
  Writes.unary_at hW V 463 main_v14 main_v335 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v336 : after ops V (Proc.devRef .tc main_v336) = (fun u => concatenate S2000000x8 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩] concatenates_S2000000x1_S2000000x1_S2000000x1_S2000000x1_S2000000x1_S2000000x1_S2000000x1_S2000000x1_S2000000x8_d1) (fun j => after ops V (Proc.devRef .tc (![main_v328, main_v329, main_v330, main_v331, main_v332, main_v333, main_v334, main_v335] j))) :=
  Writes.nary_at hW V 464 ![main_v328, main_v329, main_v330, main_v331, main_v332, main_v333, main_v334, main_v335] main_v336 (fun u => concatenate S2000000x8 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩] concatenates_S2000000x1_S2000000x1_S2000000x1_S2000000x1_S2000000x1_S2000000x1_S2000000x1_S2000000x1_S2000000x8_d1) _ _ rfl (by decide +kernel) (by decide +kernel)
theorem rd_main_v337 : after ops V (Proc.devRef .tc main_v337) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v104)) :=
  Writes.unary_at hW V 465 main_v104 main_v337 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v338 : after ops V (Proc.devRef .tc main_v338) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v158)) :=
  Writes.unary_at hW V 466 main_v158 main_v338 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v339 : after ops V (Proc.devRef .tc main_v339) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v203)) :=
  Writes.unary_at hW V 467 main_v203 main_v339 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v340 : after ops V (Proc.devRef .tc main_v340) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v239)) :=
  Writes.unary_at hW V 468 main_v239 main_v340 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v341 : after ops V (Proc.devRef .tc main_v341) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v266)) :=
  Writes.unary_at hW V 469 main_v266 main_v341 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v342 : after ops V (Proc.devRef .tc main_v342) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v284)) :=
  Writes.unary_at hW V 470 main_v284 main_v342 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v343 : after ops V (Proc.devRef .tc main_v343) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v293)) :=
  Writes.unary_at hW V 471 main_v293 main_v343 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v344 : after ops V (Proc.devRef .tc main_v344) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v40)) :=
  Writes.unary_at hW V 472 main_v40 main_v344 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v345 : after ops V (Proc.devRef .tc main_v345) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v16)) :=
  Writes.unary_at hW V 473 main_v16 main_v345 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v346 : after ops V (Proc.devRef .tc main_v346) = (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) (fun j => after ops V (Proc.devRef .tc (![main_v337, main_v338, main_v339, main_v340, main_v341, main_v342, main_v343, main_v344, main_v345] j))) :=
  Writes.nary_at hW V 474 ![main_v337, main_v338, main_v339, main_v340, main_v341, main_v342, main_v343, main_v344, main_v345] main_v346 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) _ _ rfl (by decide +kernel) (by decide +kernel)
theorem rd_main_cst_126 : after ops V (Proc.devRef .tc main_cst_126) = (constant S_ .f32 0x3F800000#32) :=
  nullary_at hW V 475 main_cst_126 (constant S_ .f32 0x3F800000#32) _ rfl (by decide +kernel)
theorem rd_main_v347 : after ops V (Proc.devRef .tc main_v347) = (broadcastInDim S2000000 ![] bcast_S_S2000000 : (⟨S_, .f32⟩ : BufTy).Contents (Elt F) → (⟨S2000000, .f32⟩ : BufTy).Contents (Elt F)) (after ops V (Proc.devRef .tc main_cst_126)) :=
  Writes.unary_at hW V 476 main_cst_126 main_v347 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_cst_127 : after ops V (Proc.devRef .tc main_cst_127) = (constant S_ .f32 0x00000000#32) :=
  nullary_at hW V 477 main_cst_127 (constant S_ .f32 0x00000000#32) _ rfl (by decide +kernel)
theorem rd_main_v348 : after ops V (Proc.devRef .tc main_v348) = (broadcastInDim S2000000 ![] bcast_S_S2000000 : (⟨S_, .f32⟩ : BufTy).Contents (Elt F) → (⟨S2000000, .f32⟩ : BufTy).Contents (Elt F)) (after ops V (Proc.devRef .tc main_cst_127)) :=
  Writes.unary_at hW V 478 main_cst_127 main_v348 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v349 : after ops V (Proc.devRef .tc main_v349) = (mulf : (⟨S2000000, .f32⟩ : BufTy).Contents (Elt F) → (⟨S2000000, .f32⟩ : BufTy).Contents (Elt F) → (⟨S2000000, .f32⟩ : BufTy).Contents (Elt F)) (after ops V (Proc.devRef .tc main_v347)) (after ops V (Proc.devRef .tc main_arg0)) :=
  binary_at hW V 479 main_v347 main_arg0 main_v349 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)

end Cert.ReferenceIdeal.Line

end
-- ==== Proof.RefRead8.lean ====
/- Window 8 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v350 : after ops V (Proc.devRef .tc main_v350) = (mulf : (⟨S2000000, .f32⟩ : BufTy).Contents (Elt F) → (⟨S2000000, .f32⟩ : BufTy).Contents (Elt F) → (⟨S2000000, .f32⟩ : BufTy).Contents (Elt F)) (after ops V (Proc.devRef .tc main_v348)) (after ops V (Proc.devRef .tc main_arg1)) :=
  binary_at hW V 480 main_v348 main_arg1 main_v350 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v351 : after ops V (Proc.devRef .tc main_v351) = (subf : (⟨S2000000, .f32⟩ : BufTy).Contents (Elt F) → (⟨S2000000, .f32⟩ : BufTy).Contents (Elt F) → (⟨S2000000, .f32⟩ : BufTy).Contents (Elt F)) (after ops V (Proc.devRef .tc main_v349)) (after ops V (Proc.devRef .tc main_v350)) :=
  binary_at hW V 481 main_v349 main_v350 main_v351 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v352 : after ops V (Proc.devRef .tc main_v352) = (mulf : (⟨S2000000, .f32⟩ : BufTy).Contents (Elt F) → (⟨S2000000, .f32⟩ : BufTy).Contents (Elt F) → (⟨S2000000, .f32⟩ : BufTy).Contents (Elt F)) (after ops V (Proc.devRef .tc main_v348)) (after ops V (Proc.devRef .tc main_arg0)) :=
  binary_at hW V 482 main_v348 main_arg0 main_v352 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v353 : after ops V (Proc.devRef .tc main_v353) = (mulf : (⟨S2000000, .f32⟩ : BufTy).Contents (Elt F) → (⟨S2000000, .f32⟩ : BufTy).Contents (Elt F) → (⟨S2000000, .f32⟩ : BufTy).Contents (Elt F)) (after ops V (Proc.devRef .tc main_v347)) (after ops V (Proc.devRef .tc main_arg1)) :=
  binary_at hW V 483 main_v347 main_arg1 main_v353 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v354 : after ops V (Proc.devRef .tc main_v354) = (addf : (⟨S2000000, .f32⟩ : BufTy).Contents (Elt F) → (⟨S2000000, .f32⟩ : BufTy).Contents (Elt F) → (⟨S2000000, .f32⟩ : BufTy).Contents (Elt F)) (after ops V (Proc.devRef .tc main_v352)) (after ops V (Proc.devRef .tc main_v353)) :=
  binary_at hW V 484 main_v352 main_v353 main_v354 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v355 : after ops V (Proc.devRef .tc main_v355) = (mulf : (⟨S2000000, .f32⟩ : BufTy).Contents (Elt F) → (⟨S2000000, .f32⟩ : BufTy).Contents (Elt F) → (⟨S2000000, .f32⟩ : BufTy).Contents (Elt F)) (after ops V (Proc.devRef .tc main_v351)) (after ops V (Proc.devRef .tc main_arg0)) :=
  binary_at hW V 485 main_v351 main_arg0 main_v355 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v356 : after ops V (Proc.devRef .tc main_v356) = (mulf : (⟨S2000000, .f32⟩ : BufTy).Contents (Elt F) → (⟨S2000000, .f32⟩ : BufTy).Contents (Elt F) → (⟨S2000000, .f32⟩ : BufTy).Contents (Elt F)) (after ops V (Proc.devRef .tc main_v354)) (after ops V (Proc.devRef .tc main_arg1)) :=
  binary_at hW V 486 main_v354 main_arg1 main_v356 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v357 : after ops V (Proc.devRef .tc main_v357) = (subf : (⟨S2000000, .f32⟩ : BufTy).Contents (Elt F) → (⟨S2000000, .f32⟩ : BufTy).Contents (Elt F) → (⟨S2000000, .f32⟩ : BufTy).Contents (Elt F)) (after ops V (Proc.devRef .tc main_v355)) (after ops V (Proc.devRef .tc main_v356)) :=
  binary_at hW V 487 main_v355 main_v356 main_v357 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v358 : after ops V (Proc.devRef .tc main_v358) = (mulf : (⟨S2000000, .f32⟩ : BufTy).Contents (Elt F) → (⟨S2000000, .f32⟩ : BufTy).Contents (Elt F) → (⟨S2000000, .f32⟩ : BufTy).Contents (Elt F)) (after ops V (Proc.devRef .tc main_v354)) (after ops V (Proc.devRef .tc main_arg0)) :=
  binary_at hW V 488 main_v354 main_arg0 main_v358 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v359 : after ops V (Proc.devRef .tc main_v359) = (mulf : (⟨S2000000, .f32⟩ : BufTy).Contents (Elt F) → (⟨S2000000, .f32⟩ : BufTy).Contents (Elt F) → (⟨S2000000, .f32⟩ : BufTy).Contents (Elt F)) (after ops V (Proc.devRef .tc main_v351)) (after ops V (Proc.devRef .tc main_arg1)) :=
  binary_at hW V 489 main_v351 main_arg1 main_v359 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v360 : after ops V (Proc.devRef .tc main_v360) = (addf : (⟨S2000000, .f32⟩ : BufTy).Contents (Elt F) → (⟨S2000000, .f32⟩ : BufTy).Contents (Elt F) → (⟨S2000000, .f32⟩ : BufTy).Contents (Elt F)) (after ops V (Proc.devRef .tc main_v358)) (after ops V (Proc.devRef .tc main_v359)) :=
  binary_at hW V 490 main_v358 main_v359 main_v360 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v361 : after ops V (Proc.devRef .tc main_v361) = (mulf : (⟨S2000000, .f32⟩ : BufTy).Contents (Elt F) → (⟨S2000000, .f32⟩ : BufTy).Contents (Elt F) → (⟨S2000000, .f32⟩ : BufTy).Contents (Elt F)) (after ops V (Proc.devRef .tc main_v357)) (after ops V (Proc.devRef .tc main_arg0)) :=
  binary_at hW V 491 main_v357 main_arg0 main_v361 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v362 : after ops V (Proc.devRef .tc main_v362) = (mulf : (⟨S2000000, .f32⟩ : BufTy).Contents (Elt F) → (⟨S2000000, .f32⟩ : BufTy).Contents (Elt F) → (⟨S2000000, .f32⟩ : BufTy).Contents (Elt F)) (after ops V (Proc.devRef .tc main_v360)) (after ops V (Proc.devRef .tc main_arg1)) :=
  binary_at hW V 492 main_v360 main_arg1 main_v362 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v363 : after ops V (Proc.devRef .tc main_v363) = (subf : (⟨S2000000, .f32⟩ : BufTy).Contents (Elt F) → (⟨S2000000, .f32⟩ : BufTy).Contents (Elt F) → (⟨S2000000, .f32⟩ : BufTy).Contents (Elt F)) (after ops V (Proc.devRef .tc main_v361)) (after ops V (Proc.devRef .tc main_v362)) :=
  binary_at hW V 493 main_v361 main_v362 main_v363 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v364 : after ops V (Proc.devRef .tc main_v364) = (mulf : (⟨S2000000, .f32⟩ : BufTy).Contents (Elt F) → (⟨S2000000, .f32⟩ : BufTy).Contents (Elt F) → (⟨S2000000, .f32⟩ : BufTy).Contents (Elt F)) (after ops V (Proc.devRef .tc main_v360)) (after ops V (Proc.devRef .tc main_arg0)) :=
  binary_at hW V 494 main_v360 main_arg0 main_v364 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v365 : after ops V (Proc.devRef .tc main_v365) = (mulf : (⟨S2000000, .f32⟩ : BufTy).Contents (Elt F) → (⟨S2000000, .f32⟩ : BufTy).Contents (Elt F) → (⟨S2000000, .f32⟩ : BufTy).Contents (Elt F)) (after ops V (Proc.devRef .tc main_v357)) (after ops V (Proc.devRef .tc main_arg1)) :=
  binary_at hW V 495 main_v357 main_arg1 main_v365 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v366 : after ops V (Proc.devRef .tc main_v366) = (addf : (⟨S2000000, .f32⟩ : BufTy).Contents (Elt F) → (⟨S2000000, .f32⟩ : BufTy).Contents (Elt F) → (⟨S2000000, .f32⟩ : BufTy).Contents (Elt F)) (after ops V (Proc.devRef .tc main_v364)) (after ops V (Proc.devRef .tc main_v365)) :=
  binary_at hW V 496 main_v364 main_v365 main_v366 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v367 : after ops V (Proc.devRef .tc main_v367) = (mulf : (⟨S2000000, .f32⟩ : BufTy).Contents (Elt F) → (⟨S2000000, .f32⟩ : BufTy).Contents (Elt F) → (⟨S2000000, .f32⟩ : BufTy).Contents (Elt F)) (after ops V (Proc.devRef .tc main_v363)) (after ops V (Proc.devRef .tc main_arg0)) :=
  binary_at hW V 497 main_v363 main_arg0 main_v367 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v368 : after ops V (Proc.devRef .tc main_v368) = (mulf : (⟨S2000000, .f32⟩ : BufTy).Contents (Elt F) → (⟨S2000000, .f32⟩ : BufTy).Contents (Elt F) → (⟨S2000000, .f32⟩ : BufTy).Contents (Elt F)) (after ops V (Proc.devRef .tc main_v366)) (after ops V (Proc.devRef .tc main_arg1)) :=
  binary_at hW V 498 main_v366 main_arg1 main_v368 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v369 : after ops V (Proc.devRef .tc main_v369) = (subf : (⟨S2000000, .f32⟩ : BufTy).Contents (Elt F) → (⟨S2000000, .f32⟩ : BufTy).Contents (Elt F) → (⟨S2000000, .f32⟩ : BufTy).Contents (Elt F)) (after ops V (Proc.devRef .tc main_v367)) (after ops V (Proc.devRef .tc main_v368)) :=
  binary_at hW V 499 main_v367 main_v368 main_v369 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v370 : after ops V (Proc.devRef .tc main_v370) = (mulf : (⟨S2000000, .f32⟩ : BufTy).Contents (Elt F) → (⟨S2000000, .f32⟩ : BufTy).Contents (Elt F) → (⟨S2000000, .f32⟩ : BufTy).Contents (Elt F)) (after ops V (Proc.devRef .tc main_v366)) (after ops V (Proc.devRef .tc main_arg0)) :=
  binary_at hW V 500 main_v366 main_arg0 main_v370 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v371 : after ops V (Proc.devRef .tc main_v371) = (mulf : (⟨S2000000, .f32⟩ : BufTy).Contents (Elt F) → (⟨S2000000, .f32⟩ : BufTy).Contents (Elt F) → (⟨S2000000, .f32⟩ : BufTy).Contents (Elt F)) (after ops V (Proc.devRef .tc main_v363)) (after ops V (Proc.devRef .tc main_arg1)) :=
  binary_at hW V 501 main_v363 main_arg1 main_v371 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v372 : after ops V (Proc.devRef .tc main_v372) = (addf : (⟨S2000000, .f32⟩ : BufTy).Contents (Elt F) → (⟨S2000000, .f32⟩ : BufTy).Contents (Elt F) → (⟨S2000000, .f32⟩ : BufTy).Contents (Elt F)) (after ops V (Proc.devRef .tc main_v370)) (after ops V (Proc.devRef .tc main_v371)) :=
  binary_at hW V 502 main_v370 main_v371 main_v372 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v373 : after ops V (Proc.devRef .tc main_v373) = (mulf : (⟨S2000000, .f32⟩ : BufTy).Contents (Elt F) → (⟨S2000000, .f32⟩ : BufTy).Contents (Elt F) → (⟨S2000000, .f32⟩ : BufTy).Contents (Elt F)) (after ops V (Proc.devRef .tc main_v369)) (after ops V (Proc.devRef .tc main_arg0)) :=
  binary_at hW V 503 main_v369 main_arg0 main_v373 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v374 : after ops V (Proc.devRef .tc main_v374) = (mulf : (⟨S2000000, .f32⟩ : BufTy).Contents (Elt F) → (⟨S2000000, .f32⟩ : BufTy).Contents (Elt F) → (⟨S2000000, .f32⟩ : BufTy).Contents (Elt F)) (after ops V (Proc.devRef .tc main_v372)) (after ops V (Proc.devRef .tc main_arg1)) :=
  binary_at hW V 504 main_v372 main_arg1 main_v374 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v375 : after ops V (Proc.devRef .tc main_v375) = (subf : (⟨S2000000, .f32⟩ : BufTy).Contents (Elt F) → (⟨S2000000, .f32⟩ : BufTy).Contents (Elt F) → (⟨S2000000, .f32⟩ : BufTy).Contents (Elt F)) (after ops V (Proc.devRef .tc main_v373)) (after ops V (Proc.devRef .tc main_v374)) :=
  binary_at hW V 505 main_v373 main_v374 main_v375 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v376 : after ops V (Proc.devRef .tc main_v376) = (mulf : (⟨S2000000, .f32⟩ : BufTy).Contents (Elt F) → (⟨S2000000, .f32⟩ : BufTy).Contents (Elt F) → (⟨S2000000, .f32⟩ : BufTy).Contents (Elt F)) (after ops V (Proc.devRef .tc main_v372)) (after ops V (Proc.devRef .tc main_arg0)) :=
  binary_at hW V 506 main_v372 main_arg0 main_v376 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v377 : after ops V (Proc.devRef .tc main_v377) = (mulf : (⟨S2000000, .f32⟩ : BufTy).Contents (Elt F) → (⟨S2000000, .f32⟩ : BufTy).Contents (Elt F) → (⟨S2000000, .f32⟩ : BufTy).Contents (Elt F)) (after ops V (Proc.devRef .tc main_v369)) (after ops V (Proc.devRef .tc main_arg1)) :=
  binary_at hW V 507 main_v369 main_arg1 main_v377 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v378 : after ops V (Proc.devRef .tc main_v378) = (addf : (⟨S2000000, .f32⟩ : BufTy).Contents (Elt F) → (⟨S2000000, .f32⟩ : BufTy).Contents (Elt F) → (⟨S2000000, .f32⟩ : BufTy).Contents (Elt F)) (after ops V (Proc.devRef .tc main_v376)) (after ops V (Proc.devRef .tc main_v377)) :=
  binary_at hW V 508 main_v376 main_v377 main_v378 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v379 : after ops V (Proc.devRef .tc main_v379) = (mulf : (⟨S2000000, .f32⟩ : BufTy).Contents (Elt F) → (⟨S2000000, .f32⟩ : BufTy).Contents (Elt F) → (⟨S2000000, .f32⟩ : BufTy).Contents (Elt F)) (after ops V (Proc.devRef .tc main_v375)) (after ops V (Proc.devRef .tc main_arg0)) :=
  binary_at hW V 509 main_v375 main_arg0 main_v379 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v380 : after ops V (Proc.devRef .tc main_v380) = (mulf : (⟨S2000000, .f32⟩ : BufTy).Contents (Elt F) → (⟨S2000000, .f32⟩ : BufTy).Contents (Elt F) → (⟨S2000000, .f32⟩ : BufTy).Contents (Elt F)) (after ops V (Proc.devRef .tc main_v378)) (after ops V (Proc.devRef .tc main_arg1)) :=
  binary_at hW V 510 main_v378 main_arg1 main_v380 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v381 : after ops V (Proc.devRef .tc main_v381) = (subf : (⟨S2000000, .f32⟩ : BufTy).Contents (Elt F) → (⟨S2000000, .f32⟩ : BufTy).Contents (Elt F) → (⟨S2000000, .f32⟩ : BufTy).Contents (Elt F)) (after ops V (Proc.devRef .tc main_v379)) (after ops V (Proc.devRef .tc main_v380)) :=
  binary_at hW V 511 main_v379 main_v380 main_v381 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v382 : after ops V (Proc.devRef .tc main_v382) = (mulf : (⟨S2000000, .f32⟩ : BufTy).Contents (Elt F) → (⟨S2000000, .f32⟩ : BufTy).Contents (Elt F) → (⟨S2000000, .f32⟩ : BufTy).Contents (Elt F)) (after ops V (Proc.devRef .tc main_v378)) (after ops V (Proc.devRef .tc main_arg0)) :=
  binary_at hW V 512 main_v378 main_arg0 main_v382 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v383 : after ops V (Proc.devRef .tc main_v383) = (mulf : (⟨S2000000, .f32⟩ : BufTy).Contents (Elt F) → (⟨S2000000, .f32⟩ : BufTy).Contents (Elt F) → (⟨S2000000, .f32⟩ : BufTy).Contents (Elt F)) (after ops V (Proc.devRef .tc main_v375)) (after ops V (Proc.devRef .tc main_arg1)) :=
  binary_at hW V 513 main_v375 main_arg1 main_v383 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v384 : after ops V (Proc.devRef .tc main_v384) = (addf : (⟨S2000000, .f32⟩ : BufTy).Contents (Elt F) → (⟨S2000000, .f32⟩ : BufTy).Contents (Elt F) → (⟨S2000000, .f32⟩ : BufTy).Contents (Elt F)) (after ops V (Proc.devRef .tc main_v382)) (after ops V (Proc.devRef .tc main_v383)) :=
  binary_at hW V 514 main_v382 main_v383 main_v384 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v385 : after ops V (Proc.devRef .tc main_v385) = (mulf : (⟨S2000000, .f32⟩ : BufTy).Contents (Elt F) → (⟨S2000000, .f32⟩ : BufTy).Contents (Elt F) → (⟨S2000000, .f32⟩ : BufTy).Contents (Elt F)) (after ops V (Proc.devRef .tc main_v381)) (after ops V (Proc.devRef .tc main_arg0)) :=
  binary_at hW V 515 main_v381 main_arg0 main_v385 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v386 : after ops V (Proc.devRef .tc main_v386) = (mulf : (⟨S2000000, .f32⟩ : BufTy).Contents (Elt F) → (⟨S2000000, .f32⟩ : BufTy).Contents (Elt F) → (⟨S2000000, .f32⟩ : BufTy).Contents (Elt F)) (after ops V (Proc.devRef .tc main_v384)) (after ops V (Proc.devRef .tc main_arg1)) :=
  binary_at hW V 516 main_v384 main_arg1 main_v386 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v387 : after ops V (Proc.devRef .tc main_v387) = (subf : (⟨S2000000, .f32⟩ : BufTy).Contents (Elt F) → (⟨S2000000, .f32⟩ : BufTy).Contents (Elt F) → (⟨S2000000, .f32⟩ : BufTy).Contents (Elt F)) (after ops V (Proc.devRef .tc main_v385)) (after ops V (Proc.devRef .tc main_v386)) :=
  binary_at hW V 517 main_v385 main_v386 main_v387 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v388 : after ops V (Proc.devRef .tc main_v388) = (mulf : (⟨S2000000, .f32⟩ : BufTy).Contents (Elt F) → (⟨S2000000, .f32⟩ : BufTy).Contents (Elt F) → (⟨S2000000, .f32⟩ : BufTy).Contents (Elt F)) (after ops V (Proc.devRef .tc main_v384)) (after ops V (Proc.devRef .tc main_arg0)) :=
  binary_at hW V 518 main_v384 main_arg0 main_v388 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v389 : after ops V (Proc.devRef .tc main_v389) = (mulf : (⟨S2000000, .f32⟩ : BufTy).Contents (Elt F) → (⟨S2000000, .f32⟩ : BufTy).Contents (Elt F) → (⟨S2000000, .f32⟩ : BufTy).Contents (Elt F)) (after ops V (Proc.devRef .tc main_v381)) (after ops V (Proc.devRef .tc main_arg1)) :=
  binary_at hW V 519 main_v381 main_arg1 main_v389 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v390 : after ops V (Proc.devRef .tc main_v390) = (addf : (⟨S2000000, .f32⟩ : BufTy).Contents (Elt F) → (⟨S2000000, .f32⟩ : BufTy).Contents (Elt F) → (⟨S2000000, .f32⟩ : BufTy).Contents (Elt F)) (after ops V (Proc.devRef .tc main_v388)) (after ops V (Proc.devRef .tc main_v389)) :=
  binary_at hW V 520 main_v388 main_v389 main_v390 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v391 : after ops V (Proc.devRef .tc main_v391) = (mulf : (⟨S2000000, .f32⟩ : BufTy).Contents (Elt F) → (⟨S2000000, .f32⟩ : BufTy).Contents (Elt F) → (⟨S2000000, .f32⟩ : BufTy).Contents (Elt F)) (after ops V (Proc.devRef .tc main_v387)) (after ops V (Proc.devRef .tc main_arg0)) :=
  binary_at hW V 521 main_v387 main_arg0 main_v391 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v392 : after ops V (Proc.devRef .tc main_v392) = (mulf : (⟨S2000000, .f32⟩ : BufTy).Contents (Elt F) → (⟨S2000000, .f32⟩ : BufTy).Contents (Elt F) → (⟨S2000000, .f32⟩ : BufTy).Contents (Elt F)) (after ops V (Proc.devRef .tc main_v390)) (after ops V (Proc.devRef .tc main_arg1)) :=
  binary_at hW V 522 main_v390 main_arg1 main_v392 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v393 : after ops V (Proc.devRef .tc main_v393) = (subf : (⟨S2000000, .f32⟩ : BufTy).Contents (Elt F) → (⟨S2000000, .f32⟩ : BufTy).Contents (Elt F) → (⟨S2000000, .f32⟩ : BufTy).Contents (Elt F)) (after ops V (Proc.devRef .tc main_v391)) (after ops V (Proc.devRef .tc main_v392)) :=
  binary_at hW V 523 main_v391 main_v392 main_v393 (subf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v394 : after ops V (Proc.devRef .tc main_v394) = (mulf : (⟨S2000000, .f32⟩ : BufTy).Contents (Elt F) → (⟨S2000000, .f32⟩ : BufTy).Contents (Elt F) → (⟨S2000000, .f32⟩ : BufTy).Contents (Elt F)) (after ops V (Proc.devRef .tc main_v390)) (after ops V (Proc.devRef .tc main_arg0)) :=
  binary_at hW V 524 main_v390 main_arg0 main_v394 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v395 : after ops V (Proc.devRef .tc main_v395) = (mulf : (⟨S2000000, .f32⟩ : BufTy).Contents (Elt F) → (⟨S2000000, .f32⟩ : BufTy).Contents (Elt F) → (⟨S2000000, .f32⟩ : BufTy).Contents (Elt F)) (after ops V (Proc.devRef .tc main_v387)) (after ops V (Proc.devRef .tc main_arg1)) :=
  binary_at hW V 525 main_v387 main_arg1 main_v395 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v396 : after ops V (Proc.devRef .tc main_v396) = (addf : (⟨S2000000, .f32⟩ : BufTy).Contents (Elt F) → (⟨S2000000, .f32⟩ : BufTy).Contents (Elt F) → (⟨S2000000, .f32⟩ : BufTy).Contents (Elt F)) (after ops V (Proc.devRef .tc main_v394)) (after ops V (Proc.devRef .tc main_v395)) :=
  binary_at hW V 526 main_v394 main_v395 main_v396 (addf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_v397 : after ops V (Proc.devRef .tc main_v397) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v347)) :=
  Writes.unary_at hW V 527 main_v347 main_v397 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v398 : after ops V (Proc.devRef .tc main_v398) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v351)) :=
  Writes.unary_at hW V 528 main_v351 main_v398 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v399 : after ops V (Proc.devRef .tc main_v399) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v357)) :=
  Writes.unary_at hW V 529 main_v357 main_v399 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v400 : after ops V (Proc.devRef .tc main_v400) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v363)) :=
  Writes.unary_at hW V 530 main_v363 main_v400 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v401 : after ops V (Proc.devRef .tc main_v401) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v369)) :=
  Writes.unary_at hW V 531 main_v369 main_v401 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v402 : after ops V (Proc.devRef .tc main_v402) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v375)) :=
  Writes.unary_at hW V 532 main_v375 main_v402 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v403 : after ops V (Proc.devRef .tc main_v403) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v381)) :=
  Writes.unary_at hW V 533 main_v381 main_v403 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v404 : after ops V (Proc.devRef .tc main_v404) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v387)) :=
  Writes.unary_at hW V 534 main_v387 main_v404 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v405 : after ops V (Proc.devRef .tc main_v405) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v393)) :=
  Writes.unary_at hW V 535 main_v393 main_v405 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v406 : after ops V (Proc.devRef .tc main_v406) = (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) (fun j => after ops V (Proc.devRef .tc (![main_v397, main_v398, main_v399, main_v400, main_v401, main_v402, main_v403, main_v404, main_v405] j))) :=
  Writes.nary_at hW V 536 ![main_v397, main_v398, main_v399, main_v400, main_v401, main_v402, main_v403, main_v404, main_v405] main_v406 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) _ _ rfl (by decide +kernel) (by decide +kernel)
theorem rd_main_v407 : after ops V (Proc.devRef .tc main_v407) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v348)) :=
  Writes.unary_at hW V 537 main_v348 main_v407 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v408 : after ops V (Proc.devRef .tc main_v408) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v354)) :=
  Writes.unary_at hW V 538 main_v354 main_v408 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v409 : after ops V (Proc.devRef .tc main_v409) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v360)) :=
  Writes.unary_at hW V 539 main_v360 main_v409 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)

end Cert.ReferenceIdeal.Line

end
-- ==== Proof.RefRead9.lean ====
/- Window 9 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v410 : after ops V (Proc.devRef .tc main_v410) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v366)) :=
  Writes.unary_at hW V 540 main_v366 main_v410 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v411 : after ops V (Proc.devRef .tc main_v411) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v372)) :=
  Writes.unary_at hW V 541 main_v372 main_v411 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v412 : after ops V (Proc.devRef .tc main_v412) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v378)) :=
  Writes.unary_at hW V 542 main_v378 main_v412 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v413 : after ops V (Proc.devRef .tc main_v413) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v384)) :=
  Writes.unary_at hW V 543 main_v384 main_v413 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v414 : after ops V (Proc.devRef .tc main_v414) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v390)) :=
  Writes.unary_at hW V 544 main_v390 main_v414 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v415 : after ops V (Proc.devRef .tc main_v415) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v396)) :=
  Writes.unary_at hW V 545 main_v396 main_v415 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v416 : after ops V (Proc.devRef .tc main_v416) = (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) (fun j => after ops V (Proc.devRef .tc (![main_v407, main_v408, main_v409, main_v410, main_v411, main_v412, main_v413, main_v414, main_v415] j))) :=
  Writes.nary_at hW V 546 ![main_v407, main_v408, main_v409, main_v410, main_v411, main_v412, main_v413, main_v414, main_v415] main_v416 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1) _ _ rfl (by decide +kernel) (by decide +kernel)
theorem rd_main_v417 : after ops V (Proc.devRef .tc main_v417) = ((extractStridedSlice S2000000x8 ![0, 1] · slices_S2000000x9_S2000000x8_0_1) : (⟨S2000000x9, .f32⟩ : BufTy).Contents (Elt F) → (⟨S2000000x8, .f32⟩ : BufTy).Contents (Elt F)) (after ops V (Proc.devRef .tc main_v416)) :=
  Writes.unary_at hW V 547 main_v416 main_v417 ((extractStridedSlice S2000000x8 ![0, 1] · slices_S2000000x9_S2000000x8_0_1) : (⟨S2000000x9, .f32⟩ : BufTy).Contents (Elt F) → (⟨S2000000x8, .f32⟩ : BufTy).Contents (Elt F)) _ _ rfl (by decide +kernel) (by decide +kernel)
theorem rd_main_v418 : after ops V (Proc.devRef .tc main_v418) = (Host.reverse [1] : (⟨S2000000x8, .f32⟩ : BufTy).Contents (Elt F) → (⟨S2000000x8, .f32⟩ : BufTy).Contents (Elt F)) (after ops V (Proc.devRef .tc main_v417)) :=
  Writes.unary_at hW V 548 main_v417 main_v418 (Host.reverse [1] : (⟨S2000000x8, .f32⟩ : BufTy).Contents (Elt F) → (⟨S2000000x8, .f32⟩ : BufTy).Contents (Elt F)) _ _ rfl (by decide +kernel) (by decide +kernel)
theorem rd_main_cst_128 : after ops V (Proc.devRef .tc main_cst_128) = (constant S_ .f32 0x3F800000#32) :=
  nullary_at hW V 549 main_cst_128 (constant S_ .f32 0x3F800000#32) _ rfl (by decide +kernel)
theorem rd_main_v419 : after ops V (Proc.devRef .tc main_v419) = (broadcastInDim S2000000 ![] bcast_S_S2000000 : (⟨S_, .f32⟩ : BufTy).Contents (Elt F) → (⟨S2000000, .f32⟩ : BufTy).Contents (Elt F)) (after ops V (Proc.devRef .tc main_cst_128)) :=
  Writes.unary_at hW V 550 main_cst_128 main_v419 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_v420 : after ops V (Proc.devRef .tc main_v420) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v419)) :=
  Writes.unary_at hW V 551 main_v419 main_v420 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_cst_129 : after ops V (Proc.devRef .tc main_cst_129) = (constant S_ .f32 0x3F3504F3#32) :=
  nullary_at hW V 552 main_cst_129 (constant S_ .f32 0x3F3504F3#32) _ rfl (by decide +kernel)
theorem rd_main_v421 : after ops V (Proc.devRef .tc main_v421) = (broadcastInDim S2000000x1 ![] bcast_S_S2000000x1 : (⟨S_, .f32⟩ : BufTy).Contents (Elt F) → (⟨S2000000x1, .f32⟩ : BufTy).Contents (Elt F)) (after ops V (Proc.devRef .tc main_cst_129)) :=
  Writes.unary_at hW V 553 main_cst_129 main_v421 (broadcastInDim S2000000x1 ![] bcast_S_S2000000x1 : (⟨S_, .f32⟩ : BufTy).Contents (Elt F) → (⟨S2000000x1, .f32⟩ : BufTy).Contents (Elt F)) _ _ rfl (by decide +kernel) (by decide +kernel)
theorem rd_main_v422 : after ops V (Proc.devRef .tc main_v422) = (mulf : (⟨S2000000x1, .f32⟩ : BufTy).Contents (Elt F) → (⟨S2000000x1, .f32⟩ : BufTy).Contents (Elt F) → (⟨S2000000x1, .f32⟩ : BufTy).Contents (Elt F)) (after ops V (Proc.devRef .tc main_v421)) (after ops V (Proc.devRef .tc main_v420)) :=
  binary_at hW V 554 main_v421 main_v420 main_v422 (mulf : (⟨S2000000x1, .f32⟩ : BufTy).Contents (Elt F) → (⟨S2000000x1, .f32⟩ : BufTy).Contents (Elt F) → (⟨S2000000x1, .f32⟩ : BufTy).Contents (Elt F)) _ _ _ rfl (by decide +kernel) (by decide +kernel) (by decide +kernel)
theorem rd_main_v423 : after ops V (Proc.devRef .tc main_v423) = ((extractStridedSlice S2000000x8 ![0, 1] · slices_S2000000x9_S2000000x8_0_1) : (⟨S2000000x9, .f32⟩ : BufTy).Contents (Elt F) → (⟨S2000000x8, .f32⟩ : BufTy).Contents (Elt F)) (after ops V (Proc.devRef .tc main_v406)) :=
  Writes.unary_at hW V 555 main_v406 main_v423 ((extractStridedSlice S2000000x8 ![0, 1] · slices_S2000000x9_S2000000x8_0_1) : (⟨S2000000x9, .f32⟩ : BufTy).Contents (Elt F) → (⟨S2000000x8, .f32⟩ : BufTy).Contents (Elt F)) _ _ rfl (by decide +kernel) (by decide +kernel)
theorem rd_main_v424 : after ops V (Proc.devRef .tc main_v424) = (fun u => concatenate S2000000x17 1 [⟨S2000000x8, u 0⟩, ⟨S2000000x1, u 1⟩, ⟨S2000000x8, u 2⟩] concatenates_S2000000x8_S2000000x1_S2000000x8_S2000000x17_d1) (fun j => after ops V (Proc.devRef .tc (![main_v418, main_v422, main_v423] j))) :=
  Writes.nary_at hW V 556 ![main_v418, main_v422, main_v423] main_v424 (fun u => concatenate S2000000x17 1 [⟨S2000000x8, u 0⟩, ⟨S2000000x1, u 1⟩, ⟨S2000000x8, u 2⟩] concatenates_S2000000x8_S2000000x1_S2000000x8_S2000000x17_d1) _ _ rfl (by decide +kernel) (by decide +kernel)
theorem rd_main_cst_130 : after ops V (Proc.devRef .tc main_cst_130) = (constant S_ .f32 0x3F800000#32) :=
  nullary_at hW V 557 main_cst_130 (constant S_ .f32 0x3F800000#32) _ rfl (by decide +kernel)
theorem rd_main_v425 : after ops V (Proc.devRef .tc main_v425) = (broadcastInDim S2000000 ![] bcast_S_S2000000 : (⟨S_, .f32⟩ : BufTy).Contents (Elt F) → (⟨S2000000, .f32⟩ : BufTy).Contents (Elt F)) (after ops V (Proc.devRef .tc main_cst_130)) :=
  Writes.unary_at hW V 558 main_cst_130 main_v425 (broadcastInDim S2000000 ![] bcast_S_S2000000 : (⟨S_, .f32⟩ : BufTy).Contents (Elt F) → (⟨S2000000, .f32⟩ : BufTy).Contents (Elt F)) _ _ rfl (by decide +kernel) (by decide +kernel)
theorem rd_main_c_131 : after ops V (Proc.devRef .tc main_c_131) = (constantI S_ 32 1#32) :=
  nullary_at hW V 559 main_c_131 (constantI S_ 32 1#32) _ rfl (by decide +kernel)
theorem rd_main_v426 : after ops V (Proc.devRef .tc main_v426) = (broadcastInDim S1 ![] bcast_S_S1 : (⟨S_, .i32⟩ : BufTy).Contents (Elt F) → (⟨S1, .i32⟩ : BufTy).Contents (Elt F)) (after ops V (Proc.devRef .tc main_c_131)) :=
  Writes.unary_at hW V 560 main_c_131 main_v426 (broadcastInDim S1 ![] bcast_S_S1 : (⟨S_, .i32⟩ : BufTy).Contents (Elt F) → (⟨S1, .i32⟩ : BufTy).Contents (Elt F)) _ _ rfl (by decide +kernel) (by decide +kernel)
theorem rd_main_v427 : after ops V (Proc.devRef .tc main_v427) = (addi : (⟨S1, .i32⟩ : BufTy).Contents (Elt F) → (⟨S1, .i32⟩ : BufTy).Contents (Elt F) → (⟨S1, .i32⟩ : BufTy).Contents (Elt F)) (after ops V (Proc.devRef .tc main_c)) (after ops V (Proc.devRef .tc main_v426)) :=
  binary_at hW V 561 main_c main_v426 main_v427 (addi : (⟨S1, .i32⟩ : BufTy).Contents (Elt F) → (⟨S1, .i32⟩ : BufTy).Contents (Elt F) → (⟨S1, .i32⟩ : BufTy).Contents (Elt F)) _ _ _ rfl (by decide +kernel) (by decide +kernel) (by decide +kernel)
theorem rd_main_v428 : after ops V (Proc.devRef .tc main_v428) = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after ops V (Proc.devRef .tc main_c_0)) (after ops V (Proc.devRef .tc main_v427)) (after ops V (Proc.devRef .tc main_c)) :=
  ternary_at hW V 562 main_c_0 main_v427 main_c main_v428 (select : (⟨S1, .i1⟩ : BufTy).Contents (Elt F) → (⟨S1, .i32⟩ : BufTy).Contents (Elt F) → (⟨S1, .i32⟩ : BufTy).Contents (Elt F) → (⟨S1, .i32⟩ : BufTy).Contents (Elt F)) _ _ _ _ rfl (by decide +kernel) (by decide +kernel) (by decide +kernel) (by decide +kernel)
theorem rd_main_v429 : after ops V (Proc.devRef .tc main_v429) = (broadcastInDim S1x1 ![0] bcast_S1_S1x1_0 : (⟨S1, .i32⟩ : BufTy).Contents (Elt F) → (⟨S1x1, .i32⟩ : BufTy).Contents (Elt F)) (after ops V (Proc.devRef .tc main_v428)) :=
  Writes.unary_at hW V 563 main_v428 main_v429 (broadcastInDim S1x1 ![0] bcast_S1_S1x1_0 : (⟨S1, .i32⟩ : BufTy).Contents (Elt F) → (⟨S1x1, .i32⟩ : BufTy).Contents (Elt F)) _ _ rfl (by decide +kernel) (by decide +kernel)
theorem rd_main_v430 : after ops V (Proc.devRef .tc main_v430) = ((fun x i => Host.gather gather_S2000000x1_S1x1_S2000000x1_0_1_n_n_1_1_20000001 x i) : (⟨S2000000x1, .f32⟩ : BufTy).Contents (Elt F) → (⟨S1x1, .i32⟩ : BufTy).Contents (Elt F) → (⟨S2000000x1, .f32⟩ : BufTy).Contents (Elt F)) (after ops V (Proc.devRef .tc main_v294)) (after ops V (Proc.devRef .tc main_v429)) :=
  binary_at hW V 564 main_v294 main_v429 main_v430 ((fun x i => Host.gather gather_S2000000x1_S1x1_S2000000x1_0_1_n_n_1_1_20000001 x i) : (⟨S2000000x1, .f32⟩ : BufTy).Contents (Elt F) → (⟨S1x1, .i32⟩ : BufTy).Contents (Elt F) → (⟨S2000000x1, .f32⟩ : BufTy).Contents (Elt F)) _ _ _ rfl (by decide +kernel) (by decide +kernel) (by decide +kernel)
theorem rd_main_v431 : after ops V (Proc.devRef .tc main_v431) = (broadcastInDim S1x1 ![1] bcast_S1_S1x1_1 : (⟨S1, .f32⟩ : BufTy).Contents (Elt F) → (⟨S1x1, .f32⟩ : BufTy).Contents (Elt F)) (after ops V (Proc.devRef .tc main_cst)) :=
  Writes.unary_at hW V 565 main_cst main_v431 (broadcastInDim S1x1 ![1] bcast_S1_S1x1_1 : (⟨S1, .f32⟩ : BufTy).Contents (Elt F) → (⟨S1x1, .f32⟩ : BufTy).Contents (Elt F)) _ _ rfl (by decide +kernel) (by decide +kernel)
theorem rd_main_v432 : after ops V (Proc.devRef .tc main_v432) = (broadcastInDim S2000000x1 ![0, 1] bcast_S1x1_S2000000x1_0_1 : (⟨S1x1, .f32⟩ : BufTy).Contents (Elt F) → (⟨S2000000x1, .f32⟩ : BufTy).Contents (Elt F)) (after ops V (Proc.devRef .tc main_v431)) :=
  Writes.unary_at hW V 566 main_v431 main_v432 (broadcastInDim S2000000x1 ![0, 1] bcast_S1x1_S2000000x1_0_1 : (⟨S1x1, .f32⟩ : BufTy).Contents (Elt F) → (⟨S2000000x1, .f32⟩ : BufTy).Contents (Elt F)) _ _ rfl (by decide +kernel) (by decide +kernel)
theorem rd_main_v433 : after ops V (Proc.devRef .tc main_v433) = (mulf : (⟨S2000000x1, .f32⟩ : BufTy).Contents (Elt F) → (⟨S2000000x1, .f32⟩ : BufTy).Contents (Elt F) → (⟨S2000000x1, .f32⟩ : BufTy).Contents (Elt F)) (after ops V (Proc.devRef .tc main_v432)) (after ops V (Proc.devRef .tc main_v430)) :=
  binary_at hW V 567 main_v432 main_v430 main_v433 (mulf : (⟨S2000000x1, .f32⟩ : BufTy).Contents (Elt F) → (⟨S2000000x1, .f32⟩ : BufTy).Contents (Elt F) → (⟨S2000000x1, .f32⟩ : BufTy).Contents (Elt F)) _ _ _ rfl (by decide +kernel) (by decide +kernel) (by decide +kernel)
theorem rd_main_v434 : after ops V (Proc.devRef .tc main_v434) = ((extractStridedSlice S2000000x1 ![0, 8] · slices_S2000000x17_S2000000x1_0_8) : (⟨S2000000x17, .f32⟩ : BufTy).Contents (Elt F) → (⟨S2000000x1, .f32⟩ : BufTy).Contents (Elt F)) (after ops V (Proc.devRef .tc main_v424)) :=
  Writes.unary_at hW V 568 main_v424 main_v434 ((extractStridedSlice S2000000x1 ![0, 8] · slices_S2000000x17_S2000000x1_0_8) : (⟨S2000000x17, .f32⟩ : BufTy).Contents (Elt F) → (⟨S2000000x1, .f32⟩ : BufTy).Contents (Elt F)) _ _ rfl (by decide +kernel) (by decide +kernel)
theorem rd_main_v435 : after ops V (Proc.devRef .tc main_v435) = (mulf : (⟨S2000000x1, .f32⟩ : BufTy).Contents (Elt F) → (⟨S2000000x1, .f32⟩ : BufTy).Contents (Elt F) → (⟨S2000000x1, .f32⟩ : BufTy).Contents (Elt F)) (after ops V (Proc.devRef .tc main_v433)) (after ops V (Proc.devRef .tc main_v434)) :=
  binary_at hW V 569 main_v433 main_v434 main_v435 (mulf : (⟨S2000000x1, .f32⟩ : BufTy).Contents (Elt F) → (⟨S2000000x1, .f32⟩ : BufTy).Contents (Elt F) → (⟨S2000000x1, .f32⟩ : BufTy).Contents (Elt F)) _ _ _ rfl (by decide +kernel) (by decide +kernel) (by decide +kernel)
theorem rd_main_v436 : after ops V (Proc.devRef .tc main_v436) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v425)) :=
  Writes.unary_at hW V 570 main_v425 main_v436 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v437 : after ops V (Proc.devRef .tc main_v437) = (Host.divf : (⟨S2000000x1, .f32⟩ : BufTy).Contents (Elt F) → (⟨S2000000x1, .f32⟩ : BufTy).Contents (Elt F) → (⟨S2000000x1, .f32⟩ : BufTy).Contents (Elt F)) (after ops V (Proc.devRef .tc main_v435)) (after ops V (Proc.devRef .tc main_v436)) :=
  binary_at hW V 571 main_v435 main_v436 main_v437 (Host.divf : (⟨S2000000x1, .f32⟩ : BufTy).Contents (Elt F) → (⟨S2000000x1, .f32⟩ : BufTy).Contents (Elt F) → (⟨S2000000x1, .f32⟩ : BufTy).Contents (Elt F)) _ _ _ rfl (by decide +kernel) (by decide +kernel) (by decide +kernel)
theorem rd_main_v438 : after ops V (Proc.devRef .tc main_v438) = (mulf : (⟨S2000000, .f32⟩ : BufTy).Contents (Elt F) → (⟨S2000000, .f32⟩ : BufTy).Contents (Elt F) → (⟨S2000000, .f32⟩ : BufTy).Contents (Elt F)) (after ops V (Proc.devRef .tc main_v425)) (after ops V (Proc.devRef .tc main_arg3)) :=
  binary_at hW V 572 main_v425 main_arg3 main_v438 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_132 : after ops V (Proc.devRef .tc main_c_132) = (constantI S_ 32 2#32) :=
  nullary_at hW V 573 main_c_132 (constantI S_ 32 2#32) _ rfl (by decide +kernel)
theorem rd_main_v439 : after ops V (Proc.devRef .tc main_v439) = (broadcastInDim S3 ![] bcast_S_S3 : (⟨S_, .i32⟩ : BufTy).Contents (Elt F) → (⟨S3, .i32⟩ : BufTy).Contents (Elt F)) (after ops V (Proc.devRef .tc main_c_132)) :=
  Writes.unary_at hW V 574 main_c_132 main_v439 (broadcastInDim S3 ![] bcast_S_S3 : (⟨S_, .i32⟩ : BufTy).Contents (Elt F) → (⟨S3, .i32⟩ : BufTy).Contents (Elt F)) _ _ rfl (by decide +kernel) (by decide +kernel)
theorem rd_main_v440 : after ops V (Proc.devRef .tc main_v440) = (addi : (⟨S3, .i32⟩ : BufTy).Contents (Elt F) → (⟨S3, .i32⟩ : BufTy).Contents (Elt F) → (⟨S3, .i32⟩ : BufTy).Contents (Elt F)) (after ops V (Proc.devRef .tc main_c_2)) (after ops V (Proc.devRef .tc main_v439)) :=
  binary_at hW V 575 main_c_2 main_v439 main_v440 (addi : (⟨S3, .i32⟩ : BufTy).Contents (Elt F) → (⟨S3, .i32⟩ : BufTy).Contents (Elt F) → (⟨S3, .i32⟩ : BufTy).Contents (Elt F)) _ _ _ rfl (by decide +kernel) (by decide +kernel) (by decide +kernel)
theorem rd_main_v441 : after ops V (Proc.devRef .tc main_v441) = (select : (⟨S3, .i1⟩ : BufTy).Contents (Elt F) → (⟨S3, .i32⟩ : BufTy).Contents (Elt F) → (⟨S3, .i32⟩ : BufTy).Contents (Elt F) → (⟨S3, .i32⟩ : BufTy).Contents (Elt F)) (after ops V (Proc.devRef .tc main_c_3)) (after ops V (Proc.devRef .tc main_v440)) (after ops V (Proc.devRef .tc main_c_2)) :=
  ternary_at hW V 576 main_c_3 main_v440 main_c_2 main_v441 (select : (⟨S3, .i1⟩ : BufTy).Contents (Elt F) → (⟨S3, .i32⟩ : BufTy).Contents (Elt F) → (⟨S3, .i32⟩ : BufTy).Contents (Elt F) → (⟨S3, .i32⟩ : BufTy).Contents (Elt F)) _ _ _ _ rfl (by decide +kernel) (by decide +kernel) (by decide +kernel) (by decide +kernel)
theorem rd_main_v442 : after ops V (Proc.devRef .tc main_v442) = (broadcastInDim S3x1 ![0] bcast_S3_S3x1_0 : (⟨S3, .i32⟩ : BufTy).Contents (Elt F) → (⟨S3x1, .i32⟩ : BufTy).Contents (Elt F)) (after ops V (Proc.devRef .tc main_v441)) :=
  Writes.unary_at hW V 577 main_v441 main_v442 (broadcastInDim S3x1 ![0] bcast_S3_S3x1_0 : (⟨S3, .i32⟩ : BufTy).Contents (Elt F) → (⟨S3x1, .i32⟩ : BufTy).Contents (Elt F)) _ _ rfl (by decide +kernel) (by decide +kernel)
theorem rd_main_v443 : after ops V (Proc.devRef .tc main_v443) = ((fun x i => Host.gather gather_S2000000x2_S3x1_S2000000x3_0_1_n_n_1_1_20000001 x i) : (⟨S2000000x2, .f32⟩ : BufTy).Contents (Elt F) → (⟨S3x1, .i32⟩ : BufTy).Contents (Elt F) → (⟨S2000000x3, .f32⟩ : BufTy).Contents (Elt F)) (after ops V (Proc.devRef .tc main_v297)) (after ops V (Proc.devRef .tc main_v442)) :=
  binary_at hW V 578 main_v297 main_v442 main_v443 ((fun x i => Host.gather gather_S2000000x2_S3x1_S2000000x3_0_1_n_n_1_1_20000001 x i) : (⟨S2000000x2, .f32⟩ : BufTy).Contents (Elt F) → (⟨S3x1, .i32⟩ : BufTy).Contents (Elt F) → (⟨S2000000x3, .f32⟩ : BufTy).Contents (Elt F)) _ _ _ rfl (by decide +kernel) (by decide +kernel) (by decide +kernel)
theorem rd_main_v444 : after ops V (Proc.devRef .tc main_v444) = (broadcastInDim S1x3 ![1] bcast_S3_S1x3_1 : (⟨S3, .f32⟩ : BufTy).Contents (Elt F) → (⟨S1x3, .f32⟩ : BufTy).Contents (Elt F)) (after ops V (Proc.devRef .tc main_cst_1)) :=
  Writes.unary_at hW V 579 main_cst_1 main_v444 (broadcastInDim S1x3 ![1] bcast_S3_S1x3_1 : (⟨S3, .f32⟩ : BufTy).Contents (Elt F) → (⟨S1x3, .f32⟩ : BufTy).Contents (Elt F)) _ _ rfl (by decide +kernel) (by decide +kernel)
theorem rd_main_v445 : after ops V (Proc.devRef .tc main_v445) = (broadcastInDim S2000000x3 ![0, 1] bcast_S1x3_S2000000x3_0_1 : (⟨S1x3, .f32⟩ : BufTy).Contents (Elt F) → (⟨S2000000x3, .f32⟩ : BufTy).Contents (Elt F)) (after ops V (Proc.devRef .tc main_v444)) :=
  Writes.unary_at hW V 580 main_v444 main_v445 (broadcastInDim S2000000x3 ![0, 1] bcast_S1x3_S2000000x3_0_1 : (⟨S1x3, .f32⟩ : BufTy).Contents (Elt F) → (⟨S2000000x3, .f32⟩ : BufTy).Contents (Elt F)) _ _ rfl (by decide +kernel) (by decide +kernel)
theorem rd_main_v446 : after ops V (Proc.devRef .tc main_v446) = (mulf : (⟨S2000000x3, .f32⟩ : BufTy).Contents (Elt F) → (⟨S2000000x3, .f32⟩ : BufTy).Contents (Elt F) → (⟨S2000000x3, .f32⟩ : BufTy).Contents (Elt F)) (after ops V (Proc.devRef .tc main_v445)) (after ops V (Proc.devRef .tc main_v443)) :=
  binary_at hW V 581 main_v445 main_v443 main_v446 (mulf : (⟨S2000000x3, .f32⟩ : BufTy).Contents (Elt F) → (⟨S2000000x3, .f32⟩ : BufTy).Contents (Elt F) → (⟨S2000000x3, .f32⟩ : BufTy).Contents (Elt F)) _ _ _ rfl (by decide +kernel) (by decide +kernel) (by decide +kernel)
theorem rd_main_v447 : after ops V (Proc.devRef .tc main_v447) = ((extractStridedSlice S2000000x3 ![0, 7] · slices_S2000000x17_S2000000x3_0_7) : (⟨S2000000x17, .f32⟩ : BufTy).Contents (Elt F) → (⟨S2000000x3, .f32⟩ : BufTy).Contents (Elt F)) (after ops V (Proc.devRef .tc main_v424)) :=
  Writes.unary_at hW V 582 main_v424 main_v447 ((extractStridedSlice S2000000x3 ![0, 7] · slices_S2000000x17_S2000000x3_0_7) : (⟨S2000000x17, .f32⟩ : BufTy).Contents (Elt F) → (⟨S2000000x3, .f32⟩ : BufTy).Contents (Elt F)) _ _ rfl (by decide +kernel) (by decide +kernel)
theorem rd_main_v448 : after ops V (Proc.devRef .tc main_v448) = (mulf : (⟨S2000000x3, .f32⟩ : BufTy).Contents (Elt F) → (⟨S2000000x3, .f32⟩ : BufTy).Contents (Elt F) → (⟨S2000000x3, .f32⟩ : BufTy).Contents (Elt F)) (after ops V (Proc.devRef .tc main_v446)) (after ops V (Proc.devRef .tc main_v447)) :=
  binary_at hW V 583 main_v446 main_v447 main_v448 (mulf : (⟨S2000000x3, .f32⟩ : BufTy).Contents (Elt F) → (⟨S2000000x3, .f32⟩ : BufTy).Contents (Elt F) → (⟨S2000000x3, .f32⟩ : BufTy).Contents (Elt F)) _ _ _ rfl (by decide +kernel) (by decide +kernel) (by decide +kernel)
theorem rd_main_v449 : after ops V (Proc.devRef .tc main_v449) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v438)) :=
  Writes.unary_at hW V 584 main_v438 main_v449 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v450 : after ops V (Proc.devRef .tc main_v450) = (broadcastInDim S2000000x3 ![0, 1] bcast_S2000000x1_S2000000x3_0_1 : (⟨S2000000x1, .f32⟩ : BufTy).Contents (Elt F) → (⟨S2000000x3, .f32⟩ : BufTy).Contents (Elt F)) (after ops V (Proc.devRef .tc main_v449)) :=
  Writes.unary_at hW V 585 main_v449 main_v450 (broadcastInDim S2000000x3 ![0, 1] bcast_S2000000x1_S2000000x3_0_1 : (⟨S2000000x1, .f32⟩ : BufTy).Contents (Elt F) → (⟨S2000000x3, .f32⟩ : BufTy).Contents (Elt F)) _ _ rfl (by decide +kernel) (by decide +kernel)
theorem rd_main_v451 : after ops V (Proc.devRef .tc main_v451) = (Host.divf : (⟨S2000000x3, .f32⟩ : BufTy).Contents (Elt F) → (⟨S2000000x3, .f32⟩ : BufTy).Contents (Elt F) → (⟨S2000000x3, .f32⟩ : BufTy).Contents (Elt F)) (after ops V (Proc.devRef .tc main_v448)) (after ops V (Proc.devRef .tc main_v450)) :=
  binary_at hW V 586 main_v448 main_v450 main_v451 (Host.divf : (⟨S2000000x3, .f32⟩ : BufTy).Contents (Elt F) → (⟨S2000000x3, .f32⟩ : BufTy).Contents (Elt F) → (⟨S2000000x3, .f32⟩ : BufTy).Contents (Elt F)) _ _ _ rfl (by decide +kernel) (by decide +kernel) (by decide +kernel)
theorem rd_main_v452 : after ops V (Proc.devRef .tc main_v452) = (mulf : (⟨S2000000, .f32⟩ : BufTy).Contents (Elt F) → (⟨S2000000, .f32⟩ : BufTy).Contents (Elt F) → (⟨S2000000, .f32⟩ : BufTy).Contents (Elt F)) (after ops V (Proc.devRef .tc main_v438)) (after ops V (Proc.devRef .tc main_arg3)) :=
  binary_at hW V 587 main_v438 main_arg3 main_v452 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_133 : after ops V (Proc.devRef .tc main_c_133) = (constantI S_ 32 3#32) :=
  nullary_at hW V 588 main_c_133 (constantI S_ 32 3#32) _ rfl (by decide +kernel)
theorem rd_main_v453 : after ops V (Proc.devRef .tc main_v453) = (broadcastInDim S5 ![] bcast_S_S5 : (⟨S_, .i32⟩ : BufTy).Contents (Elt F) → (⟨S5, .i32⟩ : BufTy).Contents (Elt F)) (after ops V (Proc.devRef .tc main_c_133)) :=
  Writes.unary_at hW V 589 main_c_133 main_v453 (broadcastInDim S5 ![] bcast_S_S5 : (⟨S_, .i32⟩ : BufTy).Contents (Elt F) → (⟨S5, .i32⟩ : BufTy).Contents (Elt F)) _ _ rfl (by decide +kernel) (by decide +kernel)
theorem rd_main_v454 : after ops V (Proc.devRef .tc main_v454) = (addi : (⟨S5, .i32⟩ : BufTy).Contents (Elt F) → (⟨S5, .i32⟩ : BufTy).Contents (Elt F) → (⟨S5, .i32⟩ : BufTy).Contents (Elt F)) (after ops V (Proc.devRef .tc main_c_5)) (after ops V (Proc.devRef .tc main_v453)) :=
  binary_at hW V 590 main_c_5 main_v453 main_v454 (addi : (⟨S5, .i32⟩ : BufTy).Contents (Elt F) → (⟨S5, .i32⟩ : BufTy).Contents (Elt F) → (⟨S5, .i32⟩ : BufTy).Contents (Elt F)) _ _ _ rfl (by decide +kernel) (by decide +kernel) (by decide +kernel)
theorem rd_main_v455 : after ops V (Proc.devRef .tc main_v455) = (select : (⟨S5, .i1⟩ : BufTy).Contents (Elt F) → (⟨S5, .i32⟩ : BufTy).Contents (Elt F) → (⟨S5, .i32⟩ : BufTy).Contents (Elt F) → (⟨S5, .i32⟩ : BufTy).Contents (Elt F)) (after ops V (Proc.devRef .tc main_c_6)) (after ops V (Proc.devRef .tc main_v454)) (after ops V (Proc.devRef .tc main_c_5)) :=
  ternary_at hW V 591 main_c_6 main_v454 main_c_5 main_v455 (select : (⟨S5, .i1⟩ : BufTy).Contents (Elt F) → (⟨S5, .i32⟩ : BufTy).Contents (Elt F) → (⟨S5, .i32⟩ : BufTy).Contents (Elt F) → (⟨S5, .i32⟩ : BufTy).Contents (Elt F)) _ _ _ _ rfl (by decide +kernel) (by decide +kernel) (by decide +kernel) (by decide +kernel)
theorem rd_main_v456 : after ops V (Proc.devRef .tc main_v456) = (broadcastInDim S5x1 ![0] bcast_S5_S5x1_0 : (⟨S5, .i32⟩ : BufTy).Contents (Elt F) → (⟨S5x1, .i32⟩ : BufTy).Contents (Elt F)) (after ops V (Proc.devRef .tc main_v455)) :=
  Writes.unary_at hW V 592 main_v455 main_v456 (broadcastInDim S5x1 ![0] bcast_S5_S5x1_0 : (⟨S5, .i32⟩ : BufTy).Contents (Elt F) → (⟨S5x1, .i32⟩ : BufTy).Contents (Elt F)) _ _ rfl (by decide +kernel) (by decide +kernel)
theorem rd_main_v457 : after ops V (Proc.devRef .tc main_v457) = ((fun x i => Host.gather gather_S2000000x3_S5x1_S2000000x5_0_1_n_n_1_1_20000001 x i) : (⟨S2000000x3, .f32⟩ : BufTy).Contents (Elt F) → (⟨S5x1, .i32⟩ : BufTy).Contents (Elt F) → (⟨S2000000x5, .f32⟩ : BufTy).Contents (Elt F)) (after ops V (Proc.devRef .tc main_v301)) (after ops V (Proc.devRef .tc main_v456)) :=
  binary_at hW V 593 main_v301 main_v456 main_v457 ((fun x i => Host.gather gather_S2000000x3_S5x1_S2000000x5_0_1_n_n_1_1_20000001 x i) : (⟨S2000000x3, .f32⟩ : BufTy).Contents (Elt F) → (⟨S5x1, .i32⟩ : BufTy).Contents (Elt F) → (⟨S2000000x5, .f32⟩ : BufTy).Contents (Elt F)) _ _ _ rfl (by decide +kernel) (by decide +kernel) (by decide +kernel)
theorem rd_main_v458 : after ops V (Proc.devRef .tc main_v458) = (broadcastInDim S1x5 ![1] bcast_S5_S1x5_1 : (⟨S5, .f32⟩ : BufTy).Contents (Elt F) → (⟨S1x5, .f32⟩ : BufTy).Contents (Elt F)) (after ops V (Proc.devRef .tc main_cst_4)) :=
  Writes.unary_at hW V 594 main_cst_4 main_v458 (broadcastInDim S1x5 ![1] bcast_S5_S1x5_1 : (⟨S5, .f32⟩ : BufTy).Contents (Elt F) → (⟨S1x5, .f32⟩ : BufTy).Contents (Elt F)) _ _ rfl (by decide +kernel) (by decide +kernel)
theorem rd_main_v459 : after ops V (Proc.devRef .tc main_v459) = (broadcastInDim S2000000x5 ![0, 1] bcast_S1x5_S2000000x5_0_1 : (⟨S1x5, .f32⟩ : BufTy).Contents (Elt F) → (⟨S2000000x5, .f32⟩ : BufTy).Contents (Elt F)) (after ops V (Proc.devRef .tc main_v458)) :=
  Writes.unary_at hW V 595 main_v458 main_v459 (broadcastInDim S2000000x5 ![0, 1] bcast_S1x5_S2000000x5_0_1 : (⟨S1x5, .f32⟩ : BufTy).Contents (Elt F) → (⟨S2000000x5, .f32⟩ : BufTy).Contents (Elt F)) _ _ rfl (by decide +kernel) (by decide +kernel)
theorem rd_main_v460 : after ops V (Proc.devRef .tc main_v460) = (mulf : (⟨S2000000x5, .f32⟩ : BufTy).Contents (Elt F) → (⟨S2000000x5, .f32⟩ : BufTy).Contents (Elt F) → (⟨S2000000x5, .f32⟩ : BufTy).Contents (Elt F)) (after ops V (Proc.devRef .tc main_v459)) (after ops V (Proc.devRef .tc main_v457)) :=
  binary_at hW V 596 main_v459 main_v457 main_v460 (mulf : (⟨S2000000x5, .f32⟩ : BufTy).Contents (Elt F) → (⟨S2000000x5, .f32⟩ : BufTy).Contents (Elt F) → (⟨S2000000x5, .f32⟩ : BufTy).Contents (Elt F)) _ _ _ rfl (by decide +kernel) (by decide +kernel) (by decide +kernel)
theorem rd_main_v461 : after ops V (Proc.devRef .tc main_v461) = ((extractStridedSlice S2000000x5 ![0, 6] · slices_S2000000x17_S2000000x5_0_6) : (⟨S2000000x17, .f32⟩ : BufTy).Contents (Elt F) → (⟨S2000000x5, .f32⟩ : BufTy).Contents (Elt F)) (after ops V (Proc.devRef .tc main_v424)) :=
  Writes.unary_at hW V 597 main_v424 main_v461 ((extractStridedSlice S2000000x5 ![0, 6] · slices_S2000000x17_S2000000x5_0_6) : (⟨S2000000x17, .f32⟩ : BufTy).Contents (Elt F) → (⟨S2000000x5, .f32⟩ : BufTy).Contents (Elt F)) _ _ rfl (by decide +kernel) (by decide +kernel)
theorem rd_main_v462 : after ops V (Proc.devRef .tc main_v462) = (mulf : (⟨S2000000x5, .f32⟩ : BufTy).Contents (Elt F) → (⟨S2000000x5, .f32⟩ : BufTy).Contents (Elt F) → (⟨S2000000x5, .f32⟩ : BufTy).Contents (Elt F)) (after ops V (Proc.devRef .tc main_v460)) (after ops V (Proc.devRef .tc main_v461)) :=
  binary_at hW V 598 main_v460 main_v461 main_v462 (mulf : (⟨S2000000x5, .f32⟩ : BufTy).Contents (Elt F) → (⟨S2000000x5, .f32⟩ : BufTy).Contents (Elt F) → (⟨S2000000x5, .f32⟩ : BufTy).Contents (Elt F)) _ _ _ rfl (by decide +kernel) (by decide +kernel) (by decide +kernel)
theorem rd_main_v463 : after ops V (Proc.devRef .tc main_v463) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v452)) :=
  Writes.unary_at hW V 599 main_v452 main_v463 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)

end Cert.ReferenceIdeal.Line

end
-- ==== Proof.RefRead10.lean ====
/- Window 10 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v464 : after ops V (Proc.devRef .tc main_v464) = (broadcastInDim S2000000x5 ![0, 1] bcast_S2000000x1_S2000000x5_0_1 : (⟨S2000000x1, .f32⟩ : BufTy).Contents (Elt F) → (⟨S2000000x5, .f32⟩ : BufTy).Contents (Elt F)) (after ops V (Proc.devRef .tc main_v463)) :=
  Writes.unary_at hW V 600 main_v463 main_v464 (broadcastInDim S2000000x5 ![0, 1] bcast_S2000000x1_S2000000x5_0_1 : (⟨S2000000x1, .f32⟩ : BufTy).Contents (Elt F) → (⟨S2000000x5, .f32⟩ : BufTy).Contents (Elt F)) _ _ rfl (by decide +kernel) (by decide +kernel)
theorem rd_main_v465 : after ops V (Proc.devRef .tc main_v465) = (Host.divf : (⟨S2000000x5, .f32⟩ : BufTy).Contents (Elt F) → (⟨S2000000x5, .f32⟩ : BufTy).Contents (Elt F) → (⟨S2000000x5, .f32⟩ : BufTy).Contents (Elt F)) (after ops V (Proc.devRef .tc main_v462)) (after ops V (Proc.devRef .tc main_v464)) :=
  binary_at hW V 601 main_v462 main_v464 main_v465 (Host.divf : (⟨S2000000x5, .f32⟩ : BufTy).Contents (Elt F) → (⟨S2000000x5, .f32⟩ : BufTy).Contents (Elt F) → (⟨S2000000x5, .f32⟩ : BufTy).Contents (Elt F)) _ _ _ rfl (by decide +kernel) (by decide +kernel) (by decide +kernel)
theorem rd_main_v466 : after ops V (Proc.devRef .tc main_v466) = (mulf : (⟨S2000000, .f32⟩ : BufTy).Contents (Elt F) → (⟨S2000000, .f32⟩ : BufTy).Contents (Elt F) → (⟨S2000000, .f32⟩ : BufTy).Contents (Elt F)) (after ops V (Proc.devRef .tc main_v452)) (after ops V (Proc.devRef .tc main_arg3)) :=
  binary_at hW V 602 main_v452 main_arg3 main_v466 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_134 : after ops V (Proc.devRef .tc main_c_134) = (constantI S_ 32 4#32) :=
  nullary_at hW V 603 main_c_134 (constantI S_ 32 4#32) _ rfl (by decide +kernel)
theorem rd_main_v467 : after ops V (Proc.devRef .tc main_v467) = (broadcastInDim S7 ![] bcast_S_S7 : (⟨S_, .i32⟩ : BufTy).Contents (Elt F) → (⟨S7, .i32⟩ : BufTy).Contents (Elt F)) (after ops V (Proc.devRef .tc main_c_134)) :=
  Writes.unary_at hW V 604 main_c_134 main_v467 (broadcastInDim S7 ![] bcast_S_S7 : (⟨S_, .i32⟩ : BufTy).Contents (Elt F) → (⟨S7, .i32⟩ : BufTy).Contents (Elt F)) _ _ rfl (by decide +kernel) (by decide +kernel)
theorem rd_main_v468 : after ops V (Proc.devRef .tc main_v468) = (addi : (⟨S7, .i32⟩ : BufTy).Contents (Elt F) → (⟨S7, .i32⟩ : BufTy).Contents (Elt F) → (⟨S7, .i32⟩ : BufTy).Contents (Elt F)) (after ops V (Proc.devRef .tc main_c_8)) (after ops V (Proc.devRef .tc main_v467)) :=
  binary_at hW V 605 main_c_8 main_v467 main_v468 (addi : (⟨S7, .i32⟩ : BufTy).Contents (Elt F) → (⟨S7, .i32⟩ : BufTy).Contents (Elt F) → (⟨S7, .i32⟩ : BufTy).Contents (Elt F)) _ _ _ rfl (by decide +kernel) (by decide +kernel) (by decide +kernel)
theorem rd_main_v469 : after ops V (Proc.devRef .tc main_v469) = (select : (⟨S7, .i1⟩ : BufTy).Contents (Elt F) → (⟨S7, .i32⟩ : BufTy).Contents (Elt F) → (⟨S7, .i32⟩ : BufTy).Contents (Elt F) → (⟨S7, .i32⟩ : BufTy).Contents (Elt F)) (after ops V (Proc.devRef .tc main_c_9)) (after ops V (Proc.devRef .tc main_v468)) (after ops V (Proc.devRef .tc main_c_8)) :=
  ternary_at hW V 606 main_c_9 main_v468 main_c_8 main_v469 (select : (⟨S7, .i1⟩ : BufTy).Contents (Elt F) → (⟨S7, .i32⟩ : BufTy).Contents (Elt F) → (⟨S7, .i32⟩ : BufTy).Contents (Elt F) → (⟨S7, .i32⟩ : BufTy).Contents (Elt F)) _ _ _ _ rfl (by decide +kernel) (by decide +kernel) (by decide +kernel) (by decide +kernel)
theorem rd_main_v470 : after ops V (Proc.devRef .tc main_v470) = (broadcastInDim S7x1 ![0] bcast_S7_S7x1_0 : (⟨S7, .i32⟩ : BufTy).Contents (Elt F) → (⟨S7x1, .i32⟩ : BufTy).Contents (Elt F)) (after ops V (Proc.devRef .tc main_v469)) :=
  Writes.unary_at hW V 607 main_v469 main_v470 (broadcastInDim S7x1 ![0] bcast_S7_S7x1_0 : (⟨S7, .i32⟩ : BufTy).Contents (Elt F) → (⟨S7x1, .i32⟩ : BufTy).Contents (Elt F)) _ _ rfl (by decide +kernel) (by decide +kernel)
theorem rd_main_v471 : after ops V (Proc.devRef .tc main_v471) = ((fun x i => Host.gather gather_S2000000x4_S7x1_S2000000x7_0_1_n_n_1_1_20000001 x i) : (⟨S2000000x4, .f32⟩ : BufTy).Contents (Elt F) → (⟨S7x1, .i32⟩ : BufTy).Contents (Elt F) → (⟨S2000000x7, .f32⟩ : BufTy).Contents (Elt F)) (after ops V (Proc.devRef .tc main_v306)) (after ops V (Proc.devRef .tc main_v470)) :=
  binary_at hW V 608 main_v306 main_v470 main_v471 ((fun x i => Host.gather gather_S2000000x4_S7x1_S2000000x7_0_1_n_n_1_1_20000001 x i) : (⟨S2000000x4, .f32⟩ : BufTy).Contents (Elt F) → (⟨S7x1, .i32⟩ : BufTy).Contents (Elt F) → (⟨S2000000x7, .f32⟩ : BufTy).Contents (Elt F)) _ _ _ rfl (by decide +kernel) (by decide +kernel) (by decide +kernel)
theorem rd_main_v472 : after ops V (Proc.devRef .tc main_v472) = (broadcastInDim S1x7 ![1] bcast_S7_S1x7_1 : (⟨S7, .f32⟩ : BufTy).Contents (Elt F) → (⟨S1x7, .f32⟩ : BufTy).Contents (Elt F)) (after ops V (Proc.devRef .tc main_cst_7)) :=
  Writes.unary_at hW V 609 main_cst_7 main_v472 (broadcastInDim S1x7 ![1] bcast_S7_S1x7_1 : (⟨S7, .f32⟩ : BufTy).Contents (Elt F) → (⟨S1x7, .f32⟩ : BufTy).Contents (Elt F)) _ _ rfl (by decide +kernel) (by decide +kernel)
theorem rd_main_v473 : after ops V (Proc.devRef .tc main_v473) = (broadcastInDim S2000000x7 ![0, 1] bcast_S1x7_S2000000x7_0_1 : (⟨S1x7, .f32⟩ : BufTy).Contents (Elt F) → (⟨S2000000x7, .f32⟩ : BufTy).Contents (Elt F)) (after ops V (Proc.devRef .tc main_v472)) :=
  Writes.unary_at hW V 610 main_v472 main_v473 (broadcastInDim S2000000x7 ![0, 1] bcast_S1x7_S2000000x7_0_1 : (⟨S1x7, .f32⟩ : BufTy).Contents (Elt F) → (⟨S2000000x7, .f32⟩ : BufTy).Contents (Elt F)) _ _ rfl (by decide +kernel) (by decide +kernel)
theorem rd_main_v474 : after ops V (Proc.devRef .tc main_v474) = (mulf : (⟨S2000000x7, .f32⟩ : BufTy).Contents (Elt F) → (⟨S2000000x7, .f32⟩ : BufTy).Contents (Elt F) → (⟨S2000000x7, .f32⟩ : BufTy).Contents (Elt F)) (after ops V (Proc.devRef .tc main_v473)) (after ops V (Proc.devRef .tc main_v471)) :=
  binary_at hW V 611 main_v473 main_v471 main_v474 (mulf : (⟨S2000000x7, .f32⟩ : BufTy).Contents (Elt F) → (⟨S2000000x7, .f32⟩ : BufTy).Contents (Elt F) → (⟨S2000000x7, .f32⟩ : BufTy).Contents (Elt F)) _ _ _ rfl (by decide +kernel) (by decide +kernel) (by decide +kernel)
theorem rd_main_v475 : after ops V (Proc.devRef .tc main_v475) = ((extractStridedSlice S2000000x7 ![0, 5] · slices_S2000000x17_S2000000x7_0_5) : (⟨S2000000x17, .f32⟩ : BufTy).Contents (Elt F) → (⟨S2000000x7, .f32⟩ : BufTy).Contents (Elt F)) (after ops V (Proc.devRef .tc main_v424)) :=
  Writes.unary_at hW V 612 main_v424 main_v475 ((extractStridedSlice S2000000x7 ![0, 5] · slices_S2000000x17_S2000000x7_0_5) : (⟨S2000000x17, .f32⟩ : BufTy).Contents (Elt F) → (⟨S2000000x7, .f32⟩ : BufTy).Contents (Elt F)) _ _ rfl (by decide +kernel) (by decide +kernel)
theorem rd_main_v476 : after ops V (Proc.devRef .tc main_v476) = (mulf : (⟨S2000000x7, .f32⟩ : BufTy).Contents (Elt F) → (⟨S2000000x7, .f32⟩ : BufTy).Contents (Elt F) → (⟨S2000000x7, .f32⟩ : BufTy).Contents (Elt F)) (after ops V (Proc.devRef .tc main_v474)) (after ops V (Proc.devRef .tc main_v475)) :=
  binary_at hW V 613 main_v474 main_v475 main_v476 (mulf : (⟨S2000000x7, .f32⟩ : BufTy).Contents (Elt F) → (⟨S2000000x7, .f32⟩ : BufTy).Contents (Elt F) → (⟨S2000000x7, .f32⟩ : BufTy).Contents (Elt F)) _ _ _ rfl (by decide +kernel) (by decide +kernel) (by decide +kernel)
theorem rd_main_v477 : after ops V (Proc.devRef .tc main_v477) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v466)) :=
  Writes.unary_at hW V 614 main_v466 main_v477 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v478 : after ops V (Proc.devRef .tc main_v478) = (broadcastInDim S2000000x7 ![0, 1] bcast_S2000000x1_S2000000x7_0_1 : (⟨S2000000x1, .f32⟩ : BufTy).Contents (Elt F) → (⟨S2000000x7, .f32⟩ : BufTy).Contents (Elt F)) (after ops V (Proc.devRef .tc main_v477)) :=
  Writes.unary_at hW V 615 main_v477 main_v478 (broadcastInDim S2000000x7 ![0, 1] bcast_S2000000x1_S2000000x7_0_1 : (⟨S2000000x1, .f32⟩ : BufTy).Contents (Elt F) → (⟨S2000000x7, .f32⟩ : BufTy).Contents (Elt F)) _ _ rfl (by decide +kernel) (by decide +kernel)
theorem rd_main_v479 : after ops V (Proc.devRef .tc main_v479) = (Host.divf : (⟨S2000000x7, .f32⟩ : BufTy).Contents (Elt F) → (⟨S2000000x7, .f32⟩ : BufTy).Contents (Elt F) → (⟨S2000000x7, .f32⟩ : BufTy).Contents (Elt F)) (after ops V (Proc.devRef .tc main_v476)) (after ops V (Proc.devRef .tc main_v478)) :=
  binary_at hW V 616 main_v476 main_v478 main_v479 (Host.divf : (⟨S2000000x7, .f32⟩ : BufTy).Contents (Elt F) → (⟨S2000000x7, .f32⟩ : BufTy).Contents (Elt F) → (⟨S2000000x7, .f32⟩ : BufTy).Contents (Elt F)) _ _ _ rfl (by decide +kernel) (by decide +kernel) (by decide +kernel)
theorem rd_main_v480 : after ops V (Proc.devRef .tc main_v480) = (mulf : (⟨S2000000, .f32⟩ : BufTy).Contents (Elt F) → (⟨S2000000, .f32⟩ : BufTy).Contents (Elt F) → (⟨S2000000, .f32⟩ : BufTy).Contents (Elt F)) (after ops V (Proc.devRef .tc main_v466)) (after ops V (Proc.devRef .tc main_arg3)) :=
  binary_at hW V 617 main_v466 main_arg3 main_v480 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_135 : after ops V (Proc.devRef .tc main_c_135) = (constantI S_ 32 5#32) :=
  nullary_at hW V 618 main_c_135 (constantI S_ 32 5#32) _ rfl (by decide +kernel)
theorem rd_main_v481 : after ops V (Proc.devRef .tc main_v481) = (broadcastInDim S9 ![] bcast_S_S9 : (⟨S_, .i32⟩ : BufTy).Contents (Elt F) → (⟨S9, .i32⟩ : BufTy).Contents (Elt F)) (after ops V (Proc.devRef .tc main_c_135)) :=
  Writes.unary_at hW V 619 main_c_135 main_v481 (broadcastInDim S9 ![] bcast_S_S9 : (⟨S_, .i32⟩ : BufTy).Contents (Elt F) → (⟨S9, .i32⟩ : BufTy).Contents (Elt F)) _ _ rfl (by decide +kernel) (by decide +kernel)
theorem rd_main_v482 : after ops V (Proc.devRef .tc main_v482) = (addi : (⟨S9, .i32⟩ : BufTy).Contents (Elt F) → (⟨S9, .i32⟩ : BufTy).Contents (Elt F) → (⟨S9, .i32⟩ : BufTy).Contents (Elt F)) (after ops V (Proc.devRef .tc main_c_11)) (after ops V (Proc.devRef .tc main_v481)) :=
  binary_at hW V 620 main_c_11 main_v481 main_v482 (addi : (⟨S9, .i32⟩ : BufTy).Contents (Elt F) → (⟨S9, .i32⟩ : BufTy).Contents (Elt F) → (⟨S9, .i32⟩ : BufTy).Contents (Elt F)) _ _ _ rfl (by decide +kernel) (by decide +kernel) (by decide +kernel)
theorem rd_main_v483 : after ops V (Proc.devRef .tc main_v483) = (select : (⟨S9, .i1⟩ : BufTy).Contents (Elt F) → (⟨S9, .i32⟩ : BufTy).Contents (Elt F) → (⟨S9, .i32⟩ : BufTy).Contents (Elt F) → (⟨S9, .i32⟩ : BufTy).Contents (Elt F)) (after ops V (Proc.devRef .tc main_c_12)) (after ops V (Proc.devRef .tc main_v482)) (after ops V (Proc.devRef .tc main_c_11)) :=
  ternary_at hW V 621 main_c_12 main_v482 main_c_11 main_v483 (select : (⟨S9, .i1⟩ : BufTy).Contents (Elt F) → (⟨S9, .i32⟩ : BufTy).Contents (Elt F) → (⟨S9, .i32⟩ : BufTy).Contents (Elt F) → (⟨S9, .i32⟩ : BufTy).Contents (Elt F)) _ _ _ _ rfl (by decide +kernel) (by decide +kernel) (by decide +kernel) (by decide +kernel)
theorem rd_main_v484 : after ops V (Proc.devRef .tc main_v484) = (broadcastInDim S9x1 ![0] bcast_S9_S9x1_0 : (⟨S9, .i32⟩ : BufTy).Contents (Elt F) → (⟨S9x1, .i32⟩ : BufTy).Contents (Elt F)) (after ops V (Proc.devRef .tc main_v483)) :=
  Writes.unary_at hW V 622 main_v483 main_v484 (broadcastInDim S9x1 ![0] bcast_S9_S9x1_0 : (⟨S9, .i32⟩ : BufTy).Contents (Elt F) → (⟨S9x1, .i32⟩ : BufTy).Contents (Elt F)) _ _ rfl (by decide +kernel) (by decide +kernel)
theorem rd_main_v485 : after ops V (Proc.devRef .tc main_v485) = ((fun x i => Host.gather gather_S2000000x5_S9x1_S2000000x9_0_1_n_n_1_1_20000001 x i) : (⟨S2000000x5, .f32⟩ : BufTy).Contents (Elt F) → (⟨S9x1, .i32⟩ : BufTy).Contents (Elt F) → (⟨S2000000x9, .f32⟩ : BufTy).Contents (Elt F)) (after ops V (Proc.devRef .tc main_v312)) (after ops V (Proc.devRef .tc main_v484)) :=
  binary_at hW V 623 main_v312 main_v484 main_v485 ((fun x i => Host.gather gather_S2000000x5_S9x1_S2000000x9_0_1_n_n_1_1_20000001 x i) : (⟨S2000000x5, .f32⟩ : BufTy).Contents (Elt F) → (⟨S9x1, .i32⟩ : BufTy).Contents (Elt F) → (⟨S2000000x9, .f32⟩ : BufTy).Contents (Elt F)) _ _ _ rfl (by decide +kernel) (by decide +kernel) (by decide +kernel)
theorem rd_main_v486 : after ops V (Proc.devRef .tc main_v486) = (broadcastInDim S1x9 ![1] bcast_S9_S1x9_1 : (⟨S9, .f32⟩ : BufTy).Contents (Elt F) → (⟨S1x9, .f32⟩ : BufTy).Contents (Elt F)) (after ops V (Proc.devRef .tc main_cst_10)) :=
  Writes.unary_at hW V 624 main_cst_10 main_v486 (broadcastInDim S1x9 ![1] bcast_S9_S1x9_1 : (⟨S9, .f32⟩ : BufTy).Contents (Elt F) → (⟨S1x9, .f32⟩ : BufTy).Contents (Elt F)) _ _ rfl (by decide +kernel) (by decide +kernel)
theorem rd_main_v487 : after ops V (Proc.devRef .tc main_v487) = (broadcastInDim S2000000x9 ![0, 1] bcast_S1x9_S2000000x9_0_1 : (⟨S1x9, .f32⟩ : BufTy).Contents (Elt F) → (⟨S2000000x9, .f32⟩ : BufTy).Contents (Elt F)) (after ops V (Proc.devRef .tc main_v486)) :=
  Writes.unary_at hW V 625 main_v486 main_v487 (broadcastInDim S2000000x9 ![0, 1] bcast_S1x9_S2000000x9_0_1 : (⟨S1x9, .f32⟩ : BufTy).Contents (Elt F) → (⟨S2000000x9, .f32⟩ : BufTy).Contents (Elt F)) _ _ rfl (by decide +kernel) (by decide +kernel)
theorem rd_main_v488 : after ops V (Proc.devRef .tc main_v488) = (mulf : (⟨S2000000x9, .f32⟩ : BufTy).Contents (Elt F) → (⟨S2000000x9, .f32⟩ : BufTy).Contents (Elt F) → (⟨S2000000x9, .f32⟩ : BufTy).Contents (Elt F)) (after ops V (Proc.devRef .tc main_v487)) (after ops V (Proc.devRef .tc main_v485)) :=
  binary_at hW V 626 main_v487 main_v485 main_v488 (mulf : (⟨S2000000x9, .f32⟩ : BufTy).Contents (Elt F) → (⟨S2000000x9, .f32⟩ : BufTy).Contents (Elt F) → (⟨S2000000x9, .f32⟩ : BufTy).Contents (Elt F)) _ _ _ rfl (by decide +kernel) (by decide +kernel) (by decide +kernel)
theorem rd_main_v489 : after ops V (Proc.devRef .tc main_v489) = ((extractStridedSlice S2000000x9 ![0, 4] · slices_S2000000x17_S2000000x9_0_4) : (⟨S2000000x17, .f32⟩ : BufTy).Contents (Elt F) → (⟨S2000000x9, .f32⟩ : BufTy).Contents (Elt F)) (after ops V (Proc.devRef .tc main_v424)) :=
  Writes.unary_at hW V 627 main_v424 main_v489 ((extractStridedSlice S2000000x9 ![0, 4] · slices_S2000000x17_S2000000x9_0_4) : (⟨S2000000x17, .f32⟩ : BufTy).Contents (Elt F) → (⟨S2000000x9, .f32⟩ : BufTy).Contents (Elt F)) _ _ rfl (by decide +kernel) (by decide +kernel)
theorem rd_main_v490 : after ops V (Proc.devRef .tc main_v490) = (mulf : (⟨S2000000x9, .f32⟩ : BufTy).Contents (Elt F) → (⟨S2000000x9, .f32⟩ : BufTy).Contents (Elt F) → (⟨S2000000x9, .f32⟩ : BufTy).Contents (Elt F)) (after ops V (Proc.devRef .tc main_v488)) (after ops V (Proc.devRef .tc main_v489)) :=
  binary_at hW V 628 main_v488 main_v489 main_v490 (mulf : (⟨S2000000x9, .f32⟩ : BufTy).Contents (Elt F) → (⟨S2000000x9, .f32⟩ : BufTy).Contents (Elt F) → (⟨S2000000x9, .f32⟩ : BufTy).Contents (Elt F)) _ _ _ rfl (by decide +kernel) (by decide +kernel) (by decide +kernel)
theorem rd_main_v491 : after ops V (Proc.devRef .tc main_v491) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v480)) :=
  Writes.unary_at hW V 629 main_v480 main_v491 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v492 : after ops V (Proc.devRef .tc main_v492) = (broadcastInDim S2000000x9 ![0, 1] bcast_S2000000x1_S2000000x9_0_1 : (⟨S2000000x1, .f32⟩ : BufTy).Contents (Elt F) → (⟨S2000000x9, .f32⟩ : BufTy).Contents (Elt F)) (after ops V (Proc.devRef .tc main_v491)) :=
  Writes.unary_at hW V 630 main_v491 main_v492 (broadcastInDim S2000000x9 ![0, 1] bcast_S2000000x1_S2000000x9_0_1 : (⟨S2000000x1, .f32⟩ : BufTy).Contents (Elt F) → (⟨S2000000x9, .f32⟩ : BufTy).Contents (Elt F)) _ _ rfl (by decide +kernel) (by decide +kernel)
theorem rd_main_v493 : after ops V (Proc.devRef .tc main_v493) = (Host.divf : (⟨S2000000x9, .f32⟩ : BufTy).Contents (Elt F) → (⟨S2000000x9, .f32⟩ : BufTy).Contents (Elt F) → (⟨S2000000x9, .f32⟩ : BufTy).Contents (Elt F)) (after ops V (Proc.devRef .tc main_v490)) (after ops V (Proc.devRef .tc main_v492)) :=
  binary_at hW V 631 main_v490 main_v492 main_v493 (Host.divf : (⟨S2000000x9, .f32⟩ : BufTy).Contents (Elt F) → (⟨S2000000x9, .f32⟩ : BufTy).Contents (Elt F) → (⟨S2000000x9, .f32⟩ : BufTy).Contents (Elt F)) _ _ _ rfl (by decide +kernel) (by decide +kernel) (by decide +kernel)
theorem rd_main_v494 : after ops V (Proc.devRef .tc main_v494) = (mulf : (⟨S2000000, .f32⟩ : BufTy).Contents (Elt F) → (⟨S2000000, .f32⟩ : BufTy).Contents (Elt F) → (⟨S2000000, .f32⟩ : BufTy).Contents (Elt F)) (after ops V (Proc.devRef .tc main_v480)) (after ops V (Proc.devRef .tc main_arg3)) :=
  binary_at hW V 632 main_v480 main_arg3 main_v494 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_136 : after ops V (Proc.devRef .tc main_c_136) = (constantI S_ 32 6#32) :=
  nullary_at hW V 633 main_c_136 (constantI S_ 32 6#32) _ rfl (by decide +kernel)
theorem rd_main_v495 : after ops V (Proc.devRef .tc main_v495) = (broadcastInDim S11 ![] bcast_S_S11 : (⟨S_, .i32⟩ : BufTy).Contents (Elt F) → (⟨S11, .i32⟩ : BufTy).Contents (Elt F)) (after ops V (Proc.devRef .tc main_c_136)) :=
  Writes.unary_at hW V 634 main_c_136 main_v495 (broadcastInDim S11 ![] bcast_S_S11 : (⟨S_, .i32⟩ : BufTy).Contents (Elt F) → (⟨S11, .i32⟩ : BufTy).Contents (Elt F)) _ _ rfl (by decide +kernel) (by decide +kernel)
theorem rd_main_v496 : after ops V (Proc.devRef .tc main_v496) = (addi : (⟨S11, .i32⟩ : BufTy).Contents (Elt F) → (⟨S11, .i32⟩ : BufTy).Contents (Elt F) → (⟨S11, .i32⟩ : BufTy).Contents (Elt F)) (after ops V (Proc.devRef .tc main_c_14)) (after ops V (Proc.devRef .tc main_v495)) :=
  binary_at hW V 635 main_c_14 main_v495 main_v496 (addi : (⟨S11, .i32⟩ : BufTy).Contents (Elt F) → (⟨S11, .i32⟩ : BufTy).Contents (Elt F) → (⟨S11, .i32⟩ : BufTy).Contents (Elt F)) _ _ _ rfl (by decide +kernel) (by decide +kernel) (by decide +kernel)
theorem rd_main_v497 : after ops V (Proc.devRef .tc main_v497) = (select : (⟨S11, .i1⟩ : BufTy).Contents (Elt F) → (⟨S11, .i32⟩ : BufTy).Contents (Elt F) → (⟨S11, .i32⟩ : BufTy).Contents (Elt F) → (⟨S11, .i32⟩ : BufTy).Contents (Elt F)) (after ops V (Proc.devRef .tc main_c_15)) (after ops V (Proc.devRef .tc main_v496)) (after ops V (Proc.devRef .tc main_c_14)) :=
  ternary_at hW V 636 main_c_15 main_v496 main_c_14 main_v497 (select : (⟨S11, .i1⟩ : BufTy).Contents (Elt F) → (⟨S11, .i32⟩ : BufTy).Contents (Elt F) → (⟨S11, .i32⟩ : BufTy).Contents (Elt F) → (⟨S11, .i32⟩ : BufTy).Contents (Elt F)) _ _ _ _ rfl (by decide +kernel) (by decide +kernel) (by decide +kernel) (by decide +kernel)
theorem rd_main_v498 : after ops V (Proc.devRef .tc main_v498) = (broadcastInDim S11x1 ![0] bcast_S11_S11x1_0 : (⟨S11, .i32⟩ : BufTy).Contents (Elt F) → (⟨S11x1, .i32⟩ : BufTy).Contents (Elt F)) (after ops V (Proc.devRef .tc main_v497)) :=
  Writes.unary_at hW V 637 main_v497 main_v498 (broadcastInDim S11x1 ![0] bcast_S11_S11x1_0 : (⟨S11, .i32⟩ : BufTy).Contents (Elt F) → (⟨S11x1, .i32⟩ : BufTy).Contents (Elt F)) _ _ rfl (by decide +kernel) (by decide +kernel)
theorem rd_main_v499 : after ops V (Proc.devRef .tc main_v499) = ((fun x i => Host.gather gather_S2000000x6_S11x1_S2000000x11_0_1_n_n_1_1_20000001 x i) : (⟨S2000000x6, .f32⟩ : BufTy).Contents (Elt F) → (⟨S11x1, .i32⟩ : BufTy).Contents (Elt F) → (⟨S2000000x11, .f32⟩ : BufTy).Contents (Elt F)) (after ops V (Proc.devRef .tc main_v319)) (after ops V (Proc.devRef .tc main_v498)) :=
  binary_at hW V 638 main_v319 main_v498 main_v499 ((fun x i => Host.gather gather_S2000000x6_S11x1_S2000000x11_0_1_n_n_1_1_20000001 x i) : (⟨S2000000x6, .f32⟩ : BufTy).Contents (Elt F) → (⟨S11x1, .i32⟩ : BufTy).Contents (Elt F) → (⟨S2000000x11, .f32⟩ : BufTy).Contents (Elt F)) _ _ _ rfl (by decide +kernel) (by decide +kernel) (by decide +kernel)
theorem rd_main_v500 : after ops V (Proc.devRef .tc main_v500) = (broadcastInDim S1x11 ![1] bcast_S11_S1x11_1 : (⟨S11, .f32⟩ : BufTy).Contents (Elt F) → (⟨S1x11, .f32⟩ : BufTy).Contents (Elt F)) (after ops V (Proc.devRef .tc main_cst_13)) :=
  Writes.unary_at hW V 639 main_cst_13 main_v500 (broadcastInDim S1x11 ![1] bcast_S11_S1x11_1 : (⟨S11, .f32⟩ : BufTy).Contents (Elt F) → (⟨S1x11, .f32⟩ : BufTy).Contents (Elt F)) _ _ rfl (by decide +kernel) (by decide +kernel)
theorem rd_main_v501 : after ops V (Proc.devRef .tc main_v501) = (broadcastInDim S2000000x11 ![0, 1] bcast_S1x11_S2000000x11_0_1 : (⟨S1x11, .f32⟩ : BufTy).Contents (Elt F) → (⟨S2000000x11, .f32⟩ : BufTy).Contents (Elt F)) (after ops V (Proc.devRef .tc main_v500)) :=
  Writes.unary_at hW V 640 main_v500 main_v501 (broadcastInDim S2000000x11 ![0, 1] bcast_S1x11_S2000000x11_0_1 : (⟨S1x11, .f32⟩ : BufTy).Contents (Elt F) → (⟨S2000000x11, .f32⟩ : BufTy).Contents (Elt F)) _ _ rfl (by decide +kernel) (by decide +kernel)
theorem rd_main_v502 : after ops V (Proc.devRef .tc main_v502) = (mulf : (⟨S2000000x11, .f32⟩ : BufTy).Contents (Elt F) → (⟨S2000000x11, .f32⟩ : BufTy).Contents (Elt F) → (⟨S2000000x11, .f32⟩ : BufTy).Contents (Elt F)) (after ops V (Proc.devRef .tc main_v501)) (after ops V (Proc.devRef .tc main_v499)) :=
  binary_at hW V 641 main_v501 main_v499 main_v502 (mulf : (⟨S2000000x11, .f32⟩ : BufTy).Contents (Elt F) → (⟨S2000000x11, .f32⟩ : BufTy).Contents (Elt F) → (⟨S2000000x11, .f32⟩ : BufTy).Contents (Elt F)) _ _ _ rfl (by decide +kernel) (by decide +kernel) (by decide +kernel)
theorem rd_main_v503 : after ops V (Proc.devRef .tc main_v503) = ((extractStridedSlice S2000000x11 ![0, 3] · slices_S2000000x17_S2000000x11_0_3) : (⟨S2000000x17, .f32⟩ : BufTy).Contents (Elt F) → (⟨S2000000x11, .f32⟩ : BufTy).Contents (Elt F)) (after ops V (Proc.devRef .tc main_v424)) :=
  Writes.unary_at hW V 642 main_v424 main_v503 ((extractStridedSlice S2000000x11 ![0, 3] · slices_S2000000x17_S2000000x11_0_3) : (⟨S2000000x17, .f32⟩ : BufTy).Contents (Elt F) → (⟨S2000000x11, .f32⟩ : BufTy).Contents (Elt F)) _ _ rfl (by decide +kernel) (by decide +kernel)
theorem rd_main_v504 : after ops V (Proc.devRef .tc main_v504) = (mulf : (⟨S2000000x11, .f32⟩ : BufTy).Contents (Elt F) → (⟨S2000000x11, .f32⟩ : BufTy).Contents (Elt F) → (⟨S2000000x11, .f32⟩ : BufTy).Contents (Elt F)) (after ops V (Proc.devRef .tc main_v502)) (after ops V (Proc.devRef .tc main_v503)) :=
  binary_at hW V 643 main_v502 main_v503 main_v504 (mulf : (⟨S2000000x11, .f32⟩ : BufTy).Contents (Elt F) → (⟨S2000000x11, .f32⟩ : BufTy).Contents (Elt F) → (⟨S2000000x11, .f32⟩ : BufTy).Contents (Elt F)) _ _ _ rfl (by decide +kernel) (by decide +kernel) (by decide +kernel)
theorem rd_main_v505 : after ops V (Proc.devRef .tc main_v505) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v494)) :=
  Writes.unary_at hW V 644 main_v494 main_v505 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v506 : after ops V (Proc.devRef .tc main_v506) = (broadcastInDim S2000000x11 ![0, 1] bcast_S2000000x1_S2000000x11_0_1 : (⟨S2000000x1, .f32⟩ : BufTy).Contents (Elt F) → (⟨S2000000x11, .f32⟩ : BufTy).Contents (Elt F)) (after ops V (Proc.devRef .tc main_v505)) :=
  Writes.unary_at hW V 645 main_v505 main_v506 (broadcastInDim S2000000x11 ![0, 1] bcast_S2000000x1_S2000000x11_0_1 : (⟨S2000000x1, .f32⟩ : BufTy).Contents (Elt F) → (⟨S2000000x11, .f32⟩ : BufTy).Contents (Elt F)) _ _ rfl (by decide +kernel) (by decide +kernel)
theorem rd_main_v507 : after ops V (Proc.devRef .tc main_v507) = (Host.divf : (⟨S2000000x11, .f32⟩ : BufTy).Contents (Elt F) → (⟨S2000000x11, .f32⟩ : BufTy).Contents (Elt F) → (⟨S2000000x11, .f32⟩ : BufTy).Contents (Elt F)) (after ops V (Proc.devRef .tc main_v504)) (after ops V (Proc.devRef .tc main_v506)) :=
  binary_at hW V 646 main_v504 main_v506 main_v507 (Host.divf : (⟨S2000000x11, .f32⟩ : BufTy).Contents (Elt F) → (⟨S2000000x11, .f32⟩ : BufTy).Contents (Elt F) → (⟨S2000000x11, .f32⟩ : BufTy).Contents (Elt F)) _ _ _ rfl (by decide +kernel) (by decide +kernel) (by decide +kernel)
theorem rd_main_v508 : after ops V (Proc.devRef .tc main_v508) = (mulf : (⟨S2000000, .f32⟩ : BufTy).Contents (Elt F) → (⟨S2000000, .f32⟩ : BufTy).Contents (Elt F) → (⟨S2000000, .f32⟩ : BufTy).Contents (Elt F)) (after ops V (Proc.devRef .tc main_v494)) (after ops V (Proc.devRef .tc main_arg3)) :=
  binary_at hW V 647 main_v494 main_arg3 main_v508 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_137 : after ops V (Proc.devRef .tc main_c_137) = (constantI S_ 32 7#32) :=
  nullary_at hW V 648 main_c_137 (constantI S_ 32 7#32) _ rfl (by decide +kernel)
theorem rd_main_v509 : after ops V (Proc.devRef .tc main_v509) = (broadcastInDim S13 ![] bcast_S_S13 : (⟨S_, .i32⟩ : BufTy).Contents (Elt F) → (⟨S13, .i32⟩ : BufTy).Contents (Elt F)) (after ops V (Proc.devRef .tc main_c_137)) :=
  Writes.unary_at hW V 649 main_c_137 main_v509 (broadcastInDim S13 ![] bcast_S_S13 : (⟨S_, .i32⟩ : BufTy).Contents (Elt F) → (⟨S13, .i32⟩ : BufTy).Contents (Elt F)) _ _ rfl (by decide +kernel) (by decide +kernel)
theorem rd_main_v510 : after ops V (Proc.devRef .tc main_v510) = (addi : (⟨S13, .i32⟩ : BufTy).Contents (Elt F) → (⟨S13, .i32⟩ : BufTy).Contents (Elt F) → (⟨S13, .i32⟩ : BufTy).Contents (Elt F)) (after ops V (Proc.devRef .tc main_c_17)) (after ops V (Proc.devRef .tc main_v509)) :=
  binary_at hW V 650 main_c_17 main_v509 main_v510 (addi : (⟨S13, .i32⟩ : BufTy).Contents (Elt F) → (⟨S13, .i32⟩ : BufTy).Contents (Elt F) → (⟨S13, .i32⟩ : BufTy).Contents (Elt F)) _ _ _ rfl (by decide +kernel) (by decide +kernel) (by decide +kernel)
theorem rd_main_v511 : after ops V (Proc.devRef .tc main_v511) = (select : (⟨S13, .i1⟩ : BufTy).Contents (Elt F) → (⟨S13, .i32⟩ : BufTy).Contents (Elt F) → (⟨S13, .i32⟩ : BufTy).Contents (Elt F) → (⟨S13, .i32⟩ : BufTy).Contents (Elt F)) (after ops V (Proc.devRef .tc main_c_18)) (after ops V (Proc.devRef .tc main_v510)) (after ops V (Proc.devRef .tc main_c_17)) :=
  ternary_at hW V 651 main_c_18 main_v510 main_c_17 main_v511 (select : (⟨S13, .i1⟩ : BufTy).Contents (Elt F) → (⟨S13, .i32⟩ : BufTy).Contents (Elt F) → (⟨S13, .i32⟩ : BufTy).Contents (Elt F) → (⟨S13, .i32⟩ : BufTy).Contents (Elt F)) _ _ _ _ rfl (by decide +kernel) (by decide +kernel) (by decide +kernel) (by decide +kernel)
theorem rd_main_v512 : after ops V (Proc.devRef .tc main_v512) = (broadcastInDim S13x1 ![0] bcast_S13_S13x1_0 : (⟨S13, .i32⟩ : BufTy).Contents (Elt F) → (⟨S13x1, .i32⟩ : BufTy).Contents (Elt F)) (after ops V (Proc.devRef .tc main_v511)) :=
  Writes.unary_at hW V 652 main_v511 main_v512 (broadcastInDim S13x1 ![0] bcast_S13_S13x1_0 : (⟨S13, .i32⟩ : BufTy).Contents (Elt F) → (⟨S13x1, .i32⟩ : BufTy).Contents (Elt F)) _ _ rfl (by decide +kernel) (by decide +kernel)
theorem rd_main_v513 : after ops V (Proc.devRef .tc main_v513) = ((fun x i => Host.gather gather_S2000000x7_S13x1_S2000000x13_0_1_n_n_1_1_20000001 x i) : (⟨S2000000x7, .f32⟩ : BufTy).Contents (Elt F) → (⟨S13x1, .i32⟩ : BufTy).Contents (Elt F) → (⟨S2000000x13, .f32⟩ : BufTy).Contents (Elt F)) (after ops V (Proc.devRef .tc main_v327)) (after ops V (Proc.devRef .tc main_v512)) :=
  binary_at hW V 653 main_v327 main_v512 main_v513 ((fun x i => Host.gather gather_S2000000x7_S13x1_S2000000x13_0_1_n_n_1_1_20000001 x i) : (⟨S2000000x7, .f32⟩ : BufTy).Contents (Elt F) → (⟨S13x1, .i32⟩ : BufTy).Contents (Elt F) → (⟨S2000000x13, .f32⟩ : BufTy).Contents (Elt F)) _ _ _ rfl (by decide +kernel) (by decide +kernel) (by decide +kernel)
theorem rd_main_v514 : after ops V (Proc.devRef .tc main_v514) = (broadcastInDim S1x13 ![1] bcast_S13_S1x13_1 : (⟨S13, .f32⟩ : BufTy).Contents (Elt F) → (⟨S1x13, .f32⟩ : BufTy).Contents (Elt F)) (after ops V (Proc.devRef .tc main_cst_16)) :=
  Writes.unary_at hW V 654 main_cst_16 main_v514 (broadcastInDim S1x13 ![1] bcast_S13_S1x13_1 : (⟨S13, .f32⟩ : BufTy).Contents (Elt F) → (⟨S1x13, .f32⟩ : BufTy).Contents (Elt F)) _ _ rfl (by decide +kernel) (by decide +kernel)
theorem rd_main_v515 : after ops V (Proc.devRef .tc main_v515) = (broadcastInDim S2000000x13 ![0, 1] bcast_S1x13_S2000000x13_0_1 : (⟨S1x13, .f32⟩ : BufTy).Contents (Elt F) → (⟨S2000000x13, .f32⟩ : BufTy).Contents (Elt F)) (after ops V (Proc.devRef .tc main_v514)) :=
  Writes.unary_at hW V 655 main_v514 main_v515 (broadcastInDim S2000000x13 ![0, 1] bcast_S1x13_S2000000x13_0_1 : (⟨S1x13, .f32⟩ : BufTy).Contents (Elt F) → (⟨S2000000x13, .f32⟩ : BufTy).Contents (Elt F)) _ _ rfl (by decide +kernel) (by decide +kernel)
theorem rd_main_v516 : after ops V (Proc.devRef .tc main_v516) = (mulf : (⟨S2000000x13, .f32⟩ : BufTy).Contents (Elt F) → (⟨S2000000x13, .f32⟩ : BufTy).Contents (Elt F) → (⟨S2000000x13, .f32⟩ : BufTy).Contents (Elt F)) (after ops V (Proc.devRef .tc main_v515)) (after ops V (Proc.devRef .tc main_v513)) :=
  binary_at hW V 656 main_v515 main_v513 main_v516 (mulf : (⟨S2000000x13, .f32⟩ : BufTy).Contents (Elt F) → (⟨S2000000x13, .f32⟩ : BufTy).Contents (Elt F) → (⟨S2000000x13, .f32⟩ : BufTy).Contents (Elt F)) _ _ _ rfl (by decide +kernel) (by decide +kernel) (by decide +kernel)
theorem rd_main_v517 : after ops V (Proc.devRef .tc main_v517) = ((extractStridedSlice S2000000x13 ![0, 2] · slices_S2000000x17_S2000000x13_0_2) : (⟨S2000000x17, .f32⟩ : BufTy).Contents (Elt F) → (⟨S2000000x13, .f32⟩ : BufTy).Contents (Elt F)) (after ops V (Proc.devRef .tc main_v424)) :=
  Writes.unary_at hW V 657 main_v424 main_v517 ((extractStridedSlice S2000000x13 ![0, 2] · slices_S2000000x17_S2000000x13_0_2) : (⟨S2000000x17, .f32⟩ : BufTy).Contents (Elt F) → (⟨S2000000x13, .f32⟩ : BufTy).Contents (Elt F)) _ _ rfl (by decide +kernel) (by decide +kernel)
theorem rd_main_v518 : after ops V (Proc.devRef .tc main_v518) = (mulf : (⟨S2000000x13, .f32⟩ : BufTy).Contents (Elt F) → (⟨S2000000x13, .f32⟩ : BufTy).Contents (Elt F) → (⟨S2000000x13, .f32⟩ : BufTy).Contents (Elt F)) (after ops V (Proc.devRef .tc main_v516)) (after ops V (Proc.devRef .tc main_v517)) :=
  binary_at hW V 658 main_v516 main_v517 main_v518 (mulf : (⟨S2000000x13, .f32⟩ : BufTy).Contents (Elt F) → (⟨S2000000x13, .f32⟩ : BufTy).Contents (Elt F) → (⟨S2000000x13, .f32⟩ : BufTy).Contents (Elt F)) _ _ _ rfl (by decide +kernel) (by decide +kernel) (by decide +kernel)
theorem rd_main_v519 : after ops V (Proc.devRef .tc main_v519) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v508)) :=
  Writes.unary_at hW V 659 main_v508 main_v519 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)

end Cert.ReferenceIdeal.Line

end
-- ==== Proof.RefRead11.lean ====
/- Window 11 of the reference's line, read one operation at a time: what the whole line leaves in the reference an operation
   writes is that operation's function of what the line leaves in its operands (each operation writes a reference of its own, once). -/
import proofs.«118161_j37666863186375_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo Cert.CubePad.Line Cert.Line

variable {F : FTy → Type} [FloatOps F] (V : Valuation τ sig (Elt F))

theorem rd_main_v520 : after ops V (Proc.devRef .tc main_v520) = (broadcastInDim S2000000x13 ![0, 1] bcast_S2000000x1_S2000000x13_0_1 : (⟨S2000000x1, .f32⟩ : BufTy).Contents (Elt F) → (⟨S2000000x13, .f32⟩ : BufTy).Contents (Elt F)) (after ops V (Proc.devRef .tc main_v519)) :=
  Writes.unary_at hW V 660 main_v519 main_v520 (broadcastInDim S2000000x13 ![0, 1] bcast_S2000000x1_S2000000x13_0_1 : (⟨S2000000x1, .f32⟩ : BufTy).Contents (Elt F) → (⟨S2000000x13, .f32⟩ : BufTy).Contents (Elt F)) _ _ rfl (by decide +kernel) (by decide +kernel)
theorem rd_main_v521 : after ops V (Proc.devRef .tc main_v521) = (Host.divf : (⟨S2000000x13, .f32⟩ : BufTy).Contents (Elt F) → (⟨S2000000x13, .f32⟩ : BufTy).Contents (Elt F) → (⟨S2000000x13, .f32⟩ : BufTy).Contents (Elt F)) (after ops V (Proc.devRef .tc main_v518)) (after ops V (Proc.devRef .tc main_v520)) :=
  binary_at hW V 661 main_v518 main_v520 main_v521 (Host.divf : (⟨S2000000x13, .f32⟩ : BufTy).Contents (Elt F) → (⟨S2000000x13, .f32⟩ : BufTy).Contents (Elt F) → (⟨S2000000x13, .f32⟩ : BufTy).Contents (Elt F)) _ _ _ rfl (by decide +kernel) (by decide +kernel) (by decide +kernel)
theorem rd_main_v522 : after ops V (Proc.devRef .tc main_v522) = (mulf : (⟨S2000000, .f32⟩ : BufTy).Contents (Elt F) → (⟨S2000000, .f32⟩ : BufTy).Contents (Elt F) → (⟨S2000000, .f32⟩ : BufTy).Contents (Elt F)) (after ops V (Proc.devRef .tc main_v508)) (after ops V (Proc.devRef .tc main_arg3)) :=
  binary_at hW V 662 main_v508 main_arg3 main_v522 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_138 : after ops V (Proc.devRef .tc main_c_138) = (constantI S_ 32 8#32) :=
  nullary_at hW V 663 main_c_138 (constantI S_ 32 8#32) _ rfl (by decide +kernel)
theorem rd_main_v523 : after ops V (Proc.devRef .tc main_v523) = (broadcastInDim S15 ![] bcast_S_S15 : (⟨S_, .i32⟩ : BufTy).Contents (Elt F) → (⟨S15, .i32⟩ : BufTy).Contents (Elt F)) (after ops V (Proc.devRef .tc main_c_138)) :=
  Writes.unary_at hW V 664 main_c_138 main_v523 (broadcastInDim S15 ![] bcast_S_S15 : (⟨S_, .i32⟩ : BufTy).Contents (Elt F) → (⟨S15, .i32⟩ : BufTy).Contents (Elt F)) _ _ rfl (by decide +kernel) (by decide +kernel)
theorem rd_main_v524 : after ops V (Proc.devRef .tc main_v524) = (addi : (⟨S15, .i32⟩ : BufTy).Contents (Elt F) → (⟨S15, .i32⟩ : BufTy).Contents (Elt F) → (⟨S15, .i32⟩ : BufTy).Contents (Elt F)) (after ops V (Proc.devRef .tc main_c_20)) (after ops V (Proc.devRef .tc main_v523)) :=
  binary_at hW V 665 main_c_20 main_v523 main_v524 (addi : (⟨S15, .i32⟩ : BufTy).Contents (Elt F) → (⟨S15, .i32⟩ : BufTy).Contents (Elt F) → (⟨S15, .i32⟩ : BufTy).Contents (Elt F)) _ _ _ rfl (by decide +kernel) (by decide +kernel) (by decide +kernel)
theorem rd_main_v525 : after ops V (Proc.devRef .tc main_v525) = (select : (⟨S15, .i1⟩ : BufTy).Contents (Elt F) → (⟨S15, .i32⟩ : BufTy).Contents (Elt F) → (⟨S15, .i32⟩ : BufTy).Contents (Elt F) → (⟨S15, .i32⟩ : BufTy).Contents (Elt F)) (after ops V (Proc.devRef .tc main_c_21)) (after ops V (Proc.devRef .tc main_v524)) (after ops V (Proc.devRef .tc main_c_20)) :=
  ternary_at hW V 666 main_c_21 main_v524 main_c_20 main_v525 (select : (⟨S15, .i1⟩ : BufTy).Contents (Elt F) → (⟨S15, .i32⟩ : BufTy).Contents (Elt F) → (⟨S15, .i32⟩ : BufTy).Contents (Elt F) → (⟨S15, .i32⟩ : BufTy).Contents (Elt F)) _ _ _ _ rfl (by decide +kernel) (by decide +kernel) (by decide +kernel) (by decide +kernel)
theorem rd_main_v526 : after ops V (Proc.devRef .tc main_v526) = (broadcastInDim S15x1 ![0] bcast_S15_S15x1_0 : (⟨S15, .i32⟩ : BufTy).Contents (Elt F) → (⟨S15x1, .i32⟩ : BufTy).Contents (Elt F)) (after ops V (Proc.devRef .tc main_v525)) :=
  Writes.unary_at hW V 667 main_v525 main_v526 (broadcastInDim S15x1 ![0] bcast_S15_S15x1_0 : (⟨S15, .i32⟩ : BufTy).Contents (Elt F) → (⟨S15x1, .i32⟩ : BufTy).Contents (Elt F)) _ _ rfl (by decide +kernel) (by decide +kernel)
theorem rd_main_v527 : after ops V (Proc.devRef .tc main_v527) = ((fun x i => Host.gather gather_S2000000x8_S15x1_S2000000x15_0_1_n_n_1_1_20000001 x i) : (⟨S2000000x8, .f32⟩ : BufTy).Contents (Elt F) → (⟨S15x1, .i32⟩ : BufTy).Contents (Elt F) → (⟨S2000000x15, .f32⟩ : BufTy).Contents (Elt F)) (after ops V (Proc.devRef .tc main_v336)) (after ops V (Proc.devRef .tc main_v526)) :=
  binary_at hW V 668 main_v336 main_v526 main_v527 ((fun x i => Host.gather gather_S2000000x8_S15x1_S2000000x15_0_1_n_n_1_1_20000001 x i) : (⟨S2000000x8, .f32⟩ : BufTy).Contents (Elt F) → (⟨S15x1, .i32⟩ : BufTy).Contents (Elt F) → (⟨S2000000x15, .f32⟩ : BufTy).Contents (Elt F)) _ _ _ rfl (by decide +kernel) (by decide +kernel) (by decide +kernel)
theorem rd_main_v528 : after ops V (Proc.devRef .tc main_v528) = (broadcastInDim S1x15 ![1] bcast_S15_S1x15_1 : (⟨S15, .f32⟩ : BufTy).Contents (Elt F) → (⟨S1x15, .f32⟩ : BufTy).Contents (Elt F)) (after ops V (Proc.devRef .tc main_cst_19)) :=
  Writes.unary_at hW V 669 main_cst_19 main_v528 (broadcastInDim S1x15 ![1] bcast_S15_S1x15_1 : (⟨S15, .f32⟩ : BufTy).Contents (Elt F) → (⟨S1x15, .f32⟩ : BufTy).Contents (Elt F)) _ _ rfl (by decide +kernel) (by decide +kernel)
theorem rd_main_v529 : after ops V (Proc.devRef .tc main_v529) = (broadcastInDim S2000000x15 ![0, 1] bcast_S1x15_S2000000x15_0_1 : (⟨S1x15, .f32⟩ : BufTy).Contents (Elt F) → (⟨S2000000x15, .f32⟩ : BufTy).Contents (Elt F)) (after ops V (Proc.devRef .tc main_v528)) :=
  Writes.unary_at hW V 670 main_v528 main_v529 (broadcastInDim S2000000x15 ![0, 1] bcast_S1x15_S2000000x15_0_1 : (⟨S1x15, .f32⟩ : BufTy).Contents (Elt F) → (⟨S2000000x15, .f32⟩ : BufTy).Contents (Elt F)) _ _ rfl (by decide +kernel) (by decide +kernel)
theorem rd_main_v530 : after ops V (Proc.devRef .tc main_v530) = (mulf : (⟨S2000000x15, .f32⟩ : BufTy).Contents (Elt F) → (⟨S2000000x15, .f32⟩ : BufTy).Contents (Elt F) → (⟨S2000000x15, .f32⟩ : BufTy).Contents (Elt F)) (after ops V (Proc.devRef .tc main_v529)) (after ops V (Proc.devRef .tc main_v527)) :=
  binary_at hW V 671 main_v529 main_v527 main_v530 (mulf : (⟨S2000000x15, .f32⟩ : BufTy).Contents (Elt F) → (⟨S2000000x15, .f32⟩ : BufTy).Contents (Elt F) → (⟨S2000000x15, .f32⟩ : BufTy).Contents (Elt F)) _ _ _ rfl (by decide +kernel) (by decide +kernel) (by decide +kernel)
theorem rd_main_v531 : after ops V (Proc.devRef .tc main_v531) = ((extractStridedSlice S2000000x15 ![0, 1] · slices_S2000000x17_S2000000x15_0_1) : (⟨S2000000x17, .f32⟩ : BufTy).Contents (Elt F) → (⟨S2000000x15, .f32⟩ : BufTy).Contents (Elt F)) (after ops V (Proc.devRef .tc main_v424)) :=
  Writes.unary_at hW V 672 main_v424 main_v531 ((extractStridedSlice S2000000x15 ![0, 1] · slices_S2000000x17_S2000000x15_0_1) : (⟨S2000000x17, .f32⟩ : BufTy).Contents (Elt F) → (⟨S2000000x15, .f32⟩ : BufTy).Contents (Elt F)) _ _ rfl (by decide +kernel) (by decide +kernel)
theorem rd_main_v532 : after ops V (Proc.devRef .tc main_v532) = (mulf : (⟨S2000000x15, .f32⟩ : BufTy).Contents (Elt F) → (⟨S2000000x15, .f32⟩ : BufTy).Contents (Elt F) → (⟨S2000000x15, .f32⟩ : BufTy).Contents (Elt F)) (after ops V (Proc.devRef .tc main_v530)) (after ops V (Proc.devRef .tc main_v531)) :=
  binary_at hW V 673 main_v530 main_v531 main_v532 (mulf : (⟨S2000000x15, .f32⟩ : BufTy).Contents (Elt F) → (⟨S2000000x15, .f32⟩ : BufTy).Contents (Elt F) → (⟨S2000000x15, .f32⟩ : BufTy).Contents (Elt F)) _ _ _ rfl (by decide +kernel) (by decide +kernel) (by decide +kernel)
theorem rd_main_v533 : after ops V (Proc.devRef .tc main_v533) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v522)) :=
  Writes.unary_at hW V 674 main_v522 main_v533 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v534 : after ops V (Proc.devRef .tc main_v534) = (broadcastInDim S2000000x15 ![0, 1] bcast_S2000000x1_S2000000x15_0_1 : (⟨S2000000x1, .f32⟩ : BufTy).Contents (Elt F) → (⟨S2000000x15, .f32⟩ : BufTy).Contents (Elt F)) (after ops V (Proc.devRef .tc main_v533)) :=
  Writes.unary_at hW V 675 main_v533 main_v534 (broadcastInDim S2000000x15 ![0, 1] bcast_S2000000x1_S2000000x15_0_1 : (⟨S2000000x1, .f32⟩ : BufTy).Contents (Elt F) → (⟨S2000000x15, .f32⟩ : BufTy).Contents (Elt F)) _ _ rfl (by decide +kernel) (by decide +kernel)
theorem rd_main_v535 : after ops V (Proc.devRef .tc main_v535) = (Host.divf : (⟨S2000000x15, .f32⟩ : BufTy).Contents (Elt F) → (⟨S2000000x15, .f32⟩ : BufTy).Contents (Elt F) → (⟨S2000000x15, .f32⟩ : BufTy).Contents (Elt F)) (after ops V (Proc.devRef .tc main_v532)) (after ops V (Proc.devRef .tc main_v534)) :=
  binary_at hW V 676 main_v532 main_v534 main_v535 (Host.divf : (⟨S2000000x15, .f32⟩ : BufTy).Contents (Elt F) → (⟨S2000000x15, .f32⟩ : BufTy).Contents (Elt F) → (⟨S2000000x15, .f32⟩ : BufTy).Contents (Elt F)) _ _ _ rfl (by decide +kernel) (by decide +kernel) (by decide +kernel)
theorem rd_main_v536 : after ops V (Proc.devRef .tc main_v536) = (mulf : (⟨S2000000, .f32⟩ : BufTy).Contents (Elt F) → (⟨S2000000, .f32⟩ : BufTy).Contents (Elt F) → (⟨S2000000, .f32⟩ : BufTy).Contents (Elt F)) (after ops V (Proc.devRef .tc main_v522)) (after ops V (Proc.devRef .tc main_arg3)) :=
  binary_at hW V 677 main_v522 main_arg3 main_v536 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)
theorem rd_main_c_139 : after ops V (Proc.devRef .tc main_c_139) = (constantI S_ 32 9#32) :=
  nullary_at hW V 678 main_c_139 (constantI S_ 32 9#32) _ rfl (by decide +kernel)
theorem rd_main_v537 : after ops V (Proc.devRef .tc main_v537) = (broadcastInDim S17 ![] bcast_S_S17 : (⟨S_, .i32⟩ : BufTy).Contents (Elt F) → (⟨S17, .i32⟩ : BufTy).Contents (Elt F)) (after ops V (Proc.devRef .tc main_c_139)) :=
  Writes.unary_at hW V 679 main_c_139 main_v537 (broadcastInDim S17 ![] bcast_S_S17 : (⟨S_, .i32⟩ : BufTy).Contents (Elt F) → (⟨S17, .i32⟩ : BufTy).Contents (Elt F)) _ _ rfl (by decide +kernel) (by decide +kernel)
theorem rd_main_v538 : after ops V (Proc.devRef .tc main_v538) = (addi : (⟨S17, .i32⟩ : BufTy).Contents (Elt F) → (⟨S17, .i32⟩ : BufTy).Contents (Elt F) → (⟨S17, .i32⟩ : BufTy).Contents (Elt F)) (after ops V (Proc.devRef .tc main_c_23)) (after ops V (Proc.devRef .tc main_v537)) :=
  binary_at hW V 680 main_c_23 main_v537 main_v538 (addi : (⟨S17, .i32⟩ : BufTy).Contents (Elt F) → (⟨S17, .i32⟩ : BufTy).Contents (Elt F) → (⟨S17, .i32⟩ : BufTy).Contents (Elt F)) _ _ _ rfl (by decide +kernel) (by decide +kernel) (by decide +kernel)
theorem rd_main_v539 : after ops V (Proc.devRef .tc main_v539) = (select : (⟨S17, .i1⟩ : BufTy).Contents (Elt F) → (⟨S17, .i32⟩ : BufTy).Contents (Elt F) → (⟨S17, .i32⟩ : BufTy).Contents (Elt F) → (⟨S17, .i32⟩ : BufTy).Contents (Elt F)) (after ops V (Proc.devRef .tc main_c_24)) (after ops V (Proc.devRef .tc main_v538)) (after ops V (Proc.devRef .tc main_c_23)) :=
  ternary_at hW V 681 main_c_24 main_v538 main_c_23 main_v539 (select : (⟨S17, .i1⟩ : BufTy).Contents (Elt F) → (⟨S17, .i32⟩ : BufTy).Contents (Elt F) → (⟨S17, .i32⟩ : BufTy).Contents (Elt F) → (⟨S17, .i32⟩ : BufTy).Contents (Elt F)) _ _ _ _ rfl (by decide +kernel) (by decide +kernel) (by decide +kernel) (by decide +kernel)
theorem rd_main_v540 : after ops V (Proc.devRef .tc main_v540) = (broadcastInDim S17x1 ![0] bcast_S17_S17x1_0 : (⟨S17, .i32⟩ : BufTy).Contents (Elt F) → (⟨S17x1, .i32⟩ : BufTy).Contents (Elt F)) (after ops V (Proc.devRef .tc main_v539)) :=
  Writes.unary_at hW V 682 main_v539 main_v540 (broadcastInDim S17x1 ![0] bcast_S17_S17x1_0 : (⟨S17, .i32⟩ : BufTy).Contents (Elt F) → (⟨S17x1, .i32⟩ : BufTy).Contents (Elt F)) _ _ rfl (by decide +kernel) (by decide +kernel)
theorem rd_main_v541 : after ops V (Proc.devRef .tc main_v541) = ((fun x i => Host.gather gather_S2000000x9_S17x1_S2000000x17_0_1_n_n_1_1_20000001 x i) : (⟨S2000000x9, .f32⟩ : BufTy).Contents (Elt F) → (⟨S17x1, .i32⟩ : BufTy).Contents (Elt F) → (⟨S2000000x17, .f32⟩ : BufTy).Contents (Elt F)) (after ops V (Proc.devRef .tc main_v346)) (after ops V (Proc.devRef .tc main_v540)) :=
  binary_at hW V 683 main_v346 main_v540 main_v541 ((fun x i => Host.gather gather_S2000000x9_S17x1_S2000000x17_0_1_n_n_1_1_20000001 x i) : (⟨S2000000x9, .f32⟩ : BufTy).Contents (Elt F) → (⟨S17x1, .i32⟩ : BufTy).Contents (Elt F) → (⟨S2000000x17, .f32⟩ : BufTy).Contents (Elt F)) _ _ _ rfl (by decide +kernel) (by decide +kernel) (by decide +kernel)
theorem rd_main_v542 : after ops V (Proc.devRef .tc main_v542) = (broadcastInDim S1x17 ![1] bcast_S17_S1x17_1 : (⟨S17, .f32⟩ : BufTy).Contents (Elt F) → (⟨S1x17, .f32⟩ : BufTy).Contents (Elt F)) (after ops V (Proc.devRef .tc main_cst_22)) :=
  Writes.unary_at hW V 684 main_cst_22 main_v542 (broadcastInDim S1x17 ![1] bcast_S17_S1x17_1 : (⟨S17, .f32⟩ : BufTy).Contents (Elt F) → (⟨S1x17, .f32⟩ : BufTy).Contents (Elt F)) _ _ rfl (by decide +kernel) (by decide +kernel)
theorem rd_main_v543 : after ops V (Proc.devRef .tc main_v543) = (broadcastInDim S2000000x17 ![0, 1] bcast_S1x17_S2000000x17_0_1 : (⟨S1x17, .f32⟩ : BufTy).Contents (Elt F) → (⟨S2000000x17, .f32⟩ : BufTy).Contents (Elt F)) (after ops V (Proc.devRef .tc main_v542)) :=
  Writes.unary_at hW V 685 main_v542 main_v543 (broadcastInDim S2000000x17 ![0, 1] bcast_S1x17_S2000000x17_0_1 : (⟨S1x17, .f32⟩ : BufTy).Contents (Elt F) → (⟨S2000000x17, .f32⟩ : BufTy).Contents (Elt F)) _ _ rfl (by decide +kernel) (by decide +kernel)
theorem rd_main_v544 : after ops V (Proc.devRef .tc main_v544) = (mulf : (⟨S2000000x17, .f32⟩ : BufTy).Contents (Elt F) → (⟨S2000000x17, .f32⟩ : BufTy).Contents (Elt F) → (⟨S2000000x17, .f32⟩ : BufTy).Contents (Elt F)) (after ops V (Proc.devRef .tc main_v543)) (after ops V (Proc.devRef .tc main_v541)) :=
  binary_at hW V 686 main_v543 main_v541 main_v544 (mulf : (⟨S2000000x17, .f32⟩ : BufTy).Contents (Elt F) → (⟨S2000000x17, .f32⟩ : BufTy).Contents (Elt F) → (⟨S2000000x17, .f32⟩ : BufTy).Contents (Elt F)) _ _ _ rfl (by decide +kernel) (by decide +kernel) (by decide +kernel)
theorem rd_main_v545 : after ops V (Proc.devRef .tc main_v545) = (mulf : (⟨S2000000x17, .f32⟩ : BufTy).Contents (Elt F) → (⟨S2000000x17, .f32⟩ : BufTy).Contents (Elt F) → (⟨S2000000x17, .f32⟩ : BufTy).Contents (Elt F)) (after ops V (Proc.devRef .tc main_v544)) (after ops V (Proc.devRef .tc main_v424)) :=
  binary_at hW V 687 main_v544 main_v424 main_v545 (mulf : (⟨S2000000x17, .f32⟩ : BufTy).Contents (Elt F) → (⟨S2000000x17, .f32⟩ : BufTy).Contents (Elt F) → (⟨S2000000x17, .f32⟩ : BufTy).Contents (Elt F)) _ _ _ rfl (by decide +kernel) (by decide +kernel) (by decide +kernel)
theorem rd_main_v546 : after ops V (Proc.devRef .tc main_v546) = (broadcastInDim S2000000x1 ![0] bcast_S2000000_S2000000x1_0 : (⟨S2000000, .f32⟩ : BufTy).Contents (Elt F) → (⟨S2000000x1, .f32⟩ : BufTy).Contents (Elt F)) (after ops V (Proc.devRef .tc main_v536)) :=
  Writes.unary_at hW V 688 main_v536 main_v546 (broadcastInDim S2000000x1 ![0] bcast_S2000000_S2000000x1_0 : (⟨S2000000, .f32⟩ : BufTy).Contents (Elt F) → (⟨S2000000x1, .f32⟩ : BufTy).Contents (Elt F)) _ _ rfl (by decide +kernel) (by decide +kernel)
theorem rd_main_v547 : after ops V (Proc.devRef .tc main_v547) = (broadcastInDim S2000000x17 ![0, 1] bcast_S2000000x1_S2000000x17_0_1 : (⟨S2000000x1, .f32⟩ : BufTy).Contents (Elt F) → (⟨S2000000x17, .f32⟩ : BufTy).Contents (Elt F)) (after ops V (Proc.devRef .tc main_v546)) :=
  Writes.unary_at hW V 689 main_v546 main_v547 (broadcastInDim S2000000x17 ![0, 1] bcast_S2000000x1_S2000000x17_0_1 : (⟨S2000000x1, .f32⟩ : BufTy).Contents (Elt F) → (⟨S2000000x17, .f32⟩ : BufTy).Contents (Elt F)) _ _ rfl (by decide +kernel) (by decide +kernel)
theorem rd_main_v548 : after ops V (Proc.devRef .tc main_v548) = (Host.divf : (⟨S2000000x17, .f32⟩ : BufTy).Contents (Elt F) → (⟨S2000000x17, .f32⟩ : BufTy).Contents (Elt F) → (⟨S2000000x17, .f32⟩ : BufTy).Contents (Elt F)) (after ops V (Proc.devRef .tc main_v545)) (after ops V (Proc.devRef .tc main_v547)) :=
  binary_at hW V 690 main_v545 main_v547 main_v548 (Host.divf : (⟨S2000000x17, .f32⟩ : BufTy).Contents (Elt F) → (⟨S2000000x17, .f32⟩ : BufTy).Contents (Elt F) → (⟨S2000000x17, .f32⟩ : BufTy).Contents (Elt F)) _ _ _ rfl (by decide +kernel) (by decide +kernel) (by decide +kernel)
theorem rd_main_v549 : after ops V (Proc.devRef .tc main_v549) = (mulf : (⟨S2000000, .f32⟩ : BufTy).Contents (Elt F) → (⟨S2000000, .f32⟩ : BufTy).Contents (Elt F) → (⟨S2000000, .f32⟩ : BufTy).Contents (Elt F)) (after ops V (Proc.devRef .tc main_v536)) (after ops V (Proc.devRef .tc main_arg3)) :=
  binary_at hW V 691 main_v536 main_arg3 main_v549 (mulf : (⟨S2000000, .f32⟩ : BufTy).Contents (Elt F) → (⟨S2000000, .f32⟩ : BufTy).Contents (Elt F) → (⟨S2000000, .f32⟩ : BufTy).Contents (Elt F)) _ _ _ rfl (by decide +kernel) (by decide +kernel) (by decide +kernel)

end Cert.ReferenceIdeal.Line

end
-- ==== Proof.LibLayoutCols.lean ====
/-
  Layout operations of a host program read at one index, for arrays of rank one and two given by coordinates.

  A broadcast, a slice of columns, a reversal of the columns, a concatenation of columns and a gather of whole columns
  each read, at the entry (n, k) of their result, one entry of one operand. The lemmas name that entry by its
  coordinates, so that a value at an index is rewritten operation by operation down to the arrays the program starts from.
-/
import Idealize.ShloMosaic.Lib.Pipeline.Value
import Idealize.ShloMosaic.Lib.ValueIdx

noncomputable section

namespace Cert.RefLayout

open Idealize.ShloMosaic Idealize.ShloMosaic.ValueIdx

variable {α : Type}

/-! ## Broadcasts -/

/-- A scalar broadcast to any shape reads the scalar at every index. -/
theorem bcast0_apply (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A length-N array made the one column of an [N, 1] array: entry (n, 0) is entry n. -/
theorem bcast_col_apply {N : Nat} (h : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h x (ix2 n k) = x (ix1 n) :=
  broadcastInDim_apply _ h x _ (ix1 n) fun a => match a with
    | ⟨0, _⟩ => by
      show n.val = if N = 1 then 0 else n.val
      split
      · have := n.isLt; omega
      · rfl

/-- A length-W array made the one row of a [1, W] array: entry (0, k) is entry k. -/
theorem bcast_row_apply {W : Nat} (h : (⟨1, ![W]⟩ : Shape).BroadcastsInDim ⟨2, ![1, W]⟩ ![1])
    (x : (⟨1, ![W]⟩ : Shape).Idx → α) (n : Fin 1) (k : Fin W) :
    broadcastInDim ⟨2, ![1, W]⟩ ![1] h x (ix2 n k) = x (ix1 k) :=
  broadcastInDim_apply _ h x _ (ix1 k) fun a => match a with
    | ⟨0, _⟩ => by
      show k.val = if W = 1 then 0 else k.val
      split
      · have := k.isLt; omega
      · rfl

/-- A [1, W] array repeated down N rows: entry (n, k) is entry (0, k). -/
theorem bcast_rows_apply {N W : Nat} (h : (⟨2, ![1, W]⟩ : Shape).BroadcastsInDim ⟨2, ![N, W]⟩ ![0, 1])
    (x : (⟨2, ![1, W]⟩ : Shape).Idx → α) (n : Fin N) (k : Fin W) :
    broadcastInDim ⟨2, ![N, W]⟩ ![0, 1] h x (ix2 n k) = x (ix2 0 k) :=
  broadcastInDim_apply _ h x _ (ix2 0 k) fun a => match a with
    | ⟨0, _⟩ => rfl
    | ⟨1, _⟩ => by
      show k.val = if W = 1 then 0 else k.val
      split
      · have := k.isLt; omega
      · rfl

/-- An [N, 1] array repeated across W columns: entry (n, k) is entry (n, 0). -/
theorem bcast_cols_apply {N W : Nat} (h : (⟨2, ![N, 1]⟩ : Shape).BroadcastsInDim ⟨2, ![N, W]⟩ ![0, 1])
    (x : (⟨2, ![N, 1]⟩ : Shape).Idx → α) (n : Fin N) (k : Fin W) :
    broadcastInDim ⟨2, ![N, W]⟩ ![0, 1] h x (ix2 n k) = x (ix2 n 0) :=
  broadcastInDim_apply _ h x _ (ix2 n 0) fun a => match a with
    | ⟨0, _⟩ => by
      show n.val = if N = 1 then 0 else n.val
      split
      · have := n.isLt; omega
      · rfl
    | ⟨1, _⟩ => rfl

/-! ## A slice of columns, and the columns reversed -/

/-- Columns o, …, o + W - 1 of an [N, M] array: entry (n, k) is entry (n, o + k). -/
theorem slice_cols_apply {N M W : Nat} (o : Nat) (h : (⟨2, ![N, M]⟩ : Shape).Slices ![0, o] ⟨2, ![N, W]⟩)
    (x : (⟨2, ![N, M]⟩ : Shape).Idx → α) (n : Fin N) (k : Fin W) (hk : o + k.val < M) :
    extractStridedSlice ⟨2, ![N, W]⟩ ![0, o] x h (ix2 n k) = x (ix2 n ⟨o + k.val, hk⟩) :=
  extractStridedSlice_apply _ x h _ _ fun a => match a with
    | ⟨0, _⟩ => by show n.val = 0 + n.val; omega
    | ⟨1, _⟩ => rfl

/-- The columns of an [N, W] array in the opposite order: entry (n, k) is entry (n, W - 1 - k). -/
theorem reverse_cols_apply {N W : Nat} (x : (⟨2, ![N, W]⟩ : Shape).Idx → α) (n : Fin N) (k : Fin W) :
    Host.reverse (s := ⟨2, ![N, W]⟩) [1] x (ix2 n k) = x (ix2 n k.rev) := by
  unfold Host.reverse
  refine congrArg x (funext fun a => ?_)
  match a with
  | ⟨0, _⟩ => rfl
  | ⟨1, _⟩ => rfl

/-! ## Columns laid side by side -/

/-- W arrays of shape [N, 1] concatenated along the columns: entry (n, k) is entry (n, 0) of the k-th. -/
theorem cat_cols_apply {N W : Nat} (f : Fin W → ((⟨2, ![N, 1]⟩ : Shape).Idx → α))
    (h : Shape.Concatenates ((List.ofFn fun c : Fin W => (⟨⟨2, ![N, 1]⟩, f c⟩ : (s : Shape) × (s.Idx → α))).map (·.1)) ⟨2, ![N, W]⟩ 1)
    (n : Fin N) (k : Fin W) :
    concatenate ⟨2, ![N, W]⟩ 1 (List.ofFn fun c : Fin W => (⟨⟨2, ![N, 1]⟩, f c⟩ : (s : Shape) × (s.Idx → α))) h (ix2 n k)
      = f k (ix2 n 0) :=
  concatenate_ofFn_unit_apply (t := ⟨2, ![N, W]⟩) (s₁ := ⟨2, ![N, 1]⟩) 1 f h rfl rfl (ix2 n k) k rfl (ix2 n 0)
    fun b hb => match b with
      | ⟨0, _⟩ => rfl
      | ⟨1, _⟩ => absurd rfl hb

/-- Two to nine columns side by side, as literal lists: entry (n, k) is entry (n, 0) of the k-th column. -/
theorem cat2_apply {N : Nat} (c0 c1 : (⟨2, ![N, 1]⟩ : Shape).Idx → α) (h) (n : Fin N) (k : Fin 2) :
    concatenate ⟨2, ![N, 2]⟩ 1 [⟨⟨2, ![N, 1]⟩, c0⟩, ⟨⟨2, ![N, 1]⟩, c1⟩] h (ix2 n k) = ![c0, c1] k (ix2 n 0) :=
  cat_cols_apply ![c0, c1] h n k

theorem cat3_apply {N : Nat} (c0 c1 c2 : (⟨2, ![N, 1]⟩ : Shape).Idx → α) (h) (n : Fin N) (k : Fin 3) :
    concatenate ⟨2, ![N, 3]⟩ 1 [⟨⟨2, ![N, 1]⟩, c0⟩, ⟨⟨2, ![N, 1]⟩, c1⟩, ⟨⟨2, ![N, 1]⟩, c2⟩] h (ix2 n k) = ![c0, c1, c2] k (ix2 n 0) :=
  cat_cols_apply ![c0, c1, c2] h n k

theorem cat4_apply {N : Nat} (c0 c1 c2 c3 : (⟨2, ![N, 1]⟩ : Shape).Idx → α) (h) (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k) = ![c0, c1, c2, c3] k (ix2 n 0) :=
  cat_cols_apply ![c0, c1, c2, c3] h n k

theorem cat5_apply {N : Nat} (c0 c1 c2 c3 c4 : (⟨2, ![N, 1]⟩ : Shape).Idx → α) (h) (n : Fin N) (k : Fin 5) :
    concatenate ⟨2, ![N, 5]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩] h (ix2 n k) = ![c0, c1, c2, c3, c4] k (ix2 n 0) :=
  cat_cols_apply ![c0, c1, c2, c3, c4] h n k

theorem cat6_apply {N : Nat} (c0 c1 c2 c3 c4 c5 : (⟨2, ![N, 1]⟩ : Shape).Idx → α) (h) (n : Fin N) (k : Fin 6) :
    concatenate ⟨2, ![N, 6]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩] h (ix2 n k) = ![c0, c1, c2, c3, c4, c5] k (ix2 n 0) :=
  cat_cols_apply ![c0, c1, c2, c3, c4, c5] h n k

theorem cat7_apply {N : Nat} (c0 c1 c2 c3 c4 c5 c6 : (⟨2, ![N, 1]⟩ : Shape).Idx → α) (h) (n : Fin N) (k : Fin 7) :
    concatenate ⟨2, ![N, 7]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩] h (ix2 n k) = ![c0, c1, c2, c3, c4, c5, c6] k (ix2 n 0) :=
  cat_cols_apply ![c0, c1, c2, c3, c4, c5, c6] h n k

theorem cat8_apply {N : Nat} (c0 c1 c2 c3 c4 c5 c6 c7 : (⟨2, ![N, 1]⟩ : Shape).Idx → α) (h) (n : Fin N) (k : Fin 8) :
    concatenate ⟨2, ![N, 8]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩] h (ix2 n k) = ![c0, c1, c2, c3, c4, c5, c6, c7] k (ix2 n 0) :=
  cat_cols_apply ![c0, c1, c2, c3, c4, c5, c6, c7] h n k

theorem cat9_apply {N : Nat} (c0 c1 c2 c3 c4 c5 c6 c7 c8 : (⟨2, ![N, 1]⟩ : Shape).Idx → α) (h) (n : Fin N) (k : Fin 9) :
    concatenate ⟨2, ![N, 9]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩, ⟨⟨2, ![N, 1]⟩, c8⟩] h (ix2 n k) = ![c0, c1, c2, c3, c4, c5, c6, c7, c8] k (ix2 n 0) :=
  cat_cols_apply ![c0, c1, c2, c3, c4, c5, c6, c7, c8] h n k

/-! ## Three blocks of columns side by side -/

/-- The first block of [A | B | C]. -/
theorem cat3blocks_left {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : k.val < a) :
    concatenate ⟨2, ![N, a + b + c]⟩ 1 [⟨⟨2, ![N, a]⟩, xa⟩, ⟨⟨2, ![N, b]⟩, xb⟩, ⟨⟨2, ![N, c]⟩, xc⟩] h (ix2 n k) = xa (ix2 n ⟨k.val, hk⟩) :=
  concatenate_apply_piece 1 _ h (ix2 n k) 0 (by simp) ⟨2, ![N, a]⟩ xa rfl rfl 0 rfl (ix2 n ⟨k.val, hk⟩)
    (fun b hb => match b with
      | ⟨0, _⟩ => rfl
      | ⟨1, _⟩ => absurd rfl hb)
    (by show 0 + k.val = k.val; omega)

/-- The middle block of [A | B | C]. -/
theorem cat3blocks_mid {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a ≤ k.val) (hk' : k.val - a < b) :
    concatenate ⟨2, ![N, a + b + c]⟩ 1 [⟨⟨2, ![N, a]⟩, xa⟩, ⟨⟨2, ![N, b]⟩, xb⟩, ⟨⟨2, ![N, c]⟩, xc⟩] h (ix2 n k) = xb (ix2 n ⟨k.val - a, hk'⟩) :=
  concatenate_apply_piece 1 _ h (ix2 n k) 1 (by simp) ⟨2, ![N, b]⟩ xb rfl rfl a (by simp) (ix2 n ⟨k.val - a, hk'⟩)
    (fun b hb => match b with
      | ⟨0, _⟩ => rfl
      | ⟨1, _⟩ => absurd rfl hb)
    (by show a + (k.val - a) = k.val; omega)

/-- The last block of [A | B | C]. -/
theorem cat3blocks_right {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a + b ≤ k.val) :
    concatenate ⟨2, ![N, a + b + c]⟩ 1 [⟨⟨2, ![N, a]⟩, xa⟩, ⟨⟨2, ![N, b]⟩, xb⟩, ⟨⟨2, ![N, c]⟩, xc⟩] h (ix2 n k)
      = xc (ix2 n ⟨k.val - (a + b), by have := k.isLt; omega⟩) :=
  concatenate_apply_piece 1 _ h (ix2 n k) 2 (by simp) ⟨2, ![N, c]⟩ xc rfl rfl (a + b) (by simp) (ix2 n ⟨k.val - (a + b), by have := k.isLt; omega⟩)
    (fun b hb => match b with
      | ⟨0, _⟩ => rfl
      | ⟨1, _⟩ => absurd rfl hb)
    (by show a + b + (k.val - (a + b)) = k.val; omega)

/-! ## A gather of whole columns -/

/-- The dimension numbers of a gather of whole columns: operand [N, M], start indices [W, 1], result [N, W];
    the one offset axis is the rows, the columns are collapsed and indexed. -/
abbrev colDims (N M W : Nat) (wf : GatherDims.WF ⟨2, ![N, M]⟩ ⟨2, ![W, 1]⟩ ⟨2, ![N, W]⟩ [0] [1] [] [1] [] 1 ![N, 1]) :
    GatherDims ⟨2, ![N, M]⟩ ⟨2, ![W, 1]⟩ ⟨2, ![N, W]⟩ where
  offsetDims := [0]
  collapsedSliceDims := [1]
  operandBatchingDims := []
  startIndicesBatchingDims := []
  startIndexMap := [1]
  indexVectorDim := 1
  sliceSizes := ![N, 1]
  wf := wf

/-- The gather read at (n, k): row n of the operand's column idx[k, 0], the start index read signed and clamped
    into [0, M - 1]. -/
theorem gather_cols_apply {N M W w : Nat} (hM : 0 < M)
    (wf : GatherDims.WF ⟨2, ![N, M]⟩ ⟨2, ![W, 1]⟩ ⟨2, ![N, W]⟩ [0] [1] [] [1] [] 1 ![N, 1])
    (x : (⟨2, ![N, M]⟩ : Shape).Idx → α) (idx : IVec ⟨2, ![W, 1]⟩ w) (n : Fin N) (k : Fin W) :
    Host.gather (colDims N M W wf) x idx (ix2 n k)
      = x (ix2 n ⟨min (idx (ix2 k 0)).toInt.toNat (M - 1), by omega⟩) := by
  unfold Host.gather
  congr 1
  funext a
  refine Fin.ext ?_
  match a with
  | ⟨0, _⟩ =>
    show (colDims N M W wf).start (ix2 n k) idx 0 + (colDims N M W wf).batchCoord (ix2 n k) 0
      + (colDims N M W wf).offCoord (ix2 n k) 0 = n.val
    rw [GatherDims.batchCoord_eq_zero _ _ _ List.not_mem_nil]
    have hs : (colDims N M W wf).start (ix2 n k) idx 0 = 0 := by
      unfold GatherDims.start
      rw [dif_neg (show ¬ (0 : Fin 2) ∈ ([1] : List (Fin 2)) by decide)]
    have ho : (colDims N M W wf).offCoord (ix2 n k) 0 = n.val := by
      unfold GatherDims.offCoord
      rw [dif_pos ((GatherDims.mem_sKept _ _).2 ⟨(show ¬ (0 : Fin 2) ∈ ([1] : List (Fin 2)) by decide), List.not_mem_nil⟩)]
      rfl
    rw [hs, ho]; omega
  | ⟨1, _⟩ =>
    show (colDims N M W wf).start (ix2 n k) idx 1 + (colDims N M W wf).batchCoord (ix2 n k) 1
      + (colDims N M W wf).offCoord (ix2 n k) 1 = min (idx (ix2 k 0)).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M W wf).startIndexMap from List.mem_singleton.mpr rfl)]
    have hsi : (colDims N M W wf).siIdx (ix2 n k) ⟨List.idxOf (1 : Fin 2) (colDims N M W wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The host's quotient at an index -/

/-- On the extended reals the host's quotient of two arrays is, entry by entry, the total quotient of the entries. -/
theorem hostDivf_apply {s : Shape} {φ : FTy} (a b : FVec Ideal s φ) (i : s.Idx) : Host.divf a b i = Ideal.div (a i) (b i) := rfl

/-! ## A table of words read at an index -/

/-- A length-W table given by its entries in row-major order, read at entry k. -/
theorem table_apply (W : Nat) {β : Type} (hW : (⟨1, ![W]⟩ : Shape).numel = W) (T : Fin W → β) (k : Fin W) :
    T (((⟨1, ![W]⟩ : Shape).rowMajor (ix1 k)).cast hW) = T k :=
  congrArg T (Fin.ext (Shape.rowMajor_val_one _))

end Cert.RefLayout

end
-- ==== Proof.RefValTac.lean ====
/-
  The steps of the reference's value proof, each stated once.

  Every array the reference's line leaves is read the same way: rewrite the reference it is written to by the operation that
  writes it, applied to what the line leaves in the operands, and go on through the operands until only arrays already read,
  the arguments and literal constants are left; at an entry, a layout operation is rewritten to the one entry of its operand it
  reads (LibLayoutCols.lean). The tables of this proof name, for each array, column and entry, the operations to read through and
  the literal column; the steps below say what is done with them. Inside a step the names n, k, c, m (an entry's coordinates),
  hc, hm (what is assumed of them) and V (the contents the line starts from) are those of the statement the step closes.
-/
import proofs.«118161_j37666863186375_1_alg».proof.Proof.LibLayoutCols

namespace Cert.ReferenceIdeal.Harm

/-- READ THROUGH: rewrite with the listed equations in order — the operation that writes the array, then the operations
    that write its operands, down to arrays already read, arguments and constants, each layout operation at an entry by
    its lemma —; what is left holds by unfolding the specification's definition. -/
syntax "read_through " "[" Lean.Parser.Tactic.rwRule,* "]" : tactic
macro_rules
  | `(tactic| read_through [$rs,*]) => `(tactic| (rw [$rs,*] <;> rfl))

set_option hygiene false in
/-- ENTRY (n, m) OF COLUMNS SIDE BY SIDE, m a literal: the concatenation reads its m-th column at (n, 0); that column is a
    length-2000000 array made one column; the array is already read. -/
macro "read_column " m:num ", " rdQ:term ", " cat:term ", " col:term ", " rdC:term ", " arr:term : tactic =>
  `(tactic| (
    obtain rfl : c = ⟨$m, by decide⟩ := Fin.ext hc
    rw [$rdQ:term]
    refine ($cat n _).trans ?_
    show after ops V (Proc.devRef .tc $col) (ix2 n 0) = _
    rw [$rdC:term, bcast_col_apply, $arr:term]))

set_option hygiene false in
/-- A COLUMN OF THE FIRST BLOCK of the azimuthal factors [reversed s(8..1) | 2^(-1/2) | c(1..8)], the literal column cc < 8:
    the reversed block at cc, which is the slice at 7 - cc, which is a column of the s array, already read. -/
macro "read_phi_left " cc:num ", " rdPhi:term ", " rev:term ", " rdRev:term ", " rdSl:term ", " off:num ", " scol:term : tactic =>
  `(tactic| (
    obtain rfl : c = ⟨$cc, by decide⟩ := Fin.ext hc
    rw [$rdPhi:term]
    refine (cat3blocks_left (N := 2000000) (a := 8) (b := 1) (c := 8) _ _ _ _ n _ (by decide)).trans ?_
    show after ops V (Proc.devRef .tc $rev) (ix2 n ⟨$cc, by decide⟩) = _
    rw [$rdRev:term, reverse_cols_apply, $rdSl:term]
    refine (slice_cols_apply (N := 2000000) (M := 9) (W := 8) $off _ _ n _ (by decide)).trans ?_
    exact $scol n _ (by decide)))

set_option hygiene false in
/-- THE MIDDLE COLUMN of the azimuthal factors: the one-column block, already read. -/
macro "read_phi_mid " rdPhi:term ", " half:term : tactic =>
  `(tactic| (
    obtain rfl : c = ⟨8, by decide⟩ := Fin.ext hc
    rw [$rdPhi:term]
    refine (cat3blocks_mid (N := 2000000) (a := 8) (b := 1) (c := 8) _ _ _ _ n _ (by decide) (by decide)).trans ?_
    exact $half n _))

set_option hygiene false in
/-- A COLUMN OF THE LAST BLOCK of the azimuthal factors, the literal column cc > 8, cm = cc - 9: the slice of the c array at cm,
    a column of the c array, already read. -/
macro "read_phi_right " cc:num ", " cm:num ", " rdPhi:term ", " sl:term ", " rdSl:term ", " off:num ", " ccol:term : tactic =>
  `(tactic| (
    obtain rfl : c = ⟨$cc, by decide⟩ := Fin.ext hc
    rw [$rdPhi:term]
    refine (cat3blocks_right (N := 2000000) (a := 8) (b := 1) (c := 8) _ _ _ _ n _ (by decide)).trans ?_
    show after ops V (Proc.devRef .tc $sl) (ix2 n ⟨$cm, by decide⟩) = _
    rw [$rdSl:term]
    refine (slice_cols_apply (N := 2000000) (M := 9) (W := 8) $off _ _ n _ (by decide)).trans ?_
    exact $ccol n _ (by decide)))

set_option hygiene false in
/-- THE PREFACTORS AT (n, k): the length-W table of words made one row and repeated down the rows reads the table's k-th word. -/
macro "read_table " rdB:term ", " rdR:term ", " rdC:term ", " W:num ", " lit:term : tactic =>
  `(tactic| (
    rw [$rdB:term, bcast_rows_apply, $rdR:term, bcast_row_apply, $rdC:term]
    exact table_apply $W rfl (fun b => FloatOps.ofBits (F := Ideal) .f32 ($lit b)) k))

set_option hygiene false in
/-- THE START INDICES AT (k, 0): the select on the all-false table keeps the table of orders, whose k-th word it reads. -/
macro "read_index " rdB:term ", " rdS:term ", " rdF:term ", " rdI:term ", " W:num ", " lit:term : tactic =>
  `(tactic| (
    rw [$rdB:term, bcast_col_apply, $rdS:term, select_apply, $rdF:term]
    show Scalar.select 0#1 _ _ = _
    rw [select_zero, $rdI:term]
    exact table_apply $W rfl $lit k))

set_option hygiene false in
/-- THE GATHERED COLUMNS AT (n, k): row n of the column the k-th start index names, clamped; m is that column. -/
macro "read_gather " rdG:term ", " M:num ", " W:num ", " Q:term ", " I:term ", " idx:term : tactic =>
  `(tactic| (
    refine ((congrFun $rdG _).trans (gather_cols_apply (N := 2000000) (M := $M) (W := $W) (by decide) _ _ _ n k)).trans ?_
    refine congrArg (fun c => after ops V (Proc.devRef .tc $Q) (ix2 n c)) (Fin.ext ?_)
    show min (after ops V (Proc.devRef .tc $I) (ix2 k 0)).toInt.toNat ($M - 1) = m.val
    rw [$idx:term]; exact hm.symm))

set_option hygiene false in
/-- COLUMN BY COLUMN: two arrays of shape [2000000, W] are equal when they agree at every entry (n, k); the specification's
    array at (n, k) is its row's k-th value; the columns are finitely many, and each column's entry is the lemma listed for
    it, in order. -/
macro "by_columns " W:num ", " Y:term ", " "[" cells:term,* "]" : tactic =>
  `(tactic| (
    funext j
    obtain ⟨n, k, rfl⟩ : ∃ (n : Fin 2000000) (k : Fin $W), j = ix2 n k := ⟨_, _, eq_ix2 j⟩
    rw [$Y:term]
    fin_cases k
    exacts [$cells,*]))

end Cert.ReferenceIdeal.Harm
-- ==== Proof.RefValPoint.lean ====
/- The reference's arrays over the points, one lemma each: what the line leaves in the array of q(l,m), c(m), s(m) or r^l is that
   function of the coordinates, point by point: the operation that writes it, read through its operands, is the function's defining equation. -/
import proofs.«118161_j37666863186375_1_alg».proof.Proof.RefRead0
import proofs.«118161_j37666863186375_1_alg».proof.Proof.RefRead1
import proofs.«118161_j37666863186375_1_alg».proof.Proof.RefRead2
import proofs.«118161_j37666863186375_1_alg».proof.Proof.RefRead3
import proofs.«118161_j37666863186375_1_alg».proof.Proof.RefRead4
import proofs.«118161_j37666863186375_1_alg».proof.Proof.RefRead5
import proofs.«118161_j37666863186375_1_alg».proof.Proof.RefRead6
import proofs.«118161_j37666863186375_1_alg».proof.Proof.RefRead7
import proofs.«118161_j37666863186375_1_alg».proof.Proof.RefRead8
import proofs.«118161_j37666863186375_1_alg».proof.Proof.RefRead9
import proofs.«118161_j37666863186375_1_alg».proof.Proof.RefRead10
import proofs.«118161_j37666863186375_1_alg».proof.Proof.RefRead11
import proofs.«118161_j37666863186375_1_alg».proof.Proof.Spec
import proofs.«118161_j37666863186375_1_alg».proof.Proof.RefValTac

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem arr_main_v0 : after ops V (Proc.devRef .tc main_v0) = fun i => q_0_0 (V (Proc.devRef .tc main_arg2) i) (V (Proc.devRef .tc main_arg3) i) := by
  read_through [rd_main_v0 V, rd_main_cst_25 V]
theorem arr_main_v2 : after ops V (Proc.devRef .tc main_v2) = fun i => q_1_1 (V (Proc.devRef .tc main_arg2) i) (V (Proc.devRef .tc main_arg3) i) := by
  read_through [rd_main_v2 V, rd_main_v1 V, rd_main_cst_26 V, arr_main_v0 V]
theorem arr_main_v4 : after ops V (Proc.devRef .tc main_v4) = fun i => q_2_2 (V (Proc.devRef .tc main_arg2) i) (V (Proc.devRef .tc main_arg3) i) := by
  read_through [rd_main_v4 V, rd_main_v3 V, rd_main_cst_27 V, arr_main_v2 V]
theorem arr_main_v6 : after ops V (Proc.devRef .tc main_v6) = fun i => q_3_3 (V (Proc.devRef .tc main_arg2) i) (V (Proc.devRef .tc main_arg3) i) := by
  read_through [rd_main_v6 V, rd_main_v5 V, rd_main_cst_28 V, arr_main_v4 V]
theorem arr_main_v8 : after ops V (Proc.devRef .tc main_v8) = fun i => q_4_4 (V (Proc.devRef .tc main_arg2) i) (V (Proc.devRef .tc main_arg3) i) := by
  read_through [rd_main_v8 V, rd_main_v7 V, rd_main_cst_29 V, arr_main_v6 V]
theorem arr_main_v10 : after ops V (Proc.devRef .tc main_v10) = fun i => q_5_5 (V (Proc.devRef .tc main_arg2) i) (V (Proc.devRef .tc main_arg3) i) := by
  read_through [rd_main_v10 V, rd_main_v9 V, rd_main_cst_30 V, arr_main_v8 V]
theorem arr_main_v12 : after ops V (Proc.devRef .tc main_v12) = fun i => q_6_6 (V (Proc.devRef .tc main_arg2) i) (V (Proc.devRef .tc main_arg3) i) := by
  read_through [rd_main_v12 V, rd_main_v11 V, rd_main_cst_31 V, arr_main_v10 V]
theorem arr_main_v14 : after ops V (Proc.devRef .tc main_v14) = fun i => q_7_7 (V (Proc.devRef .tc main_arg2) i) (V (Proc.devRef .tc main_arg3) i) := by
  read_through [rd_main_v14 V, rd_main_v13 V, rd_main_cst_32 V, arr_main_v12 V]
theorem arr_main_v16 : after ops V (Proc.devRef .tc main_v16) = fun i => q_8_8 (V (Proc.devRef .tc main_arg2) i) (V (Proc.devRef .tc main_arg3) i) := by
  read_through [rd_main_v16 V, rd_main_v15 V, rd_main_cst_33 V, arr_main_v14 V]
theorem arr_main_v19 : after ops V (Proc.devRef .tc main_v19) = fun i => q_1_0 (V (Proc.devRef .tc main_arg2) i) (V (Proc.devRef .tc main_arg3) i) := by
  read_through [rd_main_v19 V, rd_main_v18 V, rd_main_v17 V, rd_main_cst_34 V, arr_main_v0 V, rd_main_arg2 V]
theorem arr_main_v22 : after ops V (Proc.devRef .tc main_v22) = fun i => q_2_1 (V (Proc.devRef .tc main_arg2) i) (V (Proc.devRef .tc main_arg3) i) := by
  read_through [rd_main_v22 V, rd_main_v21 V, rd_main_v20 V, rd_main_cst_35 V, arr_main_v2 V, rd_main_arg2 V]
theorem arr_main_v25 : after ops V (Proc.devRef .tc main_v25) = fun i => q_3_2 (V (Proc.devRef .tc main_arg2) i) (V (Proc.devRef .tc main_arg3) i) := by
  read_through [rd_main_v25 V, rd_main_v24 V, rd_main_v23 V, rd_main_cst_36 V, arr_main_v4 V, rd_main_arg2 V]
theorem arr_main_v28 : after ops V (Proc.devRef .tc main_v28) = fun i => q_4_3 (V (Proc.devRef .tc main_arg2) i) (V (Proc.devRef .tc main_arg3) i) := by
  read_through [rd_main_v28 V, rd_main_v27 V, rd_main_v26 V, rd_main_cst_37 V, arr_main_v6 V, rd_main_arg2 V]
theorem arr_main_v31 : after ops V (Proc.devRef .tc main_v31) = fun i => q_5_4 (V (Proc.devRef .tc main_arg2) i) (V (Proc.devRef .tc main_arg3) i) := by
  read_through [rd_main_v31 V, rd_main_v30 V, rd_main_v29 V, rd_main_cst_38 V, arr_main_v8 V, rd_main_arg2 V]
theorem arr_main_v34 : after ops V (Proc.devRef .tc main_v34) = fun i => q_6_5 (V (Proc.devRef .tc main_arg2) i) (V (Proc.devRef .tc main_arg3) i) := by
  read_through [rd_main_v34 V, rd_main_v33 V, rd_main_v32 V, rd_main_cst_39 V, arr_main_v10 V, rd_main_arg2 V]
theorem arr_main_v37 : after ops V (Proc.devRef .tc main_v37) = fun i => q_7_6 (V (Proc.devRef .tc main_arg2) i) (V (Proc.devRef .tc main_arg3) i) := by
  read_through [rd_main_v37 V, rd_main_v36 V, rd_main_v35 V, rd_main_cst_40 V, arr_main_v12 V, rd_main_arg2 V]
theorem arr_main_v40 : after ops V (Proc.devRef .tc main_v40) = fun i => q_8_7 (V (Proc.devRef .tc main_arg2) i) (V (Proc.devRef .tc main_arg3) i) := by
  read_through [rd_main_v40 V, rd_main_v39 V, rd_main_v38 V, rd_main_cst_41 V, arr_main_v14 V, rd_main_arg2 V]
theorem arr_main_v50 : after ops V (Proc.devRef .tc main_v50) = fun i => q_2_0 (V (Proc.devRef .tc main_arg2) i) (V (Proc.devRef .tc main_arg3) i) := by
  read_through [rd_main_v50 V, rd_main_v49 V, rd_main_cst_44 V, rd_main_v48 V, rd_main_v47 V, rd_main_v46 V, rd_main_v45 V, rd_main_cst_43 V, rd_main_v44 V, rd_main_v43 V, rd_main_v42 V, rd_main_cst_42 V, rd_main_v41 V, arr_main_v19 V, arr_main_v0 V, rd_main_arg2 V, rd_main_arg3 V]
theorem arr_main_v59 : after ops V (Proc.devRef .tc main_v59) = fun i => q_3_0 (V (Proc.devRef .tc main_arg2) i) (V (Proc.devRef .tc main_arg3) i) := by
  read_through [rd_main_v59 V, rd_main_v58 V, rd_main_cst_47 V, rd_main_v57 V, rd_main_v56 V, rd_main_v55 V, rd_main_v54 V, rd_main_cst_46 V, rd_main_v53 V, rd_main_v52 V, rd_main_v51 V, rd_main_cst_45 V, arr_main_v50 V, rd_main_v41 V, arr_main_v19 V, rd_main_arg2 V, rd_main_arg3 V]
theorem arr_main_v68 : after ops V (Proc.devRef .tc main_v68) = fun i => q_4_0 (V (Proc.devRef .tc main_arg2) i) (V (Proc.devRef .tc main_arg3) i) := by
  read_through [rd_main_v68 V, rd_main_v67 V, rd_main_cst_50 V, rd_main_v66 V, rd_main_v65 V, rd_main_v64 V, rd_main_v63 V, rd_main_cst_49 V, rd_main_v62 V, rd_main_v61 V, rd_main_v60 V, rd_main_cst_48 V, arr_main_v59 V, arr_main_v50 V, rd_main_v41 V, rd_main_arg2 V, rd_main_arg3 V]
theorem arr_main_v77 : after ops V (Proc.devRef .tc main_v77) = fun i => q_5_0 (V (Proc.devRef .tc main_arg2) i) (V (Proc.devRef .tc main_arg3) i) := by
  read_through [rd_main_v77 V, rd_main_v76 V, rd_main_cst_53 V, rd_main_v75 V, rd_main_v74 V, rd_main_v73 V, rd_main_v72 V, rd_main_cst_52 V, rd_main_v71 V, rd_main_v70 V, rd_main_v69 V, rd_main_cst_51 V, arr_main_v68 V, arr_main_v59 V, rd_main_v41 V, rd_main_arg2 V, rd_main_arg3 V]
theorem arr_main_v86 : after ops V (Proc.devRef .tc main_v86) = fun i => q_6_0 (V (Proc.devRef .tc main_arg2) i) (V (Proc.devRef .tc main_arg3) i) := by
  read_through [rd_main_v86 V, rd_main_v85 V, rd_main_cst_56 V, rd_main_v84 V, rd_main_v83 V, rd_main_v82 V, rd_main_v81 V, rd_main_cst_55 V, rd_main_v80 V, rd_main_v79 V, rd_main_v78 V, rd_main_cst_54 V, arr_main_v77 V, arr_main_v68 V, rd_main_v41 V, rd_main_arg2 V, rd_main_arg3 V]
theorem arr_main_v95 : after ops V (Proc.devRef .tc main_v95) = fun i => q_7_0 (V (Proc.devRef .tc main_arg2) i) (V (Proc.devRef .tc main_arg3) i) := by
  read_through [rd_main_v95 V, rd_main_v94 V, rd_main_cst_59 V, rd_main_v93 V, rd_main_v92 V, rd_main_v91 V, rd_main_v90 V, rd_main_cst_58 V, rd_main_v89 V, rd_main_v88 V, rd_main_v87 V, rd_main_cst_57 V, arr_main_v86 V, arr_main_v77 V, rd_main_v41 V, rd_main_arg2 V, rd_main_arg3 V]
theorem arr_main_v104 : after ops V (Proc.devRef .tc main_v104) = fun i => q_8_0 (V (Proc.devRef .tc main_arg2) i) (V (Proc.devRef .tc main_arg3) i) := by
  read_through [rd_main_v104 V, rd_main_v103 V, rd_main_cst_62 V, rd_main_v102 V, rd_main_v101 V, rd_main_v100 V, rd_main_v99 V, rd_main_cst_61 V, rd_main_v98 V, rd_main_v97 V, rd_main_v96 V, rd_main_cst_60 V, arr_main_v95 V, arr_main_v86 V, rd_main_v41 V, rd_main_arg2 V, rd_main_arg3 V]
theorem arr_main_v113 : after ops V (Proc.devRef .tc main_v113) = fun i => q_3_1 (V (Proc.devRef .tc main_arg2) i) (V (Proc.devRef .tc main_arg3) i) := by
  read_through [rd_main_v113 V, rd_main_v112 V, rd_main_cst_65 V, rd_main_v111 V, rd_main_v110 V, rd_main_v109 V, rd_main_v108 V, rd_main_cst_64 V, rd_main_v107 V, rd_main_v106 V, rd_main_v105 V, rd_main_cst_63 V, rd_main_v41 V, arr_main_v22 V, arr_main_v2 V, rd_main_arg2 V, rd_main_arg3 V]
theorem arr_main_v122 : after ops V (Proc.devRef .tc main_v122) = fun i => q_4_1 (V (Proc.devRef .tc main_arg2) i) (V (Proc.devRef .tc main_arg3) i) := by
  read_through [rd_main_v122 V, rd_main_v121 V, rd_main_cst_68 V, rd_main_v120 V, rd_main_v119 V, rd_main_v118 V, rd_main_v117 V, rd_main_cst_67 V, rd_main_v116 V, rd_main_v115 V, rd_main_v114 V, rd_main_cst_66 V, arr_main_v113 V, rd_main_v41 V, arr_main_v22 V, rd_main_arg2 V, rd_main_arg3 V]
theorem arr_main_v131 : after ops V (Proc.devRef .tc main_v131) = fun i => q_5_1 (V (Proc.devRef .tc main_arg2) i) (V (Proc.devRef .tc main_arg3) i) := by
  read_through [rd_main_v131 V, rd_main_v130 V, rd_main_cst_71 V, rd_main_v129 V, rd_main_v128 V, rd_main_v127 V, rd_main_v126 V, rd_main_cst_70 V, rd_main_v125 V, rd_main_v124 V, rd_main_v123 V, rd_main_cst_69 V, arr_main_v122 V, arr_main_v113 V, rd_main_v41 V, rd_main_arg2 V, rd_main_arg3 V]
theorem arr_main_v140 : after ops V (Proc.devRef .tc main_v140) = fun i => q_6_1 (V (Proc.devRef .tc main_arg2) i) (V (Proc.devRef .tc main_arg3) i) := by
  read_through [rd_main_v140 V, rd_main_v139 V, rd_main_cst_74 V, rd_main_v138 V, rd_main_v137 V, rd_main_v136 V, rd_main_v135 V, rd_main_cst_73 V, rd_main_v134 V, rd_main_v133 V, rd_main_v132 V, rd_main_cst_72 V, arr_main_v131 V, arr_main_v122 V, rd_main_v41 V, rd_main_arg2 V, rd_main_arg3 V]
theorem arr_main_v149 : after ops V (Proc.devRef .tc main_v149) = fun i => q_7_1 (V (Proc.devRef .tc main_arg2) i) (V (Proc.devRef .tc main_arg3) i) := by
  read_through [rd_main_v149 V, rd_main_v148 V, rd_main_cst_77 V, rd_main_v147 V, rd_main_v146 V, rd_main_v145 V, rd_main_v144 V, rd_main_cst_76 V, rd_main_v143 V, rd_main_v142 V, rd_main_v141 V, rd_main_cst_75 V, arr_main_v140 V, arr_main_v131 V, rd_main_v41 V, rd_main_arg2 V, rd_main_arg3 V]
theorem arr_main_v158 : after ops V (Proc.devRef .tc main_v158) = fun i => q_8_1 (V (Proc.devRef .tc main_arg2) i) (V (Proc.devRef .tc main_arg3) i) := by
  read_through [rd_main_v158 V, rd_main_v157 V, rd_main_cst_80 V, rd_main_v156 V, rd_main_v155 V, rd_main_v154 V, rd_main_v153 V, rd_main_cst_79 V, rd_main_v152 V, rd_main_v151 V, rd_main_v150 V, rd_main_cst_78 V, arr_main_v149 V, arr_main_v140 V, rd_main_v41 V, rd_main_arg2 V, rd_main_arg3 V]
theorem arr_main_v167 : after ops V (Proc.devRef .tc main_v167) = fun i => q_4_2 (V (Proc.devRef .tc main_arg2) i) (V (Proc.devRef .tc main_arg3) i) := by
  read_through [rd_main_v167 V, rd_main_v166 V, rd_main_cst_83 V, rd_main_v165 V, rd_main_v164 V, rd_main_v163 V, rd_main_v162 V, rd_main_cst_82 V, rd_main_v161 V, rd_main_v160 V, rd_main_v159 V, rd_main_cst_81 V, rd_main_v41 V, arr_main_v25 V, arr_main_v4 V, rd_main_arg2 V, rd_main_arg3 V]
theorem arr_main_v176 : after ops V (Proc.devRef .tc main_v176) = fun i => q_5_2 (V (Proc.devRef .tc main_arg2) i) (V (Proc.devRef .tc main_arg3) i) := by
  read_through [rd_main_v176 V, rd_main_v175 V, rd_main_cst_86 V, rd_main_v174 V, rd_main_v173 V, rd_main_v172 V, rd_main_v171 V, rd_main_cst_85 V, rd_main_v170 V, rd_main_v169 V, rd_main_v168 V, rd_main_cst_84 V, arr_main_v167 V, rd_main_v41 V, arr_main_v25 V, rd_main_arg2 V, rd_main_arg3 V]
theorem arr_main_v185 : after ops V (Proc.devRef .tc main_v185) = fun i => q_6_2 (V (Proc.devRef .tc main_arg2) i) (V (Proc.devRef .tc main_arg3) i) := by
  read_through [rd_main_v185 V, rd_main_v184 V, rd_main_cst_89 V, rd_main_v183 V, rd_main_v182 V, rd_main_v181 V, rd_main_v180 V, rd_main_cst_88 V, rd_main_v179 V, rd_main_v178 V, rd_main_v177 V, rd_main_cst_87 V, arr_main_v176 V, arr_main_v167 V, rd_main_v41 V, rd_main_arg2 V, rd_main_arg3 V]
theorem arr_main_v194 : after ops V (Proc.devRef .tc main_v194) = fun i => q_7_2 (V (Proc.devRef .tc main_arg2) i) (V (Proc.devRef .tc main_arg3) i) := by
  read_through [rd_main_v194 V, rd_main_v193 V, rd_main_cst_92 V, rd_main_v192 V, rd_main_v191 V, rd_main_v190 V, rd_main_v189 V, rd_main_cst_91 V, rd_main_v188 V, rd_main_v187 V, rd_main_v186 V, rd_main_cst_90 V, arr_main_v185 V, arr_main_v176 V, rd_main_v41 V, rd_main_arg2 V, rd_main_arg3 V]
theorem arr_main_v203 : after ops V (Proc.devRef .tc main_v203) = fun i => q_8_2 (V (Proc.devRef .tc main_arg2) i) (V (Proc.devRef .tc main_arg3) i) := by
  read_through [rd_main_v203 V, rd_main_v202 V, rd_main_cst_95 V, rd_main_v201 V, rd_main_v200 V, rd_main_v199 V, rd_main_v198 V, rd_main_cst_94 V, rd_main_v197 V, rd_main_v196 V, rd_main_v195 V, rd_main_cst_93 V, arr_main_v194 V, arr_main_v185 V, rd_main_v41 V, rd_main_arg2 V, rd_main_arg3 V]
theorem arr_main_v212 : after ops V (Proc.devRef .tc main_v212) = fun i => q_5_3 (V (Proc.devRef .tc main_arg2) i) (V (Proc.devRef .tc main_arg3) i) := by
  read_through [rd_main_v212 V, rd_main_v211 V, rd_main_cst_98 V, rd_main_v210 V, rd_main_v209 V, rd_main_v208 V, rd_main_v207 V, rd_main_cst_97 V, rd_main_v206 V, rd_main_v205 V, rd_main_v204 V, rd_main_cst_96 V, rd_main_v41 V, arr_main_v28 V, arr_main_v6 V, rd_main_arg2 V, rd_main_arg3 V]
theorem arr_main_v221 : after ops V (Proc.devRef .tc main_v221) = fun i => q_6_3 (V (Proc.devRef .tc main_arg2) i) (V (Proc.devRef .tc main_arg3) i) := by
  read_through [rd_main_v221 V, rd_main_v220 V, rd_main_cst_101 V, rd_main_v219 V, rd_main_v218 V, rd_main_v217 V, rd_main_v216 V, rd_main_cst_100 V, rd_main_v215 V, rd_main_v214 V, rd_main_v213 V, rd_main_cst_99 V, arr_main_v212 V, rd_main_v41 V, arr_main_v28 V, rd_main_arg2 V, rd_main_arg3 V]
theorem arr_main_v230 : after ops V (Proc.devRef .tc main_v230) = fun i => q_7_3 (V (Proc.devRef .tc main_arg2) i) (V (Proc.devRef .tc main_arg3) i) := by
  read_through [rd_main_v230 V, rd_main_v229 V, rd_main_cst_104 V, rd_main_v228 V, rd_main_v227 V, rd_main_v226 V, rd_main_v225 V, rd_main_cst_103 V, rd_main_v224 V, rd_main_v223 V, rd_main_v222 V, rd_main_cst_102 V, arr_main_v221 V, arr_main_v212 V, rd_main_v41 V, rd_main_arg2 V, rd_main_arg3 V]
theorem arr_main_v239 : after ops V (Proc.devRef .tc main_v239) = fun i => q_8_3 (V (Proc.devRef .tc main_arg2) i) (V (Proc.devRef .tc main_arg3) i) := by
  read_through [rd_main_v239 V, rd_main_v238 V, rd_main_cst_107 V, rd_main_v237 V, rd_main_v236 V, rd_main_v235 V, rd_main_v234 V, rd_main_cst_106 V, rd_main_v233 V, rd_main_v232 V, rd_main_v231 V, rd_main_cst_105 V, arr_main_v230 V, arr_main_v221 V, rd_main_v41 V, rd_main_arg2 V, rd_main_arg3 V]
theorem arr_main_v248 : after ops V (Proc.devRef .tc main_v248) = fun i => q_6_4 (V (Proc.devRef .tc main_arg2) i) (V (Proc.devRef .tc main_arg3) i) := by
  read_through [rd_main_v248 V, rd_main_v247 V, rd_main_cst_110 V, rd_main_v246 V, rd_main_v245 V, rd_main_v244 V, rd_main_v243 V, rd_main_cst_109 V, rd_main_v242 V, rd_main_v241 V, rd_main_v240 V, rd_main_cst_108 V, rd_main_v41 V, arr_main_v31 V, arr_main_v8 V, rd_main_arg2 V, rd_main_arg3 V]
theorem arr_main_v257 : after ops V (Proc.devRef .tc main_v257) = fun i => q_7_4 (V (Proc.devRef .tc main_arg2) i) (V (Proc.devRef .tc main_arg3) i) := by
  read_through [rd_main_v257 V, rd_main_v256 V, rd_main_cst_113 V, rd_main_v255 V, rd_main_v254 V, rd_main_v253 V, rd_main_v252 V, rd_main_cst_112 V, rd_main_v251 V, rd_main_v250 V, rd_main_v249 V, rd_main_cst_111 V, arr_main_v248 V, rd_main_v41 V, arr_main_v31 V, rd_main_arg2 V, rd_main_arg3 V]
theorem arr_main_v266 : after ops V (Proc.devRef .tc main_v266) = fun i => q_8_4 (V (Proc.devRef .tc main_arg2) i) (V (Proc.devRef .tc main_arg3) i) := by
  read_through [rd_main_v266 V, rd_main_v265 V, rd_main_cst_116 V, rd_main_v264 V, rd_main_v263 V, rd_main_v262 V, rd_main_v261 V, rd_main_cst_115 V, rd_main_v260 V, rd_main_v259 V, rd_main_v258 V, rd_main_cst_114 V, arr_main_v257 V, arr_main_v248 V, rd_main_v41 V, rd_main_arg2 V, rd_main_arg3 V]
theorem arr_main_v275 : after ops V (Proc.devRef .tc main_v275) = fun i => q_7_5 (V (Proc.devRef .tc main_arg2) i) (V (Proc.devRef .tc main_arg3) i) := by
  read_through [rd_main_v275 V, rd_main_v274 V, rd_main_cst_119 V, rd_main_v273 V, rd_main_v272 V, rd_main_v271 V, rd_main_v270 V, rd_main_cst_118 V, rd_main_v269 V, rd_main_v268 V, rd_main_v267 V, rd_main_cst_117 V, rd_main_v41 V, arr_main_v34 V, arr_main_v10 V, rd_main_arg2 V, rd_main_arg3 V]
theorem arr_main_v284 : after ops V (Proc.devRef .tc main_v284) = fun i => q_8_5 (V (Proc.devRef .tc main_arg2) i) (V (Proc.devRef .tc main_arg3) i) := by
  read_through [rd_main_v284 V, rd_main_v283 V, rd_main_cst_122 V, rd_main_v282 V, rd_main_v281 V, rd_main_v280 V, rd_main_v279 V, rd_main_cst_121 V, rd_main_v278 V, rd_main_v277 V, rd_main_v276 V, rd_main_cst_120 V, arr_main_v275 V, rd_main_v41 V, arr_main_v34 V, rd_main_arg2 V, rd_main_arg3 V]
theorem arr_main_v293 : after ops V (Proc.devRef .tc main_v293) = fun i => q_8_6 (V (Proc.devRef .tc main_arg2) i) (V (Proc.devRef .tc main_arg3) i) := by
  read_through [rd_main_v293 V, rd_main_v292 V, rd_main_cst_125 V, rd_main_v291 V, rd_main_v290 V, rd_main_v289 V, rd_main_v288 V, rd_main_cst_124 V, rd_main_v287 V, rd_main_v286 V, rd_main_v285 V, rd_main_cst_123 V, rd_main_v41 V, arr_main_v37 V, arr_main_v12 V, rd_main_arg2 V, rd_main_arg3 V]
theorem arr_main_v347 : after ops V (Proc.devRef .tc main_v347) = fun i => c_0 (V (Proc.devRef .tc main_arg0) i) (V (Proc.devRef .tc main_arg1) i) := by
  read_through [rd_main_v347 V, rd_main_cst_126 V]
theorem arr_main_v348 : after ops V (Proc.devRef .tc main_v348) = fun i => s_0 (V (Proc.devRef .tc main_arg0) i) (V (Proc.devRef .tc main_arg1) i) := by
  read_through [rd_main_v348 V, rd_main_cst_127 V]
theorem arr_main_v351 : after ops V (Proc.devRef .tc main_v351) = fun i => c_1 (V (Proc.devRef .tc main_arg0) i) (V (Proc.devRef .tc main_arg1) i) := by
  read_through [rd_main_v351 V, rd_main_v350 V, rd_main_v349 V, arr_main_v348 V, arr_main_v347 V, rd_main_arg0 V, rd_main_arg1 V]
theorem arr_main_v354 : after ops V (Proc.devRef .tc main_v354) = fun i => s_1 (V (Proc.devRef .tc main_arg0) i) (V (Proc.devRef .tc main_arg1) i) := by
  read_through [rd_main_v354 V, rd_main_v353 V, rd_main_v352 V, arr_main_v348 V, arr_main_v347 V, rd_main_arg0 V, rd_main_arg1 V]
theorem arr_main_v357 : after ops V (Proc.devRef .tc main_v357) = fun i => c_2 (V (Proc.devRef .tc main_arg0) i) (V (Proc.devRef .tc main_arg1) i) := by
  read_through [rd_main_v357 V, rd_main_v356 V, rd_main_v355 V, arr_main_v354 V, arr_main_v351 V, rd_main_arg0 V, rd_main_arg1 V]
theorem arr_main_v360 : after ops V (Proc.devRef .tc main_v360) = fun i => s_2 (V (Proc.devRef .tc main_arg0) i) (V (Proc.devRef .tc main_arg1) i) := by
  read_through [rd_main_v360 V, rd_main_v359 V, rd_main_v358 V, arr_main_v354 V, arr_main_v351 V, rd_main_arg0 V, rd_main_arg1 V]
theorem arr_main_v363 : after ops V (Proc.devRef .tc main_v363) = fun i => c_3 (V (Proc.devRef .tc main_arg0) i) (V (Proc.devRef .tc main_arg1) i) := by
  read_through [rd_main_v363 V, rd_main_v362 V, rd_main_v361 V, arr_main_v360 V, arr_main_v357 V, rd_main_arg0 V, rd_main_arg1 V]
theorem arr_main_v366 : after ops V (Proc.devRef .tc main_v366) = fun i => s_3 (V (Proc.devRef .tc main_arg0) i) (V (Proc.devRef .tc main_arg1) i) := by
  read_through [rd_main_v366 V, rd_main_v365 V, rd_main_v364 V, arr_main_v360 V, arr_main_v357 V, rd_main_arg0 V, rd_main_arg1 V]
theorem arr_main_v369 : after ops V (Proc.devRef .tc main_v369) = fun i => c_4 (V (Proc.devRef .tc main_arg0) i) (V (Proc.devRef .tc main_arg1) i) := by
  read_through [rd_main_v369 V, rd_main_v368 V, rd_main_v367 V, arr_main_v366 V, arr_main_v363 V, rd_main_arg0 V, rd_main_arg1 V]
theorem arr_main_v372 : after ops V (Proc.devRef .tc main_v372) = fun i => s_4 (V (Proc.devRef .tc main_arg0) i) (V (Proc.devRef .tc main_arg1) i) := by
  read_through [rd_main_v372 V, rd_main_v371 V, rd_main_v370 V, arr_main_v366 V, arr_main_v363 V, rd_main_arg0 V, rd_main_arg1 V]
theorem arr_main_v375 : after ops V (Proc.devRef .tc main_v375) = fun i => c_5 (V (Proc.devRef .tc main_arg0) i) (V (Proc.devRef .tc main_arg1) i) := by
  read_through [rd_main_v375 V, rd_main_v374 V, rd_main_v373 V, arr_main_v372 V, arr_main_v369 V, rd_main_arg0 V, rd_main_arg1 V]
theorem arr_main_v378 : after ops V (Proc.devRef .tc main_v378) = fun i => s_5 (V (Proc.devRef .tc main_arg0) i) (V (Proc.devRef .tc main_arg1) i) := by
  read_through [rd_main_v378 V, rd_main_v377 V, rd_main_v376 V, arr_main_v372 V, arr_main_v369 V, rd_main_arg0 V, rd_main_arg1 V]
theorem arr_main_v381 : after ops V (Proc.devRef .tc main_v381) = fun i => c_6 (V (Proc.devRef .tc main_arg0) i) (V (Proc.devRef .tc main_arg1) i) := by
  read_through [rd_main_v381 V, rd_main_v380 V, rd_main_v379 V, arr_main_v378 V, arr_main_v375 V, rd_main_arg0 V, rd_main_arg1 V]
theorem arr_main_v384 : after ops V (Proc.devRef .tc main_v384) = fun i => s_6 (V (Proc.devRef .tc main_arg0) i) (V (Proc.devRef .tc main_arg1) i) := by
  read_through [rd_main_v384 V, rd_main_v383 V, rd_main_v382 V, arr_main_v378 V, arr_main_v375 V, rd_main_arg0 V, rd_main_arg1 V]
theorem arr_main_v387 : after ops V (Proc.devRef .tc main_v387) = fun i => c_7 (V (Proc.devRef .tc main_arg0) i) (V (Proc.devRef .tc main_arg1) i) := by
  read_through [rd_main_v387 V, rd_main_v386 V, rd_main_v385 V, arr_main_v384 V, arr_main_v381 V, rd_main_arg0 V, rd_main_arg1 V]
theorem arr_main_v390 : after ops V (Proc.devRef .tc main_v390) = fun i => s_7 (V (Proc.devRef .tc main_arg0) i) (V (Proc.devRef .tc main_arg1) i) := by
  read_through [rd_main_v390 V, rd_main_v389 V, rd_main_v388 V, arr_main_v384 V, arr_main_v381 V, rd_main_arg0 V, rd_main_arg1 V]
theorem arr_main_v393 : after ops V (Proc.devRef .tc main_v393) = fun i => c_8 (V (Proc.devRef .tc main_arg0) i) (V (Proc.devRef .tc main_arg1) i) := by
  read_through [rd_main_v393 V, rd_main_v392 V, rd_main_v391 V, arr_main_v390 V, arr_main_v387 V, rd_main_arg0 V, rd_main_arg1 V]
theorem arr_main_v396 : after ops V (Proc.devRef .tc main_v396) = fun i => s_8 (V (Proc.devRef .tc main_arg0) i) (V (Proc.devRef .tc main_arg1) i) := by
  read_through [rd_main_v396 V, rd_main_v395 V, rd_main_v394 V, arr_main_v390 V, arr_main_v387 V, rd_main_arg0 V, rd_main_arg1 V]
theorem arr_main_v425 : after ops V (Proc.devRef .tc main_v425) = fun i => p_0 (V (Proc.devRef .tc main_arg3) i) := by
  read_through [rd_main_v425 V, rd_main_cst_130 V]
theorem arr_main_v438 : after ops V (Proc.devRef .tc main_v438) = fun i => p_1 (V (Proc.devRef .tc main_arg3) i) := by
  read_through [rd_main_v438 V, arr_main_v425 V, rd_main_arg3 V]
theorem arr_main_v452 : after ops V (Proc.devRef .tc main_v452) = fun i => p_2 (V (Proc.devRef .tc main_arg3) i) := by
  read_through [rd_main_v452 V, arr_main_v438 V, rd_main_arg3 V]
theorem arr_main_v466 : after ops V (Proc.devRef .tc main_v466) = fun i => p_3 (V (Proc.devRef .tc main_arg3) i) := by
  read_through [rd_main_v466 V, arr_main_v452 V, rd_main_arg3 V]
theorem arr_main_v480 : after ops V (Proc.devRef .tc main_v480) = fun i => p_4 (V (Proc.devRef .tc main_arg3) i) := by
  read_through [rd_main_v480 V, arr_main_v466 V, rd_main_arg3 V]
theorem arr_main_v494 : after ops V (Proc.devRef .tc main_v494) = fun i => p_5 (V (Proc.devRef .tc main_arg3) i) := by
  read_through [rd_main_v494 V, arr_main_v480 V, rd_main_arg3 V]
theorem arr_main_v508 : after ops V (Proc.devRef .tc main_v508) = fun i => p_6 (V (Proc.devRef .tc main_arg3) i) := by
  read_through [rd_main_v508 V, arr_main_v494 V, rd_main_arg3 V]
theorem arr_main_v522 : after ops V (Proc.devRef .tc main_v522) = fun i => p_7 (V (Proc.devRef .tc main_arg3) i) := by
  read_through [rd_main_v522 V, arr_main_v508 V, rd_main_arg3 V]
theorem arr_main_v536 : after ops V (Proc.devRef .tc main_v536) = fun i => p_8 (V (Proc.devRef .tc main_arg3) i) := by
  read_through [rd_main_v536 V, arr_main_v522 V, rd_main_arg3 V]

end Cert.ReferenceIdeal.Harm

end
-- ==== Proof.RefValColsQ.lean ====
/- The reference's arrays of the q(l,·), one lemma per column: entry (n, m) of degree l's array is q(l,m) at point n's coordinates. -/
import proofs.«118161_j37666863186375_1_alg».proof.Proof.RefValPoint

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem qcol_0_0 (n : Fin 2000000) (c : Fin 1) :
    after ops V (Proc.devRef .tc main_v294) (ix2 n c) = q_0_0 (V (Proc.devRef .tc main_arg2) (ix1 n)) (V (Proc.devRef .tc main_arg3) (ix1 n)) := by
  read_through [rd_main_v294 V, bcast_col_apply, arr_main_v0 V]
theorem qcol_1_0 (n : Fin 2000000) (c : Fin 2) (hc : c.val = 0) :
    after ops V (Proc.devRef .tc main_v297) (ix2 n c) = q_1_0 (V (Proc.devRef .tc main_arg2) (ix1 n)) (V (Proc.devRef .tc main_arg3) (ix1 n)) := by
  read_column 0, rd_main_v297 V, cat2_apply _ _ _, main_v295, rd_main_v295 V, arr_main_v19 V
theorem qcol_1_1 (n : Fin 2000000) (c : Fin 2) (hc : c.val = 1) :
    after ops V (Proc.devRef .tc main_v297) (ix2 n c) = q_1_1 (V (Proc.devRef .tc main_arg2) (ix1 n)) (V (Proc.devRef .tc main_arg3) (ix1 n)) := by
  read_column 1, rd_main_v297 V, cat2_apply _ _ _, main_v296, rd_main_v296 V, arr_main_v2 V
theorem qcol_2_0 (n : Fin 2000000) (c : Fin 3) (hc : c.val = 0) :
    after ops V (Proc.devRef .tc main_v301) (ix2 n c) = q_2_0 (V (Proc.devRef .tc main_arg2) (ix1 n)) (V (Proc.devRef .tc main_arg3) (ix1 n)) := by
  read_column 0, rd_main_v301 V, cat3_apply _ _ _ _, main_v298, rd_main_v298 V, arr_main_v50 V
theorem qcol_2_1 (n : Fin 2000000) (c : Fin 3) (hc : c.val = 1) :
    after ops V (Proc.devRef .tc main_v301) (ix2 n c) = q_2_1 (V (Proc.devRef .tc main_arg2) (ix1 n)) (V (Proc.devRef .tc main_arg3) (ix1 n)) := by
  read_column 1, rd_main_v301 V, cat3_apply _ _ _ _, main_v299, rd_main_v299 V, arr_main_v22 V
theorem qcol_2_2 (n : Fin 2000000) (c : Fin 3) (hc : c.val = 2) :
    after ops V (Proc.devRef .tc main_v301) (ix2 n c) = q_2_2 (V (Proc.devRef .tc main_arg2) (ix1 n)) (V (Proc.devRef .tc main_arg3) (ix1 n)) := by
  read_column 2, rd_main_v301 V, cat3_apply _ _ _ _, main_v300, rd_main_v300 V, arr_main_v4 V
theorem qcol_3_0 (n : Fin 2000000) (c : Fin 4) (hc : c.val = 0) :
    after ops V (Proc.devRef .tc main_v306) (ix2 n c) = q_3_0 (V (Proc.devRef .tc main_arg2) (ix1 n)) (V (Proc.devRef .tc main_arg3) (ix1 n)) := by
  read_column 0, rd_main_v306 V, cat4_apply _ _ _ _ _, main_v302, rd_main_v302 V, arr_main_v59 V
theorem qcol_3_1 (n : Fin 2000000) (c : Fin 4) (hc : c.val = 1) :
    after ops V (Proc.devRef .tc main_v306) (ix2 n c) = q_3_1 (V (Proc.devRef .tc main_arg2) (ix1 n)) (V (Proc.devRef .tc main_arg3) (ix1 n)) := by
  read_column 1, rd_main_v306 V, cat4_apply _ _ _ _ _, main_v303, rd_main_v303 V, arr_main_v113 V
theorem qcol_3_2 (n : Fin 2000000) (c : Fin 4) (hc : c.val = 2) :
    after ops V (Proc.devRef .tc main_v306) (ix2 n c) = q_3_2 (V (Proc.devRef .tc main_arg2) (ix1 n)) (V (Proc.devRef .tc main_arg3) (ix1 n)) := by
  read_column 2, rd_main_v306 V, cat4_apply _ _ _ _ _, main_v304, rd_main_v304 V, arr_main_v25 V
theorem qcol_3_3 (n : Fin 2000000) (c : Fin 4) (hc : c.val = 3) :
    after ops V (Proc.devRef .tc main_v306) (ix2 n c) = q_3_3 (V (Proc.devRef .tc main_arg2) (ix1 n)) (V (Proc.devRef .tc main_arg3) (ix1 n)) := by
  read_column 3, rd_main_v306 V, cat4_apply _ _ _ _ _, main_v305, rd_main_v305 V, arr_main_v6 V
theorem qcol_4_0 (n : Fin 2000000) (c : Fin 5) (hc : c.val = 0) :
    after ops V (Proc.devRef .tc main_v312) (ix2 n c) = q_4_0 (V (Proc.devRef .tc main_arg2) (ix1 n)) (V (Proc.devRef .tc main_arg3) (ix1 n)) := by
  read_column 0, rd_main_v312 V, cat5_apply _ _ _ _ _ _, main_v307, rd_main_v307 V, arr_main_v68 V
theorem qcol_4_1 (n : Fin 2000000) (c : Fin 5) (hc : c.val = 1) :
    after ops V (Proc.devRef .tc main_v312) (ix2 n c) = q_4_1 (V (Proc.devRef .tc main_arg2) (ix1 n)) (V (Proc.devRef .tc main_arg3) (ix1 n)) := by
  read_column 1, rd_main_v312 V, cat5_apply _ _ _ _ _ _, main_v308, rd_main_v308 V, arr_main_v122 V
theorem qcol_4_2 (n : Fin 2000000) (c : Fin 5) (hc : c.val = 2) :
    after ops V (Proc.devRef .tc main_v312) (ix2 n c) = q_4_2 (V (Proc.devRef .tc main_arg2) (ix1 n)) (V (Proc.devRef .tc main_arg3) (ix1 n)) := by
  read_column 2, rd_main_v312 V, cat5_apply _ _ _ _ _ _, main_v309, rd_main_v309 V, arr_main_v167 V
theorem qcol_4_3 (n : Fin 2000000) (c : Fin 5) (hc : c.val = 3) :
    after ops V (Proc.devRef .tc main_v312) (ix2 n c) = q_4_3 (V (Proc.devRef .tc main_arg2) (ix1 n)) (V (Proc.devRef .tc main_arg3) (ix1 n)) := by
  read_column 3, rd_main_v312 V, cat5_apply _ _ _ _ _ _, main_v310, rd_main_v310 V, arr_main_v28 V
theorem qcol_4_4 (n : Fin 2000000) (c : Fin 5) (hc : c.val = 4) :
    after ops V (Proc.devRef .tc main_v312) (ix2 n c) = q_4_4 (V (Proc.devRef .tc main_arg2) (ix1 n)) (V (Proc.devRef .tc main_arg3) (ix1 n)) := by
  read_column 4, rd_main_v312 V, cat5_apply _ _ _ _ _ _, main_v311, rd_main_v311 V, arr_main_v8 V
theorem qcol_5_0 (n : Fin 2000000) (c : Fin 6) (hc : c.val = 0) :
    after ops V (Proc.devRef .tc main_v319) (ix2 n c) = q_5_0 (V (Proc.devRef .tc main_arg2) (ix1 n)) (V (Proc.devRef .tc main_arg3) (ix1 n)) := by
  read_column 0, rd_main_v319 V, cat6_apply _ _ _ _ _ _ _, main_v313, rd_main_v313 V, arr_main_v77 V
theorem qcol_5_1 (n : Fin 2000000) (c : Fin 6) (hc : c.val = 1) :
    after ops V (Proc.devRef .tc main_v319) (ix2 n c) = q_5_1 (V (Proc.devRef .tc main_arg2) (ix1 n)) (V (Proc.devRef .tc main_arg3) (ix1 n)) := by
  read_column 1, rd_main_v319 V, cat6_apply _ _ _ _ _ _ _, main_v314, rd_main_v314 V, arr_main_v131 V
theorem qcol_5_2 (n : Fin 2000000) (c : Fin 6) (hc : c.val = 2) :
    after ops V (Proc.devRef .tc main_v319) (ix2 n c) = q_5_2 (V (Proc.devRef .tc main_arg2) (ix1 n)) (V (Proc.devRef .tc main_arg3) (ix1 n)) := by
  read_column 2, rd_main_v319 V, cat6_apply _ _ _ _ _ _ _, main_v315, rd_main_v315 V, arr_main_v176 V
theorem qcol_5_3 (n : Fin 2000000) (c : Fin 6) (hc : c.val = 3) :
    after ops V (Proc.devRef .tc main_v319) (ix2 n c) = q_5_3 (V (Proc.devRef .tc main_arg2) (ix1 n)) (V (Proc.devRef .tc main_arg3) (ix1 n)) := by
  read_column 3, rd_main_v319 V, cat6_apply _ _ _ _ _ _ _, main_v316, rd_main_v316 V, arr_main_v212 V
theorem qcol_5_4 (n : Fin 2000000) (c : Fin 6) (hc : c.val = 4) :
    after ops V (Proc.devRef .tc main_v319) (ix2 n c) = q_5_4 (V (Proc.devRef .tc main_arg2) (ix1 n)) (V (Proc.devRef .tc main_arg3) (ix1 n)) := by
  read_column 4, rd_main_v319 V, cat6_apply _ _ _ _ _ _ _, main_v317, rd_main_v317 V, arr_main_v31 V
theorem qcol_5_5 (n : Fin 2000000) (c : Fin 6) (hc : c.val = 5) :
    after ops V (Proc.devRef .tc main_v319) (ix2 n c) = q_5_5 (V (Proc.devRef .tc main_arg2) (ix1 n)) (V (Proc.devRef .tc main_arg3) (ix1 n)) := by
  read_column 5, rd_main_v319 V, cat6_apply _ _ _ _ _ _ _, main_v318, rd_main_v318 V, arr_main_v10 V
theorem qcol_6_0 (n : Fin 2000000) (c : Fin 7) (hc : c.val = 0) :
    after ops V (Proc.devRef .tc main_v327) (ix2 n c) = q_6_0 (V (Proc.devRef .tc main_arg2) (ix1 n)) (V (Proc.devRef .tc main_arg3) (ix1 n)) := by
  read_column 0, rd_main_v327 V, cat7_apply _ _ _ _ _ _ _ _, main_v320, rd_main_v320 V, arr_main_v86 V
theorem qcol_6_1 (n : Fin 2000000) (c : Fin 7) (hc : c.val = 1) :
    after ops V (Proc.devRef .tc main_v327) (ix2 n c) = q_6_1 (V (Proc.devRef .tc main_arg2) (ix1 n)) (V (Proc.devRef .tc main_arg3) (ix1 n)) := by
  read_column 1, rd_main_v327 V, cat7_apply _ _ _ _ _ _ _ _, main_v321, rd_main_v321 V, arr_main_v140 V
theorem qcol_6_2 (n : Fin 2000000) (c : Fin 7) (hc : c.val = 2) :
    after ops V (Proc.devRef .tc main_v327) (ix2 n c) = q_6_2 (V (Proc.devRef .tc main_arg2) (ix1 n)) (V (Proc.devRef .tc main_arg3) (ix1 n)) := by
  read_column 2, rd_main_v327 V, cat7_apply _ _ _ _ _ _ _ _, main_v322, rd_main_v322 V, arr_main_v185 V
theorem qcol_6_3 (n : Fin 2000000) (c : Fin 7) (hc : c.val = 3) :
    after ops V (Proc.devRef .tc main_v327) (ix2 n c) = q_6_3 (V (Proc.devRef .tc main_arg2) (ix1 n)) (V (Proc.devRef .tc main_arg3) (ix1 n)) := by
  read_column 3, rd_main_v327 V, cat7_apply _ _ _ _ _ _ _ _, main_v323, rd_main_v323 V, arr_main_v221 V
theorem qcol_6_4 (n : Fin 2000000) (c : Fin 7) (hc : c.val = 4) :
    after ops V (Proc.devRef .tc main_v327) (ix2 n c) = q_6_4 (V (Proc.devRef .tc main_arg2) (ix1 n)) (V (Proc.devRef .tc main_arg3) (ix1 n)) := by
  read_column 4, rd_main_v327 V, cat7_apply _ _ _ _ _ _ _ _, main_v324, rd_main_v324 V, arr_main_v248 V
theorem qcol_6_5 (n : Fin 2000000) (c : Fin 7) (hc : c.val = 5) :
    after ops V (Proc.devRef .tc main_v327) (ix2 n c) = q_6_5 (V (Proc.devRef .tc main_arg2) (ix1 n)) (V (Proc.devRef .tc main_arg3) (ix1 n)) := by
  read_column 5, rd_main_v327 V, cat7_apply _ _ _ _ _ _ _ _, main_v325, rd_main_v325 V, arr_main_v34 V
theorem qcol_6_6 (n : Fin 2000000) (c : Fin 7) (hc : c.val = 6) :
    after ops V (Proc.devRef .tc main_v327) (ix2 n c) = q_6_6 (V (Proc.devRef .tc main_arg2) (ix1 n)) (V (Proc.devRef .tc main_arg3) (ix1 n)) := by
  read_column 6, rd_main_v327 V, cat7_apply _ _ _ _ _ _ _ _, main_v326, rd_main_v326 V, arr_main_v12 V
theorem qcol_7_0 (n : Fin 2000000) (c : Fin 8) (hc : c.val = 0) :
    after ops V (Proc.devRef .tc main_v336) (ix2 n c) = q_7_0 (V (Proc.devRef .tc main_arg2) (ix1 n)) (V (Proc.devRef .tc main_arg3) (ix1 n)) := by
  read_column 0, rd_main_v336 V, cat8_apply _ _ _ _ _ _ _ _ _, main_v328, rd_main_v328 V, arr_main_v95 V
theorem qcol_7_1 (n : Fin 2000000) (c : Fin 8) (hc : c.val = 1) :
    after ops V (Proc.devRef .tc main_v336) (ix2 n c) = q_7_1 (V (Proc.devRef .tc main_arg2) (ix1 n)) (V (Proc.devRef .tc main_arg3) (ix1 n)) := by
  read_column 1, rd_main_v336 V, cat8_apply _ _ _ _ _ _ _ _ _, main_v329, rd_main_v329 V, arr_main_v149 V
theorem qcol_7_2 (n : Fin 2000000) (c : Fin 8) (hc : c.val = 2) :
    after ops V (Proc.devRef .tc main_v336) (ix2 n c) = q_7_2 (V (Proc.devRef .tc main_arg2) (ix1 n)) (V (Proc.devRef .tc main_arg3) (ix1 n)) := by
  read_column 2, rd_main_v336 V, cat8_apply _ _ _ _ _ _ _ _ _, main_v330, rd_main_v330 V, arr_main_v194 V
theorem qcol_7_3 (n : Fin 2000000) (c : Fin 8) (hc : c.val = 3) :
    after ops V (Proc.devRef .tc main_v336) (ix2 n c) = q_7_3 (V (Proc.devRef .tc main_arg2) (ix1 n)) (V (Proc.devRef .tc main_arg3) (ix1 n)) := by
  read_column 3, rd_main_v336 V, cat8_apply _ _ _ _ _ _ _ _ _, main_v331, rd_main_v331 V, arr_main_v230 V
theorem qcol_7_4 (n : Fin 2000000) (c : Fin 8) (hc : c.val = 4) :
    after ops V (Proc.devRef .tc main_v336) (ix2 n c) = q_7_4 (V (Proc.devRef .tc main_arg2) (ix1 n)) (V (Proc.devRef .tc main_arg3) (ix1 n)) := by
  read_column 4, rd_main_v336 V, cat8_apply _ _ _ _ _ _ _ _ _, main_v332, rd_main_v332 V, arr_main_v257 V
theorem qcol_7_5 (n : Fin 2000000) (c : Fin 8) (hc : c.val = 5) :
    after ops V (Proc.devRef .tc main_v336) (ix2 n c) = q_7_5 (V (Proc.devRef .tc main_arg2) (ix1 n)) (V (Proc.devRef .tc main_arg3) (ix1 n)) := by
  read_column 5, rd_main_v336 V, cat8_apply _ _ _ _ _ _ _ _ _, main_v333, rd_main_v333 V, arr_main_v275 V
theorem qcol_7_6 (n : Fin 2000000) (c : Fin 8) (hc : c.val = 6) :
    after ops V (Proc.devRef .tc main_v336) (ix2 n c) = q_7_6 (V (Proc.devRef .tc main_arg2) (ix1 n)) (V (Proc.devRef .tc main_arg3) (ix1 n)) := by
  read_column 6, rd_main_v336 V, cat8_apply _ _ _ _ _ _ _ _ _, main_v334, rd_main_v334 V, arr_main_v37 V
theorem qcol_7_7 (n : Fin 2000000) (c : Fin 8) (hc : c.val = 7) :
    after ops V (Proc.devRef .tc main_v336) (ix2 n c) = q_7_7 (V (Proc.devRef .tc main_arg2) (ix1 n)) (V (Proc.devRef .tc main_arg3) (ix1 n)) := by
  read_column 7, rd_main_v336 V, cat8_apply _ _ _ _ _ _ _ _ _, main_v335, rd_main_v335 V, arr_main_v14 V
theorem qcol_8_0 (n : Fin 2000000) (c : Fin 9) (hc : c.val = 0) :
    after ops V (Proc.devRef .tc main_v346) (ix2 n c) = q_8_0 (V (Proc.devRef .tc main_arg2) (ix1 n)) (V (Proc.devRef .tc main_arg3) (ix1 n)) := by
  read_column 0, rd_main_v346 V, cat9_apply _ _ _ _ _ _ _ _ _ _, main_v337, rd_main_v337 V, arr_main_v104 V
theorem qcol_8_1 (n : Fin 2000000) (c : Fin 9) (hc : c.val = 1) :
    after ops V (Proc.devRef .tc main_v346) (ix2 n c) = q_8_1 (V (Proc.devRef .tc main_arg2) (ix1 n)) (V (Proc.devRef .tc main_arg3) (ix1 n)) := by
  read_column 1, rd_main_v346 V, cat9_apply _ _ _ _ _ _ _ _ _ _, main_v338, rd_main_v338 V, arr_main_v158 V
theorem qcol_8_2 (n : Fin 2000000) (c : Fin 9) (hc : c.val = 2) :
    after ops V (Proc.devRef .tc main_v346) (ix2 n c) = q_8_2 (V (Proc.devRef .tc main_arg2) (ix1 n)) (V (Proc.devRef .tc main_arg3) (ix1 n)) := by
  read_column 2, rd_main_v346 V, cat9_apply _ _ _ _ _ _ _ _ _ _, main_v339, rd_main_v339 V, arr_main_v203 V
theorem qcol_8_3 (n : Fin 2000000) (c : Fin 9) (hc : c.val = 3) :
    after ops V (Proc.devRef .tc main_v346) (ix2 n c) = q_8_3 (V (Proc.devRef .tc main_arg2) (ix1 n)) (V (Proc.devRef .tc main_arg3) (ix1 n)) := by
  read_column 3, rd_main_v346 V, cat9_apply _ _ _ _ _ _ _ _ _ _, main_v340, rd_main_v340 V, arr_main_v239 V
theorem qcol_8_4 (n : Fin 2000000) (c : Fin 9) (hc : c.val = 4) :
    after ops V (Proc.devRef .tc main_v346) (ix2 n c) = q_8_4 (V (Proc.devRef .tc main_arg2) (ix1 n)) (V (Proc.devRef .tc main_arg3) (ix1 n)) := by
  read_column 4, rd_main_v346 V, cat9_apply _ _ _ _ _ _ _ _ _ _, main_v341, rd_main_v341 V, arr_main_v266 V
theorem qcol_8_5 (n : Fin 2000000) (c : Fin 9) (hc : c.val = 5) :
    after ops V (Proc.devRef .tc main_v346) (ix2 n c) = q_8_5 (V (Proc.devRef .tc main_arg2) (ix1 n)) (V (Proc.devRef .tc main_arg3) (ix1 n)) := by
  read_column 5, rd_main_v346 V, cat9_apply _ _ _ _ _ _ _ _ _ _, main_v342, rd_main_v342 V, arr_main_v284 V
theorem qcol_8_6 (n : Fin 2000000) (c : Fin 9) (hc : c.val = 6) :
    after ops V (Proc.devRef .tc main_v346) (ix2 n c) = q_8_6 (V (Proc.devRef .tc main_arg2) (ix1 n)) (V (Proc.devRef .tc main_arg3) (ix1 n)) := by
  read_column 6, rd_main_v346 V, cat9_apply _ _ _ _ _ _ _ _ _ _, main_v343, rd_main_v343 V, arr_main_v293 V
theorem qcol_8_7 (n : Fin 2000000) (c : Fin 9) (hc : c.val = 7) :
    after ops V (Proc.devRef .tc main_v346) (ix2 n c) = q_8_7 (V (Proc.devRef .tc main_arg2) (ix1 n)) (V (Proc.devRef .tc main_arg3) (ix1 n)) := by
  read_column 7, rd_main_v346 V, cat9_apply _ _ _ _ _ _ _ _ _ _, main_v344, rd_main_v344 V, arr_main_v40 V
theorem qcol_8_8 (n : Fin 2000000) (c : Fin 9) (hc : c.val = 8) :
    after ops V (Proc.devRef .tc main_v346) (ix2 n c) = q_8_8 (V (Proc.devRef .tc main_arg2) (ix1 n)) (V (Proc.devRef .tc main_arg3) (ix1 n)) := by
  read_column 8, rd_main_v346 V, cat9_apply _ _ _ _ _ _ _ _ _ _, main_v345, rd_main_v345 V, arr_main_v16 V

end Cert.ReferenceIdeal.Harm

end
-- ==== Proof.RefValColsP.lean ====
/- The reference's arrays of the c(·), of the s(·) and of the azimuthal factors φ, one lemma per column: entry (n, m) is the column's
   function at point n's coordinates. -/
import proofs.«118161_j37666863186375_1_alg».proof.Proof.RefValPoint

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem ccol_0 (n : Fin 2000000) (c : Fin 9) (hc : c.val = 0) :
    after ops V (Proc.devRef .tc main_v406) (ix2 n c) = c_0 (V (Proc.devRef .tc main_arg0) (ix1 n)) (V (Proc.devRef .tc main_arg1) (ix1 n)) := by
  read_column 0, rd_main_v406 V, cat9_apply _ _ _ _ _ _ _ _ _ _, main_v397, rd_main_v397 V, arr_main_v347 V
theorem ccol_1 (n : Fin 2000000) (c : Fin 9) (hc : c.val = 1) :
    after ops V (Proc.devRef .tc main_v406) (ix2 n c) = c_1 (V (Proc.devRef .tc main_arg0) (ix1 n)) (V (Proc.devRef .tc main_arg1) (ix1 n)) := by
  read_column 1, rd_main_v406 V, cat9_apply _ _ _ _ _ _ _ _ _ _, main_v398, rd_main_v398 V, arr_main_v351 V
theorem ccol_2 (n : Fin 2000000) (c : Fin 9) (hc : c.val = 2) :
    after ops V (Proc.devRef .tc main_v406) (ix2 n c) = c_2 (V (Proc.devRef .tc main_arg0) (ix1 n)) (V (Proc.devRef .tc main_arg1) (ix1 n)) := by
  read_column 2, rd_main_v406 V, cat9_apply _ _ _ _ _ _ _ _ _ _, main_v399, rd_main_v399 V, arr_main_v357 V
theorem ccol_3 (n : Fin 2000000) (c : Fin 9) (hc : c.val = 3) :
    after ops V (Proc.devRef .tc main_v406) (ix2 n c) = c_3 (V (Proc.devRef .tc main_arg0) (ix1 n)) (V (Proc.devRef .tc main_arg1) (ix1 n)) := by
  read_column 3, rd_main_v406 V, cat9_apply _ _ _ _ _ _ _ _ _ _, main_v400, rd_main_v400 V, arr_main_v363 V
theorem ccol_4 (n : Fin 2000000) (c : Fin 9) (hc : c.val = 4) :
    after ops V (Proc.devRef .tc main_v406) (ix2 n c) = c_4 (V (Proc.devRef .tc main_arg0) (ix1 n)) (V (Proc.devRef .tc main_arg1) (ix1 n)) := by
  read_column 4, rd_main_v406 V, cat9_apply _ _ _ _ _ _ _ _ _ _, main_v401, rd_main_v401 V, arr_main_v369 V
theorem ccol_5 (n : Fin 2000000) (c : Fin 9) (hc : c.val = 5) :
    after ops V (Proc.devRef .tc main_v406) (ix2 n c) = c_5 (V (Proc.devRef .tc main_arg0) (ix1 n)) (V (Proc.devRef .tc main_arg1) (ix1 n)) := by
  read_column 5, rd_main_v406 V, cat9_apply _ _ _ _ _ _ _ _ _ _, main_v402, rd_main_v402 V, arr_main_v375 V
theorem ccol_6 (n : Fin 2000000) (c : Fin 9) (hc : c.val = 6) :
    after ops V (Proc.devRef .tc main_v406) (ix2 n c) = c_6 (V (Proc.devRef .tc main_arg0) (ix1 n)) (V (Proc.devRef .tc main_arg1) (ix1 n)) := by
  read_column 6, rd_main_v406 V, cat9_apply _ _ _ _ _ _ _ _ _ _, main_v403, rd_main_v403 V, arr_main_v381 V
theorem ccol_7 (n : Fin 2000000) (c : Fin 9) (hc : c.val = 7) :
    after ops V (Proc.devRef .tc main_v406) (ix2 n c) = c_7 (V (Proc.devRef .tc main_arg0) (ix1 n)) (V (Proc.devRef .tc main_arg1) (ix1 n)) := by
  read_column 7, rd_main_v406 V, cat9_apply _ _ _ _ _ _ _ _ _ _, main_v404, rd_main_v404 V, arr_main_v387 V
theorem ccol_8 (n : Fin 2000000) (c : Fin 9) (hc : c.val = 8) :
    after ops V (Proc.devRef .tc main_v406) (ix2 n c) = c_8 (V (Proc.devRef .tc main_arg0) (ix1 n)) (V (Proc.devRef .tc main_arg1) (ix1 n)) := by
  read_column 8, rd_main_v406 V, cat9_apply _ _ _ _ _ _ _ _ _ _, main_v405, rd_main_v405 V, arr_main_v393 V
theorem scol_0 (n : Fin 2000000) (c : Fin 9) (hc : c.val = 0) :
    after ops V (Proc.devRef .tc main_v416) (ix2 n c) = s_0 (V (Proc.devRef .tc main_arg0) (ix1 n)) (V (Proc.devRef .tc main_arg1) (ix1 n)) := by
  read_column 0, rd_main_v416 V, cat9_apply _ _ _ _ _ _ _ _ _ _, main_v407, rd_main_v407 V, arr_main_v348 V
theorem scol_1 (n : Fin 2000000) (c : Fin 9) (hc : c.val = 1) :
    after ops V (Proc.devRef .tc main_v416) (ix2 n c) = s_1 (V (Proc.devRef .tc main_arg0) (ix1 n)) (V (Proc.devRef .tc main_arg1) (ix1 n)) := by
  read_column 1, rd_main_v416 V, cat9_apply _ _ _ _ _ _ _ _ _ _, main_v408, rd_main_v408 V, arr_main_v354 V
theorem scol_2 (n : Fin 2000000) (c : Fin 9) (hc : c.val = 2) :
    after ops V (Proc.devRef .tc main_v416) (ix2 n c) = s_2 (V (Proc.devRef .tc main_arg0) (ix1 n)) (V (Proc.devRef .tc main_arg1) (ix1 n)) := by
  read_column 2, rd_main_v416 V, cat9_apply _ _ _ _ _ _ _ _ _ _, main_v409, rd_main_v409 V, arr_main_v360 V
theorem scol_3 (n : Fin 2000000) (c : Fin 9) (hc : c.val = 3) :
    after ops V (Proc.devRef .tc main_v416) (ix2 n c) = s_3 (V (Proc.devRef .tc main_arg0) (ix1 n)) (V (Proc.devRef .tc main_arg1) (ix1 n)) := by
  read_column 3, rd_main_v416 V, cat9_apply _ _ _ _ _ _ _ _ _ _, main_v410, rd_main_v410 V, arr_main_v366 V
theorem scol_4 (n : Fin 2000000) (c : Fin 9) (hc : c.val = 4) :
    after ops V (Proc.devRef .tc main_v416) (ix2 n c) = s_4 (V (Proc.devRef .tc main_arg0) (ix1 n)) (V (Proc.devRef .tc main_arg1) (ix1 n)) := by
  read_column 4, rd_main_v416 V, cat9_apply _ _ _ _ _ _ _ _ _ _, main_v411, rd_main_v411 V, arr_main_v372 V
theorem scol_5 (n : Fin 2000000) (c : Fin 9) (hc : c.val = 5) :
    after ops V (Proc.devRef .tc main_v416) (ix2 n c) = s_5 (V (Proc.devRef .tc main_arg0) (ix1 n)) (V (Proc.devRef .tc main_arg1) (ix1 n)) := by
  read_column 5, rd_main_v416 V, cat9_apply _ _ _ _ _ _ _ _ _ _, main_v412, rd_main_v412 V, arr_main_v378 V
theorem scol_6 (n : Fin 2000000) (c : Fin 9) (hc : c.val = 6) :
    after ops V (Proc.devRef .tc main_v416) (ix2 n c) = s_6 (V (Proc.devRef .tc main_arg0) (ix1 n)) (V (Proc.devRef .tc main_arg1) (ix1 n)) := by
  read_column 6, rd_main_v416 V, cat9_apply _ _ _ _ _ _ _ _ _ _, main_v413, rd_main_v413 V, arr_main_v384 V
theorem scol_7 (n : Fin 2000000) (c : Fin 9) (hc : c.val = 7) :
    after ops V (Proc.devRef .tc main_v416) (ix2 n c) = s_7 (V (Proc.devRef .tc main_arg0) (ix1 n)) (V (Proc.devRef .tc main_arg1) (ix1 n)) := by
  read_column 7, rd_main_v416 V, cat9_apply _ _ _ _ _ _ _ _ _ _, main_v414, rd_main_v414 V, arr_main_v390 V
theorem scol_8 (n : Fin 2000000) (c : Fin 9) (hc : c.val = 8) :
    after ops V (Proc.devRef .tc main_v416) (ix2 n c) = s_8 (V (Proc.devRef .tc main_arg0) (ix1 n)) (V (Proc.devRef .tc main_arg1) (ix1 n)) := by
  read_column 8, rd_main_v416 V, cat9_apply _ _ _ _ _ _ _ _ _ _, main_v415, rd_main_v415 V, arr_main_v396 V
theorem half_apply (n : Fin 2000000) (k : Fin 1) :
    after ops V (Proc.devRef .tc main_v422) (ix2 n k) = half (V (Proc.devRef .tc main_arg0) (ix1 n)) (V (Proc.devRef .tc main_arg1) (ix1 n)) := by
  read_through [rd_main_v422 V, mulf_apply, rd_main_v421 V, bcast0_apply, rd_main_cst_129 V, rd_main_v420 V, bcast_col_apply, rd_main_v419 V, bcast0_apply, rd_main_cst_128 V]
theorem phicol_0 (n : Fin 2000000) (c : Fin 17) (hc : c.val = 0) :
    after ops V (Proc.devRef .tc main_v424) (ix2 n c) = s_8 (V (Proc.devRef .tc main_arg0) (ix1 n)) (V (Proc.devRef .tc main_arg1) (ix1 n)) := by
  read_phi_left 0, rd_main_v424 V, main_v418, rd_main_v418 V, rd_main_v417 V, 1, scol_8 V
theorem phicol_1 (n : Fin 2000000) (c : Fin 17) (hc : c.val = 1) :
    after ops V (Proc.devRef .tc main_v424) (ix2 n c) = s_7 (V (Proc.devRef .tc main_arg0) (ix1 n)) (V (Proc.devRef .tc main_arg1) (ix1 n)) := by
  read_phi_left 1, rd_main_v424 V, main_v418, rd_main_v418 V, rd_main_v417 V, 1, scol_7 V
theorem phicol_2 (n : Fin 2000000) (c : Fin 17) (hc : c.val = 2) :
    after ops V (Proc.devRef .tc main_v424) (ix2 n c) = s_6 (V (Proc.devRef .tc main_arg0) (ix1 n)) (V (Proc.devRef .tc main_arg1) (ix1 n)) := by
  read_phi_left 2, rd_main_v424 V, main_v418, rd_main_v418 V, rd_main_v417 V, 1, scol_6 V
theorem phicol_3 (n : Fin 2000000) (c : Fin 17) (hc : c.val = 3) :
    after ops V (Proc.devRef .tc main_v424) (ix2 n c) = s_5 (V (Proc.devRef .tc main_arg0) (ix1 n)) (V (Proc.devRef .tc main_arg1) (ix1 n)) := by
  read_phi_left 3, rd_main_v424 V, main_v418, rd_main_v418 V, rd_main_v417 V, 1, scol_5 V
theorem phicol_4 (n : Fin 2000000) (c : Fin 17) (hc : c.val = 4) :
    after ops V (Proc.devRef .tc main_v424) (ix2 n c) = s_4 (V (Proc.devRef .tc main_arg0) (ix1 n)) (V (Proc.devRef .tc main_arg1) (ix1 n)) := by
  read_phi_left 4, rd_main_v424 V, main_v418, rd_main_v418 V, rd_main_v417 V, 1, scol_4 V
theorem phicol_5 (n : Fin 2000000) (c : Fin 17) (hc : c.val = 5) :
    after ops V (Proc.devRef .tc main_v424) (ix2 n c) = s_3 (V (Proc.devRef .tc main_arg0) (ix1 n)) (V (Proc.devRef .tc main_arg1) (ix1 n)) := by
  read_phi_left 5, rd_main_v424 V, main_v418, rd_main_v418 V, rd_main_v417 V, 1, scol_3 V
theorem phicol_6 (n : Fin 2000000) (c : Fin 17) (hc : c.val = 6) :
    after ops V (Proc.devRef .tc main_v424) (ix2 n c) = s_2 (V (Proc.devRef .tc main_arg0) (ix1 n)) (V (Proc.devRef .tc main_arg1) (ix1 n)) := by
  read_phi_left 6, rd_main_v424 V, main_v418, rd_main_v418 V, rd_main_v417 V, 1, scol_2 V
theorem phicol_7 (n : Fin 2000000) (c : Fin 17) (hc : c.val = 7) :
    after ops V (Proc.devRef .tc main_v424) (ix2 n c) = s_1 (V (Proc.devRef .tc main_arg0) (ix1 n)) (V (Proc.devRef .tc main_arg1) (ix1 n)) := by
  read_phi_left 7, rd_main_v424 V, main_v418, rd_main_v418 V, rd_main_v417 V, 1, scol_1 V
theorem phicol_8 (n : Fin 2000000) (c : Fin 17) (hc : c.val = 8) :
    after ops V (Proc.devRef .tc main_v424) (ix2 n c) = half (V (Proc.devRef .tc main_arg0) (ix1 n)) (V (Proc.devRef .tc main_arg1) (ix1 n)) := by
  read_phi_mid rd_main_v424 V, half_apply V
theorem phicol_9 (n : Fin 2000000) (c : Fin 17) (hc : c.val = 9) :
    after ops V (Proc.devRef .tc main_v424) (ix2 n c) = c_1 (V (Proc.devRef .tc main_arg0) (ix1 n)) (V (Proc.devRef .tc main_arg1) (ix1 n)) := by
  read_phi_right 9, 0, rd_main_v424 V, main_v423, rd_main_v423 V, 1, ccol_1 V
theorem phicol_10 (n : Fin 2000000) (c : Fin 17) (hc : c.val = 10) :
    after ops V (Proc.devRef .tc main_v424) (ix2 n c) = c_2 (V (Proc.devRef .tc main_arg0) (ix1 n)) (V (Proc.devRef .tc main_arg1) (ix1 n)) := by
  read_phi_right 10, 1, rd_main_v424 V, main_v423, rd_main_v423 V, 1, ccol_2 V
theorem phicol_11 (n : Fin 2000000) (c : Fin 17) (hc : c.val = 11) :
    after ops V (Proc.devRef .tc main_v424) (ix2 n c) = c_3 (V (Proc.devRef .tc main_arg0) (ix1 n)) (V (Proc.devRef .tc main_arg1) (ix1 n)) := by
  read_phi_right 11, 2, rd_main_v424 V, main_v423, rd_main_v423 V, 1, ccol_3 V
theorem phicol_12 (n : Fin 2000000) (c : Fin 17) (hc : c.val = 12) :
    after ops V (Proc.devRef .tc main_v424) (ix2 n c) = c_4 (V (Proc.devRef .tc main_arg0) (ix1 n)) (V (Proc.devRef .tc main_arg1) (ix1 n)) := by
  read_phi_right 12, 3, rd_main_v424 V, main_v423, rd_main_v423 V, 1, ccol_4 V
theorem phicol_13 (n : Fin 2000000) (c : Fin 17) (hc : c.val = 13) :
    after ops V (Proc.devRef .tc main_v424) (ix2 n c) = c_5 (V (Proc.devRef .tc main_arg0) (ix1 n)) (V (Proc.devRef .tc main_arg1) (ix1 n)) := by
  read_phi_right 13, 4, rd_main_v424 V, main_v423, rd_main_v423 V, 1, ccol_5 V
theorem phicol_14 (n : Fin 2000000) (c : Fin 17) (hc : c.val = 14) :
    after ops V (Proc.devRef .tc main_v424) (ix2 n c) = c_6 (V (Proc.devRef .tc main_arg0) (ix1 n)) (V (Proc.devRef .tc main_arg1) (ix1 n)) := by
  read_phi_right 14, 5, rd_main_v424 V, main_v423, rd_main_v423 V, 1, ccol_6 V
theorem phicol_15 (n : Fin 2000000) (c : Fin 17) (hc : c.val = 15) :
    after ops V (Proc.devRef .tc main_v424) (ix2 n c) = c_7 (V (Proc.devRef .tc main_arg0) (ix1 n)) (V (Proc.devRef .tc main_arg1) (ix1 n)) := by
  read_phi_right 15, 6, rd_main_v424 V, main_v423, rd_main_v423 V, 1, ccol_7 V
theorem phicol_16 (n : Fin 2000000) (c : Fin 17) (hc : c.val = 16) :
    after ops V (Proc.devRef .tc main_v424) (ix2 n c) = c_8 (V (Proc.devRef .tc main_arg0) (ix1 n)) (V (Proc.devRef .tc main_arg1) (ix1 n)) := by
  read_phi_right 16, 7, rd_main_v424 V, main_v423, rd_main_v423 V, 1, ccol_8 V

end Cert.ReferenceIdeal.Harm

end
-- ==== Proof.RefValDeg0.lean ====
/- Degree 0 of the reference: the prefactors, the gathered columns, the slice of the azimuthal factors and the power of r, each at an
   entry (n, k); then the 1 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_0 (n : Fin 2000000) (k : Fin 1) : after ops V (Proc.devRef .tc main_v432) (ix2 n k) = w32 0x3ECC422A#32 := by
  read_through [rd_main_v432 V, bcast_rows_apply, rd_main_v431 V, bcast_row_apply, rd_main_cst V]
theorem g_0 (n : Fin 2000000) (k : Fin 1) :
    after ops V (Proc.devRef .tc main_v430) (ix2 n k) = after ops V (Proc.devRef .tc main_v294) (ix2 n ⟨min (after ops V (Proc.devRef .tc main_v429) (ix2 k 0)).toInt.toNat (1 - 1), by omega⟩) :=
  (congrFun (rd_main_v430 V) _).trans (gather_cols_apply (N := 2000000) (M := 1) (W := 1) (by decide) _ _ _ n k)
theorem sl_0 (n : Fin 2000000) (k : Fin 1) :
    after ops V (Proc.devRef .tc main_v434) (ix2 n k) = after ops V (Proc.devRef .tc main_v424) (ix2 n ⟨8 + k.val, by omega⟩) :=
  (congrFun (rd_main_v434 V) _).trans (slice_cols_apply (N := 2000000) (M := 17) (W := 1) 8 _ _ n k _)
theorem pw_0 (n : Fin 2000000) (k : Fin 1) : after ops V (Proc.devRef .tc main_v436) (ix2 n k) = p_0 (V (Proc.devRef .tc main_arg3) (ix1 n)) := by
  read_through [rd_main_v436 V, bcast_col_apply, arr_main_v425 V]
theorem cell_0_0 (n : Fin 2000000) :
    after ops V (Proc.devRef .tc main_v437) (ix2 n ⟨0, by decide⟩) = y_0_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v437 V, hostDivf_apply, rd_main_v435 V, mulf_apply, rd_main_v433 V, mulf_apply, pf_0 V n, g_0 V n, sl_0 V n, pw_0 V n, qcol_0_0 V n, phicol_8 V n _ (by decide)]
theorem val_0 : after ops V (Proc.devRef .tc main_v437) = Y_0 (V (Proc.devRef .tc main_arg0)) (V (Proc.devRef .tc main_arg1)) (V (Proc.devRef .tc main_arg2)) (V (Proc.devRef .tc main_arg3)) := by
  by_columns 1, Y_0_apply, [cell_0_0 V n]

end Cert.ReferenceIdeal.Harm

end
-- ==== Proof.RefValDeg1.lean ====
/- Degree 1 of the reference: the prefactors, the gathered columns, the slice of the azimuthal factors and the power of r, each at an
   entry (n, k); then the 3 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_1 (n : Fin 2000000) (k : Fin 3) : after ops V (Proc.devRef .tc main_v445) (ix2 n k) = w32 (lit0 k) := by
  read_table rd_main_v445 V, rd_main_v444 V, rd_main_cst_1 V, 3, lit0
theorem idx_1 (k : Fin 3) : after ops V (Proc.devRef .tc main_v442) (ix2 k 0) = lit1 k := by
  read_index rd_main_v442 V, rd_main_v441 V, rd_main_c_3 V, rd_main_c_2 V, 3, lit1
theorem gq_1 (n : Fin 2000000) (k : Fin 3) (m : Fin 2) (hm : m.val = min (lit1 k).toInt.toNat (2 - 1)) :
    after ops V (Proc.devRef .tc main_v443) (ix2 n k) = after ops V (Proc.devRef .tc main_v297) (ix2 n m) := by
  read_gather rd_main_v443 V, 2, 3, main_v297, main_v442, idx_1 V k
theorem sl_1 (n : Fin 2000000) (k : Fin 3) :
    after ops V (Proc.devRef .tc main_v447) (ix2 n k) = after ops V (Proc.devRef .tc main_v424) (ix2 n ⟨7 + k.val, by omega⟩) :=
  (congrFun (rd_main_v447 V) _).trans (slice_cols_apply (N := 2000000) (M := 17) (W := 3) 7 _ _ n k _)
theorem pw_1 (n : Fin 2000000) (k : Fin 3) : after ops V (Proc.devRef .tc main_v450) (ix2 n k) = p_1 (V (Proc.devRef .tc main_arg3) (ix1 n)) := by
  read_through [rd_main_v450 V, bcast_cols_apply, rd_main_v449 V, bcast_col_apply, arr_main_v438 V]
theorem cell_1_0 (n : Fin 2000000) :
    after ops V (Proc.devRef .tc main_v451) (ix2 n ⟨0, by decide⟩) = y_1_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v451 V, hostDivf_apply, rd_main_v448 V, mulf_apply, rd_main_v446 V, mulf_apply, pf_1 V n, gq_1 V n _ ⟨1, by decide⟩ (by decide), sl_1 V n, pw_1 V n, qcol_1_1 V n _ rfl, phicol_7 V n _ (by decide)]
theorem cell_1_1 (n : Fin 2000000) :
    after ops V (Proc.devRef .tc main_v451) (ix2 n ⟨1, by decide⟩) = y_1_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v451 V, hostDivf_apply, rd_main_v448 V, mulf_apply, rd_main_v446 V, mulf_apply, pf_1 V n, gq_1 V n _ ⟨0, by decide⟩ (by decide), sl_1 V n, pw_1 V n, qcol_1_0 V n _ rfl, phicol_8 V n _ (by decide)]
theorem cell_1_2 (n : Fin 2000000) :
    after ops V (Proc.devRef .tc main_v451) (ix2 n ⟨2, by decide⟩) = y_1_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v451 V, hostDivf_apply, rd_main_v448 V, mulf_apply, rd_main_v446 V, mulf_apply, pf_1 V n, gq_1 V n _ ⟨1, by decide⟩ (by decide), sl_1 V n, pw_1 V n, qcol_1_1 V n _ rfl, phicol_9 V n _ (by decide)]
theorem val_1 : after ops V (Proc.devRef .tc main_v451) = Y_1 (V (Proc.devRef .tc main_arg0)) (V (Proc.devRef .tc main_arg1)) (V (Proc.devRef .tc main_arg2)) (V (Proc.devRef .tc main_arg3)) := by
  by_columns 3, Y_1_apply, [cell_1_0 V n, cell_1_1 V n, cell_1_2 V n]

end Cert.ReferenceIdeal.Harm

end
-- ==== Proof.RefValDeg2.lean ====
/- Degree 2 of the reference: the prefactors, the gathered columns, the slice of the azimuthal factors and the power of r, each at an
   entry (n, k); then the 5 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_2 (n : Fin 2000000) (k : Fin 5) : after ops V (Proc.devRef .tc main_v459) (ix2 n k) = w32 (lit2 k) := by
  read_table rd_main_v459 V, rd_main_v458 V, rd_main_cst_4 V, 5, lit2
theorem idx_2 (k : Fin 5) : after ops V (Proc.devRef .tc main_v456) (ix2 k 0) = lit3 k := by
  read_index rd_main_v456 V, rd_main_v455 V, rd_main_c_6 V, rd_main_c_5 V, 5, lit3
theorem gq_2 (n : Fin 2000000) (k : Fin 5) (m : Fin 3) (hm : m.val = min (lit3 k).toInt.toNat (3 - 1)) :
    after ops V (Proc.devRef .tc main_v457) (ix2 n k) = after ops V (Proc.devRef .tc main_v301) (ix2 n m) := by
  read_gather rd_main_v457 V, 3, 5, main_v301, main_v456, idx_2 V k
theorem sl_2 (n : Fin 2000000) (k : Fin 5) :
    after ops V (Proc.devRef .tc main_v461) (ix2 n k) = after ops V (Proc.devRef .tc main_v424) (ix2 n ⟨6 + k.val, by omega⟩) :=
  (congrFun (rd_main_v461 V) _).trans (slice_cols_apply (N := 2000000) (M := 17) (W := 5) 6 _ _ n k _)
theorem pw_2 (n : Fin 2000000) (k : Fin 5) : after ops V (Proc.devRef .tc main_v464) (ix2 n k) = p_2 (V (Proc.devRef .tc main_arg3) (ix1 n)) := by
  read_through [rd_main_v464 V, bcast_cols_apply, rd_main_v463 V, bcast_col_apply, arr_main_v452 V]
theorem cell_2_0 (n : Fin 2000000) :
    after ops V (Proc.devRef .tc main_v465) (ix2 n ⟨0, by decide⟩) = y_2_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v465 V, hostDivf_apply, rd_main_v462 V, mulf_apply, rd_main_v460 V, mulf_apply, pf_2 V n, gq_2 V n _ ⟨2, by decide⟩ (by decide), sl_2 V n, pw_2 V n, qcol_2_2 V n _ rfl, phicol_6 V n _ (by decide)]
theorem cell_2_1 (n : Fin 2000000) :
    after ops V (Proc.devRef .tc main_v465) (ix2 n ⟨1, by decide⟩) = y_2_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v465 V, hostDivf_apply, rd_main_v462 V, mulf_apply, rd_main_v460 V, mulf_apply, pf_2 V n, gq_2 V n _ ⟨1, by decide⟩ (by decide), sl_2 V n, pw_2 V n, qcol_2_1 V n _ rfl, phicol_7 V n _ (by decide)]
theorem cell_2_2 (n : Fin 2000000) :
    after ops V (Proc.devRef .tc main_v465) (ix2 n ⟨2, by decide⟩) = y_2_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v465 V, hostDivf_apply, rd_main_v462 V, mulf_apply, rd_main_v460 V, mulf_apply, pf_2 V n, gq_2 V n _ ⟨0, by decide⟩ (by decide), sl_2 V n, pw_2 V n, qcol_2_0 V n _ rfl, phicol_8 V n _ (by decide)]
theorem cell_2_3 (n : Fin 2000000) :
    after ops V (Proc.devRef .tc main_v465) (ix2 n ⟨3, by decide⟩) = y_2_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v465 V, hostDivf_apply, rd_main_v462 V, mulf_apply, rd_main_v460 V, mulf_apply, pf_2 V n, gq_2 V n _ ⟨1, by decide⟩ (by decide), sl_2 V n, pw_2 V n, qcol_2_1 V n _ rfl, phicol_9 V n _ (by decide)]
theorem cell_2_4 (n : Fin 2000000) :
    after ops V (Proc.devRef .tc main_v465) (ix2 n ⟨4, by decide⟩) = y_2_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v465 V, hostDivf_apply, rd_main_v462 V, mulf_apply, rd_main_v460 V, mulf_apply, pf_2 V n, gq_2 V n _ ⟨2, by decide⟩ (by decide), sl_2 V n, pw_2 V n, qcol_2_2 V n _ rfl, phicol_10 V n _ (by decide)]
theorem val_2 : after ops V (Proc.devRef .tc main_v465) = Y_2 (V (Proc.devRef .tc main_arg0)) (V (Proc.devRef .tc main_arg1)) (V (Proc.devRef .tc main_arg2)) (V (Proc.devRef .tc main_arg3)) := by
  by_columns 5, Y_2_apply, [cell_2_0 V n, cell_2_1 V n, cell_2_2 V n, cell_2_3 V n, cell_2_4 V n]

end Cert.ReferenceIdeal.Harm

end
-- ==== Proof.RefValDeg3.lean ====
/- Degree 3 of the reference: the prefactors, the gathered columns, the slice of the azimuthal factors and the power of r, each at an
   entry (n, k); then the 7 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_3 (n : Fin 2000000) (k : Fin 7) : after ops V (Proc.devRef .tc main_v473) (ix2 n k) = w32 (lit4 k) := by
  read_table rd_main_v473 V, rd_main_v472 V, rd_main_cst_7 V, 7, lit4
theorem idx_3 (k : Fin 7) : after ops V (Proc.devRef .tc main_v470) (ix2 k 0) = lit5 k := by
  read_index rd_main_v470 V, rd_main_v469 V, rd_main_c_9 V, rd_main_c_8 V, 7, lit5
theorem gq_3 (n : Fin 2000000) (k : Fin 7) (m : Fin 4) (hm : m.val = min (lit5 k).toInt.toNat (4 - 1)) :
    after ops V (Proc.devRef .tc main_v471) (ix2 n k) = after ops V (Proc.devRef .tc main_v306) (ix2 n m) := by
  read_gather rd_main_v471 V, 4, 7, main_v306, main_v470, idx_3 V k
theorem sl_3 (n : Fin 2000000) (k : Fin 7) :
    after ops V (Proc.devRef .tc main_v475) (ix2 n k) = after ops V (Proc.devRef .tc main_v424) (ix2 n ⟨5 + k.val, by omega⟩) :=
  (congrFun (rd_main_v475 V) _).trans (slice_cols_apply (N := 2000000) (M := 17) (W := 7) 5 _ _ n k _)
theorem pw_3 (n : Fin 2000000) (k : Fin 7) : after ops V (Proc.devRef .tc main_v478) (ix2 n k) = p_3 (V (Proc.devRef .tc main_arg3) (ix1 n)) := by
  read_through [rd_main_v478 V, bcast_cols_apply, rd_main_v477 V, bcast_col_apply, arr_main_v466 V]
theorem cell_3_0 (n : Fin 2000000) :
    after ops V (Proc.devRef .tc main_v479) (ix2 n ⟨0, by decide⟩) = y_3_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨3, by decide⟩ (by decide), sl_3 V n, pw_3 V n, qcol_3_3 V n _ rfl, phicol_5 V n _ (by decide)]
theorem cell_3_1 (n : Fin 2000000) :
    after ops V (Proc.devRef .tc main_v479) (ix2 n ⟨1, by decide⟩) = y_3_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨2, by decide⟩ (by decide), sl_3 V n, pw_3 V n, qcol_3_2 V n _ rfl, phicol_6 V n _ (by decide)]
theorem cell_3_2 (n : Fin 2000000) :
    after ops V (Proc.devRef .tc main_v479) (ix2 n ⟨2, by decide⟩) = y_3_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨1, by decide⟩ (by decide), sl_3 V n, pw_3 V n, qcol_3_1 V n _ rfl, phicol_7 V n _ (by decide)]
theorem cell_3_3 (n : Fin 2000000) :
    after ops V (Proc.devRef .tc main_v479) (ix2 n ⟨3, by decide⟩) = y_3_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨0, by decide⟩ (by decide), sl_3 V n, pw_3 V n, qcol_3_0 V n _ rfl, phicol_8 V n _ (by decide)]
theorem cell_3_4 (n : Fin 2000000) :
    after ops V (Proc.devRef .tc main_v479) (ix2 n ⟨4, by decide⟩) = y_3_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨1, by decide⟩ (by decide), sl_3 V n, pw_3 V n, qcol_3_1 V n _ rfl, phicol_9 V n _ (by decide)]
theorem cell_3_5 (n : Fin 2000000) :
    after ops V (Proc.devRef .tc main_v479) (ix2 n ⟨5, by decide⟩) = y_3_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨2, by decide⟩ (by decide), sl_3 V n, pw_3 V n, qcol_3_2 V n _ rfl, phicol_10 V n _ (by decide)]
theorem cell_3_6 (n : Fin 2000000) :
    after ops V (Proc.devRef .tc main_v479) (ix2 n ⟨6, by decide⟩) = y_3_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v479 V, hostDivf_apply, rd_main_v476 V, mulf_apply, rd_main_v474 V, mulf_apply, pf_3 V n, gq_3 V n _ ⟨3, by decide⟩ (by decide), sl_3 V n, pw_3 V n, qcol_3_3 V n _ rfl, phicol_11 V n _ (by decide)]
theorem val_3 : after ops V (Proc.devRef .tc main_v479) = Y_3 (V (Proc.devRef .tc main_arg0)) (V (Proc.devRef .tc main_arg1)) (V (Proc.devRef .tc main_arg2)) (V (Proc.devRef .tc main_arg3)) := by
  by_columns 7, Y_3_apply, [cell_3_0 V n, cell_3_1 V n, cell_3_2 V n, cell_3_3 V n, cell_3_4 V n, cell_3_5 V n, cell_3_6 V n]

end Cert.ReferenceIdeal.Harm

end
-- ==== Proof.RefValDeg4.lean ====
/- Degree 4 of the reference: the prefactors, the gathered columns, the slice of the azimuthal factors and the power of r, each at an
   entry (n, k); then the 9 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_4 (n : Fin 2000000) (k : Fin 9) : after ops V (Proc.devRef .tc main_v487) (ix2 n k) = w32 (lit6 k) := by
  read_table rd_main_v487 V, rd_main_v486 V, rd_main_cst_10 V, 9, lit6
theorem idx_4 (k : Fin 9) : after ops V (Proc.devRef .tc main_v484) (ix2 k 0) = lit7 k := by
  read_index rd_main_v484 V, rd_main_v483 V, rd_main_c_12 V, rd_main_c_11 V, 9, lit7
theorem gq_4 (n : Fin 2000000) (k : Fin 9) (m : Fin 5) (hm : m.val = min (lit7 k).toInt.toNat (5 - 1)) :
    after ops V (Proc.devRef .tc main_v485) (ix2 n k) = after ops V (Proc.devRef .tc main_v312) (ix2 n m) := by
  read_gather rd_main_v485 V, 5, 9, main_v312, main_v484, idx_4 V k
theorem sl_4 (n : Fin 2000000) (k : Fin 9) :
    after ops V (Proc.devRef .tc main_v489) (ix2 n k) = after ops V (Proc.devRef .tc main_v424) (ix2 n ⟨4 + k.val, by omega⟩) :=
  (congrFun (rd_main_v489 V) _).trans (slice_cols_apply (N := 2000000) (M := 17) (W := 9) 4 _ _ n k _)
theorem pw_4 (n : Fin 2000000) (k : Fin 9) : after ops V (Proc.devRef .tc main_v492) (ix2 n k) = p_4 (V (Proc.devRef .tc main_arg3) (ix1 n)) := by
  read_through [rd_main_v492 V, bcast_cols_apply, rd_main_v491 V, bcast_col_apply, arr_main_v480 V]
theorem cell_4_0 (n : Fin 2000000) :
    after ops V (Proc.devRef .tc main_v493) (ix2 n ⟨0, by decide⟩) = y_4_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨4, by decide⟩ (by decide), sl_4 V n, pw_4 V n, qcol_4_4 V n _ rfl, phicol_4 V n _ (by decide)]
theorem cell_4_1 (n : Fin 2000000) :
    after ops V (Proc.devRef .tc main_v493) (ix2 n ⟨1, by decide⟩) = y_4_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨3, by decide⟩ (by decide), sl_4 V n, pw_4 V n, qcol_4_3 V n _ rfl, phicol_5 V n _ (by decide)]
theorem cell_4_2 (n : Fin 2000000) :
    after ops V (Proc.devRef .tc main_v493) (ix2 n ⟨2, by decide⟩) = y_4_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨2, by decide⟩ (by decide), sl_4 V n, pw_4 V n, qcol_4_2 V n _ rfl, phicol_6 V n _ (by decide)]
theorem cell_4_3 (n : Fin 2000000) :
    after ops V (Proc.devRef .tc main_v493) (ix2 n ⟨3, by decide⟩) = y_4_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨1, by decide⟩ (by decide), sl_4 V n, pw_4 V n, qcol_4_1 V n _ rfl, phicol_7 V n _ (by decide)]
theorem cell_4_4 (n : Fin 2000000) :
    after ops V (Proc.devRef .tc main_v493) (ix2 n ⟨4, by decide⟩) = y_4_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨0, by decide⟩ (by decide), sl_4 V n, pw_4 V n, qcol_4_0 V n _ rfl, phicol_8 V n _ (by decide)]
theorem cell_4_5 (n : Fin 2000000) :
    after ops V (Proc.devRef .tc main_v493) (ix2 n ⟨5, by decide⟩) = y_4_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨1, by decide⟩ (by decide), sl_4 V n, pw_4 V n, qcol_4_1 V n _ rfl, phicol_9 V n _ (by decide)]
theorem cell_4_6 (n : Fin 2000000) :
    after ops V (Proc.devRef .tc main_v493) (ix2 n ⟨6, by decide⟩) = y_4_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨2, by decide⟩ (by decide), sl_4 V n, pw_4 V n, qcol_4_2 V n _ rfl, phicol_10 V n _ (by decide)]
theorem cell_4_7 (n : Fin 2000000) :
    after ops V (Proc.devRef .tc main_v493) (ix2 n ⟨7, by decide⟩) = y_4_7 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨3, by decide⟩ (by decide), sl_4 V n, pw_4 V n, qcol_4_3 V n _ rfl, phicol_11 V n _ (by decide)]
theorem cell_4_8 (n : Fin 2000000) :
    after ops V (Proc.devRef .tc main_v493) (ix2 n ⟨8, by decide⟩) = y_4_8 (V (Proc.devRef .tc main_arg0) (ix1 n)) (V (Proc.devRef .tc main_arg1) (ix1 n)) (V (Proc.devRef .tc main_arg2) (ix1 n)) (V (Proc.devRef .tc main_arg3) (ix1 n)) := by
  read_through [rd_main_v493 V, hostDivf_apply, rd_main_v490 V, mulf_apply, rd_main_v488 V, mulf_apply, pf_4 V n, gq_4 V n _ ⟨4, by decide⟩ (by decide), sl_4 V n, pw_4 V n, qcol_4_4 V n _ rfl, phicol_12 V n _ (by decide)]
theorem val_4 : after ops V (Proc.devRef .tc main_v493) = Y_4 (V (Proc.devRef .tc main_arg0)) (V (Proc.devRef .tc main_arg1)) (V (Proc.devRef .tc main_arg2)) (V (Proc.devRef .tc main_arg3)) := by
  by_columns 9, Y_4_apply, [cell_4_0 V n, cell_4_1 V n, cell_4_2 V n, cell_4_3 V n, cell_4_4 V n, cell_4_5 V n, cell_4_6 V n, cell_4_7 V n, cell_4_8 V n]

end Cert.ReferenceIdeal.Harm

end
-- ==== Proof.RefValDeg5.lean ====
/- Degree 5 of the reference: the prefactors, the gathered columns, the slice of the azimuthal factors and the power of r, each at an
   entry (n, k); then the 11 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_5 (n : Fin 2000000) (k : Fin 11) : after ops V (Proc.devRef .tc main_v501) (ix2 n k) = w32 (lit8 k) := by
  read_table rd_main_v501 V, rd_main_v500 V, rd_main_cst_13 V, 11, lit8
theorem idx_5 (k : Fin 11) : after ops V (Proc.devRef .tc main_v498) (ix2 k 0) = lit9 k := by
  read_index rd_main_v498 V, rd_main_v497 V, rd_main_c_15 V, rd_main_c_14 V, 11, lit9
theorem gq_5 (n : Fin 2000000) (k : Fin 11) (m : Fin 6) (hm : m.val = min (lit9 k).toInt.toNat (6 - 1)) :
    after ops V (Proc.devRef .tc main_v499) (ix2 n k) = after ops V (Proc.devRef .tc main_v319) (ix2 n m) := by
  read_gather rd_main_v499 V, 6, 11, main_v319, main_v498, idx_5 V k
theorem sl_5 (n : Fin 2000000) (k : Fin 11) :
    after ops V (Proc.devRef .tc main_v503) (ix2 n k) = after ops V (Proc.devRef .tc main_v424) (ix2 n ⟨3 + k.val, by omega⟩) :=
  (congrFun (rd_main_v503 V) _).trans (slice_cols_apply (N := 2000000) (M := 17) (W := 11) 3 _ _ n k _)
theorem pw_5 (n : Fin 2000000) (k : Fin 11) : after ops V (Proc.devRef .tc main_v506) (ix2 n k) = p_5 (V (Proc.devRef .tc main_arg3) (ix1 n)) := by
  read_through [rd_main_v506 V, bcast_cols_apply, rd_main_v505 V, bcast_col_apply, arr_main_v494 V]
theorem cell_5_0 (n : Fin 2000000) :
    after ops V (Proc.devRef .tc main_v507) (ix2 n ⟨0, by decide⟩) = y_5_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨5, by decide⟩ (by decide), sl_5 V n, pw_5 V n, qcol_5_5 V n _ rfl, phicol_3 V n _ (by decide)]
theorem cell_5_1 (n : Fin 2000000) :
    after ops V (Proc.devRef .tc main_v507) (ix2 n ⟨1, by decide⟩) = y_5_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨4, by decide⟩ (by decide), sl_5 V n, pw_5 V n, qcol_5_4 V n _ rfl, phicol_4 V n _ (by decide)]
theorem cell_5_2 (n : Fin 2000000) :
    after ops V (Proc.devRef .tc main_v507) (ix2 n ⟨2, by decide⟩) = y_5_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨3, by decide⟩ (by decide), sl_5 V n, pw_5 V n, qcol_5_3 V n _ rfl, phicol_5 V n _ (by decide)]
theorem cell_5_3 (n : Fin 2000000) :
    after ops V (Proc.devRef .tc main_v507) (ix2 n ⟨3, by decide⟩) = y_5_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨2, by decide⟩ (by decide), sl_5 V n, pw_5 V n, qcol_5_2 V n _ rfl, phicol_6 V n _ (by decide)]
theorem cell_5_4 (n : Fin 2000000) :
    after ops V (Proc.devRef .tc main_v507) (ix2 n ⟨4, by decide⟩) = y_5_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨1, by decide⟩ (by decide), sl_5 V n, pw_5 V n, qcol_5_1 V n _ rfl, phicol_7 V n _ (by decide)]
theorem cell_5_5 (n : Fin 2000000) :
    after ops V (Proc.devRef .tc main_v507) (ix2 n ⟨5, by decide⟩) = y_5_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨0, by decide⟩ (by decide), sl_5 V n, pw_5 V n, qcol_5_0 V n _ rfl, phicol_8 V n _ (by decide)]
theorem cell_5_6 (n : Fin 2000000) :
    after ops V (Proc.devRef .tc main_v507) (ix2 n ⟨6, by decide⟩) = y_5_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨1, by decide⟩ (by decide), sl_5 V n, pw_5 V n, qcol_5_1 V n _ rfl, phicol_9 V n _ (by decide)]
theorem cell_5_7 (n : Fin 2000000) :
    after ops V (Proc.devRef .tc main_v507) (ix2 n ⟨7, by decide⟩) = y_5_7 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨2, by decide⟩ (by decide), sl_5 V n, pw_5 V n, qcol_5_2 V n _ rfl, phicol_10 V n _ (by decide)]
theorem cell_5_8 (n : Fin 2000000) :
    after ops V (Proc.devRef .tc main_v507) (ix2 n ⟨8, by decide⟩) = y_5_8 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨3, by decide⟩ (by decide), sl_5 V n, pw_5 V n, qcol_5_3 V n _ rfl, phicol_11 V n _ (by decide)]
theorem cell_5_9 (n : Fin 2000000) :
    after ops V (Proc.devRef .tc main_v507) (ix2 n ⟨9, by decide⟩) = y_5_9 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨4, by decide⟩ (by decide), sl_5 V n, pw_5 V n, qcol_5_4 V n _ rfl, phicol_12 V n _ (by decide)]
theorem cell_5_10 (n : Fin 2000000) :
    after ops V (Proc.devRef .tc main_v507) (ix2 n ⟨10, by decide⟩) = y_5_10 (V (Proc.devRef .tc main_arg0) (ix1 n)) (V (Proc.devRef .tc main_arg1) (ix1 n)) (V (Proc.devRef .tc main_arg2) (ix1 n)) (V (Proc.devRef .tc main_arg3) (ix1 n)) := by
  read_through [rd_main_v507 V, hostDivf_apply, rd_main_v504 V, mulf_apply, rd_main_v502 V, mulf_apply, pf_5 V n, gq_5 V n _ ⟨5, by decide⟩ (by decide), sl_5 V n, pw_5 V n, qcol_5_5 V n _ rfl, phicol_13 V n _ (by decide)]
theorem val_5 : after ops V (Proc.devRef .tc main_v507) = Y_5 (V (Proc.devRef .tc main_arg0)) (V (Proc.devRef .tc main_arg1)) (V (Proc.devRef .tc main_arg2)) (V (Proc.devRef .tc main_arg3)) := by
  by_columns 11, Y_5_apply, [cell_5_0 V n, cell_5_1 V n, cell_5_2 V n, cell_5_3 V n, cell_5_4 V n, cell_5_5 V n, cell_5_6 V n, cell_5_7 V n, cell_5_8 V n, cell_5_9 V n, cell_5_10 V n]

end Cert.ReferenceIdeal.Harm

end
-- ==== Proof.RefValDeg6.lean ====
/- Degree 6 of the reference: the prefactors, the gathered columns, the slice of the azimuthal factors and the power of r, each at an
   entry (n, k); then the 13 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_6 (n : Fin 2000000) (k : Fin 13) : after ops V (Proc.devRef .tc main_v515) (ix2 n k) = w32 (lit10 k) := by
  read_table rd_main_v515 V, rd_main_v514 V, rd_main_cst_16 V, 13, lit10
theorem idx_6 (k : Fin 13) : after ops V (Proc.devRef .tc main_v512) (ix2 k 0) = lit11 k := by
  read_index rd_main_v512 V, rd_main_v511 V, rd_main_c_18 V, rd_main_c_17 V, 13, lit11
theorem gq_6 (n : Fin 2000000) (k : Fin 13) (m : Fin 7) (hm : m.val = min (lit11 k).toInt.toNat (7 - 1)) :
    after ops V (Proc.devRef .tc main_v513) (ix2 n k) = after ops V (Proc.devRef .tc main_v327) (ix2 n m) := by
  read_gather rd_main_v513 V, 7, 13, main_v327, main_v512, idx_6 V k
theorem sl_6 (n : Fin 2000000) (k : Fin 13) :
    after ops V (Proc.devRef .tc main_v517) (ix2 n k) = after ops V (Proc.devRef .tc main_v424) (ix2 n ⟨2 + k.val, by omega⟩) :=
  (congrFun (rd_main_v517 V) _).trans (slice_cols_apply (N := 2000000) (M := 17) (W := 13) 2 _ _ n k _)
theorem pw_6 (n : Fin 2000000) (k : Fin 13) : after ops V (Proc.devRef .tc main_v520) (ix2 n k) = p_6 (V (Proc.devRef .tc main_arg3) (ix1 n)) := by
  read_through [rd_main_v520 V, bcast_cols_apply, rd_main_v519 V, bcast_col_apply, arr_main_v508 V]
theorem cell_6_0 (n : Fin 2000000) :
    after ops V (Proc.devRef .tc main_v521) (ix2 n ⟨0, by decide⟩) = y_6_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨6, by decide⟩ (by decide), sl_6 V n, pw_6 V n, qcol_6_6 V n _ rfl, phicol_2 V n _ (by decide)]
theorem cell_6_1 (n : Fin 2000000) :
    after ops V (Proc.devRef .tc main_v521) (ix2 n ⟨1, by decide⟩) = y_6_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨5, by decide⟩ (by decide), sl_6 V n, pw_6 V n, qcol_6_5 V n _ rfl, phicol_3 V n _ (by decide)]
theorem cell_6_2 (n : Fin 2000000) :
    after ops V (Proc.devRef .tc main_v521) (ix2 n ⟨2, by decide⟩) = y_6_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨4, by decide⟩ (by decide), sl_6 V n, pw_6 V n, qcol_6_4 V n _ rfl, phicol_4 V n _ (by decide)]
theorem cell_6_3 (n : Fin 2000000) :
    after ops V (Proc.devRef .tc main_v521) (ix2 n ⟨3, by decide⟩) = y_6_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨3, by decide⟩ (by decide), sl_6 V n, pw_6 V n, qcol_6_3 V n _ rfl, phicol_5 V n _ (by decide)]
theorem cell_6_4 (n : Fin 2000000) :
    after ops V (Proc.devRef .tc main_v521) (ix2 n ⟨4, by decide⟩) = y_6_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨2, by decide⟩ (by decide), sl_6 V n, pw_6 V n, qcol_6_2 V n _ rfl, phicol_6 V n _ (by decide)]
theorem cell_6_5 (n : Fin 2000000) :
    after ops V (Proc.devRef .tc main_v521) (ix2 n ⟨5, by decide⟩) = y_6_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨1, by decide⟩ (by decide), sl_6 V n, pw_6 V n, qcol_6_1 V n _ rfl, phicol_7 V n _ (by decide)]
theorem cell_6_6 (n : Fin 2000000) :
    after ops V (Proc.devRef .tc main_v521) (ix2 n ⟨6, by decide⟩) = y_6_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨0, by decide⟩ (by decide), sl_6 V n, pw_6 V n, qcol_6_0 V n _ rfl, phicol_8 V n _ (by decide)]
theorem cell_6_7 (n : Fin 2000000) :
    after ops V (Proc.devRef .tc main_v521) (ix2 n ⟨7, by decide⟩) = y_6_7 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨1, by decide⟩ (by decide), sl_6 V n, pw_6 V n, qcol_6_1 V n _ rfl, phicol_9 V n _ (by decide)]
theorem cell_6_8 (n : Fin 2000000) :
    after ops V (Proc.devRef .tc main_v521) (ix2 n ⟨8, by decide⟩) = y_6_8 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨2, by decide⟩ (by decide), sl_6 V n, pw_6 V n, qcol_6_2 V n _ rfl, phicol_10 V n _ (by decide)]
theorem cell_6_9 (n : Fin 2000000) :
    after ops V (Proc.devRef .tc main_v521) (ix2 n ⟨9, by decide⟩) = y_6_9 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨3, by decide⟩ (by decide), sl_6 V n, pw_6 V n, qcol_6_3 V n _ rfl, phicol_11 V n _ (by decide)]
theorem cell_6_10 (n : Fin 2000000) :
    after ops V (Proc.devRef .tc main_v521) (ix2 n ⟨10, by decide⟩) = y_6_10 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨4, by decide⟩ (by decide), sl_6 V n, pw_6 V n, qcol_6_4 V n _ rfl, phicol_12 V n _ (by decide)]
theorem cell_6_11 (n : Fin 2000000) :
    after ops V (Proc.devRef .tc main_v521) (ix2 n ⟨11, by decide⟩) = y_6_11 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨5, by decide⟩ (by decide), sl_6 V n, pw_6 V n, qcol_6_5 V n _ rfl, phicol_13 V n _ (by decide)]
theorem cell_6_12 (n : Fin 2000000) :
    after ops V (Proc.devRef .tc main_v521) (ix2 n ⟨12, by decide⟩) = y_6_12 (V (Proc.devRef .tc main_arg0) (ix1 n)) (V (Proc.devRef .tc main_arg1) (ix1 n)) (V (Proc.devRef .tc main_arg2) (ix1 n)) (V (Proc.devRef .tc main_arg3) (ix1 n)) := by
  read_through [rd_main_v521 V, hostDivf_apply, rd_main_v518 V, mulf_apply, rd_main_v516 V, mulf_apply, pf_6 V n, gq_6 V n _ ⟨6, by decide⟩ (by decide), sl_6 V n, pw_6 V n, qcol_6_6 V n _ rfl, phicol_14 V n _ (by decide)]
theorem val_6 : after ops V (Proc.devRef .tc main_v521) = Y_6 (V (Proc.devRef .tc main_arg0)) (V (Proc.devRef .tc main_arg1)) (V (Proc.devRef .tc main_arg2)) (V (Proc.devRef .tc main_arg3)) := by
  by_columns 13, Y_6_apply, [cell_6_0 V n, cell_6_1 V n, cell_6_2 V n, cell_6_3 V n, cell_6_4 V n, cell_6_5 V n, cell_6_6 V n, cell_6_7 V n, cell_6_8 V n, cell_6_9 V n, cell_6_10 V n, cell_6_11 V n, cell_6_12 V n]

end Cert.ReferenceIdeal.Harm

end
-- ==== Proof.RefValDeg7.lean ====
/- Degree 7 of the reference: the prefactors, the gathered columns, the slice of the azimuthal factors and the power of r, each at an
   entry (n, k); then the 15 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_7 (n : Fin 2000000) (k : Fin 15) : after ops V (Proc.devRef .tc main_v529) (ix2 n k) = w32 (lit12 k) := by
  read_table rd_main_v529 V, rd_main_v528 V, rd_main_cst_19 V, 15, lit12
theorem idx_7 (k : Fin 15) : after ops V (Proc.devRef .tc main_v526) (ix2 k 0) = lit13 k := by
  read_index rd_main_v526 V, rd_main_v525 V, rd_main_c_21 V, rd_main_c_20 V, 15, lit13
theorem gq_7 (n : Fin 2000000) (k : Fin 15) (m : Fin 8) (hm : m.val = min (lit13 k).toInt.toNat (8 - 1)) :
    after ops V (Proc.devRef .tc main_v527) (ix2 n k) = after ops V (Proc.devRef .tc main_v336) (ix2 n m) := by
  read_gather rd_main_v527 V, 8, 15, main_v336, main_v526, idx_7 V k
theorem sl_7 (n : Fin 2000000) (k : Fin 15) :
    after ops V (Proc.devRef .tc main_v531) (ix2 n k) = after ops V (Proc.devRef .tc main_v424) (ix2 n ⟨1 + k.val, by omega⟩) :=
  (congrFun (rd_main_v531 V) _).trans (slice_cols_apply (N := 2000000) (M := 17) (W := 15) 1 _ _ n k _)
theorem pw_7 (n : Fin 2000000) (k : Fin 15) : after ops V (Proc.devRef .tc main_v534) (ix2 n k) = p_7 (V (Proc.devRef .tc main_arg3) (ix1 n)) := by
  read_through [rd_main_v534 V, bcast_cols_apply, rd_main_v533 V, bcast_col_apply, arr_main_v522 V]
theorem cell_7_0 (n : Fin 2000000) :
    after ops V (Proc.devRef .tc main_v535) (ix2 n ⟨0, by decide⟩) = y_7_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨7, by decide⟩ (by decide), sl_7 V n, pw_7 V n, qcol_7_7 V n _ rfl, phicol_1 V n _ (by decide)]
theorem cell_7_1 (n : Fin 2000000) :
    after ops V (Proc.devRef .tc main_v535) (ix2 n ⟨1, by decide⟩) = y_7_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨6, by decide⟩ (by decide), sl_7 V n, pw_7 V n, qcol_7_6 V n _ rfl, phicol_2 V n _ (by decide)]
theorem cell_7_2 (n : Fin 2000000) :
    after ops V (Proc.devRef .tc main_v535) (ix2 n ⟨2, by decide⟩) = y_7_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨5, by decide⟩ (by decide), sl_7 V n, pw_7 V n, qcol_7_5 V n _ rfl, phicol_3 V n _ (by decide)]
theorem cell_7_3 (n : Fin 2000000) :
    after ops V (Proc.devRef .tc main_v535) (ix2 n ⟨3, by decide⟩) = y_7_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨4, by decide⟩ (by decide), sl_7 V n, pw_7 V n, qcol_7_4 V n _ rfl, phicol_4 V n _ (by decide)]
theorem cell_7_4 (n : Fin 2000000) :
    after ops V (Proc.devRef .tc main_v535) (ix2 n ⟨4, by decide⟩) = y_7_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨3, by decide⟩ (by decide), sl_7 V n, pw_7 V n, qcol_7_3 V n _ rfl, phicol_5 V n _ (by decide)]
theorem cell_7_5 (n : Fin 2000000) :
    after ops V (Proc.devRef .tc main_v535) (ix2 n ⟨5, by decide⟩) = y_7_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨2, by decide⟩ (by decide), sl_7 V n, pw_7 V n, qcol_7_2 V n _ rfl, phicol_6 V n _ (by decide)]
theorem cell_7_6 (n : Fin 2000000) :
    after ops V (Proc.devRef .tc main_v535) (ix2 n ⟨6, by decide⟩) = y_7_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨1, by decide⟩ (by decide), sl_7 V n, pw_7 V n, qcol_7_1 V n _ rfl, phicol_7 V n _ (by decide)]
theorem cell_7_7 (n : Fin 2000000) :
    after ops V (Proc.devRef .tc main_v535) (ix2 n ⟨7, by decide⟩) = y_7_7 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨0, by decide⟩ (by decide), sl_7 V n, pw_7 V n, qcol_7_0 V n _ rfl, phicol_8 V n _ (by decide)]
theorem cell_7_8 (n : Fin 2000000) :
    after ops V (Proc.devRef .tc main_v535) (ix2 n ⟨8, by decide⟩) = y_7_8 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨1, by decide⟩ (by decide), sl_7 V n, pw_7 V n, qcol_7_1 V n _ rfl, phicol_9 V n _ (by decide)]
theorem cell_7_9 (n : Fin 2000000) :
    after ops V (Proc.devRef .tc main_v535) (ix2 n ⟨9, by decide⟩) = y_7_9 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨2, by decide⟩ (by decide), sl_7 V n, pw_7 V n, qcol_7_2 V n _ rfl, phicol_10 V n _ (by decide)]
theorem cell_7_10 (n : Fin 2000000) :
    after ops V (Proc.devRef .tc main_v535) (ix2 n ⟨10, by decide⟩) = y_7_10 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨3, by decide⟩ (by decide), sl_7 V n, pw_7 V n, qcol_7_3 V n _ rfl, phicol_11 V n _ (by decide)]
theorem cell_7_11 (n : Fin 2000000) :
    after ops V (Proc.devRef .tc main_v535) (ix2 n ⟨11, by decide⟩) = y_7_11 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨4, by decide⟩ (by decide), sl_7 V n, pw_7 V n, qcol_7_4 V n _ rfl, phicol_12 V n _ (by decide)]
theorem cell_7_12 (n : Fin 2000000) :
    after ops V (Proc.devRef .tc main_v535) (ix2 n ⟨12, by decide⟩) = y_7_12 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨5, by decide⟩ (by decide), sl_7 V n, pw_7 V n, qcol_7_5 V n _ rfl, phicol_13 V n _ (by decide)]
theorem cell_7_13 (n : Fin 2000000) :
    after ops V (Proc.devRef .tc main_v535) (ix2 n ⟨13, by decide⟩) = y_7_13 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨6, by decide⟩ (by decide), sl_7 V n, pw_7 V n, qcol_7_6 V n _ rfl, phicol_14 V n _ (by decide)]
theorem cell_7_14 (n : Fin 2000000) :
    after ops V (Proc.devRef .tc main_v535) (ix2 n ⟨14, by decide⟩) = y_7_14 (V (Proc.devRef .tc main_arg0) (ix1 n)) (V (Proc.devRef .tc main_arg1) (ix1 n)) (V (Proc.devRef .tc main_arg2) (ix1 n)) (V (Proc.devRef .tc main_arg3) (ix1 n)) := by
  read_through [rd_main_v535 V, hostDivf_apply, rd_main_v532 V, mulf_apply, rd_main_v530 V, mulf_apply, pf_7 V n, gq_7 V n _ ⟨7, by decide⟩ (by decide), sl_7 V n, pw_7 V n, qcol_7_7 V n _ rfl, phicol_15 V n _ (by decide)]
theorem val_7 : after ops V (Proc.devRef .tc main_v535) = Y_7 (V (Proc.devRef .tc main_arg0)) (V (Proc.devRef .tc main_arg1)) (V (Proc.devRef .tc main_arg2)) (V (Proc.devRef .tc main_arg3)) := by
  by_columns 15, Y_7_apply, [cell_7_0 V n, cell_7_1 V n, cell_7_2 V n, cell_7_3 V n, cell_7_4 V n, cell_7_5 V n, cell_7_6 V n, cell_7_7 V n, cell_7_8 V n, cell_7_9 V n, cell_7_10 V n, cell_7_11 V n, cell_7_12 V n, cell_7_13 V n, cell_7_14 V n]

end Cert.ReferenceIdeal.Harm

end
-- ==== Proof.RefValDeg8.lean ====
/- Degree 8 of the reference: the prefactors, the gathered columns, the slice of the azimuthal factors and the power of r, each at an
   entry (n, k); then the 17 columns' values, one lemma each, and the result array as the specification's. -/
import proofs.«118161_j37666863186375_1_alg».proof.Proof.RefValColsQ
import proofs.«118161_j37666863186375_1_alg».proof.Proof.RefValColsP

noncomputable section

namespace Cert.ReferenceIdeal.Harm

open Cert.ReferenceIdeal Cert.ReferenceIdeal.Gen Cert.ReferenceIdeal.Line Idealize.ShloMosaic Idealize.ShloMosaic.TcCoe Idealize.SL.Sem Idealize.ShloMosaic.StableHlo Idealize.ShloMosaic.ValueIdx Cert.Harmonics Cert.RefLayout

variable (V : Valuation τ sig (Elt Ideal))

theorem pf_8 (n : Fin 2000000) (k : Fin 17) : after ops V (Proc.devRef .tc main_v543) (ix2 n k) = w32 (lit14 k) := by
  read_table rd_main_v543 V, rd_main_v542 V, rd_main_cst_22 V, 17, lit14
theorem idx_8 (k : Fin 17) : after ops V (Proc.devRef .tc main_v540) (ix2 k 0) = lit15 k := by
  read_index rd_main_v540 V, rd_main_v539 V, rd_main_c_24 V, rd_main_c_23 V, 17, lit15
theorem gq_8 (n : Fin 2000000) (k : Fin 17) (m : Fin 9) (hm : m.val = min (lit15 k).toInt.toNat (9 - 1)) :
    after ops V (Proc.devRef .tc main_v541) (ix2 n k) = after ops V (Proc.devRef .tc main_v346) (ix2 n m) := by
  read_gather rd_main_v541 V, 9, 17, main_v346, main_v540, idx_8 V k
theorem pw_8 (n : Fin 2000000) (k : Fin 17) : after ops V (Proc.devRef .tc main_v547) (ix2 n k) = p_8 (V (Proc.devRef .tc main_arg3) (ix1 n)) := by
  read_through [rd_main_v547 V, bcast_cols_apply, rd_main_v546 V, bcast_col_apply, arr_main_v536 V]
theorem cell_8_0 (n : Fin 2000000) :
    after ops V (Proc.devRef .tc main_v548) (ix2 n ⟨0, by decide⟩) = y_8_0 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨8, by decide⟩ (by decide), pw_8 V n, qcol_8_8 V n _ rfl, phicol_0 V n _ (by decide)]
theorem cell_8_1 (n : Fin 2000000) :
    after ops V (Proc.devRef .tc main_v548) (ix2 n ⟨1, by decide⟩) = y_8_1 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨7, by decide⟩ (by decide), pw_8 V n, qcol_8_7 V n _ rfl, phicol_1 V n _ (by decide)]
theorem cell_8_2 (n : Fin 2000000) :
    after ops V (Proc.devRef .tc main_v548) (ix2 n ⟨2, by decide⟩) = y_8_2 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨6, by decide⟩ (by decide), pw_8 V n, qcol_8_6 V n _ rfl, phicol_2 V n _ (by decide)]
theorem cell_8_3 (n : Fin 2000000) :
    after ops V (Proc.devRef .tc main_v548) (ix2 n ⟨3, by decide⟩) = y_8_3 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨5, by decide⟩ (by decide), pw_8 V n, qcol_8_5 V n _ rfl, phicol_3 V n _ (by decide)]
theorem cell_8_4 (n : Fin 2000000) :
    after ops V (Proc.devRef .tc main_v548) (ix2 n ⟨4, by decide⟩) = y_8_4 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨4, by decide⟩ (by decide), pw_8 V n, qcol_8_4 V n _ rfl, phicol_4 V n _ (by decide)]
theorem cell_8_5 (n : Fin 2000000) :
    after ops V (Proc.devRef .tc main_v548) (ix2 n ⟨5, by decide⟩) = y_8_5 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨3, by decide⟩ (by decide), pw_8 V n, qcol_8_3 V n _ rfl, phicol_5 V n _ (by decide)]
theorem cell_8_6 (n : Fin 2000000) :
    after ops V (Proc.devRef .tc main_v548) (ix2 n ⟨6, by decide⟩) = y_8_6 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨2, by decide⟩ (by decide), pw_8 V n, qcol_8_2 V n _ rfl, phicol_6 V n _ (by decide)]
theorem cell_8_7 (n : Fin 2000000) :
    after ops V (Proc.devRef .tc main_v548) (ix2 n ⟨7, by decide⟩) = y_8_7 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨1, by decide⟩ (by decide), pw_8 V n, qcol_8_1 V n _ rfl, phicol_7 V n _ (by decide)]
theorem cell_8_8 (n : Fin 2000000) :
    after ops V (Proc.devRef .tc main_v548) (ix2 n ⟨8, by decide⟩) = y_8_8 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨0, by decide⟩ (by decide), pw_8 V n, qcol_8_0 V n _ rfl, phicol_8 V n _ (by decide)]
theorem cell_8_9 (n : Fin 2000000) :
    after ops V (Proc.devRef .tc main_v548) (ix2 n ⟨9, by decide⟩) = y_8_9 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨1, by decide⟩ (by decide), pw_8 V n, qcol_8_1 V n _ rfl, phicol_9 V n _ (by decide)]
theorem cell_8_10 (n : Fin 2000000) :
    after ops V (Proc.devRef .tc main_v548) (ix2 n ⟨10, by decide⟩) = y_8_10 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨2, by decide⟩ (by decide), pw_8 V n, qcol_8_2 V n _ rfl, phicol_10 V n _ (by decide)]
theorem cell_8_11 (n : Fin 2000000) :
    after ops V (Proc.devRef .tc main_v548) (ix2 n ⟨11, by decide⟩) = y_8_11 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨3, by decide⟩ (by decide), pw_8 V n, qcol_8_3 V n _ rfl, phicol_11 V n _ (by decide)]
theorem cell_8_12 (n : Fin 2000000) :
    after ops V (Proc.devRef .tc main_v548) (ix2 n ⟨12, by decide⟩) = y_8_12 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨4, by decide⟩ (by decide), pw_8 V n, qcol_8_4 V n _ rfl, phicol_12 V n _ (by decide)]
theorem cell_8_13 (n : Fin 2000000) :
    after ops V (Proc.devRef .tc main_v548) (ix2 n ⟨13, by decide⟩) = y_8_13 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨5, by decide⟩ (by decide), pw_8 V n, qcol_8_5 V n _ rfl, phicol_13 V n _ (by decide)]
theorem cell_8_14 (n : Fin 2000000) :
    after ops V (Proc.devRef .tc main_v548) (ix2 n ⟨14, by decide⟩) = y_8_14 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨6, by decide⟩ (by decide), pw_8 V n, qcol_8_6 V n _ rfl, phicol_14 V n _ (by decide)]
theorem cell_8_15 (n : Fin 2000000) :
    after ops V (Proc.devRef .tc main_v548) (ix2 n ⟨15, by decide⟩) = y_8_15 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨7, by decide⟩ (by decide), pw_8 V n, qcol_8_7 V n _ rfl, phicol_15 V n _ (by decide)]
theorem cell_8_16 (n : Fin 2000000) :
    after ops V (Proc.devRef .tc main_v548) (ix2 n ⟨16, by decide⟩) = y_8_16 (V (Proc.devRef .tc main_arg0) (ix1 n)) (V (Proc.devRef .tc main_arg1) (ix1 n)) (V (Proc.devRef .tc main_arg2) (ix1 n)) (V (Proc.devRef .tc main_arg3) (ix1 n)) := by
  read_through [rd_main_v548 V, hostDivf_apply, rd_main_v545 V, mulf_apply, rd_main_v544 V, mulf_apply, pf_8 V n, gq_8 V n _ ⟨8, by decide⟩ (by decide), pw_8 V n, qcol_8_8 V n _ rfl, phicol_16 V n _ (by decide)]
theorem val_8 : after ops V (Proc.devRef .tc main_v548) = Y_8 (V (Proc.devRef .tc main_arg0)) (V (Proc.devRef .tc main_arg1)) (V (Proc.devRef .tc main_arg2)) (V (Proc.devRef .tc main_arg3)) := by
  by_columns 17, Y_8_apply, [cell_8_0 V n, cell_8_1 V n, cell_8_2 V n, cell_8_3 V n, cell_8_4 V n, cell_8_5 V n, cell_8_6 V n, cell_8_7 V n, cell_8_8 V n, cell_8_9 V n, cell_8_10 V n, cell_8_11 V n, cell_8_12 V n, cell_8_13 V n, cell_8_14 V n, cell_8_15 V n, cell_8_16 V n]

end Cert.ReferenceIdeal.Harm

end
-- ==== Proof.RefValue.lean ====
/-
  The reference's run and its results. Every weakly fair execution of the reference terminates with every buffer at what the
  straight line of its operations leaves there from the launch contents; what the line leaves in the nine result buffers is,
  degree by degree, the specification's array of the four argument arrays, and the arguments are never written.
-/
import proofs.«118161_j37666863186375_1_alg».proof.Proof.RefValDeg0
import proofs.«118161_j37666863186375_1_alg».proof.Proof.RefValDeg1
import proofs.«118161_j37666863186375_1_alg».proof.Proof.RefValDeg2
import proofs.«118161_j37666863186375_1_alg».proof.Proof.RefValDeg3
import proofs.«118161_j37666863186375_1_alg».proof.Proof.RefValDeg4
import proofs.«118161_j37666863186375_1_alg».proof.Proof.RefValDeg5
import proofs.«118161_j37666863186375_1_alg».proof.Proof.RefValDeg6
import proofs.«118161_j37666863186375_1_alg».proof.Proof.RefValDeg7
import proofs.«118161_j37666863186375_1_alg».proof.Proof.RefValDeg8

noncomputable section

namespace Cert.ReferenceIdeal.Harm

open Idealize.ShloMosaic Idealize.ShloMosaic.TcCoe Idealize.SL.Sem

/-- The reference ends with the nine specified arrays in its results and its four arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v437) = Cert.Harmonics.Y_0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v451) = Cert.Harmonics.Y_1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v465) = Cert.Harmonics.Y_2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v479) = Cert.Harmonics.Y_3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v493) = Cert.Harmonics.Y_4 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v507) = Cert.Harmonics.Y_5 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v521) = Cert.Harmonics.Y_6 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v535) = Cert.Harmonics.Y_7 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v548) = Cert.Harmonics.Y_8 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c =>
    ⟨(h c Cert.ReferenceIdeal.main_v437).trans (val_0 _),
     (h c Cert.ReferenceIdeal.main_v451).trans (val_1 _),
     (h c Cert.ReferenceIdeal.main_v465).trans (val_2 _),
     (h c Cert.ReferenceIdeal.main_v479).trans (val_3 _),
     (h c Cert.ReferenceIdeal.main_v493).trans (val_4 _),
     (h c Cert.ReferenceIdeal.main_v507).trans (val_5 _),
     (h c Cert.ReferenceIdeal.main_v521).trans (val_6 _),
     (h c Cert.ReferenceIdeal.main_v535).trans (val_7 _),
     (h c Cert.ReferenceIdeal.main_v548).trans (val_8 _),
     (h c Cert.ReferenceIdeal.main_arg0).trans (Cert.ReferenceIdeal.Line.rd_main_arg0 _),
     (h c Cert.ReferenceIdeal.main_arg1).trans (Cert.ReferenceIdeal.Line.rd_main_arg1 _),
     (h c Cert.ReferenceIdeal.main_arg2).trans (Cert.ReferenceIdeal.Line.rd_main_arg2 _),
     (h c Cert.ReferenceIdeal.main_arg3).trans (Cert.ReferenceIdeal.Line.rd_main_arg3 _)⟩)
    (Cert.ReferenceIdeal.Line.run_after m ρ)

end Cert.ReferenceIdeal.Harm

end
-- ==== Proof.lean ====
/- The angular part of the real spherical harmonics up to degree 8 at 2,000,000 points: the kernel against its reference.

   Both programs compute, for each point (x, y, z) at distance r, each degree l ≤ 8 and each order m, the value
   pref(l,m) · q(l,|m|)(z,r) · φ(m)(x,y) / r^l — q the modified associated Legendre recurrence, φ the real or imaginary part of
   (x + iy)^|m| (or 2^(-1/2) at order 0) — with the same single-precision constants and the same order and grouping of the
   operations; they differ only in layout. The kernel works on the points laid out as rows of 128, 200 rows to a block, all 81
   values of a block of points at once, and re-lays the result afterwards; the reference works on whole arrays, stacks the
   recurrence values into tables, and gathers each degree's columns from them. At the extended reals every operation is exact,
   so each program's result, read at an index, IS the specification's value there (Proof/Spec.lean): the kernel's by
   Proof/KernelRun.lean, the reference's by Proof/RefValue.lean. The two meet at the specification; no algebraic law is used,
   and the precondition (finite inputs) is not needed.

   The frames of the two kernel programs are the generated ones; the reference's frame is its run with the results dropped.
   The idealization rewrote nothing, so the kernel's idealization is its own text read at the extended reals. -/
import proofs.«118161_j37666863186375_1_alg».proof.Defs
import proofs.«118161_j37666863186375_1_alg».proof.Proof.Gen.Kernel
import proofs.«118161_j37666863186375_1_alg».proof.Proof.Gen.Kernel.Frame
import proofs.«118161_j37666863186375_1_alg».proof.Proof.Gen.KernelIdeal
import proofs.«118161_j37666863186375_1_alg».proof.Proof.Gen.KernelIdeal.Frame
import proofs.«118161_j37666863186375_1_alg».proof.Proof.Gen.ReferenceIdeal
import proofs.«118161_j37666863186375_1_alg».proof.Proof.Gen.Pre_finite_inputs
import proofs.«118161_j37666863186375_1_alg».proof.Proof.KernelRun
import proofs.«118161_j37666863186375_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged: the last four conjuncts of its value run. -/
theorem frame_ri : Cert.frame_ReferenceIdeal := fun m ρ _ =>
  (θ_run Cert.ReferenceIdeal.defs _ _).mono (fun _ h c => (h c).2.2.2.2.2.2.2.2.2) (Cert.ReferenceIdeal.Harm.run m ρ)

/-- From memories that agree on the four coordinate arrays both programs end with each degree's array at the
    specification's array of those coordinates. -/
theorem algebraic : Cert.algebraic_KernelIdeal_ReferenceIdeal := by
  intro m ρ m' ρ' _ hagree
  refine ⟨_, _, _, _, _, _, _, _, _, Cert.KernelIdeal.Harm.run m ρ, ?_⟩
  refine (θ_run Cert.ReferenceIdeal.defs _ _).mono (fun _ h c => ?_) (Cert.ReferenceIdeal.Harm.run m' ρ')
  rw [← (hagree c).1, ← (hagree c).2.1, ← (hagree c).2.2.1, ← (hagree c).2.2.2]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
